-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1x128x10000x1 : Shape := ⟨4, ![1, 128, 10000, 1]⟩
abbrev S2x1x10000x16 : Shape := ⟨4, ![2, 1, 10000, 16]⟩
abbrev S1x10000x3 : Shape := ⟨3, ![1, 10000, 3]⟩
abbrev S1x10000x16 : Shape := ⟨3, ![1, 10000, 16]⟩
abbrev S128x256 : Shape := ⟨2, ![128, 256]⟩
abbrev S128 : Shape := ⟨1, ![128]⟩
abbrev S1x16 : Shape := ⟨2, ![1, 16]⟩
abbrev S1 : Shape := ⟨1, ![1]⟩
abbrev S_ : Shape := ⟨0, ![]⟩

class Facts : Prop where
  bcast_S_S1x128x10000x1 : S_.BroadcastsInDim S1x128x10000x1 (![] : Fin 0 → Fin S1x128x10000x1.rank)
  reducesTo_S1x128x10000x1_S_d0_1_2_3 : S1x128x10000x1.ReducesTo [0, 1, 2, 3] S_
  h_S_ : 0 < S_.numel
  bcast_S_S1x10000x3 : S_.BroadcastsInDim S1x10000x3 (![] : Fin 0 → Fin S1x10000x3.rank)
  reducesTo_S1x10000x3_S_d0_1_2 : S1x10000x3.ReducesTo [0, 1, 2] S_
  bcast_S_S1x10000x16 : S_.BroadcastsInDim S1x10000x16 (![] : Fin 0 → Fin S1x10000x16.rank)
  reducesTo_S1x10000x16_S_d0_1_2 : S1x10000x16.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_
  bcast_S_S2x1x10000x16 : S_.BroadcastsInDim S2x1x10000x16 (![] : Fin 0 → Fin S2x1x10000x16.rank)
  reducesTo_S2x1x10000x16_S_d0_1_2_3 : S2x1x10000x16.ReducesTo [0, 1, 2, 3] S_

variable [Facts]

def fn_part2 {F : FTy → Type} [FloatOps F] (main_arg1 : IVec S2x1x10000x16 32) (main_v33 : IVec S_ 1) : IVec S_ 1 :=
  let main_c_12 : IVec S_ 32 := constantI S_ 32 0#32
  let main_v34 : IVec S2x1x10000x16 32 := broadcastInDim S2x1x10000x16 ![] bcast_S_S2x1x10000x16 main_c_12
  let main_v35 : IVec S2x1x10000x16 1 := cmpi .sge main_arg1 main_v34
  let main_c_13 : IVec S_ 32 := constantI S_ 32 9999#32
  let main_v36 : IVec S2x1x10000x16 32 := broadcastInDim S2x1x10000x16 ![] bcast_S_S2x1x10000x16 main_c_13
  let main_v37 : IVec S2x1x10000x16 1 := cmpi .sle main_arg1 main_v36
  let main_v38 : IVec S2x1x10000x16 1 := andi main_v35 main_v37
  let main_c_14 : IVec S_ 1 := constantI S_ 1 1#1
  let main_v39 : IVec S_ 1 := (fun x v => Host.reduce IntOp.andi x v reducesTo_S2x1x10000x16_S_d0_1_2_3 h_S_) main_v38 main_c_14
  let main_v40 : IVec S_ 1 := andi main_v33 main_v39
  main_v40

def fn_part1 {F : FTy → Type} [FloatOps F] (main_arg1 : IVec S2x1x10000x16 32) (main_arg5 : FVec F S128 .f32) (main_arg6 : FVec F S1x16 .f32) (main_arg7 : FVec F S1 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1x16 .f32 := Host.absf main_arg6
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S1x128x10000x1 .f32) (main_arg1 : IVec S2x1x10000x16 32) (main_arg2 : FVec F S1x10000x3 .f32) (main_arg3 : FVec F S1x10000x16 .f32) (main_arg4 : FVec F S128x256 .f32) (main_arg5 : FVec F S128 .f32) (main_arg6 : FVec F S1x16 .f32) (main_arg7 : FVec F S1 .f32) : IVec S_ 1 :=
  let main_v0 : FVec F S1x128x10000x1 .f32 := Host.absf main_arg0
  let main_cst : FVec F S_ .f32 := constant S_ .f32 0x7F800000#32
  let main_v1 : FVec F S1x128x10000x1 .f32 := broadcastInDim S1x128x10000x1 ![] bcast_S_S1x128x10000x1 main_cst
  let main_v2 : IVec S1x128x10000x1 1 := cmpf .olt main_v0 main_v1
  let main_c : IVec S_ 1 := constantI S_ 1 1#1
  let main_v3 : IVec S_ 1 := (fun x v => Host.reduce IntOp.andi x v reducesTo_S1x128x10000x1_S_d0_1_2_3 h_S_) main_v2 main_c
  let main_v4 : FVec F S1x10000x3 .f32 := Host.absf main_arg2
  let main_cst_0 : FVec F S_ .f32 := constant S_ .f32 0x7F800000#32
  let main_v5 : FVec F S1x10000x3 .f32 := broadcastInDim S1x10000x3 ![] bcast_S_S1x10000x3 main_cst_0
  let main_v6 : IVec S1x10000x3 1 := cmpf .olt main_v4 main_v5
  let main_c_1 : IVec S_ 1 := constantI S_ 1 1#1
  let main_v7 : IVec S_ 1 := (fun x v => Host.reduce IntOp.andi x v reducesTo_S1x10000x3_S_d0_1_2 h_S_) main_v6 main_c_1
  let main_v8 : IVec S_ 1 := andi main_v3 main_v7
  let main_v9 : FVec F S1x10000x16 .f32 := Host.absf main_arg3
  let main_cst_2 : FVec F S_ .f32 := constant S_ .f32 0x7F800000#32
  let main_v10 : FVec F S1x10000x16 .f32 := broadcastInDim S1x10000x16 ![] bcast_S_S1x10000x16 main_cst_2
  let main_v11 : IVec S1x10000x16 1 := cmpf .olt main_v9 main_v10
  let main_c_3 : IVec S_ 1 := constantI S_ 1 1#1
  let main_v12 : IVec S_ 1 := (fun x v => Host.reduce IntOp.andi x v reducesTo_S1x10000x16_S_d0_1_2 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg5 main_arg6 main_arg7 main_v13 main_v16
-- ==== Kernel.lean ====
abbrev S1x128x10000x1 : Shape := ⟨4, ![1, 128, 10000, 1]⟩
abbrev S2x1x10000x16 : Shape := ⟨4, ![2, 1, 10000, 16]⟩
abbrev S1x10000x3 : Shape := ⟨3, ![1, 10000, 3]⟩
abbrev S1x10000x16 : Shape := ⟨3, ![1, 10000, 16]⟩
abbrev S128x256 : Shape := ⟨2, ![128, 256]⟩
abbrev S128 : Shape := ⟨1, ![128]⟩
abbrev S1x16 : Shape := ⟨2, ![1, 16]⟩
abbrev S1 : Shape := ⟨1, ![1]⟩
abbrev S128x10000 : Shape := ⟨2, ![128, 10000]⟩
abbrev S_ : Shape := ⟨0, ![]⟩
abbrev S128x10240 : Shape := ⟨2, ![128, 10240]⟩
abbrev S10000x16 : Shape := ⟨2, ![10000, 16]⟩
abbrev S10240x16 : Shape := ⟨2, ![10240, 16]⟩
abbrev S128x128 : Shape := ⟨2, ![128, 128]⟩
abbrev S1x128 : Shape := ⟨2, ![1, 128]⟩
abbrev S1x1 : Shape := ⟨2, ![1, 1]⟩
abbrev S10240x128 : Shape := ⟨2, ![10240, 128]⟩
abbrev S128x512 : Shape := ⟨2, ![128, 512]⟩
abbrev S512x16 : Shape := ⟨2, ![512, 16]⟩
abbrev S512x128 : Shape := ⟨2, ![512, 128]⟩
abbrev S512 : Shape := ⟨1, ![512]⟩
abbrev S512x1 : Shape := ⟨2, ![512, 1]⟩
abbrev S2x160000 : Shape := ⟨2, ![2, 160000]⟩
abbrev S2x163840 : Shape := ⟨2, ![2, 163840]⟩
abbrev S1x163840 : Shape := ⟨2, ![1, 163840]⟩
abbrev S163840 : Shape := ⟨1, ![163840]⟩
abbrev S5120 : Shape := ⟨1, ![5120]⟩
abbrev S256x128 : Shape := ⟨2, ![256, 128]⟩
abbrev S320x128 : Shape := ⟨2, ![320, 128]⟩
abbrev S64x128 : Shape := ⟨2, ![64, 128]⟩
abbrev S64 : Shape := ⟨1, ![64]⟩
abbrev S16 : Shape := ⟨1, ![16]⟩
abbrev S10000x128 : Shape := ⟨2, ![10000, 128]⟩

abbrev nBuf : Table → Nat
  | .hbm => 38
  | .local .tc .vmem => 15
  | .local .scVector .vmem => 6
  | _ => 0

abbrev bufTy : (tb : Table) → Fin (nBuf tb) → BufTy
  | .hbm, ⟨0, _⟩ => ⟨S1x128x10000x1, .f32⟩
  | .hbm, ⟨1, _⟩ => ⟨S2x1x10000x16, .i32⟩
  | .hbm, ⟨2, _⟩ => ⟨S1x10000x3, .f32⟩
  | .hbm, ⟨3, _⟩ => ⟨S1x10000x16, .f32⟩
  | .hbm, ⟨4, _⟩ => ⟨S128x256, .f32⟩
  | .hbm, ⟨5, _⟩ => ⟨S128, .f32⟩
  | .hbm, ⟨6, _⟩ => ⟨S1x16, .f32⟩
  | .hbm, ⟨7, _⟩ => ⟨S1, .f32⟩
  | .hbm, ⟨8, _⟩ => ⟨S128x10000, .f32⟩
  | .hbm, ⟨9, _⟩ => ⟨S_, .i32⟩
  | .hbm, ⟨10, _⟩ => ⟨S_, .f32⟩
  | .hbm, ⟨11, _⟩ => ⟨S128x10240, .f32⟩
  | .hbm, ⟨12, _⟩ => ⟨S10000x16, .f32⟩
  | .hbm, ⟨13, _⟩ => ⟨S_, .i32⟩
  | .hbm, ⟨14, _⟩ => ⟨S_, .f32⟩
  | .hbm, ⟨15, _⟩ => ⟨S10240x16, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S1x128, .f32⟩
  | .hbm, ⟨21, _⟩ => ⟨S1x1, .f32⟩
  | .hbm, ⟨22, _⟩ => ⟨S10240x128, .f32⟩
  | .hbm, ⟨23, _⟩ => ⟨S10240x128, .f32⟩
  | .hbm, ⟨24, _⟩ => ⟨S10240x16, .f32⟩
  | .hbm, ⟨25, _⟩ => ⟨S2x160000, .i32⟩
  | .hbm, ⟨26, _⟩ => ⟨S_, .i32⟩
  | .hbm, ⟨27, _⟩ => ⟨S_, .i32⟩
  | .hbm, ⟨28, _⟩ => ⟨S2x163840, .i32⟩
  | .hbm, ⟨29, _⟩ => ⟨S1x163840, .i32⟩
  | .hbm, ⟨30, _⟩ => ⟨S163840, .i32⟩
  | .hbm, ⟨31, _⟩ => ⟨S1x163840, .i32⟩
  | .hbm, ⟨32, _⟩ => ⟨S163840, .i32⟩
  | .hbm, ⟨33, _⟩ => ⟨S163840, .f32⟩
  | .hbm, ⟨34, _⟩ => ⟨S10240x128, .f32⟩
  | .hbm, ⟨35, _⟩ => ⟨S10000x128, .f32⟩
  | .hbm, ⟨36, _⟩ => ⟨S128x10000, .f32⟩
  | .hbm, ⟨37, _⟩ => ⟨S1x128x10000x1, .f32⟩
  | .local .tc .vmem, ⟨0, _⟩ => ⟨S128x512, .f32⟩
  | .local .tc .vmem, ⟨1, _⟩ => ⟨S128x512, .f32⟩
  | .local .tc .vmem, ⟨2, _⟩ => ⟨S512x16, .f32⟩
  | .local .tc .vmem, ⟨3, _⟩ => ⟨S512x16, .f32⟩
  | .local .tc .vmem, ⟨4, _⟩ => ⟨S128x128, .f32⟩
  | .local .tc .vmem, ⟨5, _⟩ => ⟨S128x128, .f32⟩
  | .local .tc .vmem, ⟨6, _⟩ => ⟨S1x128, .f32⟩
  | .local .tc .vmem, ⟨7, _⟩ => ⟨S1x16, .f32⟩
  | .local .tc .vmem, ⟨8, _⟩ => ⟨S1x1, .f32⟩
  | .local .tc .vmem, ⟨9, _⟩ => ⟨S512x128, .f32⟩
  | .local .tc .vmem, ⟨10, _⟩ => ⟨S512x128, .f32⟩
  | .local .tc .vmem, ⟨11, _⟩ => ⟨S512x128, .f32⟩
  | .local .tc .vmem, ⟨12, _⟩ => ⟨S512x128, .f32⟩
  | .local .tc .vmem, ⟨13, _⟩ => ⟨S512x16, .f32⟩
  | .local .tc .vmem, ⟨14, _⟩ => ⟨S512x16, .f32⟩
  | .local .scVector .vmem, ⟨0, _⟩ => ⟨S5120, .i32⟩
  | .local .scVector .vmem, ⟨1, _⟩ => ⟨S5120, .i32⟩
  | .local .scVector .vmem, ⟨2, _⟩ => ⟨S5120, .f32⟩
  | .local .scVector .vmem, ⟨3, _⟩ => ⟨S256x128, .f32⟩
  | .local .scVector .vmem, ⟨4, _⟩ => ⟨S256x128, .f32⟩
  | .local .scVector .vmem, ⟨5, _⟩ => ⟨S320x128, .f32⟩
  | _, _ => ⟨S1x128x10000x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v11 : Ref sig .tc := ⟨.hbm, 25, rfl⟩
abbrev main_c_1 : Ref sig .tc := ⟨.hbm, 26, rfl⟩
abbrev main_call2_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v10_0_scv : Ref sig .scVector := ⟨.hbm, 22, rfl⟩
abbrev main_v10_1_scv : Ref sig .scVector := ⟨.hbm, 23, rfl⟩
abbrev main_v14_scv : Ref sig .scVector := ⟨.hbm, 30, rfl⟩
abbrev main_v16_scv : Ref sig .scVector := ⟨.hbm, 32, rfl⟩
abbrev main_v17_scv : Ref sig .scVector := ⟨.hbm, 33, rfl⟩
abbrev main_v18_scv : Ref sig .scVector := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5120_i32 : BitVec 32 := 5120#32
  let v2 : BitVec 32 := Scalar.muli v1 c5120_i32
  ![v2.toNat]
@[reducible] def k1_t1_loop : Scf.Loop 32 :=
  let c0_i32_18 : BitVec 32 := 0#32
  let c20_i32 : BitVec 32 := 20#32
  let v16 : BitVec 32 := Scalar.addi c0_i32_18 c20_i32
  let c1_i32 : BitVec 32 := 1#32
  ⟨c0_i32_18, v16, c1_i32⟩
def k1_cond1 (k1_t1 : Fin k1_t1_loop.trips) : BitVec 1 :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c0_i32_22 : BitVec 32 := 0#32
  let v19 : BitVec 32 := Scalar.addi v18 c0_i32_22
  let c1_i32_23 : BitVec 32 := 1#32
  let v20 : BitVec 32 := Scalar.addi v19 c1_i32_23
  let c40_i32 : BitVec 32 := 40#32
  let v21 : BitVec 1 := Scalar.cmpi .slt v20 c40_i32
  let v22 : BitVec 32 := Scalar.extui v21
  let c0_i32_24 : BitVec 32 := 0#32
  let v23 : BitVec 1 := Scalar.cmpi .ne v22 c0_i32_24
  v23

def k1_off2 (k1_t1 : Fin k1_t1_loop.trips) (c0_i32_86 : BitVec 32) : Fin 1 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c0_i32_22 : BitVec 32 := 0#32
  let v19 : BitVec 32 := Scalar.addi v18 c0_i32_22
  let c1_i32_84 : BitVec 32 := 1#32
  let v71 : BitVec 32 := Scalar.addi v19 c1_i32_84
  let c128_i32_85 : BitVec 32 := 128#32
  let v72 : BitVec 32 := Scalar.muli v71 c128_i32_85
  let v73 : BitVec 32 := Scalar.addi v72 c0_i32_86
  ![v73.toNat]
def k1_off3 (k1_t1 : Fin k1_t1_loop.trips) (c0_i32_22 : BitVec 32) (c0_i32_25 : BitVec 32) : Fin 1 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let v19 : BitVec 32 := Scalar.addi v18 c0_i32_22
  let c128_i32 : BitVec 32 := 128#32
  let v24 : BitVec 32 := Scalar.muli v19 c128_i32
  let v25 : BitVec 32 := Scalar.addi v24 c0_i32_25
  ![v25.toNat]
@[reducible] def k1_t2_loop : Scf.Loop 32 :=
  let c0_i32_49 : BitVec 32 := 0#32
  let c8_i32 : BitVec 32 := 8#32
  let v44 : BitVec 32 := Scalar.addi c0_i32_49 c8_i32
  let c1_i32_50 : BitVec 32 := 1#32
  ⟨c0_i32_49, v44, c1_i32_50⟩
def k1_off4 (k1_t1 : Fin k1_t1_loop.trips) (k1_t2 : Fin k1_t2_loop.trips) : Fin 1 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c0_i32_22 : BitVec 32 := 0#32
  let v19 : BitVec 32 := Scalar.addi v18 c0_i32_22
  let c128_i32_91 : BitVec 32 := 128#32
  let v79 : BitVec 32 := Scalar.muli v19 c128_i32_91
  let c0_i32_49 : BitVec 32 := 0#32
  let c1_i32_50 : BitVec 32 := 1#32
  let arg23 : BitVec 32 := Scf.iv c0_i32_49 c1_i32_50 k1_t2
  let c16_i32 : BitVec 32 := 16#32
  let v80 : BitVec 32 := Scalar.muli arg23 c16_i32
  let v81 : BitVec 32 := Scalar.addi v79 v80
  let v82 : Index := Scalar.indexCast v81
  ![v82.toNat]
def k1_off5 (k1_t2 : Fin k1_t2_loop.trips) (c0_i32_94 : BitVec 32) : Fin 2 → Nat :=
  let c0_i32_93 : BitVec 32 := 0#32
  let c0_i32_49 : BitVec 32 := 0#32
  let c1_i32_50 : BitVec 32 := 1#32
  let arg23 : BitVec 32 := Scf.iv c0_i32_49 c1_i32_50 k1_t2
  let c16_i32_92 : BitVec 32 := 16#32
  let v85 : BitVec 32 := Scalar.muli arg23 c16_i32_92
  let v86 : BitVec 32 := Scalar.addi c0_i32_93 v85
  let v87 : BitVec 32 := Scalar.addi v86 c0_i32_94
  let v90 : Index := Scalar.indexCast v87
  let c0 : Index := 0#32
  ![v90.toNat, 0]
def k1_off6 (k1_t2 : Fin k1_t2_loop.trips) (c0_i32_94 : BitVec 32) : Fin 2 → Nat :=
  let c0_i32_93 : BitVec 32 := 0#32
  let c0_i32_49 : BitVec 32 := 0#32
  let c1_i32_50 : BitVec 32 := 1#32
  let arg23 : BitVec 32 := Scf.iv c0_i32_49 c1_i32_50 k1_t2
  let c16_i32_92 : BitVec 32 := 16#32
  let v85 : BitVec 32 := Scalar.muli arg23 c16_i32_92
  let v86 : BitVec 32 := Scalar.addi c0_i32_93 v85
  let v87 : BitVec 32 := Scalar.addi v86 c0_i32_94
  let v102 : Index := Scalar.indexCast v87
  let c16 : Index := 16#32
  ![v102.toNat, 16]
def k1_off7 (k1_t2 : Fin k1_t2_loop.trips) (c0_i32_94 : BitVec 32) : Fin 2 → Nat :=
  let c0_i32_93 : BitVec 32 := 0#32
  let c0_i32_49 : BitVec 32 := 0#32
  let c1_i32_50 : BitVec 32 := 1#32
  let arg23 : BitVec 32 := Scf.iv c0_i32_49 c1_i32_50 k1_t2
  let c16_i32_92 : BitVec 32 := 16#32
  let v85 : BitVec 32 := Scalar.muli arg23 c16_i32_92
  let v86 : BitVec 32 := Scalar.addi c0_i32_93 v85
  let v87 : BitVec 32 := Scalar.addi v86 c0_i32_94
  let v114 : Index := Scalar.indexCast v87
  let c32 : Index := 32#32
  ![v114.toNat, 32]
def k1_off8 (k1_t2 : Fin k1_t2_loop.trips) (c0_i32_94 : BitVec 32) : Fin 2 → Nat :=
  let c0_i32_93 : BitVec 32 := 0#32
  let c0_i32_49 : BitVec 32 := 0#32
  let c1_i32_50 : BitVec 32 := 1#32
  let arg23 : BitVec 32 := Scf.iv c0_i32_49 c1_i32_50 k1_t2
  let c16_i32_92 : BitVec 32 := 16#32
  let v85 : BitVec 32 := Scalar.muli arg23 c16_i32_92
  let v86 : BitVec 32 := Scalar.addi c0_i32_93 v85
  let v87 : BitVec 32 := Scalar.addi v86 c0_i32_94
  let v126 : Index := Scalar.indexCast v87
  let c48 : Index := 48#32
  ![v126.toNat, 48]
def k1_off9 (k1_t2 : Fin k1_t2_loop.trips) (c0_i32_94 : BitVec 32) : Fin 2 → Nat :=
  let c0_i32_93 : BitVec 32 := 0#32
  let c0_i32_49 : BitVec 32 := 0#32
  let c1_i32_50 : BitVec 32 := 1#32
  let arg23 : BitVec 32 := Scf.iv c0_i32_49 c1_i32_50 k1_t2
  let c16_i32_92 : BitVec 32 := 16#32
  let v85 : BitVec 32 := Scalar.muli arg23 c16_i32_92
  let v86 : BitVec 32 := Scalar.addi c0_i32_93 v85
  let v87 : BitVec 32 := Scalar.addi v86 c0_i32_94
  let v138 : Index := Scalar.indexCast v87
  let c64 : Index := 64#32
  ![v138.toNat, 64]
def k1_off10 (k1_t2 : Fin k1_t2_loop.trips) (c0_i32_94 : BitVec 32) : Fin 2 → Nat :=
  let c0_i32_93 : BitVec 32 := 0#32
  let c0_i32_49 : BitVec 32 := 0#32
  let c1_i32_50 : BitVec 32 := 1#32
  let arg23 : BitVec 32 := Scf.iv c0_i32_49 c1_i32_50 k1_t2
  let c16_i32_92 : BitVec 32 := 16#32
  let v85 : BitVec 32 := Scalar.muli arg23 c16_i32_92
  let v86 : BitVec 32 := Scalar.addi c0_i32_93 v85
  let v87 : BitVec 32 := Scalar.addi v86 c0_i32_94
  let v150 : Index := Scalar.indexCast v87
  let c80 : Index := 80#32
  ![v150.toNat, 80]
def k1_off11 (k1_t2 : Fin k1_t2_loop.trips) (c0_i32_94 : BitVec 32) : Fin 2 → Nat :=
  let c0_i32_93 : BitVec 32 := 0#32
  let c0_i32_49 : BitVec 32 := 0#32
  let c1_i32_50 : BitVec 32 := 1#32
  let arg23 : BitVec 32 := Scf.iv c0_i32_49 c1_i32_50 k1_t2
  let c16_i32_92 : BitVec 32 := 16#32
  let v85 : BitVec 32 := Scalar.muli arg23 c16_i32_92
  let v86 : BitVec 32 := Scalar.addi c0_i32_93 v85
  let v87 : BitVec 32 := Scalar.addi v86 c0_i32_94
  let v162 : Index := Scalar.indexCast v87
  let c96 : Index := 96#32
  ![v162.toNat, 96]
def k1_off12 (k1_t2 : Fin k1_t2_loop.trips) (c0_i32_94 : BitVec 32) : Fin 2 → Nat :=
  let c0_i32_93 : BitVec 32 := 0#32
  let c0_i32_49 : BitVec 32 := 0#32
  let c1_i32_50 : BitVec 32 := 1#32
  let arg23 : BitVec 32 := Scf.iv c0_i32_49 c1_i32_50 k1_t2
  let c16_i32_92 : BitVec 32 := 16#32
  let v85 : BitVec 32 := Scalar.muli arg23 c16_i32_92
  let v86 : BitVec 32 := Scalar.addi c0_i32_93 v85
  let v87 : BitVec 32 := Scalar.addi v86 c0_i32_94
  let v174 : Index := Scalar.indexCast v87
  let c112 : Index := 112#32
  ![v174.toNat, 112]
def k1_off13 (k1_t1 : Fin k1_t1_loop.trips) (k1_t2 : Fin k1_t2_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c0_i32_22 : BitVec 32 := 0#32
  let v19 : BitVec 32 := Scalar.addi v18 c0_i32_22
  let c8_i32_504 : BitVec 32 := 8#32
  let v1701 : BitVec 32 := Scalar.muli v19 c8_i32_504
  let c0_i32_49 : BitVec 32 := 0#32
  let c1_i32_50 : BitVec 32 := 1#32
  let arg23 : BitVec 32 := Scf.iv c0_i32_49 c1_i32_50 k1_t2
  let v1702 : BitVec 32 := Scalar.addi v1701 arg23
  let v1703 : Index := Scalar.indexCast v1702
  let c0_505 : Index := 0#32
  ![v1703.toNat, 0]
def k1_off14 (k1_t1 : Fin k1_t1_loop.trips) (k1_t2 : Fin k1_t2_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c0_i32_22 : BitVec 32 := 0#32
  let v19 : BitVec 32 := Scalar.addi v18 c0_i32_22
  let c8_i32_506 : BitVec 32 := 8#32
  let v1707 : BitVec 32 := Scalar.muli v19 c8_i32_506
  let c0_i32_49 : BitVec 32 := 0#32
  let c1_i32_50 : BitVec 32 := 1#32
  let arg23 : BitVec 32 := Scf.iv c0_i32_49 c1_i32_50 k1_t2
  let v1708 : BitVec 32 := Scalar.addi v1707 arg23
  let v1709 : Index := Scalar.indexCast v1708
  let c16_507 : Index := 16#32
  ![v1709.toNat, 16]
def k1_off15 (k1_t1 : Fin k1_t1_loop.trips) (k1_t2 : Fin k1_t2_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c0_i32_22 : BitVec 32 := 0#32
  let v19 : BitVec 32 := Scalar.addi v18 c0_i32_22
  let c8_i32_508 : BitVec 32 := 8#32
  let v1713 : BitVec 32 := Scalar.muli v19 c8_i32_508
  let c0_i32_49 : BitVec 32 := 0#32
  let c1_i32_50 : BitVec 32 := 1#32
  let arg23 : BitVec 32 := Scf.iv c0_i32_49 c1_i32_50 k1_t2
  let v1714 : BitVec 32 := Scalar.addi v1713 arg23
  let v1715 : Index := Scalar.indexCast v1714
  let c32_509 : Index := 32#32
  ![v1715.toNat, 32]
def k1_off16 (k1_t1 : Fin k1_t1_loop.trips) (k1_t2 : Fin k1_t2_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c0_i32_22 : BitVec 32 := 0#32
  let v19 : BitVec 32 := Scalar.addi v18 c0_i32_22
  let c8_i32_510 : BitVec 32 := 8#32
  let v1719 : BitVec 32 := Scalar.muli v19 c8_i32_510
  let c0_i32_49 : BitVec 32 := 0#32
  let c1_i32_50 : BitVec 32 := 1#32
  let arg23 : BitVec 32 := Scf.iv c0_i32_49 c1_i32_50 k1_t2
  let v1720 : BitVec 32 := Scalar.addi v1719 arg23
  let v1721 : Index := Scalar.indexCast v1720
  let c48_511 : Index := 48#32
  ![v1721.toNat, 48]
def k1_off17 (k1_t1 : Fin k1_t1_loop.trips) (k1_t2 : Fin k1_t2_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c0_i32_22 : BitVec 32 := 0#32
  let v19 : BitVec 32 := Scalar.addi v18 c0_i32_22
  let c8_i32_512 : BitVec 32 := 8#32
  let v1725 : BitVec 32 := Scalar.muli v19 c8_i32_512
  let c0_i32_49 : BitVec 32 := 0#32
  let c1_i32_50 : BitVec 32 := 1#32
  let arg23 : BitVec 32 := Scf.iv c0_i32_49 c1_i32_50 k1_t2
  let v1726 : BitVec 32 := Scalar.addi v1725 arg23
  let v1727 : Index := Scalar.indexCast v1726
  let c64_513 : Index := 64#32
  ![v1727.toNat, 64]
def k1_off18 (k1_t1 : Fin k1_t1_loop.trips) (k1_t2 : Fin k1_t2_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c0_i32_22 : BitVec 32 := 0#32
  let v19 : BitVec 32 := Scalar.addi v18 c0_i32_22
  let c8_i32_514 : BitVec 32 := 8#32
  let v1731 : BitVec 32 := Scalar.muli v19 c8_i32_514
  let c0_i32_49 : BitVec 32 := 0#32
  let c1_i32_50 : BitVec 32 := 1#32
  let arg23 : BitVec 32 := Scf.iv c0_i32_49 c1_i32_50 k1_t2
  let v1732 : BitVec 32 := Scalar.addi v1731 arg23
  let v1733 : Index := Scalar.indexCast v1732
  let c80_515 : Index := 80#32
  ![v1733.toNat, 80]
def k1_off19 (k1_t1 : Fin k1_t1_loop.trips) (k1_t2 : Fin k1_t2_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c0_i32_22 : BitVec 32 := 0#32
  let v19 : BitVec 32 := Scalar.addi v18 c0_i32_22
  let c8_i32_516 : BitVec 32 := 8#32
  let v1737 : BitVec 32 := Scalar.muli v19 c8_i32_516
  let c0_i32_49 : BitVec 32 := 0#32
  let c1_i32_50 : BitVec 32 := 1#32
  let arg23 : BitVec 32 := Scf.iv c0_i32_49 c1_i32_50 k1_t2
  let v1738 : BitVec 32 := Scalar.addi v1737 arg23
  let v1739 : Index := Scalar.indexCast v1738
  let c96_517 : Index := 96#32
  ![v1739.toNat, 96]
def k1_off20 (k1_t1 : Fin k1_t1_loop.trips) (k1_t2 : Fin k1_t2_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c0_i32_22 : BitVec 32 := 0#32
  let v19 : BitVec 32 := Scalar.addi v18 c0_i32_22
  let c8_i32_518 : BitVec 32 := 8#32
  let v1743 : BitVec 32 := Scalar.muli v19 c8_i32_518
  let c0_i32_49 : BitVec 32 := 0#32
  let c1_i32_50 : BitVec 32 := 1#32
  let arg23 : BitVec 32 := Scf.iv c0_i32_49 c1_i32_50 k1_t2
  let v1744 : BitVec 32 := Scalar.addi v1743 arg23
  let v1745 : Index := Scalar.indexCast v1744
  let c112_519 : Index := 112#32
  ![v1745.toNat, 112]
def k1_cond2 (k1_t1 : Fin k1_t1_loop.trips) : BitVec 1 :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c1_i32_52 : BitVec 32 := 1#32
  let v45 : BitVec 32 := Scalar.addi v18 c1_i32_52
  let c1_i32_53 : BitVec 32 := 1#32
  let v46 : BitVec 32 := Scalar.addi v45 c1_i32_53
  let c40_i32_54 : BitVec 32 := 40#32
  let v47 : BitVec 1 := Scalar.cmpi .slt v46 c40_i32_54
  let v48 : BitVec 32 := Scalar.extui v47
  let c0_i32_55 : BitVec 32 := 0#32
  let v49 : BitVec 1 := Scalar.cmpi .ne v48 c0_i32_55
  v49

def k1_off21 (k1_t1 : Fin k1_t1_loop.trips) (c0_i32_86 : BitVec 32) : Fin 1 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c1_i32_52 : BitVec 32 := 1#32
  let v45 : BitVec 32 := Scalar.addi v18 c1_i32_52
  let c1_i32_84 : BitVec 32 := 1#32
  let v71 : BitVec 32 := Scalar.addi v45 c1_i32_84
  let c128_i32_85 : BitVec 32 := 128#32
  let v72 : BitVec 32 := Scalar.muli v71 c128_i32_85
  let v73 : BitVec 32 := Scalar.addi v72 c0_i32_86
  ![v73.toNat]
@[reducible] def k1_t3_loop : Scf.Loop 32 :=
  let c0_i32_80 : BitVec 32 := 0#32
  let c8_i32_81 : BitVec 32 := 8#32
  let v70 : BitVec 32 := Scalar.addi c0_i32_80 c8_i32_81
  let c1_i32_82 : BitVec 32 := 1#32
  ⟨c0_i32_80, v70, c1_i32_82⟩
def k1_off22 (k1_t1 : Fin k1_t1_loop.trips) (k1_t3 : Fin k1_t3_loop.trips) : Fin 1 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c1_i32_52 : BitVec 32 := 1#32
  let v45 : BitVec 32 := Scalar.addi v18 c1_i32_52
  let c128_i32_91 : BitVec 32 := 128#32
  let v79 : BitVec 32 := Scalar.muli v45 c128_i32_91
  let c0_i32_80 : BitVec 32 := 0#32
  let c1_i32_82 : BitVec 32 := 1#32
  let arg23 : BitVec 32 := Scf.iv c0_i32_80 c1_i32_82 k1_t3
  let c16_i32 : BitVec 32 := 16#32
  let v80 : BitVec 32 := Scalar.muli arg23 c16_i32
  let v81 : BitVec 32 := Scalar.addi v79 v80
  let v82 : Index := Scalar.indexCast v81
  ![v82.toNat]
def k1_off23 (k1_t3 : Fin k1_t3_loop.trips) (c0_i32_94 : BitVec 32) : Fin 2 → Nat :=
  let c128_i32_93 : BitVec 32 := 128#32
  let c0_i32_80 : BitVec 32 := 0#32
  let c1_i32_82 : BitVec 32 := 1#32
  let arg23 : BitVec 32 := Scf.iv c0_i32_80 c1_i32_82 k1_t3
  let c16_i32_92 : BitVec 32 := 16#32
  let v85 : BitVec 32 := Scalar.muli arg23 c16_i32_92
  let v86 : BitVec 32 := Scalar.addi c128_i32_93 v85
  let v87 : BitVec 32 := Scalar.addi v86 c0_i32_94
  let v90 : Index := Scalar.indexCast v87
  let c0 : Index := 0#32
  ![v90.toNat, 0]
def k1_off24 (k1_t3 : Fin k1_t3_loop.trips) (c0_i32_94 : BitVec 32) : Fin 2 → Nat :=
  let c128_i32_93 : BitVec 32 := 128#32
  let c0_i32_80 : BitVec 32 := 0#32
  let c1_i32_82 : BitVec 32 := 1#32
  let arg23 : BitVec 32 := Scf.iv c0_i32_80 c1_i32_82 k1_t3
  let c16_i32_92 : BitVec 32 := 16#32
  let v85 : BitVec 32 := Scalar.muli arg23 c16_i32_92
  let v86 : BitVec 32 := Scalar.addi c128_i32_93 v85
  let v87 : BitVec 32 := Scalar.addi v86 c0_i32_94
  let v102 : Index := Scalar.indexCast v87
  let c16 : Index := 16#32
  ![v102.toNat, 16]
def k1_off25 (k1_t3 : Fin k1_t3_loop.trips) (c0_i32_94 : BitVec 32) : Fin 2 → Nat :=
  let c128_i32_93 : BitVec 32 := 128#32
  let c0_i32_80 : BitVec 32 := 0#32
  let c1_i32_82 : BitVec 32 := 1#32
  let arg23 : BitVec 32 := Scf.iv c0_i32_80 c1_i32_82 k1_t3
  let c16_i32_92 : BitVec 32 := 16#32
  let v85 : BitVec 32 := Scalar.muli arg23 c16_i32_92
  let v86 : BitVec 32 := Scalar.addi c128_i32_93 v85
  let v87 : BitVec 32 := Scalar.addi v86 c0_i32_94
  let v114 : Index := Scalar.indexCast v87
  let c32 : Index := 32#32
  ![v114.toNat, 32]
def k1_off26 (k1_t3 : Fin k1_t3_loop.trips) (c0_i32_94 : BitVec 32) : Fin 2 → Nat :=
  let c128_i32_93 : BitVec 32 := 128#32
  let c0_i32_80 : BitVec 32 := 0#32
  let c1_i32_82 : BitVec 32 := 1#32
  let arg23 : BitVec 32 := Scf.iv c0_i32_80 c1_i32_82 k1_t3
  let c16_i32_92 : BitVec 32 := 16#32
  let v85 : BitVec 32 := Scalar.muli arg23 c16_i32_92
  let v86 : BitVec 32 := Scalar.addi c128_i32_93 v85
  let v87 : BitVec 32 := Scalar.addi v86 c0_i32_94
  let v126 : Index := Scalar.indexCast v87
  let c48 : Index := 48#32
  ![v126.toNat, 48]
def k1_off27 (k1_t3 : Fin k1_t3_loop.trips) (c0_i32_94 : BitVec 32) : Fin 2 → Nat :=
  let c128_i32_93 : BitVec 32 := 128#32
  let c0_i32_80 : BitVec 32 := 0#32
  let c1_i32_82 : BitVec 32 := 1#32
  let arg23 : BitVec 32 := Scf.iv c0_i32_80 c1_i32_82 k1_t3
  let c16_i32_92 : BitVec 32 := 16#32
  let v85 : BitVec 32 := Scalar.muli arg23 c16_i32_92
  let v86 : BitVec 32 := Scalar.addi c128_i32_93 v85
  let v87 : BitVec 32 := Scalar.addi v86 c0_i32_94
  let v138 : Index := Scalar.indexCast v87
  let c64 : Index := 64#32
  ![v138.toNat, 64]
def k1_off28 (k1_t3 : Fin k1_t3_loop.trips) (c0_i32_94 : BitVec 32) : Fin 2 → Nat :=
  let c128_i32_93 : BitVec 32 := 128#32
  let c0_i32_80 : BitVec 32 := 0#32
  let c1_i32_82 : BitVec 32 := 1#32
  let arg23 : BitVec 32 := Scf.iv c0_i32_80 c1_i32_82 k1_t3
  let c16_i32_92 : BitVec 32 := 16#32
  let v85 : BitVec 32 := Scalar.muli arg23 c16_i32_92
  let v86 : BitVec 32 := Scalar.addi c128_i32_93 v85
  let v87 : BitVec 32 := Scalar.addi v86 c0_i32_94
  let v150 : Index := Scalar.indexCast v87
  let c80 : Index := 80#32
  ![v150.toNat, 80]
def k1_off29 (k1_t3 : Fin k1_t3_loop.trips) (c0_i32_94 : BitVec 32) : Fin 2 → Nat :=
  let c128_i32_93 : BitVec 32 := 128#32
  let c0_i32_80 : BitVec 32 := 0#32
  let c1_i32_82 : BitVec 32 := 1#32
  let arg23 : BitVec 32 := Scf.iv c0_i32_80 c1_i32_82 k1_t3
  let c16_i32_92 : BitVec 32 := 16#32
  let v85 : BitVec 32 := Scalar.muli arg23 c16_i32_92
  let v86 : BitVec 32 := Scalar.addi c128_i32_93 v85
  let v87 : BitVec 32 := Scalar.addi v86 c0_i32_94
  let v162 : Index := Scalar.indexCast v87
  let c96 : Index := 96#32
  ![v162.toNat, 96]
def k1_off30 (k1_t3 : Fin k1_t3_loop.trips) (c0_i32_94 : BitVec 32) : Fin 2 → Nat :=
  let c128_i32_93 : BitVec 32 := 128#32
  let c0_i32_80 : BitVec 32 := 0#32
  let c1_i32_82 : BitVec 32 := 1#32
  let arg23 : BitVec 32 := Scf.iv c0_i32_80 c1_i32_82 k1_t3
  let c16_i32_92 : BitVec 32 := 16#32
  let v85 : BitVec 32 := Scalar.muli arg23 c16_i32_92
  let v86 : BitVec 32 := Scalar.addi c128_i32_93 v85
  let v87 : BitVec 32 := Scalar.addi v86 c0_i32_94
  let v174 : Index := Scalar.indexCast v87
  let c112 : Index := 112#32
  ![v174.toNat, 112]
def k1_off31 (k1_t1 : Fin k1_t1_loop.trips) (k1_t3 : Fin k1_t3_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c1_i32_52 : BitVec 32 := 1#32
  let v45 : BitVec 32 := Scalar.addi v18 c1_i32_52
  let c8_i32_504 : BitVec 32 := 8#32
  let v1701 : BitVec 32 := Scalar.muli v45 c8_i32_504
  let c0_i32_80 : BitVec 32 := 0#32
  let c1_i32_82 : BitVec 32 := 1#32
  let arg23 : BitVec 32 := Scf.iv c0_i32_80 c1_i32_82 k1_t3
  let v1702 : BitVec 32 := Scalar.addi v1701 arg23
  let v1703 : Index := Scalar.indexCast v1702
  let c0_505 : Index := 0#32
  ![v1703.toNat, 0]
def k1_off32 (k1_t1 : Fin k1_t1_loop.trips) (k1_t3 : Fin k1_t3_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c1_i32_52 : BitVec 32 := 1#32
  let v45 : BitVec 32 := Scalar.addi v18 c1_i32_52
  let c8_i32_506 : BitVec 32 := 8#32
  let v1707 : BitVec 32 := Scalar.muli v45 c8_i32_506
  let c0_i32_80 : BitVec 32 := 0#32
  let c1_i32_82 : BitVec 32 := 1#32
  let arg23 : BitVec 32 := Scf.iv c0_i32_80 c1_i32_82 k1_t3
  let v1708 : BitVec 32 := Scalar.addi v1707 arg23
  let v1709 : Index := Scalar.indexCast v1708
  let c16_507 : Index := 16#32
  ![v1709.toNat, 16]
def k1_off33 (k1_t1 : Fin k1_t1_loop.trips) (k1_t3 : Fin k1_t3_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c1_i32_52 : BitVec 32 := 1#32
  let v45 : BitVec 32 := Scalar.addi v18 c1_i32_52
  let c8_i32_508 : BitVec 32 := 8#32
  let v1713 : BitVec 32 := Scalar.muli v45 c8_i32_508
  let c0_i32_80 : BitVec 32 := 0#32
  let c1_i32_82 : BitVec 32 := 1#32
  let arg23 : BitVec 32 := Scf.iv c0_i32_80 c1_i32_82 k1_t3
  let v1714 : BitVec 32 := Scalar.addi v1713 arg23
  let v1715 : Index := Scalar.indexCast v1714
  let c32_509 : Index := 32#32
  ![v1715.toNat, 32]
def k1_off34 (k1_t1 : Fin k1_t1_loop.trips) (k1_t3 : Fin k1_t3_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c1_i32_52 : BitVec 32 := 1#32
  let v45 : BitVec 32 := Scalar.addi v18 c1_i32_52
  let c8_i32_510 : BitVec 32 := 8#32
  let v1719 : BitVec 32 := Scalar.muli v45 c8_i32_510
  let c0_i32_80 : BitVec 32 := 0#32
  let c1_i32_82 : BitVec 32 := 1#32
  let arg23 : BitVec 32 := Scf.iv c0_i32_80 c1_i32_82 k1_t3
  let v1720 : BitVec 32 := Scalar.addi v1719 arg23
  let v1721 : Index := Scalar.indexCast v1720
  let c48_511 : Index := 48#32
  ![v1721.toNat, 48]
def k1_off35 (k1_t1 : Fin k1_t1_loop.trips) (k1_t3 : Fin k1_t3_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c1_i32_52 : BitVec 32 := 1#32
  let v45 : BitVec 32 := Scalar.addi v18 c1_i32_52
  let c8_i32_512 : BitVec 32 := 8#32
  let v1725 : BitVec 32 := Scalar.muli v45 c8_i32_512
  let c0_i32_80 : BitVec 32 := 0#32
  let c1_i32_82 : BitVec 32 := 1#32
  let arg23 : BitVec 32 := Scf.iv c0_i32_80 c1_i32_82 k1_t3
  let v1726 : BitVec 32 := Scalar.addi v1725 arg23
  let v1727 : Index := Scalar.indexCast v1726
  let c64_513 : Index := 64#32
  ![v1727.toNat, 64]
def k1_off36 (k1_t1 : Fin k1_t1_loop.trips) (k1_t3 : Fin k1_t3_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c1_i32_52 : BitVec 32 := 1#32
  let v45 : BitVec 32 := Scalar.addi v18 c1_i32_52
  let c8_i32_514 : BitVec 32 := 8#32
  let v1731 : BitVec 32 := Scalar.muli v45 c8_i32_514
  let c0_i32_80 : BitVec 32 := 0#32
  let c1_i32_82 : BitVec 32 := 1#32
  let arg23 : BitVec 32 := Scf.iv c0_i32_80 c1_i32_82 k1_t3
  let v1732 : BitVec 32 := Scalar.addi v1731 arg23
  let v1733 : Index := Scalar.indexCast v1732
  let c80_515 : Index := 80#32
  ![v1733.toNat, 80]
def k1_off37 (k1_t1 : Fin k1_t1_loop.trips) (k1_t3 : Fin k1_t3_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c1_i32_52 : BitVec 32 := 1#32
  let v45 : BitVec 32 := Scalar.addi v18 c1_i32_52
  let c8_i32_516 : BitVec 32 := 8#32
  let v1737 : BitVec 32 := Scalar.muli v45 c8_i32_516
  let c0_i32_80 : BitVec 32 := 0#32
  let c1_i32_82 : BitVec 32 := 1#32
  let arg23 : BitVec 32 := Scf.iv c0_i32_80 c1_i32_82 k1_t3
  let v1738 : BitVec 32 := Scalar.addi v1737 arg23
  let v1739 : Index := Scalar.indexCast v1738
  let c96_517 : Index := 96#32
  ![v1739.toNat, 96]
def k1_off38 (k1_t1 : Fin k1_t1_loop.trips) (k1_t3 : Fin k1_t3_loop.trips) : Fin 2 → Nat :=
  let c0_i32_21 : BitVec 32 := 0#32
  let c0_i32_18 : BitVec 32 := 0#32
  let c1_i32 : BitVec 32 := 1#32
  let arg22 : BitVec 32 := Scf.iv c0_i32_18 c1_i32 k1_t1
  let c2_i32_20 : BitVec 32 := 2#32
  let v17 : BitVec 32 := Scalar.muli arg22 c2_i32_20
  let v18 : BitVec 32 := Scalar.addi c0_i32_21 v17
  let c1_i32_52 : BitVec 32 := 1#32
  let v45 : BitVec 32 := Scalar.addi v18 c1_i32_52
  let c8_i32_518 : BitVec 32 := 8#32
  let v1743 : BitVec 32 := Scalar.muli v45 c8_i32_518
  let c0_i32_80 : BitVec 32 := 0#32
  let c1_i32_82 : BitVec 32 := 1#32
  let arg23 : BitVec 32 := Scf.iv c0_i32_80 c1_i32_82 k1_t3
  let v1744 : BitVec 32 := Scalar.addi v1743 arg23
  let v1745 : Index := Scalar.indexCast v1744
  let c112_519 : Index := 112#32
  ![v1745.toNat, 112]
def k1_off39 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v3 : BitVec 32 := Scalar.muli v1 c320_i32
  let c0_i32_20_r3 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x128x10000x1_S128x10000 : S1x128x10000x1.ShapeCasts S128x10000
  pads_S128x10000_S128x10240_000_02400 : S128x10000.Pads (![0, 0] : Fin 2 → Nat) ![0, 240] ![0, 0] S128x10240
  h_S_ : 0 < S_.numel
  shapeCasts_S1x10000x16_S10000x16 : S1x10000x16.ShapeCasts S10000x16
  pads_S10000x16_S10240x16_02400_000 : S10000x16.Pads (![0, 0] : Fin 2 → Nat) ![240, 0] ![0, 0] S10240x16
  slices_S128x256_S128x128_0_0 : S128x256.Slices ![0, 0] S128x128
  slices_S128x256_S128x128_0_128 : S128x256.Slices ![0, 128] S128x128
  shapeCasts_S128_S1x128 : S128.ShapeCasts S1x128
  shapeCasts_S1_S1x1 : S1.ShapeCasts S1x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S1x16_S1x16_0_0 : ∀ a, (![0, 0] : Fin 2 → Nat) a + S1x16.size a ≤ S1x16.size a
  h_S1x16 : 0 < S1x16.numel
  broadcasts_S1x16_S512x16 : S1x16.Broadcasts S512x16
  reduces_S512x16_S512 : S512x16.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S512x1_S512x16 : S512x1.Broadcasts S512x16
  shapeCasts_S2x1x10000x16_S2x160000 : S2x1x10000x16.ShapeCasts S2x160000
  pads_S2x160000_S2x163840_000_038400 : S2x160000.Pads (![0, 0] : Fin 2 → Nat) ![0, 3840] ![0, 0] S2x163840
  slices_S2x163840_S1x163840_1_0 : S2x163840.Slices ![1, 0] S1x163840
  shapeCasts_S1x163840_S163840 : S1x163840.ShapeCasts S163840
  slices_S2x163840_S1x163840_0_0 : S2x163840.Slices ![0, 0] S1x163840
  shapeCasts_S10240x16_S163840 : S10240x16.ShapeCasts S163840
  inb_S256x128_S64x128_0_0 : ∀ a, (![0, 0] : Fin 2 → Nat) a + S64x128.size a ≤ S256x128.size a
  inb_S5120_S64_0 : ∀ a, (![0] : Fin 1 → Nat) a + S64.size a ≤ S5120.size a
  inb_S10240x128_S10240x128_0_0 : ∀ a, (![0, 0] : Fin 2 → Nat) a + S10240x128.size a ≤ S10240x128.size a
  gathers_S10240x128_S64x128 : S10240x128.Gathers 0 S64x128
  inb_S256x128_S64x128_64_0 : ∀ a, (![64, 0] : Fin 2 → Nat) a + S64x128.size a ≤ S256x128.size a
  inb_S5120_S64_64 : ∀ a, (![64] : Fin 1 → Nat) a + S64.size a ≤ S5120.size a
  inb_S256x128_S64x128_128_0 : ∀ a, (![128, 0] : Fin 2 → Nat) a + S64x128.size a ≤ S256x128.size a
  inb_S256x128_S64x128_192_0 : ∀ a, (![192, 0] : Fin 2 → Nat) a + S64x128.size a ≤ S256x128.size a
  h_S16 : 0 < S16.numel
  shapeCasts_S16_S16 : S16.ShapeCasts S16
  slices_S16_o0_S1 : S16.Slices ![0] S1
  inpos_S1_p0 : ∀ a, (![0] : Fin 1 → Nat) a < S1.size a
  shapeCasts_S1x16_S16 : S1x16.ShapeCasts S16
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  shapeCasts_S16_S1x16 : S16.ShapeCasts S1x16
  slices_S10240x128_S10000x128_0_0 : S10240x128.Slices ![0, 0] S10000x128
  transposes_S10000x128_S128x10000_1_0 : S10000x128.Transposes [1, 0] S128x10000
  shapeCasts_S128x10000_S1x128x10000x1 : S128x10000.ShapeCasts S1x128x10000x1
  dot_S128x512_S128x128_S512x128_0_1_1_0_n_n_wf : DotDims.WF S128x512 S128x128 S512x128 [0] [1] [1] [0] [] []
  hcc1_scratch6 : 15 + S_.numel ≤ 27
  hcc1_scratch7 : 16 + S_.numel ≤ 27
  hcc1_scratch8 : 17 + S_.numel ≤ 27
  hcc1_scratch9 : 18 + S_.numel ≤ 27
  hcc1_scratch10 : 19 + S_.numel ≤ 27
  hcc1_scratch11 : 20 + S_.numel ≤ 27
  hcc1_scratch12 : 21 + S_.numel ≤ 27
  hcc1_scratch13 : 22 + S_.numel ≤ 27
  hcc1_scoped0 : 23 + S_.numel ≤ 27
  hcc1_scoped1 : 24 + S_.numel ≤ 27
  hcc1_scoped2 : 25 + S_.numel ≤ 27
  hcc1_scoped3 : 26 + S_.numel ≤ 27
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x10240.size a
  hwx0_0 : ∀ i : grid0.Coords, EltTy.bits .f32 = 32 ∨ (Rect.block (s := S128x10240) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S10240x16.size a
  hwx0_1 : ∀ i : grid0.Coords, EltTy.bits .f32 = 32 ∨ (Rect.block (s := S10240x16) S512x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S10240x128.size a
  hwx0_7 : ∀ i : grid0.Coords, EltTy.bits .f32 = 32 ∨ (Rect.block (s := S10240x128) S512x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S10240x128.size a
  hwx0_8 : ∀ i : grid0.Coords, EltTy.bits .f32 = 32 ∨ (Rect.block (s := S10240x128) S512x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x16.size a ≤ S10240x16.size a
  hwx0_9 : ∀ i : grid0.Coords, EltTy.bits .f32 = 32 ∨ (Rect.block (s := S10240x16) S512x16.size (cc0_transform_9 i) (hinb0_9 i)).WholeWords (EltTy.packing .f32)
  hcore1 : grid1.bound 0 ≤ τ.nSC
  hsub1 : grid1.bound 1 ≤ τ.nSub
  k1_off1_inb : ∀ i : grid1.Coords, ∀ a, (k1_off1 i) a + S5120.size a ≤ S163840.size a
  k1_t1_ok : k1_t1_loop.OK
  k1_off2_inb : ∀ k1_t1 : Fin k1_t1_loop.trips, ∀ (k1_h1 : k1_cond1 k1_t1 = 1#1), ∀ (r : Fin 2), ∀ a, (k1_off2 k1_t1 (BitVec.ofNat 32 (64 * r.val))) a + S64.size a ≤ S5120.size a
  k1_off3_inb : ∀ k1_t1 : Fin k1_t1_loop.trips, ∀ (r₁ : Fin 2) (r₂ : Fin 2), ∀ a, (k1_off3 k1_t1 (BitVec.ofNat 32 r₁.val) (BitVec.ofNat 32 (64 * r₂.val))) a + S64.size a ≤ S5120.size a
  k1_t2_ok : k1_t2_loop.OK
  k1_off4_inb : ∀ (k1_t1 : Fin k1_t1_loop.trips) (k1_t2 : Fin k1_t2_loop.trips), ∀ a, (k1_off4 k1_t1 k1_t2) a + S16.size a ≤ S5120.size a
  k1_off5_inb : ∀ k1_t2 : Fin k1_t2_loop.trips, ∀ (r : Fin 16), ∀ a, (k1_off5 k1_t2 (BitVec.ofNat 32 r.val)) a + S1x16.size a ≤ S256x128.size a
  k1_off6_inb : ∀ k1_t2 : Fin k1_t2_loop.trips, ∀ (r : Fin 16), ∀ a, (k1_off6 k1_t2 (BitVec.ofNat 32 r.val)) a + S1x16.size a ≤ S256x128.size a
  k1_off7_inb : ∀ k1_t2 : Fin k1_t2_loop.trips, ∀ (r : Fin 16), ∀ a, (k1_off7 k1_t2 (BitVec.ofNat 32 r.val)) a + S1x16.size a ≤ S256x128.size a
  k1_off8_inb : ∀ k1_t2 : Fin k1_t2_loop.trips, ∀ (r : Fin 16), ∀ a, (k1_off8 k1_t2 (BitVec.ofNat 32 r.val)) a + S1x16.size a ≤ S256x128.size a
  k1_off9_inb : ∀ k1_t2 : Fin k1_t2_loop.trips, ∀ (r : Fin 16), ∀ a, (k1_off9 k1_t2 (BitVec.ofNat 32 r.val)) a + S1x16.size a ≤ S256x128.size a
  k1_off10_inb : ∀ k1_t2 : Fin k1_t2_loop.trips, ∀ (r : Fin 16), ∀ a, (k1_off10 k1_t2 (BitVec.ofNat 32 r.val)) a + S1x16.size a ≤ S256x128.size a
  k1_off11_inb : ∀ k1_t2 : Fin k1_t2_loop.trips, ∀ (r : Fin 16), ∀ a, (k1_off11 k1_t2 (BitVec.ofNat 32 r.val)) a + S1x16.size a ≤ S256x128.size a
  k1_off12_inb : ∀ k1_t2 : Fin k1_t2_loop.trips, ∀ (r : Fin 16), ∀ a, (k1_off12 k1_t2 (BitVec.ofNat 32 r.val)) a + S1x16.size a ≤ S256x128.size a
  k1_off13_inb : ∀ (k1_t1 : Fin k1_t1_loop.trips) (k1_t2 : Fin k1_t2_loop.trips), ∀ a, (k1_off13 k1_t1 k1_t2) a + S1x16.size a ≤ S320x128.size a
  k1_off14_inb : ∀ (k1_t1 : Fin k1_t1_loop.trips) (k1_t2 : Fin k1_t2_loop.trips), ∀ a, (k1_off14 k1_t1 k1_t2) a + S1x16.size a ≤ S320x128.size a
  k1_off15_inb : ∀ (k1_t1 : Fin k1_t1_loop.trips) (k1_t2 : Fin k1_t2_loop.trips), ∀ a, (k1_off15 k1_t1 k1_t2) a + S1x16.size a ≤ S320x128.size a
  k1_off16_inb : ∀ (k1_t1 : Fin k1_t1_loop.trips) (k1_t2 : Fin k1_t2_loop.trips), ∀ a, (k1_off16 k1_t1 k1_t2) a + S1x16.size a ≤ S320x128.size a
  k1_off17_inb : ∀ (k1_t1 : Fin k1_t1_loop.trips) (k1_t2 : Fin k1_t2_loop.trips), ∀ a, (k1_off17 k1_t1 k1_t2) a + S1x16.size a ≤ S320x128.size a
  k1_off18_inb : ∀ (k1_t1 : Fin k1_t1_loop.trips) (k1_t2 : Fin k1_t2_loop.trips), ∀ a, (k1_off18 k1_t1 k1_t2) a + S1x16.size a ≤ S320x128.size a
  k1_off19_inb : ∀ (k1_t1 : Fin k1_t1_loop.trips) (k1_t2 : Fin k1_t2_loop.trips), ∀ a, (k1_off19 k1_t1 k1_t2) a + S1x16.size a ≤ S320x128.size a
  k1_off20_inb : ∀ (k1_t1 : Fin k1_t1_loop.trips) (k1_t2 : Fin k1_t2_loop.trips), ∀ a, (k1_off20 k1_t1 k1_t2) a + S1x16.size a ≤ S320x128.size a
  k1_off21_inb : ∀ k1_t1 : Fin k1_t1_loop.trips, ∀ (k1_h2 : k1_cond2 k1_t1 = 1#1), ∀ (r : Fin 2), ∀ a, (k1_off21 k1_t1 (BitVec.ofNat 32 (64 * r.val))) a + S64.size a ≤ S5120.size a
  k1_t3_ok : k1_t3_loop.OK
  k1_off22_inb : ∀ (k1_t1 : Fin k1_t1_loop.trips) (k1_t3 : Fin k1_t3_loop.trips), ∀ a, (k1_off22 k1_t1 k1_t3) a + S16.size a ≤ S5120.size a
  k1_off23_inb : ∀ k1_t3 : Fin k1_t3_loop.trips, ∀ (r : Fin 16), ∀ a, (k1_off23 k1_t3 (BitVec.ofNat 32 r.val)) a + S1x16.size a ≤ S256x128.size a
  k1_off24_inb : ∀ k1_t3 : Fin k1_t3_loop.trips, ∀ (r : Fin 16), ∀ a, (k1_off24 k1_t3 (BitVec.ofNat 32 r.val)) a + S1x16.size a ≤ S256x128.size a
  k1_off25_inb : ∀ k1_t3 : Fin k1_t3_loop.trips, ∀ (r : Fin 16), ∀ a, (k1_off25 k1_t3 (BitVec.ofNat 32 r.val)) a + S1x16.size a ≤ S256x128.size a
  k1_off26_inb : ∀ k1_t3 : Fin k1_t3_loop.trips, ∀ (r : Fin 16), ∀ a, (k1_off26 k1_t3 (BitVec.ofNat 32 r.val)) a + S1x16.size a ≤ S256x128.size a
  k1_off27_inb : ∀ k1_t3 : Fin k1_t3_loop.trips, ∀ (r : Fin 16), ∀ a, (k1_off27 k1_t3 (BitVec.ofNat 32 r.val)) a + S1x16.size a ≤ S256x128.size a
  k1_off28_inb : ∀ k1_t3 : Fin k1_t3_loop.trips, ∀ (r : Fin 16), ∀ a, (k1_off28 k1_t3 (BitVec.ofNat 32 r.val)) a + S1x16.size a ≤ S256x128.size a
  k1_off29_inb : ∀ k1_t3 : Fin k1_t3_loop.trips, ∀ (r : Fin 16), ∀ a, (k1_off29 k1_t3 (BitVec.ofNat 32 r.val)) a + S1x16.size a ≤ S256x128.size a
  k1_off30_inb : ∀ k1_t3 : Fin k1_t3_loop.trips, ∀ (r : Fin 16), ∀ a, (k1_off30 k1_t3 (BitVec.ofNat 32 r.val)) a + S1x16.size a ≤ S256x128.size a
  k1_off31_inb : ∀ (k1_t1 : Fin k1_t1_loop.trips) (k1_t3 : Fin k1_t3_loop.trips), ∀ a, (k1_off31 k1_t1 k1_t3) a + S1x16.size a ≤ S320x128.size a
  k1_off32_inb : ∀ (k1_t1 : Fin k1_t1_loop.trips) (k1_t3 : Fin k1_t3_loop.trips), ∀ a, (k1_off32 k1_t1 k1_t3) a + S1x16.size a ≤ S320x128.size a
  k1_off33_inb : ∀ (k1_t1 : Fin k1_t1_loop.trips) (k1_t3 : Fin k1_t3_loop.trips), ∀ a, (k1_off33 k1_t1 k1_t3) a + S1x16.size a ≤ S320x128.size a
  k1_off34_inb : ∀ (k1_t1 : Fin k1_t1_loop.trips) (k1_t3 : Fin k1_t3_loop.trips), ∀ a, (k1_off34 k1_t1 k1_t3) a + S1x16.size a ≤ S320x128.size a
  k1_off35_inb : ∀ (k1_t1 : Fin k1_t1_loop.trips) (k1_t3 : Fin k1_t3_loop.trips), ∀ a, (k1_off35 k1_t1 k1_t3) a + S1x16.size a ≤ S320x128.size a
  k1_off36_inb : ∀ (k1_t1 : Fin k1_t1_loop.trips) (k1_t3 : Fin k1_t3_loop.trips), ∀ a, (k1_off36 k1_t1 k1_t3) a + S1x16.size a ≤ S320x128.size a
  k1_off37_inb : ∀ (k1_t1 : Fin k1_t1_loop.trips) (k1_t3 : Fin k1_t3_loop.trips), ∀ a, (k1_off37 k1_t1 k1_t3) a + S1x16.size a ≤ S320x128.size a
  k1_off38_inb : ∀ (k1_t1 : Fin k1_t1_loop.trips) (k1_t3 : Fin k1_t3_loop.trips), ∀ a, (k1_off38 k1_t1 k1_t3) a + S1x16.size a ≤ S320x128.size a
  k1_off39_inb : ∀ i : grid1.Coords, ∀ a, (k1_off39 i) a + S320x128.size a ≤ S10240x128.size a

variable [Facts₀]

abbrev cc1_scratch6 : DmaSems sig S_ := SemArray.consecutive 15 S_ hcc1_scratch6
abbrev cc1_scratch7 : DmaSems sig S_ := SemArray.consecutive 16 S_ hcc1_scratch7
abbrev cc1_scratch8 : DmaSems sig S_ := SemArray.consecutive 17 S_ hcc1_scratch8
abbrev cc1_scratch9 : DmaSems sig S_ := SemArray.consecutive 18 S_ hcc1_scratch9
abbrev cc1_scratch10 : DmaSems sig S_ := SemArray.consecutive 19 S_ hcc1_scratch10
abbrev cc1_scratch11 : DmaSems sig S_ := SemArray.consecutive 20 S_ hcc1_scratch11
abbrev cc1_scratch12 : DmaSems sig S_ := SemArray.consecutive 21 S_ hcc1_scratch12
abbrev cc1_scratch13 : DmaSems sig S_ := SemArray.consecutive 22 S_ hcc1_scratch13
abbrev cc1_scoped0 : DmaSems sig S_ := SemArray.consecutive 23 S_ hcc1_scoped0
abbrev cc1_scoped1 : DmaSems sig S_ := SemArray.consecutive 24 S_ hcc1_scoped1
abbrev cc1_scoped2 : DmaSems sig S_ := SemArray.consecutive 25 S_ hcc1_scoped2
abbrev cc1_scoped3 : DmaSems sig S_ := SemArray.consecutive 26 S_ hcc1_scoped3
def dot_S128x512_S128x128_S512x128_0_1_1_0_n_n : DotDims S128x512 S128x128 S512x128 where
  lhsContracting := [0]
  rhsContracting := [1]
  lhsNonContracting := [1]
  rhsNonContracting := [0]
  lhsBatch := []
  rhsBatch := []
  wf := dot_S128x512_S128x128_S512x128_0_1_1_0_n_n_wf

abbrev win0_0 : Pipeline.Window sig grid0 :=
  Pipeline.Window.ofSpec (Memref.whole main_v1) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S512x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S512x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S512x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1x128x10000x1 : Shape := ⟨4, ![1, 128, 10000, 1]⟩
abbrev S2x1x10000x16 : Shape := ⟨4, ![2, 1, 10000, 16]⟩
abbrev S1x10000x3 : Shape := ⟨3, ![1, 10000, 3]⟩
abbrev S1x10000x16 : Shape := ⟨3, ![1, 10000, 16]⟩
abbrev S128x256 : Shape := ⟨2, ![128, 256]⟩
abbrev S128 : Shape := ⟨1, ![128]⟩
abbrev S1x16 : Shape := ⟨2, ![1, 16]⟩
abbrev S1 : Shape := ⟨1, ![1]⟩
abbrev S1x1x10000x16 : Shape := ⟨4, ![1, 1, 10000, 16]⟩
abbrev S1x128x10000 : Shape := ⟨3, ![1, 128, 10000]⟩
abbrev S_ : Shape := ⟨0, ![]⟩
abbrev S10000x16x1 : Shape := ⟨3, ![10000, 16, 1]⟩
abbrev S1x1x1 : Shape := ⟨3, ![1, 1, 1]⟩
abbrev S10000x16 : Shape := ⟨2, ![10000, 16]⟩
abbrev S1x128x10000x16 : Shape := ⟨4, ![1, 128, 10000, 16]⟩
abbrev S1x256x10000x16 : Shape := ⟨4, ![1, 256, 10000, 16]⟩
abbrev S1x10000x16x128 : Shape := ⟨4, ![1, 10000, 16, 128]⟩
abbrev S1x128x1x1 : Shape := ⟨4, ![1, 128, 1, 1]⟩
abbrev S16 : Shape := ⟨1, ![16]⟩
abbrev S1x10000 : Shape := ⟨2, ![1, 10000]⟩
abbrev S1x10000x1 : Shape := ⟨3, ![1, 10000, 1]⟩

abbrev nBuf : Space → Nat
  | .hbm => 106
  | .vmem => 0
  | .smem => 0
  | _ => 0

abbrev bufTy : (tb : Table) → Fin (tcTables nBuf tb) → BufTy
  | .hbm, ⟨0, _⟩ => ⟨S1x128x10000x1, .f32⟩
  | .hbm, ⟨1, _⟩ => ⟨S2x1x10000x16, .i32⟩
  | .hbm, ⟨2, _⟩ => ⟨S1x10000x3, .f32⟩
  | .hbm, ⟨3, _⟩ => ⟨S1x10000x16, .f32⟩
  | .hbm, ⟨4, _⟩ => ⟨S128x256, .f32⟩
  | .hbm, ⟨5, _⟩ => ⟨S128, .f32⟩
  | .hbm, ⟨6, _⟩ => ⟨S1x16, .f32⟩
  | .hbm, ⟨7, _⟩ => ⟨S1, .f32⟩
  | .hbm, ⟨8, _⟩ => ⟨S1x1x10000x16, .i32⟩
  | .hbm, ⟨9, _⟩ => ⟨S1x10000x16, .i32⟩
  | .hbm, ⟨10, _⟩ => ⟨S1x128x10000, .f32⟩
  | .hbm, ⟨11, _⟩ => ⟨S1x128x10000x1, .f32⟩
  | .hbm, ⟨12, _⟩ => ⟨S1x1x10000x16, .i32⟩
  | .hbm, ⟨13, _⟩ => ⟨S_, .i32⟩
  | .hbm, ⟨14, _⟩ => ⟨S1x1x10000x16, .i32⟩
  | .hbm, ⟨15, _⟩ => ⟨S1x1x10000x16, .i1⟩
  | .hbm, ⟨16, _⟩ => ⟨S_, .i32⟩
  | .hbm, ⟨17, _⟩ => ⟨S1x1x10000x16, .i32⟩
  | .hbm, ⟨18, _⟩ => ⟨S1x1x10000x16, .i32⟩
  | .hbm, ⟨19, _⟩ => ⟨S1x1x10000x16, .i32⟩
  | .hbm, ⟨20, _⟩ => ⟨S10000x16x1, .i32⟩
  | .hbm, ⟨21, _⟩ => ⟨S1x128x10000, .f32⟩
  | .hbm, ⟨22, _⟩ => ⟨S1, .i32⟩
  | .hbm, ⟨23, _⟩ => ⟨S_, .i32⟩
  | .hbm, ⟨24, _⟩ => ⟨S10000x16x1, .i32⟩
  | .hbm, ⟨25, _⟩ => ⟨S10000x16x1, .i1⟩
  | .hbm, ⟨26, _⟩ => ⟨S1x1x1, .i32⟩
  | .hbm, ⟨27, _⟩ => ⟨S10000x16x1, .i32⟩
  | .hbm, ⟨28, _⟩ => ⟨S10000x16x1, .i1⟩
  | .hbm, ⟨29, _⟩ => ⟨S10000x16x1, .i1⟩
  | .hbm, ⟨30, _⟩ => ⟨S_, .i1⟩
  | .hbm, ⟨31, _⟩ => ⟨S10000x16, .i1⟩
  | .hbm, ⟨32, _⟩ => ⟨S1x128x10000x16, .f32⟩
  | .hbm, ⟨33, _⟩ => ⟨S1x128x10000x16, .i1⟩
  | .hbm, ⟨34, _⟩ => ⟨S_, .f32⟩
  | .hbm, ⟨35, _⟩ => ⟨S1x128x10000x16, .f32⟩
  | .hbm, ⟨36, _⟩ => ⟨S1x128x10000x16, .f32⟩
  | .hbm, ⟨37, _⟩ => ⟨S1x1x10000x16, .i32⟩
  | .hbm, ⟨38, _⟩ => ⟨S1x10000x16, .i32⟩
  | .hbm, ⟨39, _⟩ => ⟨S1x128x10000, .f32⟩
  | .hbm, ⟨40, _⟩ => ⟨S1x128x10000x1, .f32⟩
  | .hbm, ⟨41, _⟩ => ⟨S1x1x10000x16, .i32⟩
  | .hbm, ⟨42, _⟩ => ⟨S_, .i32⟩
  | .hbm, ⟨43, _⟩ => ⟨S1x1x10000x16, .i32⟩
  | .hbm, ⟨44, _⟩ => ⟨S1x1x10000x16, .i1⟩
  | .hbm, ⟨45, _⟩ => ⟨S_, .i32⟩
  | .hbm, ⟨46, _⟩ => ⟨S1x1x10000x16, .i32⟩
  | .hbm, ⟨47, _⟩ => ⟨S1x1x10000x16, .i32⟩
  | .hbm, ⟨48, _⟩ => ⟨S1x1x10000x16, .i32⟩
  | .hbm, ⟨49, _⟩ => ⟨S10000x16x1, .i32⟩
  | .hbm, ⟨50, _⟩ => ⟨S1x128x10000, .f32⟩
  | .hbm, ⟨51, _⟩ => ⟨S1, .i32⟩
  | .hbm, ⟨52, _⟩ => ⟨S_, .i32⟩
  | .hbm, ⟨53, _⟩ => ⟨S10000x16x1, .i32⟩
  | .hbm, ⟨54, _⟩ => ⟨S10000x16x1, .i1⟩
  | .hbm, ⟨55, _⟩ => ⟨S1x1x1, .i32⟩
  | .hbm, ⟨56, _⟩ => ⟨S10000x16x1, .i32⟩
  | .hbm, ⟨57, _⟩ => ⟨S10000x16x1, .i1⟩
  | .hbm, ⟨58, _⟩ => ⟨S10000x16x1, .i1⟩
  | .hbm, ⟨59, _⟩ => ⟨S_, .i1⟩
  | .hbm, ⟨60, _⟩ => ⟨S10000x16, .i1⟩
  | .hbm, ⟨61, _⟩ => ⟨S1x128x10000x16, .f32⟩
  | .hbm, ⟨62, _⟩ => ⟨S1x128x10000x16, .i1⟩
  | .hbm, ⟨63, _⟩ => ⟨S_, .f32⟩
  | .hbm, ⟨64, _⟩ => ⟨S1x128x10000x16, .f32⟩
  | .hbm, ⟨65, _⟩ => ⟨S1x128x10000x16, .f32⟩
  | .hbm, ⟨66, _⟩ => ⟨S1x128x10000x16, .f32⟩
  | .hbm, ⟨67, _⟩ => ⟨S1x256x10000x16, .f32⟩
  | .hbm, ⟨68, _⟩ => ⟨S1x10000x16x128, .f32⟩
  | .hbm, ⟨69, _⟩ => ⟨S1x128x10000x16, .f32⟩
  | .hbm, ⟨70, _⟩ => ⟨S1x128x1x1, .f32⟩
  | .hbm, ⟨71, _⟩ => ⟨S1x128x10000x16, .f32⟩
  | .hbm, ⟨72, _⟩ => ⟨S1x128x10000x16, .f32⟩
  | .hbm, ⟨73, _⟩ => ⟨S_, .f32⟩
  | .hbm, ⟨74, _⟩ => ⟨S1x128x10000x16, .f32⟩
  | .hbm, ⟨75, _⟩ => ⟨S1x128x10000x16, .f32⟩
  | .hbm, ⟨76, _⟩ => ⟨S16, .f32⟩
  | .hbm, ⟨77, _⟩ => ⟨S1x10000, .f32⟩
  | .hbm, ⟨78, _⟩ => ⟨S_, .f32⟩
  | .hbm, ⟨79, _⟩ => ⟨S1x10000, .f32⟩
  | .hbm, ⟨80, _⟩ => ⟨S1x10000, .f32⟩
  | .hbm, ⟨81, _⟩ => ⟨S1x10000, .f32⟩
  | .hbm, ⟨82, _⟩ => ⟨S1x10000x1, .f32⟩
  | .hbm, ⟨83, _⟩ => ⟨S_, .f32⟩
  | .hbm, ⟨84, _⟩ => ⟨S1x10000x1, .f32⟩
  | .hbm, ⟨85, _⟩ => ⟨S1x10000x1, .f32⟩
  | .hbm, ⟨86, _⟩ => ⟨S1x10000x16, .f32⟩
  | .hbm, ⟨87, _⟩ => ⟨S1x10000x16, .f32⟩
  | .hbm, ⟨88, _⟩ => ⟨S1x10000x16, .f32⟩
  | .hbm, ⟨89, _⟩ => ⟨S1x10000x16, .f32⟩
  | .hbm, ⟨90, _⟩ => ⟨S1x10000x16, .f32⟩
  | .hbm, ⟨91, _⟩ => ⟨S_, .f32⟩
  | .hbm, ⟨92, _⟩ => ⟨S1x10000x16, .f32⟩
  | .hbm, ⟨93, _⟩ => ⟨S1x10000x16, .f32⟩
  | .hbm, ⟨94, _⟩ => ⟨S_, .f32⟩
  | .hbm, ⟨95, _⟩ => ⟨S1x10000x16, .f32⟩
  | .hbm, ⟨96, _⟩ => ⟨S1x10000x16, .f32⟩
  | .hbm, ⟨97, _⟩ => ⟨S_, .f32⟩
  | .hbm, ⟨98, _⟩ => ⟨S1x10000x16, .f32⟩
  | .hbm, ⟨99, _⟩ => ⟨S1x10000x16, .f32⟩
  | .hbm, ⟨100, _⟩ => ⟨S1x1x10000x16, .f32⟩
  | .hbm, ⟨101, _⟩ => ⟨S1x128x10000x16, .f32⟩
  | .hbm, ⟨102, _⟩ => ⟨S1x128x10000x16, .f32⟩
  | .hbm, ⟨103, _⟩ => ⟨S_, .f32⟩
  | .hbm, ⟨104, _⟩ => ⟨S1x128x10000, .f32⟩
  | .hbm, ⟨105, _⟩ => ⟨S1x128x10000x1, .f32⟩
  | _, _ => ⟨S1x128x10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_c_1 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_c_3 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_cst : Ref sig .tc := ⟨.hbm, 34, rfl⟩
abbrev main_call0_v16 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_c_1 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_c_3 : Ref sig .tc := ⟨.hbm, 59, rfl⟩
abbrev main_call1_v13 : Ref sig .tc := ⟨.hbm, 60, rfl⟩
abbrev main_call1_v14 : Ref sig .tc := ⟨.hbm, 61, rfl⟩
abbrev main_call1_v15 : Ref sig .tc := ⟨.hbm, 62, rfl⟩
abbrev main_call1_cst : Ref sig .tc := ⟨.hbm, 63, rfl⟩
abbrev main_call1_v16 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_call2_cst : Ref sig .tc := ⟨.hbm, 73, rfl⟩
abbrev main_call2_v0 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_cst : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_cst_0 : Ref sig .tc := ⟨.hbm, 91, rfl⟩
abbrev main_v34 : Ref sig .tc := ⟨.hbm, 92, rfl⟩
abbrev main_v35 : Ref sig .tc := ⟨.hbm, 93, rfl⟩
abbrev main_cst_1 : Ref sig .tc := ⟨.hbm, 94, rfl⟩
abbrev main_v36 : Ref sig .tc := ⟨.hbm, 95, rfl⟩
abbrev main_v37 : Ref sig .tc := ⟨.hbm, 96, rfl⟩
abbrev main_cst_2 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_3 : Ref sig .tc := ⟨.hbm, 103, rfl⟩
abbrev main_v43 : Ref sig .tc := ⟨.hbm, 104, rfl⟩
abbrev main_v44 : Ref sig .tc := ⟨.hbm, 105, rfl⟩

abbrev nD : Nat := 1
abbrev τ : Topo := Topo.v7x

variable {F : FTy → Type} [FloatOps F]

class Facts₀ : Prop where
  slices_S2x1x10000x16_S1x1x10000x16_1_0_0_0 : S2x1x10000x16.Slices ![1, 0, 0, 0] S1x1x10000x16
  shapeCasts_S1x1x10000x16_S1x10000x16 : S1x1x10000x16.ShapeCasts S1x10000x16
  shapeCasts_S1x128x10000x1_S1x128x10000 : S1x128x10000x1.ShapeCasts S1x128x10000
  bcast_S1x128x10000_S1x128x10000x1_0_1_2 : S1x128x10000.BroadcastsInDim S1x128x10000x1 (![0, 1, 2] : Fin 3 → Fin S1x128x10000x1.rank)
  bcast_S1x10000x16_S1x1x10000x16_0_2_3 : S1x10000x16.BroadcastsInDim S1x1x10000x16 (![0, 2, 3] : Fin 3 → Fin S1x1x10000x16.rank)
  bcast_S_S1x1x10000x16 : S_.BroadcastsInDim S1x1x10000x16 (![] : Fin 0 → Fin S1x1x10000x16.rank)
  shapeCasts_S1x1x10000x16_S10000x16x1 : S1x1x10000x16.ShapeCasts S10000x16x1
  bcast_S_S10000x16x1 : S_.BroadcastsInDim S10000x16x1 (![] : Fin 0 → Fin S10000x16x1.rank)
  bcast_S1_S1x1x1_2 : S1.BroadcastsInDim S1x1x1 (![2] : Fin 1 → Fin S1x1x1.rank)
  bcast_S1x1x1_S10000x16x1_0_1_2 : S1x1x1.BroadcastsInDim S10000x16x1 (![0, 1, 2] : Fin 3 → Fin S10000x16x1.rank)
  reducesTo_S10000x16x1_S10000x16_d2 : S10000x16x1.ReducesTo [2] S10000x16
  h_S_ : 0 < S_.numel
  bcast_S10000x16_S1x128x10000x16_2_3 : S10000x16.BroadcastsInDim S1x128x10000x16 (![2, 3] : Fin 2 → Fin S1x128x10000x16.rank)
  bcast_S_S1x128x10000x16 : S_.BroadcastsInDim S1x128x10000x16 (![] : Fin 0 → Fin S1x128x10000x16.rank)
  slices_S2x1x10000x16_S1x1x10000x16_0_0_0_0 : S2x1x10000x16.Slices ![0, 0, 0, 0] S1x1x10000x16
  concatenates_S1x128x10000x16_S1x128x10000x16_S1x256x10000x16_d1 : Shape.Concatenates [S1x128x10000x16, S1x128x10000x16] S1x256x10000x16 1
  transposes_S1x10000x16x128_S1x128x10000x16_0_3_1_2 : S1x10000x16x128.Transposes [0, 3, 1, 2] S1x128x10000x16
  bcast_S128_S1x128x1x1_1 : S128.BroadcastsInDim S1x128x1x1 (![1] : Fin 1 → Fin S1x128x1x1.rank)
  bcast_S1x128x1x1_S1x128x10000x16_0_1_2_3 : S1x128x1x1.BroadcastsInDim S1x128x10000x16 (![0, 1, 2, 3] : Fin 4 → Fin S1x128x10000x16.rank)
  shapeCasts_S1x16_S16 : S1x16.ShapeCasts S16
  shapeCasts_S1_S_ : S1.ShapeCasts S_
  bcast_S_S1x10000 : S_.BroadcastsInDim S1x10000 (![] : Fin 0 → Fin S1x10000.rank)
  bcast_S1x10000_S1x10000x1_0_1 : S1x10000.BroadcastsInDim S1x10000x1 (![0, 1] : Fin 2 → Fin S1x10000x1.rank)
  bcast_S_S1x10000x1 : S_.BroadcastsInDim S1x10000x1 (![] : Fin 0 → Fin S1x10000x1.rank)
  bcast_S1x10000x1_S1x10000x16_0_1_2 : S1x10000x1.BroadcastsInDim S1x10000x16 (![0, 1, 2] : Fin 3 → Fin S1x10000x16.rank)
  bcast_S_S1x10000x16 : S_.BroadcastsInDim S1x10000x16 (![] : Fin 0 → Fin S1x10000x16.rank)
  bcast_S1x1x10000x16_S1x128x10000x16_0_1_2_3 : S1x1x10000x16.BroadcastsInDim S1x128x10000x16 (![0, 1, 2, 3] : Fin 4 → Fin S1x128x10000x16.rank)
  reducesTo_S1x128x10000x16_S1x128x10000_d3 : S1x128x10000x16.ReducesTo [3] S1x128x10000
  gather_S1x128x10000_S10000x16x1_S1x128x10000x16_01_2_n_n_2_2_11281_wf : GatherDims.WF S1x128x10000 S10000x16x1 S1x128x10000x16 [0, 1] [2] [] [2] [] 2 ![1, 128, 1]
  dot_S1x256x10000x16_S128x256_S1x10000x16x128_1_1_023_0_n_n_wf : DotDims.WF S1x256x10000x16 S128x256 S1x10000x16x128 [1] [1] [0, 2, 3] [0] [] []
  dot_S1x10000x16_S16_S1x10000_2_0_01_n_n_n_wf : DotDims.WF S1x10000x16 S16 S1x10000 [2] [0] [0, 1] [] [] []

variable [Facts₀]

def gather_S1x128x10000_S10000x16x1_S1x128x10000x16_01_2_n_n_2_2_11281 : GatherDims S1x128x10000 S10000x16x1 S1x128x10000x16 where
  offsetDims := [0, 1]
  collapsedSliceDims := [2]
  operandBatchingDims := []
  startIndicesBatchingDims := []
  startIndexMap := [2]
  indexVectorDim := 2
  sliceSizes := ![1, 128, 1]
  wf := gather_S1x128x10000_S10000x16x1_S1x128x10000x16_01_2_n_n_2_2_11281_wf
def dot_S1x256x10000x16_S128x256_S1x10000x16x128_1_1_023_0_n_n : DotDims S1x256x10000x16 S128x256 S1x10000x16x128 where
  lhsContracting := [1]
  rhsContracting := [1]
  lhsNonContracting := [0, 2, 3]
  rhsNonContracting := [0]
  lhsBatch := []
  rhsBatch := []
  wf := dot_S1x256x10000x16_S128x256_S1x10000x16x128_1_1_023_0_n_n_wf
def dot_S1x10000x16_S16_S1x10000_2_0_01_n_n_n : DotDims S1x10000x16 S16 S1x10000 where
  lhsContracting := [2]
  rhsContracting := [0]
  lhsNonContracting := [0, 1]
  rhsNonContracting := []
  lhsBatch := []
  rhsBatch := []
  wf := dot_S1x10000x16_S16_S1x10000_2_0_01_n_n_n_wf

class Facts : Prop extends Facts₀ where

variable [Facts]
-- ==== Proof.RefFrame.lean ====
/-
  The reference program's frame: its run (every weakly fair execution ends, faulting nowhere, the result at the operations' composed
  term and the eight arguments unchanged) with the result's value dropped.
-/
import proofs.«205997_g24756191494465_cont_8to1_1595_42_alg».proof.Defs
import proofs.«205997_g24756191494465_cont_8to1_1595_42_alg».proof.Proof.Gen.ReferenceIdeal
import proofs.«205997_g24756191494465_cont_8to1_1595_42_alg».proof.Proof.Gen.Pre_input_domain
import proofs.«205997_g24756191494465_cont_8to1_1595_42_alg».proof.Proof.RefRun

noncomputable section

namespace Cert.Proof.Ref

open Idealize.ShloMosaic Idealize.ShloMosaic.TcCoe Idealize.SL.Sem

theorem frame_ri : Cert.frame_ReferenceIdeal := fun m ρ _ =>
  (θ_run Cert.ReferenceIdeal.defs _ _).mono (fun _ h c => (h c).2) (Cert.ReferenceIdeal.ValueP.run (F := Ideal) m ρ)

end Cert.Proof.Ref

end
-- ==== Proof.BaseI.lean ====
/-
  The SparseCore program as the launch theorem sees it: its label signature, its call table, its body table, the facts the
  launch asks of the handshake semaphores, and the ghost state (the handshakes' rounds, the pipeline's rounds, the transfers' counters).
-/
import proofs.«205997_g24756191494465_cont_8to1_1595_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205997_g24756191494465_cont_8to1_1595_42_alg».proof.Proof.Gen.KernelIdeal
import proofs.«205997_g24756191494465_cont_8to1_1595_42_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, beside the pipeline's rounds, beside the transfers' counters. -/
abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL

end Cert.Proof.KI

end
-- ==== Proof.PayI.lean ====
/-
  What the launch's handshakes carry for this program.  One SparseCore call, a vector-subcore kernel on 2 × 16 tiles.
  Tile (c, s) is worker 2·s + c: it reads the two node tables y1, y2 whole (rows chosen by its edge list), its own 5120 entries of the
  two edge lists and of the damping factors, and writes its own 320 rows of the output.  So a tile is handed: a read share of each table,
  its slice of the three flat arrays, its rows of the output; and hands the same back.  The edge lists travel with the fact that every
  entry names a row of the tables (below 10240): an indexed copy whose index names no row never completes.
  A SparseCore's share is its sixteen tiles' shares, so the split of a core's operands among its tiles is the identity.
-/
import proofs.«205997_g24756191494465_cont_8to1_1595_42_alg».proof.Proof.BaseI

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)

/-- A tile's grid coordinates (core, subcore), and its thread. -/
def coordsV (c : Fin (grid1.bound 0)) (s : Fin (grid1.bound 1)) : grid1.Coords :=
  fun | 0 => c | 1 => s | ⟨_ + 2, h⟩ => absurd h (Nat.not_lt.2 (Nat.le_add_left _ _))
abbrev cV (L : grid1.Coords) : Fin τ.nSC := (L 0).castLE hcore1
abbrev jV (L : grid1.Coords) : Fin τ.nSub := (L 1).castLE hsub1
abbrev tile (d : Dev nD) (L : grid1.Coords) : Thread nD τ := V d (cV L) (jV L)

/-- The tile's slices, spelt as the kernel slices them. -/
abbrev iiSl (L : grid1.Coords) : Memref sig .scVector .hbm S5120 .i32 := (iiW).slice (Rect.unit (s := S163840) (k1_off1 L) S5120.size (k1_off1_inb L)) (fun _ => rfl)
abbrev ijSl (L : grid1.Coords) : Memref sig .scVector .hbm S5120 .i32 := (ijW).slice (Rect.unit (s := S163840) (k1_off1 L) S5120.size (k1_off1_inb L)) (fun _ => rfl)
abbrev spSl (L : grid1.Coords) : Memref sig .scVector .hbm S5120 .f32 := (spW).slice (Rect.unit (s := S163840) (k1_off1 L) S5120.size (k1_off1_inb L)) (fun _ => rfl)
abbrev ouSl (L : grid1.Coords) : Memref sig .scVector .hbm S320x128 .f32 := (ouW).slice (Rect.unit (s := S10240x128) (k1_off39 L) S320x128.size (k1_off39_inb L)) (fun _ => rfl)

/-- The arrays as the TensorCore's @main names them (one location each; the SparseCore's names denote the same locations). -/
abbrev y1L (d : Dev nD) : Loc nD τ sig := (SparseCore.T d).loc main_v10_0
abbrev y2L (d : Dev nD) : Loc nD τ sig := (SparseCore.T d).loc main_v10_1
abbrev iiL (d : Dev nD) : Loc nD τ sig := (SparseCore.T d).loc main_v14
abbrev ijL (d : Dev nD) : Loc nD τ sig := (SparseCore.T d).loc main_v16
abbrev spL (d : Dev nD) : Loc nD τ sig := (SparseCore.T d).loc main_v17
abbrev ouL (d : Dev nD) : Loc nD τ sig := (SparseCore.T d).loc main_v18

/-- Worker number of tile (c, s), and the read share of the tables it is lent: token number 2·s + c of 32. -/
abbrev wid (L : grid1.Coords) : Fin 32 := ⟨2 * (L 1).val + (L 0).val, by have h0 : (L 0).val < 2 := (L 0).isLt; have h1 : (L 1).val < 16 := (L 1).isLt; omega⟩
abbrev tabShare (L : grid1.Coords) : PosShare TreeShare := Transfers.shareTok fullShare 32 (wid L)

/-- Every entry of an edge list names a row of the node tables. -/
def InRows (S : Finset S163840.Idx) (f : S163840.Idx → BitVec 32) : Prop := ∀ j ∈ S, (f j).toNat < 10240

/-- What a tile is handed (and hands back): contents left open but for the edge lists' range. -/
def tilePay (d : Dev nD) (L : grid1.Coords) : sProp 𝕄 :=
  iprop((∃ f, y1L d ↦{tabShare L} f) ∗ (∃ f, y2L d ↦{tabShare L} f)
    ∗ (∃ f, ⌜InRows (iiSl L).view.set f⌝ ∗ iiL d ↦[(iiSl L).view.set]{fullShare} f)
    ∗ (∃ f, ⌜InRows (ijSl L).view.set f⌝ ∗ ijL d ↦[(ijSl L).view.set]{fullShare} f)
    ∗ (∃ f, spL d ↦[(spSl L).view.set]{fullShare} f)
    ∗ (∃ f, ouL d ↦[(ouSl L).view.set]{fullShare} f))

set_option synthInstance.maxHeartbeats 2000000 in
set_option maxHeartbeats 2000000 in
instance tilePay_storable (d : Dev nD) (L : grid1.Coords) : BI.Storable (upEmb : UEmb _ 𝕄) (tilePay (F := F) d L) := by
  unfold tilePay; infer_instance

theorem nCore_zero : (K (F := F)).nCore 0 = 2 := rfl
theorem nSub_zero : (K (F := F)).nSub 0 = 16 := rfl
theorem bound_zero : grid1.bound 0 = 2 := rfl
theorem bound_one : grid1.bound 1 = 16 := rfl
/-- The grid point of core `c`, subcore `s`. -/
def LL (c : Fin 2) (s : Fin 16) : grid1.Coords := coordsV (Fin.cast bound_zero.symm c) (Fin.cast bound_one.symm s)

/-- The one call's payloads: a SparseCore is handed its sixteen tiles' shares, a tile its own; both hand the same back. -/
def P : (K (F := F)).Pay (nD := nD) (Val := Elt F) (Name := ℕ) (U := UU) where
  st := fun q d c => match q with | 0 => bigSep Finset.univ fun s : Fin 16 => tilePay d (LL (Fin.cast nCore_zero c) s)
  dn := fun q d c => match q with | 0 => bigSep Finset.univ fun s : Fin 16 => tilePay d (LL (Fin.cast nCore_zero c) s)
  go := fun q d c i => match q with | 0 => tilePay d (LL (Fin.cast nCore_zero c) (Fin.cast nSub_zero i))
  td := fun q d c i => match q with | 0 => tilePay d (LL (Fin.cast nCore_zero c) (Fin.cast nSub_zero i))
  x := fun _ _ => iprop(emp)

instance P_storable : (P (F := F)).IsStorable where
  st q d c := match q with
    | 0 => (inferInstance : BI.Storable (upEmb : UEmb _ 𝕄) (bigSep Finset.univ fun s : Fin 16 => tilePay (F := F) d (LL (Fin.cast nCore_zero c) s)))
  dn q d c := match q with
    | 0 => (inferInstance : BI.Storable (upEmb : UEmb _ 𝕄) (bigSep Finset.univ fun s : Fin 16 => tilePay (F := F) d (LL (Fin.cast nCore_zero c) s)))
  go q d c i := match q with
    | 0 => (inferInstance : BI.Storable (upEmb : UEmb _ 𝕄) (tilePay (F := F) d (LL (Fin.cast nCore_zero c) (Fin.cast nSub_zero i))))
  td q d c i := match q with
    | 0 => (inferInstance : BI.Storable (upEmb : UEmb _ 𝕄) (tilePay (F := F) d (LL (Fin.cast nCore_zero c) (Fin.cast nSub_zero i))))

/-- The split of a SparseCore's operands among its tiles: the identity, by the payloads' definition. -/
theorem vecSplit : (K (F := F)).VecSplit' (P (F := F)) 0 := by
  intro d c
  show (bigSep Finset.univ fun s : Fin 16 => tilePay (F := F) d (LL (Fin.cast nCore_zero c) s))
    ⊢ |={Set.univ}=> iprop((bigSep Finset.univ fun i : Fin ((K (F := F)).nSub 0) => tilePay (F := F) d (LL (Fin.cast nCore_zero c) (Fin.cast nSub_zero i)))
      ∗ ((bigSep Finset.univ fun i : Fin ((K (F := F)).nSub 0) => tilePay (F := F) d (LL (Fin.cast nCore_zero c) (Fin.cast nSub_zero i)))
          -∗ bigSep Finset.univ fun s : Fin 16 => tilePay (F := F) d (LL (Fin.cast nCore_zero c) s)))
  iintro H
  imodintro
  isplitl [H]
  · iexact H
  · iintro H; iexact H

end Cert.Proof.KI

end
-- ==== Proof.TileOpenI.lean ====
/-
  A vector subcore's scoped storage, opened: its twelve DMA semaphores at zero and its six scratch buffers at some contents, beside the rest.
-/
import proofs.«205997_g24756191494465_cont_8to1_1595_42_alg».proof.Proof.PayI

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 4000000 in
omit [FloatOps F] in
theorem ownSems0_V (d : Dev nD) (L : grid1.Coords) :
    (ownSems0 (V d (cV L) (jV L)) : sProp 𝕄)
      = iprop(semVal ((V d (cV L) (jV L)), SemLoc.dma cc1_scratch6.sem) 0
          ∗ semVal ((V d (cV L) (jV L)), SemLoc.dma cc1_scratch7.sem) 0
          ∗ semVal ((V d (cV L) (jV L)), SemLoc.dma cc1_scratch8.sem) 0
          ∗ semVal ((V d (cV L) (jV L)), SemLoc.dma cc1_scratch9.sem) 0
          ∗ semVal ((V d (cV L) (jV L)), SemLoc.dma cc1_scratch10.sem) 0
          ∗ semVal ((V d (cV L) (jV L)), SemLoc.dma cc1_scratch11.sem) 0
          ∗ semVal ((V d (cV L) (jV L)), SemLoc.dma cc1_scratch12.sem) 0
          ∗ semVal ((V d (cV L) (jV L)), SemLoc.dma cc1_scratch13.sem) 0
          ∗ semVal ((V d (cV L) (jV L)), SemLoc.dma cc1_scoped0.sem) 0
          ∗ semVal ((V d (cV L) (jV L)), SemLoc.dma cc1_scoped1.sem) 0
          ∗ semVal ((V d (cV L) (jV L)), SemLoc.dma cc1_scoped2.sem) 0
          ∗ semVal ((V d (cV L) (jV L)), SemLoc.dma cc1_scoped3.sem) 0
          ∗ bigSep (((((((((((((ownCells (V d (cV L) (jV L))).erase ((V d (cV L) (jV L)), SemLoc.dma cc1_scratch6.sem)).erase ((V d (cV L) (jV L)), SemLoc.dma cc1_scratch7.sem)).erase ((V d (cV L) (jV L)), SemLoc.dma cc1_scratch8.sem)).erase ((V d (cV L) (jV L)), SemLoc.dma cc1_scratch9.sem)).erase ((V d (cV L) (jV L)), SemLoc.dma cc1_scratch10.sem)).erase ((V d (cV L) (jV L)), SemLoc.dma cc1_scratch11.sem)).erase ((V d (cV L) (jV L)), SemLoc.dma cc1_scratch12.sem)).erase ((V d (cV L) (jV L)), SemLoc.dma cc1_scratch13.sem)).erase ((V d (cV L) (jV L)), SemLoc.dma cc1_scoped0.sem)).erase ((V d (cV L) (jV L)), SemLoc.dma cc1_scoped1.sem)).erase ((V d (cV L) (jV L)), SemLoc.dma cc1_scoped2.sem)).erase ((V d (cV L) (jV L)), SemLoc.dma cc1_scoped3.sem)) fun g => semVal g 0) := by
  unfold SparseCore.Cfg.ownSems0
  rw [SparseCore.bigSep_erase' ((mem_ownCells (g := ((V d (cV L) (jV L)), SemLoc.dma cc1_scratch6.sem))).mpr ⟨rfl, by show (SemLoc.dma cc1_scratch6.sem : SemLoc sig).isScoped .scVector = true; decide⟩),
    SparseCore.bigSep_erase' (Finset.mem_erase.mpr ⟨fun e => absurd (congrArg Prod.snd e) (show (SemLoc.dma cc1_scratch7.sem : SemLoc sig) ≠ SemLoc.dma cc1_scratch6.sem by decide), (mem_ownCells (g := ((V d (cV L) (jV L)), SemLoc.dma cc1_scratch7.sem))).mpr ⟨rfl, by show (SemLoc.dma cc1_scratch7.sem : SemLoc sig).isScoped .scVector = true; decide⟩⟩),
    SparseCore.bigSep_erase' (Finset.mem_erase.mpr ⟨fun e => absurd (congrArg Prod.snd e) (show (SemLoc.dma cc1_scratch8.sem : SemLoc sig) ≠ SemLoc.dma cc1_scratch7.sem by decide), Finset.mem_erase.mpr ⟨fun e => absurd (congrArg Prod.snd e) (show (SemLoc.dma cc1_scratch8.sem : SemLoc sig) ≠ SemLoc.dma cc1_scratch6.sem by decide), (mem_ownCells (g := ((V d (cV L) (jV L)), SemLoc.dma cc1_scratch8.sem))).mpr ⟨rfl, by show (SemLoc.dma cc1_scratch8.sem : SemLoc sig).isScoped .scVector = true; decide⟩⟩⟩),
    SparseCore.bigSep_erase' (Finset.mem_erase.mpr ⟨fun e => absurd (congrArg Prod.snd e) (show (SemLoc.dma cc1_scratch9.sem : SemLoc sig) ≠ SemLoc.dma cc1_scratch8.sem by decide), Finset.mem_erase.mpr ⟨fun e => absurd (congrArg Prod.snd e) (show (SemLoc.dma cc1_scratch9.sem : SemLoc sig) ≠ SemLoc.dma cc1_scratch7.sem by decide), Finset.mem_erase.mpr ⟨fun e => absurd (congrArg Prod.snd e) (show (SemLoc.dma cc1_scratch9.sem : SemLoc sig) ≠ SemLoc.dma cc1_scratch6.sem by decide), (mem_ownCells (g := ((V d (cV L) (jV L)), SemLoc.dma cc1_scratch9.sem))).mpr ⟨rfl, by show (SemLoc.dma cc1_scratch9.sem : SemLoc sig).isScoped .scVector = true; decide⟩⟩⟩⟩),
    SparseCore.bigSep_erase' (Finset.mem_erase.mpr ⟨fun e => absurd (congrArg Prod.snd e) (show (SemLoc.dma cc1_scratch10.sem : SemLoc sig) ≠ SemLoc.dma cc1_scratch9.sem by decide), Finset.mem_erase.mpr ⟨fun e => absurd (congrArg Prod.snd e) (show (SemLoc.dma cc1_scratch10.sem : SemLoc sig) ≠ SemLoc.dma cc1_scratch8.sem by decide), Finset.mem_erase.mpr ⟨fun e => absurd (congrArg Prod.snd e) (show (SemLoc.dma cc1_scratch10.sem : SemLoc sig) ≠ SemLoc.dma cc1_scratch7.sem by decide), Finset.mem_erase.mpr ⟨fun e => absurd (congrArg Prod.snd e) (show (SemLoc.dma cc1_scratch10.sem : SemLoc sig) ≠ SemLoc.dma cc1_scratch6.sem by decide), (mem_ownCells (g := ((V d (cV L) (jV L)), SemLoc.dma cc1_scratch10.sem))).mpr ⟨rfl, by show (SemLoc.dma cc1_scratch10.sem : SemLoc sig).isScoped .scVector = true; decide⟩⟩⟩⟩⟩),
    SparseCore.bigSep_erase' (Finset.mem_erase.mpr ⟨fun e => absurd (congrArg Prod.snd e) (show (SemLoc.dma cc1_scratch11.sem : SemLoc sig) ≠ SemLoc.dma cc1_scratch10.sem by decide), Finset.mem_erase.mpr ⟨fun e => absurd (congrArg Prod.snd e) (show (SemLoc.dma cc1_scratch11.sem : SemLoc sig) ≠ SemLoc.dma cc1_scratch9.sem by decide), Finset.mem_erase.mpr ⟨fun e => absurd (congrArg Prod.snd e) (show (SemLoc.dma cc1_scratch11.sem : SemLoc sig) ≠ SemLoc.dma cc1_scratch8.sem by decide), Finset.mem_erase.mpr ⟨fun e => absurd (congrArg Prod.snd e) (show (SemLoc.dma cc1_scratch11.sem : SemLoc sig) ≠ SemLoc.dma cc1_scratch7.sem by decide), Finset.mem_erase.mpr ⟨fun e => absurd (congrArg Prod.snd e) (show (SemLoc.dma cc1_scratch11.sem : SemLoc sig) ≠ SemLoc.dma cc1_scratch6.sem by decide), (mem_ownCells (g := ((V d (cV L) (jV L)), SemLoc.dma cc1_scratch11.sem))).mpr ⟨rfl, by show (SemLoc.dma cc1_scratch11.sem : SemLoc sig).isScoped .scVector = true; decide⟩⟩⟩⟩⟩⟩),
    SparseCore.bigSep_erase' (Finset.mem_erase.mpr ⟨fun e => absurd (congrArg Prod.snd e) (show (SemLoc.dma cc1_scratch12.sem : SemLoc sig) ≠ SemLoc.dma cc1_scratch11.sem by decide), Finset.mem_erase.mpr ⟨fun e => absurd (congrArg Prod.snd e) (show (SemLoc.dma cc1_scratch12.sem : SemLoc sig) ≠ SemLoc.dma cc1_scratch10.sem by decide), Finset.mem_erase.mpr ⟨fun e => absurd (congrArg Prod.snd e) (show (SemLoc.dma cc1_scratch12.sem : SemLoc sig) ≠ SemLoc.dma cc1_scratch9.sem by decide), Finset.mem_erase.mpr ⟨fun e => absurd (congrArg Prod.snd e) (show (SemLoc.dma cc1_scratch12.sem : SemLoc sig) ≠ SemLoc.dma cc1_scratch8.sem by decide), Finset.mem_erase.mpr ⟨fun e => absurd (congrArg Prod.snd e) (show (SemLoc.dma cc1_scratch12.sem : SemLoc sig) ≠ SemLoc.dma cc1_scratch7.sem by decide), Finset.mem_erase.mpr ⟨fun e => absurd (congrArg Prod.snd e) (show (SemLoc.dma cc1_scratch12.sem : SemLoc sig) ≠ SemLoc.dma cc1_scratch6.sem by decide), (mem_ownCells (g := ((V d (cV L) (jV L)), SemLoc.dma cc1_scratch12.sem))).mpr ⟨rfl, by show (SemLoc.dma cc1_scratch12.sem : SemLoc sig).isScoped .scVector = true; decide⟩⟩⟩⟩⟩⟩⟩),
    SparseCore.bigSep_erase' (Finset.mem_erase.mpr ⟨fun e => absurd (congrArg Prod.snd e) (show (SemLoc.dma cc1_scratch13.sem : SemLoc sig) ≠ SemLoc.dma cc1_scratch12.sem by decide), Finset.mem_erase.mpr ⟨fun e => absurd (congrArg Prod.snd e) (show (SemLoc.dma cc1_scratch13.sem : SemLoc sig) ≠ SemLoc.dma cc1_scratch11.sem by decide), Finset.mem_erase.mpr ⟨fun e => absurd (congrArg Prod.snd e) (show (SemLoc.dma cc1_scratch13.sem : SemLoc sig) ≠ SemLoc.dma cc1_scratch10.sem by decide), Finset.mem_erase.mpr ⟨fun e => absurd (congrArg Prod.snd e) (show (SemLoc.dma cc1_scratch13.sem : SemLoc sig) ≠ SemLoc.dma cc1_scratch9.sem by decide), Finset.mem_erase.mpr ⟨fun e => absurd (congrArg Prod.snd e) (show (SemLoc.dma cc1_scratch13.sem : SemLoc sig) ≠ SemLoc.dma cc1_scratch8.sem by decide), Finset.mem_erase.mpr ⟨fun e => absurd (congrArg Prod.snd e) (show (SemLoc.dma cc1_scratch13.sem : SemLoc sig) ≠ SemLoc.dma cc1_scratch7.sem by decide), Finset.mem_erase.mpr ⟨fun e => absurd (congrArg Prod.snd e) (show (SemLoc.dma cc1_scratch13.sem : SemLoc sig) ≠ SemLoc.dma cc1_scratch6.sem by decide), (mem_ownCells (g := ((V d (cV L) (jV L)), SemLoc.dma cc1_scratch13.sem))).mpr ⟨rfl, by show (SemLoc.dma cc1_scratch13.sem : SemLoc sig).isScoped .scVector = true; decide⟩⟩⟩⟩⟩⟩⟩⟩),
    SparseCore.bigSep_erase' (Finset.mem_erase.mpr ⟨fun e => absurd (congrArg Prod.snd e) (show (SemLoc.dma cc1_scoped0.sem : SemLoc sig) ≠ SemLoc.dma cc1_scratch13.sem by decide), Finset.mem_erase.mpr ⟨fun e => absurd (congrArg Prod.snd e) (show (SemLoc.dma cc1_scoped0.sem : SemLoc sig) ≠ SemLoc.dma cc1_scratch12.sem by decide), Finset.mem_erase.mpr ⟨fun e => absurd (congrArg Prod.snd e) (show (SemLoc.dma cc1_scoped0.sem : SemLoc sig) ≠ SemLoc.dma cc1_scratch11.sem by decide), Finset.mem_erase.mpr ⟨fun e => absurd (congrArg Prod.snd e) (show (SemLoc.dma cc1_scoped0.sem : SemLoc sig) ≠ SemLoc.dma cc1_scratch10.sem by decide), Finset.mem_erase.mpr ⟨fun e => absurd (congrArg Prod.snd e) (show (SemLoc.dma cc1_scoped0.sem : SemLoc sig) ≠ SemLoc.dma cc1_scratch9.sem by decide), Finset.mem_erase.mpr ⟨fun e => absurd (congrArg Prod.snd e) (show (SemLoc.dma cc1_scoped0.sem : SemLoc sig) ≠ SemLoc.dma cc1_scratch8.sem by decide), Finset.mem_erase.mpr ⟨fun e => absurd (congrArg Prod.snd e) (show (SemLoc.dma cc1_scoped0.sem : SemLoc sig) ≠ SemLoc.dma cc1_scratch7.sem by decide), Finset.mem_erase.mpr ⟨fun e => absurd (congrArg Prod.snd e) (show (SemLoc.dma cc1_scoped0.sem : SemLoc sig) ≠ SemLoc.dma cc1_scratch6.sem by decide), (mem_ownCells (g := ((V d (cV L) (jV L)), SemLoc.dma cc1_scoped0.sem))).mpr ⟨rfl, by show (SemLoc.dma cc1_scoped0.sem : SemLoc sig).isScoped .scVector = true; decide⟩⟩⟩⟩⟩⟩⟩⟩⟩),
    SparseCore.bigSep_erase' (Finset.mem_erase.mpr ⟨fun e => absurd (congrArg Prod.snd e) (show (SemLoc.dma cc1_scoped1.sem : SemLoc sig) ≠ SemLoc.dma cc1_scoped0.sem by decide), Finset.mem_erase.mpr ⟨fun e => absurd (congrArg Prod.snd e) (show (SemLoc.dma cc1_scoped1.sem : SemLoc sig) ≠ SemLoc.dma cc1_scratch13.sem by decide), Finset.mem_erase.mpr ⟨fun e => absurd (congrArg Prod.snd e) (show (SemLoc.dma cc1_scoped1.sem : SemLoc sig) ≠ SemLoc.dma cc1_scratch12.sem by decide), Finset.mem_erase.mpr ⟨fun e => absurd (congrArg Prod.snd e) (show (SemLoc.dma cc1_scoped1.sem : SemLoc sig) ≠ SemLoc.dma cc1_scratch11.sem by decide), Finset.mem_erase.mpr ⟨fun e => absurd (congrArg Prod.snd e) (show (SemLoc.dma cc1_scoped1.sem : SemLoc sig) ≠ SemLoc.dma cc1_scratch10.sem by decide), Finset.mem_erase.mpr ⟨fun e => absurd (congrArg Prod.snd e) (show (SemLoc.dma cc1_scoped1.sem : SemLoc sig) ≠ SemLoc.dma cc1_scratch9.sem by decide), Finset.mem_erase.mpr ⟨fun e => absurd (congrArg Prod.snd e) (show (SemLoc.dma cc1_scoped1.sem : SemLoc sig) ≠ SemLoc.dma cc1_scratch8.sem by decide), Finset.mem_erase.mpr ⟨fun e => absurd (congrArg Prod.snd e) (show (SemLoc.dma cc1_scoped1.sem : SemLoc sig) ≠ SemLoc.dma cc1_scratch7.sem by decide), Finset.mem_erase.mpr ⟨fun e => absurd (congrArg Prod.snd e) (show (SemLoc.dma cc1_scoped1.sem : SemLoc sig) ≠ SemLoc.dma cc1_scratch6.sem by decide), (mem_ownCells (g := ((V d (cV L) (jV L)), SemLoc.dma cc1_scoped1.sem))).mpr ⟨rfl, by show (SemLoc.dma cc1_scoped1.sem : SemLoc sig).isScoped .scVector = true; decide⟩⟩⟩⟩⟩⟩⟩⟩⟩⟩),
    SparseCore.bigSep_erase' (Finset.mem_erase.mpr ⟨fun e => absurd (congrArg Prod.snd e) (show (SemLoc.dma cc1_scoped2.sem : SemLoc sig) ≠ SemLoc.dma cc1_scoped1.sem by decide), Finset.mem_erase.mpr ⟨fun e => absurd (congrArg Prod.snd e) (show (SemLoc.dma cc1_scoped2.sem : SemLoc sig) ≠ SemLoc.dma cc1_scoped0.sem by decide), Finset.mem_erase.mpr ⟨fun e => absurd (congrArg Prod.snd e) (show (SemLoc.dma cc1_scoped2.sem : SemLoc sig) ≠ SemLoc.dma cc1_scratch13.sem by decide), Finset.mem_erase.mpr ⟨fun e => absurd (congrArg Prod.snd e) (show (SemLoc.dma cc1_scoped2.sem : SemLoc sig) ≠ SemLoc.dma cc1_scratch12.sem by decide), Finset.mem_erase.mpr ⟨fun e => absurd (congrArg Prod.snd e) (show (SemLoc.dma cc1_scoped2.sem : SemLoc sig) ≠ SemLoc.dma cc1_scratch11.sem by decide), Finset.mem_erase.mpr ⟨fun e => absurd (congrArg Prod.snd e) (show (SemLoc.dma cc1_scoped2.sem : SemLoc sig) ≠ SemLoc.dma cc1_scratch10.sem by decide), Finset.mem_erase.mpr ⟨fun e => absurd (congrArg Prod.snd e) (show (SemLoc.dma cc1_scoped2.sem : SemLoc sig) ≠ SemLoc.dma cc1_scratch9.sem by decide), Finset.mem_erase.mpr ⟨fun e => absurd (congrArg Prod.snd e) (show (SemLoc.dma cc1_scoped2.sem : SemLoc sig) ≠ SemLoc.dma cc1_scratch8.sem by decide), Finset.mem_erase.mpr ⟨fun e => absurd (congrArg Prod.snd e) (show (SemLoc.dma cc1_scoped2.sem : SemLoc sig) ≠ SemLoc.dma cc1_scratch7.sem by decide), Finset.mem_erase.mpr ⟨fun e => absurd (congrArg Prod.snd e) (show (SemLoc.dma cc1_scoped2.sem : SemLoc sig) ≠ SemLoc.dma cc1_scratch6.sem by decide), (mem_ownCells (g := ((V d (cV L) (jV L)), SemLoc.dma cc1_scoped2.sem))).mpr ⟨rfl, by show (SemLoc.dma cc1_scoped2.sem : SemLoc sig).isScoped .scVector = true; decide⟩⟩⟩⟩⟩⟩⟩⟩⟩⟩⟩),
    SparseCore.bigSep_erase' (Finset.mem_erase.mpr ⟨fun e => absurd (congrArg Prod.snd e) (show (SemLoc.dma cc1_scoped3.sem : SemLoc sig) ≠ SemLoc.dma cc1_scoped2.sem by decide), Finset.mem_erase.mpr ⟨fun e => absurd (congrArg Prod.snd e) (show (SemLoc.dma cc1_scoped3.sem : SemLoc sig) ≠ SemLoc.dma cc1_scoped1.sem by decide), Finset.mem_erase.mpr ⟨fun e => absurd (congrArg Prod.snd e) (show (SemLoc.dma cc1_scoped3.sem : SemLoc sig) ≠ SemLoc.dma cc1_scoped0.sem by decide), Finset.mem_erase.mpr ⟨fun e => absurd (congrArg Prod.snd e) (show (SemLoc.dma cc1_scoped3.sem : SemLoc sig) ≠ SemLoc.dma cc1_scratch13.sem by decide), Finset.mem_erase.mpr ⟨fun e => absurd (congrArg Prod.snd e) (show (SemLoc.dma cc1_scoped3.sem : SemLoc sig) ≠ SemLoc.dma cc1_scratch12.sem by decide), Finset.mem_erase.mpr ⟨fun e => absurd (congrArg Prod.snd e) (show (SemLoc.dma cc1_scoped3.sem : SemLoc sig) ≠ SemLoc.dma cc1_scratch11.sem by decide), Finset.mem_erase.mpr ⟨fun e => absurd (congrArg Prod.snd e) (show (SemLoc.dma cc1_scoped3.sem : SemLoc sig) ≠ SemLoc.dma cc1_scratch10.sem by decide), Finset.mem_erase.mpr ⟨fun e => absurd (congrArg Prod.snd e) (show (SemLoc.dma cc1_scoped3.sem : SemLoc sig) ≠ SemLoc.dma cc1_scratch9.sem by decide), Finset.mem_erase.mpr ⟨fun e => absurd (congrArg Prod.snd e) (show (SemLoc.dma cc1_scoped3.sem : SemLoc sig) ≠ SemLoc.dma cc1_scratch8.sem by decide), Finset.mem_erase.mpr ⟨fun e => absurd (congrArg Prod.snd e) (show (SemLoc.dma cc1_scoped3.sem : SemLoc sig) ≠ SemLoc.dma cc1_scratch7.sem by decide), Finset.mem_erase.mpr ⟨fun e => absurd (congrArg Prod.snd e) (show (SemLoc.dma cc1_scoped3.sem : SemLoc sig) ≠ SemLoc.dma cc1_scratch6.sem by decide), (mem_ownCells (g := ((V d (cV L) (jV L)), SemLoc.dma cc1_scoped3.sem))).mpr ⟨rfl, by show (SemLoc.dma cc1_scoped3.sem : SemLoc sig).isScoped .scVector = true; decide⟩⟩⟩⟩⟩⟩⟩⟩⟩⟩⟩⟩)]

set_option maxHeartbeats 4000000 in
omit [FloatOps F] in
theorem ownBufs_V (d : Dev nD) (L : grid1.Coords) :
    (ownBufs (V d (cV L) (jV L)) : sProp 𝕄)
      = iprop((∃ f, (V d (cV L) (jV L)).loc cc1_scratch0 ↦{fullShare} f)
          ∗ (∃ f, (V d (cV L) (jV L)).loc cc1_scratch1 ↦{fullShare} f)
          ∗ (∃ f, (V d (cV L) (jV L)).loc cc1_scratch2 ↦{fullShare} f)
          ∗ (∃ f, (V d (cV L) (jV L)).loc cc1_scratch3 ↦{fullShare} f)
          ∗ (∃ f, (V d (cV L) (jV L)).loc cc1_scratch4 ↦{fullShare} f)
          ∗ (∃ f, (V d (cV L) (jV L)).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc1_scratch0)) rfl),
    SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := ((Proc.scVector (cV L) (jV L)).devRef cc1_scratch5)) rfl⟩⟩⟩⟩⟩)]

end Cert.Proof.KI

end
-- ==== Proof.TileCtxI.lean ====
/-
  The tile's body between the opening and the closing of its scoped storage: what it holds when its task starts, as one assertion.
-/
import proofs.«205997_g24756191494465_cont_8to1_1595_42_alg».proof.Proof.TileOpenI

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

variable [FloatOps F]

/-- What a tile holds when its task starts: the evidence its waits are admissible, a read share of each node table, its slices of the
    three flat arrays and its rows of the output, its six scratch buffers whole, its twelve semaphores at zero, what it owes. -/
def coreCtx (d : Dev nD) (L : grid1.Coords) (q : PosShare TreeShare)
    (fy1 : Buf (Elt F) ((y1W).view.loc (tile d L))) (fy2 : Buf (Elt F) ((y2W).view.loc (tile d L)))
    (fi : Buf (Elt F) ((iiSl L).view.loc (tile d L))) (fj : Buf (Elt F) ((ijSl L).view.loc (tile d L)))
    (fs : Buf (Elt F) ((spSl L).view.loc (tile d L))) (fo : Buf (Elt F) ((ouSl L).view.loc (tile d L)))
    (g0 : Buf (Elt F) ((s0W).view.loc (tile d L))) (g1 : Buf (Elt F) ((s1W).view.loc (tile d L))) (g2 : Buf (Elt F) ((s2W).view.loc (tile d L)))
    (g3 : Buf (Elt F) ((s3W).view.loc (tile d L))) (g4 : Buf (Elt F) ((s4W).view.loc (tile d L))) (g5 : Buf (Elt F) ((s5W).view.loc (tile d L)))
    (O : CellTallies nD τ sig (HIx 1)) (W : Waits sig (HIx 1)) : sProp 𝕄 :=
  iprop((Transfers.MayWaits (tile d L) (none : HIx 1) O : sProp 𝕄)
        ∗ ((y1W).view.loc (tile d L) ↦{q} fy1) ∗ ((y2W).view.loc (tile d L) ↦{q} fy2)
        ∗ ((iiSl L).view.loc (tile d L) ↦[(iiSl L).view.set]{fullShare} fi) ∗ ((ijSl L).view.loc (tile d L) ↦[(ijSl L).view.set]{fullShare} fj)
        ∗ ((spSl L).view.loc (tile d L) ↦[(spSl L).view.set]{fullShare} fs) ∗ ((ouSl L).view.loc (tile d L) ↦[(ouSl L).view.set]{fullShare} fo)
        ∗ ((s0W).view.loc (tile d L) ↦{fullShare} g0) ∗ ((s1W).view.loc (tile d L) ↦{fullShare} g1) ∗ ((s2W).view.loc (tile d L) ↦{fullShare} g2)
        ∗ ((s3W).view.loc (tile d L) ↦{fullShare} g3) ∗ ((s4W).view.loc (tile d L) ↦{fullShare} g4) ∗ ((s5W).view.loc (tile d L) ↦{fullShare} g5)
        ∗ semVal (tile d L, SemLoc.dma cc1_scratch6.sem) 0 ∗ semVal (tile d L, SemLoc.dma cc1_scratch7.sem) 0 ∗ semVal (tile d L, SemLoc.dma cc1_scratch8.sem) 0 ∗ semVal (tile d L, SemLoc.dma cc1_scratch9.sem) 0 ∗ semVal (tile d L, SemLoc.dma cc1_scratch10.sem) 0 ∗ semVal (tile d L, SemLoc.dma cc1_scratch11.sem) 0 ∗ semVal (tile d L, SemLoc.dma cc1_scratch12.sem) 0 ∗ semVal (tile d L, SemLoc.dma cc1_scratch13.sem) 0 ∗ semVal (tile d L, SemLoc.dma cc1_scoped0.sem) 0 ∗ semVal (tile d L, SemLoc.dma cc1_scoped1.sem) 0 ∗ semVal (tile d L, SemLoc.dma cc1_scoped2.sem) 0 ∗ semVal (tile d L, SemLoc.dma cc1_scoped3.sem) 0
        ∗ owes (tile d L) O W)

end Cert.Proof.KI

end
-- ==== Proof.TileOblI.lean ====
/-
  The launch's obligation for a tile, from the tile's core.

  The core is stated over the tile's whole context in the spelling its body reads (each array through the memref the body holds).
  The launch hands a tile its payload, its scoped buffers and its scoped semaphores; this file opens those, respells each piece
  from the location the launch names to the memref the body names (the same location), runs the core, and packs the pieces back.
-/
import proofs.«205997_g24756191494465_cont_8to1_1595_42_alg».proof.Proof.TileCtxI

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

variable [FloatOps F]

/-! ## One location, two spellings -/

section Tile

variable (d : Dev nD) (L : grid1.Coords)

omit [FloatOps F] in
theorem pts_y1 (q : PosShare TreeShare) (f : Buf (Elt F) (y1L d)) :
    ((y1W).view.loc (tile d L) ↦{q} f : sProp 𝕄) = (y1L d ↦{q} f) := rfl
omit [FloatOps F] in
theorem pts_y2 (q : PosShare TreeShare) (f : Buf (Elt F) (y2L d)) :
    ((y2W).view.loc (tile d L) ↦{q} f : sProp 𝕄) = (y2L d ↦{q} f) := rfl
omit [FloatOps F] in
theorem pts_ii (f : Buf (Elt F) (iiL d)) :
    ((iiSl L).view.loc (tile d L) ↦[(iiSl L).view.set]{fullShare} f : sProp 𝕄) = (iiL d ↦[(iiSl L).view.set]{fullShare} f) := rfl
omit [FloatOps F] in
theorem pts_ij (f : Buf (Elt F) (ijL d)) :
    ((ijSl L).view.loc (tile d L) ↦[(ijSl L).view.set]{fullShare} f : sProp 𝕄) = (ijL d ↦[(ijSl L).view.set]{fullShare} f) := rfl
omit [FloatOps F] in
theorem pts_sp (f : Buf (Elt F) (spL d)) :
    ((spSl L).view.loc (tile d L) ↦[(spSl L).view.set]{fullShare} f : sProp 𝕄) = (spL d ↦[(spSl L).view.set]{fullShare} f) := rfl
omit [FloatOps F] in
theorem pts_ou (f : Buf (Elt F) (ouL d)) :
    ((ouSl L).view.loc (tile d L) ↦[(ouSl L).view.set]{fullShare} f : sProp 𝕄) = (ouL d ↦[(ouSl L).view.set]{fullShare} f) := rfl
omit [FloatOps F] in
theorem pts_s0 (f : Buf (Elt F) ((V d (cV L) (jV L)).loc cc1_scratch0)) :
    ((s0W).view.loc (tile d L) ↦{fullShare} f : sProp 𝕄) = ((V d (cV L) (jV L)).loc cc1_scratch0 ↦{fullShare} f) := rfl
omit [FloatOps F] in
theorem pts_s1 (f : Buf (Elt F) ((V d (cV L) (jV L)).loc cc1_scratch1)) :
    ((s1W).view.loc (tile d L) ↦{fullShare} f : sProp 𝕄) = ((V d (cV L) (jV L)).loc cc1_scratch1 ↦{fullShare} f) := rfl
omit [FloatOps F] in
theorem pts_s2 (f : Buf (Elt F) ((V d (cV L) (jV L)).loc cc1_scratch2)) :
    ((s2W).view.loc (tile d L) ↦{fullShare} f : sProp 𝕄) = ((V d (cV L) (jV L)).loc cc1_scratch2 ↦{fullShare} f) := rfl
omit [FloatOps F] in
theorem pts_s3 (f : Buf (Elt F) ((V d (cV L) (jV L)).loc cc1_scratch3)) :
    ((s3W).view.loc (tile d L) ↦{fullShare} f : sProp 𝕄) = ((V d (cV L) (jV L)).loc cc1_scratch3 ↦{fullShare} f) := rfl
omit [FloatOps F] in
theorem pts_s4 (f : Buf (Elt F) ((V d (cV L) (jV L)).loc cc1_scratch4)) :
    ((s4W).view.loc (tile d L) ↦{fullShare} f : sProp 𝕄) = ((V d (cV L) (jV L)).loc cc1_scratch4 ↦{fullShare} f) := rfl
omit [FloatOps F] in
theorem pts_s5 (f : Buf (Elt F) ((V d (cV L) (jV L)).loc cc1_scratch5)) :
    ((s5W).view.loc (tile d L) ↦{fullShare} f : sProp 𝕄) = ((V d (cV L) (jV L)).loc cc1_scratch5 ↦{fullShare} f) := rfl

set_option maxHeartbeats 4000000 in
/-- A tile's task, from what the launch hands it to what it hands back, given the core. -/
theorem tile_body (hF : (K (F := F)).Facts)
    (hcore : ∀ (d : Dev nD) (L : grid1.Coords) (q : PosShare TreeShare)
          (fy1 : Buf (Elt F) ((y1W).view.loc (tile d L))) (fy2 : Buf (Elt F) ((y2W).view.loc (tile d L)))
          (fi : Buf (Elt F) ((iiSl L).view.loc (tile d L))) (fj : Buf (Elt F) ((ijSl L).view.loc (tile d L)))
          (fs : Buf (Elt F) ((spSl L).view.loc (tile d L))) (fo : Buf (Elt F) ((ouSl L).view.loc (tile d L)))
          (g0 : Buf (Elt F) ((s0W).view.loc (tile d L))) (g1 : Buf (Elt F) ((s1W).view.loc (tile d L))) (g2 : Buf (Elt F) ((s2W).view.loc (tile d L)))
          (g3 : Buf (Elt F) ((s3W).view.loc (tile d L))) (g4 : Buf (Elt F) ((s4W).view.loc (tile d L))) (g5 : Buf (Elt F) ((s5W).view.loc (tile d L)))
          (O : CellTallies nD τ sig (HIx 1)) (W : Waits sig (HIx 1)),
          InRows (iiSl L).view.set fi → InRows (ijSl L).view.set fj →
          coreCtx d L q fy1 fy2 fi fj fs fo g0 g1 g2 g3 g4 g5 O W
            ⊢ wp frame (wpE (defs₀ (F := F)) 𝒱₀ (tile d L) none) Set.univ (cc1__sc_kernel L y1W (Memref.isWhole_whole _) y2W (Memref.isWhole_whole _) iiW (Memref.isWhole_whole _) ijW (Memref.isWhole_whole _) spW (Memref.isWhole_whole _) ouW (Memref.isWhole_whole _) s0W (Memref.isWhole_whole _) s1W (Memref.isWhole_whole _) s2W (Memref.isWhole_whole _) s3W (Memref.isWhole_whole _) s4W (Memref.isWhole_whole _) s5W (Memref.isWhole_whole _) cc1_scratch6 cc1_scratch7 cc1_scratch8 cc1_scratch9 cc1_scratch10 cc1_scratch11 cc1_scratch12 cc1_scratch13 cc1_scoped0 cc1_scoped1 cc1_scoped2 cc1_scoped3)
                fun _ => iprop(∃ fo' g0' g1' g2' g3' g4' g5' W', ⌜∀ p ∈ W', p ∈ W ∨ p.2 = none⌝ ∗ coreCtx d L q fy1 fy2 fi fj fs fo' g0' g1' g2' g3' g4' g5' O W'))
    (O : CellTallies nD τ sig (HIx 1)) (W : Waits sig (HIx 1)) (hO : ∀ g, O g none = 0) :
    iprop(levAts (K (F := F)).L (K (F := F)).lev ∗ iprop(emp) ∗ tilePay (F := F) d L
        ∗ scopedBufs (V d (cV L) (jV L)) ∗ scopedSems0 (V d (cV L) (jV L)) ∗ owes (V d (cV L) (jV L)) O W)
      ⊢ wp frame (wpE (defs₀ (F := F)) 𝒱₀ (tile d L) none) Set.univ (cc1__sc_kernel L y1W (Memref.isWhole_whole _) y2W (Memref.isWhole_whole _) iiW (Memref.isWhole_whole _) ijW (Memref.isWhole_whole _) spW (Memref.isWhole_whole _) ouW (Memref.isWhole_whole _) s0W (Memref.isWhole_whole _) s1W (Memref.isWhole_whole _) s2W (Memref.isWhole_whole _) s3W (Memref.isWhole_whole _) s4W (Memref.isWhole_whole _) s5W (Memref.isWhole_whole _) cc1_scratch6 cc1_scratch7 cc1_scratch8 cc1_scratch9 cc1_scratch10 cc1_scratch11 cc1_scratch12 cc1_scratch13 cc1_scoped0 cc1_scoped1 cc1_scoped2 cc1_scoped3)
          fun _ => iprop(tilePay (F := F) d L ∗ scopedBufs (V d (cV L) (jV L)) ∗ scopedSems0 (V d (cV L) (jV L))
            ∗ ∃ W', ⌜∀ p ∈ W', p ∈ W ∨ p.2 = none⌝ ∗ owes (V d (cV L) (jV L)) O W') := by
  unfold coreCtx at hcore
  rw [(K (F := F)).scopedBufs_V hF d (cV L) (jV L), SparseCore.Cfg.scopedSems0_V (Val := Elt F) d (cV L) (jV L),
    ownSems0_V (F := F) d L, ownBufs_V (F := F) d L]
  unfold tilePay
  iintro ⟨#Hlv, -, ⟨⟨%f1, Hy1⟩, ⟨%f2, Hy2⟩, ⟨%fi, %hfi, Hii⟩, ⟨%fj, %hfj, Hij⟩, ⟨%fs, Hsp⟩, ⟨%fo, Hou⟩⟩,
    ⟨⟨%g0, Hs0⟩, ⟨%g1, Hs1⟩, ⟨%g2, Hs2⟩, ⟨%g3, Hs3⟩, ⟨%g4, Hs4⟩, ⟨%g5, Hs5⟩, Hbufs⟩,
    ⟨Hm0, Hm1, Hm2, Hm3, Hm4, Hm5, Hm6, Hm7, Hm8, Hm9, Hm10, Hm11, Hsems⟩, HO⟩
  ihave Hmw := (show levAts (K (F := F)).L (K (F := F)).lev ⊢ Transfers.MayWaits (tile d L) (none : HIx 1) O from
    (K (F := F)).mayWaits_none (thr := tile d L) hO) $$ Hlv
  ihave Hy1' := (Entails.of_eq (pts_y1 (F := F) d L _ _).symm) $$ Hy1
  ihave Hy2' := (Entails.of_eq (pts_y2 (F := F) d L _ _).symm) $$ Hy2
  ihave Hii' := (Entails.of_eq (pts_ii (F := F) d L _).symm) $$ Hii
  ihave Hij' := (Entails.of_eq (pts_ij (F := F) d L _).symm) $$ Hij
  ihave Hsp' := (Entails.of_eq (pts_sp (F := F) d L _).symm) $$ Hsp
  ihave Hou' := (Entails.of_eq (pts_ou (F := F) d L _).symm) $$ Hou
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  ihave Hs4' := (Entails.of_eq (pts_s4 (F := F) d L _).symm) $$ Hs4
  ihave Hs5' := (Entails.of_eq (pts_s5 (F := F) d L _).symm) $$ Hs5
  iapply (wp_wand_r Idealize.ShloMosaic.frame (wpE (defs₀ (F := F)) 𝒱₀ (tile d L) none) Set.univ)
  isplitl [Hy1' Hy2' Hii' Hij' Hsp' Hou' Hs0' Hs1' Hs2' Hs3' Hs4' Hs5' Hm0 Hm1 Hm2 Hm3 Hm4 Hm5 Hm6 Hm7 Hm8 Hm9 Hm10 Hm11 HO]
  · iapply (hcore d L (tabShare L) f1 f2 fi fj fs fo g0 g1 g2 g3 g4 g5 O W hfi hfj)
    isplitr; · iexact Hmw
    isplitl [Hy1']; · iexact Hy1'
    isplitl [Hy2']; · iexact Hy2'
    isplitl [Hii']; · iexact Hii'
    isplitl [Hij']; · iexact Hij'
    isplitl [Hsp']; · iexact Hsp'
    isplitl [Hou']; · iexact Hou'
    isplitl [Hs0']; · iexact Hs0'
    isplitl [Hs1']; · iexact Hs1'
    isplitl [Hs2']; · iexact Hs2'
    isplitl [Hs3']; · iexact Hs3'
    isplitl [Hs4']; · iexact Hs4'
    isplitl [Hs5']; · iexact Hs5'
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    iexact HO
  iintro %_ ⟨%fo', %g0', %g1', %g2', %g3', %g4', %g5', %W', %hW', -, Hy1', Hy2', Hii', Hij', Hsp', Hou', Hs0', Hs1', Hs2', Hs3', Hs4', Hs5', Hm0, Hm1, Hm2, Hm3, Hm4, Hm5, Hm6, Hm7, Hm8, Hm9, Hm10, Hm11, HO⟩
  isplitl [Hy1' Hy2' Hii' Hij' Hsp' Hou']
  · isplitl [Hy1']; · iexists _; iapply (Entails.of_eq (pts_y1 (F := F) d L _ _)); iexact Hy1'
    isplitl [Hy2']; · iexists _; iapply (Entails.of_eq (pts_y2 (F := F) d L _ _)); iexact Hy2'
    isplitl [Hii']
    · iexists _; isplitr; · ipureintro; exact hfi
      iapply (Entails.of_eq (pts_ii (F := F) d L _)); iexact Hii'
    isplitl [Hij']
    · iexists _; isplitr; · ipureintro; exact hfj
      iapply (Entails.of_eq (pts_ij (F := F) d L _)); iexact Hij'
    isplitl [Hsp']; · iexists _; iapply (Entails.of_eq (pts_sp (F := F) d L _)); iexact Hsp'
    iexists _; iapply (Entails.of_eq (pts_ou (F := F) d L _)); iexact Hou'
  isplitl [Hs0' Hs1' Hs2' Hs3' Hs4' Hs5' Hbufs]
  · isplitl [Hs0']; · iexists _; iapply (Entails.of_eq (pts_s0 (F := F) d L _)); iexact Hs0'
    isplitl [Hs1']; · iexists _; iapply (Entails.of_eq (pts_s1 (F := F) d L _)); iexact Hs1'
    isplitl [Hs2']; · iexists _; iapply (Entails.of_eq (pts_s2 (F := F) d L _)); iexact Hs2'
    isplitl [Hs3']; · iexists _; iapply (Entails.of_eq (pts_s3 (F := F) d L _)); iexact Hs3'
    isplitl [Hs4']; · iexists _; iapply (Entails.of_eq (pts_s4 (F := F) d L _)); iexact Hs4'
    isplitl [Hs5']; · iexists _; iapply (Entails.of_eq (pts_s5 (F := F) d L _)); iexact Hs5'
    iexact Hbufs
  isplitl [Hm0 Hm1 Hm2 Hm3 Hm4 Hm5 Hm6 Hm7 Hm8 Hm9 Hm10 Hm11 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    iexact Hsems
  iexists W'; isplitr
  · ipureintro; exact hW'
  iexact HO

end Tile

/-! ## The launch theorem's obligation -/

theorem defs₀_vector (c : Fin τ.nSC) (s : Fin τ.nSub) :
    defs₀ (F := F) (.scVector c s) 1 ⟨⟩
      = SparseCore.onTile hcore1 hsub1 (fun c s => cc1__sc_kernel (coordsV c s) y1W (Memref.isWhole_whole _) y2W (Memref.isWhole_whole _) iiW (Memref.isWhole_whole _) ijW (Memref.isWhole_whole _) spW (Memref.isWhole_whole _) ouW (Memref.isWhole_whole _) s0W (Memref.isWhole_whole _) s1W (Memref.isWhole_whole _) s2W (Memref.isWhole_whole _) s3W (Memref.isWhole_whole _) s4W (Memref.isWhole_whole _) s5W (Memref.isWhole_whole _) cc1_scratch6 cc1_scratch7 cc1_scratch8 cc1_scratch9 cc1_scratch10 cc1_scratch11 cc1_scratch12 cc1_scratch13 cc1_scoped0 cc1_scoped1 cc1_scoped2 cc1_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 4000000 in
/-- THE TILE OBLIGATION: every tile's task, from the launch's hand-out to its hand-back, given the core at a symbolic tile. -/
theorem tileObl (hF : (K (F := F)).Facts)
    (hcore : ∀ (d : Dev nD) (L : grid1.Coords) (q : PosShare TreeShare)
          (fy1 : Buf (Elt F) ((y1W).view.loc (tile d L))) (fy2 : Buf (Elt F) ((y2W).view.loc (tile d L)))
          (fi : Buf (Elt F) ((iiSl L).view.loc (tile d L))) (fj : Buf (Elt F) ((ijSl L).view.loc (tile d L)))
          (fs : Buf (Elt F) ((spSl L).view.loc (tile d L))) (fo : Buf (Elt F) ((ouSl L).view.loc (tile d L)))
          (g0 : Buf (Elt F) ((s0W).view.loc (tile d L))) (g1 : Buf (Elt F) ((s1W).view.loc (tile d L))) (g2 : Buf (Elt F) ((s2W).view.loc (tile d L)))
          (g3 : Buf (Elt F) ((s3W).view.loc (tile d L))) (g4 : Buf (Elt F) ((s4W).view.loc (tile d L))) (g5 : Buf (Elt F) ((s5W).view.loc (tile d L)))
          (O : CellTallies nD τ sig (HIx 1)) (W : Waits sig (HIx 1)),
          InRows (iiSl L).view.set fi → InRows (ijSl L).view.set fj →
          coreCtx d L q fy1 fy2 fi fj fs fo g0 g1 g2 g3 g4 g5 O W
            ⊢ wp frame (wpE (defs₀ (F := F)) 𝒱₀ (tile d L) none) Set.univ (cc1__sc_kernel L y1W (Memref.isWhole_whole _) y2W (Memref.isWhole_whole _) iiW (Memref.isWhole_whole _) ijW (Memref.isWhole_whole _) spW (Memref.isWhole_whole _) ouW (Memref.isWhole_whole _) s0W (Memref.isWhole_whole _) s1W (Memref.isWhole_whole _) s2W (Memref.isWhole_whole _) s3W (Memref.isWhole_whole _) s4W (Memref.isWhole_whole _) s5W (Memref.isWhole_whole _) cc1_scratch6 cc1_scratch7 cc1_scratch8 cc1_scratch9 cc1_scratch10 cc1_scratch11 cc1_scratch12 cc1_scratch13 cc1_scoped0 cc1_scoped1 cc1_scoped2 cc1_scoped3)
                fun _ => iprop(∃ fo' g0' g1' g2' g3' g4' g5' W', ⌜∀ p ∈ W', p ∈ W ∨ p.2 = none⌝ ∗ coreCtx d L q fy1 fy2 fi fj fs fo' g0' g1' g2' g3' g4' g5' O W')) :
    (K (F := F)).TileObl (D (F := F)) 𝒱 (P (F := F)) v₀ 0 := by
  intro d c i O W hO _ _
  -- this kernel owes nothing for a protocol of its own
  simp only [show (P (F := F)).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (LL (Fin.cast nCore_zero c) (Fin.cast nSub_zero i)) hF hcore O W hO).trans (wp_mono frame _ _ fun _ => obl_post)

end Cert.Proof.KI

end
-- ==== Proof.InnerI.lean ====
/-
  The two compute loops of a tile (one per slot of the double buffer), one node per trip, at frame level: what a trip reads it holds
  read-only, what it writes (eight vectors of the node's output row) it holds at contents left open.
-/
import proofs.«205997_g24756191494465_cont_8to1_1595_42_alg».proof.Proof.PayI

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

variable [FloatOps F]

/-- Slot 0's compute loop: the damping factors, the slot's four row windows, and the output scratch, the windows' and the
    output's contents left open. -/
def invIn0 (d : Dev nD) (L : grid1.Coords) (G2 : Buf (Elt F) ((s2W).view.loc (tile d L))) (_ : Nat) (_ : PUnit) : sProp 𝕄 :=
  iprop(∃ (G3a : Buf (Elt F) (((s3W).slice (Rect.unit (s := S256x128) ![0, 0] S64x128.size inb_S256x128_S64x128_0_0) (fun _ => rfl)).view.loc (tile d L))) (G3b : Buf (Elt F) (((s3W).slice (Rect.unit (s := S256x128) ![64, 0] S64x128.size inb_S256x128_S64x128_64_0) (fun _ => rfl)).view.loc (tile d L))) (G4a : Buf (Elt F) (((s4W).slice (Rect.unit (s := S256x128) ![0, 0] S64x128.size inb_S256x128_S64x128_0_0) (fun _ => rfl)).view.loc (tile d L))) (G4b : Buf (Elt F) (((s4W).slice (Rect.unit (s := S256x128) ![64, 0] S64x128.size inb_S256x128_S64x128_64_0) (fun _ => rfl)).view.loc (tile d L))) (G5 : Buf (Elt F) ((s5W).view.loc (tile d L))),
    ((s2W).view.loc (tile d L) ↦{fullShare} G2)
    ∗ (((s3W).slice (Rect.unit (s := S256x128) ![0, 0] S64x128.size inb_S256x128_S64x128_0_0) (fun _ => rfl)).view.loc (tile d L) ↦[((s3W).slice (Rect.unit (s := S256x128) ![0, 0] S64x128.size inb_S256x128_S64x128_0_0) (fun _ => rfl)).view.set]{fullShare} G3a)
    ∗ (((s3W).slice (Rect.unit (s := S256x128) ![64, 0] S64x128.size inb_S256x128_S64x128_64_0) (fun _ => rfl)).view.loc (tile d L) ↦[((s3W).slice (Rect.unit (s := S256x128) ![64, 0] S64x128.size inb_S256x128_S64x128_64_0) (fun _ => rfl)).view.set]{fullShare} G3b)
    ∗ (((s4W).slice (Rect.unit (s := S256x128) ![0, 0] S64x128.size inb_S256x128_S64x128_0_0) (fun _ => rfl)).view.loc (tile d L) ↦[((s4W).slice (Rect.unit (s := S256x128) ![0, 0] S64x128.size inb_S256x128_S64x128_0_0) (fun _ => rfl)).view.set]{fullShare} G4a)
    ∗ (((s4W).slice (Rect.unit (s := S256x128) ![64, 0] S64x128.size inb_S256x128_S64x128_64_0) (fun _ => rfl)).view.loc (tile d L) ↦[((s4W).slice (Rect.unit (s := S256x128) ![64, 0] S64x128.size inb_S256x128_S64x128_64_0) (fun _ => rfl)).view.set]{fullShare} G4b)
    ∗ ((s5W).view.loc (tile d L) ↦{fullShare} G5))

set_option maxHeartbeats 8000000 in
/-- One node of the slot's group: sixteen edges' rows read from the slot's windows (rows 16·n … 16·n+15 of the slot: the first
    window when n < 4, the second otherwise), the node's eight output vectors stored. -/
theorem inner0_trip (d : Dev nD) (L : grid1.Coords) (G2 : Buf (Elt F) ((s2W).view.loc (tile d L))) (k1 : Fin k1_t1_loop.trips) (v18 v19 : BitVec 32) (n : Fin k1_t2_loop.trips) (i : Nat) :
    invIn0 d L G2 i ()
      ⊢ wp frame (wpE (defs₀ (F := F)) 𝒱₀ (tile d L) none) Set.univ
          (k1_t2_body L y1W (Memref.isWhole_whole _) y2W (Memref.isWhole_whole _) iiW (Memref.isWhole_whole _) ijW (Memref.isWhole_whole _)
            spW (Memref.isWhole_whole _) ouW (Memref.isWhole_whole _) s0W (Memref.isWhole_whole _) s1W (Memref.isWhole_whole _) s2W (Memref.isWhole_whole _)
            s3W (Memref.isWhole_whole _) s4W (Memref.isWhole_whole _) s5W (Memref.isWhole_whole _)
            cc1_scratch6 cc1_scratch7 cc1_scratch8 cc1_scratch9 cc1_scratch10 cc1_scratch11 cc1_scratch12 cc1_scratch13 cc1_scoped0 cc1_scoped1 cc1_scoped2 cc1_scoped3 k1 v18 v19 n ())
          fun x => invIn0 d L G2 (i + 1) x := by
  unfold k1_t2_body
  delta invIn0
  iintro ⟨%G3a, %G3b, %G4a, %G4b, %G5, H2, H3a, H3b, H4a, H4b, H5⟩
  have hn : n.val < 8 := lt_of_lt_of_le n.isLt k1_t2_abs.2.1
  by_cases hn4 : n.val < 4
  · sl_exec_parts
    sl_step
    iexists _; iexists _; iexists _; iexists _; iexists _
    isplitl [H2]; · iexact H2
    isplitl [H3a]; · iexact H3a
    isplitl [H3b]; · iexact H3b
    isplitl [H4a]; · iexact H4a
    isplitl [H4b]; · iexact H4b
    iexact H5
  · have hn4' : 4 ≤ n.val := Nat.le_of_not_lt hn4
    sl_exec_parts
    sl_step
    iexists _; iexists _; iexists _; iexists _; iexists _
    isplitl [H2]; · iexact H2
    isplitl [H3a]; · iexact H3a
    isplitl [H3b]; · iexact H3b
    isplitl [H4a]; · iexact H4a
    isplitl [H4b]; · iexact H4b
    iexact H5

/-- Slot 1's compute loop: the damping factors, the slot's four row windows, and the output scratch, the windows' and the
    output's contents left open. -/
def invIn1 (d : Dev nD) (L : grid1.Coords) (G2 : Buf (Elt F) ((s2W).view.loc (tile d L))) (_ : Nat) (_ : PUnit) : sProp 𝕄 :=
  iprop(∃ (G3a : Buf (Elt F) (((s3W).slice (Rect.unit (s := S256x128) ![128, 0] S64x128.size inb_S256x128_S64x128_128_0) (fun _ => rfl)).view.loc (tile d L))) (G3b : Buf (Elt F) (((s3W).slice (Rect.unit (s := S256x128) ![192, 0] S64x128.size inb_S256x128_S64x128_192_0) (fun _ => rfl)).view.loc (tile d L))) (G4a : Buf (Elt F) (((s4W).slice (Rect.unit (s := S256x128) ![128, 0] S64x128.size inb_S256x128_S64x128_128_0) (fun _ => rfl)).view.loc (tile d L))) (G4b : Buf (Elt F) (((s4W).slice (Rect.unit (s := S256x128) ![192, 0] S64x128.size inb_S256x128_S64x128_192_0) (fun _ => rfl)).view.loc (tile d L))) (G5 : Buf (Elt F) ((s5W).view.loc (tile d L))),
    ((s2W).view.loc (tile d L) ↦{fullShare} G2)
    ∗ (((s3W).slice (Rect.unit (s := S256x128) ![128, 0] S64x128.size inb_S256x128_S64x128_128_0) (fun _ => rfl)).view.loc (tile d L) ↦[((s3W).slice (Rect.unit (s := S256x128) ![128, 0] S64x128.size inb_S256x128_S64x128_128_0) (fun _ => rfl)).view.set]{fullShare} G3a)
    ∗ (((s3W).slice (Rect.unit (s := S256x128) ![192, 0] S64x128.size inb_S256x128_S64x128_192_0) (fun _ => rfl)).view.loc (tile d L) ↦[((s3W).slice (Rect.unit (s := S256x128) ![192, 0] S64x128.size inb_S256x128_S64x128_192_0) (fun _ => rfl)).view.set]{fullShare} G3b)
    ∗ (((s4W).slice (Rect.unit (s := S256x128) ![128, 0] S64x128.size inb_S256x128_S64x128_128_0) (fun _ => rfl)).view.loc (tile d L) ↦[((s4W).slice (Rect.unit (s := S256x128) ![128, 0] S64x128.size inb_S256x128_S64x128_128_0) (fun _ => rfl)).view.set]{fullShare} G4a)
    ∗ (((s4W).slice (Rect.unit (s := S256x128) ![192, 0] S64x128.size inb_S256x128_S64x128_192_0) (fun _ => rfl)).view.loc (tile d L) ↦[((s4W).slice (Rect.unit (s := S256x128) ![192, 0] S64x128.size inb_S256x128_S64x128_192_0) (fun _ => rfl)).view.set]{fullShare} G4b)
    ∗ ((s5W).view.loc (tile d L) ↦{fullShare} G5))

set_option maxHeartbeats 8000000 in
/-- One node of the slot's group: sixteen edges' rows read from the slot's windows (rows 16·n … 16·n+15 of the slot: the first
    window when n < 4, the second otherwise), the node's eight output vectors stored. -/
theorem inner1_trip (d : Dev nD) (L : grid1.Coords) (G2 : Buf (Elt F) ((s2W).view.loc (tile d L))) (k1 : Fin k1_t1_loop.trips) (v45 : BitVec 32) (n : Fin k1_t3_loop.trips) (i : Nat) :
    invIn1 d L G2 i ()
      ⊢ wp frame (wpE (defs₀ (F := F)) 𝒱₀ (tile d L) none) Set.univ
          (k1_t3_body L y1W (Memref.isWhole_whole _) y2W (Memref.isWhole_whole _) iiW (Memref.isWhole_whole _) ijW (Memref.isWhole_whole _)
            spW (Memref.isWhole_whole _) ouW (Memref.isWhole_whole _) s0W (Memref.isWhole_whole _) s1W (Memref.isWhole_whole _) s2W (Memref.isWhole_whole _)
            s3W (Memref.isWhole_whole _) s4W (Memref.isWhole_whole _) s5W (Memref.isWhole_whole _)
            cc1_scratch6 cc1_scratch7 cc1_scratch8 cc1_scratch9 cc1_scratch10 cc1_scratch11 cc1_scratch12 cc1_scratch13 cc1_scoped0 cc1_scoped1 cc1_scoped2 cc1_scoped3 k1 v45 n ())
          fun x => invIn1 d L G2 (i + 1) x := by
  unfold k1_t3_body
  delta invIn1
  iintro ⟨%G3a, %G3b, %G4a, %G4b, %G5, H2, H3a, H3b, H4a, H4b, H5⟩
  have hn : n.val < 8 := lt_of_lt_of_le n.isLt k1_t3_abs.2.1
  by_cases hn4 : n.val < 4
  · sl_exec_parts
    sl_step
    iexists _; iexists _; iexists _; iexists _; iexists _
    isplitl [H2]; · iexact H2
    isplitl [H3a]; · iexact H3a
    isplitl [H3b]; · iexact H3b
    isplitl [H4a]; · iexact H4a
    isplitl [H4b]; · iexact H4b
    iexact H5
  · have hn4' : 4 ≤ n.val := Nat.le_of_not_lt hn4
    sl_exec_parts
    sl_step
    iexists _; iexists _; iexists _; iexists _; iexists _
    isplitl [H2]; · iexact H2
    isplitl [H3a]; · iexact H3a
    isplitl [H3b]; · iexact H3b
    isplitl [H4a]; · iexact H4a
    isplitl [H4b]; · iexact H4b
    iexact H5

end Cert.Proof.KI

end
-- ==== Proof.TripI.lean ====
/-
  One trip of a tile's outer loop: two groups of eight nodes, one per slot of the double buffer.  At the head of trip k the four row
  copies of group 2k are in flight into slot 0.  The trip starts group 2k+1's copies into slot 1, waits for slot 0's four, computes
  group 2k out of slot 0; then (unless it is the last trip) starts group 2k+2's copies into slot 0, waits for slot 1's four, computes
  group 2k+1 out of slot 1.  A semaphore carries one copy at a time, and a slot's windows are read only between that slot's four waits
  and its next four issues.
-/
import proofs.«205997_g24756191494465_cont_8to1_1595_42_alg».proof.Proof.InnerI

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

variable [FloatOps F]

/-- The tile's state at the head of an outer trip: four row copies in flight into slot 0 (each holding its row window, a window of its
    index list at a share, a share of its table), slot 1's windows idle, two of the four shares of each table and of each index list
    idle, the four slot-1 semaphores at zero. -/
def pend (d : Dev nD) (L : grid1.Coords) (q : PosShare TreeShare)
    (fy1 : Buf (Elt F) ((y1W).view.loc (tile d L))) (fy2 : Buf (Elt F) ((y2W).view.loc (tile d L)))
    (I0 : Buf (Elt F) ((s0W).view.loc (tile d L))) (I1 : Buf (Elt F) ((s1W).view.loc (tile d L))) (G2 : Buf (Elt F) ((s2W).view.loc (tile d L)))
    (Ga : Buf (Elt F) (((s3W).slice (Rect.unit (s := S256x128) ![0, 0] S64x128.size inb_S256x128_S64x128_0_0) (fun _ => rfl)).view.loc (tile d L))) (Gb : Buf (Elt F) (((s3W).slice (Rect.unit (s := S256x128) ![64, 0] S64x128.size inb_S256x128_S64x128_64_0) (fun _ => rfl)).view.loc (tile d L))) (G3c : Buf (Elt F) (((s3W).slice (Rect.unit (s := S256x128) ![128, 0] S64x128.size inb_S256x128_S64x128_128_0) (fun _ => rfl)).view.loc (tile d L))) (G3d : Buf (Elt F) (((s3W).slice (Rect.unit (s := S256x128) ![192, 0] S64x128.size inb_S256x128_S64x128_192_0) (fun _ => rfl)).view.loc (tile d L)))
    (Gc : Buf (Elt F) (((s4W).slice (Rect.unit (s := S256x128) ![0, 0] S64x128.size inb_S256x128_S64x128_0_0) (fun _ => rfl)).view.loc (tile d L))) (Gd : Buf (Elt F) (((s4W).slice (Rect.unit (s := S256x128) ![64, 0] S64x128.size inb_S256x128_S64x128_64_0) (fun _ => rfl)).view.loc (tile d L))) (G4c : Buf (Elt F) (((s4W).slice (Rect.unit (s := S256x128) ![128, 0] S64x128.size inb_S256x128_S64x128_128_0) (fun _ => rfl)).view.loc (tile d L))) (G4d : Buf (Elt F) (((s4W).slice (Rect.unit (s := S256x128) ![192, 0] S64x128.size inb_S256x128_S64x128_192_0) (fun _ => rfl)).view.loc (tile d L)))
    (G5 : Buf (Elt F) ((s5W).view.loc (tile d L)))
    (SIa SIb : Finset S5120.Idx) (SJa SJb : Finset S5120.Idx)
    (O : CellTallies nD τ sig (HIx 1)) (W : Waits sig (HIx 1)) : sProp 𝕄 :=
  iprop((Transfers.MayWaits (tile d L) (none : HIx 1) O : sProp 𝕄)
    ∗ ((s2W).view.loc (tile d L) ↦{fullShare} G2) ∗ ((s5W).view.loc (tile d L) ↦{fullShare} G5)
    ∗ (((s3W).slice (Rect.unit (s := S256x128) ![128, 0] S64x128.size inb_S256x128_S64x128_128_0) (fun _ => rfl)).view.loc (tile d L) ↦[((s3W).slice (Rect.unit (s := S256x128) ![128, 0] S64x128.size inb_S256x128_S64x128_128_0) (fun _ => rfl)).view.set]{fullShare} G3c) ∗ (((s3W).slice (Rect.unit (s := S256x128) ![192, 0] S64x128.size inb_S256x128_S64x128_192_0) (fun _ => rfl)).view.loc (tile d L) ↦[((s3W).slice (Rect.unit (s := S256x128) ![192, 0] S64x128.size inb_S256x128_S64x128_192_0) (fun _ => rfl)).view.set]{fullShare} G3d)
    ∗ (((s4W).slice (Rect.unit (s := S256x128) ![128, 0] S64x128.size inb_S256x128_S64x128_128_0) (fun _ => rfl)).view.loc (tile d L) ↦[((s4W).slice (Rect.unit (s := S256x128) ![128, 0] S64x128.size inb_S256x128_S64x128_128_0) (fun _ => rfl)).view.set]{fullShare} G4c) ∗ (((s4W).slice (Rect.unit (s := S256x128) ![192, 0] S64x128.size inb_S256x128_S64x128_192_0) (fun _ => rfl)).view.loc (tile d L) ↦[((s4W).slice (Rect.unit (s := S256x128) ![192, 0] S64x128.size inb_S256x128_S64x128_192_0) (fun _ => rfl)).view.set]{fullShare} G4d)
    ∗ Transfers.Flight countersEmb (tile d L) (SemLoc.dma cc1_scratch6.sem) default 262144
        iprop(((((s3W).slice (Rect.unit (s := S256x128) ![0, 0] S64x128.size inb_S256x128_S64x128_0_0) (fun _ => rfl)).view.loc (tile d L) ↦[((s3W).slice (Rect.unit (s := S256x128) ![0, 0] S64x128.size inb_S256x128_S64x128_0_0) (fun _ => rfl)).view.set]{fullShare} Ga) ∗ ((s0W).view.loc (tile d L) ↦[SIa]{fullShare.left.left} I0)) ∗ ((y1W).view.loc (tile d L) ↦[((y1W).slice (Rect.unit (s := S10240x128) ![0, 0] S10240x128.size inb_S10240x128_S10240x128_0_0) (fun _ => rfl)).view.set]{q.left.left} fy1))
    ∗ Transfers.Flight countersEmb (tile d L) (SemLoc.dma cc1_scratch7.sem) default 262144
        iprop(((((s3W).slice (Rect.unit (s := S256x128) ![64, 0] S64x128.size inb_S256x128_S64x128_64_0) (fun _ => rfl)).view.loc (tile d L) ↦[((s3W).slice (Rect.unit (s := S256x128) ![64, 0] S64x128.size inb_S256x128_S64x128_64_0) (fun _ => rfl)).view.set]{fullShare} Gb) ∗ ((s0W).view.loc (tile d L) ↦[SIb]{fullShare.left.right} I0)) ∗ ((y1W).view.loc (tile d L) ↦[((y1W).slice (Rect.unit (s := S10240x128) ![0, 0] S10240x128.size inb_S10240x128_S10240x128_0_0) (fun _ => rfl)).view.set]{q.left.right} fy1))
    ∗ Transfers.Flight countersEmb (tile d L) (SemLoc.dma cc1_scratch8.sem) default 262144
        iprop(((((s4W).slice (Rect.unit (s := S256x128) ![0, 0] S64x128.size inb_S256x128_S64x128_0_0) (fun _ => rfl)).view.loc (tile d L) ↦[((s4W).slice (Rect.unit (s := S256x128) ![0, 0] S64x128.size inb_S256x128_S64x128_0_0) (fun _ => rfl)).view.set]{fullShare} Gc) ∗ ((s1W).view.loc (tile d L) ↦[SJa]{fullShare.left.left} I1)) ∗ ((y2W).view.loc (tile d L) ↦[((y2W).slice (Rect.unit (s := S10240x128) ![0, 0] S10240x128.size inb_S10240x128_S10240x128_0_0) (fun _ => rfl)).view.set]{q.left.left} fy2))
    ∗ Transfers.Flight countersEmb (tile d L) (SemLoc.dma cc1_scratch9.sem) default 262144
        iprop(((((s4W).slice (Rect.unit (s := S256x128) ![64, 0] S64x128.size inb_S256x128_S64x128_64_0) (fun _ => rfl)).view.loc (tile d L) ↦[((s4W).slice (Rect.unit (s := S256x128) ![64, 0] S64x128.size inb_S256x128_S64x128_64_0) (fun _ => rfl)).view.set]{fullShare} Gd) ∗ ((s1W).view.loc (tile d L) ↦[SJb]{fullShare.left.right} I1)) ∗ ((y2W).view.loc (tile d L) ↦[((y2W).slice (Rect.unit (s := S10240x128) ![0, 0] S10240x128.size inb_S10240x128_S10240x128_0_0) (fun _ => rfl)).view.set]{q.left.right} fy2))
    ∗ ((s0W).view.loc (tile d L) ↦[Finset.univ \ SIa]{fullShare.left.left} I0) ∗ ((s0W).view.loc (tile d L) ↦[Finset.univ \ SIb]{fullShare.left.right} I0)
    ∗ ((s0W).view.loc (tile d L) ↦{fullShare.right.left} I0) ∗ ((s0W).view.loc (tile d L) ↦{fullShare.right.right} I0)
    ∗ ((s1W).view.loc (tile d L) ↦[Finset.univ \ SJa]{fullShare.left.left} I1) ∗ ((s1W).view.loc (tile d L) ↦[Finset.univ \ SJb]{fullShare.left.right} I1)
    ∗ ((s1W).view.loc (tile d L) ↦{fullShare.right.left} I1) ∗ ((s1W).view.loc (tile d L) ↦{fullShare.right.right} I1)
    ∗ ((y1W).view.loc (tile d L) ↦[Finset.univ \ ((y1W).slice (Rect.unit (s := S10240x128) ![0, 0] S10240x128.size inb_S10240x128_S10240x128_0_0) (fun _ => rfl)).view.set]{q.left.left} fy1) ∗ ((y1W).view.loc (tile d L) ↦[Finset.univ \ ((y1W).slice (Rect.unit (s := S10240x128) ![0, 0] S10240x128.size inb_S10240x128_S10240x128_0_0) (fun _ => rfl)).view.set]{q.left.right} fy1)
    ∗ ((y1W).view.loc (tile d L) ↦{q.right.left} fy1) ∗ ((y1W).view.loc (tile d L) ↦{q.right.right} fy1)
    ∗ ((y2W).view.loc (tile d L) ↦[Finset.univ \ ((y2W).slice (Rect.unit (s := S10240x128) ![0, 0] S10240x128.size inb_S10240x128_S10240x128_0_0) (fun _ => rfl)).view.set]{q.left.left} fy2) ∗ ((y2W).view.loc (tile d L) ↦[Finset.univ \ ((y2W).slice (Rect.unit (s := S10240x128) ![0, 0] S10240x128.size inb_S10240x128_S10240x128_0_0) (fun _ => rfl)).view.set]{q.left.right} fy2)
    ∗ ((y2W).view.loc (tile d L) ↦{q.right.left} fy2) ∗ ((y2W).view.loc (tile d L) ↦{q.right.right} fy2)
    ∗ semVal (tile d L, SemLoc.dma cc1_scratch10.sem) 0 ∗ semVal (tile d L, SemLoc.dma cc1_scratch11.sem) 0
    ∗ semVal (tile d L, SemLoc.dma cc1_scratch12.sem) 0 ∗ semVal (tile d L, SemLoc.dma cc1_scratch13.sem) 0
    ∗ owes (tile d L) O W)

/-- The tile's state with nothing in flight: every window, every share, all eight semaphores at zero. -/
def idle (d : Dev nD) (L : grid1.Coords) (q : PosShare TreeShare)
    (fy1 : Buf (Elt F) ((y1W).view.loc (tile d L))) (fy2 : Buf (Elt F) ((y2W).view.loc (tile d L)))
    (I0 : Buf (Elt F) ((s0W).view.loc (tile d L))) (I1 : Buf (Elt F) ((s1W).view.loc (tile d L))) (G2 : Buf (Elt F) ((s2W).view.loc (tile d L)))
    (Ga : Buf (Elt F) (((s3W).slice (Rect.unit (s := S256x128) ![0, 0] S64x128.size inb_S256x128_S64x128_0_0) (fun _ => rfl)).view.loc (tile d L))) (Gb : Buf (Elt F) (((s3W).slice (Rect.unit (s := S256x128) ![64, 0] S64x128.size inb_S256x128_S64x128_64_0) (fun _ => rfl)).view.loc (tile d L))) (G3c : Buf (Elt F) (((s3W).slice (Rect.unit (s := S256x128) ![128, 0] S64x128.size inb_S256x128_S64x128_128_0) (fun _ => rfl)).view.loc (tile d L))) (G3d : Buf (Elt F) (((s3W).slice (Rect.unit (s := S256x128) ![192, 0] S64x128.size inb_S256x128_S64x128_192_0) (fun _ => rfl)).view.loc (tile d L)))
    (Gc : Buf (Elt F) (((s4W).slice (Rect.unit (s := S256x128) ![0, 0] S64x128.size inb_S256x128_S64x128_0_0) (fun _ => rfl)).view.loc (tile d L))) (Gd : Buf (Elt F) (((s4W).slice (Rect.unit (s := S256x128) ![64, 0] S64x128.size inb_S256x128_S64x128_64_0) (fun _ => rfl)).view.loc (tile d L))) (G4c : Buf (Elt F) (((s4W).slice (Rect.unit (s := S256x128) ![128, 0] S64x128.size inb_S256x128_S64x128_128_0) (fun _ => rfl)).view.loc (tile d L))) (G4d : Buf (Elt F) (((s4W).slice (Rect.unit (s := S256x128) ![192, 0] S64x128.size inb_S256x128_S64x128_192_0) (fun _ => rfl)).view.loc (tile d L)))
    (G5 : Buf (Elt F) ((s5W).view.loc (tile d L)))
    (O : CellTallies nD τ sig (HIx 1)) (W : Waits sig (HIx 1)) : sProp 𝕄 :=
  iprop((Transfers.MayWaits (tile d L) (none : HIx 1) O : sProp 𝕄)
    ∗ ((s2W).view.loc (tile d L) ↦{fullShare} G2) ∗ ((s5W).view.loc (tile d L) ↦{fullShare} G5)
    ∗ (((s3W).slice (Rect.unit (s := S256x128) ![0, 0] S64x128.size inb_S256x128_S64x128_0_0) (fun _ => rfl)).view.loc (tile d L) ↦[((s3W).slice (Rect.unit (s := S256x128) ![0, 0] S64x128.size inb_S256x128_S64x128_0_0) (fun _ => rfl)).view.set]{fullShare} Ga) ∗ (((s3W).slice (Rect.unit (s := S256x128) ![64, 0] S64x128.size inb_S256x128_S64x128_64_0) (fun _ => rfl)).view.loc (tile d L) ↦[((s3W).slice (Rect.unit (s := S256x128) ![64, 0] S64x128.size inb_S256x128_S64x128_64_0) (fun _ => rfl)).view.set]{fullShare} Gb) ∗ (((s3W).slice (Rect.unit (s := S256x128) ![128, 0] S64x128.size inb_S256x128_S64x128_128_0) (fun _ => rfl)).view.loc (tile d L) ↦[((s3W).slice (Rect.unit (s := S256x128) ![128, 0] S64x128.size inb_S256x128_S64x128_128_0) (fun _ => rfl)).view.set]{fullShare} G3c) ∗ (((s3W).slice (Rect.unit (s := S256x128) ![192, 0] S64x128.size inb_S256x128_S64x128_192_0) (fun _ => rfl)).view.loc (tile d L) ↦[((s3W).slice (Rect.unit (s := S256x128) ![192, 0] S64x128.size inb_S256x128_S64x128_192_0) (fun _ => rfl)).view.set]{fullShare} G3d)
    ∗ (((s4W).slice (Rect.unit (s := S256x128) ![0, 0] S64x128.size inb_S256x128_S64x128_0_0) (fun _ => rfl)).view.loc (tile d L) ↦[((s4W).slice (Rect.unit (s := S256x128) ![0, 0] S64x128.size inb_S256x128_S64x128_0_0) (fun _ => rfl)).view.set]{fullShare} Gc) ∗ (((s4W).slice (Rect.unit (s := S256x128) ![64, 0] S64x128.size inb_S256x128_S64x128_64_0) (fun _ => rfl)).view.loc (tile d L) ↦[((s4W).slice (Rect.unit (s := S256x128) ![64, 0] S64x128.size inb_S256x128_S64x128_64_0) (fun _ => rfl)).view.set]{fullShare} Gd) ∗ (((s4W).slice (Rect.unit (s := S256x128) ![128, 0] S64x128.size inb_S256x128_S64x128_128_0) (fun _ => rfl)).view.loc (tile d L) ↦[((s4W).slice (Rect.unit (s := S256x128) ![128, 0] S64x128.size inb_S256x128_S64x128_128_0) (fun _ => rfl)).view.set]{fullShare} G4c) ∗ (((s4W).slice (Rect.unit (s := S256x128) ![192, 0] S64x128.size inb_S256x128_S64x128_192_0) (fun _ => rfl)).view.loc (tile d L) ↦[((s4W).slice (Rect.unit (s := S256x128) ![192, 0] S64x128.size inb_S256x128_S64x128_192_0) (fun _ => rfl)).view.set]{fullShare} G4d)
    ∗ ((s0W).view.loc (tile d L) ↦{fullShare.left.left} I0) ∗ ((s0W).view.loc (tile d L) ↦{fullShare.left.right} I0) ∗ ((s0W).view.loc (tile d L) ↦{fullShare.right.left} I0) ∗ ((s0W).view.loc (tile d L) ↦{fullShare.right.right} I0)
    ∗ ((s1W).view.loc (tile d L) ↦{fullShare.left.left} I1) ∗ ((s1W).view.loc (tile d L) ↦{fullShare.left.right} I1) ∗ ((s1W).view.loc (tile d L) ↦{fullShare.right.left} I1) ∗ ((s1W).view.loc (tile d L) ↦{fullShare.right.right} I1)
    ∗ ((y1W).view.loc (tile d L) ↦{q.left.left} fy1) ∗ ((y1W).view.loc (tile d L) ↦{q.left.right} fy1) ∗ ((y1W).view.loc (tile d L) ↦{q.right.left} fy1) ∗ ((y1W).view.loc (tile d L) ↦{q.right.right} fy1)
    ∗ ((y2W).view.loc (tile d L) ↦{q.left.left} fy2) ∗ ((y2W).view.loc (tile d L) ↦{q.left.right} fy2) ∗ ((y2W).view.loc (tile d L) ↦{q.right.left} fy2) ∗ ((y2W).view.loc (tile d L) ↦{q.right.right} fy2)
    ∗ semVal (tile d L, SemLoc.dma cc1_scratch6.sem) 0 ∗ semVal (tile d L, SemLoc.dma cc1_scratch7.sem) 0 ∗ semVal (tile d L, SemLoc.dma cc1_scratch8.sem) 0 ∗ semVal (tile d L, SemLoc.dma cc1_scratch9.sem) 0 ∗ semVal (tile d L, SemLoc.dma cc1_scratch10.sem) 0 ∗ semVal (tile d L, SemLoc.dma cc1_scratch11.sem) 0 ∗ semVal (tile d L, SemLoc.dma cc1_scratch12.sem) 0 ∗ semVal (tile d L, SemLoc.dma cc1_scratch13.sem) 0
    ∗ owes (tile d L) O W)

omit [FloatOps F] in
theorem cond1_all (k : Fin k1_t1_loop.trips) : k1_cond1 k = 1#1 := by revert k; decide +kernel
omit [FloatOps F] in
theorem cond2_pos (k : Fin k1_t1_loop.trips) : k1_cond2 k = 1#1 → k.val + 1 < 20 := by revert k; decide +kernel
omit [FloatOps F] in
theorem cond2_neg (k : Fin k1_t1_loop.trips) : ¬ k1_cond2 k = 1#1 → ¬ k.val + 1 < 20 := by revert k; decide +kernel

set_option maxHeartbeats 16000000 in
theorem trip (d : Dev nD) (L : grid1.Coords) (q : PosShare TreeShare)
    (fy1 : Buf (Elt F) ((y1W).view.loc (tile d L))) (fy2 : Buf (Elt F) ((y2W).view.loc (tile d L)))
    (I0 : Buf (Elt F) ((s0W).view.loc (tile d L))) (I1 : Buf (Elt F) ((s1W).view.loc (tile d L))) (G2 : Buf (Elt F) ((s2W).view.loc (tile d L)))
    (Ga : Buf (Elt F) (((s3W).slice (Rect.unit (s := S256x128) ![0, 0] S64x128.size inb_S256x128_S64x128_0_0) (fun _ => rfl)).view.loc (tile d L))) (Gb : Buf (Elt F) (((s3W).slice (Rect.unit (s := S256x128) ![64, 0] S64x128.size inb_S256x128_S64x128_64_0) (fun _ => rfl)).view.loc (tile d L))) (G3c : Buf (Elt F) (((s3W).slice (Rect.unit (s := S256x128) ![128, 0] S64x128.size inb_S256x128_S64x128_128_0) (fun _ => rfl)).view.loc (tile d L))) (G3d : Buf (Elt F) (((s3W).slice (Rect.unit (s := S256x128) ![192, 0] S64x128.size inb_S256x128_S64x128_192_0) (fun _ => rfl)).view.loc (tile d L)))
    (Gc : Buf (Elt F) (((s4W).slice (Rect.unit (s := S256x128) ![0, 0] S64x128.size inb_S256x128_S64x128_0_0) (fun _ => rfl)).view.loc (tile d L))) (Gd : Buf (Elt F) (((s4W).slice (Rect.unit (s := S256x128) ![64, 0] S64x128.size inb_S256x128_S64x128_64_0) (fun _ => rfl)).view.loc (tile d L))) (G4c : Buf (Elt F) (((s4W).slice (Rect.unit (s := S256x128) ![128, 0] S64x128.size inb_S256x128_S64x128_128_0) (fun _ => rfl)).view.loc (tile d L))) (G4d : Buf (Elt F) (((s4W).slice (Rect.unit (s := S256x128) ![192, 0] S64x128.size inb_S256x128_S64x128_192_0) (fun _ => rfl)).view.loc (tile d L)))
    (G5 : Buf (Elt F) ((s5W).view.loc (tile d L)))
    (SIa SIb : Finset S5120.Idx) (SJa SJb : Finset S5120.Idx)
    (O : CellTallies nD τ sig (HIx 1)) (W : Waits sig (HIx 1)) (k : Fin k1_t1_loop.trips)
    (hI0 : ∀ j, (I0 j).toNat < 10240) (hI1 : ∀ j, (I1 j).toNat < 10240) (W₀ : Waits sig (HIx 1)) (hW' : ∀ p ∈ W, p ∈ W₀ ∨ p.2 = none) :
    pend d L q fy1 fy2 I0 I1 G2 Ga Gb G3c G3d Gc Gd G4c G4d G5 SIa SIb SJa SJb O W
      ⊢ wp frame (wpE (defs₀ (F := F)) 𝒱₀ (tile d L) none) Set.univ
          (k1_t1_body L y1W (Memref.isWhole_whole _) y2W (Memref.isWhole_whole _) iiW (Memref.isWhole_whole _) ijW (Memref.isWhole_whole _)
            spW (Memref.isWhole_whole _) ouW (Memref.isWhole_whole _) s0W (Memref.isWhole_whole _) s1W (Memref.isWhole_whole _) s2W (Memref.isWhole_whole _)
            s3W (Memref.isWhole_whole _) s4W (Memref.isWhole_whole _) s5W (Memref.isWhole_whole _)
            cc1_scratch6 cc1_scratch7 cc1_scratch8 cc1_scratch9 cc1_scratch10 cc1_scratch11 cc1_scratch12 cc1_scratch13 cc1_scoped0 cc1_scoped1 cc1_scoped2 cc1_scoped3 k ())
          (fun _ => if k.val + 1 < 20 then
              iprop(∃ G5' W', ⌜∀ p ∈ W', p ∈ W₀ ∨ p.2 = none⌝ ∗
                ∃ Ga' Gb' G3c' G3d' Gc' Gd' G4c' G4d' SIa' SIb' SJa' SJb', pend d L q fy1 fy2 I0 I1 G2 Ga' Gb' G3c' G3d' Gc' Gd' G4c' G4d' G5' SIa' SIb' SJa' SJb' O W')
            else iprop(∃ G5' W', ⌜∀ p ∈ W', p ∈ W₀ ∨ p.2 = none⌝ ∗
                ∃ Ga' Gb' G3c' G3d' Gc' Gd' G4c' G4d', idle d L q fy1 fy2 I0 I1 G2 Ga' Gb' G3c' G3d' Gc' Gd' G4c' G4d' G5' O W')) := by
  unfold k1_t1_body
  simp only [k1_part73_eq_skeleton, k1_part74_eq_skeleton]; unfold k1_part73_skel k1_part74_skel
  delta pend
  iintro ⟨Hmw, H2, H5, H3c, H3d, H4c, H4d, Hf6, Hf7, Hf8, Hf9, H0a, H0b, H0c, H0d, H1a, H1b, H1c, H1d, Hy1a, Hy1b, Hy1c, Hy1d, Hy2a, Hy2b, Hy2c, Hy2d, Hm10, Hm11, Hm12, Hm13, HO⟩
  have k1_h1 : k1_cond1 k = 1#1 := cond1_all k
  have hinA : ∀ x, (((s0W).slice (Rect.unit (s := S5120) (k1_off2 k 0#32) S64.size (k1_off2_inb k k1_h1 0)) (fun _ => rfl)).view.read (Elt F) I0 x).toNat < 10240 := fun x => by rw [View.read_apply]; exact hI0 _
  have hinB : ∀ x, (((s1W).slice (Rect.unit (s := S5120) (k1_off2 k 0#32) S64.size (k1_off2_inb k k1_h1 0)) (fun _ => rfl)).view.read (Elt F) I1 x).toNat < 10240 := fun x => by rw [View.read_apply]; exact hI1 _
  have hinC : ∀ x, (((s0W).slice (Rect.unit (s := S5120) (k1_off2 k 64#32) S64.size (k1_off2_inb k k1_h1 1)) (fun _ => rfl)).view.read (Elt F) I0 x).toNat < 10240 := fun x => by rw [View.read_apply]; exact hI0 _
  have hinD : ∀ x, (((s1W).slice (Rect.unit (s := S5120) (k1_off2 k 64#32) S64.size (k1_off2_inb k k1_h1 1)) (fun _ => rfl)).view.read (Elt F) I1 x).toNat < 10240 := fun x => by rw [View.read_apply]; exact hI1 _
  sl_exec
  sl_rw [bind_assoc]
  sl_for (invIn0 d L G2) $$ [H2 Hf6_dst Hf7_dst Hf8_dst Hf9_dst H5]
  case region =>
    intro n acc
    exact inner0_trip d L G2 k _ _ n _
  · delta invIn0
    iexists _; iexists _; iexists _; iexists _; iexists _
    isplitl [H2]; · iexact H2
    isplitl [Hf6_dst]; · iexact Hf6_dst
    isplitl [Hf7_dst]; · iexact Hf7_dst
    isplitl [Hf8_dst]; · iexact Hf8_dst
    isplitl [Hf9_dst]; · iexact Hf9_dst
    iexact H5
  iintro %_ HI
  delta invIn0
  icases HI with ⟨%G3a', %G3b', %G4a', %G4b', %G5', H2, H3a, H3b, H4a, H4b, H5⟩
  by_cases k1_h2 : k1_cond2 k = 1#1
  · have hlt : k.val + 1 < 20 := cond2_pos k k1_h2
    have hinE : ∀ x, (((s0W).slice (Rect.unit (s := S5120) (k1_off21 k 0#32) S64.size (k1_off21_inb k k1_h2 0)) (fun _ => rfl)).view.read (Elt F) I0 x).toNat < 10240 := fun x => by rw [View.read_apply]; exact hI0 _
    have hinF : ∀ x, (((s1W).slice (Rect.unit (s := S5120) (k1_off21 k 0#32) S64.size (k1_off21_inb k k1_h2 0)) (fun _ => rfl)).view.read (Elt F) I1 x).toNat < 10240 := fun x => by rw [View.read_apply]; exact hI1 _
    have hinG : ∀ x, (((s0W).slice (Rect.unit (s := S5120) (k1_off21 k 64#32) S64.size (k1_off21_inb k k1_h2 1)) (fun _ => rfl)).view.read (Elt F) I0 x).toNat < 10240 := fun x => by rw [View.read_apply]; exact hI0 _
    have hinH : ∀ x, (((s1W).slice (Rect.unit (s := S5120) (k1_off21 k 64#32) S64.size (k1_off21_inb k k1_h2 1)) (fun _ => rfl)).view.read (Elt F) I1 x).toNat < 10240 := fun x => by rw [View.read_apply]; exact hI1 _
    sl_exec
    sl_for (invIn1 d L G2) $$ [H2 H3c H3d H4c H4d H5]
    case region =>
      intro n acc
      exact inner1_trip d L G2 k _ n _
    · delta invIn1
      iexists _; iexists _; iexists _; iexists _; iexists _
      isplitl [H2]; · iexact H2
      isplitl [H3c]; · iexact H3c
      isplitl [H3d]; · iexact H3d
      isplitl [H4c]; · iexact H4c
      isplitl [H4d]; · iexact H4d
      iexact H5
    iintro %_ HI
    delta invIn1
    icases HI with ⟨%G3c', %G3d', %G4c', %G4d', %G5'', H2, H3c, H3d, H4c, H4d, H5⟩
    sl_exec
    sl_step
    rw [if_pos hlt]
    iexists G5''; iexists (insert (SemLoc.dma cc1_scratch13.sem, (default : HIx 1)) (insert (SemLoc.dma cc1_scratch11.sem, (default : HIx 1)) (insert (SemLoc.dma cc1_scratch12.sem, (default : HIx 1)) (insert (SemLoc.dma cc1_scratch10.sem, (default : HIx 1)) (insert (SemLoc.dma cc1_scratch9.sem, (default : HIx 1)) (insert (SemLoc.dma cc1_scratch7.sem, (default : HIx 1)) (insert (SemLoc.dma cc1_scratch8.sem, (default : HIx 1)) (insert (SemLoc.dma cc1_scratch6.sem, (default : HIx 1)) W)))))))); isplitr
    · ipureintro; intro p hp
      simp only [Finset.mem_insert] at hp
      rcases hp with rfl | rfl | rfl | rfl | rfl | rfl | rfl | rfl | hp
      all_goals first | exact .inr rfl | exact hW' p hp
    iexists _; iexists _; iexists _; iexists _; iexists _; iexists _; iexists _; iexists _; iexists _; iexists _; iexists _; iexists _
    isplitl [Hmw]; · iexact Hmw
    isplitl [H2]; · iexact H2
    isplitl [H5]; · iexact H5
    isplitl [H3c]; · iexact H3c
    isplitl [H3d]; · iexact H3d
    isplitl [H4c]; · iexact H4c
    isplitl [H4d]; · iexact H4d
    isplitl [Hf6]; · iexact Hf6
    isplitl [Hf7]; · iexact Hf7
    isplitl [Hf8]; · iexact Hf8
    isplitl [Hf9]; · iexact Hf9
    isplitl [H0a]; · iexact H0a
    isplitl [H0b]; · iexact H0b
    isplitl [H0c]; · iexact H0c
    isplitl [H0d]; · iexact H0d
    isplitl [H1a]; · iexact H1a
    isplitl [H1b]; · iexact H1b
    isplitl [H1c]; · iexact H1c
    isplitl [H1d]; · iexact H1d
    isplitl [Hy1a]; · iexact Hy1a
    isplitl [Hy1b]; · iexact Hy1b
    isplitl [Hy1c]; · iexact Hy1c
    isplitl [Hy1d]; · iexact Hy1d
    isplitl [Hy2a]; · iexact Hy2a
    isplitl [Hy2b]; · iexact Hy2b
    isplitl [Hy2c]; · iexact Hy2c
    isplitl [Hy2d]; · iexact Hy2d
    isplitl [Hm10]; · iexact Hm10
    isplitl [Hm11]; · iexact Hm11
    isplitl [Hm12]; · iexact Hm12
    isplitl [Hm13]; · iexact Hm13
    iexact HO
  · have hge : ¬ k.val + 1 < 20 := cond2_neg k k1_h2
    sl_exec
    sl_for (invIn1 d L G2) $$ [H2 H3c H3d H4c H4d H5]
    case region =>
      intro n acc
      exact inner1_trip d L G2 k _ n _
    · delta invIn1
      iexists _; iexists _; iexists _; iexists _; iexists _
      isplitl [H2]; · iexact H2
      isplitl [H3c]; · iexact H3c
      isplitl [H3d]; · iexact H3d
      isplitl [H4c]; · iexact H4c
      isplitl [H4d]; · iexact H4d
      iexact H5
    iintro %_ HI
    delta invIn1
    icases HI with ⟨%G3c', %G3d', %G4c', %G4d', %G5'', H2, H3c, H3d, H4c, H4d, H5⟩
    sl_exec
    sl_step
    rw [if_neg hge]
    iexists G5''; iexists (insert (SemLoc.dma cc1_scratch13.sem, (default : HIx 1)) (insert (SemLoc.dma cc1_scratch11.sem, (default : HIx 1)) (insert (SemLoc.dma cc1_scratch12.sem, (default : HIx 1)) (insert (SemLoc.dma cc1_scratch10.sem, (default : HIx 1)) (insert (SemLoc.dma cc1_scratch9.sem, (default : HIx 1)) (insert (SemLoc.dma cc1_scratch7.sem, (default : HIx 1)) (insert (SemLoc.dma cc1_scratch8.sem, (default : HIx 1)) (insert (SemLoc.dma cc1_scratch6.sem, (default : HIx 1)) W)))))))); isplitr
    · ipureintro; intro p hp
      simp only [Finset.mem_insert] at hp
      rcases hp with rfl | rfl | rfl | rfl | rfl | rfl | rfl | rfl | hp
      all_goals first | exact .inr rfl | exact hW' p hp
    iexists _; iexists _; iexists _; iexists _; iexists _; iexists _; iexists _; iexists _
    delta idle
    isplitl [Hmw]; · iexact Hmw
    isplitl [H2]; · iexact H2
    isplitl [H5]; · iexact H5
    isplitl [H3a]; · iexact H3a
    isplitl [H3b]; · iexact H3b
    isplitl [H3c]; · iexact H3c
    isplitl [H3d]; · iexact H3d
    isplitl [H4a]; · iexact H4a
    isplitl [H4b]; · iexact H4b
    isplitl [H4c]; · iexact H4c
    isplitl [H4d]; · iexact H4d
    isplitl [H0a]; · iexact H0a
    isplitl [H0b]; · iexact H0b
    isplitl [H0c]; · iexact H0c
    isplitl [H0d]; · iexact H0d
    isplitl [H1a]; · iexact H1a
    isplitl [H1b]; · iexact H1b
    isplitl [H1c]; · iexact H1c
    isplitl [H1d]; · iexact H1d
    isplitl [Hy1a]; · iexact Hy1a
    isplitl [Hy1b]; · iexact Hy1b
    isplitl [Hy1c]; · iexact Hy1c
    isplitl [Hy1d]; · iexact Hy1d
    isplitl [Hy2a]; · iexact Hy2a
    isplitl [Hy2b]; · iexact Hy2b
    isplitl [Hy2c]; · iexact Hy2c
    isplitl [Hy2d]; · iexact Hy2d
    isplitl [Hf6]; · iexact Hf6
    isplitl [Hf7]; · iexact Hf7
    isplitl [Hf8]; · iexact Hf8
    isplitl [Hf9]; · iexact Hf9
    isplitl [Hm10]; · iexact Hm10
    isplitl [Hm11]; · iexact Hm11
    isplitl [Hm12]; · iexact Hm12
    isplitl [Hm13]; · iexact Hm13
    iexact HO

end Cert.Proof.KI

end
-- ==== Proof.QuartersI.lean ====
/-
  A 256-row scratch buffer as its four 64-row windows: the rectangles the kernel's indexed copies land in are the four parts of the
  buffer along its first axis, pairwise disjoint and together all of it; so the buffer held whole is its four windows held side by side,
  and back (the windows' contents glued).
-/
import proofs.«205997_g24756191494465_cont_8to1_1595_42_alg».proof.Proof.TileCtxI

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

variable [FloatOps F]

omit [FloatOps F] in
theorem hdiv4 : 4 ∣ S256x128.size 0 := ⟨64, rfl⟩
/-- Window `j` of four. -/
abbrev Qr (j : Fin 4) : Rect S256x128 := Rect.part (s := S256x128) (a₀ := 0) hdiv4 j

omit [FloatOps F] in
theorem qr_eq (j : Fin 4) (h : ∀ a, (![64 * j.val, 0] : Fin 2 → Nat) a + S64x128.size a ≤ S256x128.size a) :
    Rect.unit (s := S256x128) ![64 * j.val, 0] S64x128.size h = Qr j := by
  unfold Qr Rect.part Rect.block
  congr 1 <;> funext a
  · match a with
    | 0 => simp [Shape.partIx, Shape.partSize, Nat.mul_comm]
    | 1 => simp [Shape.partIx, Shape.partSize]
  · match a with
    | 0 => simp [Shape.partSize]
    | 1 => simp [Shape.partSize]

omit [FloatOps F] in
theorem dq (i j : Fin 4) (h : i ≠ j) : Disjoint (Qr i).set (Qr j).set := Rect.part_disjoint hdiv4 h
omit [FloatOps F] in
theorem cover4 : (Qr 0).set ∪ ((Qr 1).set ∪ ((Qr 2).set ∪ (Qr 3).set)) = Finset.univ := by
  have h := Rect.biUnion_part (s := S256x128) (a₀ := 0) hdiv4
  rw [show (Finset.univ : Finset (Fin 4)) = {0, 1, 2, 3} by decide, Finset.biUnion_insert, Finset.biUnion_insert, Finset.biUnion_insert,
    Finset.singleton_biUnion] at h
  exact h

omit [FloatOps F] in
theorem q3set_0 : ((s3W).slice (Rect.unit (s := S256x128) ![0, 0] S64x128.size inb_S256x128_S64x128_0_0) (fun _ => rfl)).view.set = (Qr 0).set := by
  show ((View.whole (cc1_scratch3 : Ref sig .scVector)).slice (Rect.unit (s := S256x128) ![0, 0] S64x128.size inb_S256x128_S64x128_0_0)).set = _
  rw [View.set_slice_whole]; exact congrArg (fun r : Rect S256x128 => r.set) (qr_eq 0 _)
omit [FloatOps F] in
theorem q3set_64 : ((s3W).slice (Rect.unit (s := S256x128) ![64, 0] S64x128.size inb_S256x128_S64x128_64_0) (fun _ => rfl)).view.set = (Qr 1).set := by
  show ((View.whole (cc1_scratch3 : Ref sig .scVector)).slice (Rect.unit (s := S256x128) ![64, 0] S64x128.size inb_S256x128_S64x128_64_0)).set = _
  rw [View.set_slice_whole]; exact congrArg (fun r : Rect S256x128 => r.set) (qr_eq 1 _)
omit [FloatOps F] in
theorem q3set_128 : ((s3W).slice (Rect.unit (s := S256x128) ![128, 0] S64x128.size inb_S256x128_S64x128_128_0) (fun _ => rfl)).view.set = (Qr 2).set := by
  show ((View.whole (cc1_scratch3 : Ref sig .scVector)).slice (Rect.unit (s := S256x128) ![128, 0] S64x128.size inb_S256x128_S64x128_128_0)).set = _
  rw [View.set_slice_whole]; exact congrArg (fun r : Rect S256x128 => r.set) (qr_eq 2 _)
omit [FloatOps F] in
theorem q3set_192 : ((s3W).slice (Rect.unit (s := S256x128) ![192, 0] S64x128.size inb_S256x128_S64x128_192_0) (fun _ => rfl)).view.set = (Qr 3).set := by
  show ((View.whole (cc1_scratch3 : Ref sig .scVector)).slice (Rect.unit (s := S256x128) ![192, 0] S64x128.size inb_S256x128_S64x128_192_0)).set = _
  rw [View.set_slice_whole]; exact congrArg (fun r : Rect S256x128 => r.set) (qr_eq 3 _)

/-- The buffer held whole is its four windows held side by side. -/
theorem s3_split (d : Dev nD) (L : grid1.Coords) (g : Buf (Elt F) ((s3W).view.loc (tile d L))) :
    ((s3W).view.loc (tile d L) ↦{fullShare} g : sProp 𝕄)
      ⊢ iprop((((s3W).slice (Rect.unit (s := S256x128) ![0, 0] S64x128.size inb_S256x128_S64x128_0_0) (fun _ => rfl)).view.loc (tile d L) ↦[((s3W).slice (Rect.unit (s := S256x128) ![0, 0] S64x128.size inb_S256x128_S64x128_0_0) (fun _ => rfl)).view.set]{fullShare} g)
        ∗ (((s3W).slice (Rect.unit (s := S256x128) ![64, 0] S64x128.size inb_S256x128_S64x128_64_0) (fun _ => rfl)).view.loc (tile d L) ↦[((s3W).slice (Rect.unit (s := S256x128) ![64, 0] S64x128.size inb_S256x128_S64x128_64_0) (fun _ => rfl)).view.set]{fullShare} g)
        ∗ (((s3W).slice (Rect.unit (s := S256x128) ![128, 0] S64x128.size inb_S256x128_S64x128_128_0) (fun _ => rfl)).view.loc (tile d L) ↦[((s3W).slice (Rect.unit (s := S256x128) ![128, 0] S64x128.size inb_S256x128_S64x128_128_0) (fun _ => rfl)).view.set]{fullShare} g)
        ∗ (((s3W).slice (Rect.unit (s := S256x128) ![192, 0] S64x128.size inb_S256x128_S64x128_192_0) (fun _ => rfl)).view.loc (tile d L) ↦[((s3W).slice (Rect.unit (s := S256x128) ![192, 0] S64x128.size inb_S256x128_S64x128_192_0) (fun _ => rfl)).view.set]{fullShare} g)) := by
  have h : ((s3W).view.loc (tile d L) ↦[(Finset.univ : Finset (Fin 4)).biUnion fun j => (Qr j).set]{fullShare} g : sProp 𝕄)
      = bigSep Finset.univ fun j : Fin 4 => (s3W).view.loc (tile d L) ↦[(Qr j).set]{fullShare} g :=
    pointsTo_biUnion _ _ (fun i _ j _ hij => Rect.part_disjoint hdiv4 hij)
  rw [Rect.biUnion_part hdiv4] at h
  rw [q3set_0, q3set_64, q3set_128, q3set_192]
  refine (Entails.of_eq h).trans ?_
  rw [show (Finset.univ : Finset (Fin 4)) = {0, 1, 2, 3} by decide, SparseCore.bigSep_insert' (by decide), SparseCore.bigSep_insert' (by decide),
    SparseCore.bigSep_insert' (by decide), bigSep_singleton]

/-- Four windows held side by side, each at contents of its own, are the buffer held whole at some contents. -/
theorem s3_join (d : Dev nD) (L : grid1.Coords) (ga gb gc gd : Buf (Elt F) ((s3W).view.loc (tile d L))) :
    iprop((((s3W).slice (Rect.unit (s := S256x128) ![0, 0] S64x128.size inb_S256x128_S64x128_0_0) (fun _ => rfl)).view.loc (tile d L) ↦[((s3W).slice (Rect.unit (s := S256x128) ![0, 0] S64x128.size inb_S256x128_S64x128_0_0) (fun _ => rfl)).view.set]{fullShare} ga)
        ∗ (((s3W).slice (Rect.unit (s := S256x128) ![64, 0] S64x128.size inb_S256x128_S64x128_64_0) (fun _ => rfl)).view.loc (tile d L) ↦[((s3W).slice (Rect.unit (s := S256x128) ![64, 0] S64x128.size inb_S256x128_S64x128_64_0) (fun _ => rfl)).view.set]{fullShare} gb)
        ∗ (((s3W).slice (Rect.unit (s := S256x128) ![128, 0] S64x128.size inb_S256x128_S64x128_128_0) (fun _ => rfl)).view.loc (tile d L) ↦[((s3W).slice (Rect.unit (s := S256x128) ![128, 0] S64x128.size inb_S256x128_S64x128_128_0) (fun _ => rfl)).view.set]{fullShare} gc)
        ∗ (((s3W).slice (Rect.unit (s := S256x128) ![192, 0] S64x128.size inb_S256x128_S64x128_192_0) (fun _ => rfl)).view.loc (tile d L) ↦[((s3W).slice (Rect.unit (s := S256x128) ![192, 0] S64x128.size inb_S256x128_S64x128_192_0) (fun _ => rfl)).view.set]{fullShare} gd))
      ⊢ (iprop(∃ g, (s3W).view.loc (tile d L) ↦{fullShare} g) : sProp 𝕄) := by
  rw [q3set_0, q3set_64, q3set_128, q3set_192]
  iintro ⟨Ha, Hb, Hc, Hd⟩
  ihave Hcd := (pointsTo_join (ℓ := (s3W).view.loc (tile d L)) (dq 2 3 (by decide))) $$ [Hc Hd]
  · isplitl [Hc]; · iexact Hc
    iexact Hd
  ihave Hbcd := (pointsTo_join (ℓ := (s3W).view.loc (tile d L)) (Finset.disjoint_union_right.mpr ⟨dq 1 2 (by decide), dq 1 3 (by decide)⟩)) $$ [Hb Hcd]
  · isplitl [Hb]; · iexact Hb
    iexact Hcd
  ihave Hall := (pointsTo_join (ℓ := (s3W).view.loc (tile d L)) (Finset.disjoint_union_right.mpr ⟨dq 0 1 (by decide), Finset.disjoint_union_right.mpr ⟨dq 0 2 (by decide), dq 0 3 (by decide)⟩⟩)) $$ [Ha Hbcd]
  · isplitl [Ha]; · iexact Ha
    iexact Hbcd
  rw [cover4]
  iexists _; iexact Hall

omit [FloatOps F] in
theorem q4set_0 : ((s4W).slice (Rect.unit (s := S256x128) ![0, 0] S64x128.size inb_S256x128_S64x128_0_0) (fun _ => rfl)).view.set = (Qr 0).set := by
  show ((View.whole (cc1_scratch4 : Ref sig .scVector)).slice (Rect.unit (s := S256x128) ![0, 0] S64x128.size inb_S256x128_S64x128_0_0)).set = _
  rw [View.set_slice_whole]; exact congrArg (fun r : Rect S256x128 => r.set) (qr_eq 0 _)
omit [FloatOps F] in
theorem q4set_64 : ((s4W).slice (Rect.unit (s := S256x128) ![64, 0] S64x128.size inb_S256x128_S64x128_64_0) (fun _ => rfl)).view.set = (Qr 1).set := by
  show ((View.whole (cc1_scratch4 : Ref sig .scVector)).slice (Rect.unit (s := S256x128) ![64, 0] S64x128.size inb_S256x128_S64x128_64_0)).set = _
  rw [View.set_slice_whole]; exact congrArg (fun r : Rect S256x128 => r.set) (qr_eq 1 _)
omit [FloatOps F] in
theorem q4set_128 : ((s4W).slice (Rect.unit (s := S256x128) ![128, 0] S64x128.size inb_S256x128_S64x128_128_0) (fun _ => rfl)).view.set = (Qr 2).set := by
  show ((View.whole (cc1_scratch4 : Ref sig .scVector)).slice (Rect.unit (s := S256x128) ![128, 0] S64x128.size inb_S256x128_S64x128_128_0)).set = _
  rw [View.set_slice_whole]; exact congrArg (fun r : Rect S256x128 => r.set) (qr_eq 2 _)
omit [FloatOps F] in
theorem q4set_192 : ((s4W).slice (Rect.unit (s := S256x128) ![192, 0] S64x128.size inb_S256x128_S64x128_192_0) (fun _ => rfl)).view.set = (Qr 3).set := by
  show ((View.whole (cc1_scratch4 : Ref sig .scVector)).slice (Rect.unit (s := S256x128) ![192, 0] S64x128.size inb_S256x128_S64x128_192_0)).set = _
  rw [View.set_slice_whole]; exact congrArg (fun r : Rect S256x128 => r.set) (qr_eq 3 _)

/-- The buffer held whole is its four windows held side by side. -/
theorem s4_split (d : Dev nD) (L : grid1.Coords) (g : Buf (Elt F) ((s4W).view.loc (tile d L))) :
    ((s4W).view.loc (tile d L) ↦{fullShare} g : sProp 𝕄)
      ⊢ iprop((((s4W).slice (Rect.unit (s := S256x128) ![0, 0] S64x128.size inb_S256x128_S64x128_0_0) (fun _ => rfl)).view.loc (tile d L) ↦[((s4W).slice (Rect.unit (s := S256x128) ![0, 0] S64x128.size inb_S256x128_S64x128_0_0) (fun _ => rfl)).view.set]{fullShare} g)
        ∗ (((s4W).slice (Rect.unit (s := S256x128) ![64, 0] S64x128.size inb_S256x128_S64x128_64_0) (fun _ => rfl)).view.loc (tile d L) ↦[((s4W).slice (Rect.unit (s := S256x128) ![64, 0] S64x128.size inb_S256x128_S64x128_64_0) (fun _ => rfl)).view.set]{fullShare} g)
        ∗ (((s4W).slice (Rect.unit (s := S256x128) ![128, 0] S64x128.size inb_S256x128_S64x128_128_0) (fun _ => rfl)).view.loc (tile d L) ↦[((s4W).slice (Rect.unit (s := S256x128) ![128, 0] S64x128.size inb_S256x128_S64x128_128_0) (fun _ => rfl)).view.set]{fullShare} g)
        ∗ (((s4W).slice (Rect.unit (s := S256x128) ![192, 0] S64x128.size inb_S256x128_S64x128_192_0) (fun _ => rfl)).view.loc (tile d L) ↦[((s4W).slice (Rect.unit (s := S256x128) ![192, 0] S64x128.size inb_S256x128_S64x128_192_0) (fun _ => rfl)).view.set]{fullShare} g)) := by
  have h : ((s4W).view.loc (tile d L) ↦[(Finset.univ : Finset (Fin 4)).biUnion fun j => (Qr j).set]{fullShare} g : sProp 𝕄)
      = bigSep Finset.univ fun j : Fin 4 => (s4W).view.loc (tile d L) ↦[(Qr j).set]{fullShare} g :=
    pointsTo_biUnion _ _ (fun i _ j _ hij => Rect.part_disjoint hdiv4 hij)
  rw [Rect.biUnion_part hdiv4] at h
  rw [q4set_0, q4set_64, q4set_128, q4set_192]
  refine (Entails.of_eq h).trans ?_
  rw [show (Finset.univ : Finset (Fin 4)) = {0, 1, 2, 3} by decide, SparseCore.bigSep_insert' (by decide), SparseCore.bigSep_insert' (by decide),
    SparseCore.bigSep_insert' (by decide), bigSep_singleton]

/-- Four windows held side by side, each at contents of its own, are the buffer held whole at some contents. -/
theorem s4_join (d : Dev nD) (L : grid1.Coords) (ga gb gc gd : Buf (Elt F) ((s4W).view.loc (tile d L))) :
    iprop((((s4W).slice (Rect.unit (s := S256x128) ![0, 0] S64x128.size inb_S256x128_S64x128_0_0) (fun _ => rfl)).view.loc (tile d L) ↦[((s4W).slice (Rect.unit (s := S256x128) ![0, 0] S64x128.size inb_S256x128_S64x128_0_0) (fun _ => rfl)).view.set]{fullShare} ga)
        ∗ (((s4W).slice (Rect.unit (s := S256x128) ![64, 0] S64x128.size inb_S256x128_S64x128_64_0) (fun _ => rfl)).view.loc (tile d L) ↦[((s4W).slice (Rect.unit (s := S256x128) ![64, 0] S64x128.size inb_S256x128_S64x128_64_0) (fun _ => rfl)).view.set]{fullShare} gb)
        ∗ (((s4W).slice (Rect.unit (s := S256x128) ![128, 0] S64x128.size inb_S256x128_S64x128_128_0) (fun _ => rfl)).view.loc (tile d L) ↦[((s4W).slice (Rect.unit (s := S256x128) ![128, 0] S64x128.size inb_S256x128_S64x128_128_0) (fun _ => rfl)).view.set]{fullShare} gc)
        ∗ (((s4W).slice (Rect.unit (s := S256x128) ![192, 0] S64x128.size inb_S256x128_S64x128_192_0) (fun _ => rfl)).view.loc (tile d L) ↦[((s4W).slice (Rect.unit (s := S256x128) ![192, 0] S64x128.size inb_S256x128_S64x128_192_0) (fun _ => rfl)).view.set]{fullShare} gd))
      ⊢ (iprop(∃ g, (s4W).view.loc (tile d L) ↦{fullShare} g) : sProp 𝕄) := by
  rw [q4set_0, q4set_64, q4set_128, q4set_192]
  iintro ⟨Ha, Hb, Hc, Hd⟩
  ihave Hcd := (pointsTo_join (ℓ := (s4W).view.loc (tile d L)) (dq 2 3 (by decide))) $$ [Hc Hd]
  · isplitl [Hc]; · iexact Hc
    iexact Hd
  ihave Hbcd := (pointsTo_join (ℓ := (s4W).view.loc (tile d L)) (Finset.disjoint_union_right.mpr ⟨dq 1 2 (by decide), dq 1 3 (by decide)⟩)) $$ [Hb Hcd]
  · isplitl [Hb]; · iexact Hb
    iexact Hcd
  ihave Hall := (pointsTo_join (ℓ := (s4W).view.loc (tile d L)) (Finset.disjoint_union_right.mpr ⟨dq 0 1 (by decide), Finset.disjoint_union_right.mpr ⟨dq 0 2 (by decide), dq 0 3 (by decide)⟩⟩)) $$ [Ha Hbcd]
  · isplitl [Ha]; · iexact Ha
    iexact Hbcd
  rw [cover4]
  iexists _; iexact Hall

end Cert.Proof.KI

end
-- ==== Proof.TileCoreI.lean ====
/-
  A tile's whole task: its three slices fetched, the first group's four row copies started, twenty trips of the outer loop, the output
  rows written back.  Frame level: what the task leaves in its scratch and in its output rows is left open; what it must know is that
  the fetched edge lists name rows of the node tables, so that every indexed copy completes.
-/
import proofs.«205997_g24756191494465_cont_8to1_1595_42_alg».proof.Proof.TripI
import proofs.«205997_g24756191494465_cont_8to1_1595_42_alg».proof.Proof.QuartersI

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

variable [FloatOps F]

/-- The outer loop's invariant: before the last trip's end the next group's copies are in flight into slot 0; after it nothing is. -/
def Inv (d : Dev nD) (L : grid1.Coords) (q : PosShare TreeShare)
    (fy1 : Buf (Elt F) ((y1W).view.loc (tile d L))) (fy2 : Buf (Elt F) ((y2W).view.loc (tile d L)))
    (I0 : Buf (Elt F) ((s0W).view.loc (tile d L))) (I1 : Buf (Elt F) ((s1W).view.loc (tile d L))) (G2 : Buf (Elt F) ((s2W).view.loc (tile d L)))
    (O : CellTallies nD τ sig (HIx 1)) (W₀ : Waits sig (HIx 1)) (n : Nat) (_ : PUnit) : sProp 𝕄 :=
  if n < 20 then
    iprop(∃ G5 W', ⌜∀ p ∈ W', p ∈ W₀ ∨ p.2 = none⌝ ∗
      ∃ Ga Gb G3c G3d Gc Gd G4c G4d SIa SIb SJa SJb, pend d L q fy1 fy2 I0 I1 G2 Ga Gb G3c G3d Gc Gd G4c G4d G5 SIa SIb SJa SJb O W')
  else iprop(∃ G5 W', ⌜∀ p ∈ W', p ∈ W₀ ∨ p.2 = none⌝ ∗
      ∃ Ga Gb G3c G3d Gc Gd G4c G4d, idle d L q fy1 fy2 I0 I1 G2 Ga Gb G3c G3d Gc Gd G4c G4d G5 O W')

omit [FloatOps F] in
theorem trips_not_lt : ¬ k1_t1_loop.trips < 20 := by decide +kernel

set_option maxHeartbeats 32000000 in
theorem tile_core (d : Dev nD) (L : grid1.Coords) (q : PosShare TreeShare)
    (fy1 : Buf (Elt F) ((y1W).view.loc (tile d L))) (fy2 : Buf (Elt F) ((y2W).view.loc (tile d L)))
    (fi : Buf (Elt F) ((iiSl L).view.loc (tile d L))) (fj : Buf (Elt F) ((ijSl L).view.loc (tile d L)))
    (fs : Buf (Elt F) ((spSl L).view.loc (tile d L))) (fo : Buf (Elt F) ((ouSl L).view.loc (tile d L)))
    (g0 : Buf (Elt F) ((s0W).view.loc (tile d L))) (g1 : Buf (Elt F) ((s1W).view.loc (tile d L))) (g2 : Buf (Elt F) ((s2W).view.loc (tile d L)))
    (g3 : Buf (Elt F) ((s3W).view.loc (tile d L))) (g4 : Buf (Elt F) ((s4W).view.loc (tile d L))) (g5 : Buf (Elt F) ((s5W).view.loc (tile d L)))
    (O : CellTallies nD τ sig (HIx 1)) (W : Waits sig (HIx 1))
    (hfi : InRows (iiSl L).view.set fi) (hfj : InRows (ijSl L).view.set fj) :
    coreCtx d L q fy1 fy2 fi fj fs fo g0 g1 g2 g3 g4 g5 O W
      ⊢ wp frame (wpE (defs₀ (F := F)) 𝒱₀ (tile d L) none) Set.univ
          (cc1__sc_kernel L y1W (Memref.isWhole_whole _) y2W (Memref.isWhole_whole _) iiW (Memref.isWhole_whole _) ijW (Memref.isWhole_whole _)
            spW (Memref.isWhole_whole _) ouW (Memref.isWhole_whole _) s0W (Memref.isWhole_whole _) s1W (Memref.isWhole_whole _) s2W (Memref.isWhole_whole _)
            s3W (Memref.isWhole_whole _) s4W (Memref.isWhole_whole _) s5W (Memref.isWhole_whole _)
            cc1_scratch6 cc1_scratch7 cc1_scratch8 cc1_scratch9 cc1_scratch10 cc1_scratch11 cc1_scratch12 cc1_scratch13 cc1_scoped0 cc1_scoped1 cc1_scoped2 cc1_scoped3)
          fun _ => iprop(∃ fo' g0' g1' g2' g3' g4' g5' W', ⌜∀ p ∈ W', p ∈ W ∨ p.2 = none⌝ ∗ coreCtx d L q fy1 fy2 fi fj fs fo' g0' g1' g2' g3' g4' g5' O W') := by
  simp only [cc1__sc_kernel_eq_skeleton]; unfold cc1__sc_kernel_skel
  simp only [k1_part75_eq_skeleton]; unfold k1_part75_skel
  delta coreCtx
  iintro ⟨Hmw, Hy1, Hy2, Hi, Hj, Hs, Ho, H0, H1, H2, H3, H4, H5, Hm6, Hm7, Hm8, Hm9, Hm10, Hm11, Hm12, Hm13, Hr0, Hr1, Hr2, Hr3, HO⟩
  ihave Hy1' := ((pointsTo_share (PosShare.mem_left_op_right q)).1) $$ Hy1
  icases Hy1' with ⟨Hy1l, Hy1r⟩
  ihave Hy1l' := ((pointsTo_share (PosShare.mem_left_op_right (q).left)).1) $$ Hy1l
  icases Hy1l' with ⟨Hy1a, Hy1b⟩
  ihave Hy1r' := ((pointsTo_share (PosShare.mem_left_op_right (q).right)).1) $$ Hy1r
  icases Hy1r' with ⟨Hy1c, Hy1d⟩
  ihave Hy2' := ((pointsTo_share (PosShare.mem_left_op_right q)).1) $$ Hy2
  icases Hy2' with ⟨Hy2l, Hy2r⟩
  ihave Hy2l' := ((pointsTo_share (PosShare.mem_left_op_right (q).left)).1) $$ Hy2l
  icases Hy2l' with ⟨Hy2a, Hy2b⟩
  ihave Hy2r' := ((pointsTo_share (PosShare.mem_left_op_right (q).right)).1) $$ Hy2r
  icases Hy2r' with ⟨Hy2c, Hy2d⟩
  ihave H3' := (s3_split d L g3) $$ H3
  icases H3' with ⟨H3a, H3b, H3c, H3d⟩
  ihave H4' := (s4_split d L g4) $$ H4
  icases H4' with ⟨H4a, H4b, H4c, H4d⟩
  -- the three slices fetched
  sl_exec
  have e0 : (View.write (Elt F) (s0W).view g0 (tile_core.sl.dma0 d L fi) Finset.univ) = tile_core.sl.dma0 d L fi := View.write_whole_univ _ _ _
  have e1 : (View.write (Elt F) (s1W).view g1 (tile_core.sl.dma0_1 d L fj) Finset.univ) = tile_core.sl.dma0_1 d L fj := View.write_whole_univ _ _ _
  have hI0 : ∀ j, ((View.write (Elt F) (s0W).view g0 (tile_core.sl.dma0 d L fi) Finset.univ) j).toNat < 10240 := fun j => by
    rw [e0]; show ((iiSl L).view.read (Elt F) fi j).toNat < 10240
    rw [View.read_apply]; exact hfi _ (View.emb_mem_set _ _)
  have hI1 : ∀ j, ((View.write (Elt F) (s1W).view g1 (tile_core.sl.dma0_1 d L fj) Finset.univ) j).toNat < 10240 := fun j => by
    rw [e1]; show ((ijSl L).view.read (Elt F) fj j).toNat < 10240
    rw [View.read_apply]; exact hfj _ (View.emb_mem_set _ _)
  ihave H0' := ((pointsTo_share (PosShare.mem_left_op_right fullShare)).1) $$ H0
  icases H0' with ⟨H0l, H0r⟩
  ihave H0l' := ((pointsTo_share (PosShare.mem_left_op_right (fullShare).left)).1) $$ H0l
  icases H0l' with ⟨H0a, H0b⟩
  ihave H0r' := ((pointsTo_share (PosShare.mem_left_op_right (fullShare).right)).1) $$ H0r
  icases H0r' with ⟨H0c, H0d⟩
  ihave H1' := ((pointsTo_share (PosShare.mem_left_op_right fullShare)).1) $$ H1
  icases H1' with ⟨H1l, H1r⟩
  ihave H1l' := ((pointsTo_share (PosShare.mem_left_op_right (fullShare).left)).1) $$ H1l
  icases H1l' with ⟨H1a, H1b⟩
  ihave H1r' := ((pointsTo_share (PosShare.mem_left_op_right (fullShare).right)).1) $$ H1r
  icases H1r' with ⟨H1c, H1d⟩
  have hinA : ∀ x, (((s0W).slice (Rect.unit (s := S5120) ![0] S64.size inb_S5120_S64_0) (fun _ => rfl)).view.read (Elt F) (View.write (Elt F) (s0W).view g0 (tile_core.sl.dma0 d L fi) Finset.univ) x).toNat < 10240 := fun x => by rw [View.read_apply]; exact hI0 _
  have hinB : ∀ x, (((s1W).slice (Rect.unit (s := S5120) ![0] S64.size inb_S5120_S64_0) (fun _ => rfl)).view.read (Elt F) (View.write (Elt F) (s1W).view g1 (tile_core.sl.dma0_1 d L fj) Finset.univ) x).toNat < 10240 := fun x => by rw [View.read_apply]; exact hI1 _
  have hinC : ∀ x, (((s0W).slice (Rect.unit (s := S5120) ![64] S64.size inb_S5120_S64_64) (fun _ => rfl)).view.read (Elt F) (View.write (Elt F) (s0W).view g0 (tile_core.sl.dma0 d L fi) Finset.univ) x).toNat < 10240 := fun x => by rw [View.read_apply]; exact hI0 _
  have hinD : ∀ x, (((s1W).slice (Rect.unit (s := S5120) ![64] S64.size inb_S5120_S64_64) (fun _ => rfl)).view.read (Elt F) (View.write (Elt F) (s1W).view g1 (tile_core.sl.dma0_1 d L fj) Finset.univ) x).toNat < 10240 := fun x => by rw [View.read_apply]; exact hI1 _
  -- the first group's four row copies started
  sl_exec
  -- the outer loop, by its invariant
  sl_for (Inv d L q fy1 fy2 (View.write (Elt F) (s0W).view g0 (tile_core.sl.dma0 d L fi) Finset.univ) (View.write (Elt F) (s1W).view g1 (tile_core.sl.dma0_1 d L fj) Finset.univ) (View.write (Elt F) (s2W).view g2 (tile_core.sl.dma0_2 d L fs) Finset.univ) O W) $$ [Hmw H2 H5 H3c H3d H4c H4d Hm6 Hm7 Hm8 Hm9 H0a H0b H0c H0d H1a H1b H1c H1d Hy1a Hy1b Hy1c Hy1d Hy2a Hy2b Hy2c Hy2d Hm10 Hm11 Hm12 Hm13 HO]
  case region =>
    intro k acc
    delta Inv
    rw [if_pos (lt_of_lt_of_le k.isLt k1_t1_abs.2.1)]
    iintro ⟨%G5, %W', %hW', %Ga, %Gb, %G3c, %G3d, %Gc, %Gd, %G4c, %G4d, %SIa, %SIb, %SJa, %SJb, H⟩
    iapply (trip d L q fy1 fy2 _ _ _ Ga Gb G3c G3d Gc Gd G4c G4d G5 SIa SIb SJa SJb O W' k hI0 hI1 W hW') $$ H
  · delta Inv
    rw [if_pos (by decide : (0 : Nat) < 20)]
    iexists _; iexists (insert (SemLoc.dma cc1_scoped2.sem, (default : HIx 1)) (insert (SemLoc.dma cc1_scoped1.sem, (default : HIx 1)) (insert (SemLoc.dma cc1_scoped0.sem, (default : HIx 1)) W))); isplitr
    · ipureintro; intro p hp
      simp only [Finset.mem_insert] at hp
      rcases hp with rfl | rfl | rfl | hp
      all_goals first | exact .inr rfl | exact .inl hp
    iexists _; iexists _; iexists _; iexists _; iexists _; iexists _; iexists _; iexists _; iexists _; iexists _; iexists _; iexists _
    delta pend
    isplitl [Hmw]; · iexact Hmw
    isplitl [H2]; · iexact H2
    isplitl [H5]; · iexact H5
    isplitl [H3c]; · iexact H3c
    isplitl [H3d]; · iexact H3d
    isplitl [H4c]; · iexact H4c
    isplitl [H4d]; · iexact H4d
    isplitl [Hm6]; · iexact Hm6
    isplitl [Hm7]; · iexact Hm7
    isplitl [Hm8]; · iexact Hm8
    isplitl [Hm9]; · iexact Hm9
    isplitl [H0a]; · iexact H0a
    isplitl [H0b]; · iexact H0b
    isplitl [H0c]; · iexact H0c
    isplitl [H0d]; · iexact H0d
    isplitl [H1a]; · iexact H1a
    isplitl [H1b]; · iexact H1b
    isplitl [H1c]; · iexact H1c
    isplitl [H1d]; · iexact H1d
    isplitl [Hy1a]; · iexact Hy1a
    isplitl [Hy1b]; · iexact Hy1b
    isplitl [Hy1c]; · iexact Hy1c
    isplitl [Hy1d]; · iexact Hy1d
    isplitl [Hy2a]; · iexact Hy2a
    isplitl [Hy2b]; · iexact Hy2b
    isplitl [Hy2c]; · iexact Hy2c
    isplitl [Hy2d]; · iexact Hy2d
    isplitl [Hm10]; · iexact Hm10
    isplitl [Hm11]; · iexact Hm11
    isplitl [Hm12]; · iexact Hm12
    isplitl [Hm13]; · iexact Hm13
    iexact HO
  iintro %_ HI
  delta Inv
  ihave HI := (Entails.of_eq (if_neg trips_not_lt)) $$ HI
  icases HI with ⟨%G5', %W', %hW', %Ga, %Gb, %G3c, %G3d, %Gc, %Gd, %G4c, %G4d, HI⟩
  delta idle
  icases HI with ⟨Hmw, H2, H5, H3a, H3b, H3c, H3d, H4a, H4b, H4c, H4d, H0a, H0b, H0c, H0d, H1a, H1b, H1c, H1d, Hy1a, Hy1b, Hy1c, Hy1d, Hy2a, Hy2b, Hy2c, Hy2d, Hm6, Hm7, Hm8, Hm9, Hm10, Hm11, Hm12, Hm13, HO⟩
  -- windows and shares put back together
  ihave H3 := (s3_join d L _ _ _ _) $$ [H3a H3b H3c H3d]
  · isplitl [H3a]; · iexact H3a
    isplitl [H3b]; · iexact H3b
    isplitl [H3c]; · iexact H3c
    iexact H3d
  icases H3 with ⟨%g3', H3⟩
  ihave H4 := (s4_join d L _ _ _ _) $$ [H4a H4b H4c H4d]
  · isplitl [H4a]; · iexact H4a
    isplitl [H4b]; · iexact H4b
    isplitl [H4c]; · iexact H4c
    iexact H4d
  icases H4 with ⟨%g4', H4⟩
  ihave H0l := ((pointsTo_share (PosShare.mem_left_op_right (fullShare).left)).2) $$ [H0a H0b]
  · isplitl [H0a]; · iexact H0a
    iexact H0b
  ihave H0r := ((pointsTo_share (PosShare.mem_left_op_right (fullShare).right)).2) $$ [H0c H0d]
  · isplitl [H0c]; · iexact H0c
    iexact H0d
  ihave H0 := ((pointsTo_share (PosShare.mem_left_op_right fullShare)).2) $$ [H0l H0r]
  · isplitl [H0l]; · iexact H0l
    iexact H0r
  ihave H1l := ((pointsTo_share (PosShare.mem_left_op_right (fullShare).left)).2) $$ [H1a H1b]
  · isplitl [H1a]; · iexact H1a
    iexact H1b
  ihave H1r := ((pointsTo_share (PosShare.mem_left_op_right (fullShare).right)).2) $$ [H1c H1d]
  · isplitl [H1c]; · iexact H1c
    iexact H1d
  ihave H1 := ((pointsTo_share (PosShare.mem_left_op_right fullShare)).2) $$ [H1l H1r]
  · isplitl [H1l]; · iexact H1l
    iexact H1r
  ihave Hy1l := ((pointsTo_share (PosShare.mem_left_op_right (q).left)).2) $$ [Hy1a Hy1b]
  · isplitl [Hy1a]; · iexact Hy1a
    iexact Hy1b
  ihave Hy1r := ((pointsTo_share (PosShare.mem_left_op_right (q).right)).2) $$ [Hy1c Hy1d]
  · isplitl [Hy1c]; · iexact Hy1c
    iexact Hy1d
  ihave Hy1 := ((pointsTo_share (PosShare.mem_left_op_right q)).2) $$ [Hy1l Hy1r]
  · isplitl [Hy1l]; · iexact Hy1l
    iexact Hy1r
  ihave Hy2l := ((pointsTo_share (PosShare.mem_left_op_right (q).left)).2) $$ [Hy2a Hy2b]
  · isplitl [Hy2a]; · iexact Hy2a
    iexact Hy2b
  ihave Hy2r := ((pointsTo_share (PosShare.mem_left_op_right (q).right)).2) $$ [Hy2c Hy2d]
  · isplitl [Hy2c]; · iexact Hy2c
    iexact Hy2d
  ihave Hy2 := ((pointsTo_share (PosShare.mem_left_op_right q)).2) $$ [Hy2l Hy2r]
  · isplitl [Hy2l]; · iexact Hy2l
    iexact Hy2r
  -- the output rows written back
  sl_exec
  sl_step
  iexists _; iexists _; iexists _; iexists _; iexists _; iexists _; iexists _; iexists (insert (SemLoc.dma cc1_scoped3.sem, (default : HIx 1)) W'); isplitr
  · ipureintro; intro p hp
    simp only [Finset.mem_insert] at hp
    rcases hp with rfl | hp
    · exact .inr rfl
    · exact hW' p hp
  isplitl [Hmw]; · iexact Hmw
  isplitl [Hy1]; · iexact Hy1
  isplitl [Hy2]; · iexact Hy2
  isplitl [Hi]; · iexact Hi
  isplitl [Hj]; · iexact Hj
  isplitl [Hs]; · iexact Hs
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [Hm6]; · iexact Hm6
  isplitl [Hm7]; · iexact Hm7
  isplitl [Hm8]; · iexact Hm8
  isplitl [Hm9]; · iexact Hm9
  isplitl [Hm10]; · iexact Hm10
  isplitl [Hm11]; · iexact Hm11
  isplitl [Hm12]; · iexact Hm12
  isplitl [Hm13]; · iexact Hm13
  isplitl [Hr0]; · iexact Hr0
  isplitl [Hr1]; · iexact Hr1
  isplitl [Hr2]; · iexact Hr2
  isplitl [Hr3]; · iexact Hr3
  iexact HO

end Cert.Proof.KI

end
-- ==== Proof.MainA.lean ====
/-
  @main on the TensorCore: host operations around one pipelined TensorCore kernel region and one SparseCore call.
  The host stretches are straight lines of StableHLO operations over the TensorCore's unscoped arrays held whole.
-/
import proofs.«205997_g24756191494465_cont_8to1_1595_42_alg».proof.Proof.PayI
import proofs.«205997_g24756191494465_cont_8to1_1595_42_alg».proof.Proof.Gen.KernelIdeal.Launch
import Idealize.ShloMosaic.Lib.Pipeline.Frame
import Idealize.ShloMosaic.Lib.Pipeline.Regions

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-! ## @main as a chain of host stretches, the kernel region and the SparseCore call -/

/-- The host stretches of @main, in order; a module-local function's body is a stretch of its own. -/
abbrev opsA : List (HloOp τ sig (Elt F)) :=
  [ StableHlo.reshape main_arg0 main_v0 rfl shapeCasts_S1x128x10000x1_S128x10000,
    StableHlo.nullary main_c (constantI S_ 32 0#32) ]
abbrev opsB [FloatOps F] : List (HloOp τ sig (Elt F)) :=
  [ StableHlo.TRef.unary (.of main_c : StableHlo.TRef sig ⟨S_, .i32⟩) (.of main_call0_v0 : StableHlo.TRef sig ⟨S_, .f32⟩) (sitofp .f32),
    StableHlo.TRef.binary (.of main_v0 : StableHlo.TRef sig ⟨S128x10000, .f32⟩) (.of main_call0_v0 : StableHlo.TRef sig ⟨S_, .f32⟩) (.of main_v1 : StableHlo.TRef sig ⟨S128x10240, .f32⟩)
      (fun x v => pad S128x10240 ![0, 0] ![0, 240] ![0, 0] x v pads_S128x10000_S128x10240_000_02400 h_S_) ]
abbrev opsC : List (HloOp τ sig (Elt F)) :=
  [ StableHlo.reshape main_arg3 main_v2 rfl shapeCasts_S1x10000x16_S10000x16,
    StableHlo.nullary main_c_0 (constantI S_ 32 0#32) ]
abbrev opsD [FloatOps F] : List (HloOp τ sig (Elt F)) :=
  [ StableHlo.TRef.unary (.of main_c_0 : StableHlo.TRef sig ⟨S_, .i32⟩) (.of main_call1_v0 : StableHlo.TRef sig ⟨S_, .f32⟩) (sitofp .f32),
    StableHlo.TRef.binary (.of main_v2 : StableHlo.TRef sig ⟨S10000x16, .f32⟩) (.of main_call1_v0 : StableHlo.TRef sig ⟨S_, .f32⟩) (.of main_v3 : StableHlo.TRef sig ⟨S10240x16, .f32⟩)
      (fun x v => pad S10240x16 ![0, 0] ![240, 0] ![0, 0] x v pads_S10000x16_S10240x16_02400_000 h_S_) ]
abbrev opsE [FloatOps F] : List (HloOp τ sig (Elt F)) :=
  [ StableHlo.unary main_arg4 main_v4 ((extractStridedSlice S128x128 ![0, 0] · slices_S128x256_S128x128_0_0) : (⟨S128x256, .f32⟩ : BufTy).Contents (Elt F) → (⟨S128x128, .f32⟩ : BufTy).Contents (Elt F)),
    StableHlo.unary main_arg4 main_v5 ((extractStridedSlice S128x128 ![0, 128] · slices_S128x256_S128x128_0_128) : (⟨S128x256, .f32⟩ : BufTy).Contents (Elt F) → (⟨S128x128, .f32⟩ : BufTy).Contents (Elt F)),
    StableHlo.binary main_v4 main_v5 main_v6 (subf : (⟨S128x128, .f32⟩ : BufTy).Contents (Elt F) → (⟨S128x128, .f32⟩ : BufTy).Contents (Elt F) → (⟨S128x128, .f32⟩ : BufTy).Contents (Elt F)),
    StableHlo.unary main_arg4 main_v7 ((extractStridedSlice S128x128 ![0, 128] · slices_S128x256_S128x128_0_128) : (⟨S128x256, .f32⟩ : BufTy).Contents (Elt F) → (⟨S128x128, .f32⟩ : BufTy).Contents (Elt F)),
    StableHlo.reshape main_arg5 main_v8 rfl shapeCasts_S128_S1x128,
    StableHlo.reshape main_arg7 main_v9 rfl shapeCasts_S1_S1x1 ]
abbrev opsF : List (HloOp τ sig (Elt F)) :=
  [ StableHlo.reshape main_arg1 main_v11 rfl shapeCasts_S2x1x10000x16_S2x160000,
    StableHlo.nullary main_c_1 (constantI S_ 32 0#32) ]
abbrev opsG : List (HloOp τ sig (Elt F)) :=
  [ StableHlo.TRef.unary (.of main_c_1 : StableHlo.TRef sig ⟨S_, .i32⟩) (.of main_call2_v0 : StableHlo.TRef sig ⟨S_, .i32⟩) id,
    StableHlo.TRef.binary (.of main_v11 : StableHlo.TRef sig ⟨S2x160000, .i32⟩) (.of main_call2_v0 : StableHlo.TRef sig ⟨S_, .i32⟩) (.of main_v12 : StableHlo.TRef sig ⟨S2x163840, .i32⟩)
      (fun x v => pad S2x163840 ![0, 0] ![0, 3840] ![0, 0] x v pads_S2x160000_S2x163840_000_038400 h_S_) ]
abbrev opsH : List (HloOp τ sig (Elt F)) :=
  [ StableHlo.unary main_v12 main_v13 ((extractStridedSlice S1x163840 ![1, 0] · slices_S2x163840_S1x163840_1_0) : (⟨S2x163840, .i32⟩ : BufTy).Contents (Elt F) → (⟨S1x163840, .i32⟩ : BufTy).Contents (Elt F)),
    StableHlo.reshape main_v13 main_v14 rfl shapeCasts_S1x163840_S163840,
    StableHlo.unary main_v12 main_v15 ((extractStridedSlice S1x163840 ![0, 0] · slices_S2x163840_S1x163840_0_0) : (⟨S2x163840, .i32⟩ : BufTy).Contents (Elt F) → (⟨S1x163840, .i32⟩ : BufTy).Contents (Elt F)),
    StableHlo.reshape main_v15 main_v16 rfl shapeCasts_S1x163840_S163840,
    StableHlo.reshape main_v10_2 main_v17 rfl shapeCasts_S10240x16_S163840 ]
abbrev opsI : List (HloOp τ sig (Elt F)) :=
  [ StableHlo.unary main_v18 main_v19 ((extractStridedSlice S10000x128 ![0, 0] · slices_S10240x128_S10000x128_0_0) : (⟨S10240x128, .f32⟩ : BufTy).Contents (Elt F) → (⟨S10000x128, .f32⟩ : BufTy).Contents (Elt F)),
    StableHlo.unary main_v19 main_v20 ((transpose S128x10000 [1, 0] · transposes_S10000x128_S128x10000_1_0) : (⟨S10000x128, .f32⟩ : BufTy).Contents (Elt F) → (⟨S128x10000, .f32⟩ : BufTy).Contents (Elt F)),
    StableHlo.reshape main_v20 main_v21 rfl shapeCasts_S128x10000_S1x128x10000x1 ]

variable [FloatOps F]

theorem main_chain (d : Dev nD) : main (F := F) d = (Pipeline.chain
  [ StableHlo.seq opsA, StableHlo.seq opsB, StableHlo.seq opsC, StableHlo.seq opsD, StableHlo.seq opsE,
    Prog.lift (.customCall (SparseCore.inner (Pipeline.entry 0)) ()),
    StableHlo.seq opsF, StableHlo.seq opsG, StableHlo.seq opsH,
    sc.run d 0,
    StableHlo.seq opsI ] : Prog (TpuEff nD τ sig (Elt F) (SparseCore.Sig (Pipeline.Sig Λ₀ (Fin 1) fun p => (pcfgs (F := F) p).Adm) 1) .tc) PUnit) := by
  chain_rfl

/-! ## The host stretches: what they touch, what they write -/

theorem opsA_sub : (opsA : List (HloOp τ sig (Elt F))).Forall fun op => op.bufs ⊆ StableHlo.tcRefs τ sig :=
  ⟨StableHlo.reshape_bufs_sub .., StableHlo.nullary_bufs_sub ..⟩
theorem opsB_sub : (opsB : List (HloOp τ sig (Elt F))).Forall fun op => op.bufs ⊆ StableHlo.tcRefs τ sig :=
  ⟨StableHlo.unary_bufs_sub .., StableHlo.binary_bufs_sub ..⟩
theorem opsC_sub : (opsC : List (HloOp τ sig (Elt F))).Forall fun op => op.bufs ⊆ StableHlo.tcRefs τ sig :=
  ⟨StableHlo.reshape_bufs_sub .., StableHlo.nullary_bufs_sub ..⟩
theorem opsD_sub : (opsD : List (HloOp τ sig (Elt F))).Forall fun op => op.bufs ⊆ StableHlo.tcRefs τ sig :=
  ⟨StableHlo.unary_bufs_sub .., StableHlo.binary_bufs_sub ..⟩
theorem opsE_sub : (opsE : List (HloOp τ sig (Elt F))).Forall fun op => op.bufs ⊆ StableHlo.tcRefs τ sig :=
  ⟨StableHlo.unary_bufs_sub .., StableHlo.unary_bufs_sub .., StableHlo.binary_bufs_sub .., StableHlo.unary_bufs_sub ..,
    StableHlo.reshape_bufs_sub .., StableHlo.reshape_bufs_sub ..⟩
theorem opsF_sub : (opsF : List (HloOp τ sig (Elt F))).Forall fun op => op.bufs ⊆ StableHlo.tcRefs τ sig :=
  ⟨StableHlo.reshape_bufs_sub .., StableHlo.nullary_bufs_sub ..⟩
theorem opsG_sub : (opsG : List (HloOp τ sig (Elt F))).Forall fun op => op.bufs ⊆ StableHlo.tcRefs τ sig :=
  ⟨StableHlo.unary_bufs_sub .., StableHlo.binary_bufs_sub ..⟩
theorem opsH_sub : (opsH : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub ..,
    StableHlo.reshape_bufs_sub ..⟩
theorem opsI_sub : (opsI : List (HloOp τ sig (Elt F))).Forall fun op => op.bufs ⊆ StableHlo.tcRefs τ sig :=
  ⟨StableHlo.unary_bufs_sub .., StableHlo.unary_bufs_sub .., StableHlo.reshape_bufs_sub ..⟩

theorem opsA_fresh : (opsA : List (HloOp τ sig (Elt F))).Forall fun op => op.fresh = ∅ := by simp only [List.Forall]; repeat' constructor
theorem opsB_fresh : (opsB : List (HloOp τ sig (Elt F))).Forall fun op => op.fresh = ∅ := by simp only [List.Forall]; repeat' constructor
theorem opsC_fresh : (opsC : List (HloOp τ sig (Elt F))).Forall fun op => op.fresh = ∅ := by simp only [List.Forall]; repeat' constructor
theorem opsD_fresh : (opsD : List (HloOp τ sig (Elt F))).Forall fun op => op.fresh = ∅ := by simp only [List.Forall]; repeat' constructor
theorem opsE_fresh : (opsE : List (HloOp τ sig (Elt F))).Forall fun op => op.fresh = ∅ := by simp only [List.Forall]; repeat' constructor
theorem opsF_fresh : (opsF : List (HloOp τ sig (Elt F))).Forall fun op => op.fresh = ∅ := by simp only [List.Forall]; repeat' constructor
theorem opsG_fresh : (opsG : List (HloOp τ sig (Elt F))).Forall fun op => op.fresh = ∅ := by simp only [List.Forall]; repeat' constructor
theorem opsH_fresh : (opsH : List (HloOp τ sig (Elt F))).Forall fun op => op.fresh = ∅ := by simp only [List.Forall]; repeat' constructor
theorem opsI_fresh : (opsI : List (HloOp τ sig (Elt F))).Forall fun op => op.fresh = ∅ := by simp only [List.Forall]; repeat' constructor

/-- Every reference a host operation of @main writes: none is an argument array. -/
abbrev hostW : List (Ref sig .tc) :=
  [main_v0, main_c, main_call0_v0, main_v1, main_v2, main_c_0, main_call1_v0, main_v3, main_v4, main_v5, main_v6, main_v7, main_v8, main_v9,
   main_v11, main_c_1, main_call2_v0, main_v12, main_v13, main_v14, main_v15, main_v16, main_v17, main_v19, main_v20, main_v21]

macro "writes_tac" : tactic =>
  `(tactic| (simp only [List.Forall]; repeat' constructor
             all_goals (simp only [StableHlo.nullary_writes, StableHlo.unary_writes, StableHlo.binary_writes, StableHlo.reshape_writes,
                          Finset.singleton_subset_iff, List.mem_toFinset]; exact List.mem_map_of_mem (by decide))))

theorem opsA_writes : (opsA : List (HloOp τ sig (Elt F))).Forall fun op => op.writes ⊆ (hostW.map (Proc.devRef (τ := τ) .tc)).toFinset := by writes_tac
theorem opsB_writes : (opsB : List (HloOp τ sig (Elt F))).Forall fun op => op.writes ⊆ (hostW.map (Proc.devRef (τ := τ) .tc)).toFinset := by writes_tac
theorem opsC_writes : (opsC : List (HloOp τ sig (Elt F))).Forall fun op => op.writes ⊆ (hostW.map (Proc.devRef (τ := τ) .tc)).toFinset := by writes_tac
theorem opsD_writes : (opsD : List (HloOp τ sig (Elt F))).Forall fun op => op.writes ⊆ (hostW.map (Proc.devRef (τ := τ) .tc)).toFinset := by writes_tac
theorem opsE_writes : (opsE : List (HloOp τ sig (Elt F))).Forall fun op => op.writes ⊆ (hostW.map (Proc.devRef (τ := τ) .tc)).toFinset := by writes_tac
theorem opsF_writes : (opsF : List (HloOp τ sig (Elt F))).Forall fun op => op.writes ⊆ (hostW.map (Proc.devRef (τ := τ) .tc)).toFinset := by writes_tac
theorem opsG_writes : (opsG : List (HloOp τ sig (Elt F))).Forall fun op => op.writes ⊆ (hostW.map (Proc.devRef (τ := τ) .tc)).toFinset := by writes_tac
theorem opsH_writes : (opsH : List (HloOp τ sig (Elt F))).Forall fun op => op.writes ⊆ (hostW.map (Proc.devRef (τ := τ) .tc)).toFinset := by writes_tac
theorem opsI_writes : (opsI : List (HloOp τ sig (Elt F))).Forall fun op => op.writes ⊆ (hostW.map (Proc.devRef (τ := τ) .tc)).toFinset := by writes_tac

/-- A host stretch run within a set `S` of the TensorCore's arrays held whole: they end at `after` of it. -/
theorem wp_stretchS (d : Dev nD) {β : Type} (S : Finset (DevRef τ sig)) (ops : List (HloOp τ sig (Elt F)))
    (hS : ∀ op ∈ ops, op.bufs ⊆ S) (hfresh : ops.Forall fun op => op.fresh = ∅)
    (W : Valuation τ sig (Elt F))
    (k : PUnit → Prog (TpuEff nD τ sig (Elt F) (SparseCore.Sig (ΛP (F := F)) 1) .tc) β) (Q : β → sProp 𝕄) :
    iprop(boundary (T d) ∗ (held (T d) S W : sProp 𝕄))
      ⊢ iprop(((boundary (T d) ∗ (held (T d) S (StableHlo.after ops W) : sProp 𝕄))
                -∗ wp frame (wpE ((K (F := F)).defs (D (F := F))) 𝒱 (T d) none) Set.univ (k ⟨⟩) Q)
        -∗ wp frame (wpE ((K (F := F)).defs (D (F := F))) 𝒱 (T d) none) Set.univ (StableHlo.seq ops >>= k) Q) :=
  StableHlo.wp_seq 𝒱 none Set.univ d S k ops hS (fun op h => (List.forall_iff_forall_mem.mp hfresh) op h) W

/-- A host stretch run within the TensorCore's unscoped arrays held whole: they end at `after` of it. -/
theorem wp_stretch (d : Dev nD) {β : Type} (ops : List (HloOp τ sig (Elt F)))
    (hsub : ops.Forall fun op => op.bufs ⊆ StableHlo.tcRefs τ sig) (hfresh : ops.Forall fun op => op.fresh = ∅)
    (W : Valuation τ sig (Elt F))
    (k : PUnit → Prog (TpuEff nD τ sig (Elt F) (SparseCore.Sig (ΛP (F := F)) 1) .tc) β) (Q : β → sProp 𝕄) :
    iprop(boundary (T d) ∗ (held (T d) (Pipeline.ucRefs τ sig) W : sProp 𝕄))
      ⊢ iprop(((boundary (T d) ∗ (held (T d) (Pipeline.ucRefs τ sig) (StableHlo.after ops W) : sProp 𝕄))
                -∗ wp frame (wpE ((K (F := F)).defs (D (F := F))) 𝒱 (T d) none) Set.univ (k ⟨⟩) Q)
        -∗ wp frame (wpE ((K (F := F)).defs (D (F := F))) 𝒱 (T d) none) Set.univ (StableHlo.seq ops >>= k) Q) :=
  StableHlo.wp_seq 𝒱 none Set.univ d (Pipeline.ucRefs τ sig) k ops
    (fun op h => Pipeline.sub_ucRefs op ((List.forall_iff_forall_mem.mp hsub) op h))
    (fun op h => (List.forall_iff_forall_mem.mp hfresh) op h) W

/-! ## What @main's proof starts from beyond the launch's deal: the pipeline's staging cells, funded -/

/-- The prefetched tables' admissible contents: the pipeline has no table. -/
abbrev adm : (p : Fin 1) → (pcfgs (F := F) p).Adm := fun p => (cfgs p).toPCfg_adm

/-- The pipeline's rounds, the left of the right factor of the ghost state. -/
abbrev EP : Emb UP (MT nD τ sig (HIx 1) (Elt F) ℕ UU ℕ) := (Emb.inl : Emb UP (UP × Counters)).trans embR

/-- The staging cells' ghost state and the transfers' duty tokens of the one pipeline, on device `d`. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The arrays the kernel region writes. -/
abbrev regW : List (Ref sig .tc) := [main_v10_0, main_v10_1, main_v10_2]

/-! ## The SparseCore call's operands out of the TensorCore's arrays, and its result back -/

/-- The launch contents of device `d` as a valuation. -/
abbrev V0 (m : (ℓ : Loc nD τ sig) → Buf (Elt F) ℓ) (d : Dev nD) : Valuation τ sig (Elt F) := fun b => m (d, b)

abbrev r10_0 : DevRef τ sig := Proc.devRef .tc (main_v10_0 : Ref sig .tc)
abbrev r10_1 : DevRef τ sig := Proc.devRef .tc (main_v10_1 : Ref sig .tc)
abbrev r14 : DevRef τ sig := Proc.devRef .tc (main_v14 : Ref sig .tc)
abbrev r16 : DevRef τ sig := Proc.devRef .tc (main_v16 : Ref sig .tc)
abbrev r17 : DevRef τ sig := Proc.devRef .tc (main_v17 : Ref sig .tc)
abbrev r18 : DevRef τ sig := Proc.devRef .tc (main_v18 : Ref sig .tc)

/-- The call's six arrays; the five of them @main never touches again. -/
abbrev sixS : Finset (DevRef τ sig) := {r10_0, r10_1, r14, r16, r17, r18}
abbrev fiveS : Finset (DevRef τ sig) := {r10_0, r10_1, r14, r16, r17}

/-! ## The precondition's index range, and what the edge lists hold when the call is made -/

/-- Every entry of the edge-index argument names a row of the node tables. -/
def PreOK (m : (ℓ : Loc nD τ sig) → Buf (Elt F) ℓ) : Prop :=
  ∀ (d : Dev nD) (i : S2x1x10000x16.Idx), ((V0 m d (Proc.devRef .tc main_arg1) : S2x1x10000x16.Idx → BitVec 32) i).toNat < 10240

section Entries
variable {α : Type} (p : α → Prop)
theorem all_shapeCast {s t : Shape} (x : s.Idx → α) (h : s.ShapeCasts t) (hx : ∀ i, p (x i)) : ∀ j, p (shapeCast t x h j) := fun _ => hx _
theorem all_slice {s t : Shape} (off : Fin s.rank → Nat) (x : s.Idx → α) (h : s.Slices off t) (hx : ∀ i, p (x i)) :
    ∀ j, p (extractStridedSlice t off x h j) := fun _ => hx _
theorem all_pad {s t u : Shape} (lo hi it : Fin s.rank → Nat) (x : s.Idx → α) (v : u.Idx → α) (h : s.Pads lo hi it t) (hu : 0 < u.numel)
    (hx : ∀ i, p (x i)) (hv : ∀ i, p (v i)) : ∀ j, p (pad t lo hi it x v h hu j) := fun j => by
  unfold pad; split
  · exact hx _
  · exact hv _
end Entries

/-- The argument arrays. -/
abbrev argL : List (Ref sig .tc) := [main_arg0, main_arg1, main_arg2, main_arg3, main_arg4, main_arg5, main_arg6, main_arg7]
abbrev argS : Finset (DevRef τ sig) := (argL.map (Proc.devRef (τ := τ) .tc)).toFinset

/-- What @main leaves the claim: the eight argument arrays of device `d` whole at their launch contents. -/
abbrev FIN (m : (ℓ : Loc nD τ sig) → Buf (Elt F) ℓ) (d : Dev nD) : sProp 𝕄 := held (T d) argS (V0 m d)

theorem argL_hostW : ∀ r ∈ argL, r ∉ hostW := by decide
theorem argL_regW : ∀ r ∈ argL, r ∉ regW := by decide
theorem argL_v18 : ∀ r ∈ argL, r ≠ main_v18 := by decide

theorem opsI_S : ∀ op ∈ (opsI : List (HloOp τ sig (Elt F))), op.bufs ⊆ Pipeline.ucRefs τ sig \ fiveS := fun op h =>
  Finset.subset_sdiff.mpr ⟨Pipeline.sub_ucRefs op ((List.forall_iff_forall_mem.mp opsI_sub) op h), by
    simp only [List.mem_cons, List.mem_nil_iff, or_false] at h
    rcases h with rfl | rfl | rfl
    · rw [StableHlo.unary_bufs]; decide
    · rw [StableHlo.unary_bufs]; decide
    · rw [StableHlo.reshape_bufs]; decide⟩

theorem argS_sub : argS ⊆ Pipeline.ucRefs τ sig \ fiveS := by decide

/-! ## No host stretch writes an argument array -/

theorem stretch1_arg (W : Valuation τ sig (Elt F)) (r : Ref sig .tc) (hr : r ∉ hostW) :
    StableHlo.after opsE (StableHlo.after opsD (StableHlo.after opsC (StableHlo.after opsB (StableHlo.after opsA W)))) (Proc.devRef .tc r)
      = W (Proc.devRef .tc r) := by
  rw [StableHlo.after_of_writes_sub opsE _ opsE_writes hr, StableHlo.after_of_writes_sub opsD _ opsD_writes hr,
    StableHlo.after_of_writes_sub opsC _ opsC_writes hr, StableHlo.after_of_writes_sub opsB _ opsB_writes hr,
    StableHlo.after_of_writes_sub opsA _ opsA_writes hr]
theorem stretch2_arg (W : Valuation τ sig (Elt F)) (r : Ref sig .tc) (hr : r ∉ hostW) :
    StableHlo.after opsH (StableHlo.after opsG (StableHlo.after opsF W)) (Proc.devRef .tc r) = W (Proc.devRef .tc r) := by
  rw [StableHlo.after_of_writes_sub opsH _ opsH_writes hr, StableHlo.after_of_writes_sub opsG _ opsG_writes hr,
    StableHlo.after_of_writes_sub opsF _ opsF_writes hr]
theorem stretch3_arg (W : Valuation τ sig (Elt F)) (r : Ref sig .tc) (hr : r ∉ hostW) :
    StableHlo.after opsI W (Proc.devRef .tc r) = W (Proc.devRef .tc r) :=
  StableHlo.after_of_writes_sub opsI _ opsI_writes hr

/-- The edge lists the call is handed: reshapes and slices of the edge-index argument padded with zeros. -/
theorem rows14 (W : Valuation τ sig (Elt F))
    (h : ∀ i : S2x1x10000x16.Idx, ((W (Proc.devRef .tc main_arg1) : S2x1x10000x16.Idx → BitVec 32) i).toNat < 10240) :
    InRows Finset.univ (StableHlo.after opsH (StableHlo.after opsG (StableHlo.after opsF W)) r14) := by
  intro j _
  open StableHlo in after_results
  show (shapeCast S163840 (extractStridedSlice S1x163840 ![1, 0]
      (pad S2x163840 ![0, 0] ![0, 3840] ![0, 0]
        (shapeCast S2x160000 (W (Proc.devRef .tc main_arg1) : S2x1x10000x16.Idx → BitVec 32) shapeCasts_S2x1x10000x16_S2x160000)
        (constantI S_ 32 0#32) pads_S2x160000_S2x163840_000_038400 h_S_) slices_S2x163840_S1x163840_1_0) shapeCasts_S1x163840_S163840 j).toNat < 10240
  exact all_shapeCast (fun e : BitVec 32 => e.toNat < 10240) _ shapeCasts_S1x163840_S163840
    (all_slice (fun e : BitVec 32 => e.toNat < 10240) ![1, 0] _ slices_S2x163840_S1x163840_1_0
      (all_pad (fun e : BitVec 32 => e.toNat < 10240) ![0, 0] ![0, 3840] ![0, 0] _ (constantI S_ 32 0#32) pads_S2x160000_S2x163840_000_038400 h_S_
        (all_shapeCast (fun e : BitVec 32 => e.toNat < 10240) _ shapeCasts_S2x1x10000x16_S2x160000 h)
        (fun _ => by show (0#32 : BitVec 32).toNat < 10240; decide))) j
theorem rows16 (W : Valuation τ sig (Elt F))
    (h : ∀ i : S2x1x10000x16.Idx, ((W (Proc.devRef .tc main_arg1) : S2x1x10000x16.Idx → BitVec 32) i).toNat < 10240) :
    InRows Finset.univ (StableHlo.after opsH (StableHlo.after opsG (StableHlo.after opsF W)) r16) := by
  intro j _
  open StableHlo in after_results
  show (shapeCast S163840 (extractStridedSlice S1x163840 ![0, 0]
      (pad S2x163840 ![0, 0] ![0, 3840] ![0, 0]
        (shapeCast S2x160000 (W (Proc.devRef .tc main_arg1) : S2x1x10000x16.Idx → BitVec 32) shapeCasts_S2x1x10000x16_S2x160000)
        (constantI S_ 32 0#32) pads_S2x160000_S2x163840_000_038400 h_S_) slices_S2x163840_S1x163840_0_0) shapeCasts_S1x163840_S163840 j).toNat < 10240
  exact all_shapeCast (fun e : BitVec 32 => e.toNat < 10240) _ shapeCasts_S1x163840_S163840
    (all_slice (fun e : BitVec 32 => e.toNat < 10240) ![0, 0] _ slices_S2x163840_S1x163840_0_0
      (all_pad (fun e : BitVec 32 => e.toNat < 10240) ![0, 0] ![0, 3840] ![0, 0] _ (constantI S_ 32 0#32) pads_S2x160000_S2x163840_000_038400 h_S_
        (all_shapeCast (fun e : BitVec 32 => e.toNat < 10240) _ shapeCasts_S2x1x10000x16_S2x160000 h)
        (fun _ => by show (0#32 : BitVec 32).toNat < 10240; decide))) j

end Cert.Proof.KI

end
-- ==== Proof.RegionI.lean ====
/-
  The TensorCore kernel region of @main at frame level: the pipelined kernel's body runs at every grid point whatever its
  staging buffers hold and leaves them at some contents; the region leaves every array it does not write as it found it.
-/
import proofs.«205997_g24756191494465_cont_8to1_1595_42_alg».proof.Proof.MainA
import proofs.«205997_g24756191494465_cont_8to1_1595_42_alg».proof.Proof.Gen.KernelIdeal.Points
import proofs.«205997_g24756191494465_cont_8to1_1595_42_alg».proof.Proof.Gen.KernelIdeal.Skeleton
import Idealize.ShloMosaic.Lib.Pipeline.FrameBody
import Idealize.ShloMosaic.Lib.Tactic

noncomputable section

namespace Cert.Proof.KI

open Cert.KernelIdeal Cert.KernelIdeal.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

/-! ## The kernel's body on whole staging memrefs -/

set_option maxHeartbeats 2000000 in
/-- The body, handed its ten staging memrefs whole at any contents, runs (loads, two products, stores through whole-block
    rectangles) and hands them back at some contents. -/
theorem sound_kernel (c : Dev nD) (E : Set ℕ) (i : grid0.Coords)
    (a1 : Memref sig .tc .vmem S128x512 .f32) (h1 : a1.IsWhole) (a2 : Memref sig .tc .vmem S512x16 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S1x16 .f32) (h6 : a6.IsWhole)
    (a7 : Memref sig .tc .vmem S1x1 .f32) (h7 : a7.IsWhole) (a8 : Memref sig .tc .vmem S512x128 .f32) (h8 : a8.IsWhole)
    (a9 : Memref sig .tc .vmem S512x128 .f32) (h9 : a9.IsWhole) (a10 : Memref sig .tc .vmem S512x16 .f32) (h10 : a10.IsWhole)
    (Kc : PUnit → sProp 𝕄) :
    iprop((∃ x, owns (c.tc : Thread nD τ) a1 fullShare x) ∗ (∃ x, owns (c.tc : Thread nD τ) a2 fullShare x)
        ∗ (∃ x, owns (c.tc : Thread nD τ) a3 fullShare x) ∗ (∃ x, owns (c.tc : Thread nD τ) a4 fullShare x)
        ∗ (∃ x, owns (c.tc : Thread nD τ) a5 fullShare x) ∗ (∃ x, owns (c.tc : Thread nD τ) a6 fullShare x)
        ∗ (∃ x, owns (c.tc : Thread nD τ) a7 fullShare x) ∗ (∃ x, owns (c.tc : Thread nD τ) a8 fullShare x)
        ∗ (∃ x, owns (c.tc : Thread nD τ) a9 fullShare x) ∗ (∃ x, owns (c.tc : Thread nD τ) a10 fullShare x)
        ∗ (iprop((∃ x, owns (c.tc : Thread nD τ) a1 fullShare x) ∗ (∃ x, owns (c.tc : Thread nD τ) a2 fullShare x)
            ∗ (∃ x, owns (c.tc : Thread nD τ) a3 fullShare x) ∗ (∃ x, owns (c.tc : Thread nD τ) a4 fullShare x)
            ∗ (∃ x, owns (c.tc : Thread nD τ) a5 fullShare x) ∗ (∃ x, owns (c.tc : Thread nD τ) a6 fullShare x)
            ∗ (∃ x, owns (c.tc : Thread nD τ) a7 fullShare x) ∗ (∃ x, owns (c.tc : Thread nD τ) a8 fullShare x)
            ∗ (∃ x, owns (c.tc : Thread nD τ) a9 fullShare x) ∗ (∃ x, owns (c.tc : Thread nD τ) a10 fullShare x)) -∗ Kc ⟨⟩))
      ⊢ wp frame (wpE (defs₀ (F := F)) Variants.none (c.tc : Thread nD τ) none) E
          (cc0__tc_body i a1 h1 a2 h2 a3 h3 a4 h4 a5 h5 a6 h6 a7 h7 a8 h8 a9 h9 a10 h10) Kc := by
  simp only [cc0__tc_body_eq_skeleton]; unfold cc0__tc_body_skel
  unfold owns
  iintro ⟨⟨%x1, %f1, -, H1⟩, ⟨%x2, %f2, -, H2⟩, ⟨%x3, %f3, -, H3⟩, ⟨%x4, %f4, -, H4⟩, ⟨%x5, %f5, -, H5⟩, ⟨%x6, %f6, -, H6⟩,
    ⟨%x7, %f7, -, H7⟩, ⟨%x8, %f8, -, H8⟩, ⟨%x9, %f9, -, H9⟩, ⟨%x10, %f10, -, H10⟩, Hk⟩
  sl_exec
  sl_step
  iapply Hk
  isplitl [H1]
  · iexists _; iexists _; isplitr
    swap; · iexact H1
    ipureintro; rfl
  isplitl [H2]
  · iexists _; iexists _; isplitr
    swap; · iexact H2
    ipureintro; rfl
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

/-! ## The pipeline's proof data, relational: nothing is said of what the body leaves in a staging buffer -/

/-- On core `c`, entered at the arrays' contents `W`: the arrays' entry contents are `W`'s; the body may leave anything; the
    invariant is empty (the kernel has no scratch); the core owes, throughout, what the TensorCore owes before call 0 (its
    start signals), and its recorded waits are its own, at no call's index. -/
def rdat (W : Valuation τ sig (Elt F)) (c : Dev nD) :
    Pipeline.RDat τ (Elt F) (HIx 1) ℕ UU ℕ (Pipeline.pin (pcfgs (F := F)) adm 0) c where
  A w := W (Proc.devRef .tc (Pipeline.arrRef spec0 w))
  after _ _ _ _ := True
  Φ _ := iprop(emp)
  q _ := fullShare
  owed _ := (K (F := F)).Otc c 0
  recorded _ := {p | p.2 = none}

abbrev rdats (W : Valuation τ sig (Elt F)) : (p : Fin 1) → (c : Dev nD) →
    Pipeline.RDat τ (Elt F) (HIx 1) ℕ UU ℕ (Pipeline.pin (pcfgs (F := F)) adm p) c := fun _ c => rdat W c

set_option maxHeartbeats 1000000 in
/-- The body obligation at every point: `sound_kernel` on the current staging memrefs; the `owes` passes through. -/
theorem body_obl (W : Valuation τ sig (Elt F)) (c : Dev nD) :
    (rdat W c).BodyObligation (defs₀ (F := F)) 𝒱₀ (none : HIx 1) Set.univ := fun t Y _ => by
  rw [bigSep_W0, bigSep_W0]
  show iprop(emp ∗ (rdat W c).owesAt (none : HIx 1) t.castSucc ∗ _) ⊢ wp frame _ Set.univ (bodyAt0 t)
    (fun _ => iprop(emp ∗ (rdat W c).owesAt (none : HIx 1) t.castSucc ∗ _))
  unfold bodyAt0
  iintro ⟨-, Ho, H0, H1, H2, H3, H4, H5, H6, H7, H8, H9⟩
  iapply (sound_kernel c Set.univ (grid0.coords t) _ _ _ _ _ _ _ _ _ _ _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨⟨%y0, H0⟩, ⟨%y1, H1⟩, ⟨%y2, H2⟩, ⟨%y3, H3⟩, ⟨%y4, H4⟩, ⟨%y5, H5⟩, ⟨%y6, H6⟩, ⟨%y7, H7⟩, ⟨%y8, H8⟩, ⟨%y9, H9⟩⟩
  isplitr; · iempintro
  isplitl [Ho]; · iexact Ho
  isplitl [H0]; · iexists y0; isplitr; · ipureintro; trivial
                  iexact H0
  isplitl [H1]; · iexists y1; isplitr; · ipureintro; trivial
                  iexact H1
  isplitl [H2]; · iexists y2; isplitr; · ipureintro; trivial
                  iexact H2
  isplitl [H3]; · iexists y3; isplitr; · ipureintro; trivial
                  iexact H3
  isplitl [H4]; · iexists y4; isplitr; · ipureintro; trivial
                  iexact H4
  isplitl [H5]; · iexists y5; isplitr; · ipureintro; trivial
                  iexact H5
  isplitl [H6]; · iexists y6; isplitr; · ipureintro; trivial
                  iexact H6
  isplitl [H7]; · iexists y7; isplitr; · ipureintro; trivial
                  iexact H7
  isplitl [H8]; · iexists y8; isplitr; · ipureintro; trivial
                  iexact H8
  iexists y9; isplitr; · ipureintro; trivial
  iexact H9

/-! ## The region as the pipeline library's region record -/

theorem bigSep_F0 {M : Type} [URA M] (Φ : Fin 0 → sProp M) : bigSep Finset.univ Φ = (BI.emp : sProp M) :=
  bigSep_univ_eq_bigSepL [] (by decide) (by decide) Φ

theorem prefHeld_emp (c : Dev nD) (q) (pf) :
    (Pipeline.prefHeld (Ix := HIx 1) (Name := ℕ) (U := UU) (Lvl := ℕ) (Val := Elt F) (pcfgs (F := F) 0).pre c q pf : sProp 𝕄) = BI.emp :=
  bigSep_F0 _

/-- What the TensorCore owes before call 0 is owed at calls' indices only. -/
theorem Otc_none (c : Dev nD) (g : GSem nD τ sig) : (K (F := F)).Otc c 0 g none = 0 := by
  by_contra h
  have := SparseCore.Cfg.lev_of_Otc_pos (K := K (F := F)) (Nat.pos_of_ne_zero h)
  rw [SparseCore.Cfg.lev_none] at this; omega

/-- The region's record: entered from the arrays at the proof data's entry contents and the core's `owes`, it leaves the arrays
    at contents they may hold after the write-backs and the same `owes`; nothing enters or leaves the (empty) invariant. -/
def reg (W : Valuation τ sig (Elt F)) :
    Pipeline.RDat.RegionSeg (pcfgs (F := F)) adm (rdats W) (none : HIx 1) defs₀ 𝒱₀ (K (F := F)).L (K (F := F)).lev 0 where
  win := winFacts0.to₀
  block_pos := block_pos0
  stage_whole := stage_whole0
  K := PEmpty
  osem k := k.elim
  ho := Pipeline.OwnSemFacts.none _
  hbody c := body_obl W c
  hwaits c := Pipeline.RDat.cellsWaits_intro _ _ _ 0 c fun w s t =>
    (K (F := F)).mayWait_none _ (fun g => Otc_none c g)
  pre c := iprop((rdat W c).arrays (rdat W c).A ∗ (rdat W c).owesAt (none : HIx 1) 0)
  post c := iprop((rdat W c).arraysAt (Pipeline.pin (pcfgs (F := F)) adm 0).N ∗ (rdat W c).owesAt (none : HIx 1) (Fin.last _))
  X _ := iprop(emp)
  Y _ := iprop(emp)
  Z _ := iprop(emp)
  hentry c := by
    rw [Pipeline.ownSems0_none, prefHeld_emp]
    iintro ⟨⟨Ha, Ho⟩, -, -⟩
    imodintro
    isplitl [Ha]; · iexact Ha
    isplitr; · iempintro
    isplitl [Ho]; · iexact Ho
    isplitr <;> iempintro
  hin c := by
    show _ ⊢ (iprop(emp) : sProp 𝕄)
    iintro -; iempintro
  hout c := by
    rw [Pipeline.ownSems0_none]
    show _ ⊢ iprop((iprop(emp) : sProp 𝕄) ∗ BI.emp ∗ Pipeline.scopedRest spec0 c)
    rw [scopedRest0_eq]
    iintro -
    isplitr; · iempintro
    isplitr <;> iempintro
  hexit c := by
    iintro ⟨Ha, Ho, -, -⟩
    imodintro
    isplitl [Ha] <;> iassumption

/-! ## In and out of the pipeline library's spelling -/

/-- The TensorCore's `owes` before call 0 as the pipeline's: its recorded pairs sit at no call's index. -/
theorem owesAt_intro (W : Valuation τ sig (Elt F)) (d : Dev nD) (t : Fin ((Pipeline.pin (pcfgs (F := F)) adm 0).N + 1)) :
    iprop(∃ Wt, ⌜(K (F := F)).WBelow (T d) Wt (8 * 0)⌝ ∗ owes (T d) ((K (F := F)).Otc d 0) Wt)
      ⊢ ((rdat W d).owesAt (none : HIx 1) t : sProp 𝕄) := by
  iintro ⟨%Wt, %hWt, HO⟩
  iexists Wt; isplitr
  · ipureintro; intro p hp; left
    show p.2 = none
    have h0 := hWt p hp
    cases h : p.2 with
    | none => rfl
    | some q => rw [h] at h0; have := (K (F := F)).lev_some_pos (T d, p.1) q; omega
  · iexact HO

theorem owesAt_elim (W : Valuation τ sig (Elt F)) (d : Dev nD) (t : Fin ((Pipeline.pin (pcfgs (F := F)) adm 0).N + 1)) :
    ((rdat W d).owesAt (none : HIx 1) t : sProp 𝕄)
      ⊢ iprop(∃ Wt, ⌜(K (F := F)).WBelow (T d) Wt (8 * 0)⌝ ∗ owes (T d) ((K (F := F)).Otc d 0) Wt) := by
  iintro ⟨%Wt, %hWt, HO⟩
  iexists Wt; isplitr
  · ipureintro; intro p hp
    have e : p.2 = none := by
      rcases hWt hp with h | ⟨w, s, h⟩
      · exact h
      · rw [h]
    show (K (F := F)).lev (T d, p.1) p.2 ≤ 8 * 0
    rw [e]; exact Nat.le_of_eq rfl
  · iexact HO

theorem share_full (W : Valuation τ sig (Elt F)) (d : Dev nD) (w : Fin (Pipeline.pin (pcfgs (F := F)) adm 0).W) :
    (rdats W 0 d).share w = fullShare := by
  unfold Pipeline.RDat.share; split <;> rfl

/-! ## The arrays after the region, back among the TensorCore's unscoped arrays -/

/-- The valuation after the region: the three result arrays at what the region left, the rest as before. -/
def Wafter (W : Valuation τ sig (Elt F)) (f7 : r10_0.ty.Contents (Elt F)) (f8 : r10_1.ty.Contents (Elt F))
    (f9 : (Proc.devRef .tc (main_v10_2 : Ref sig .tc) : DevRef τ sig).ty.Contents (Elt F)) : Valuation τ sig (Elt F) :=
  Function.update (Function.update (Function.update W r10_0 f7) r10_1 f8) (Proc.devRef .tc (main_v10_2 : Ref sig .tc)) f9

theorem Wafter_of_ne (W : Valuation τ sig (Elt F)) (f7 f8 f9) (r : Ref sig .tc) (hr : r ∉ regW) :
    Wafter W f7 f8 f9 (Proc.devRef .tc r) = W (Proc.devRef .tc r) := by
  simp only [regW, List.mem_cons, List.mem_nil_iff, or_false, not_or] at hr
  obtain ⟨h0, h1, h2⟩ := hr
  unfold Wafter
  rw [Function.update_of_ne (StableHlo.devRef_ne_of_ne h2), Function.update_of_ne (StableHlo.devRef_ne_of_ne h1),
    Function.update_of_ne (StableHlo.devRef_ne_of_ne h0)]

theorem Wafter_7 (W : Valuation τ sig (Elt F)) (f7 f8 f9) : Wafter W f7 f8 f9 r10_0 = f7 := by
  unfold Wafter
  rw [Function.update_of_ne (by decide), Function.update_of_ne (by decide), Function.update_self]
theorem Wafter_8 (W : Valuation τ sig (Elt F)) (f7 f8 f9) : Wafter W f7 f8 f9 r10_1 = f8 := by
  unfold Wafter
  rw [Function.update_of_ne (by decide), Function.update_self]
theorem Wafter_9 (W : Valuation τ sig (Elt F)) (f7 f8 f9) :
    Wafter W f7 f8 f9 (Proc.devRef .tc (main_v10_2 : Ref sig .tc)) = f9 := by
  unfold Wafter
  rw [Function.update_self]

/-- An input window's array is, after every write-back, as at entry. -/
theorem F_in (W : Valuation τ sig (Elt F)) (d : Dev nD) (w : Fin (Pipeline.pin (pcfgs (F := F)) adm 0).W)
    (hin : ((Pipeline.pin (pcfgs (F := F)) adm 0).win w).isOut = false) (hw : Pipeline.arrRef spec0 w ∉ regW) (n : ℕ)
    (Fw : Buf (Elt F) (((Pipeline.pin (pcfgs (F := F)) adm 0).win w).arr.view.loc (d.tc : Thread nD τ)))
    (h : (rdat W d).ArrAt w n Fw) (f7 f8 f9) :
    Fw = Wafter W f7 f8 f9 (Proc.devRef .tc (Pipeline.arrRef spec0 w)) := by
  rw [Pipeline.RDat.ArrAt_in (rdat W d) w hin n] at h
  rw [Wafter_of_ne W f7 f8 f9 _ hw]
  exact h

abbrev cfgP : Pipeline.Cfg sig Λ₀ := Pipeline.pin (pcfgs (F := F)) adm 0

theorem arr_notin : ∀ w : Fin 10, w.val < 7 → Pipeline.arrRef spec0 w ∉ regW := by decide
theorem arr_7 : Pipeline.arrRef spec0 7 = main_v10_0 := rfl
theorem arr_8 : Pipeline.arrRef spec0 8 = main_v10_1 := rfl
theorem arr_9 : Pipeline.arrRef spec0 9 = main_v10_2 := rfl

/-- The arrays at `Fs` beside the unscoped rest at `W` are the unscoped arrays at any valuation that has the arrays at `Fs` and
    agrees with `W` off the result arrays. -/
theorem assemble (W W' : Valuation τ sig (Elt F)) (d : Dev nD)
    (Fs : (w : Fin (cfgP (F := F)).W) → Buf (Elt F) (((cfgP (F := F)).win w).arr.view.loc (d.tc : Thread nD τ)))
    (hFW : ∀ w, Fs w = W' (Proc.devRef .tc (Pipeline.arrRef spec0 w)))
    (hrest : ∀ r : Ref sig .tc, r ∉ regW → W' (Proc.devRef .tc r) = W (Proc.devRef .tc r)) :
    iprop((bigSep Finset.univ fun w : Fin (cfgP (F := F)).W =>
          (((d.tc : Thread nD τ).loc (Pipeline.arrRef (cfgP (F := F)).spec w)) ↦{fullShare} Fs w : sProp 𝕄))
        ∗ (Pipeline.unscopedRest (Ix := HIx 1) (Name := ℕ) (U := UU) (Lvl := ℕ) (cfgP (F := F)).spec d (fun b => W (Proc.devRef .tc b)) : sProp 𝕄))
      ⊢ (unscopedBufs d (fun b => W' (Proc.devRef .tc b)) : sProp 𝕄) := by
  have e1 : (bigSep Finset.univ fun w : Fin (cfgP (F := F)).W =>
        (((d.tc : Thread nD τ).loc (Pipeline.arrRef (cfgP (F := F)).spec w)) ↦{fullShare} Fs w : sProp 𝕄))
      = bigSep Finset.univ fun w : Fin (cfgP (F := F)).W =>
        (((d.tc : Thread nD τ).loc (Pipeline.arrRef (cfgP (F := F)).spec w)) ↦{fullShare} W' (Proc.devRef .tc (Pipeline.arrRef (cfgP (F := F)).spec w)) : sProp 𝕄) :=
    bigSep_congr fun w _ => by rw [hFW w]
  have e2 : (Pipeline.unscopedRest (Ix := HIx 1) (Name := ℕ) (U := UU) (Lvl := ℕ) (cfgP (F := F)).spec d (fun b => W (Proc.devRef .tc b)) : sProp 𝕄)
      = Pipeline.unscopedRest (cfgP (F := F)).spec d (fun b => W' (Proc.devRef .tc b)) := by
    unfold Pipeline.unscopedRest
    exact bigSep_congr fun b hb => by
      show ((d.tc : Thread nD τ).loc b ↦{fullShare} W (Proc.devRef .tc b) : sProp 𝕄) = ((d.tc : Thread nD τ).loc b ↦{fullShare} W' (Proc.devRef .tc b))
      rw [hrest b (fun hb' => (Finset.mem_sdiff.mp hb).2 (by
        simp only [regW, List.mem_cons, List.mem_nil_iff, or_false] at hb'
        rcases hb' with rfl | rfl | rfl
        · exact Finset.mem_image.mpr ⟨7, Finset.mem_univ _, rfl⟩
        · exact Finset.mem_image.mpr ⟨8, Finset.mem_univ _, rfl⟩
        · exact Finset.mem_image.mpr ⟨9, Finset.mem_univ _, rfl⟩))]
  rw [Pipeline.unscopedBufs_split (Ix := HIx 1) (Name := ℕ) (U := UU) (Lvl := ℕ) (Val := Elt F) (Pipeline.pin (pcfgs (F := F)) adm) 0
    winFacts0.arr_unscoped winFacts0.arr_inj d (fun b => W' (Proc.devRef .tc b)), e1, e2]

set_option maxHeartbeats 2000000 in
/-- EXIT: the arrays at contents they may hold after the write-backs, beside the unscoped rest as the region found it, are
    the TensorCore's unscoped arrays held at a valuation that differs from the entry's at most on the three result arrays. -/
theorem exit_arrays (W : Valuation τ sig (Elt F)) (d : Dev nD) :
    iprop((rdat W d).arraysAt (cfgP (F := F)).N
        ∗ (Pipeline.unscopedRest (Ix := HIx 1) (Name := ℕ) (U := UU) (Lvl := ℕ) (cfgP (F := F)).spec d (fun b => W (Proc.devRef .tc b)) : sProp 𝕄))
      ⊢ iprop(∃ W' : Valuation τ sig (Elt F), ⌜∀ r : Ref sig .tc, r ∉ regW → W' (Proc.devRef .tc r) = W (Proc.devRef .tc r)⌝
          ∗ (held (T d) (Pipeline.ucRefs τ sig) W' : sProp 𝕄)) := by
  have key := @bigSep_exists_pi 𝕄 _ (Fin (cfgP (F := F)).W) _
    (fun w => Buf (Elt F) (((cfgP (F := F)).win w).arr.view.loc (d.tc : Thread nD τ))) (fun w => ⟨(rdat W d).A w⟩) Finset.univ
    (fun w Fw => iprop(⌜(rdat W d).ArrAt w (cfgP (F := F)).N Fw⌝
      ∗ (((cfgP (F := F)).win w).arr.view.loc (d.tc : Thread nD τ) ↦[((cfgP (F := F)).win w).arr.view.set]{(rdat W d).share w} Fw : sProp 𝕄)))
  unfold Pipeline.RDat.arraysAt
  iintro ⟨Ha, Hr⟩
  ihave Ha' := key $$ Ha
  icases Ha' with ⟨%Fs, Ha⟩
  ihave Hp := (bigSep_pure_sep Finset.univ (fun w => (rdat W d).ArrAt w (cfgP (F := F)).N (Fs w))
    (fun w => (((cfgP (F := F)).win w).arr.view.loc (d.tc : Thread nD τ) ↦[((cfgP (F := F)).win w).arr.view.set]{(rdat W d).share w} Fs w : sProp 𝕄))) $$ Ha
  icases Hp with ⟨%hF, Ha⟩
  have harr : (bigSep Finset.univ fun w : Fin (cfgP (F := F)).W =>
        (((cfgP (F := F)).win w).arr.view.loc (d.tc : Thread nD τ) ↦[((cfgP (F := F)).win w).arr.view.set]{(rdat W d).share w} Fs w : sProp 𝕄))
      = bigSep Finset.univ fun w : Fin (cfgP (F := F)).W =>
        (((d.tc : Thread nD τ).loc (Pipeline.arrRef (cfgP (F := F)).spec w)) ↦{fullShare} Fs w : sProp 𝕄) :=
    Pipeline.RDat.arrays_eq (pcfgs (F := F)) adm (rdats W) 0 d arr_whole0 (share_full W d) Fs
  ihave Ha2 := (Entails.of_eq harr) $$ Ha
  have hFW : ∀ w, Fs w = Wafter W (Fs 7) (Fs 8) (Fs 9) (Proc.devRef .tc (Pipeline.arrRef spec0 w)) := fun w =>
    match w with
    | 0 => F_in W d 0 rfl (arr_notin 0 (by decide)) _ _ (hF 0 (Finset.mem_univ _)) _ _ _
    | 1 => F_in W d 1 rfl (arr_notin 1 (by decide)) _ _ (hF 1 (Finset.mem_univ _)) _ _ _
    | 2 => F_in W d 2 rfl (arr_notin 2 (by decide)) _ _ (hF 2 (Finset.mem_univ _)) _ _ _
    | 3 => F_in W d 3 rfl (arr_notin 3 (by decide)) _ _ (hF 3 (Finset.mem_univ _)) _ _ _
    | 4 => F_in W d 4 rfl (arr_notin 4 (by decide)) _ _ (hF 4 (Finset.mem_univ _)) _ _ _
    | 5 => F_in W d 5 rfl (arr_notin 5 (by decide)) _ _ (hF 5 (Finset.mem_univ _)) _ _ _
    | 6 => F_in W d 6 rfl (arr_notin 6 (by decide)) _ _ (hF 6 (Finset.mem_univ _)) _ _ _
    | 7 => (Wafter_7 W (Fs 7) (Fs 8) (Fs 9)).symm
    | 8 => (Wafter_8 W (Fs 7) (Fs 8) (Fs 9)).symm
    | 9 => (Wafter_9 W (Fs 7) (Fs 8) (Fs 9)).symm
    | ⟨_ + 10, h⟩ => absurd h (Nat.not_lt.2 (Nat.le_add_left _ _))
  iexists Wafter W (Fs 7) (Fs 8) (Fs 9)
  isplitr
  · ipureintro; exact fun r hr => Wafter_of_ne W _ _ _ r hr
  iapply (Entails.of_eq (Pipeline.unscopedBufs_held (Ix := HIx 1) (Name := ℕ) (U := UU) (Lvl := ℕ) d (Wafter W (Fs 7) (Fs 8) (Fs 9))))
  iapply (assemble W (Wafter W (Fs 7) (Fs 8) (Fs 9)) d Fs hFW (fun r hr => Wafter_of_ne W _ _ _ r hr))
  isplitl [Ha2] <;> iassumption

/-! ## The region -/

theorem cellOf_injR : Function.Injective (Pipeline.cellOf (nD := nD) (τ := τ) (Pipeline.pin (pcfgs (F := F)) adm)) := cellOf_inj

theorem reg_pre (W : Valuation τ sig (Elt F)) (d : Dev nD) :
    (reg W).pre d = iprop((rdat W d).arrays (rdat W d).A ∗ (rdat W d).owesAt (none : HIx 1) 0) := rfl
theorem reg_post (W : Valuation τ sig (Elt F)) (d : Dev nD) :
    (reg W).post d = iprop((rdat W d).arraysAt (cfgP (F := F)).N ∗ (rdat W d).owesAt (none : HIx 1) (Fin.last _)) := rfl

/-- The region's call in the program's signature, lifted to the SparseCore program's. -/
theorem lift_region (d : Dev nD) (Φ : PUnit → sProp 𝕄) :
    wp frame (wpE (D (F := F)) 𝒱 (T d) none) Set.univ
        (.op (.customCall (Pipeline.entry 0) ()) fun _ => .ret ⟨⟩ : Prog (TpuEff nD τ sig (Elt F) (ΛP (F := F)) .tc) PUnit) Φ
      ⊢ wp frame (wpE ((K (F := F)).defs (D (F := F))) 𝒱 (T d) none) Set.univ
          (Prog.lift (.customCall (SparseCore.inner (Pipeline.entry 0)) ())) Φ :=
  (K (F := F)).wp_liftProg (D (F := F)) 𝒱 (T d) Set.univ none
    (.op (.customCall (Pipeline.entry 0) ()) fun _ => .ret ⟨⟩ : Prog (TpuEff nD τ sig (Elt F) (ΛP (F := F)) .tc) PUnit) Φ

set_option maxHeartbeats 2000000 in
set_option backward.isDefEq.respectTransparency.types false in
/-- The region in the program's own signature: entered by the pipeline library's region rule at the record `reg W`. -/
theorem region_in (κ : GSem nD τ sig → ℕ) (d : Dev nD) (W : Valuation τ sig (Elt F)) (Φ : PUnit → sProp 𝕄) :
    iprop((K (F := F)).ctx EH P κ ∗ (K (F := F)).tcSt EH d 0 ∗ G (F := F) d ∗ boundary (T d) ∗ (held (T d) (Pipeline.ucRefs τ sig) W : sProp 𝕄)
        ∗ (((K (F := F)).tcSt EH d 0 ∗ boundary (T d)
              ∗ ∃ W' : Valuation τ sig (Elt F), ⌜∀ r : Ref sig .tc, r ∉ regW → W' (Proc.devRef .tc r) = W (Proc.devRef .tc r)⌝
                  ∗ (held (T d) (Pipeline.ucRefs τ sig) W' : sProp 𝕄)) -∗ Φ ⟨⟩))
      ⊢ wp frame (wpE (D (F := F)) 𝒱 (T d) none) Set.univ
          (.op (.customCall (Pipeline.entry 0) ()) fun _ => .ret ⟨⟩ : Prog (TpuEff nD τ sig (Elt F) (ΛP (F := F)) .tc) PUnit) Φ := by
  unfold SparseCore.Cfg.tcSt G
  iintro ⟨#Hctx, ⟨HO, Hst'⟩, ⟨Hg, Ht⟩, Hb, Hheld, Hk⟩
  ihave Hlev := (SparseCore.Cfg.ctx_levAts κ) $$ Hctx
  ihave Hu := (Entails.of_eq (Pipeline.unscopedBufs_held (Ix := HIx 1) (Name := ℕ) (U := UU) (Lvl := ℕ) d W).symm) $$ Hheld
  ihave Hs := (Pipeline.RDat.arrays_of_unscopedBufs (pcfgs (F := F)) adm (rdats W) (p := 0) winFacts0 arr_whole0 d (share_full W d)
    (fun b => W (Proc.devRef .tc b)) (fun w => rfl)) $$ Hu
  icases Hs with ⟨Harr, Hur⟩
  ihave HOa := (owesAt_intro W d 0) $$ HO
  iapply (Pipeline.RDat.RegionSeg.wp (pcfgs (F := F)) adm (rdats W) (none : HIx 1) cellOf_injR EP defs₀ 𝒱₀ (K (F := F)).L (K (F := F)).lev
    (reg W) d none (fun u hu => by cases hu) (fun _ => .ret ⟨⟩) Φ) $$ [Hk Hb Harr HOa Hg Ht Hur Hst']
  isplitl [Hk Hur Hst']
  · iintro ⟨Hb, Hpost⟩
    ihave Hp := (Entails.of_eq (reg_post W d)) $$ Hpost
    icases Hp with ⟨Ha, HOb⟩
    rw [wp_ret]; imodintro
    iapply Hk
    isplitl [HOb Hst']
    · isplitl [HOb]
      · iapply (owesAt_elim W d _); iexact HOb
      · iexact Hst'
    isplitl [Hb]; · iexact Hb
    iapply (exit_arrays W d)
    isplitl [Ha] <;> iassumption
  isplitl [Hb]; · iexact Hb
  isplitl [Harr HOa]
  · iapply (Entails.of_eq (reg_pre W d).symm)
    isplitl [Harr] <;> iassumption
  isplitr; · iexact Hlev
  isplitl [Hg] <;> iassumption

/-- THE KERNEL REGION at frame level: from the TensorCore's state before call 0, the funded cells and the unscoped
    arrays held whole at `W`, the region runs to the same with the arrays at some `W'` that differs from `W` at most
    on the region's three result arrays. -/
theorem region' (κ : GSem nD τ sig → ℕ) (d : Dev nD) (W : Valuation τ sig (Elt F)) {β : Type}
    (k : PUnit → Prog (TpuEff nD τ sig (Elt F) (SparseCore.Sig (ΛP (F := F)) 1) .tc) β) (Q : β → sProp 𝕄) :
    iprop((K (F := F)).ctx EH P κ ∗ (K (F := F)).tcSt EH d 0 ∗ G (F := F) d ∗ boundary (T d) ∗ (held (T d) (Pipeline.ucRefs τ sig) W : sProp 𝕄))
      ⊢ iprop((((K (F := F)).tcSt EH d 0 ∗ boundary (T d)
              ∗ ∃ W' : Valuation τ sig (Elt F), ⌜∀ r : Ref sig .tc, r ∉ regW → W' (Proc.devRef .tc r) = W (Proc.devRef .tc r)⌝
                  ∗ (held (T d) (Pipeline.ucRefs τ sig) W' : sProp 𝕄))
            -∗ wp frame (wpE ((K (F := F)).defs (D (F := F))) 𝒱 (T d) none) Set.univ (k ⟨⟩) Q)
        -∗ wp frame (wpE ((K (F := F)).defs (D (F := F))) 𝒱 (T d) none) Set.univ
          (Prog.lift (.customCall (SparseCore.inner (Pipeline.entry 0)) ()) >>= k) Q) := by
  rw [wp_bind]
  iintro ⟨Hctx, Hst, HG, Hb, Hheld⟩ Hk
  iapply (lift_region d _)
  iapply (region_in κ d W _)
  isplitl [Hctx]; · iexact Hctx
  isplitl [Hst]; · iexact Hst
  isplitl [HG]; · iexact HG
  isplitl [Hb]; · iexact Hb
  isplitl [Hheld]; · iexact Hheld
  iexact Hk

end Cert.Proof.KI

end
-- ==== Proof.ScSplitI.lean ====
/-
  The SparseCore call's operands carved out of the TensorCore's arrays, and its result array put back together.
  Tile (c, s) is worker 2·s + c: it is lent token number 2·s + c of 32 of each node table, its 5120 consecutive entries of the three
  flat arrays (offset 10240·s + 5120·c) and its 320 consecutive rows of the result (row offset 640·s + 320·c): 32 disjoint pieces each.
-/
import proofs.«205997_g24756191494465_cont_8to1_1595_42_alg».proof.Proof.MainA

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-- The tiles: (core, subcore). -/
abbrev I32 : Type := Fin 2 × Fin 16

theorem LL_0 (c : Fin 2) (s : Fin 16) : ((LL c s) 0).val = c.val := rfl
theorem LL_1 (c : Fin 2) (s : Fin 16) : ((LL c s) 1).val = s.val := rfl

theorem ne_vals {cs cs' : I32} (h : cs ≠ cs') : cs.1.val ≠ cs'.1.val ∨ cs.2.val ≠ cs'.2.val := by
  by_cases h1 : cs.1.val = cs'.1.val
  · by_cases h2 : cs.2.val = cs'.2.val
    · exact absurd (Prod.ext (Fin.ext h1) (Fin.ext h2)) h
    · exact Or.inr h2
  · exact Or.inl h1

/-! ## The slices as rectangles, pairwise disjoint -/

theorem set_ii (L : grid1.Coords) : (iiSl L).view.set = (Rect.unit (s := S163840) (k1_off1 L) S5120.size (k1_off1_inb L)).set := View.set_slice_whole _ _
theorem set_ij (L : grid1.Coords) : (ijSl L).view.set = (Rect.unit (s := S163840) (k1_off1 L) S5120.size (k1_off1_inb L)).set := View.set_slice_whole _ _
theorem set_sp (L : grid1.Coords) : (spSl L).view.set = (Rect.unit (s := S163840) (k1_off1 L) S5120.size (k1_off1_inb L)).set := View.set_slice_whole _ _
theorem set_ou (L : grid1.Coords) : (ouSl L).view.set = (Rect.unit (s := S10240x128) (k1_off39 L) S320x128.size (k1_off39_inb L)).set := View.set_slice_whole _ _

theorem disj1 (cs cs' : I32) (h : cs ≠ cs') :
    Disjoint (Rect.unit (s := S163840) (k1_off1 (LL cs.1 cs.2)) S5120.size (k1_off1_inb _)).set
      (Rect.unit (s := S163840) (k1_off1 (LL cs'.1 cs'.2)) S5120.size (k1_off1_inb _)).set := by
  refine Rect.unit_disjoint 0 ?_
  rw [k1_off1_eq, k1_off1_eq]
  have h1 := ne_vals h; have h2 := cs.1.isLt; have h3 := cs'.1.isLt
  show 10240 * cs.2.val + 5120 * cs.1.val + 5120 ≤ 10240 * cs'.2.val + 5120 * cs'.1.val
    ∨ 10240 * cs'.2.val + 5120 * cs'.1.val + 5120 ≤ 10240 * cs.2.val + 5120 * cs.1.val
  omega

theorem disj39 (cs cs' : I32) (h : cs ≠ cs') :
    Disjoint (Rect.unit (s := S10240x128) (k1_off39 (LL cs.1 cs.2)) S320x128.size (k1_off39_inb _)).set
      (Rect.unit (s := S10240x128) (k1_off39 (LL cs'.1 cs'.2)) S320x128.size (k1_off39_inb _)).set := by
  refine Rect.unit_disjoint 0 ?_
  rw [k1_off39_eq, k1_off39_eq]
  have h1 := ne_vals h; have h2 := cs.1.isLt; have h3 := cs'.1.isLt
  show 640 * cs.2.val + 320 * cs.1.val + 320 ≤ 640 * cs'.2.val + 320 * cs'.1.val
    ∨ 640 * cs'.2.val + 320 * cs'.1.val + 320 ≤ 640 * cs.2.val + 320 * cs.1.val
  omega

/-! ## Carving an array into the tiles' pieces -/

/-- An array held whole is, for any pairwise disjoint family of element sets over the tiles, each tile's piece (the elements
    outside every piece are let go). -/
theorem carve {ℓ : Loc nD τ sig} (g : Buf (Elt F) ℓ) (Kt : I32 → Finset (Idx ℓ))
    (hd : ∀ cs cs', cs ≠ cs' → Disjoint (Kt cs) (Kt cs')) :
    (ℓ ↦{fullShare} g : sProp 𝕄)
      ⊢ bigSep Finset.univ fun c : Fin 2 => bigSep Finset.univ fun s : Fin 16 => (ℓ ↦[Kt (c, s)]{fullShare} g : sProp 𝕄) := by
  rw [← bigSep_univ_prod (fun cs : I32 => (ℓ ↦[Kt cs]{fullShare} g : sProp 𝕄)),
    ← pointsTo_biUnion Finset.univ Kt (fun t _ t' _ h => hd t t' h)]
  exact (pointsTo_split_subset (Finset.subset_univ _)).1.trans sep_elim_left

/-- The tiles' pieces of an array, each at some contents, make the pieces' union at some contents. -/
theorem uncarve {ℓ : Loc nD τ sig} (f₀ : Buf (Elt F) ℓ) (Kt : I32 → Finset (Idx ℓ))
    (hd : ∀ cs cs', cs ≠ cs' → Disjoint (Kt cs) (Kt cs')) :
    (bigSep Finset.univ fun c : Fin 2 => bigSep Finset.univ fun s : Fin 16 => iprop(∃ f, (ℓ ↦[Kt (c, s)]{fullShare} f : sProp 𝕄)))
      ⊢ iprop(∃ g, (ℓ ↦[Finset.univ.biUnion Kt]{fullShare} g : sProp 𝕄)) := by
  rw [← bigSep_univ_prod (fun cs : I32 => iprop(∃ f, (ℓ ↦[Kt cs]{fullShare} f : sProp 𝕄)))]
  have key := @bigSep_exists_pi 𝕄 _ I32 _ (fun _ => Buf (Elt F) ℓ) (fun _ => ⟨f₀⟩) (Finset.univ : Finset I32)
    (fun cs f => (ℓ ↦[Kt cs]{fullShare} f : sProp 𝕄))
  iintro H
  ihave H' := key $$ H
  icases H' with ⟨%fs, H⟩
  ihave H'' := (pointsTo_biUnion_join Finset.univ Kt fs f₀ (fun t _ t' _ h => hd t t' h)) $$ H
  icases H'' with ⟨%g, -, H⟩
  iexists g; iexact H

/-! ## The node tables' read shares -/

/-- The worker number of tile (c, s). -/
def widP (cs : I32) : Fin 32 := ⟨2 * cs.2.val + cs.1.val, by have := cs.1.isLt; have := cs.2.isLt; omega⟩

theorem widP_inj : Function.Injective widP := fun cs cs' h => by
  have e : 2 * cs.2.val + cs.1.val = 2 * cs'.2.val + cs'.1.val := congrArg Fin.val h
  have h2 := cs.1.isLt; have h3 := cs'.1.isLt
  exact Prod.ext (Fin.ext (by omega)) (Fin.ext (by omega))

theorem wid_LL (c : Fin 2) (s : Fin 16) : wid (LL c s) = widP (c, s) := rfl

/-- A table held whole lends every tile its read share (the remainder is let go). -/
theorem lend {ℓ : Loc nD τ sig} (f : Buf (Elt F) ℓ) :
    (ℓ ↦{fullShare} f : sProp 𝕄)
      ⊢ bigSep Finset.univ fun c : Fin 2 => bigSep Finset.univ fun s : Fin 16 => iprop(∃ f', (ℓ ↦{tabShare (LL c s)} f' : sProp 𝕄)) := by
  rw [← bigSep_univ_prod (fun cs : I32 => iprop(∃ f', (ℓ ↦{tabShare (LL cs.1 cs.2)} f' : sProp 𝕄)))]
  refine (Transfers.pointsTo_toks_split fullShare 32).trans (sep_elim_right.trans ?_)
  refine (bigSep_subset (Finset.subset_univ ((Finset.univ : Finset I32).image widP))).trans ?_
  rw [SparseCore.bigSep_image_of_injOn (widP_inj.injOn)]
  refine bigSep_mono fun cs _ => ?_
  show (ℓ ↦{tabShare (LL cs.1 cs.2)} f : sProp 𝕄) ⊢ iprop(∃ f', (ℓ ↦{tabShare (LL cs.1 cs.2)} f' : sProp 𝕄))
  iintro H; iexists f; iexact H

/-! ## The call's operands -/

theorem sixS_sub : sixS ⊆ Pipeline.ucRefs τ sig := by decide

theorem held_six (d : Dev nD) (W : Valuation τ sig (Elt F)) :
    (held (T d) sixS W : sProp 𝕄)
      = iprop((y1L d ↦{fullShare} W r10_0) ∗ (y2L d ↦{fullShare} W r10_1) ∗ (iiL d ↦{fullShare} W r14) ∗ (ijL d ↦{fullShare} W r16)
          ∗ (spL d ↦{fullShare} W r17) ∗ (ouL d ↦{fullShare} W r18)) := by
  unfold held
  rw [SparseCore.bigSep_insert' (by decide), SparseCore.bigSep_insert' (by decide), SparseCore.bigSep_insert' (by decide),
    SparseCore.bigSep_insert' (by decide), SparseCore.bigSep_insert' (by decide), bigSep_singleton]

theorem piece_some {ℓ : Loc nD τ sig} (S : Finset (Idx ℓ)) (g : Buf (Elt F) ℓ) :
    (ℓ ↦[S]{fullShare} g : sProp 𝕄) ⊢ iprop(∃ f, (ℓ ↦[S]{fullShare} f : sProp 𝕄)) := by
  iintro H; iexists g; iexact H

theorem piece_rows14 (d : Dev nD) (S : Finset S163840.Idx) (g : Buf (Elt F) (iiL d)) (h : InRows Finset.univ g) :
    (iiL d ↦[S]{fullShare} g : sProp 𝕄) ⊢ iprop(∃ f, ⌜InRows S f⌝ ∗ (iiL d ↦[S]{fullShare} f : sProp 𝕄)) := by
  iintro H; iexists g; isplitr
  · ipureintro; exact fun j _ => h j (Finset.mem_univ j)
  · iexact H
theorem piece_rows16 (d : Dev nD) (S : Finset S163840.Idx) (g : Buf (Elt F) (ijL d)) (h : InRows Finset.univ g) :
    (ijL d ↦[S]{fullShare} g : sProp 𝕄) ⊢ iprop(∃ f, ⌜InRows S f⌝ ∗ (ijL d ↦[S]{fullShare} f : sProp 𝕄)) := by
  iintro H; iexists g; isplitr
  · ipureintro; exact fun j _ => h j (Finset.mem_univ j)
  · iexact H

set_option maxHeartbeats 1000000 in
/-- The six arrays held whole are every tile's payload. -/
theorem tiles_intro (d : Dev nD) (f1 : Buf (Elt F) (y1L d)) (f2 : Buf (Elt F) (y2L d)) (g1 : Buf (Elt F) (iiL d)) (g2 : Buf (Elt F) (ijL d))
    (g3 : Buf (Elt F) (spL d)) (g4 : Buf (Elt F) (ouL d)) (h1 : InRows Finset.univ g1) (h2 : InRows Finset.univ g2) :
    iprop((y1L d ↦{fullShare} f1) ∗ (y2L d ↦{fullShare} f2) ∗ (iiL d ↦{fullShare} g1) ∗ (ijL d ↦{fullShare} g2)
        ∗ (spL d ↦{fullShare} g3) ∗ (ouL d ↦{fullShare} g4))
      ⊢ (bigSep Finset.univ fun c : Fin 2 => bigSep Finset.univ fun s : Fin 16 => tilePay (F := F) d (LL c s)) := by
  unfold tilePay
  simp only [bigSep_sep']
  iintro ⟨H1, H2, H3, H4, H5, H6⟩
  isplitl [H1]; · iapply (lend f1); iexact H1
  isplitl [H2]; · iapply (lend f2); iexact H2
  isplitl [H3]
  · iapply ((carve g1 (fun cs => (iiSl (LL cs.1 cs.2)).view.set) (fun cs cs' h => by rw [set_ii, set_ii]; exact disj1 cs cs' h)).trans
      (bigSep_mono fun c _ => bigSep_mono fun s _ => piece_rows14 d _ g1 h1))
    iexact H3
  isplitl [H4]
  · iapply ((carve g2 (fun cs => (ijSl (LL cs.1 cs.2)).view.set) (fun cs cs' h => by rw [set_ij, set_ij]; exact disj1 cs cs' h)).trans
      (bigSep_mono fun c _ => bigSep_mono fun s _ => piece_rows16 d _ g2 h2))
    iexact H4
  isplitl [H5]
  · iapply ((carve g3 (fun cs => (spSl (LL cs.1 cs.2)).view.set) (fun cs cs' h => by rw [set_sp, set_sp]; exact disj1 cs cs' h)).trans
      (bigSep_mono fun c _ => bigSep_mono fun s _ => piece_some _ g3))
    iexact H5
  · iapply ((carve g4 (fun cs => (ouSl (LL cs.1 cs.2)).view.set) (fun cs cs' h => by rw [set_ou, set_ou]; exact disj39 cs cs' h)).trans
      (bigSep_mono fun c _ => bigSep_mono fun s _ => piece_some _ g4))
    iexact H6

theorem st_eq (d : Dev nD) :
    (bigSep Finset.univ fun c : Fin ((K (F := F)).nCore 0) => (P (F := F)).st 0 d c)
      = (bigSep (Finset.univ : Finset (Fin 2)) fun c => bigSep Finset.univ fun s : Fin 16 => tilePay (F := F) d (LL c s)) := rfl
theorem dn_eq (d : Dev nD) :
    (bigSep Finset.univ fun c : Fin ((K (F := F)).nCore 0) => (P (F := F)).dn 0 d c)
      = (bigSep (Finset.univ : Finset (Fin 2)) fun c => bigSep Finset.univ fun s : Fin 16 => tilePay (F := F) d (LL c s)) := rfl

theorem sc_pre' (d : Dev nD) (W : Valuation τ sig (Elt F))
    (h14 : InRows Finset.univ (W r14)) (h16 : InRows Finset.univ (W r16)) :
    (held (T d) (Pipeline.ucRefs τ sig) W : sProp 𝕄)
      ⊢ iprop((bigSep Finset.univ fun c : Fin ((K (F := F)).nCore 0) => (P (F := F)).st 0 d c)
          ∗ held (T d) (Pipeline.ucRefs τ sig \ sixS) W) := by
  rw [StableHlo.held_sub_split (T d) sixS_sub W, held_six, st_eq]
  exact sep_mono (tiles_intro d _ _ _ _ _ _ h14 h16) .rfl

end Cert.Proof.KI

end
-- ==== Proof.ScPostI.lean ====
/-
  The SparseCore call's result array put back together on the TensorCore.

  Each tile hands back its 320 rows of the result at contents of its own; the 32 row blocks (row offset 640·s + 320·c for
  tile (c, s)) are pairwise disjoint and cover the 10240 rows (row r lies in the block of s = r / 640, c = (r mod 640) / 320),
  so together they are the whole array at some contents.  What else a tile hands back (the tables' read shares, its slices of
  the edge lists and of the damping factors) @main never reads again and is let go.
-/
import proofs.«205997_g24756191494465_cont_8to1_1595_42_alg».proof.Proof.ScSplitI

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-- Tile (c, s)'s rows of the result array, as a set of its elements. -/
abbrev ouK (d : Dev nD) : I32 → Finset (Idx (ouL d)) := fun cs => (ouSl (LL cs.1 cs.2)).view.set

/-- A tile's payload holds its rows of the result at some contents. -/
theorem tilePay_ou (d : Dev nD) (L : grid1.Coords) :
    (tilePay (F := F) d L) ⊢ iprop(∃ f, (ouL d ↦[(ouSl L).view.set]{fullShare} f : sProp 𝕄)) := by
  unfold tilePay
  iintro ⟨-, -, -, -, -, H⟩
  iexact H

/-- The 32 tiles' row blocks cover the result array. -/
theorem cover39 (d : Dev nD) : (Finset.univ : Finset I32).biUnion (ouK d) = Finset.univ := by
  refine Finset.eq_univ_iff_forall.2 fun j => ?_
  have hr : (j 0).val < 10240 := (j 0).isLt
  have hcol : (j 1).val < 128 := (j 1).isLt
  refine Finset.mem_biUnion.2 ⟨(⟨(j 0).val % 640 / 320, by omega⟩, ⟨(j 0).val / 640, by omega⟩), Finset.mem_univ _, ?_⟩
  refine (Finset.ext_iff.mp (set_ou (LL _ _)) j).mpr (Rect.mem_set_unit.mpr ?_)
  rw [k1_off39_eq]
  intro a
  match a with
  | ⟨0, _⟩ =>
    show 640 * ((j 0).val / 640) + 320 * ((j 0).val % 640 / 320) ≤ (j 0).val
      ∧ (j 0).val < 640 * ((j 0).val / 640) + 320 * ((j 0).val % 640 / 320) + 320
    omega
  | ⟨1, _⟩ =>
    show 0 ≤ (j 1).val ∧ (j 1).val < 0 + 128
    omega

/-- The arrays @main still holds after the call, with the result array at `g`: the result array at `g`, and the others as
    they were. -/
theorem held_five (d : Dev nD) (W : Valuation τ sig (Elt F)) (g) :
    (held (T d) (Pipeline.ucRefs τ sig \ fiveS) (Function.update W r18 g) : sProp 𝕄)
      = iprop((ouL d ↦{fullShare} g) ∗ held (T d) (Pipeline.ucRefs τ sig \ sixS) W) := by
  have hset : Pipeline.ucRefs τ sig \ fiveS = insert r18 (Pipeline.ucRefs τ sig \ sixS) := by decide
  have hnot : r18 ∉ Pipeline.ucRefs τ sig \ sixS := by decide
  rw [hset]
  unfold held
  rw [SparseCore.bigSep_insert' hnot, Function.update_self]
  refine congrArg (fun B : sProp 𝕄 => iprop((ouL d ↦{fullShare} g) ∗ B)) (bigSep_congr fun b hb => ?_)
  rw [Function.update_of_ne (fun (e : b = r18) => hnot (e ▸ hb))]

/-- THE RESULT BACK: what the tiles hand back, beside the arrays the call did not touch, is the TensorCore's arrays with the
    result array at some contents. -/
theorem sc_post' (d : Dev nD) (W : Valuation τ sig (Elt F)) :
    iprop((bigSep Finset.univ fun c : Fin ((K (F := F)).nCore 0) => (P (F := F)).dn 0 d c)
          ∗ (held (T d) (Pipeline.ucRefs τ sig \ sixS) W : sProp 𝕄))
      ⊢ iprop(∃ g, (held (T d) (Pipeline.ucRefs τ sig \ fiveS) (Function.update W r18 g) : sProp 𝕄)) := by
  rw [dn_eq]
  have hou : (bigSep (Finset.univ : Finset (Fin 2)) fun c => bigSep Finset.univ fun s : Fin 16 => tilePay (F := F) d (LL c s))
      ⊢ iprop(∃ g, (ouL d ↦{fullShare} g : sProp 𝕄)) := by
    refine (bigSep_mono fun c _ => bigSep_mono fun s _ => tilePay_ou d (LL c s)).trans ?_
    refine (uncarve (W r18) (ouK d) (fun cs cs' h => by
      show Disjoint (ouSl (LL cs.1 cs.2)).view.set (ouSl (LL cs'.1 cs'.2)).view.set
      rw [set_ou, set_ou]; exact disj39 cs cs' h)).trans ?_
    rw [cover39 d]
  iintro ⟨Hdn, Hrest⟩
  ihave Hg := hou $$ Hdn
  icases Hg with ⟨%g, Hg⟩
  iexists g
  iapply (Entails.of_eq (held_five d W g).symm)
  isplitl [Hg]; · iexact Hg
  iexact Hrest

end Cert.Proof.KI

end
-- ==== Proof.MainI.lean ====
/-
  @main on the TensorCore, assembled: host stretches, the kernel region, the SparseCore call.
-/
import proofs.«205997_g24756191494465_cont_8to1_1595_42_alg».proof.Proof.RegionI
import proofs.«205997_g24756191494465_cont_8to1_1595_42_alg».proof.Proof.ScPostI

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

/-! ## @main -/

/-- The launch's deal of the TensorCore's unscoped arrays is the set of them held at the launch contents. -/
theorem tcBufs_held (m : (ℓ : Loc nD τ sig) → Buf (Elt F) ℓ) (d : Dev nD) :
    (unscopedBufs d (fun b => m ((SparseCore.T d).loc b)) : sProp 𝕄) = held (SparseCore.T d) (Pipeline.ucRefs τ sig) (V0 m d) :=
  Pipeline.unscopedBufs_held (Ix := HIx 1) (Name := ℕ) (U := UU) (Lvl := ℕ) d (V0 m d)

set_option maxHeartbeats 1600000 in
/-- @main on device `d`'s TensorCore: five host stretches, the kernel region, three host stretches, the SparseCore call
    (its operands carved out of the arrays, its result put back), the last host stretch; the arguments are never written. -/
theorem hmain (m : (ℓ : Loc nD τ sig) → Buf (Elt F) ℓ) (ρ : Dev nD → PrngReg) (hpre : PreOK m) (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d) := by
  unfold SparseCore.Cfg.tcRes
  rw [main_chain, tcBufs_held]
  simp only [Pipeline.chain_cons, Pipeline.chain_nil]
  iintro ⟨#Hctx, Hst, ⟨Hb, Hheld, -, -⟩, HG⟩
  iapply (wp_stretch d opsA opsA_sub opsA_fresh _ _ _) $$ [Hb Hheld]
  · isplitl [Hb] <;> iassumption
  iintro ⟨Hb, Hheld⟩
  iapply (wp_stretch d opsB opsB_sub opsB_fresh _ _ _) $$ [Hb Hheld]
  · isplitl [Hb] <;> iassumption
  iintro ⟨Hb, Hheld⟩
  iapply (wp_stretch d opsC opsC_sub opsC_fresh _ _ _) $$ [Hb Hheld]
  · isplitl [Hb] <;> iassumption
  iintro ⟨Hb, Hheld⟩
  iapply (wp_stretch d opsD opsD_sub opsD_fresh _ _ _) $$ [Hb Hheld]
  · isplitl [Hb] <;> iassumption
  iintro ⟨Hb, Hheld⟩
  iapply (wp_stretch d opsE opsE_sub opsE_fresh _ _ _) $$ [Hb Hheld]
  · isplitl [Hb] <;> iassumption
  iintro ⟨Hb, Hheld⟩
  -- the kernel region
  iapply (region' κ d _ _ _) $$ [Hst HG Hb Hheld]
  · isplitr; · iexact Hctx
    isplitl [Hst]; · iexact Hst
    isplitl [HG]; · iexact HG
    isplitl [Hb] <;> iassumption
  iintro ⟨Hst, Hb, %W', %hW', Hheld⟩
  have harg : ∀ r ∈ argL, W' (Proc.devRef .tc r) = V0 m d (Proc.devRef .tc r) := fun r hr =>
    (hW' r (argL_regW r hr)).trans (stretch1_arg _ r (argL_hostW r hr))
  have h1 : ∀ i : S2x1x10000x16.Idx, ((W' (Proc.devRef .tc main_arg1) : S2x1x10000x16.Idx → BitVec 32) i).toNat < 10240 := by
    rw [harg main_arg1 (by decide)]; exact hpre d
  iapply (wp_stretch d opsF opsF_sub opsF_fresh _ _ _) $$ [Hb Hheld]
  · isplitl [Hb] <;> iassumption
  iintro ⟨Hb, Hheld⟩
  iapply (wp_stretch d opsG opsG_sub opsG_fresh _ _ _) $$ [Hb Hheld]
  · isplitl [Hb] <;> iassumption
  iintro ⟨Hb, Hheld⟩
  iapply (wp_stretch d opsH opsH_sub opsH_fresh _ _ _) $$ [Hb Hheld]
  · isplitl [Hb] <;> iassumption
  iintro ⟨Hb, Hheld⟩
  -- the SparseCore call
  rw [wp_bind]
  ihave Hs := (sc_pre' d _ (rows14 W' h1) (rows16 W' h1)) $$ Hheld
  icases Hs with ⟨Hst0, Hrest⟩
  iapply ((K (F := F)).wp_run (D (F := F)) 𝒱 (EH := EH) (P := P) κ d 0) $$ [Hst Hst0 Hb Hrest]
  isplitr; · iexact Hctx
  isplitl [Hst]; · iexact Hst
  isplitl [Hst0]; · iexact Hst0
  iintro ⟨Hst, Hdn⟩
  ihave Hp := (sc_post' d _) $$ [Hdn Hrest]
  · isplitl [Hdn] <;> iassumption
  icases Hp with ⟨%g, Hheld⟩
  iapply (wp_stretchS d (Pipeline.ucRefs τ sig \ fiveS) opsI opsI_S opsI_fresh _ _ _) $$ [Hb Hheld]
  · isplitl [Hb] <;> iassumption
  iintro ⟨Hb, Hheld⟩
  rw [show (pure ⟨⟩ : Prog (TpuEff nD τ sig (Elt F) (SparseCore.Sig (ΛP (F := F)) 1) .tc) PUnit) = .ret ⟨⟩ from rfl, wp_ret]
  imodintro
  isplitl [Hst]; · iexact Hst
  ihave Hh := (Entails.of_eq (StableHlo.held_sub_split (T d) argS_sub _)) $$ Hheld
  icases Hh with ⟨Hargs, -⟩
  ihave Ha := (Entails.of_eq (StableHlo.held_congr (T d) (S := argS) (V' := V0 m d) (fun b hb => by
    obtain ⟨r, hr, rfl⟩ := List.mem_map.mp (List.mem_toFinset.mp hb)
    rw [stretch3_arg _ r (argL_hostW r hr), Function.update_of_ne (StableHlo.devRef_ne_of_ne (argL_v18 r hr)),
      stretch2_arg _ r (argL_hostW r hr)]
    exact harg r hr))) $$ Hargs
  iexact Ha

end Cert.Proof.KI

end
-- ==== Proof.LaunchI.lean ====
/-
  The launch element (the handshakes' rounds, the pipeline's staging cells funded, no counter) and how the final memory reads the claim.
-/
import proofs.«205997_g24756191494465_cont_8to1_1595_42_alg».proof.Proof.MainA

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-! ## The launch element -/

/-- The pipeline's staging cells are pairwise distinct. -/
theorem cellOf_inj' : Function.Injective (Pipeline.cellOf (nD := nD) (τ := τ) (Pipeline.pin (pcfgs (F := F)) adm)) := cellOf_inj

/-- The handshakes' rounds at the handshake cells; the pipeline's rounds at its staging cells and transfers; no counter. -/
def u₀ : UU :=
  (initOf (K (F := F)).hsCells (K (F := F)).hsToks,
    (initOf (Pipeline.cells (Pipeline.pin (pcfgs (F := F)) adm) cellOf_inj') (Pipeline.launchToks (Pipeline.pin (pcfgs (F := F)) adm) cellOf_inj'), 1))

theorem bigSep_F1 (Φ : Fin 1 → sProp 𝕄) : bigSep Finset.univ Φ = Φ 0 := by
  rw [show (Finset.univ : Finset (Fin 1)) = {0} from rfl, bigSep_singleton]

theorem x_emp : (bigSep Finset.univ fun thr : Thread nD τ => bigSep Finset.univ fun q : Fin 1 => (P (F := F)).x q thr) = (iprop(emp) : sProp 𝕄) := by
  rw [show (fun thr : Thread nD τ => bigSep Finset.univ fun q : Fin 1 => (P (F := F)).x q thr) = fun _ => (iprop(emp) : sProp 𝕄)
    from funext fun thr => bigSep_emp_const _]
  exact bigSep_emp_const _

theorem hu₀ : iprop(ownU (u₀ (F := F)) ∗ (P (F := F)).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P (F := F)).x q thr) := by
  rw [x_emp]
  unfold u₀
  iintro ⟨Hu, -, -⟩
  ihave H := (ownU_pair _ _) $$ Hu
  icases H with ⟨HH, HR⟩
  ihave H2 := (own_pair_emb embR _ _) $$ HR
  icases H2 with ⟨HP, -⟩
  imod (Pipeline.fund_ghost (Pipeline.pin (pcfgs (F := F)) adm) EP cellOf_inj') $$ HP with ⟨Hg, Ht⟩
  imodintro
  isplitl [HH]; · iexact HH
  isplitl [Hg Ht]
  · unfold G
    rw [bigSep_sep']
    isplitl [Hg]
    · iapply (Entails.of_eq (bigSep_congr fun c _ => bigSep_F1 (fun p => Pipeline.cellsGhost (Pipeline.pin (pcfgs (F := F)) adm) EP p c)))
      iexact Hg
    · iapply (Entails.of_eq (bigSep_congr fun c _ => bigSep_F1 (fun p => Pipeline.toksInit (Pipeline.pin (pcfgs (F := F)) adm) EP p c)))
      iexact Ht
  iempintro

/-! ## The final memory -/

/-- The final memory has the eight argument arrays of device `d` at their launch contents. -/
def fq (m : (ℓ : Loc nD τ sig) → Buf (Elt F) ℓ) (d : Dev nD) (s' : Phys nD τ sig (Elt F)) : Prop :=
  ∀ b ∈ argS, s'.mem.mem (d, b) = V0 m d b

theorem hfin (m : (ℓ : Loc nD τ sig) → Buf (Elt F) ℓ) (d : Dev nD) (s' : Phys nD τ sig (Elt F)) :
    iprop(FIN m d ∗ SI s') ⊢ (⌜fq m d s'⌝ : sProp 𝕄) :=
  posts_pure argS (Φ := fun b => (((d, b) : Loc nD τ sig) ↦{fullShare} V0 m d b : sProp 𝕄))
    (q := fun b s' => s'.mem.mem (d, b) = V0 m d b) (fun b s' => by
      iintro ⟨Hx, HSI⟩
      ihave H := (SI_pointsTo_agree (st := s') (ℓ := (d, b)) (I := Finset.univ) (q := fullShare) (f := V0 m d b)) $$ [HSI Hx]
      · isplitl [HSI] <;> iassumption
      icases H with %hx
      ipureintro; exact funext fun i => hx i (Finset.mem_univ i)) s'

/-- An argument array read off `fq`. -/
theorem fq_arg {m : (ℓ : Loc nD τ sig) → Buf (Elt F) ℓ} {d : Dev nD} {s' : Phys nD τ sig (Elt F)} (h : fq m d s')
    (r : Ref sig .tc) (hr : r ∈ argL) : s'.mem.mem ((SparseCore.T d).loc r) = m ((SparseCore.T d).loc r) :=
  h _ (List.mem_toFinset.mpr (List.mem_map_of_mem hr))

end Cert.Proof.KI

end
-- ==== Proof.PreFacts.lean ====
/-
  What the input-domain precondition says, entry by entry.

  The precondition is a conjunction, folded by `and`, of eight `all`s: for each of the seven float arguments that every
  entry has absolute value below +∞, and for the edge list that every entry, read signed, is at least 0 and at most 9999.
  An extended real whose absolute value is below +∞ is neither infinity, hence a real number.
-/
import proofs.«205997_g24756191494465_cont_8to1_1595_42_alg».proof.Pre_input_domain
import Idealize.ShloMosaic.Lib.ReduceAll
import Idealize.ShloMosaic.Lib.ValueIdx
import Idealize.ShloMosaic.PureOps.Ideal.Laws

noncomputable section

namespace Cert.RefSide

open Idealize.ShloMosaic Idealize.ShloMosaic.ValueIdx

/-- The scalar shape has one index. -/
instance subsingleton_scalar_idx : Subsingleton (⟨0, ![]⟩ : Shape).Idx := ⟨fun _ _ => funext fun d => d.elim0⟩

/-- An extended real whose absolute value is below the float word of +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  induction x with
  | bot => simp at hlt
  | coe r => exact ⟨r, rfl⟩
  | top => simp at hlt

/-- THE PRECONDITION, READ BACK: every float entry (but the unused positions') is a real number, and every entry of the
    edge list, read signed, is in [0, 9999]. -/
theorem pre_facts [Cert.Pre_input_domain.Facts]
    (a0 : FVec Ideal Cert.Pre_input_domain.S1x128x10000x1 .f32) (a1 : IVec Cert.Pre_input_domain.S2x1x10000x16 32)
    (a2 : FVec Ideal Cert.Pre_input_domain.S1x10000x3 .f32) (a3 : FVec Ideal Cert.Pre_input_domain.S1x10000x16 .f32)
    (a4 : FVec Ideal Cert.Pre_input_domain.S128x256 .f32) (a5 : FVec Ideal Cert.Pre_input_domain.S128 .f32)
    (a6 : FVec Ideal Cert.Pre_input_domain.S1x16 .f32) (a7 : FVec Ideal Cert.Pre_input_domain.S1 .f32)
    (h : Cert.Pre_input_domain.fn (F := Ideal) a0 a1 a2 a3 a4 a5 a6 a7 = fun _ => 1#1) :
    (∀ i, ∃ r : ℝ, a0 i = (r : EReal)) ∧ (∀ i, 0 ≤ (a1 i).toInt ∧ (a1 i).toInt ≤ 9999)
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have h0 := congrFun h ix0
  dsimp only [Cert.Pre_input_domain.fn, Cert.Pre_input_domain.fn_part1, Cert.Pre_input_domain.fn_part2] at h0
  obtain ⟨h33, h39⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, _⟩ := IntOp.andi_eq_one.1 h8
  refine ⟨fun i => real_of_abs_lt_inf (a0 i) (Host.reduce_andi_all _ _ _ _ ix0 h3 i), fun i => ?_,
    fun i => real_of_abs_lt_inf (a3 i) (Host.reduce_andi_all _ _ _ _ ix0 h12 i),
    fun i => real_of_abs_lt_inf (a4 i) (Host.reduce_andi_all _ _ _ _ ix0 h17 i),
    fun i => real_of_abs_lt_inf (a5 i) (Host.reduce_andi_all _ _ _ _ ix0 h22 i),
    fun i => real_of_abs_lt_inf (a6 i) (Host.reduce_andi_all _ _ _ _ ix0 h27 i),
    fun i => real_of_abs_lt_inf (a7 i) (Host.reduce_andi_all _ _ _ _ ix0 h32 i)⟩
  obtain ⟨hge, hle⟩ := IntOp.andi_eq_one.1 (Host.reduce_andi_all _ _ _ _ ix0 h39 i)
  have h1 : (0#32 : BitVec 32).toInt ≤ (a1 i).toInt := IntOp.cmpi_sge.1 hge
  have h2 : (a1 i).toInt ≤ (9999#32 : BitVec 32).toInt := IntOp.cmpi_sle.1 hle
  exact ⟨h1, h2⟩

end Cert.RefSide

end
-- ==== Proof.OkOfPreI.lean ====
/-
  The precondition bounds the edge list: every entry, read signed, is in [0, 9999], hence names a row of the node tables
  (there are 10240 of them, the 10000 nodes and the padding).
-/
import proofs.«205997_g24756191494465_cont_8to1_1595_42_alg».proof.Proof.MainA
import proofs.«205997_g24756191494465_cont_8to1_1595_42_alg».proof.Proof.PreFacts
import Idealize.ShloMosaic.Lib.ReduceAll

noncomputable section

namespace Cert.Proof.KI

open Cert.KernelIdeal Cert.KernelIdeal.Gen
open Idealize.ShloMosaic Idealize.ShloMosaic.ValueIdx
open Idealize.SL.Sem

variable {F : FTy → Type} [FloatOps F]

/-- The last conjunct of the precondition, read back at an entry of the edge list: below 10240 read unsigned. -/
theorem range_of_pre [Cert.Pre_input_domain.Facts]
    (a0 : FVec F Cert.Pre_input_domain.S1x128x10000x1 .f32) (a1 : IVec Cert.Pre_input_domain.S2x1x10000x16 32)
    (a2 : FVec F Cert.Pre_input_domain.S1x10000x3 .f32) (a3 : FVec F Cert.Pre_input_domain.S1x10000x16 .f32)
    (a4 : FVec F Cert.Pre_input_domain.S128x256 .f32) (a5 : FVec F Cert.Pre_input_domain.S128 .f32)
    (a6 : FVec F Cert.Pre_input_domain.S1x16 .f32) (a7 : FVec F Cert.Pre_input_domain.S1 .f32)
    (h : Cert.Pre_input_domain.fn (F := F) a0 a1 a2 a3 a4 a5 a6 a7 = fun _ => 1#1) (i : Cert.Pre_input_domain.S2x1x10000x16.Idx) :
    (a1 i).toNat < 10240 := by
  have h0 := congrFun h ix0
  dsimp only [Cert.Pre_input_domain.fn, Cert.Pre_input_domain.fn_part1, Cert.Pre_input_domain.fn_part2] at h0
  obtain ⟨-, h39⟩ := IntOp.andi_eq_one.1 h0
  obtain ⟨hge, hle⟩ := IntOp.andi_eq_one.1 (Host.reduce_andi_all _ _ _ _ ix0 h39 i)
  have h1 : (0#32 : BitVec 32).toInt ≤ (a1 i).toInt := IntOp.cmpi_sge.1 hge
  have h2 : (a1 i).toInt ≤ (9999#32 : BitVec 32).toInt := IntOp.cmpi_sle.1 hle
  rw [show (0#32 : BitVec 32).toInt = 0 from rfl] at h1
  rw [show (9999#32 : BitVec 32).toInt = 9999 from rfl] at h2
  have hc := BitVec.toInt_eq_toNat_cond (a1 i)
  have hlt := (a1 i).isLt
  split_ifs at hc <;> omega

/-- THE PRECONDITION GIVES THE RANGE the SparseCore call needs: every entry of the edge-index argument names a row of the
    node tables, on every device. -/
theorem ok_of_pre [Cert.Pre_input_domain.Facts] (m : (ℓ : Loc nD τ sig) → Buf (Elt F) ℓ)
    (hpre : ∀ c : Dev nD, Cert.Pre_input_domain.fn (F := F)
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) = fun _ => 1#1) :
    PreOK m :=
  fun d i => range_of_pre _ _ _ _ _ _ _ _ (hpre d) i

end Cert.Proof.KI

end
-- ==== Proof.FramesI.lean ====
/-
  The kernel program's run, assembled: the launch of the one SparseCore call from the tile's obligation and the split of a
  core's operands among its tiles, @main on the TensorCore around it, the launch element of the ghost state, and the final
  memory read back; then the frame claim: from the precondition, every weakly fair execution terminates and the eight
  argument arrays end as they were launched.
-/
import proofs.«205997_g24756191494465_cont_8to1_1595_42_alg».proof.Proof.TileOblI
import proofs.«205997_g24756191494465_cont_8to1_1595_42_alg».proof.Proof.TileCoreI
import proofs.«205997_g24756191494465_cont_8to1_1595_42_alg».proof.Proof.MainI
import proofs.«205997_g24756191494465_cont_8to1_1595_42_alg».proof.Proof.LaunchI
import proofs.«205997_g24756191494465_cont_8to1_1595_42_alg».proof.Proof.OkOfPreI
import proofs.«205997_g24756191494465_cont_8to1_1595_42_alg».proof.Proof.Gen.Pre_input_domain

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

variable [FloatOps F]

/-- The tile's core at a symbolic tile: what the tile obligation rests on. -/
def TileCore : Prop :=
  ∀ (d : Dev nD) (L : grid1.Coords) (q : PosShare TreeShare)
          (fy1 : Buf (Elt F) ((y1W).view.loc (tile d L))) (fy2 : Buf (Elt F) ((y2W).view.loc (tile d L)))
          (fi : Buf (Elt F) ((iiSl L).view.loc (tile d L))) (fj : Buf (Elt F) ((ijSl L).view.loc (tile d L)))
          (fs : Buf (Elt F) ((spSl L).view.loc (tile d L))) (fo : Buf (Elt F) ((ouSl L).view.loc (tile d L)))
          (g0 : Buf (Elt F) ((s0W).view.loc (tile d L))) (g1 : Buf (Elt F) ((s1W).view.loc (tile d L))) (g2 : Buf (Elt F) ((s2W).view.loc (tile d L)))
          (g3 : Buf (Elt F) ((s3W).view.loc (tile d L))) (g4 : Buf (Elt F) ((s4W).view.loc (tile d L))) (g5 : Buf (Elt F) ((s5W).view.loc (tile d L)))
          (O : CellTallies nD τ sig (HIx 1)) (W : Waits sig (HIx 1)),
          InRows (iiSl L).view.set fi → InRows (ijSl L).view.set fj →
          coreCtx d L q fy1 fy2 fi fj fs fo g0 g1 g2 g3 g4 g5 O W
            ⊢ wp frame (wpE (defs₀ (F := F)) 𝒱₀ (tile d L) none) Set.univ (cc1__sc_kernel L y1W (Memref.isWhole_whole _) y2W (Memref.isWhole_whole _) iiW (Memref.isWhole_whole _) ijW (Memref.isWhole_whole _) spW (Memref.isWhole_whole _) ouW (Memref.isWhole_whole _) s0W (Memref.isWhole_whole _) s1W (Memref.isWhole_whole _) s2W (Memref.isWhole_whole _) s3W (Memref.isWhole_whole _) s4W (Memref.isWhole_whole _) s5W (Memref.isWhole_whole _) cc1_scratch6 cc1_scratch7 cc1_scratch8 cc1_scratch9 cc1_scratch10 cc1_scratch11 cc1_scratch12 cc1_scratch13 cc1_scoped0 cc1_scoped1 cc1_scoped2 cc1_scoped3)
                fun _ => iprop(∃ fo' g0' g1' g2' g3' g4' g5' W', ⌜∀ p ∈ W', p ∈ W ∨ p.2 = none⌝ ∗ coreCtx d L q fy1 fy2 fi fj fs fo' g0' g1' g2' g3' g4' g5' O W')

/-- The tile's core holds. -/
theorem tileCore_holds : TileCore (F := F) :=
  fun d L q fy1 fy2 fi fj fs fo g0 g1 g2 g3 g4 g5 O W hfi hfj => tile_core d L q fy1 fy2 fi fj fs fo g0 g1 g2 g3 g4 g5 O W hfi hfj

/-- What the run leaves: on every device the eight argument arrays at their launch contents. -/
def QC (m : (ℓ : Loc nD τ sig) → Buf (Elt F) ℓ) : PUnit × MemSt nD τ sig (Elt F) → Prop :=
  fun r => ∀ c : Dev nD, ∀ b ∈ argS, r.2.mem (c, b) = V0 m c b

/-- THE RUN of the kernel program from a launch memory inside the index range. -/
theorem run_main [∀ e, Nonempty (Elt F e)]
    (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (F := F)) facts v₀
    (fun q hq => match q with | 0 => nomatch hq)
    (fun q _ => match q with | 0 => tileObl facts tileCore_holds)
    (fun q _ => match q with | 0 => SparseCore.Cfg.VecSplit.of_plain vecSplit)
    m ρ main (G (F := F)) (FIN m) (u₀ (F := F)) hu₀ (hmain m ρ hpre) (fq m) (hfin m) (QC m) (fun _ h => h)

/-- An argument array read off the run's post. -/
theorem QC_arg {m : (ℓ : Loc nD τ sig) → Buf (Elt F) ℓ} {r : PUnit × MemSt nD τ sig (Elt F)} (h : QC m r) (c : Dev nD)
    (a : Ref sig .tc) (ha : a ∈ argL) : r.2.mem ((c.tc : Thread nD τ).loc a) = m ((c.tc : Thread nD τ).loc a) :=
  h c _ (List.mem_toFinset.mpr (List.mem_map_of_mem ha))

/-- The claim's post from the run's: the eight conjuncts. -/
theorem claim_of_QC {m : (ℓ : Loc nD τ sig) → Buf (Elt F) ℓ} {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨QC_arg h c _ (by decide), QC_arg h c _ (by decide), QC_arg h c _ (by decide), QC_arg h c _ (by decide),
    QC_arg h c _ (by decide), QC_arg h c _ (by decide), QC_arg h c _ (by decide), QC_arg h c _ (by decide)⟩

/-- `Cert.frame_KernelIdeal` (Defs.lean). -/
theorem frame_KI : Cert.frame_KernelIdeal := fun m ρ hpre =>
  (θ_run Cert.KernelIdeal.defs _ _).mono (fun _ h c => claim_of_QC h c)
    (run_main (F := Ideal) m ρ (ok_of_pre m hpre))

end Cert.Proof.KI

end
-- ==== Proof.BaseB.lean ====
/-
  The SparseCore program as the launch theorem sees it: its label signature, its call table, its body table, the facts the
  launch asks of the handshake semaphores, and the ghost state (the handshakes' rounds, the pipeline's rounds, the transfers' counters).
-/
import proofs.«205997_g24756191494465_cont_8to1_1595_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205997_g24756191494465_cont_8to1_1595_42_alg».proof.Proof.Gen.Kernel
import proofs.«205997_g24756191494465_cont_8to1_1595_42_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, beside the pipeline's rounds, beside the transfers' counters. -/
abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL

end Cert.Proof.KB

end
-- ==== Proof.PayB.lean ====
/-
  What the launch's handshakes carry for this program.  One SparseCore call, a vector-subcore kernel on 2 × 16 tiles.
  Tile (c, s) is worker 2·s + c: it reads the two node tables y1, y2 whole (rows chosen by its edge list), its own 5120 entries of the
  two edge lists and of the damping factors, and writes its own 320 rows of the output.  So a tile is handed: a read share of each table,
  its slice of the three flat arrays, its rows of the output; and hands the same back.  The edge lists travel with the fact that every
  entry names a row of the tables (below 10240): an indexed copy whose index names no row never completes.
  A SparseCore's share is its sixteen tiles' shares, so the split of a core's operands among its tiles is the identity.
-/
import proofs.«205997_g24756191494465_cont_8to1_1595_42_alg».proof.Proof.BaseB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "y1W" => (Memref.whole Cert.Kernel.main_v10_0_scv : Memref Cert.Kernel.sig Kind.scVector Space.hbm Cert.Kernel.S10240x128 EltTy.f32)
local notation "y2W" => (Memref.whole Cert.Kernel.main_v10_1_scv : Memref Cert.Kernel.sig Kind.scVector Space.hbm Cert.Kernel.S10240x128 EltTy.f32)
local notation "iiW" => (Memref.whole Cert.Kernel.main_v14_scv : Memref Cert.Kernel.sig Kind.scVector Space.hbm Cert.Kernel.S163840 EltTy.i32)
local notation "ijW" => (Memref.whole Cert.Kernel.main_v16_scv : Memref Cert.Kernel.sig Kind.scVector Space.hbm Cert.Kernel.S163840 EltTy.i32)
local notation "spW" => (Memref.whole Cert.Kernel.main_v17_scv : Memref Cert.Kernel.sig Kind.scVector Space.hbm Cert.Kernel.S163840 EltTy.f32)
local notation "ouW" => (Memref.whole Cert.Kernel.main_v18_scv : Memref Cert.Kernel.sig Kind.scVector Space.hbm Cert.Kernel.S10240x128 EltTy.f32)

/-- A tile's grid coordinates (core, subcore), and its thread. -/
def coordsV (c : Fin (grid1.bound 0)) (s : Fin (grid1.bound 1)) : grid1.Coords :=
  fun | 0 => c | 1 => s | ⟨_ + 2, h⟩ => absurd h (Nat.not_lt.2 (Nat.le_add_left _ _))
abbrev cV (L : grid1.Coords) : Fin τ.nSC := (L 0).castLE hcore1
abbrev jV (L : grid1.Coords) : Fin τ.nSub := (L 1).castLE hsub1
abbrev tile (d : Dev nD) (L : grid1.Coords) : Thread nD τ := V d (cV L) (jV L)

/-- The tile's slices, spelt as the kernel slices them. -/
abbrev iiSl (L : grid1.Coords) : Memref sig .scVector .hbm S5120 .i32 := (iiW).slice (Rect.unit (s := S163840) (k1_off1 L) S5120.size (k1_off1_inb L)) (fun _ => rfl)
abbrev ijSl (L : grid1.Coords) : Memref sig .scVector .hbm S5120 .i32 := (ijW).slice (Rect.unit (s := S163840) (k1_off1 L) S5120.size (k1_off1_inb L)) (fun _ => rfl)
abbrev spSl (L : grid1.Coords) : Memref sig .scVector .hbm S5120 .f32 := (spW).slice (Rect.unit (s := S163840) (k1_off1 L) S5120.size (k1_off1_inb L)) (fun _ => rfl)
abbrev ouSl (L : grid1.Coords) : Memref sig .scVector .hbm S320x128 .f32 := (ouW).slice (Rect.unit (s := S10240x128) (k1_off39 L) S320x128.size (k1_off39_inb L)) (fun _ => rfl)

/-- The arrays as the TensorCore's @main names them (one location each; the SparseCore's names denote the same locations). -/
abbrev y1L (d : Dev nD) : Loc nD τ sig := (SparseCore.T d).loc main_v10_0
abbrev y2L (d : Dev nD) : Loc nD τ sig := (SparseCore.T d).loc main_v10_1
abbrev iiL (d : Dev nD) : Loc nD τ sig := (SparseCore.T d).loc main_v14
abbrev ijL (d : Dev nD) : Loc nD τ sig := (SparseCore.T d).loc main_v16
abbrev spL (d : Dev nD) : Loc nD τ sig := (SparseCore.T d).loc main_v17
abbrev ouL (d : Dev nD) : Loc nD τ sig := (SparseCore.T d).loc main_v18

/-- Worker number of tile (c, s), and the read share of the tables it is lent: token number 2·s + c of 32. -/
abbrev wid (L : grid1.Coords) : Fin 32 := ⟨2 * (L 1).val + (L 0).val, by have h0 : (L 0).val < 2 := (L 0).isLt; have h1 : (L 1).val < 16 := (L 1).isLt; omega⟩
abbrev tabShare (L : grid1.Coords) : PosShare TreeShare := Transfers.shareTok fullShare 32 (wid L)

/-- Every entry of an edge list names a row of the node tables. -/
def InRows (S : Finset S163840.Idx) (f : S163840.Idx → BitVec 32) : Prop := ∀ j ∈ S, (f j).toNat < 10240

/-- What a tile is handed (and hands back): contents left open but for the edge lists' range. -/
def tilePay (d : Dev nD) (L : grid1.Coords) : sProp 𝕄 :=
  iprop((∃ f, y1L d ↦{tabShare L} f) ∗ (∃ f, y2L d ↦{tabShare L} f)
    ∗ (∃ f, ⌜InRows (iiSl L).view.set f⌝ ∗ iiL d ↦[(iiSl L).view.set]{fullShare} f)
    ∗ (∃ f, ⌜InRows (ijSl L).view.set f⌝ ∗ ijL d ↦[(ijSl L).view.set]{fullShare} f)
    ∗ (∃ f, spL d ↦[(spSl L).view.set]{fullShare} f)
    ∗ (∃ f, ouL d ↦[(ouSl L).view.set]{fullShare} f))

set_option synthInstance.maxHeartbeats 2000000 in
set_option maxHeartbeats 2000000 in
instance tilePay_storable (d : Dev nD) (L : grid1.Coords) : BI.Storable (upEmb : UEmb _ 𝕄) (tilePay (F := F) d L) := by
  unfold tilePay; infer_instance

theorem nCore_zero : (K (F := F)).nCore 0 = 2 := rfl
theorem nSub_zero : (K (F := F)).nSub 0 = 16 := rfl
theorem bound_zero : grid1.bound 0 = 2 := rfl
theorem bound_one : grid1.bound 1 = 16 := rfl
/-- The grid point of core `c`, subcore `s`. -/
def LL (c : Fin 2) (s : Fin 16) : grid1.Coords := coordsV (Fin.cast bound_zero.symm c) (Fin.cast bound_one.symm s)

/-- The one call's payloads: a SparseCore is handed its sixteen tiles' shares, a tile its own; both hand the same back. -/
def P : (K (F := F)).Pay (nD := nD) (Val := Elt F) (Name := ℕ) (U := UU) where
  st := fun q d c => match q with | 0 => bigSep Finset.univ fun s : Fin 16 => tilePay d (LL (Fin.cast nCore_zero c) s)
  dn := fun q d c => match q with | 0 => bigSep Finset.univ fun s : Fin 16 => tilePay d (LL (Fin.cast nCore_zero c) s)
  go := fun q d c i => match q with | 0 => tilePay d (LL (Fin.cast nCore_zero c) (Fin.cast nSub_zero i))
  td := fun q d c i => match q with | 0 => tilePay d (LL (Fin.cast nCore_zero c) (Fin.cast nSub_zero i))
  x := fun _ _ => iprop(emp)

instance P_storable : (P (F := F)).IsStorable where
  st q d c := match q with
    | 0 => (inferInstance : BI.Storable (upEmb : UEmb _ 𝕄) (bigSep Finset.univ fun s : Fin 16 => tilePay (F := F) d (LL (Fin.cast nCore_zero c) s)))
  dn q d c := match q with
    | 0 => (inferInstance : BI.Storable (upEmb : UEmb _ 𝕄) (bigSep Finset.univ fun s : Fin 16 => tilePay (F := F) d (LL (Fin.cast nCore_zero c) s)))
  go q d c i := match q with
    | 0 => (inferInstance : BI.Storable (upEmb : UEmb _ 𝕄) (tilePay (F := F) d (LL (Fin.cast nCore_zero c) (Fin.cast nSub_zero i))))
  td q d c i := match q with
    | 0 => (inferInstance : BI.Storable (upEmb : UEmb _ 𝕄) (tilePay (F := F) d (LL (Fin.cast nCore_zero c) (Fin.cast nSub_zero i))))

/-- The split of a SparseCore's operands among its tiles: the identity, by the payloads' definition. -/
theorem vecSplit : (K (F := F)).VecSplit' (P (F := F)) 0 := by
  intro d c
  show (bigSep Finset.univ fun s : Fin 16 => tilePay (F := F) d (LL (Fin.cast nCore_zero c) s))
    ⊢ |={Set.univ}=> iprop((bigSep Finset.univ fun i : Fin ((K (F := F)).nSub 0) => tilePay (F := F) d (LL (Fin.cast nCore_zero c) (Fin.cast nSub_zero i)))
      ∗ ((bigSep Finset.univ fun i : Fin ((K (F := F)).nSub 0) => tilePay (F := F) d (LL (Fin.cast nCore_zero c) (Fin.cast nSub_zero i)))
          -∗ bigSep Finset.univ fun s : Fin 16 => tilePay (F := F) d (LL (Fin.cast nCore_zero c) s)))
  iintro H
  imodintro
  isplitl [H]
  · iexact H
  · iintro H; iexact H

end Cert.Proof.KB

end
-- ==== Proof.TileOpenB.lean ====
/-
  A vector subcore's scoped storage, opened: its twelve DMA semaphores at zero and its six scratch buffers at some contents, beside the rest.
-/
import proofs.«205997_g24756191494465_cont_8to1_1595_42_alg».proof.Proof.PayB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 4000000 in
omit [FloatOps F] in
theorem ownSems0_V (d : Dev nD) (L : grid1.Coords) :
    (ownSems0 (V d (cV L) (jV L)) : sProp 𝕄)
      = iprop(semVal ((V d (cV L) (jV L)), SemLoc.dma cc1_scratch6.sem) 0
          ∗ semVal ((V d (cV L) (jV L)), SemLoc.dma cc1_scratch7.sem) 0
          ∗ semVal ((V d (cV L) (jV L)), SemLoc.dma cc1_scratch8.sem) 0
          ∗ semVal ((V d (cV L) (jV L)), SemLoc.dma cc1_scratch9.sem) 0
          ∗ semVal ((V d (cV L) (jV L)), SemLoc.dma cc1_scratch10.sem) 0
          ∗ semVal ((V d (cV L) (jV L)), SemLoc.dma cc1_scratch11.sem) 0
          ∗ semVal ((V d (cV L) (jV L)), SemLoc.dma cc1_scratch12.sem) 0
          ∗ semVal ((V d (cV L) (jV L)), SemLoc.dma cc1_scratch13.sem) 0
          ∗ semVal ((V d (cV L) (jV L)), SemLoc.dma cc1_scoped0.sem) 0
          ∗ semVal ((V d (cV L) (jV L)), SemLoc.dma cc1_scoped1.sem) 0
          ∗ semVal ((V d (cV L) (jV L)), SemLoc.dma cc1_scoped2.sem) 0
          ∗ semVal ((V d (cV L) (jV L)), SemLoc.dma cc1_scoped3.sem) 0
          ∗ bigSep (((((((((((((ownCells (V d (cV L) (jV L))).erase ((V d (cV L) (jV L)), SemLoc.dma cc1_scratch6.sem)).erase ((V d (cV L) (jV L)), SemLoc.dma cc1_scratch7.sem)).erase ((V d (cV L) (jV L)), SemLoc.dma cc1_scratch8.sem)).erase ((V d (cV L) (jV L)), SemLoc.dma cc1_scratch9.sem)).erase ((V d (cV L) (jV L)), SemLoc.dma cc1_scratch10.sem)).erase ((V d (cV L) (jV L)), SemLoc.dma cc1_scratch11.sem)).erase ((V d (cV L) (jV L)), SemLoc.dma cc1_scratch12.sem)).erase ((V d (cV L) (jV L)), SemLoc.dma cc1_scratch13.sem)).erase ((V d (cV L) (jV L)), SemLoc.dma cc1_scoped0.sem)).erase ((V d (cV L) (jV L)), SemLoc.dma cc1_scoped1.sem)).erase ((V d (cV L) (jV L)), SemLoc.dma cc1_scoped2.sem)).erase ((V d (cV L) (jV L)), SemLoc.dma cc1_scoped3.sem)) fun g => semVal g 0) := by
  unfold SparseCore.Cfg.ownSems0
  rw [SparseCore.bigSep_erase' ((mem_ownCells (g := ((V d (cV L) (jV L)), SemLoc.dma cc1_scratch6.sem))).mpr ⟨rfl, by show (SemLoc.dma cc1_scratch6.sem : SemLoc sig).isScoped .scVector = true; decide⟩),
    SparseCore.bigSep_erase' (Finset.mem_erase.mpr ⟨fun e => absurd (congrArg Prod.snd e) (show (SemLoc.dma cc1_scratch7.sem : SemLoc sig) ≠ SemLoc.dma cc1_scratch6.sem by decide), (mem_ownCells (g := ((V d (cV L) (jV L)), SemLoc.dma cc1_scratch7.sem))).mpr ⟨rfl, by show (SemLoc.dma cc1_scratch7.sem : SemLoc sig).isScoped .scVector = true; decide⟩⟩),
    SparseCore.bigSep_erase' (Finset.mem_erase.mpr ⟨fun e => absurd (congrArg Prod.snd e) (show (SemLoc.dma cc1_scratch8.sem : SemLoc sig) ≠ SemLoc.dma cc1_scratch7.sem by decide), Finset.mem_erase.mpr ⟨fun e => absurd (congrArg Prod.snd e) (show (SemLoc.dma cc1_scratch8.sem : SemLoc sig) ≠ SemLoc.dma cc1_scratch6.sem by decide), (mem_ownCells (g := ((V d (cV L) (jV L)), SemLoc.dma cc1_scratch8.sem))).mpr ⟨rfl, by show (SemLoc.dma cc1_scratch8.sem : SemLoc sig).isScoped .scVector = true; decide⟩⟩⟩),
    SparseCore.bigSep_erase' (Finset.mem_erase.mpr ⟨fun e => absurd (congrArg Prod.snd e) (show (SemLoc.dma cc1_scratch9.sem : SemLoc sig) ≠ SemLoc.dma cc1_scratch8.sem by decide), Finset.mem_erase.mpr ⟨fun e => absurd (congrArg Prod.snd e) (show (SemLoc.dma cc1_scratch9.sem : SemLoc sig) ≠ SemLoc.dma cc1_scratch7.sem by decide), Finset.mem_erase.mpr ⟨fun e => absurd (congrArg Prod.snd e) (show (SemLoc.dma cc1_scratch9.sem : SemLoc sig) ≠ SemLoc.dma cc1_scratch6.sem by decide), (mem_ownCells (g := ((V d (cV L) (jV L)), SemLoc.dma cc1_scratch9.sem))).mpr ⟨rfl, by show (SemLoc.dma cc1_scratch9.sem : SemLoc sig).isScoped .scVector = true; decide⟩⟩⟩⟩),
    SparseCore.bigSep_erase' (Finset.mem_erase.mpr ⟨fun e => absurd (congrArg Prod.snd e) (show (SemLoc.dma cc1_scratch10.sem : SemLoc sig) ≠ SemLoc.dma cc1_scratch9.sem by decide), Finset.mem_erase.mpr ⟨fun e => absurd (congrArg Prod.snd e) (show (SemLoc.dma cc1_scratch10.sem : SemLoc sig) ≠ SemLoc.dma cc1_scratch8.sem by decide), Finset.mem_erase.mpr ⟨fun e => absurd (congrArg Prod.snd e) (show (SemLoc.dma cc1_scratch10.sem : SemLoc sig) ≠ SemLoc.dma cc1_scratch7.sem by decide), Finset.mem_erase.mpr ⟨fun e => absurd (congrArg Prod.snd e) (show (SemLoc.dma cc1_scratch10.sem : SemLoc sig) ≠ SemLoc.dma cc1_scratch6.sem by decide), (mem_ownCells (g := ((V d (cV L) (jV L)), SemLoc.dma cc1_scratch10.sem))).mpr ⟨rfl, by show (SemLoc.dma cc1_scratch10.sem : SemLoc sig).isScoped .scVector = true; decide⟩⟩⟩⟩⟩),
    SparseCore.bigSep_erase' (Finset.mem_erase.mpr ⟨fun e => absurd (congrArg Prod.snd e) (show (SemLoc.dma cc1_scratch11.sem : SemLoc sig) ≠ SemLoc.dma cc1_scratch10.sem by decide), Finset.mem_erase.mpr ⟨fun e => absurd (congrArg Prod.snd e) (show (SemLoc.dma cc1_scratch11.sem : SemLoc sig) ≠ SemLoc.dma cc1_scratch9.sem by decide), Finset.mem_erase.mpr ⟨fun e => absurd (congrArg Prod.snd e) (show (SemLoc.dma cc1_scratch11.sem : SemLoc sig) ≠ SemLoc.dma cc1_scratch8.sem by decide), Finset.mem_erase.mpr ⟨fun e => absurd (congrArg Prod.snd e) (show (SemLoc.dma cc1_scratch11.sem : SemLoc sig) ≠ SemLoc.dma cc1_scratch7.sem by decide), Finset.mem_erase.mpr ⟨fun e => absurd (congrArg Prod.snd e) (show (SemLoc.dma cc1_scratch11.sem : SemLoc sig) ≠ SemLoc.dma cc1_scratch6.sem by decide), (mem_ownCells (g := ((V d (cV L) (jV L)), SemLoc.dma cc1_scratch11.sem))).mpr ⟨rfl, by show (SemLoc.dma cc1_scratch11.sem : SemLoc sig).isScoped .scVector = true; decide⟩⟩⟩⟩⟩⟩),
    SparseCore.bigSep_erase' (Finset.mem_erase.mpr ⟨fun e => absurd (congrArg Prod.snd e) (show (SemLoc.dma cc1_scratch12.sem : SemLoc sig) ≠ SemLoc.dma cc1_scratch11.sem by decide), Finset.mem_erase.mpr ⟨fun e => absurd (congrArg Prod.snd e) (show (SemLoc.dma cc1_scratch12.sem : SemLoc sig) ≠ SemLoc.dma cc1_scratch10.sem by decide), Finset.mem_erase.mpr ⟨fun e => absurd (congrArg Prod.snd e) (show (SemLoc.dma cc1_scratch12.sem : SemLoc sig) ≠ SemLoc.dma cc1_scratch9.sem by decide), Finset.mem_erase.mpr ⟨fun e => absurd (congrArg Prod.snd e) (show (SemLoc.dma cc1_scratch12.sem : SemLoc sig) ≠ SemLoc.dma cc1_scratch8.sem by decide), Finset.mem_erase.mpr ⟨fun e => absurd (congrArg Prod.snd e) (show (SemLoc.dma cc1_scratch12.sem : SemLoc sig) ≠ SemLoc.dma cc1_scratch7.sem by decide), Finset.mem_erase.mpr ⟨fun e => absurd (congrArg Prod.snd e) (show (SemLoc.dma cc1_scratch12.sem : SemLoc sig) ≠ SemLoc.dma cc1_scratch6.sem by decide), (mem_ownCells (g := ((V d (cV L) (jV L)), SemLoc.dma cc1_scratch12.sem))).mpr ⟨rfl, by show (SemLoc.dma cc1_scratch12.sem : SemLoc sig).isScoped .scVector = true; decide⟩⟩⟩⟩⟩⟩⟩),
    SparseCore.bigSep_erase' (Finset.mem_erase.mpr ⟨fun e => absurd (congrArg Prod.snd e) (show (SemLoc.dma cc1_scratch13.sem : SemLoc sig) ≠ SemLoc.dma cc1_scratch12.sem by decide), Finset.mem_erase.mpr ⟨fun e => absurd (congrArg Prod.snd e) (show (SemLoc.dma cc1_scratch13.sem : SemLoc sig) ≠ SemLoc.dma cc1_scratch11.sem by decide), Finset.mem_erase.mpr ⟨fun e => absurd (congrArg Prod.snd e) (show (SemLoc.dma cc1_scratch13.sem : SemLoc sig) ≠ SemLoc.dma cc1_scratch10.sem by decide), Finset.mem_erase.mpr ⟨fun e => absurd (congrArg Prod.snd e) (show (SemLoc.dma cc1_scratch13.sem : SemLoc sig) ≠ SemLoc.dma cc1_scratch9.sem by decide), Finset.mem_erase.mpr ⟨fun e => absurd (congrArg Prod.snd e) (show (SemLoc.dma cc1_scratch13.sem : SemLoc sig) ≠ SemLoc.dma cc1_scratch8.sem by decide), Finset.mem_erase.mpr ⟨fun e => absurd (congrArg Prod.snd e) (show (SemLoc.dma cc1_scratch13.sem : SemLoc sig) ≠ SemLoc.dma cc1_scratch7.sem by decide), Finset.mem_erase.mpr ⟨fun e => absurd (congrArg Prod.snd e) (show (SemLoc.dma cc1_scratch13.sem : SemLoc sig) ≠ SemLoc.dma cc1_scratch6.sem by decide), (mem_ownCells (g := ((V d (cV L) (jV L)), SemLoc.dma cc1_scratch13.sem))).mpr ⟨rfl, by show (SemLoc.dma cc1_scratch13.sem : SemLoc sig).isScoped .scVector = true; decide⟩⟩⟩⟩⟩⟩⟩⟩),
    SparseCore.bigSep_erase' (Finset.mem_erase.mpr ⟨fun e => absurd (congrArg Prod.snd e) (show (SemLoc.dma cc1_scoped0.sem : SemLoc sig) ≠ SemLoc.dma cc1_scratch13.sem by decide), Finset.mem_erase.mpr ⟨fun e => absurd (congrArg Prod.snd e) (show (SemLoc.dma cc1_scoped0.sem : SemLoc sig) ≠ SemLoc.dma cc1_scratch12.sem by decide), Finset.mem_erase.mpr ⟨fun e => absurd (congrArg Prod.snd e) (show (SemLoc.dma cc1_scoped0.sem : SemLoc sig) ≠ SemLoc.dma cc1_scratch11.sem by decide), Finset.mem_erase.mpr ⟨fun e => absurd (congrArg Prod.snd e) (show (SemLoc.dma cc1_scoped0.sem : SemLoc sig) ≠ SemLoc.dma cc1_scratch10.sem by decide), Finset.mem_erase.mpr ⟨fun e => absurd (congrArg Prod.snd e) (show (SemLoc.dma cc1_scoped0.sem : SemLoc sig) ≠ SemLoc.dma cc1_scratch9.sem by decide), Finset.mem_erase.mpr ⟨fun e => absurd (congrArg Prod.snd e) (show (SemLoc.dma cc1_scoped0.sem : SemLoc sig) ≠ SemLoc.dma cc1_scratch8.sem by decide), Finset.mem_erase.mpr ⟨fun e => absurd (congrArg Prod.snd e) (show (SemLoc.dma cc1_scoped0.sem : SemLoc sig) ≠ SemLoc.dma cc1_scratch7.sem by decide), Finset.mem_erase.mpr ⟨fun e => absurd (congrArg Prod.snd e) (show (SemLoc.dma cc1_scoped0.sem : SemLoc sig) ≠ SemLoc.dma cc1_scratch6.sem by decide), (mem_ownCells (g := ((V d (cV L) (jV L)), SemLoc.dma cc1_scoped0.sem))).mpr ⟨rfl, by show (SemLoc.dma cc1_scoped0.sem : SemLoc sig).isScoped .scVector = true; decide⟩⟩⟩⟩⟩⟩⟩⟩⟩),
    SparseCore.bigSep_erase' (Finset.mem_erase.mpr ⟨fun e => absurd (congrArg Prod.snd e) (show (SemLoc.dma cc1_scoped1.sem : SemLoc sig) ≠ SemLoc.dma cc1_scoped0.sem by decide), Finset.mem_erase.mpr ⟨fun e => absurd (congrArg Prod.snd e) (show (SemLoc.dma cc1_scoped1.sem : SemLoc sig) ≠ SemLoc.dma cc1_scratch13.sem by decide), Finset.mem_erase.mpr ⟨fun e => absurd (congrArg Prod.snd e) (show (SemLoc.dma cc1_scoped1.sem : SemLoc sig) ≠ SemLoc.dma cc1_scratch12.sem by decide), Finset.mem_erase.mpr ⟨fun e => absurd (congrArg Prod.snd e) (show (SemLoc.dma cc1_scoped1.sem : SemLoc sig) ≠ SemLoc.dma cc1_scratch11.sem by decide), Finset.mem_erase.mpr ⟨fun e => absurd (congrArg Prod.snd e) (show (SemLoc.dma cc1_scoped1.sem : SemLoc sig) ≠ SemLoc.dma cc1_scratch10.sem by decide), Finset.mem_erase.mpr ⟨fun e => absurd (congrArg Prod.snd e) (show (SemLoc.dma cc1_scoped1.sem : SemLoc sig) ≠ SemLoc.dma cc1_scratch9.sem by decide), Finset.mem_erase.mpr ⟨fun e => absurd (congrArg Prod.snd e) (show (SemLoc.dma cc1_scoped1.sem : SemLoc sig) ≠ SemLoc.dma cc1_scratch8.sem by decide), Finset.mem_erase.mpr ⟨fun e => absurd (congrArg Prod.snd e) (show (SemLoc.dma cc1_scoped1.sem : SemLoc sig) ≠ SemLoc.dma cc1_scratch7.sem by decide), Finset.mem_erase.mpr ⟨fun e => absurd (congrArg Prod.snd e) (show (SemLoc.dma cc1_scoped1.sem : SemLoc sig) ≠ SemLoc.dma cc1_scratch6.sem by decide), (mem_ownCells (g := ((V d (cV L) (jV L)), SemLoc.dma cc1_scoped1.sem))).mpr ⟨rfl, by show (SemLoc.dma cc1_scoped1.sem : SemLoc sig).isScoped .scVector = true; decide⟩⟩⟩⟩⟩⟩⟩⟩⟩⟩),
    SparseCore.bigSep_erase' (Finset.mem_erase.mpr ⟨fun e => absurd (congrArg Prod.snd e) (show (SemLoc.dma cc1_scoped2.sem : SemLoc sig) ≠ SemLoc.dma cc1_scoped1.sem by decide), Finset.mem_erase.mpr ⟨fun e => absurd (congrArg Prod.snd e) (show (SemLoc.dma cc1_scoped2.sem : SemLoc sig) ≠ SemLoc.dma cc1_scoped0.sem by decide), Finset.mem_erase.mpr ⟨fun e => absurd (congrArg Prod.snd e) (show (SemLoc.dma cc1_scoped2.sem : SemLoc sig) ≠ SemLoc.dma cc1_scratch13.sem by decide), Finset.mem_erase.mpr ⟨fun e => absurd (congrArg Prod.snd e) (show (SemLoc.dma cc1_scoped2.sem : SemLoc sig) ≠ SemLoc.dma cc1_scratch12.sem by decide), Finset.mem_erase.mpr ⟨fun e => absurd (congrArg Prod.snd e) (show (SemLoc.dma cc1_scoped2.sem : SemLoc sig) ≠ SemLoc.dma cc1_scratch11.sem by decide), Finset.mem_erase.mpr ⟨fun e => absurd (congrArg Prod.snd e) (show (SemLoc.dma cc1_scoped2.sem : SemLoc sig) ≠ SemLoc.dma cc1_scratch10.sem by decide), Finset.mem_erase.mpr ⟨fun e => absurd (congrArg Prod.snd e) (show (SemLoc.dma cc1_scoped2.sem : SemLoc sig) ≠ SemLoc.dma cc1_scratch9.sem by decide), Finset.mem_erase.mpr ⟨fun e => absurd (congrArg Prod.snd e) (show (SemLoc.dma cc1_scoped2.sem : SemLoc sig) ≠ SemLoc.dma cc1_scratch8.sem by decide), Finset.mem_erase.mpr ⟨fun e => absurd (congrArg Prod.snd e) (show (SemLoc.dma cc1_scoped2.sem : SemLoc sig) ≠ SemLoc.dma cc1_scratch7.sem by decide), Finset.mem_erase.mpr ⟨fun e => absurd (congrArg Prod.snd e) (show (SemLoc.dma cc1_scoped2.sem : SemLoc sig) ≠ SemLoc.dma cc1_scratch6.sem by decide), (mem_ownCells (g := ((V d (cV L) (jV L)), SemLoc.dma cc1_scoped2.sem))).mpr ⟨rfl, by show (SemLoc.dma cc1_scoped2.sem : SemLoc sig).isScoped .scVector = true; decide⟩⟩⟩⟩⟩⟩⟩⟩⟩⟩⟩),
    SparseCore.bigSep_erase' (Finset.mem_erase.mpr ⟨fun e => absurd (congrArg Prod.snd e) (show (SemLoc.dma cc1_scoped3.sem : SemLoc sig) ≠ SemLoc.dma cc1_scoped2.sem by decide), Finset.mem_erase.mpr ⟨fun e => absurd (congrArg Prod.snd e) (show (SemLoc.dma cc1_scoped3.sem : SemLoc sig) ≠ SemLoc.dma cc1_scoped1.sem by decide), Finset.mem_erase.mpr ⟨fun e => absurd (congrArg Prod.snd e) (show (SemLoc.dma cc1_scoped3.sem : SemLoc sig) ≠ SemLoc.dma cc1_scoped0.sem by decide), Finset.mem_erase.mpr ⟨fun e => absurd (congrArg Prod.snd e) (show (SemLoc.dma cc1_scoped3.sem : SemLoc sig) ≠ SemLoc.dma cc1_scratch13.sem by decide), Finset.mem_erase.mpr ⟨fun e => absurd (congrArg Prod.snd e) (show (SemLoc.dma cc1_scoped3.sem : SemLoc sig) ≠ SemLoc.dma cc1_scratch12.sem by decide), Finset.mem_erase.mpr ⟨fun e => absurd (congrArg Prod.snd e) (show (SemLoc.dma cc1_scoped3.sem : SemLoc sig) ≠ SemLoc.dma cc1_scratch11.sem by decide), Finset.mem_erase.mpr ⟨fun e => absurd (congrArg Prod.snd e) (show (SemLoc.dma cc1_scoped3.sem : SemLoc sig) ≠ SemLoc.dma cc1_scratch10.sem by decide), Finset.mem_erase.mpr ⟨fun e => absurd (congrArg Prod.snd e) (show (SemLoc.dma cc1_scoped3.sem : SemLoc sig) ≠ SemLoc.dma cc1_scratch9.sem by decide), Finset.mem_erase.mpr ⟨fun e => absurd (congrArg Prod.snd e) (show (SemLoc.dma cc1_scoped3.sem : SemLoc sig) ≠ SemLoc.dma cc1_scratch8.sem by decide), Finset.mem_erase.mpr ⟨fun e => absurd (congrArg Prod.snd e) (show (SemLoc.dma cc1_scoped3.sem : SemLoc sig) ≠ SemLoc.dma cc1_scratch7.sem by decide), Finset.mem_erase.mpr ⟨fun e => absurd (congrArg Prod.snd e) (show (SemLoc.dma cc1_scoped3.sem : SemLoc sig) ≠ SemLoc.dma cc1_scratch6.sem by decide), (mem_ownCells (g := ((V d (cV L) (jV L)), SemLoc.dma cc1_scoped3.sem))).mpr ⟨rfl, by show (SemLoc.dma cc1_scoped3.sem : SemLoc sig).isScoped .scVector = true; decide⟩⟩⟩⟩⟩⟩⟩⟩⟩⟩⟩⟩)]

set_option maxHeartbeats 4000000 in
omit [FloatOps F] in
theorem ownBufs_V (d : Dev nD) (L : grid1.Coords) :
    (ownBufs (V d (cV L) (jV L)) : sProp 𝕄)
      = iprop((∃ f, (V d (cV L) (jV L)).loc cc1_scratch0 ↦{fullShare} f)
          ∗ (∃ f, (V d (cV L) (jV L)).loc cc1_scratch1 ↦{fullShare} f)
          ∗ (∃ f, (V d (cV L) (jV L)).loc cc1_scratch2 ↦{fullShare} f)
          ∗ (∃ f, (V d (cV L) (jV L)).loc cc1_scratch3 ↦{fullShare} f)
          ∗ (∃ f, (V d (cV L) (jV L)).loc cc1_scratch4 ↦{fullShare} f)
          ∗ (∃ f, (V d (cV L) (jV L)).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc1_scratch0)) rfl),
    SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := ((Proc.scVector (cV L) (jV L)).devRef cc1_scratch5)) rfl⟩⟩⟩⟩⟩)]

end Cert.Proof.KB

end
-- ==== Proof.TileCtxB.lean ====
/-
  The tile's body between the opening and the closing of its scoped storage: what it holds when its task starts, as one assertion.
-/
import proofs.«205997_g24756191494465_cont_8to1_1595_42_alg».proof.Proof.TileOpenB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "y1W" => (Memref.whole Cert.Kernel.main_v10_0_scv : Memref Cert.Kernel.sig Kind.scVector Space.hbm Cert.Kernel.S10240x128 EltTy.f32)
local notation "y2W" => (Memref.whole Cert.Kernel.main_v10_1_scv : Memref Cert.Kernel.sig Kind.scVector Space.hbm Cert.Kernel.S10240x128 EltTy.f32)
local notation "iiW" => (Memref.whole Cert.Kernel.main_v14_scv : Memref Cert.Kernel.sig Kind.scVector Space.hbm Cert.Kernel.S163840 EltTy.i32)
local notation "ijW" => (Memref.whole Cert.Kernel.main_v16_scv : Memref Cert.Kernel.sig Kind.scVector Space.hbm Cert.Kernel.S163840 EltTy.i32)
local notation "spW" => (Memref.whole Cert.Kernel.main_v17_scv : Memref Cert.Kernel.sig Kind.scVector Space.hbm Cert.Kernel.S163840 EltTy.f32)
local notation "ouW" => (Memref.whole Cert.Kernel.main_v18_scv : Memref Cert.Kernel.sig Kind.scVector Space.hbm Cert.Kernel.S10240x128 EltTy.f32)
local notation "s0W" => (Memref.whole Cert.Kernel.cc1_scratch0 : Memref Cert.Kernel.sig Kind.scVector Space.vmem Cert.Kernel.S5120 EltTy.i32)
local notation "s1W" => (Memref.whole Cert.Kernel.cc1_scratch1 : Memref Cert.Kernel.sig Kind.scVector Space.vmem Cert.Kernel.S5120 EltTy.i32)
local notation "s2W" => (Memref.whole Cert.Kernel.cc1_scratch2 : Memref Cert.Kernel.sig Kind.scVector Space.vmem Cert.Kernel.S5120 EltTy.f32)
local notation "s3W" => (Memref.whole Cert.Kernel.cc1_scratch3 : Memref Cert.Kernel.sig Kind.scVector Space.vmem Cert.Kernel.S256x128 EltTy.f32)
local notation "s4W" => (Memref.whole Cert.Kernel.cc1_scratch4 : Memref Cert.Kernel.sig Kind.scVector Space.vmem Cert.Kernel.S256x128 EltTy.f32)
local notation "s5W" => (Memref.whole Cert.Kernel.cc1_scratch5 : Memref Cert.Kernel.sig Kind.scVector Space.vmem Cert.Kernel.S320x128 EltTy.f32)

variable [FloatOps F]

/-- What a tile holds when its task starts: the evidence its waits are admissible, a read share of each node table, its slices of the
    three flat arrays and its rows of the output, its six scratch buffers whole, its twelve semaphores at zero, what it owes. -/
def coreCtx (d : Dev nD) (L : grid1.Coords) (q : PosShare TreeShare)
    (fy1 : Buf (Elt F) ((y1W).view.loc (tile d L))) (fy2 : Buf (Elt F) ((y2W).view.loc (tile d L)))
    (fi : Buf (Elt F) ((iiSl L).view.loc (tile d L))) (fj : Buf (Elt F) ((ijSl L).view.loc (tile d L)))
    (fs : Buf (Elt F) ((spSl L).view.loc (tile d L))) (fo : Buf (Elt F) ((ouSl L).view.loc (tile d L)))
    (g0 : Buf (Elt F) ((s0W).view.loc (tile d L))) (g1 : Buf (Elt F) ((s1W).view.loc (tile d L))) (g2 : Buf (Elt F) ((s2W).view.loc (tile d L)))
    (g3 : Buf (Elt F) ((s3W).view.loc (tile d L))) (g4 : Buf (Elt F) ((s4W).view.loc (tile d L))) (g5 : Buf (Elt F) ((s5W).view.loc (tile d L)))
    (O : CellTallies nD τ sig (HIx 1)) (W : Waits sig (HIx 1)) : sProp 𝕄 :=
  iprop((Transfers.MayWaits (tile d L) (none : HIx 1) O : sProp 𝕄)
        ∗ ((y1W).view.loc (tile d L) ↦{q} fy1) ∗ ((y2W).view.loc (tile d L) ↦{q} fy2)
        ∗ ((iiSl L).view.loc (tile d L) ↦[(iiSl L).view.set]{fullShare} fi) ∗ ((ijSl L).view.loc (tile d L) ↦[(ijSl L).view.set]{fullShare} fj)
        ∗ ((spSl L).view.loc (tile d L) ↦[(spSl L).view.set]{fullShare} fs) ∗ ((ouSl L).view.loc (tile d L) ↦[(ouSl L).view.set]{fullShare} fo)
        ∗ ((s0W).view.loc (tile d L) ↦{fullShare} g0) ∗ ((s1W).view.loc (tile d L) ↦{fullShare} g1) ∗ ((s2W).view.loc (tile d L) ↦{fullShare} g2)
        ∗ ((s3W).view.loc (tile d L) ↦{fullShare} g3) ∗ ((s4W).view.loc (tile d L) ↦{fullShare} g4) ∗ ((s5W).view.loc (tile d L) ↦{fullShare} g5)
        ∗ semVal (tile d L, SemLoc.dma cc1_scratch6.sem) 0 ∗ semVal (tile d L, SemLoc.dma cc1_scratch7.sem) 0 ∗ semVal (tile d L, SemLoc.dma cc1_scratch8.sem) 0 ∗ semVal (tile d L, SemLoc.dma cc1_scratch9.sem) 0 ∗ semVal (tile d L, SemLoc.dma cc1_scratch10.sem) 0 ∗ semVal (tile d L, SemLoc.dma cc1_scratch11.sem) 0 ∗ semVal (tile d L, SemLoc.dma cc1_scratch12.sem) 0 ∗ semVal (tile d L, SemLoc.dma cc1_scratch13.sem) 0 ∗ semVal (tile d L, SemLoc.dma cc1_scoped0.sem) 0 ∗ semVal (tile d L, SemLoc.dma cc1_scoped1.sem) 0 ∗ semVal (tile d L, SemLoc.dma cc1_scoped2.sem) 0 ∗ semVal (tile d L, SemLoc.dma cc1_scoped3.sem) 0
        ∗ owes (tile d L) O W)

end Cert.Proof.KB

end
-- ==== Proof.TileOblB.lean ====
/-
  The launch's obligation for a tile, from the tile's core.

  The core is stated over the tile's whole context in the spelling its body reads (each array through the memref the body holds).
  The launch hands a tile its payload, its scoped buffers and its scoped semaphores; this file opens those, respells each piece
  from the location the launch names to the memref the body names (the same location), runs the core, and packs the pieces back.
-/
import proofs.«205997_g24756191494465_cont_8to1_1595_42_alg».proof.Proof.TileCtxB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "y1W" => (Memref.whole Cert.Kernel.main_v10_0_scv : Memref Cert.Kernel.sig Kind.scVector Space.hbm Cert.Kernel.S10240x128 EltTy.f32)
local notation "y2W" => (Memref.whole Cert.Kernel.main_v10_1_scv : Memref Cert.Kernel.sig Kind.scVector Space.hbm Cert.Kernel.S10240x128 EltTy.f32)
local notation "iiW" => (Memref.whole Cert.Kernel.main_v14_scv : Memref Cert.Kernel.sig Kind.scVector Space.hbm Cert.Kernel.S163840 EltTy.i32)
local notation "ijW" => (Memref.whole Cert.Kernel.main_v16_scv : Memref Cert.Kernel.sig Kind.scVector Space.hbm Cert.Kernel.S163840 EltTy.i32)
local notation "spW" => (Memref.whole Cert.Kernel.main_v17_scv : Memref Cert.Kernel.sig Kind.scVector Space.hbm Cert.Kernel.S163840 EltTy.f32)
local notation "ouW" => (Memref.whole Cert.Kernel.main_v18_scv : Memref Cert.Kernel.sig Kind.scVector Space.hbm Cert.Kernel.S10240x128 EltTy.f32)
local notation "s0W" => (Memref.whole Cert.Kernel.cc1_scratch0 : Memref Cert.Kernel.sig Kind.scVector Space.vmem Cert.Kernel.S5120 EltTy.i32)
local notation "s1W" => (Memref.whole Cert.Kernel.cc1_scratch1 : Memref Cert.Kernel.sig Kind.scVector Space.vmem Cert.Kernel.S5120 EltTy.i32)
local notation "s2W" => (Memref.whole Cert.Kernel.cc1_scratch2 : Memref Cert.Kernel.sig Kind.scVector Space.vmem Cert.Kernel.S5120 EltTy.f32)
local notation "s3W" => (Memref.whole Cert.Kernel.cc1_scratch3 : Memref Cert.Kernel.sig Kind.scVector Space.vmem Cert.Kernel.S256x128 EltTy.f32)
local notation "s4W" => (Memref.whole Cert.Kernel.cc1_scratch4 : Memref Cert.Kernel.sig Kind.scVector Space.vmem Cert.Kernel.S256x128 EltTy.f32)
local notation "s5W" => (Memref.whole Cert.Kernel.cc1_scratch5 : Memref Cert.Kernel.sig Kind.scVector Space.vmem Cert.Kernel.S320x128 EltTy.f32)

variable [FloatOps F]

/-! ## One location, two spellings -/

section Tile

variable (d : Dev nD) (L : grid1.Coords)

omit [FloatOps F] in
theorem pts_y1 (q : PosShare TreeShare) (f : Buf (Elt F) (y1L d)) :
    ((y1W).view.loc (tile d L) ↦{q} f : sProp 𝕄) = (y1L d ↦{q} f) := rfl
omit [FloatOps F] in
theorem pts_y2 (q : PosShare TreeShare) (f : Buf (Elt F) (y2L d)) :
    ((y2W).view.loc (tile d L) ↦{q} f : sProp 𝕄) = (y2L d ↦{q} f) := rfl
omit [FloatOps F] in
theorem pts_ii (f : Buf (Elt F) (iiL d)) :
    ((iiSl L).view.loc (tile d L) ↦[(iiSl L).view.set]{fullShare} f : sProp 𝕄) = (iiL d ↦[(iiSl L).view.set]{fullShare} f) := rfl
omit [FloatOps F] in
theorem pts_ij (f : Buf (Elt F) (ijL d)) :
    ((ijSl L).view.loc (tile d L) ↦[(ijSl L).view.set]{fullShare} f : sProp 𝕄) = (ijL d ↦[(ijSl L).view.set]{fullShare} f) := rfl
omit [FloatOps F] in
theorem pts_sp (f : Buf (Elt F) (spL d)) :
    ((spSl L).view.loc (tile d L) ↦[(spSl L).view.set]{fullShare} f : sProp 𝕄) = (spL d ↦[(spSl L).view.set]{fullShare} f) := rfl
omit [FloatOps F] in
theorem pts_ou (f : Buf (Elt F) (ouL d)) :
    ((ouSl L).view.loc (tile d L) ↦[(ouSl L).view.set]{fullShare} f : sProp 𝕄) = (ouL d ↦[(ouSl L).view.set]{fullShare} f) := rfl
omit [FloatOps F] in
theorem pts_s0 (f : Buf (Elt F) ((V d (cV L) (jV L)).loc cc1_scratch0)) :
    ((s0W).view.loc (tile d L) ↦{fullShare} f : sProp 𝕄) = ((V d (cV L) (jV L)).loc cc1_scratch0 ↦{fullShare} f) := rfl
omit [FloatOps F] in
theorem pts_s1 (f : Buf (Elt F) ((V d (cV L) (jV L)).loc cc1_scratch1)) :
    ((s1W).view.loc (tile d L) ↦{fullShare} f : sProp 𝕄) = ((V d (cV L) (jV L)).loc cc1_scratch1 ↦{fullShare} f) := rfl
omit [FloatOps F] in
theorem pts_s2 (f : Buf (Elt F) ((V d (cV L) (jV L)).loc cc1_scratch2)) :
    ((s2W).view.loc (tile d L) ↦{fullShare} f : sProp 𝕄) = ((V d (cV L) (jV L)).loc cc1_scratch2 ↦{fullShare} f) := rfl
omit [FloatOps F] in
theorem pts_s3 (f : Buf (Elt F) ((V d (cV L) (jV L)).loc cc1_scratch3)) :
    ((s3W).view.loc (tile d L) ↦{fullShare} f : sProp 𝕄) = ((V d (cV L) (jV L)).loc cc1_scratch3 ↦{fullShare} f) := rfl
omit [FloatOps F] in
theorem pts_s4 (f : Buf (Elt F) ((V d (cV L) (jV L)).loc cc1_scratch4)) :
    ((s4W).view.loc (tile d L) ↦{fullShare} f : sProp 𝕄) = ((V d (cV L) (jV L)).loc cc1_scratch4 ↦{fullShare} f) := rfl
omit [FloatOps F] in
theorem pts_s5 (f : Buf (Elt F) ((V d (cV L) (jV L)).loc cc1_scratch5)) :
    ((s5W).view.loc (tile d L) ↦{fullShare} f : sProp 𝕄) = ((V d (cV L) (jV L)).loc cc1_scratch5 ↦{fullShare} f) := rfl

set_option maxHeartbeats 4000000 in
/-- A tile's task, from what the launch hands it to what it hands back, given the core. -/
theorem tile_body (hF : (K (F := F)).Facts)
    (hcore : ∀ (d : Dev nD) (L : grid1.Coords) (q : PosShare TreeShare)
          (fy1 : Buf (Elt F) ((y1W).view.loc (tile d L))) (fy2 : Buf (Elt F) ((y2W).view.loc (tile d L)))
          (fi : Buf (Elt F) ((iiSl L).view.loc (tile d L))) (fj : Buf (Elt F) ((ijSl L).view.loc (tile d L)))
          (fs : Buf (Elt F) ((spSl L).view.loc (tile d L))) (fo : Buf (Elt F) ((ouSl L).view.loc (tile d L)))
          (g0 : Buf (Elt F) ((s0W).view.loc (tile d L))) (g1 : Buf (Elt F) ((s1W).view.loc (tile d L))) (g2 : Buf (Elt F) ((s2W).view.loc (tile d L)))
          (g3 : Buf (Elt F) ((s3W).view.loc (tile d L))) (g4 : Buf (Elt F) ((s4W).view.loc (tile d L))) (g5 : Buf (Elt F) ((s5W).view.loc (tile d L)))
          (O : CellTallies nD τ sig (HIx 1)) (W : Waits sig (HIx 1)),
          InRows (iiSl L).view.set fi → InRows (ijSl L).view.set fj →
          coreCtx d L q fy1 fy2 fi fj fs fo g0 g1 g2 g3 g4 g5 O W
            ⊢ wp frame (wpE (defs₀ (F := F)) 𝒱₀ (tile d L) none) Set.univ (cc1__sc_kernel L y1W (Memref.isWhole_whole _) y2W (Memref.isWhole_whole _) iiW (Memref.isWhole_whole _) ijW (Memref.isWhole_whole _) spW (Memref.isWhole_whole _) ouW (Memref.isWhole_whole _) s0W (Memref.isWhole_whole _) s1W (Memref.isWhole_whole _) s2W (Memref.isWhole_whole _) s3W (Memref.isWhole_whole _) s4W (Memref.isWhole_whole _) s5W (Memref.isWhole_whole _) cc1_scratch6 cc1_scratch7 cc1_scratch8 cc1_scratch9 cc1_scratch10 cc1_scratch11 cc1_scratch12 cc1_scratch13 cc1_scoped0 cc1_scoped1 cc1_scoped2 cc1_scoped3)
                fun _ => iprop(∃ fo' g0' g1' g2' g3' g4' g5' W', ⌜∀ p ∈ W', p ∈ W ∨ p.2 = none⌝ ∗ coreCtx d L q fy1 fy2 fi fj fs fo' g0' g1' g2' g3' g4' g5' O W'))
    (O : CellTallies nD τ sig (HIx 1)) (W : Waits sig (HIx 1)) (hO : ∀ g, O g none = 0) :
    iprop(levAts (K (F := F)).L (K (F := F)).lev ∗ iprop(emp) ∗ tilePay (F := F) d L
        ∗ scopedBufs (V d (cV L) (jV L)) ∗ scopedSems0 (V d (cV L) (jV L)) ∗ owes (V d (cV L) (jV L)) O W)
      ⊢ wp frame (wpE (defs₀ (F := F)) 𝒱₀ (tile d L) none) Set.univ (cc1__sc_kernel L y1W (Memref.isWhole_whole _) y2W (Memref.isWhole_whole _) iiW (Memref.isWhole_whole _) ijW (Memref.isWhole_whole _) spW (Memref.isWhole_whole _) ouW (Memref.isWhole_whole _) s0W (Memref.isWhole_whole _) s1W (Memref.isWhole_whole _) s2W (Memref.isWhole_whole _) s3W (Memref.isWhole_whole _) s4W (Memref.isWhole_whole _) s5W (Memref.isWhole_whole _) cc1_scratch6 cc1_scratch7 cc1_scratch8 cc1_scratch9 cc1_scratch10 cc1_scratch11 cc1_scratch12 cc1_scratch13 cc1_scoped0 cc1_scoped1 cc1_scoped2 cc1_scoped3)
          fun _ => iprop(tilePay (F := F) d L ∗ scopedBufs (V d (cV L) (jV L)) ∗ scopedSems0 (V d (cV L) (jV L))
            ∗ ∃ W', ⌜∀ p ∈ W', p ∈ W ∨ p.2 = none⌝ ∗ owes (V d (cV L) (jV L)) O W') := by
  unfold coreCtx at hcore
  rw [(K (F := F)).scopedBufs_V hF d (cV L) (jV L), SparseCore.Cfg.scopedSems0_V (Val := Elt F) d (cV L) (jV L),
    ownSems0_V (F := F) d L, ownBufs_V (F := F) d L]
  unfold tilePay
  iintro ⟨#Hlv, -, ⟨⟨%f1, Hy1⟩, ⟨%f2, Hy2⟩, ⟨%fi, %hfi, Hii⟩, ⟨%fj, %hfj, Hij⟩, ⟨%fs, Hsp⟩, ⟨%fo, Hou⟩⟩,
    ⟨⟨%g0, Hs0⟩, ⟨%g1, Hs1⟩, ⟨%g2, Hs2⟩, ⟨%g3, Hs3⟩, ⟨%g4, Hs4⟩, ⟨%g5, Hs5⟩, Hbufs⟩,
    ⟨Hm0, Hm1, Hm2, Hm3, Hm4, Hm5, Hm6, Hm7, Hm8, Hm9, Hm10, Hm11, Hsems⟩, HO⟩
  ihave Hmw := (show levAts (K (F := F)).L (K (F := F)).lev ⊢ Transfers.MayWaits (tile d L) (none : HIx 1) O from
    (K (F := F)).mayWaits_none (thr := tile d L) hO) $$ Hlv
  ihave Hy1' := (Entails.of_eq (pts_y1 (F := F) d L _ _).symm) $$ Hy1
  ihave Hy2' := (Entails.of_eq (pts_y2 (F := F) d L _ _).symm) $$ Hy2
  ihave Hii' := (Entails.of_eq (pts_ii (F := F) d L _).symm) $$ Hii
  ihave Hij' := (Entails.of_eq (pts_ij (F := F) d L _).symm) $$ Hij
  ihave Hsp' := (Entails.of_eq (pts_sp (F := F) d L _).symm) $$ Hsp
  ihave Hou' := (Entails.of_eq (pts_ou (F := F) d L _).symm) $$ Hou
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  ihave Hs4' := (Entails.of_eq (pts_s4 (F := F) d L _).symm) $$ Hs4
  ihave Hs5' := (Entails.of_eq (pts_s5 (F := F) d L _).symm) $$ Hs5
  iapply (wp_wand_r Idealize.ShloMosaic.frame (wpE (defs₀ (F := F)) 𝒱₀ (tile d L) none) Set.univ)
  isplitl [Hy1' Hy2' Hii' Hij' Hsp' Hou' Hs0' Hs1' Hs2' Hs3' Hs4' Hs5' Hm0 Hm1 Hm2 Hm3 Hm4 Hm5 Hm6 Hm7 Hm8 Hm9 Hm10 Hm11 HO]
  · iapply (hcore d L (tabShare L) f1 f2 fi fj fs fo g0 g1 g2 g3 g4 g5 O W hfi hfj)
    isplitr; · iexact Hmw
    isplitl [Hy1']; · iexact Hy1'
    isplitl [Hy2']; · iexact Hy2'
    isplitl [Hii']; · iexact Hii'
    isplitl [Hij']; · iexact Hij'
    isplitl [Hsp']; · iexact Hsp'
    isplitl [Hou']; · iexact Hou'
    isplitl [Hs0']; · iexact Hs0'
    isplitl [Hs1']; · iexact Hs1'
    isplitl [Hs2']; · iexact Hs2'
    isplitl [Hs3']; · iexact Hs3'
    isplitl [Hs4']; · iexact Hs4'
    isplitl [Hs5']; · iexact Hs5'
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    iexact HO
  iintro %_ ⟨%fo', %g0', %g1', %g2', %g3', %g4', %g5', %W', %hW', -, Hy1', Hy2', Hii', Hij', Hsp', Hou', Hs0', Hs1', Hs2', Hs3', Hs4', Hs5', Hm0, Hm1, Hm2, Hm3, Hm4, Hm5, Hm6, Hm7, Hm8, Hm9, Hm10, Hm11, HO⟩
  isplitl [Hy1' Hy2' Hii' Hij' Hsp' Hou']
  · isplitl [Hy1']; · iexists _; iapply (Entails.of_eq (pts_y1 (F := F) d L _ _)); iexact Hy1'
    isplitl [Hy2']; · iexists _; iapply (Entails.of_eq (pts_y2 (F := F) d L _ _)); iexact Hy2'
    isplitl [Hii']
    · iexists _; isplitr; · ipureintro; exact hfi
      iapply (Entails.of_eq (pts_ii (F := F) d L _)); iexact Hii'
    isplitl [Hij']
    · iexists _; isplitr; · ipureintro; exact hfj
      iapply (Entails.of_eq (pts_ij (F := F) d L _)); iexact Hij'
    isplitl [Hsp']; · iexists _; iapply (Entails.of_eq (pts_sp (F := F) d L _)); iexact Hsp'
    iexists _; iapply (Entails.of_eq (pts_ou (F := F) d L _)); iexact Hou'
  isplitl [Hs0' Hs1' Hs2' Hs3' Hs4' Hs5' Hbufs]
  · isplitl [Hs0']; · iexists _; iapply (Entails.of_eq (pts_s0 (F := F) d L _)); iexact Hs0'
    isplitl [Hs1']; · iexists _; iapply (Entails.of_eq (pts_s1 (F := F) d L _)); iexact Hs1'
    isplitl [Hs2']; · iexists _; iapply (Entails.of_eq (pts_s2 (F := F) d L _)); iexact Hs2'
    isplitl [Hs3']; · iexists _; iapply (Entails.of_eq (pts_s3 (F := F) d L _)); iexact Hs3'
    isplitl [Hs4']; · iexists _; iapply (Entails.of_eq (pts_s4 (F := F) d L _)); iexact Hs4'
    isplitl [Hs5']; · iexists _; iapply (Entails.of_eq (pts_s5 (F := F) d L _)); iexact Hs5'
    iexact Hbufs
  isplitl [Hm0 Hm1 Hm2 Hm3 Hm4 Hm5 Hm6 Hm7 Hm8 Hm9 Hm10 Hm11 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    iexact Hsems
  iexists W'; isplitr
  · ipureintro; exact hW'
  iexact HO

end Tile

/-! ## The launch theorem's obligation -/

theorem defs₀_vector (c : Fin τ.nSC) (s : Fin τ.nSub) :
    defs₀ (F := F) (.scVector c s) 1 ⟨⟩
      = SparseCore.onTile hcore1 hsub1 (fun c s => cc1__sc_kernel (coordsV c s) y1W (Memref.isWhole_whole _) y2W (Memref.isWhole_whole _) iiW (Memref.isWhole_whole _) ijW (Memref.isWhole_whole _) spW (Memref.isWhole_whole _) ouW (Memref.isWhole_whole _) s0W (Memref.isWhole_whole _) s1W (Memref.isWhole_whole _) s2W (Memref.isWhole_whole _) s3W (Memref.isWhole_whole _) s4W (Memref.isWhole_whole _) s5W (Memref.isWhole_whole _) cc1_scratch6 cc1_scratch7 cc1_scratch8 cc1_scratch9 cc1_scratch10 cc1_scratch11 cc1_scratch12 cc1_scratch13 cc1_scoped0 cc1_scoped1 cc1_scoped2 cc1_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 4000000 in
/-- THE TILE OBLIGATION: every tile's task, from the launch's hand-out to its hand-back, given the core at a symbolic tile. -/
theorem tileObl (hF : (K (F := F)).Facts)
    (hcore : ∀ (d : Dev nD) (L : grid1.Coords) (q : PosShare TreeShare)
          (fy1 : Buf (Elt F) ((y1W).view.loc (tile d L))) (fy2 : Buf (Elt F) ((y2W).view.loc (tile d L)))
          (fi : Buf (Elt F) ((iiSl L).view.loc (tile d L))) (fj : Buf (Elt F) ((ijSl L).view.loc (tile d L)))
          (fs : Buf (Elt F) ((spSl L).view.loc (tile d L))) (fo : Buf (Elt F) ((ouSl L).view.loc (tile d L)))
          (g0 : Buf (Elt F) ((s0W).view.loc (tile d L))) (g1 : Buf (Elt F) ((s1W).view.loc (tile d L))) (g2 : Buf (Elt F) ((s2W).view.loc (tile d L)))
          (g3 : Buf (Elt F) ((s3W).view.loc (tile d L))) (g4 : Buf (Elt F) ((s4W).view.loc (tile d L))) (g5 : Buf (Elt F) ((s5W).view.loc (tile d L)))
          (O : CellTallies nD τ sig (HIx 1)) (W : Waits sig (HIx 1)),
          InRows (iiSl L).view.set fi → InRows (ijSl L).view.set fj →
          coreCtx d L q fy1 fy2 fi fj fs fo g0 g1 g2 g3 g4 g5 O W
            ⊢ wp frame (wpE (defs₀ (F := F)) 𝒱₀ (tile d L) none) Set.univ (cc1__sc_kernel L y1W (Memref.isWhole_whole _) y2W (Memref.isWhole_whole _) iiW (Memref.isWhole_whole _) ijW (Memref.isWhole_whole _) spW (Memref.isWhole_whole _) ouW (Memref.isWhole_whole _) s0W (Memref.isWhole_whole _) s1W (Memref.isWhole_whole _) s2W (Memref.isWhole_whole _) s3W (Memref.isWhole_whole _) s4W (Memref.isWhole_whole _) s5W (Memref.isWhole_whole _) cc1_scratch6 cc1_scratch7 cc1_scratch8 cc1_scratch9 cc1_scratch10 cc1_scratch11 cc1_scratch12 cc1_scratch13 cc1_scoped0 cc1_scoped1 cc1_scoped2 cc1_scoped3)
                fun _ => iprop(∃ fo' g0' g1' g2' g3' g4' g5' W', ⌜∀ p ∈ W', p ∈ W ∨ p.2 = none⌝ ∗ coreCtx d L q fy1 fy2 fi fj fs fo' g0' g1' g2' g3' g4' g5' O W')) :
    (K (F := F)).TileObl (D (F := F)) 𝒱 (P (F := F)) v₀ 0 := by
  intro d c i O W hO _ _
  -- this kernel owes nothing for a protocol of its own
  simp only [show (P (F := F)).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (LL (Fin.cast nCore_zero c) (Fin.cast nSub_zero i)) hF hcore O W hO).trans (wp_mono frame _ _ fun _ => obl_post)

end Cert.Proof.KB

end
-- ==== Proof.InnerB.lean ====
/-
  The two compute loops of a tile (one per slot of the double buffer), one node per trip, at frame level: what a trip reads it holds
  read-only, what it writes (eight vectors of the node's output row) it holds at contents left open.
-/
import proofs.«205997_g24756191494465_cont_8to1_1595_42_alg».proof.Proof.PayB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "y1W" => (Memref.whole Cert.Kernel.main_v10_0_scv : Memref Cert.Kernel.sig Kind.scVector Space.hbm Cert.Kernel.S10240x128 EltTy.f32)
local notation "y2W" => (Memref.whole Cert.Kernel.main_v10_1_scv : Memref Cert.Kernel.sig Kind.scVector Space.hbm Cert.Kernel.S10240x128 EltTy.f32)
local notation "iiW" => (Memref.whole Cert.Kernel.main_v14_scv : Memref Cert.Kernel.sig Kind.scVector Space.hbm Cert.Kernel.S163840 EltTy.i32)
local notation "ijW" => (Memref.whole Cert.Kernel.main_v16_scv : Memref Cert.Kernel.sig Kind.scVector Space.hbm Cert.Kernel.S163840 EltTy.i32)
local notation "spW" => (Memref.whole Cert.Kernel.main_v17_scv : Memref Cert.Kernel.sig Kind.scVector Space.hbm Cert.Kernel.S163840 EltTy.f32)
local notation "ouW" => (Memref.whole Cert.Kernel.main_v18_scv : Memref Cert.Kernel.sig Kind.scVector Space.hbm Cert.Kernel.S10240x128 EltTy.f32)
local notation "s0W" => (Memref.whole Cert.Kernel.cc1_scratch0 : Memref Cert.Kernel.sig Kind.scVector Space.vmem Cert.Kernel.S5120 EltTy.i32)
local notation "s1W" => (Memref.whole Cert.Kernel.cc1_scratch1 : Memref Cert.Kernel.sig Kind.scVector Space.vmem Cert.Kernel.S5120 EltTy.i32)
local notation "s2W" => (Memref.whole Cert.Kernel.cc1_scratch2 : Memref Cert.Kernel.sig Kind.scVector Space.vmem Cert.Kernel.S5120 EltTy.f32)
local notation "s3W" => (Memref.whole Cert.Kernel.cc1_scratch3 : Memref Cert.Kernel.sig Kind.scVector Space.vmem Cert.Kernel.S256x128 EltTy.f32)
local notation "s4W" => (Memref.whole Cert.Kernel.cc1_scratch4 : Memref Cert.Kernel.sig Kind.scVector Space.vmem Cert.Kernel.S256x128 EltTy.f32)
local notation "s5W" => (Memref.whole Cert.Kernel.cc1_scratch5 : Memref Cert.Kernel.sig Kind.scVector Space.vmem Cert.Kernel.S320x128 EltTy.f32)

variable [FloatOps F]

/-- Slot 0's compute loop: the damping factors, the slot's four row windows, and the output scratch, the windows' and the
    output's contents left open. -/
def invIn0 (d : Dev nD) (L : grid1.Coords) (G2 : Buf (Elt F) ((s2W).view.loc (tile d L))) (_ : Nat) (_ : PUnit) : sProp 𝕄 :=
  iprop(∃ (G3a : Buf (Elt F) (((s3W).slice (Rect.unit (s := S256x128) ![0, 0] S64x128.size inb_S256x128_S64x128_0_0) (fun _ => rfl)).view.loc (tile d L))) (G3b : Buf (Elt F) (((s3W).slice (Rect.unit (s := S256x128) ![64, 0] S64x128.size inb_S256x128_S64x128_64_0) (fun _ => rfl)).view.loc (tile d L))) (G4a : Buf (Elt F) (((s4W).slice (Rect.unit (s := S256x128) ![0, 0] S64x128.size inb_S256x128_S64x128_0_0) (fun _ => rfl)).view.loc (tile d L))) (G4b : Buf (Elt F) (((s4W).slice (Rect.unit (s := S256x128) ![64, 0] S64x128.size inb_S256x128_S64x128_64_0) (fun _ => rfl)).view.loc (tile d L))) (G5 : Buf (Elt F) ((s5W).view.loc (tile d L))),
    ((s2W).view.loc (tile d L) ↦{fullShare} G2)
    ∗ (((s3W).slice (Rect.unit (s := S256x128) ![0, 0] S64x128.size inb_S256x128_S64x128_0_0) (fun _ => rfl)).view.loc (tile d L) ↦[((s3W).slice (Rect.unit (s := S256x128) ![0, 0] S64x128.size inb_S256x128_S64x128_0_0) (fun _ => rfl)).view.set]{fullShare} G3a)
    ∗ (((s3W).slice (Rect.unit (s := S256x128) ![64, 0] S64x128.size inb_S256x128_S64x128_64_0) (fun _ => rfl)).view.loc (tile d L) ↦[((s3W).slice (Rect.unit (s := S256x128) ![64, 0] S64x128.size inb_S256x128_S64x128_64_0) (fun _ => rfl)).view.set]{fullShare} G3b)
    ∗ (((s4W).slice (Rect.unit (s := S256x128) ![0, 0] S64x128.size inb_S256x128_S64x128_0_0) (fun _ => rfl)).view.loc (tile d L) ↦[((s4W).slice (Rect.unit (s := S256x128) ![0, 0] S64x128.size inb_S256x128_S64x128_0_0) (fun _ => rfl)).view.set]{fullShare} G4a)
    ∗ (((s4W).slice (Rect.unit (s := S256x128) ![64, 0] S64x128.size inb_S256x128_S64x128_64_0) (fun _ => rfl)).view.loc (tile d L) ↦[((s4W).slice (Rect.unit (s := S256x128) ![64, 0] S64x128.size inb_S256x128_S64x128_64_0) (fun _ => rfl)).view.set]{fullShare} G4b)
    ∗ ((s5W).view.loc (tile d L) ↦{fullShare} G5))

set_option maxHeartbeats 8000000 in
/-- One node of the slot's group: sixteen edges' rows read from the slot's windows (rows 16·n … 16·n+15 of the slot: the first
    window when n < 4, the second otherwise), the node's eight output vectors stored. -/
theorem inner0_trip (d : Dev nD) (L : grid1.Coords) (G2 : Buf (Elt F) ((s2W).view.loc (tile d L))) (k1 : Fin k1_t1_loop.trips) (v18 v19 : BitVec 32) (n : Fin k1_t2_loop.trips) (i : Nat) :
    invIn0 d L G2 i ()
      ⊢ wp frame (wpE (defs₀ (F := F)) 𝒱₀ (tile d L) none) Set.univ
          (k1_t2_body L y1W (Memref.isWhole_whole _) y2W (Memref.isWhole_whole _) iiW (Memref.isWhole_whole _) ijW (Memref.isWhole_whole _)
            spW (Memref.isWhole_whole _) ouW (Memref.isWhole_whole _) s0W (Memref.isWhole_whole _) s1W (Memref.isWhole_whole _) s2W (Memref.isWhole_whole _)
            s3W (Memref.isWhole_whole _) s4W (Memref.isWhole_whole _) s5W (Memref.isWhole_whole _)
            cc1_scratch6 cc1_scratch7 cc1_scratch8 cc1_scratch9 cc1_scratch10 cc1_scratch11 cc1_scratch12 cc1_scratch13 cc1_scoped0 cc1_scoped1 cc1_scoped2 cc1_scoped3 k1 v18 v19 n ())
          fun x => invIn0 d L G2 (i + 1) x := by
  unfold k1_t2_body
  delta invIn0
  iintro ⟨%G3a, %G3b, %G4a, %G4b, %G5, H2, H3a, H3b, H4a, H4b, H5⟩
  have hn : n.val < 8 := lt_of_lt_of_le n.isLt k1_t2_abs.2.1
  by_cases hn4 : n.val < 4
  · sl_exec_parts
    sl_step
    iexists _; iexists _; iexists _; iexists _; iexists _
    isplitl [H2]; · iexact H2
    isplitl [H3a]; · iexact H3a
    isplitl [H3b]; · iexact H3b
    isplitl [H4a]; · iexact H4a
    isplitl [H4b]; · iexact H4b
    iexact H5
  · have hn4' : 4 ≤ n.val := Nat.le_of_not_lt hn4
    sl_exec_parts
    sl_step
    iexists _; iexists _; iexists _; iexists _; iexists _
    isplitl [H2]; · iexact H2
    isplitl [H3a]; · iexact H3a
    isplitl [H3b]; · iexact H3b
    isplitl [H4a]; · iexact H4a
    isplitl [H4b]; · iexact H4b
    iexact H5

/-- Slot 1's compute loop: the damping factors, the slot's four row windows, and the output scratch, the windows' and the
    output's contents left open. -/
def invIn1 (d : Dev nD) (L : grid1.Coords) (G2 : Buf (Elt F) ((s2W).view.loc (tile d L))) (_ : Nat) (_ : PUnit) : sProp 𝕄 :=
  iprop(∃ (G3a : Buf (Elt F) (((s3W).slice (Rect.unit (s := S256x128) ![128, 0] S64x128.size inb_S256x128_S64x128_128_0) (fun _ => rfl)).view.loc (tile d L))) (G3b : Buf (Elt F) (((s3W).slice (Rect.unit (s := S256x128) ![192, 0] S64x128.size inb_S256x128_S64x128_192_0) (fun _ => rfl)).view.loc (tile d L))) (G4a : Buf (Elt F) (((s4W).slice (Rect.unit (s := S256x128) ![128, 0] S64x128.size inb_S256x128_S64x128_128_0) (fun _ => rfl)).view.loc (tile d L))) (G4b : Buf (Elt F) (((s4W).slice (Rect.unit (s := S256x128) ![192, 0] S64x128.size inb_S256x128_S64x128_192_0) (fun _ => rfl)).view.loc (tile d L))) (G5 : Buf (Elt F) ((s5W).view.loc (tile d L))),
    ((s2W).view.loc (tile d L) ↦{fullShare} G2)
    ∗ (((s3W).slice (Rect.unit (s := S256x128) ![128, 0] S64x128.size inb_S256x128_S64x128_128_0) (fun _ => rfl)).view.loc (tile d L) ↦[((s3W).slice (Rect.unit (s := S256x128) ![128, 0] S64x128.size inb_S256x128_S64x128_128_0) (fun _ => rfl)).view.set]{fullShare} G3a)
    ∗ (((s3W).slice (Rect.unit (s := S256x128) ![192, 0] S64x128.size inb_S256x128_S64x128_192_0) (fun _ => rfl)).view.loc (tile d L) ↦[((s3W).slice (Rect.unit (s := S256x128) ![192, 0] S64x128.size inb_S256x128_S64x128_192_0) (fun _ => rfl)).view.set]{fullShare} G3b)
    ∗ (((s4W).slice (Rect.unit (s := S256x128) ![128, 0] S64x128.size inb_S256x128_S64x128_128_0) (fun _ => rfl)).view.loc (tile d L) ↦[((s4W).slice (Rect.unit (s := S256x128) ![128, 0] S64x128.size inb_S256x128_S64x128_128_0) (fun _ => rfl)).view.set]{fullShare} G4a)
    ∗ (((s4W).slice (Rect.unit (s := S256x128) ![192, 0] S64x128.size inb_S256x128_S64x128_192_0) (fun _ => rfl)).view.loc (tile d L) ↦[((s4W).slice (Rect.unit (s := S256x128) ![192, 0] S64x128.size inb_S256x128_S64x128_192_0) (fun _ => rfl)).view.set]{fullShare} G4b)
    ∗ ((s5W).view.loc (tile d L) ↦{fullShare} G5))

set_option maxHeartbeats 8000000 in
/-- One node of the slot's group: sixteen edges' rows read from the slot's windows (rows 16·n … 16·n+15 of the slot: the first
    window when n < 4, the second otherwise), the node's eight output vectors stored. -/
theorem inner1_trip (d : Dev nD) (L : grid1.Coords) (G2 : Buf (Elt F) ((s2W).view.loc (tile d L))) (k1 : Fin k1_t1_loop.trips) (v45 : BitVec 32) (n : Fin k1_t3_loop.trips) (i : Nat) :
    invIn1 d L G2 i ()
      ⊢ wp frame (wpE (defs₀ (F := F)) 𝒱₀ (tile d L) none) Set.univ
          (k1_t3_body L y1W (Memref.isWhole_whole _) y2W (Memref.isWhole_whole _) iiW (Memref.isWhole_whole _) ijW (Memref.isWhole_whole _)
            spW (Memref.isWhole_whole _) ouW (Memref.isWhole_whole _) s0W (Memref.isWhole_whole _) s1W (Memref.isWhole_whole _) s2W (Memref.isWhole_whole _)
            s3W (Memref.isWhole_whole _) s4W (Memref.isWhole_whole _) s5W (Memref.isWhole_whole _)
            cc1_scratch6 cc1_scratch7 cc1_scratch8 cc1_scratch9 cc1_scratch10 cc1_scratch11 cc1_scratch12 cc1_scratch13 cc1_scoped0 cc1_scoped1 cc1_scoped2 cc1_scoped3 k1 v45 n ())
          fun x => invIn1 d L G2 (i + 1) x := by
  unfold k1_t3_body
  delta invIn1
  iintro ⟨%G3a, %G3b, %G4a, %G4b, %G5, H2, H3a, H3b, H4a, H4b, H5⟩
  have hn : n.val < 8 := lt_of_lt_of_le n.isLt k1_t3_abs.2.1
  by_cases hn4 : n.val < 4
  · sl_exec_parts
    sl_step
    iexists _; iexists _; iexists _; iexists _; iexists _
    isplitl [H2]; · iexact H2
    isplitl [H3a]; · iexact H3a
    isplitl [H3b]; · iexact H3b
    isplitl [H4a]; · iexact H4a
    isplitl [H4b]; · iexact H4b
    iexact H5
  · have hn4' : 4 ≤ n.val := Nat.le_of_not_lt hn4
    sl_exec_parts
    sl_step
    iexists _; iexists _; iexists _; iexists _; iexists _
    isplitl [H2]; · iexact H2
    isplitl [H3a]; · iexact H3a
    isplitl [H3b]; · iexact H3b
    isplitl [H4a]; · iexact H4a
    isplitl [H4b]; · iexact H4b
    iexact H5

end Cert.Proof.KB

end
-- ==== Proof.TripB.lean ====
/-
  One trip of a tile's outer loop: two groups of eight nodes, one per slot of the double buffer.  At the head of trip k the four row
  copies of group 2k are in flight into slot 0.  The trip starts group 2k+1's copies into slot 1, waits for slot 0's four, computes
  group 2k out of slot 0; then (unless it is the last trip) starts group 2k+2's copies into slot 0, waits for slot 1's four, computes
  group 2k+1 out of slot 1.  A semaphore carries one copy at a time, and a slot's windows are read only between that slot's four waits
  and its next four issues.
-/
import proofs.«205997_g24756191494465_cont_8to1_1595_42_alg».proof.Proof.InnerB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "y1W" => (Memref.whole Cert.Kernel.main_v10_0_scv : Memref Cert.Kernel.sig Kind.scVector Space.hbm Cert.Kernel.S10240x128 EltTy.f32)
local notation "y2W" => (Memref.whole Cert.Kernel.main_v10_1_scv : Memref Cert.Kernel.sig Kind.scVector Space.hbm Cert.Kernel.S10240x128 EltTy.f32)
local notation "iiW" => (Memref.whole Cert.Kernel.main_v14_scv : Memref Cert.Kernel.sig Kind.scVector Space.hbm Cert.Kernel.S163840 EltTy.i32)
local notation "ijW" => (Memref.whole Cert.Kernel.main_v16_scv : Memref Cert.Kernel.sig Kind.scVector Space.hbm Cert.Kernel.S163840 EltTy.i32)
local notation "spW" => (Memref.whole Cert.Kernel.main_v17_scv : Memref Cert.Kernel.sig Kind.scVector Space.hbm Cert.Kernel.S163840 EltTy.f32)
local notation "ouW" => (Memref.whole Cert.Kernel.main_v18_scv : Memref Cert.Kernel.sig Kind.scVector Space.hbm Cert.Kernel.S10240x128 EltTy.f32)
local notation "s0W" => (Memref.whole Cert.Kernel.cc1_scratch0 : Memref Cert.Kernel.sig Kind.scVector Space.vmem Cert.Kernel.S5120 EltTy.i32)
local notation "s1W" => (Memref.whole Cert.Kernel.cc1_scratch1 : Memref Cert.Kernel.sig Kind.scVector Space.vmem Cert.Kernel.S5120 EltTy.i32)
local notation "s2W" => (Memref.whole Cert.Kernel.cc1_scratch2 : Memref Cert.Kernel.sig Kind.scVector Space.vmem Cert.Kernel.S5120 EltTy.f32)
local notation "s3W" => (Memref.whole Cert.Kernel.cc1_scratch3 : Memref Cert.Kernel.sig Kind.scVector Space.vmem Cert.Kernel.S256x128 EltTy.f32)
local notation "s4W" => (Memref.whole Cert.Kernel.cc1_scratch4 : Memref Cert.Kernel.sig Kind.scVector Space.vmem Cert.Kernel.S256x128 EltTy.f32)
local notation "s5W" => (Memref.whole Cert.Kernel.cc1_scratch5 : Memref Cert.Kernel.sig Kind.scVector Space.vmem Cert.Kernel.S320x128 EltTy.f32)

variable [FloatOps F]

/-- The tile's state at the head of an outer trip: four row copies in flight into slot 0 (each holding its row window, a window of its
    index list at a share, a share of its table), slot 1's windows idle, two of the four shares of each table and of each index list
    idle, the four slot-1 semaphores at zero. -/
def pend (d : Dev nD) (L : grid1.Coords) (q : PosShare TreeShare)
    (fy1 : Buf (Elt F) ((y1W).view.loc (tile d L))) (fy2 : Buf (Elt F) ((y2W).view.loc (tile d L)))
    (I0 : Buf (Elt F) ((s0W).view.loc (tile d L))) (I1 : Buf (Elt F) ((s1W).view.loc (tile d L))) (G2 : Buf (Elt F) ((s2W).view.loc (tile d L)))
    (Ga : Buf (Elt F) (((s3W).slice (Rect.unit (s := S256x128) ![0, 0] S64x128.size inb_S256x128_S64x128_0_0) (fun _ => rfl)).view.loc (tile d L))) (Gb : Buf (Elt F) (((s3W).slice (Rect.unit (s := S256x128) ![64, 0] S64x128.size inb_S256x128_S64x128_64_0) (fun _ => rfl)).view.loc (tile d L))) (G3c : Buf (Elt F) (((s3W).slice (Rect.unit (s := S256x128) ![128, 0] S64x128.size inb_S256x128_S64x128_128_0) (fun _ => rfl)).view.loc (tile d L))) (G3d : Buf (Elt F) (((s3W).slice (Rect.unit (s := S256x128) ![192, 0] S64x128.size inb_S256x128_S64x128_192_0) (fun _ => rfl)).view.loc (tile d L)))
    (Gc : Buf (Elt F) (((s4W).slice (Rect.unit (s := S256x128) ![0, 0] S64x128.size inb_S256x128_S64x128_0_0) (fun _ => rfl)).view.loc (tile d L))) (Gd : Buf (Elt F) (((s4W).slice (Rect.unit (s := S256x128) ![64, 0] S64x128.size inb_S256x128_S64x128_64_0) (fun _ => rfl)).view.loc (tile d L))) (G4c : Buf (Elt F) (((s4W).slice (Rect.unit (s := S256x128) ![128, 0] S64x128.size inb_S256x128_S64x128_128_0) (fun _ => rfl)).view.loc (tile d L))) (G4d : Buf (Elt F) (((s4W).slice (Rect.unit (s := S256x128) ![192, 0] S64x128.size inb_S256x128_S64x128_192_0) (fun _ => rfl)).view.loc (tile d L)))
    (G5 : Buf (Elt F) ((s5W).view.loc (tile d L)))
    (SIa SIb : Finset S5120.Idx) (SJa SJb : Finset S5120.Idx)
    (O : CellTallies nD τ sig (HIx 1)) (W : Waits sig (HIx 1)) : sProp 𝕄 :=
  iprop((Transfers.MayWaits (tile d L) (none : HIx 1) O : sProp 𝕄)
    ∗ ((s2W).view.loc (tile d L) ↦{fullShare} G2) ∗ ((s5W).view.loc (tile d L) ↦{fullShare} G5)
    ∗ (((s3W).slice (Rect.unit (s := S256x128) ![128, 0] S64x128.size inb_S256x128_S64x128_128_0) (fun _ => rfl)).view.loc (tile d L) ↦[((s3W).slice (Rect.unit (s := S256x128) ![128, 0] S64x128.size inb_S256x128_S64x128_128_0) (fun _ => rfl)).view.set]{fullShare} G3c) ∗ (((s3W).slice (Rect.unit (s := S256x128) ![192, 0] S64x128.size inb_S256x128_S64x128_192_0) (fun _ => rfl)).view.loc (tile d L) ↦[((s3W).slice (Rect.unit (s := S256x128) ![192, 0] S64x128.size inb_S256x128_S64x128_192_0) (fun _ => rfl)).view.set]{fullShare} G3d)
    ∗ (((s4W).slice (Rect.unit (s := S256x128) ![128, 0] S64x128.size inb_S256x128_S64x128_128_0) (fun _ => rfl)).view.loc (tile d L) ↦[((s4W).slice (Rect.unit (s := S256x128) ![128, 0] S64x128.size inb_S256x128_S64x128_128_0) (fun _ => rfl)).view.set]{fullShare} G4c) ∗ (((s4W).slice (Rect.unit (s := S256x128) ![192, 0] S64x128.size inb_S256x128_S64x128_192_0) (fun _ => rfl)).view.loc (tile d L) ↦[((s4W).slice (Rect.unit (s := S256x128) ![192, 0] S64x128.size inb_S256x128_S64x128_192_0) (fun _ => rfl)).view.set]{fullShare} G4d)
    ∗ Transfers.Flight countersEmb (tile d L) (SemLoc.dma cc1_scratch6.sem) default 262144
        iprop(((((s3W).slice (Rect.unit (s := S256x128) ![0, 0] S64x128.size inb_S256x128_S64x128_0_0) (fun _ => rfl)).view.loc (tile d L) ↦[((s3W).slice (Rect.unit (s := S256x128) ![0, 0] S64x128.size inb_S256x128_S64x128_0_0) (fun _ => rfl)).view.set]{fullShare} Ga) ∗ ((s0W).view.loc (tile d L) ↦[SIa]{fullShare.left.left} I0)) ∗ ((y1W).view.loc (tile d L) ↦[((y1W).slice (Rect.unit (s := S10240x128) ![0, 0] S10240x128.size inb_S10240x128_S10240x128_0_0) (fun _ => rfl)).view.set]{q.left.left} fy1))
    ∗ Transfers.Flight countersEmb (tile d L) (SemLoc.dma cc1_scratch7.sem) default 262144
        iprop(((((s3W).slice (Rect.unit (s := S256x128) ![64, 0] S64x128.size inb_S256x128_S64x128_64_0) (fun _ => rfl)).view.loc (tile d L) ↦[((s3W).slice (Rect.unit (s := S256x128) ![64, 0] S64x128.size inb_S256x128_S64x128_64_0) (fun _ => rfl)).view.set]{fullShare} Gb) ∗ ((s0W).view.loc (tile d L) ↦[SIb]{fullShare.left.right} I0)) ∗ ((y1W).view.loc (tile d L) ↦[((y1W).slice (Rect.unit (s := S10240x128) ![0, 0] S10240x128.size inb_S10240x128_S10240x128_0_0) (fun _ => rfl)).view.set]{q.left.right} fy1))
    ∗ Transfers.Flight countersEmb (tile d L) (SemLoc.dma cc1_scratch8.sem) default 262144
        iprop(((((s4W).slice (Rect.unit (s := S256x128) ![0, 0] S64x128.size inb_S256x128_S64x128_0_0) (fun _ => rfl)).view.loc (tile d L) ↦[((s4W).slice (Rect.unit (s := S256x128) ![0, 0] S64x128.size inb_S256x128_S64x128_0_0) (fun _ => rfl)).view.set]{fullShare} Gc) ∗ ((s1W).view.loc (tile d L) ↦[SJa]{fullShare.left.left} I1)) ∗ ((y2W).view.loc (tile d L) ↦[((y2W).slice (Rect.unit (s := S10240x128) ![0, 0] S10240x128.size inb_S10240x128_S10240x128_0_0) (fun _ => rfl)).view.set]{q.left.left} fy2))
    ∗ Transfers.Flight countersEmb (tile d L) (SemLoc.dma cc1_scratch9.sem) default 262144
        iprop(((((s4W).slice (Rect.unit (s := S256x128) ![64, 0] S64x128.size inb_S256x128_S64x128_64_0) (fun _ => rfl)).view.loc (tile d L) ↦[((s4W).slice (Rect.unit (s := S256x128) ![64, 0] S64x128.size inb_S256x128_S64x128_64_0) (fun _ => rfl)).view.set]{fullShare} Gd) ∗ ((s1W).view.loc (tile d L) ↦[SJb]{fullShare.left.right} I1)) ∗ ((y2W).view.loc (tile d L) ↦[((y2W).slice (Rect.unit (s := S10240x128) ![0, 0] S10240x128.size inb_S10240x128_S10240x128_0_0) (fun _ => rfl)).view.set]{q.left.right} fy2))
    ∗ ((s0W).view.loc (tile d L) ↦[Finset.univ \ SIa]{fullShare.left.left} I0) ∗ ((s0W).view.loc (tile d L) ↦[Finset.univ \ SIb]{fullShare.left.right} I0)
    ∗ ((s0W).view.loc (tile d L) ↦{fullShare.right.left} I0) ∗ ((s0W).view.loc (tile d L) ↦{fullShare.right.right} I0)
    ∗ ((s1W).view.loc (tile d L) ↦[Finset.univ \ SJa]{fullShare.left.left} I1) ∗ ((s1W).view.loc (tile d L) ↦[Finset.univ \ SJb]{fullShare.left.right} I1)
    ∗ ((s1W).view.loc (tile d L) ↦{fullShare.right.left} I1) ∗ ((s1W).view.loc (tile d L) ↦{fullShare.right.right} I1)
    ∗ ((y1W).view.loc (tile d L) ↦[Finset.univ \ ((y1W).slice (Rect.unit (s := S10240x128) ![0, 0] S10240x128.size inb_S10240x128_S10240x128_0_0) (fun _ => rfl)).view.set]{q.left.left} fy1) ∗ ((y1W).view.loc (tile d L) ↦[Finset.univ \ ((y1W).slice (Rect.unit (s := S10240x128) ![0, 0] S10240x128.size inb_S10240x128_S10240x128_0_0) (fun _ => rfl)).view.set]{q.left.right} fy1)
    ∗ ((y1W).view.loc (tile d L) ↦{q.right.left} fy1) ∗ ((y1W).view.loc (tile d L) ↦{q.right.right} fy1)
    ∗ ((y2W).view.loc (tile d L) ↦[Finset.univ \ ((y2W).slice (Rect.unit (s := S10240x128) ![0, 0] S10240x128.size inb_S10240x128_S10240x128_0_0) (fun _ => rfl)).view.set]{q.left.left} fy2) ∗ ((y2W).view.loc (tile d L) ↦[Finset.univ \ ((y2W).slice (Rect.unit (s := S10240x128) ![0, 0] S10240x128.size inb_S10240x128_S10240x128_0_0) (fun _ => rfl)).view.set]{q.left.right} fy2)
    ∗ ((y2W).view.loc (tile d L) ↦{q.right.left} fy2) ∗ ((y2W).view.loc (tile d L) ↦{q.right.right} fy2)
    ∗ semVal (tile d L, SemLoc.dma cc1_scratch10.sem) 0 ∗ semVal (tile d L, SemLoc.dma cc1_scratch11.sem) 0
    ∗ semVal (tile d L, SemLoc.dma cc1_scratch12.sem) 0 ∗ semVal (tile d L, SemLoc.dma cc1_scratch13.sem) 0
    ∗ owes (tile d L) O W)

/-- The tile's state with nothing in flight: every window, every share, all eight semaphores at zero. -/
def idle (d : Dev nD) (L : grid1.Coords) (q : PosShare TreeShare)
    (fy1 : Buf (Elt F) ((y1W).view.loc (tile d L))) (fy2 : Buf (Elt F) ((y2W).view.loc (tile d L)))
    (I0 : Buf (Elt F) ((s0W).view.loc (tile d L))) (I1 : Buf (Elt F) ((s1W).view.loc (tile d L))) (G2 : Buf (Elt F) ((s2W).view.loc (tile d L)))
    (Ga : Buf (Elt F) (((s3W).slice (Rect.unit (s := S256x128) ![0, 0] S64x128.size inb_S256x128_S64x128_0_0) (fun _ => rfl)).view.loc (tile d L))) (Gb : Buf (Elt F) (((s3W).slice (Rect.unit (s := S256x128) ![64, 0] S64x128.size inb_S256x128_S64x128_64_0) (fun _ => rfl)).view.loc (tile d L))) (G3c : Buf (Elt F) (((s3W).slice (Rect.unit (s := S256x128) ![128, 0] S64x128.size inb_S256x128_S64x128_128_0) (fun _ => rfl)).view.loc (tile d L))) (G3d : Buf (Elt F) (((s3W).slice (Rect.unit (s := S256x128) ![192, 0] S64x128.size inb_S256x128_S64x128_192_0) (fun _ => rfl)).view.loc (tile d L)))
    (Gc : Buf (Elt F) (((s4W).slice (Rect.unit (s := S256x128) ![0, 0] S64x128.size inb_S256x128_S64x128_0_0) (fun _ => rfl)).view.loc (tile d L))) (Gd : Buf (Elt F) (((s4W).slice (Rect.unit (s := S256x128) ![64, 0] S64x128.size inb_S256x128_S64x128_64_0) (fun _ => rfl)).view.loc (tile d L))) (G4c : Buf (Elt F) (((s4W).slice (Rect.unit (s := S256x128) ![128, 0] S64x128.size inb_S256x128_S64x128_128_0) (fun _ => rfl)).view.loc (tile d L))) (G4d : Buf (Elt F) (((s4W).slice (Rect.unit (s := S256x128) ![192, 0] S64x128.size inb_S256x128_S64x128_192_0) (fun _ => rfl)).view.loc (tile d L)))
    (G5 : Buf (Elt F) ((s5W).view.loc (tile d L)))
    (O : CellTallies nD τ sig (HIx 1)) (W : Waits sig (HIx 1)) : sProp 𝕄 :=
  iprop((Transfers.MayWaits (tile d L) (none : HIx 1) O : sProp 𝕄)
    ∗ ((s2W).view.loc (tile d L) ↦{fullShare} G2) ∗ ((s5W).view.loc (tile d L) ↦{fullShare} G5)
    ∗ (((s3W).slice (Rect.unit (s := S256x128) ![0, 0] S64x128.size inb_S256x128_S64x128_0_0) (fun _ => rfl)).view.loc (tile d L) ↦[((s3W).slice (Rect.unit (s := S256x128) ![0, 0] S64x128.size inb_S256x128_S64x128_0_0) (fun _ => rfl)).view.set]{fullShare} Ga) ∗ (((s3W).slice (Rect.unit (s := S256x128) ![64, 0] S64x128.size inb_S256x128_S64x128_64_0) (fun _ => rfl)).view.loc (tile d L) ↦[((s3W).slice (Rect.unit (s := S256x128) ![64, 0] S64x128.size inb_S256x128_S64x128_64_0) (fun _ => rfl)).view.set]{fullShare} Gb) ∗ (((s3W).slice (Rect.unit (s := S256x128) ![128, 0] S64x128.size inb_S256x128_S64x128_128_0) (fun _ => rfl)).view.loc (tile d L) ↦[((s3W).slice (Rect.unit (s := S256x128) ![128, 0] S64x128.size inb_S256x128_S64x128_128_0) (fun _ => rfl)).view.set]{fullShare} G3c) ∗ (((s3W).slice (Rect.unit (s := S256x128) ![192, 0] S64x128.size inb_S256x128_S64x128_192_0) (fun _ => rfl)).view.loc (tile d L) ↦[((s3W).slice (Rect.unit (s := S256x128) ![192, 0] S64x128.size inb_S256x128_S64x128_192_0) (fun _ => rfl)).view.set]{fullShare} G3d)
    ∗ (((s4W).slice (Rect.unit (s := S256x128) ![0, 0] S64x128.size inb_S256x128_S64x128_0_0) (fun _ => rfl)).view.loc (tile d L) ↦[((s4W).slice (Rect.unit (s := S256x128) ![0, 0] S64x128.size inb_S256x128_S64x128_0_0) (fun _ => rfl)).view.set]{fullShare} Gc) ∗ (((s4W).slice (Rect.unit (s := S256x128) ![64, 0] S64x128.size inb_S256x128_S64x128_64_0) (fun _ => rfl)).view.loc (tile d L) ↦[((s4W).slice (Rect.unit (s := S256x128) ![64, 0] S64x128.size inb_S256x128_S64x128_64_0) (fun _ => rfl)).view.set]{fullShare} Gd) ∗ (((s4W).slice (Rect.unit (s := S256x128) ![128, 0] S64x128.size inb_S256x128_S64x128_128_0) (fun _ => rfl)).view.loc (tile d L) ↦[((s4W).slice (Rect.unit (s := S256x128) ![128, 0] S64x128.size inb_S256x128_S64x128_128_0) (fun _ => rfl)).view.set]{fullShare} G4c) ∗ (((s4W).slice (Rect.unit (s := S256x128) ![192, 0] S64x128.size inb_S256x128_S64x128_192_0) (fun _ => rfl)).view.loc (tile d L) ↦[((s4W).slice (Rect.unit (s := S256x128) ![192, 0] S64x128.size inb_S256x128_S64x128_192_0) (fun _ => rfl)).view.set]{fullShare} G4d)
    ∗ ((s0W).view.loc (tile d L) ↦{fullShare.left.left} I0) ∗ ((s0W).view.loc (tile d L) ↦{fullShare.left.right} I0) ∗ ((s0W).view.loc (tile d L) ↦{fullShare.right.left} I0) ∗ ((s0W).view.loc (tile d L) ↦{fullShare.right.right} I0)
    ∗ ((s1W).view.loc (tile d L) ↦{fullShare.left.left} I1) ∗ ((s1W).view.loc (tile d L) ↦{fullShare.left.right} I1) ∗ ((s1W).view.loc (tile d L) ↦{fullShare.right.left} I1) ∗ ((s1W).view.loc (tile d L) ↦{fullShare.right.right} I1)
    ∗ ((y1W).view.loc (tile d L) ↦{q.left.left} fy1) ∗ ((y1W).view.loc (tile d L) ↦{q.left.right} fy1) ∗ ((y1W).view.loc (tile d L) ↦{q.right.left} fy1) ∗ ((y1W).view.loc (tile d L) ↦{q.right.right} fy1)
    ∗ ((y2W).view.loc (tile d L) ↦{q.left.left} fy2) ∗ ((y2W).view.loc (tile d L) ↦{q.left.right} fy2) ∗ ((y2W).view.loc (tile d L) ↦{q.right.left} fy2) ∗ ((y2W).view.loc (tile d L) ↦{q.right.right} fy2)
    ∗ semVal (tile d L, SemLoc.dma cc1_scratch6.sem) 0 ∗ semVal (tile d L, SemLoc.dma cc1_scratch7.sem) 0 ∗ semVal (tile d L, SemLoc.dma cc1_scratch8.sem) 0 ∗ semVal (tile d L, SemLoc.dma cc1_scratch9.sem) 0 ∗ semVal (tile d L, SemLoc.dma cc1_scratch10.sem) 0 ∗ semVal (tile d L, SemLoc.dma cc1_scratch11.sem) 0 ∗ semVal (tile d L, SemLoc.dma cc1_scratch12.sem) 0 ∗ semVal (tile d L, SemLoc.dma cc1_scratch13.sem) 0
    ∗ owes (tile d L) O W)

omit [FloatOps F] in
theorem cond1_all (k : Fin k1_t1_loop.trips) : k1_cond1 k = 1#1 := by revert k; decide +kernel
omit [FloatOps F] in
theorem cond2_pos (k : Fin k1_t1_loop.trips) : k1_cond2 k = 1#1 → k.val + 1 < 20 := by revert k; decide +kernel
omit [FloatOps F] in
theorem cond2_neg (k : Fin k1_t1_loop.trips) : ¬ k1_cond2 k = 1#1 → ¬ k.val + 1 < 20 := by revert k; decide +kernel

set_option maxHeartbeats 16000000 in
theorem trip (d : Dev nD) (L : grid1.Coords) (q : PosShare TreeShare)
    (fy1 : Buf (Elt F) ((y1W).view.loc (tile d L))) (fy2 : Buf (Elt F) ((y2W).view.loc (tile d L)))
    (I0 : Buf (Elt F) ((s0W).view.loc (tile d L))) (I1 : Buf (Elt F) ((s1W).view.loc (tile d L))) (G2 : Buf (Elt F) ((s2W).view.loc (tile d L)))
    (Ga : Buf (Elt F) (((s3W).slice (Rect.unit (s := S256x128) ![0, 0] S64x128.size inb_S256x128_S64x128_0_0) (fun _ => rfl)).view.loc (tile d L))) (Gb : Buf (Elt F) (((s3W).slice (Rect.unit (s := S256x128) ![64, 0] S64x128.size inb_S256x128_S64x128_64_0) (fun _ => rfl)).view.loc (tile d L))) (G3c : Buf (Elt F) (((s3W).slice (Rect.unit (s := S256x128) ![128, 0] S64x128.size inb_S256x128_S64x128_128_0) (fun _ => rfl)).view.loc (tile d L))) (G3d : Buf (Elt F) (((s3W).slice (Rect.unit (s := S256x128) ![192, 0] S64x128.size inb_S256x128_S64x128_192_0) (fun _ => rfl)).view.loc (tile d L)))
    (Gc : Buf (Elt F) (((s4W).slice (Rect.unit (s := S256x128) ![0, 0] S64x128.size inb_S256x128_S64x128_0_0) (fun _ => rfl)).view.loc (tile d L))) (Gd : Buf (Elt F) (((s4W).slice (Rect.unit (s := S256x128) ![64, 0] S64x128.size inb_S256x128_S64x128_64_0) (fun _ => rfl)).view.loc (tile d L))) (G4c : Buf (Elt F) (((s4W).slice (Rect.unit (s := S256x128) ![128, 0] S64x128.size inb_S256x128_S64x128_128_0) (fun _ => rfl)).view.loc (tile d L))) (G4d : Buf (Elt F) (((s4W).slice (Rect.unit (s := S256x128) ![192, 0] S64x128.size inb_S256x128_S64x128_192_0) (fun _ => rfl)).view.loc (tile d L)))
    (G5 : Buf (Elt F) ((s5W).view.loc (tile d L)))
    (SIa SIb : Finset S5120.Idx) (SJa SJb : Finset S5120.Idx)
    (O : CellTallies nD τ sig (HIx 1)) (W : Waits sig (HIx 1)) (k : Fin k1_t1_loop.trips)
    (hI0 : ∀ j, (I0 j).toNat < 10240) (hI1 : ∀ j, (I1 j).toNat < 10240) (W₀ : Waits sig (HIx 1)) (hW' : ∀ p ∈ W, p ∈ W₀ ∨ p.2 = none) :
    pend d L q fy1 fy2 I0 I1 G2 Ga Gb G3c G3d Gc Gd G4c G4d G5 SIa SIb SJa SJb O W
      ⊢ wp frame (wpE (defs₀ (F := F)) 𝒱₀ (tile d L) none) Set.univ
          (k1_t1_body L y1W (Memref.isWhole_whole _) y2W (Memref.isWhole_whole _) iiW (Memref.isWhole_whole _) ijW (Memref.isWhole_whole _)
            spW (Memref.isWhole_whole _) ouW (Memref.isWhole_whole _) s0W (Memref.isWhole_whole _) s1W (Memref.isWhole_whole _) s2W (Memref.isWhole_whole _)
            s3W (Memref.isWhole_whole _) s4W (Memref.isWhole_whole _) s5W (Memref.isWhole_whole _)
            cc1_scratch6 cc1_scratch7 cc1_scratch8 cc1_scratch9 cc1_scratch10 cc1_scratch11 cc1_scratch12 cc1_scratch13 cc1_scoped0 cc1_scoped1 cc1_scoped2 cc1_scoped3 k ())
          (fun _ => if k.val + 1 < 20 then
              iprop(∃ G5' W', ⌜∀ p ∈ W', p ∈ W₀ ∨ p.2 = none⌝ ∗
                ∃ Ga' Gb' G3c' G3d' Gc' Gd' G4c' G4d' SIa' SIb' SJa' SJb', pend d L q fy1 fy2 I0 I1 G2 Ga' Gb' G3c' G3d' Gc' Gd' G4c' G4d' G5' SIa' SIb' SJa' SJb' O W')
            else iprop(∃ G5' W', ⌜∀ p ∈ W', p ∈ W₀ ∨ p.2 = none⌝ ∗
                ∃ Ga' Gb' G3c' G3d' Gc' Gd' G4c' G4d', idle d L q fy1 fy2 I0 I1 G2 Ga' Gb' G3c' G3d' Gc' Gd' G4c' G4d' G5' O W')) := by
  unfold k1_t1_body
  simp only [k1_part73_eq_skeleton, k1_part74_eq_skeleton]; unfold k1_part73_skel k1_part74_skel
  delta pend
  iintro ⟨Hmw, H2, H5, H3c, H3d, H4c, H4d, Hf6, Hf7, Hf8, Hf9, H0a, H0b, H0c, H0d, H1a, H1b, H1c, H1d, Hy1a, Hy1b, Hy1c, Hy1d, Hy2a, Hy2b, Hy2c, Hy2d, Hm10, Hm11, Hm12, Hm13, HO⟩
  have k1_h1 : k1_cond1 k = 1#1 := cond1_all k
  have hinA : ∀ x, (((s0W).slice (Rect.unit (s := S5120) (k1_off2 k 0#32) S64.size (k1_off2_inb k k1_h1 0)) (fun _ => rfl)).view.read (Elt F) I0 x).toNat < 10240 := fun x => by rw [View.read_apply]; exact hI0 _
  have hinB : ∀ x, (((s1W).slice (Rect.unit (s := S5120) (k1_off2 k 0#32) S64.size (k1_off2_inb k k1_h1 0)) (fun _ => rfl)).view.read (Elt F) I1 x).toNat < 10240 := fun x => by rw [View.read_apply]; exact hI1 _
  have hinC : ∀ x, (((s0W).slice (Rect.unit (s := S5120) (k1_off2 k 64#32) S64.size (k1_off2_inb k k1_h1 1)) (fun _ => rfl)).view.read (Elt F) I0 x).toNat < 10240 := fun x => by rw [View.read_apply]; exact hI0 _
  have hinD : ∀ x, (((s1W).slice (Rect.unit (s := S5120) (k1_off2 k 64#32) S64.size (k1_off2_inb k k1_h1 1)) (fun _ => rfl)).view.read (Elt F) I1 x).toNat < 10240 := fun x => by rw [View.read_apply]; exact hI1 _
  sl_exec
  sl_rw [bind_assoc]
  sl_for (invIn0 d L G2) $$ [H2 Hf6_dst Hf7_dst Hf8_dst Hf9_dst H5]
  case region =>
    intro n acc
    exact inner0_trip d L G2 k _ _ n _
  · delta invIn0
    iexists _; iexists _; iexists _; iexists _; iexists _
    isplitl [H2]; · iexact H2
    isplitl [Hf6_dst]; · iexact Hf6_dst
    isplitl [Hf7_dst]; · iexact Hf7_dst
    isplitl [Hf8_dst]; · iexact Hf8_dst
    isplitl [Hf9_dst]; · iexact Hf9_dst
    iexact H5
  iintro %_ HI
  delta invIn0
  icases HI with ⟨%G3a', %G3b', %G4a', %G4b', %G5', H2, H3a, H3b, H4a, H4b, H5⟩
  by_cases k1_h2 : k1_cond2 k = 1#1
  · have hlt : k.val + 1 < 20 := cond2_pos k k1_h2
    have hinE : ∀ x, (((s0W).slice (Rect.unit (s := S5120) (k1_off21 k 0#32) S64.size (k1_off21_inb k k1_h2 0)) (fun _ => rfl)).view.read (Elt F) I0 x).toNat < 10240 := fun x => by rw [View.read_apply]; exact hI0 _
    have hinF : ∀ x, (((s1W).slice (Rect.unit (s := S5120) (k1_off21 k 0#32) S64.size (k1_off21_inb k k1_h2 0)) (fun _ => rfl)).view.read (Elt F) I1 x).toNat < 10240 := fun x => by rw [View.read_apply]; exact hI1 _
    have hinG : ∀ x, (((s0W).slice (Rect.unit (s := S5120) (k1_off21 k 64#32) S64.size (k1_off21_inb k k1_h2 1)) (fun _ => rfl)).view.read (Elt F) I0 x).toNat < 10240 := fun x => by rw [View.read_apply]; exact hI0 _
    have hinH : ∀ x, (((s1W).slice (Rect.unit (s := S5120) (k1_off21 k 64#32) S64.size (k1_off21_inb k k1_h2 1)) (fun _ => rfl)).view.read (Elt F) I1 x).toNat < 10240 := fun x => by rw [View.read_apply]; exact hI1 _
    sl_exec
    sl_for (invIn1 d L G2) $$ [H2 H3c H3d H4c H4d H5]
    case region =>
      intro n acc
      exact inner1_trip d L G2 k _ n _
    · delta invIn1
      iexists _; iexists _; iexists _; iexists _; iexists _
      isplitl [H2]; · iexact H2
      isplitl [H3c]; · iexact H3c
      isplitl [H3d]; · iexact H3d
      isplitl [H4c]; · iexact H4c
      isplitl [H4d]; · iexact H4d
      iexact H5
    iintro %_ HI
    delta invIn1
    icases HI with ⟨%G3c', %G3d', %G4c', %G4d', %G5'', H2, H3c, H3d, H4c, H4d, H5⟩
    sl_exec
    sl_step
    rw [if_pos hlt]
    iexists G5''; iexists (insert (SemLoc.dma cc1_scratch13.sem, (default : HIx 1)) (insert (SemLoc.dma cc1_scratch11.sem, (default : HIx 1)) (insert (SemLoc.dma cc1_scratch12.sem, (default : HIx 1)) (insert (SemLoc.dma cc1_scratch10.sem, (default : HIx 1)) (insert (SemLoc.dma cc1_scratch9.sem, (default : HIx 1)) (insert (SemLoc.dma cc1_scratch7.sem, (default : HIx 1)) (insert (SemLoc.dma cc1_scratch8.sem, (default : HIx 1)) (insert (SemLoc.dma cc1_scratch6.sem, (default : HIx 1)) W)))))))); isplitr
    · ipureintro; intro p hp
      simp only [Finset.mem_insert] at hp
      rcases hp with rfl | rfl | rfl | rfl | rfl | rfl | rfl | rfl | hp
      all_goals first | exact .inr rfl | exact hW' p hp
    iexists _; iexists _; iexists _; iexists _; iexists _; iexists _; iexists _; iexists _; iexists _; iexists _; iexists _; iexists _
    isplitl [Hmw]; · iexact Hmw
    isplitl [H2]; · iexact H2
    isplitl [H5]; · iexact H5
    isplitl [H3c]; · iexact H3c
    isplitl [H3d]; · iexact H3d
    isplitl [H4c]; · iexact H4c
    isplitl [H4d]; · iexact H4d
    isplitl [Hf6]; · iexact Hf6
    isplitl [Hf7]; · iexact Hf7
    isplitl [Hf8]; · iexact Hf8
    isplitl [Hf9]; · iexact Hf9
    isplitl [H0a]; · iexact H0a
    isplitl [H0b]; · iexact H0b
    isplitl [H0c]; · iexact H0c
    isplitl [H0d]; · iexact H0d
    isplitl [H1a]; · iexact H1a
    isplitl [H1b]; · iexact H1b
    isplitl [H1c]; · iexact H1c
    isplitl [H1d]; · iexact H1d
    isplitl [Hy1a]; · iexact Hy1a
    isplitl [Hy1b]; · iexact Hy1b
    isplitl [Hy1c]; · iexact Hy1c
    isplitl [Hy1d]; · iexact Hy1d
    isplitl [Hy2a]; · iexact Hy2a
    isplitl [Hy2b]; · iexact Hy2b
    isplitl [Hy2c]; · iexact Hy2c
    isplitl [Hy2d]; · iexact Hy2d
    isplitl [Hm10]; · iexact Hm10
    isplitl [Hm11]; · iexact Hm11
    isplitl [Hm12]; · iexact Hm12
    isplitl [Hm13]; · iexact Hm13
    iexact HO
  · have hge : ¬ k.val + 1 < 20 := cond2_neg k k1_h2
    sl_exec
    sl_for (invIn1 d L G2) $$ [H2 H3c H3d H4c H4d H5]
    case region =>
      intro n acc
      exact inner1_trip d L G2 k _ n _
    · delta invIn1
      iexists _; iexists _; iexists _; iexists _; iexists _
      isplitl [H2]; · iexact H2
      isplitl [H3c]; · iexact H3c
      isplitl [H3d]; · iexact H3d
      isplitl [H4c]; · iexact H4c
      isplitl [H4d]; · iexact H4d
      iexact H5
    iintro %_ HI
    delta invIn1
    icases HI with ⟨%G3c', %G3d', %G4c', %G4d', %G5'', H2, H3c, H3d, H4c, H4d, H5⟩
    sl_exec
    sl_step
    rw [if_neg hge]
    iexists G5''; iexists (insert (SemLoc.dma cc1_scratch13.sem, (default : HIx 1)) (insert (SemLoc.dma cc1_scratch11.sem, (default : HIx 1)) (insert (SemLoc.dma cc1_scratch12.sem, (default : HIx 1)) (insert (SemLoc.dma cc1_scratch10.sem, (default : HIx 1)) (insert (SemLoc.dma cc1_scratch9.sem, (default : HIx 1)) (insert (SemLoc.dma cc1_scratch7.sem, (default : HIx 1)) (insert (SemLoc.dma cc1_scratch8.sem, (default : HIx 1)) (insert (SemLoc.dma cc1_scratch6.sem, (default : HIx 1)) W)))))))); isplitr
    · ipureintro; intro p hp
      simp only [Finset.mem_insert] at hp
      rcases hp with rfl | rfl | rfl | rfl | rfl | rfl | rfl | rfl | hp
      all_goals first | exact .inr rfl | exact hW' p hp
    iexists _; iexists _; iexists _; iexists _; iexists _; iexists _; iexists _; iexists _
    delta idle
    isplitl [Hmw]; · iexact Hmw
    isplitl [H2]; · iexact H2
    isplitl [H5]; · iexact H5
    isplitl [H3a]; · iexact H3a
    isplitl [H3b]; · iexact H3b
    isplitl [H3c]; · iexact H3c
    isplitl [H3d]; · iexact H3d
    isplitl [H4a]; · iexact H4a
    isplitl [H4b]; · iexact H4b
    isplitl [H4c]; · iexact H4c
    isplitl [H4d]; · iexact H4d
    isplitl [H0a]; · iexact H0a
    isplitl [H0b]; · iexact H0b
    isplitl [H0c]; · iexact H0c
    isplitl [H0d]; · iexact H0d
    isplitl [H1a]; · iexact H1a
    isplitl [H1b]; · iexact H1b
    isplitl [H1c]; · iexact H1c
    isplitl [H1d]; · iexact H1d
    isplitl [Hy1a]; · iexact Hy1a
    isplitl [Hy1b]; · iexact Hy1b
    isplitl [Hy1c]; · iexact Hy1c
    isplitl [Hy1d]; · iexact Hy1d
    isplitl [Hy2a]; · iexact Hy2a
    isplitl [Hy2b]; · iexact Hy2b
    isplitl [Hy2c]; · iexact Hy2c
    isplitl [Hy2d]; · iexact Hy2d
    isplitl [Hf6]; · iexact Hf6
    isplitl [Hf7]; · iexact Hf7
    isplitl [Hf8]; · iexact Hf8
    isplitl [Hf9]; · iexact Hf9
    isplitl [Hm10]; · iexact Hm10
    isplitl [Hm11]; · iexact Hm11
    isplitl [Hm12]; · iexact Hm12
    isplitl [Hm13]; · iexact Hm13
    iexact HO

end Cert.Proof.KB

end
-- ==== Proof.QuartersB.lean ====
/-
  A 256-row scratch buffer as its four 64-row windows: the rectangles the kernel's indexed copies land in are the four parts of the
  buffer along its first axis, pairwise disjoint and together all of it; so the buffer held whole is its four windows held side by side,
  and back (the windows' contents glued).
-/
import proofs.«205997_g24756191494465_cont_8to1_1595_42_alg».proof.Proof.TileCtxB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "y1W" => (Memref.whole Cert.Kernel.main_v10_0_scv : Memref Cert.Kernel.sig Kind.scVector Space.hbm Cert.Kernel.S10240x128 EltTy.f32)
local notation "y2W" => (Memref.whole Cert.Kernel.main_v10_1_scv : Memref Cert.Kernel.sig Kind.scVector Space.hbm Cert.Kernel.S10240x128 EltTy.f32)
local notation "iiW" => (Memref.whole Cert.Kernel.main_v14_scv : Memref Cert.Kernel.sig Kind.scVector Space.hbm Cert.Kernel.S163840 EltTy.i32)
local notation "ijW" => (Memref.whole Cert.Kernel.main_v16_scv : Memref Cert.Kernel.sig Kind.scVector Space.hbm Cert.Kernel.S163840 EltTy.i32)
local notation "spW" => (Memref.whole Cert.Kernel.main_v17_scv : Memref Cert.Kernel.sig Kind.scVector Space.hbm Cert.Kernel.S163840 EltTy.f32)
local notation "ouW" => (Memref.whole Cert.Kernel.main_v18_scv : Memref Cert.Kernel.sig Kind.scVector Space.hbm Cert.Kernel.S10240x128 EltTy.f32)
local notation "s0W" => (Memref.whole Cert.Kernel.cc1_scratch0 : Memref Cert.Kernel.sig Kind.scVector Space.vmem Cert.Kernel.S5120 EltTy.i32)
local notation "s1W" => (Memref.whole Cert.Kernel.cc1_scratch1 : Memref Cert.Kernel.sig Kind.scVector Space.vmem Cert.Kernel.S5120 EltTy.i32)
local notation "s2W" => (Memref.whole Cert.Kernel.cc1_scratch2 : Memref Cert.Kernel.sig Kind.scVector Space.vmem Cert.Kernel.S5120 EltTy.f32)
local notation "s3W" => (Memref.whole Cert.Kernel.cc1_scratch3 : Memref Cert.Kernel.sig Kind.scVector Space.vmem Cert.Kernel.S256x128 EltTy.f32)
local notation "s4W" => (Memref.whole Cert.Kernel.cc1_scratch4 : Memref Cert.Kernel.sig Kind.scVector Space.vmem Cert.Kernel.S256x128 EltTy.f32)
local notation "s5W" => (Memref.whole Cert.Kernel.cc1_scratch5 : Memref Cert.Kernel.sig Kind.scVector Space.vmem Cert.Kernel.S320x128 EltTy.f32)

variable [FloatOps F]

omit [FloatOps F] in
theorem hdiv4 : 4 ∣ S256x128.size 0 := ⟨64, rfl⟩
/-- Window `j` of four. -/
abbrev Qr (j : Fin 4) : Rect S256x128 := Rect.part (s := S256x128) (a₀ := 0) hdiv4 j

omit [FloatOps F] in
theorem qr_eq (j : Fin 4) (h : ∀ a, (![64 * j.val, 0] : Fin 2 → Nat) a + S64x128.size a ≤ S256x128.size a) :
    Rect.unit (s := S256x128) ![64 * j.val, 0] S64x128.size h = Qr j := by
  unfold Qr Rect.part Rect.block
  congr 1 <;> funext a
  · match a with
    | 0 => simp [Shape.partIx, Shape.partSize, Nat.mul_comm]
    | 1 => simp [Shape.partIx, Shape.partSize]
  · match a with
    | 0 => simp [Shape.partSize]
    | 1 => simp [Shape.partSize]

omit [FloatOps F] in
theorem dq (i j : Fin 4) (h : i ≠ j) : Disjoint (Qr i).set (Qr j).set := Rect.part_disjoint hdiv4 h
omit [FloatOps F] in
theorem cover4 : (Qr 0).set ∪ ((Qr 1).set ∪ ((Qr 2).set ∪ (Qr 3).set)) = Finset.univ := by
  have h := Rect.biUnion_part (s := S256x128) (a₀ := 0) hdiv4
  rw [show (Finset.univ : Finset (Fin 4)) = {0, 1, 2, 3} by decide, Finset.biUnion_insert, Finset.biUnion_insert, Finset.biUnion_insert,
    Finset.singleton_biUnion] at h
  exact h

omit [FloatOps F] in
theorem q3set_0 : ((s3W).slice (Rect.unit (s := S256x128) ![0, 0] S64x128.size inb_S256x128_S64x128_0_0) (fun _ => rfl)).view.set = (Qr 0).set := by
  show ((View.whole (cc1_scratch3 : Ref sig .scVector)).slice (Rect.unit (s := S256x128) ![0, 0] S64x128.size inb_S256x128_S64x128_0_0)).set = _
  rw [View.set_slice_whole]; exact congrArg (fun r : Rect S256x128 => r.set) (qr_eq 0 _)
omit [FloatOps F] in
theorem q3set_64 : ((s3W).slice (Rect.unit (s := S256x128) ![64, 0] S64x128.size inb_S256x128_S64x128_64_0) (fun _ => rfl)).view.set = (Qr 1).set := by
  show ((View.whole (cc1_scratch3 : Ref sig .scVector)).slice (Rect.unit (s := S256x128) ![64, 0] S64x128.size inb_S256x128_S64x128_64_0)).set = _
  rw [View.set_slice_whole]; exact congrArg (fun r : Rect S256x128 => r.set) (qr_eq 1 _)
omit [FloatOps F] in
theorem q3set_128 : ((s3W).slice (Rect.unit (s := S256x128) ![128, 0] S64x128.size inb_S256x128_S64x128_128_0) (fun _ => rfl)).view.set = (Qr 2).set := by
  show ((View.whole (cc1_scratch3 : Ref sig .scVector)).slice (Rect.unit (s := S256x128) ![128, 0] S64x128.size inb_S256x128_S64x128_128_0)).set = _
  rw [View.set_slice_whole]; exact congrArg (fun r : Rect S256x128 => r.set) (qr_eq 2 _)
omit [FloatOps F] in
theorem q3set_192 : ((s3W).slice (Rect.unit (s := S256x128) ![192, 0] S64x128.size inb_S256x128_S64x128_192_0) (fun _ => rfl)).view.set = (Qr 3).set := by
  show ((View.whole (cc1_scratch3 : Ref sig .scVector)).slice (Rect.unit (s := S256x128) ![192, 0] S64x128.size inb_S256x128_S64x128_192_0)).set = _
  rw [View.set_slice_whole]; exact congrArg (fun r : Rect S256x128 => r.set) (qr_eq 3 _)

/-- The buffer held whole is its four windows held side by side. -/
theorem s3_split (d : Dev nD) (L : grid1.Coords) (g : Buf (Elt F) ((s3W).view.loc (tile d L))) :
    ((s3W).view.loc (tile d L) ↦{fullShare} g : sProp 𝕄)
      ⊢ iprop((((s3W).slice (Rect.unit (s := S256x128) ![0, 0] S64x128.size inb_S256x128_S64x128_0_0) (fun _ => rfl)).view.loc (tile d L) ↦[((s3W).slice (Rect.unit (s := S256x128) ![0, 0] S64x128.size inb_S256x128_S64x128_0_0) (fun _ => rfl)).view.set]{fullShare} g)
        ∗ (((s3W).slice (Rect.unit (s := S256x128) ![64, 0] S64x128.size inb_S256x128_S64x128_64_0) (fun _ => rfl)).view.loc (tile d L) ↦[((s3W).slice (Rect.unit (s := S256x128) ![64, 0] S64x128.size inb_S256x128_S64x128_64_0) (fun _ => rfl)).view.set]{fullShare} g)
        ∗ (((s3W).slice (Rect.unit (s := S256x128) ![128, 0] S64x128.size inb_S256x128_S64x128_128_0) (fun _ => rfl)).view.loc (tile d L) ↦[((s3W).slice (Rect.unit (s := S256x128) ![128, 0] S64x128.size inb_S256x128_S64x128_128_0) (fun _ => rfl)).view.set]{fullShare} g)
        ∗ (((s3W).slice (Rect.unit (s := S256x128) ![192, 0] S64x128.size inb_S256x128_S64x128_192_0) (fun _ => rfl)).view.loc (tile d L) ↦[((s3W).slice (Rect.unit (s := S256x128) ![192, 0] S64x128.size inb_S256x128_S64x128_192_0) (fun _ => rfl)).view.set]{fullShare} g)) := by
  have h : ((s3W).view.loc (tile d L) ↦[(Finset.univ : Finset (Fin 4)).biUnion fun j => (Qr j).set]{fullShare} g : sProp 𝕄)
      = bigSep Finset.univ fun j : Fin 4 => (s3W).view.loc (tile d L) ↦[(Qr j).set]{fullShare} g :=
    pointsTo_biUnion _ _ (fun i _ j _ hij => Rect.part_disjoint hdiv4 hij)
  rw [Rect.biUnion_part hdiv4] at h
  rw [q3set_0, q3set_64, q3set_128, q3set_192]
  refine (Entails.of_eq h).trans ?_
  rw [show (Finset.univ : Finset (Fin 4)) = {0, 1, 2, 3} by decide, SparseCore.bigSep_insert' (by decide), SparseCore.bigSep_insert' (by decide),
    SparseCore.bigSep_insert' (by decide), bigSep_singleton]

/-- Four windows held side by side, each at contents of its own, are the buffer held whole at some contents. -/
theorem s3_join (d : Dev nD) (L : grid1.Coords) (ga gb gc gd : Buf (Elt F) ((s3W).view.loc (tile d L))) :
    iprop((((s3W).slice (Rect.unit (s := S256x128) ![0, 0] S64x128.size inb_S256x128_S64x128_0_0) (fun _ => rfl)).view.loc (tile d L) ↦[((s3W).slice (Rect.unit (s := S256x128) ![0, 0] S64x128.size inb_S256x128_S64x128_0_0) (fun _ => rfl)).view.set]{fullShare} ga)
        ∗ (((s3W).slice (Rect.unit (s := S256x128) ![64, 0] S64x128.size inb_S256x128_S64x128_64_0) (fun _ => rfl)).view.loc (tile d L) ↦[((s3W).slice (Rect.unit (s := S256x128) ![64, 0] S64x128.size inb_S256x128_S64x128_64_0) (fun _ => rfl)).view.set]{fullShare} gb)
        ∗ (((s3W).slice (Rect.unit (s := S256x128) ![128, 0] S64x128.size inb_S256x128_S64x128_128_0) (fun _ => rfl)).view.loc (tile d L) ↦[((s3W).slice (Rect.unit (s := S256x128) ![128, 0] S64x128.size inb_S256x128_S64x128_128_0) (fun _ => rfl)).view.set]{fullShare} gc)
        ∗ (((s3W).slice (Rect.unit (s := S256x128) ![192, 0] S64x128.size inb_S256x128_S64x128_192_0) (fun _ => rfl)).view.loc (tile d L) ↦[((s3W).slice (Rect.unit (s := S256x128) ![192, 0] S64x128.size inb_S256x128_S64x128_192_0) (fun _ => rfl)).view.set]{fullShare} gd))
      ⊢ (iprop(∃ g, (s3W).view.loc (tile d L) ↦{fullShare} g) : sProp 𝕄) := by
  rw [q3set_0, q3set_64, q3set_128, q3set_192]
  iintro ⟨Ha, Hb, Hc, Hd⟩
  ihave Hcd := (pointsTo_join (ℓ := (s3W).view.loc (tile d L)) (dq 2 3 (by decide))) $$ [Hc Hd]
  · isplitl [Hc]; · iexact Hc
    iexact Hd
  ihave Hbcd := (pointsTo_join (ℓ := (s3W).view.loc (tile d L)) (Finset.disjoint_union_right.mpr ⟨dq 1 2 (by decide), dq 1 3 (by decide)⟩)) $$ [Hb Hcd]
  · isplitl [Hb]; · iexact Hb
    iexact Hcd
  ihave Hall := (pointsTo_join (ℓ := (s3W).view.loc (tile d L)) (Finset.disjoint_union_right.mpr ⟨dq 0 1 (by decide), Finset.disjoint_union_right.mpr ⟨dq 0 2 (by decide), dq 0 3 (by decide)⟩⟩)) $$ [Ha Hbcd]
  · isplitl [Ha]; · iexact Ha
    iexact Hbcd
  rw [cover4]
  iexists _; iexact Hall

omit [FloatOps F] in
theorem q4set_0 : ((s4W).slice (Rect.unit (s := S256x128) ![0, 0] S64x128.size inb_S256x128_S64x128_0_0) (fun _ => rfl)).view.set = (Qr 0).set := by
  show ((View.whole (cc1_scratch4 : Ref sig .scVector)).slice (Rect.unit (s := S256x128) ![0, 0] S64x128.size inb_S256x128_S64x128_0_0)).set = _
  rw [View.set_slice_whole]; exact congrArg (fun r : Rect S256x128 => r.set) (qr_eq 0 _)
omit [FloatOps F] in
theorem q4set_64 : ((s4W).slice (Rect.unit (s := S256x128) ![64, 0] S64x128.size inb_S256x128_S64x128_64_0) (fun _ => rfl)).view.set = (Qr 1).set := by
  show ((View.whole (cc1_scratch4 : Ref sig .scVector)).slice (Rect.unit (s := S256x128) ![64, 0] S64x128.size inb_S256x128_S64x128_64_0)).set = _
  rw [View.set_slice_whole]; exact congrArg (fun r : Rect S256x128 => r.set) (qr_eq 1 _)
omit [FloatOps F] in
theorem q4set_128 : ((s4W).slice (Rect.unit (s := S256x128) ![128, 0] S64x128.size inb_S256x128_S64x128_128_0) (fun _ => rfl)).view.set = (Qr 2).set := by
  show ((View.whole (cc1_scratch4 : Ref sig .scVector)).slice (Rect.unit (s := S256x128) ![128, 0] S64x128.size inb_S256x128_S64x128_128_0)).set = _
  rw [View.set_slice_whole]; exact congrArg (fun r : Rect S256x128 => r.set) (qr_eq 2 _)
omit [FloatOps F] in
theorem q4set_192 : ((s4W).slice (Rect.unit (s := S256x128) ![192, 0] S64x128.size inb_S256x128_S64x128_192_0) (fun _ => rfl)).view.set = (Qr 3).set := by
  show ((View.whole (cc1_scratch4 : Ref sig .scVector)).slice (Rect.unit (s := S256x128) ![192, 0] S64x128.size inb_S256x128_S64x128_192_0)).set = _
  rw [View.set_slice_whole]; exact congrArg (fun r : Rect S256x128 => r.set) (qr_eq 3 _)

/-- The buffer held whole is its four windows held side by side. -/
theorem s4_split (d : Dev nD) (L : grid1.Coords) (g : Buf (Elt F) ((s4W).view.loc (tile d L))) :
    ((s4W).view.loc (tile d L) ↦{fullShare} g : sProp 𝕄)
      ⊢ iprop((((s4W).slice (Rect.unit (s := S256x128) ![0, 0] S64x128.size inb_S256x128_S64x128_0_0) (fun _ => rfl)).view.loc (tile d L) ↦[((s4W).slice (Rect.unit (s := S256x128) ![0, 0] S64x128.size inb_S256x128_S64x128_0_0) (fun _ => rfl)).view.set]{fullShare} g)
        ∗ (((s4W).slice (Rect.unit (s := S256x128) ![64, 0] S64x128.size inb_S256x128_S64x128_64_0) (fun _ => rfl)).view.loc (tile d L) ↦[((s4W).slice (Rect.unit (s := S256x128) ![64, 0] S64x128.size inb_S256x128_S64x128_64_0) (fun _ => rfl)).view.set]{fullShare} g)
        ∗ (((s4W).slice (Rect.unit (s := S256x128) ![128, 0] S64x128.size inb_S256x128_S64x128_128_0) (fun _ => rfl)).view.loc (tile d L) ↦[((s4W).slice (Rect.unit (s := S256x128) ![128, 0] S64x128.size inb_S256x128_S64x128_128_0) (fun _ => rfl)).view.set]{fullShare} g)
        ∗ (((s4W).slice (Rect.unit (s := S256x128) ![192, 0] S64x128.size inb_S256x128_S64x128_192_0) (fun _ => rfl)).view.loc (tile d L) ↦[((s4W).slice (Rect.unit (s := S256x128) ![192, 0] S64x128.size inb_S256x128_S64x128_192_0) (fun _ => rfl)).view.set]{fullShare} g)) := by
  have h : ((s4W).view.loc (tile d L) ↦[(Finset.univ : Finset (Fin 4)).biUnion fun j => (Qr j).set]{fullShare} g : sProp 𝕄)
      = bigSep Finset.univ fun j : Fin 4 => (s4W).view.loc (tile d L) ↦[(Qr j).set]{fullShare} g :=
    pointsTo_biUnion _ _ (fun i _ j _ hij => Rect.part_disjoint hdiv4 hij)
  rw [Rect.biUnion_part hdiv4] at h
  rw [q4set_0, q4set_64, q4set_128, q4set_192]
  refine (Entails.of_eq h).trans ?_
  rw [show (Finset.univ : Finset (Fin 4)) = {0, 1, 2, 3} by decide, SparseCore.bigSep_insert' (by decide), SparseCore.bigSep_insert' (by decide),
    SparseCore.bigSep_insert' (by decide), bigSep_singleton]

/-- Four windows held side by side, each at contents of its own, are the buffer held whole at some contents. -/
theorem s4_join (d : Dev nD) (L : grid1.Coords) (ga gb gc gd : Buf (Elt F) ((s4W).view.loc (tile d L))) :
    iprop((((s4W).slice (Rect.unit (s := S256x128) ![0, 0] S64x128.size inb_S256x128_S64x128_0_0) (fun _ => rfl)).view.loc (tile d L) ↦[((s4W).slice (Rect.unit (s := S256x128) ![0, 0] S64x128.size inb_S256x128_S64x128_0_0) (fun _ => rfl)).view.set]{fullShare} ga)
        ∗ (((s4W).slice (Rect.unit (s := S256x128) ![64, 0] S64x128.size inb_S256x128_S64x128_64_0) (fun _ => rfl)).view.loc (tile d L) ↦[((s4W).slice (Rect.unit (s := S256x128) ![64, 0] S64x128.size inb_S256x128_S64x128_64_0) (fun _ => rfl)).view.set]{fullShare} gb)
        ∗ (((s4W).slice (Rect.unit (s := S256x128) ![128, 0] S64x128.size inb_S256x128_S64x128_128_0) (fun _ => rfl)).view.loc (tile d L) ↦[((s4W).slice (Rect.unit (s := S256x128) ![128, 0] S64x128.size inb_S256x128_S64x128_128_0) (fun _ => rfl)).view.set]{fullShare} gc)
        ∗ (((s4W).slice (Rect.unit (s := S256x128) ![192, 0] S64x128.size inb_S256x128_S64x128_192_0) (fun _ => rfl)).view.loc (tile d L) ↦[((s4W).slice (Rect.unit (s := S256x128) ![192, 0] S64x128.size inb_S256x128_S64x128_192_0) (fun _ => rfl)).view.set]{fullShare} gd))
      ⊢ (iprop(∃ g, (s4W).view.loc (tile d L) ↦{fullShare} g) : sProp 𝕄) := by
  rw [q4set_0, q4set_64, q4set_128, q4set_192]
  iintro ⟨Ha, Hb, Hc, Hd⟩
  ihave Hcd := (pointsTo_join (ℓ := (s4W).view.loc (tile d L)) (dq 2 3 (by decide))) $$ [Hc Hd]
  · isplitl [Hc]; · iexact Hc
    iexact Hd
  ihave Hbcd := (pointsTo_join (ℓ := (s4W).view.loc (tile d L)) (Finset.disjoint_union_right.mpr ⟨dq 1 2 (by decide), dq 1 3 (by decide)⟩)) $$ [Hb Hcd]
  · isplitl [Hb]; · iexact Hb
    iexact Hcd
  ihave Hall := (pointsTo_join (ℓ := (s4W).view.loc (tile d L)) (Finset.disjoint_union_right.mpr ⟨dq 0 1 (by decide), Finset.disjoint_union_right.mpr ⟨dq 0 2 (by decide), dq 0 3 (by decide)⟩⟩)) $$ [Ha Hbcd]
  · isplitl [Ha]; · iexact Ha
    iexact Hbcd
  rw [cover4]
  iexists _; iexact Hall

end Cert.Proof.KB

end
-- ==== Proof.TileCoreB.lean ====
/-
  A tile's whole task: its three slices fetched, the first group's four row copies started, twenty trips of the outer loop, the output
  rows written back.  Frame level: what the task leaves in its scratch and in its output rows is left open; what it must know is that
  the fetched edge lists name rows of the node tables, so that every indexed copy completes.
-/
import proofs.«205997_g24756191494465_cont_8to1_1595_42_alg».proof.Proof.TripB
import proofs.«205997_g24756191494465_cont_8to1_1595_42_alg».proof.Proof.QuartersB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "y1W" => (Memref.whole Cert.Kernel.main_v10_0_scv : Memref Cert.Kernel.sig Kind.scVector Space.hbm Cert.Kernel.S10240x128 EltTy.f32)
local notation "y2W" => (Memref.whole Cert.Kernel.main_v10_1_scv : Memref Cert.Kernel.sig Kind.scVector Space.hbm Cert.Kernel.S10240x128 EltTy.f32)
local notation "iiW" => (Memref.whole Cert.Kernel.main_v14_scv : Memref Cert.Kernel.sig Kind.scVector Space.hbm Cert.Kernel.S163840 EltTy.i32)
local notation "ijW" => (Memref.whole Cert.Kernel.main_v16_scv : Memref Cert.Kernel.sig Kind.scVector Space.hbm Cert.Kernel.S163840 EltTy.i32)
local notation "spW" => (Memref.whole Cert.Kernel.main_v17_scv : Memref Cert.Kernel.sig Kind.scVector Space.hbm Cert.Kernel.S163840 EltTy.f32)
local notation "ouW" => (Memref.whole Cert.Kernel.main_v18_scv : Memref Cert.Kernel.sig Kind.scVector Space.hbm Cert.Kernel.S10240x128 EltTy.f32)
local notation "s0W" => (Memref.whole Cert.Kernel.cc1_scratch0 : Memref Cert.Kernel.sig Kind.scVector Space.vmem Cert.Kernel.S5120 EltTy.i32)
local notation "s1W" => (Memref.whole Cert.Kernel.cc1_scratch1 : Memref Cert.Kernel.sig Kind.scVector Space.vmem Cert.Kernel.S5120 EltTy.i32)
local notation "s2W" => (Memref.whole Cert.Kernel.cc1_scratch2 : Memref Cert.Kernel.sig Kind.scVector Space.vmem Cert.Kernel.S5120 EltTy.f32)
local notation "s3W" => (Memref.whole Cert.Kernel.cc1_scratch3 : Memref Cert.Kernel.sig Kind.scVector Space.vmem Cert.Kernel.S256x128 EltTy.f32)
local notation "s4W" => (Memref.whole Cert.Kernel.cc1_scratch4 : Memref Cert.Kernel.sig Kind.scVector Space.vmem Cert.Kernel.S256x128 EltTy.f32)
local notation "s5W" => (Memref.whole Cert.Kernel.cc1_scratch5 : Memref Cert.Kernel.sig Kind.scVector Space.vmem Cert.Kernel.S320x128 EltTy.f32)

variable [FloatOps F]

/-- The outer loop's invariant: before the last trip's end the next group's copies are in flight into slot 0; after it nothing is. -/
def Inv (d : Dev nD) (L : grid1.Coords) (q : PosShare TreeShare)
    (fy1 : Buf (Elt F) ((y1W).view.loc (tile d L))) (fy2 : Buf (Elt F) ((y2W).view.loc (tile d L)))
    (I0 : Buf (Elt F) ((s0W).view.loc (tile d L))) (I1 : Buf (Elt F) ((s1W).view.loc (tile d L))) (G2 : Buf (Elt F) ((s2W).view.loc (tile d L)))
    (O : CellTallies nD τ sig (HIx 1)) (W₀ : Waits sig (HIx 1)) (n : Nat) (_ : PUnit) : sProp 𝕄 :=
  if n < 20 then
    iprop(∃ G5 W', ⌜∀ p ∈ W', p ∈ W₀ ∨ p.2 = none⌝ ∗
      ∃ Ga Gb G3c G3d Gc Gd G4c G4d SIa SIb SJa SJb, pend d L q fy1 fy2 I0 I1 G2 Ga Gb G3c G3d Gc Gd G4c G4d G5 SIa SIb SJa SJb O W')
  else iprop(∃ G5 W', ⌜∀ p ∈ W', p ∈ W₀ ∨ p.2 = none⌝ ∗
      ∃ Ga Gb G3c G3d Gc Gd G4c G4d, idle d L q fy1 fy2 I0 I1 G2 Ga Gb G3c G3d Gc Gd G4c G4d G5 O W')

omit [FloatOps F] in
theorem trips_not_lt : ¬ k1_t1_loop.trips < 20 := by decide +kernel

set_option maxHeartbeats 32000000 in
theorem tile_core (d : Dev nD) (L : grid1.Coords) (q : PosShare TreeShare)
    (fy1 : Buf (Elt F) ((y1W).view.loc (tile d L))) (fy2 : Buf (Elt F) ((y2W).view.loc (tile d L)))
    (fi : Buf (Elt F) ((iiSl L).view.loc (tile d L))) (fj : Buf (Elt F) ((ijSl L).view.loc (tile d L)))
    (fs : Buf (Elt F) ((spSl L).view.loc (tile d L))) (fo : Buf (Elt F) ((ouSl L).view.loc (tile d L)))
    (g0 : Buf (Elt F) ((s0W).view.loc (tile d L))) (g1 : Buf (Elt F) ((s1W).view.loc (tile d L))) (g2 : Buf (Elt F) ((s2W).view.loc (tile d L)))
    (g3 : Buf (Elt F) ((s3W).view.loc (tile d L))) (g4 : Buf (Elt F) ((s4W).view.loc (tile d L))) (g5 : Buf (Elt F) ((s5W).view.loc (tile d L)))
    (O : CellTallies nD τ sig (HIx 1)) (W : Waits sig (HIx 1))
    (hfi : InRows (iiSl L).view.set fi) (hfj : InRows (ijSl L).view.set fj) :
    coreCtx d L q fy1 fy2 fi fj fs fo g0 g1 g2 g3 g4 g5 O W
      ⊢ wp frame (wpE (defs₀ (F := F)) 𝒱₀ (tile d L) none) Set.univ
          (cc1__sc_kernel L y1W (Memref.isWhole_whole _) y2W (Memref.isWhole_whole _) iiW (Memref.isWhole_whole _) ijW (Memref.isWhole_whole _)
            spW (Memref.isWhole_whole _) ouW (Memref.isWhole_whole _) s0W (Memref.isWhole_whole _) s1W (Memref.isWhole_whole _) s2W (Memref.isWhole_whole _)
            s3W (Memref.isWhole_whole _) s4W (Memref.isWhole_whole _) s5W (Memref.isWhole_whole _)
            cc1_scratch6 cc1_scratch7 cc1_scratch8 cc1_scratch9 cc1_scratch10 cc1_scratch11 cc1_scratch12 cc1_scratch13 cc1_scoped0 cc1_scoped1 cc1_scoped2 cc1_scoped3)
          fun _ => iprop(∃ fo' g0' g1' g2' g3' g4' g5' W', ⌜∀ p ∈ W', p ∈ W ∨ p.2 = none⌝ ∗ coreCtx d L q fy1 fy2 fi fj fs fo' g0' g1' g2' g3' g4' g5' O W') := by
  simp only [cc1__sc_kernel_eq_skeleton]; unfold cc1__sc_kernel_skel
  simp only [k1_part75_eq_skeleton]; unfold k1_part75_skel
  delta coreCtx
  iintro ⟨Hmw, Hy1, Hy2, Hi, Hj, Hs, Ho, H0, H1, H2, H3, H4, H5, Hm6, Hm7, Hm8, Hm9, Hm10, Hm11, Hm12, Hm13, Hr0, Hr1, Hr2, Hr3, HO⟩
  ihave Hy1' := ((pointsTo_share (PosShare.mem_left_op_right q)).1) $$ Hy1
  icases Hy1' with ⟨Hy1l, Hy1r⟩
  ihave Hy1l' := ((pointsTo_share (PosShare.mem_left_op_right (q).left)).1) $$ Hy1l
  icases Hy1l' with ⟨Hy1a, Hy1b⟩
  ihave Hy1r' := ((pointsTo_share (PosShare.mem_left_op_right (q).right)).1) $$ Hy1r
  icases Hy1r' with ⟨Hy1c, Hy1d⟩
  ihave Hy2' := ((pointsTo_share (PosShare.mem_left_op_right q)).1) $$ Hy2
  icases Hy2' with ⟨Hy2l, Hy2r⟩
  ihave Hy2l' := ((pointsTo_share (PosShare.mem_left_op_right (q).left)).1) $$ Hy2l
  icases Hy2l' with ⟨Hy2a, Hy2b⟩
  ihave Hy2r' := ((pointsTo_share (PosShare.mem_left_op_right (q).right)).1) $$ Hy2r
  icases Hy2r' with ⟨Hy2c, Hy2d⟩
  ihave H3' := (s3_split d L g3) $$ H3
  icases H3' with ⟨H3a, H3b, H3c, H3d⟩
  ihave H4' := (s4_split d L g4) $$ H4
  icases H4' with ⟨H4a, H4b, H4c, H4d⟩
  -- the three slices fetched
  sl_exec
  have e0 : (View.write (Elt F) (s0W).view g0 (tile_core.sl.dma0 d L fi) Finset.univ) = tile_core.sl.dma0 d L fi := View.write_whole_univ _ _ _
  have e1 : (View.write (Elt F) (s1W).view g1 (tile_core.sl.dma0_1 d L fj) Finset.univ) = tile_core.sl.dma0_1 d L fj := View.write_whole_univ _ _ _
  have hI0 : ∀ j, ((View.write (Elt F) (s0W).view g0 (tile_core.sl.dma0 d L fi) Finset.univ) j).toNat < 10240 := fun j => by
    rw [e0]; show ((iiSl L).view.read (Elt F) fi j).toNat < 10240
    rw [View.read_apply]; exact hfi _ (View.emb_mem_set _ _)
  have hI1 : ∀ j, ((View.write (Elt F) (s1W).view g1 (tile_core.sl.dma0_1 d L fj) Finset.univ) j).toNat < 10240 := fun j => by
    rw [e1]; show ((ijSl L).view.read (Elt F) fj j).toNat < 10240
    rw [View.read_apply]; exact hfj _ (View.emb_mem_set _ _)
  ihave H0' := ((pointsTo_share (PosShare.mem_left_op_right fullShare)).1) $$ H0
  icases H0' with ⟨H0l, H0r⟩
  ihave H0l' := ((pointsTo_share (PosShare.mem_left_op_right (fullShare).left)).1) $$ H0l
  icases H0l' with ⟨H0a, H0b⟩
  ihave H0r' := ((pointsTo_share (PosShare.mem_left_op_right (fullShare).right)).1) $$ H0r
  icases H0r' with ⟨H0c, H0d⟩
  ihave H1' := ((pointsTo_share (PosShare.mem_left_op_right fullShare)).1) $$ H1
  icases H1' with ⟨H1l, H1r⟩
  ihave H1l' := ((pointsTo_share (PosShare.mem_left_op_right (fullShare).left)).1) $$ H1l
  icases H1l' with ⟨H1a, H1b⟩
  ihave H1r' := ((pointsTo_share (PosShare.mem_left_op_right (fullShare).right)).1) $$ H1r
  icases H1r' with ⟨H1c, H1d⟩
  have hinA : ∀ x, (((s0W).slice (Rect.unit (s := S5120) ![0] S64.size inb_S5120_S64_0) (fun _ => rfl)).view.read (Elt F) (View.write (Elt F) (s0W).view g0 (tile_core.sl.dma0 d L fi) Finset.univ) x).toNat < 10240 := fun x => by rw [View.read_apply]; exact hI0 _
  have hinB : ∀ x, (((s1W).slice (Rect.unit (s := S5120) ![0] S64.size inb_S5120_S64_0) (fun _ => rfl)).view.read (Elt F) (View.write (Elt F) (s1W).view g1 (tile_core.sl.dma0_1 d L fj) Finset.univ) x).toNat < 10240 := fun x => by rw [View.read_apply]; exact hI1 _
  have hinC : ∀ x, (((s0W).slice (Rect.unit (s := S5120) ![64] S64.size inb_S5120_S64_64) (fun _ => rfl)).view.read (Elt F) (View.write (Elt F) (s0W).view g0 (tile_core.sl.dma0 d L fi) Finset.univ) x).toNat < 10240 := fun x => by rw [View.read_apply]; exact hI0 _
  have hinD : ∀ x, (((s1W).slice (Rect.unit (s := S5120) ![64] S64.size inb_S5120_S64_64) (fun _ => rfl)).view.read (Elt F) (View.write (Elt F) (s1W).view g1 (tile_core.sl.dma0_1 d L fj) Finset.univ) x).toNat < 10240 := fun x => by rw [View.read_apply]; exact hI1 _
  -- the first group's four row copies started
  sl_exec
  -- the outer loop, by its invariant
  sl_for (Inv d L q fy1 fy2 (View.write (Elt F) (s0W).view g0 (tile_core.sl.dma0 d L fi) Finset.univ) (View.write (Elt F) (s1W).view g1 (tile_core.sl.dma0_1 d L fj) Finset.univ) (View.write (Elt F) (s2W).view g2 (tile_core.sl.dma0_2 d L fs) Finset.univ) O W) $$ [Hmw H2 H5 H3c H3d H4c H4d Hm6 Hm7 Hm8 Hm9 H0a H0b H0c H0d H1a H1b H1c H1d Hy1a Hy1b Hy1c Hy1d Hy2a Hy2b Hy2c Hy2d Hm10 Hm11 Hm12 Hm13 HO]
  case region =>
    intro k acc
    delta Inv
    rw [if_pos (lt_of_lt_of_le k.isLt k1_t1_abs.2.1)]
    iintro ⟨%G5, %W', %hW', %Ga, %Gb, %G3c, %G3d, %Gc, %Gd, %G4c, %G4d, %SIa, %SIb, %SJa, %SJb, H⟩
    iapply (trip d L q fy1 fy2 _ _ _ Ga Gb G3c G3d Gc Gd G4c G4d G5 SIa SIb SJa SJb O W' k hI0 hI1 W hW') $$ H
  · delta Inv
    rw [if_pos (by decide : (0 : Nat) < 20)]
    iexists _; iexists (insert (SemLoc.dma cc1_scoped2.sem, (default : HIx 1)) (insert (SemLoc.dma cc1_scoped1.sem, (default : HIx 1)) (insert (SemLoc.dma cc1_scoped0.sem, (default : HIx 1)) W))); isplitr
    · ipureintro; intro p hp
      simp only [Finset.mem_insert] at hp
      rcases hp with rfl | rfl | rfl | hp
      all_goals first | exact .inr rfl | exact .inl hp
    iexists _; iexists _; iexists _; iexists _; iexists _; iexists _; iexists _; iexists _; iexists _; iexists _; iexists _; iexists _
    delta pend
    isplitl [Hmw]; · iexact Hmw
    isplitl [H2]; · iexact H2
    isplitl [H5]; · iexact H5
    isplitl [H3c]; · iexact H3c
    isplitl [H3d]; · iexact H3d
    isplitl [H4c]; · iexact H4c
    isplitl [H4d]; · iexact H4d
    isplitl [Hm6]; · iexact Hm6
    isplitl [Hm7]; · iexact Hm7
    isplitl [Hm8]; · iexact Hm8
    isplitl [Hm9]; · iexact Hm9
    isplitl [H0a]; · iexact H0a
    isplitl [H0b]; · iexact H0b
    isplitl [H0c]; · iexact H0c
    isplitl [H0d]; · iexact H0d
    isplitl [H1a]; · iexact H1a
    isplitl [H1b]; · iexact H1b
    isplitl [H1c]; · iexact H1c
    isplitl [H1d]; · iexact H1d
    isplitl [Hy1a]; · iexact Hy1a
    isplitl [Hy1b]; · iexact Hy1b
    isplitl [Hy1c]; · iexact Hy1c
    isplitl [Hy1d]; · iexact Hy1d
    isplitl [Hy2a]; · iexact Hy2a
    isplitl [Hy2b]; · iexact Hy2b
    isplitl [Hy2c]; · iexact Hy2c
    isplitl [Hy2d]; · iexact Hy2d
    isplitl [Hm10]; · iexact Hm10
    isplitl [Hm11]; · iexact Hm11
    isplitl [Hm12]; · iexact Hm12
    isplitl [Hm13]; · iexact Hm13
    iexact HO
  iintro %_ HI
  delta Inv
  ihave HI := (Entails.of_eq (if_neg trips_not_lt)) $$ HI
  icases HI with ⟨%G5', %W', %hW', %Ga, %Gb, %G3c, %G3d, %Gc, %Gd, %G4c, %G4d, HI⟩
  delta idle
  icases HI with ⟨Hmw, H2, H5, H3a, H3b, H3c, H3d, H4a, H4b, H4c, H4d, H0a, H0b, H0c, H0d, H1a, H1b, H1c, H1d, Hy1a, Hy1b, Hy1c, Hy1d, Hy2a, Hy2b, Hy2c, Hy2d, Hm6, Hm7, Hm8, Hm9, Hm10, Hm11, Hm12, Hm13, HO⟩
  -- windows and shares put back together
  ihave H3 := (s3_join d L _ _ _ _) $$ [H3a H3b H3c H3d]
  · isplitl [H3a]; · iexact H3a
    isplitl [H3b]; · iexact H3b
    isplitl [H3c]; · iexact H3c
    iexact H3d
  icases H3 with ⟨%g3', H3⟩
  ihave H4 := (s4_join d L _ _ _ _) $$ [H4a H4b H4c H4d]
  · isplitl [H4a]; · iexact H4a
    isplitl [H4b]; · iexact H4b
    isplitl [H4c]; · iexact H4c
    iexact H4d
  icases H4 with ⟨%g4', H4⟩
  ihave H0l := ((pointsTo_share (PosShare.mem_left_op_right (fullShare).left)).2) $$ [H0a H0b]
  · isplitl [H0a]; · iexact H0a
    iexact H0b
  ihave H0r := ((pointsTo_share (PosShare.mem_left_op_right (fullShare).right)).2) $$ [H0c H0d]
  · isplitl [H0c]; · iexact H0c
    iexact H0d
  ihave H0 := ((pointsTo_share (PosShare.mem_left_op_right fullShare)).2) $$ [H0l H0r]
  · isplitl [H0l]; · iexact H0l
    iexact H0r
  ihave H1l := ((pointsTo_share (PosShare.mem_left_op_right (fullShare).left)).2) $$ [H1a H1b]
  · isplitl [H1a]; · iexact H1a
    iexact H1b
  ihave H1r := ((pointsTo_share (PosShare.mem_left_op_right (fullShare).right)).2) $$ [H1c H1d]
  · isplitl [H1c]; · iexact H1c
    iexact H1d
  ihave H1 := ((pointsTo_share (PosShare.mem_left_op_right fullShare)).2) $$ [H1l H1r]
  · isplitl [H1l]; · iexact H1l
    iexact H1r
  ihave Hy1l := ((pointsTo_share (PosShare.mem_left_op_right (q).left)).2) $$ [Hy1a Hy1b]
  · isplitl [Hy1a]; · iexact Hy1a
    iexact Hy1b
  ihave Hy1r := ((pointsTo_share (PosShare.mem_left_op_right (q).right)).2) $$ [Hy1c Hy1d]
  · isplitl [Hy1c]; · iexact Hy1c
    iexact Hy1d
  ihave Hy1 := ((pointsTo_share (PosShare.mem_left_op_right q)).2) $$ [Hy1l Hy1r]
  · isplitl [Hy1l]; · iexact Hy1l
    iexact Hy1r
  ihave Hy2l := ((pointsTo_share (PosShare.mem_left_op_right (q).left)).2) $$ [Hy2a Hy2b]
  · isplitl [Hy2a]; · iexact Hy2a
    iexact Hy2b
  ihave Hy2r := ((pointsTo_share (PosShare.mem_left_op_right (q).right)).2) $$ [Hy2c Hy2d]
  · isplitl [Hy2c]; · iexact Hy2c
    iexact Hy2d
  ihave Hy2 := ((pointsTo_share (PosShare.mem_left_op_right q)).2) $$ [Hy2l Hy2r]
  · isplitl [Hy2l]; · iexact Hy2l
    iexact Hy2r
  -- the output rows written back
  sl_exec
  sl_step
  iexists _; iexists _; iexists _; iexists _; iexists _; iexists _; iexists _; iexists (insert (SemLoc.dma cc1_scoped3.sem, (default : HIx 1)) W'); isplitr
  · ipureintro; intro p hp
    simp only [Finset.mem_insert] at hp
    rcases hp with rfl | hp
    · exact .inr rfl
    · exact hW' p hp
  isplitl [Hmw]; · iexact Hmw
  isplitl [Hy1]; · iexact Hy1
  isplitl [Hy2]; · iexact Hy2
  isplitl [Hi]; · iexact Hi
  isplitl [Hj]; · iexact Hj
  isplitl [Hs]; · iexact Hs
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [Hm6]; · iexact Hm6
  isplitl [Hm7]; · iexact Hm7
  isplitl [Hm8]; · iexact Hm8
  isplitl [Hm9]; · iexact Hm9
  isplitl [Hm10]; · iexact Hm10
  isplitl [Hm11]; · iexact Hm11
  isplitl [Hm12]; · iexact Hm12
  isplitl [Hm13]; · iexact Hm13
  isplitl [Hr0]; · iexact Hr0
  isplitl [Hr1]; · iexact Hr1
  isplitl [Hr2]; · iexact Hr2
  isplitl [Hr3]; · iexact Hr3
  iexact HO

end Cert.Proof.KB

end
-- ==== Proof.MainAB.lean ====
/-
  @main on the TensorCore: host operations around one pipelined TensorCore kernel region and one SparseCore call.
  The host stretches are straight lines of StableHLO operations over the TensorCore's unscoped arrays held whole.
-/
import proofs.«205997_g24756191494465_cont_8to1_1595_42_alg».proof.Proof.PayB
import proofs.«205997_g24756191494465_cont_8to1_1595_42_alg».proof.Proof.Gen.Kernel.Launch
import Idealize.ShloMosaic.Lib.Pipeline.Frame
import Idealize.ShloMosaic.Lib.Pipeline.Regions

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-! ## @main as a chain of host stretches, the kernel region and the SparseCore call -/

/-- The host stretches of @main, in order; a module-local function's body is a stretch of its own. -/
abbrev opsA : List (HloOp τ sig (Elt F)) :=
  [ StableHlo.reshape main_arg0 main_v0 rfl shapeCasts_S1x128x10000x1_S128x10000,
    StableHlo.nullary main_c (constantI S_ 32 0#32) ]
abbrev opsB [FloatOps F] : List (HloOp τ sig (Elt F)) :=
  [ StableHlo.TRef.unary (.of main_c : StableHlo.TRef sig ⟨S_, .i32⟩) (.of main_call0_v0 : StableHlo.TRef sig ⟨S_, .f32⟩) (sitofp .f32),
    StableHlo.TRef.binary (.of main_v0 : StableHlo.TRef sig ⟨S128x10000, .f32⟩) (.of main_call0_v0 : StableHlo.TRef sig ⟨S_, .f32⟩) (.of main_v1 : StableHlo.TRef sig ⟨S128x10240, .f32⟩)
      (fun x v => pad S128x10240 ![0, 0] ![0, 240] ![0, 0] x v pads_S128x10000_S128x10240_000_02400 h_S_) ]
abbrev opsC : List (HloOp τ sig (Elt F)) :=
  [ StableHlo.reshape main_arg3 main_v2 rfl shapeCasts_S1x10000x16_S10000x16,
    StableHlo.nullary main_c_0 (constantI S_ 32 0#32) ]
abbrev opsD [FloatOps F] : List (HloOp τ sig (Elt F)) :=
  [ StableHlo.TRef.unary (.of main_c_0 : StableHlo.TRef sig ⟨S_, .i32⟩) (.of main_call1_v0 : StableHlo.TRef sig ⟨S_, .f32⟩) (sitofp .f32),
    StableHlo.TRef.binary (.of main_v2 : StableHlo.TRef sig ⟨S10000x16, .f32⟩) (.of main_call1_v0 : StableHlo.TRef sig ⟨S_, .f32⟩) (.of main_v3 : StableHlo.TRef sig ⟨S10240x16, .f32⟩)
      (fun x v => pad S10240x16 ![0, 0] ![240, 0] ![0, 0] x v pads_S10000x16_S10240x16_02400_000 h_S_) ]
abbrev opsE [FloatOps F] : List (HloOp τ sig (Elt F)) :=
  [ StableHlo.unary main_arg4 main_v4 ((extractStridedSlice S128x128 ![0, 0] · slices_S128x256_S128x128_0_0) : (⟨S128x256, .f32⟩ : BufTy).Contents (Elt F) → (⟨S128x128, .f32⟩ : BufTy).Contents (Elt F)),
    StableHlo.unary main_arg4 main_v5 ((extractStridedSlice S128x128 ![0, 128] · slices_S128x256_S128x128_0_128) : (⟨S128x256, .f32⟩ : BufTy).Contents (Elt F) → (⟨S128x128, .f32⟩ : BufTy).Contents (Elt F)),
    StableHlo.binary main_v4 main_v5 main_v6 (subf : (⟨S128x128, .f32⟩ : BufTy).Contents (Elt F) → (⟨S128x128, .f32⟩ : BufTy).Contents (Elt F) → (⟨S128x128, .f32⟩ : BufTy).Contents (Elt F)),
    StableHlo.unary main_arg4 main_v7 ((extractStridedSlice S128x128 ![0, 128] · slices_S128x256_S128x128_0_128) : (⟨S128x256, .f32⟩ : BufTy).Contents (Elt F) → (⟨S128x128, .f32⟩ : BufTy).Contents (Elt F)),
    StableHlo.reshape main_arg5 main_v8 rfl shapeCasts_S128_S1x128,
    StableHlo.reshape main_arg7 main_v9 rfl shapeCasts_S1_S1x1 ]
abbrev opsF : List (HloOp τ sig (Elt F)) :=
  [ StableHlo.reshape main_arg1 main_v11 rfl shapeCasts_S2x1x10000x16_S2x160000,
    StableHlo.nullary main_c_1 (constantI S_ 32 0#32) ]
abbrev opsG : List (HloOp τ sig (Elt F)) :=
  [ StableHlo.TRef.unary (.of main_c_1 : StableHlo.TRef sig ⟨S_, .i32⟩) (.of main_call2_v0 : StableHlo.TRef sig ⟨S_, .i32⟩) id,
    StableHlo.TRef.binary (.of main_v11 : StableHlo.TRef sig ⟨S2x160000, .i32⟩) (.of main_call2_v0 : StableHlo.TRef sig ⟨S_, .i32⟩) (.of main_v12 : StableHlo.TRef sig ⟨S2x163840, .i32⟩)
      (fun x v => pad S2x163840 ![0, 0] ![0, 3840] ![0, 0] x v pads_S2x160000_S2x163840_000_038400 h_S_) ]
abbrev opsH : List (HloOp τ sig (Elt F)) :=
  [ StableHlo.unary main_v12 main_v13 ((extractStridedSlice S1x163840 ![1, 0] · slices_S2x163840_S1x163840_1_0) : (⟨S2x163840, .i32⟩ : BufTy).Contents (Elt F) → (⟨S1x163840, .i32⟩ : BufTy).Contents (Elt F)),
    StableHlo.reshape main_v13 main_v14 rfl shapeCasts_S1x163840_S163840,
    StableHlo.unary main_v12 main_v15 ((extractStridedSlice S1x163840 ![0, 0] · slices_S2x163840_S1x163840_0_0) : (⟨S2x163840, .i32⟩ : BufTy).Contents (Elt F) → (⟨S1x163840, .i32⟩ : BufTy).Contents (Elt F)),
    StableHlo.reshape main_v15 main_v16 rfl shapeCasts_S1x163840_S163840,
    StableHlo.reshape main_v10_2 main_v17 rfl shapeCasts_S10240x16_S163840 ]
abbrev opsI : List (HloOp τ sig (Elt F)) :=
  [ StableHlo.unary main_v18 main_v19 ((extractStridedSlice S10000x128 ![0, 0] · slices_S10240x128_S10000x128_0_0) : (⟨S10240x128, .f32⟩ : BufTy).Contents (Elt F) → (⟨S10000x128, .f32⟩ : BufTy).Contents (Elt F)),
    StableHlo.unary main_v19 main_v20 ((transpose S128x10000 [1, 0] · transposes_S10000x128_S128x10000_1_0) : (⟨S10000x128, .f32⟩ : BufTy).Contents (Elt F) → (⟨S128x10000, .f32⟩ : BufTy).Contents (Elt F)),
    StableHlo.reshape main_v20 main_v21 rfl shapeCasts_S128x10000_S1x128x10000x1 ]

variable [FloatOps F]

theorem main_chain (d : Dev nD) : main (F := F) d = (Pipeline.chain
  [ StableHlo.seq opsA, StableHlo.seq opsB, StableHlo.seq opsC, StableHlo.seq opsD, StableHlo.seq opsE,
    Prog.lift (.customCall (SparseCore.inner (Pipeline.entry 0)) ()),
    StableHlo.seq opsF, StableHlo.seq opsG, StableHlo.seq opsH,
    sc.run d 0,
    StableHlo.seq opsI ] : Prog (TpuEff nD τ sig (Elt F) (SparseCore.Sig (Pipeline.Sig Λ₀ (Fin 1) fun p => (pcfgs (F := F) p).Adm) 1) .tc) PUnit) := by
  chain_rfl

/-! ## The host stretches: what they touch, what they write -/

theorem opsA_sub : (opsA : List (HloOp τ sig (Elt F))).Forall fun op => op.bufs ⊆ StableHlo.tcRefs τ sig :=
  ⟨StableHlo.reshape_bufs_sub .., StableHlo.nullary_bufs_sub ..⟩
theorem opsB_sub : (opsB : List (HloOp τ sig (Elt F))).Forall fun op => op.bufs ⊆ StableHlo.tcRefs τ sig :=
  ⟨StableHlo.unary_bufs_sub .., StableHlo.binary_bufs_sub ..⟩
theorem opsC_sub : (opsC : List (HloOp τ sig (Elt F))).Forall fun op => op.bufs ⊆ StableHlo.tcRefs τ sig :=
  ⟨StableHlo.reshape_bufs_sub .., StableHlo.nullary_bufs_sub ..⟩
theorem opsD_sub : (opsD : List (HloOp τ sig (Elt F))).Forall fun op => op.bufs ⊆ StableHlo.tcRefs τ sig :=
  ⟨StableHlo.unary_bufs_sub .., StableHlo.binary_bufs_sub ..⟩
theorem opsE_sub : (opsE : List (HloOp τ sig (Elt F))).Forall fun op => op.bufs ⊆ StableHlo.tcRefs τ sig :=
  ⟨StableHlo.unary_bufs_sub .., StableHlo.unary_bufs_sub .., StableHlo.binary_bufs_sub .., StableHlo.unary_bufs_sub ..,
    StableHlo.reshape_bufs_sub .., StableHlo.reshape_bufs_sub ..⟩
theorem opsF_sub : (opsF : List (HloOp τ sig (Elt F))).Forall fun op => op.bufs ⊆ StableHlo.tcRefs τ sig :=
  ⟨StableHlo.reshape_bufs_sub .., StableHlo.nullary_bufs_sub ..⟩
theorem opsG_sub : (opsG : List (HloOp τ sig (Elt F))).Forall fun op => op.bufs ⊆ StableHlo.tcRefs τ sig :=
  ⟨StableHlo.unary_bufs_sub .., StableHlo.binary_bufs_sub ..⟩
theorem opsH_sub : (opsH : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub ..,
    StableHlo.reshape_bufs_sub ..⟩
theorem opsI_sub : (opsI : List (HloOp τ sig (Elt F))).Forall fun op => op.bufs ⊆ StableHlo.tcRefs τ sig :=
  ⟨StableHlo.unary_bufs_sub .., StableHlo.unary_bufs_sub .., StableHlo.reshape_bufs_sub ..⟩

theorem opsA_fresh : (opsA : List (HloOp τ sig (Elt F))).Forall fun op => op.fresh = ∅ := by simp only [List.Forall]; repeat' constructor
theorem opsB_fresh : (opsB : List (HloOp τ sig (Elt F))).Forall fun op => op.fresh = ∅ := by simp only [List.Forall]; repeat' constructor
theorem opsC_fresh : (opsC : List (HloOp τ sig (Elt F))).Forall fun op => op.fresh = ∅ := by simp only [List.Forall]; repeat' constructor
theorem opsD_fresh : (opsD : List (HloOp τ sig (Elt F))).Forall fun op => op.fresh = ∅ := by simp only [List.Forall]; repeat' constructor
theorem opsE_fresh : (opsE : List (HloOp τ sig (Elt F))).Forall fun op => op.fresh = ∅ := by simp only [List.Forall]; repeat' constructor
theorem opsF_fresh : (opsF : List (HloOp τ sig (Elt F))).Forall fun op => op.fresh = ∅ := by simp only [List.Forall]; repeat' constructor
theorem opsG_fresh : (opsG : List (HloOp τ sig (Elt F))).Forall fun op => op.fresh = ∅ := by simp only [List.Forall]; repeat' constructor
theorem opsH_fresh : (opsH : List (HloOp τ sig (Elt F))).Forall fun op => op.fresh = ∅ := by simp only [List.Forall]; repeat' constructor
theorem opsI_fresh : (opsI : List (HloOp τ sig (Elt F))).Forall fun op => op.fresh = ∅ := by simp only [List.Forall]; repeat' constructor

/-- Every reference a host operation of @main writes: none is an argument array. -/
abbrev hostW : List (Ref sig .tc) :=
  [main_v0, main_c, main_call0_v0, main_v1, main_v2, main_c_0, main_call1_v0, main_v3, main_v4, main_v5, main_v6, main_v7, main_v8, main_v9,
   main_v11, main_c_1, main_call2_v0, main_v12, main_v13, main_v14, main_v15, main_v16, main_v17, main_v19, main_v20, main_v21]

macro "writes_tac" : tactic =>
  `(tactic| (simp only [List.Forall]; repeat' constructor
             all_goals (simp only [StableHlo.nullary_writes, StableHlo.unary_writes, StableHlo.binary_writes, StableHlo.reshape_writes,
                          Finset.singleton_subset_iff, List.mem_toFinset]; exact List.mem_map_of_mem (by decide))))

theorem opsA_writes : (opsA : List (HloOp τ sig (Elt F))).Forall fun op => op.writes ⊆ (hostW.map (Proc.devRef (τ := τ) .tc)).toFinset := by writes_tac
theorem opsB_writes : (opsB : List (HloOp τ sig (Elt F))).Forall fun op => op.writes ⊆ (hostW.map (Proc.devRef (τ := τ) .tc)).toFinset := by writes_tac
theorem opsC_writes : (opsC : List (HloOp τ sig (Elt F))).Forall fun op => op.writes ⊆ (hostW.map (Proc.devRef (τ := τ) .tc)).toFinset := by writes_tac
theorem opsD_writes : (opsD : List (HloOp τ sig (Elt F))).Forall fun op => op.writes ⊆ (hostW.map (Proc.devRef (τ := τ) .tc)).toFinset := by writes_tac
theorem opsE_writes : (opsE : List (HloOp τ sig (Elt F))).Forall fun op => op.writes ⊆ (hostW.map (Proc.devRef (τ := τ) .tc)).toFinset := by writes_tac
theorem opsF_writes : (opsF : List (HloOp τ sig (Elt F))).Forall fun op => op.writes ⊆ (hostW.map (Proc.devRef (τ := τ) .tc)).toFinset := by writes_tac
theorem opsG_writes : (opsG : List (HloOp τ sig (Elt F))).Forall fun op => op.writes ⊆ (hostW.map (Proc.devRef (τ := τ) .tc)).toFinset := by writes_tac
theorem opsH_writes : (opsH : List (HloOp τ sig (Elt F))).Forall fun op => op.writes ⊆ (hostW.map (Proc.devRef (τ := τ) .tc)).toFinset := by writes_tac
theorem opsI_writes : (opsI : List (HloOp τ sig (Elt F))).Forall fun op => op.writes ⊆ (hostW.map (Proc.devRef (τ := τ) .tc)).toFinset := by writes_tac

/-- A host stretch run within a set `S` of the TensorCore's arrays held whole: they end at `after` of it. -/
theorem wp_stretchS (d : Dev nD) {β : Type} (S : Finset (DevRef τ sig)) (ops : List (HloOp τ sig (Elt F)))
    (hS : ∀ op ∈ ops, op.bufs ⊆ S) (hfresh : ops.Forall fun op => op.fresh = ∅)
    (W : Valuation τ sig (Elt F))
    (k : PUnit → Prog (TpuEff nD τ sig (Elt F) (SparseCore.Sig (ΛP (F := F)) 1) .tc) β) (Q : β → sProp 𝕄) :
    iprop(boundary (T d) ∗ (held (T d) S W : sProp 𝕄))
      ⊢ iprop(((boundary (T d) ∗ (held (T d) S (StableHlo.after ops W) : sProp 𝕄))
                -∗ wp frame (wpE ((K (F := F)).defs (D (F := F))) 𝒱 (T d) none) Set.univ (k ⟨⟩) Q)
        -∗ wp frame (wpE ((K (F := F)).defs (D (F := F))) 𝒱 (T d) none) Set.univ (StableHlo.seq ops >>= k) Q) :=
  StableHlo.wp_seq 𝒱 none Set.univ d S k ops hS (fun op h => (List.forall_iff_forall_mem.mp hfresh) op h) W

/-- A host stretch run within the TensorCore's unscoped arrays held whole: they end at `after` of it. -/
theorem wp_stretch (d : Dev nD) {β : Type} (ops : List (HloOp τ sig (Elt F)))
    (hsub : ops.Forall fun op => op.bufs ⊆ StableHlo.tcRefs τ sig) (hfresh : ops.Forall fun op => op.fresh = ∅)
    (W : Valuation τ sig (Elt F))
    (k : PUnit → Prog (TpuEff nD τ sig (Elt F) (SparseCore.Sig (ΛP (F := F)) 1) .tc) β) (Q : β → sProp 𝕄) :
    iprop(boundary (T d) ∗ (held (T d) (Pipeline.ucRefs τ sig) W : sProp 𝕄))
      ⊢ iprop(((boundary (T d) ∗ (held (T d) (Pipeline.ucRefs τ sig) (StableHlo.after ops W) : sProp 𝕄))
                -∗ wp frame (wpE ((K (F := F)).defs (D (F := F))) 𝒱 (T d) none) Set.univ (k ⟨⟩) Q)
        -∗ wp frame (wpE ((K (F := F)).defs (D (F := F))) 𝒱 (T d) none) Set.univ (StableHlo.seq ops >>= k) Q) :=
  StableHlo.wp_seq 𝒱 none Set.univ d (Pipeline.ucRefs τ sig) k ops
    (fun op h => Pipeline.sub_ucRefs op ((List.forall_iff_forall_mem.mp hsub) op h))
    (fun op h => (List.forall_iff_forall_mem.mp hfresh) op h) W

/-! ## What @main's proof starts from beyond the launch's deal: the pipeline's staging cells, funded -/

/-- The prefetched tables' admissible contents: the pipeline has no table. -/
abbrev adm : (p : Fin 1) → (pcfgs (F := F) p).Adm := fun p => (cfgs p).toPCfg_adm

/-- The pipeline's rounds, the left of the right factor of the ghost state. -/
abbrev EP : Emb UP (MT nD τ sig (HIx 1) (Elt F) ℕ UU ℕ) := (Emb.inl : Emb UP (UP × Counters)).trans embR

/-- The staging cells' ghost state and the transfers' duty tokens of the one pipeline, on device `d`. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The arrays the kernel region writes. -/
abbrev regW : List (Ref sig .tc) := [main_v10_0, main_v10_1, main_v10_2]

/-! ## The SparseCore call's operands out of the TensorCore's arrays, and its result back -/

/-- The launch contents of device `d` as a valuation. -/
abbrev V0 (m : (ℓ : Loc nD τ sig) → Buf (Elt F) ℓ) (d : Dev nD) : Valuation τ sig (Elt F) := fun b => m (d, b)

abbrev r10_0 : DevRef τ sig := Proc.devRef .tc (main_v10_0 : Ref sig .tc)
abbrev r10_1 : DevRef τ sig := Proc.devRef .tc (main_v10_1 : Ref sig .tc)
abbrev r14 : DevRef τ sig := Proc.devRef .tc (main_v14 : Ref sig .tc)
abbrev r16 : DevRef τ sig := Proc.devRef .tc (main_v16 : Ref sig .tc)
abbrev r17 : DevRef τ sig := Proc.devRef .tc (main_v17 : Ref sig .tc)
abbrev r18 : DevRef τ sig := Proc.devRef .tc (main_v18 : Ref sig .tc)

/-- The call's six arrays; the five of them @main never touches again. -/
abbrev sixS : Finset (DevRef τ sig) := {r10_0, r10_1, r14, r16, r17, r18}
abbrev fiveS : Finset (DevRef τ sig) := {r10_0, r10_1, r14, r16, r17}

/-! ## The precondition's index range, and what the edge lists hold when the call is made -/

/-- Every entry of the edge-index argument names a row of the node tables. -/
def PreOK (m : (ℓ : Loc nD τ sig) → Buf (Elt F) ℓ) : Prop :=
  ∀ (d : Dev nD) (i : S2x1x10000x16.Idx), ((V0 m d (Proc.devRef .tc main_arg1) : S2x1x10000x16.Idx → BitVec 32) i).toNat < 10240

section Entries
variable {α : Type} (p : α → Prop)
theorem all_shapeCast {s t : Shape} (x : s.Idx → α) (h : s.ShapeCasts t) (hx : ∀ i, p (x i)) : ∀ j, p (shapeCast t x h j) := fun _ => hx _
theorem all_slice {s t : Shape} (off : Fin s.rank → Nat) (x : s.Idx → α) (h : s.Slices off t) (hx : ∀ i, p (x i)) :
    ∀ j, p (extractStridedSlice t off x h j) := fun _ => hx _
theorem all_pad {s t u : Shape} (lo hi it : Fin s.rank → Nat) (x : s.Idx → α) (v : u.Idx → α) (h : s.Pads lo hi it t) (hu : 0 < u.numel)
    (hx : ∀ i, p (x i)) (hv : ∀ i, p (v i)) : ∀ j, p (pad t lo hi it x v h hu j) := fun j => by
  unfold pad; split
  · exact hx _
  · exact hv _
end Entries

/-- The argument arrays. -/
abbrev argL : List (Ref sig .tc) := [main_arg0, main_arg1, main_arg2, main_arg3, main_arg4, main_arg5, main_arg6, main_arg7]
abbrev argS : Finset (DevRef τ sig) := (argL.map (Proc.devRef (τ := τ) .tc)).toFinset

/-- What @main leaves the claim: the eight argument arrays of device `d` whole at their launch contents. -/
abbrev FIN (m : (ℓ : Loc nD τ sig) → Buf (Elt F) ℓ) (d : Dev nD) : sProp 𝕄 := held (T d) argS (V0 m d)

theorem argL_hostW : ∀ r ∈ argL, r ∉ hostW := by decide
theorem argL_regW : ∀ r ∈ argL, r ∉ regW := by decide
theorem argL_v18 : ∀ r ∈ argL, r ≠ main_v18 := by decide

theorem opsI_S : ∀ op ∈ (opsI : List (HloOp τ sig (Elt F))), op.bufs ⊆ Pipeline.ucRefs τ sig \ fiveS := fun op h =>
  Finset.subset_sdiff.mpr ⟨Pipeline.sub_ucRefs op ((List.forall_iff_forall_mem.mp opsI_sub) op h), by
    simp only [List.mem_cons, List.mem_nil_iff, or_false] at h
    rcases h with rfl | rfl | rfl
    · rw [StableHlo.unary_bufs]; decide
    · rw [StableHlo.unary_bufs]; decide
    · rw [StableHlo.reshape_bufs]; decide⟩

theorem argS_sub : argS ⊆ Pipeline.ucRefs τ sig \ fiveS := by decide

/-! ## No host stretch writes an argument array -/

theorem stretch1_arg (W : Valuation τ sig (Elt F)) (r : Ref sig .tc) (hr : r ∉ hostW) :
    StableHlo.after opsE (StableHlo.after opsD (StableHlo.after opsC (StableHlo.after opsB (StableHlo.after opsA W)))) (Proc.devRef .tc r)
      = W (Proc.devRef .tc r) := by
  rw [StableHlo.after_of_writes_sub opsE _ opsE_writes hr, StableHlo.after_of_writes_sub opsD _ opsD_writes hr,
    StableHlo.after_of_writes_sub opsC _ opsC_writes hr, StableHlo.after_of_writes_sub opsB _ opsB_writes hr,
    StableHlo.after_of_writes_sub opsA _ opsA_writes hr]
theorem stretch2_arg (W : Valuation τ sig (Elt F)) (r : Ref sig .tc) (hr : r ∉ hostW) :
    StableHlo.after opsH (StableHlo.after opsG (StableHlo.after opsF W)) (Proc.devRef .tc r) = W (Proc.devRef .tc r) := by
  rw [StableHlo.after_of_writes_sub opsH _ opsH_writes hr, StableHlo.after_of_writes_sub opsG _ opsG_writes hr,
    StableHlo.after_of_writes_sub opsF _ opsF_writes hr]
theorem stretch3_arg (W : Valuation τ sig (Elt F)) (r : Ref sig .tc) (hr : r ∉ hostW) :
    StableHlo.after opsI W (Proc.devRef .tc r) = W (Proc.devRef .tc r) :=
  StableHlo.after_of_writes_sub opsI _ opsI_writes hr

/-- The edge lists the call is handed: reshapes and slices of the edge-index argument padded with zeros. -/
theorem rows14 (W : Valuation τ sig (Elt F))
    (h : ∀ i : S2x1x10000x16.Idx, ((W (Proc.devRef .tc main_arg1) : S2x1x10000x16.Idx → BitVec 32) i).toNat < 10240) :
    InRows Finset.univ (StableHlo.after opsH (StableHlo.after opsG (StableHlo.after opsF W)) r14) := by
  intro j _
  open StableHlo in after_results
  show (shapeCast S163840 (extractStridedSlice S1x163840 ![1, 0]
      (pad S2x163840 ![0, 0] ![0, 3840] ![0, 0]
        (shapeCast S2x160000 (W (Proc.devRef .tc main_arg1) : S2x1x10000x16.Idx → BitVec 32) shapeCasts_S2x1x10000x16_S2x160000)
        (constantI S_ 32 0#32) pads_S2x160000_S2x163840_000_038400 h_S_) slices_S2x163840_S1x163840_1_0) shapeCasts_S1x163840_S163840 j).toNat < 10240
  exact all_shapeCast (fun e : BitVec 32 => e.toNat < 10240) _ shapeCasts_S1x163840_S163840
    (all_slice (fun e : BitVec 32 => e.toNat < 10240) ![1, 0] _ slices_S2x163840_S1x163840_1_0
      (all_pad (fun e : BitVec 32 => e.toNat < 10240) ![0, 0] ![0, 3840] ![0, 0] _ (constantI S_ 32 0#32) pads_S2x160000_S2x163840_000_038400 h_S_
        (all_shapeCast (fun e : BitVec 32 => e.toNat < 10240) _ shapeCasts_S2x1x10000x16_S2x160000 h)
        (fun _ => by show (0#32 : BitVec 32).toNat < 10240; decide))) j
theorem rows16 (W : Valuation τ sig (Elt F))
    (h : ∀ i : S2x1x10000x16.Idx, ((W (Proc.devRef .tc main_arg1) : S2x1x10000x16.Idx → BitVec 32) i).toNat < 10240) :
    InRows Finset.univ (StableHlo.after opsH (StableHlo.after opsG (StableHlo.after opsF W)) r16) := by
  intro j _
  open StableHlo in after_results
  show (shapeCast S163840 (extractStridedSlice S1x163840 ![0, 0]
      (pad S2x163840 ![0, 0] ![0, 3840] ![0, 0]
        (shapeCast S2x160000 (W (Proc.devRef .tc main_arg1) : S2x1x10000x16.Idx → BitVec 32) shapeCasts_S2x1x10000x16_S2x160000)
        (constantI S_ 32 0#32) pads_S2x160000_S2x163840_000_038400 h_S_) slices_S2x163840_S1x163840_0_0) shapeCasts_S1x163840_S163840 j).toNat < 10240
  exact all_shapeCast (fun e : BitVec 32 => e.toNat < 10240) _ shapeCasts_S1x163840_S163840
    (all_slice (fun e : BitVec 32 => e.toNat < 10240) ![0, 0] _ slices_S2x163840_S1x163840_0_0
      (all_pad (fun e : BitVec 32 => e.toNat < 10240) ![0, 0] ![0, 3840] ![0, 0] _ (constantI S_ 32 0#32) pads_S2x160000_S2x163840_000_038400 h_S_
        (all_shapeCast (fun e : BitVec 32 => e.toNat < 10240) _ shapeCasts_S2x1x10000x16_S2x160000 h)
        (fun _ => by show (0#32 : BitVec 32).toNat < 10240; decide))) j

end Cert.Proof.KB

end
-- ==== Proof.RegionB.lean ====
/-
  The TensorCore kernel region of @main at frame level: the pipelined kernel's body runs at every grid point whatever its
  staging buffers hold and leaves them at some contents; the region leaves every array it does not write as it found it.
-/
import proofs.«205997_g24756191494465_cont_8to1_1595_42_alg».proof.Proof.MainAB
import proofs.«205997_g24756191494465_cont_8to1_1595_42_alg».proof.Proof.Gen.Kernel.Points
import proofs.«205997_g24756191494465_cont_8to1_1595_42_alg».proof.Proof.Gen.Kernel.Skeleton
import Idealize.ShloMosaic.Lib.Pipeline.FrameBody
import Idealize.ShloMosaic.Lib.Tactic

noncomputable section

namespace Cert.Proof.KB

open Cert.Kernel Cert.Kernel.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

/-! ## The kernel's body on whole staging memrefs -/

set_option maxHeartbeats 2000000 in
/-- The body, handed its ten staging memrefs whole at any contents, runs (loads, two products, stores through whole-block
    rectangles) and hands them back at some contents. -/
theorem sound_kernel (c : Dev nD) (E : Set ℕ) (i : grid0.Coords)
    (a1 : Memref sig .tc .vmem S128x512 .f32) (h1 : a1.IsWhole) (a2 : Memref sig .tc .vmem S512x16 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S1x16 .f32) (h6 : a6.IsWhole)
    (a7 : Memref sig .tc .vmem S1x1 .f32) (h7 : a7.IsWhole) (a8 : Memref sig .tc .vmem S512x128 .f32) (h8 : a8.IsWhole)
    (a9 : Memref sig .tc .vmem S512x128 .f32) (h9 : a9.IsWhole) (a10 : Memref sig .tc .vmem S512x16 .f32) (h10 : a10.IsWhole)
    (Kc : PUnit → sProp 𝕄) :
    iprop((∃ x, owns (c.tc : Thread nD τ) a1 fullShare x) ∗ (∃ x, owns (c.tc : Thread nD τ) a2 fullShare x)
        ∗ (∃ x, owns (c.tc : Thread nD τ) a3 fullShare x) ∗ (∃ x, owns (c.tc : Thread nD τ) a4 fullShare x)
        ∗ (∃ x, owns (c.tc : Thread nD τ) a5 fullShare x) ∗ (∃ x, owns (c.tc : Thread nD τ) a6 fullShare x)
        ∗ (∃ x, owns (c.tc : Thread nD τ) a7 fullShare x) ∗ (∃ x, owns (c.tc : Thread nD τ) a8 fullShare x)
        ∗ (∃ x, owns (c.tc : Thread nD τ) a9 fullShare x) ∗ (∃ x, owns (c.tc : Thread nD τ) a10 fullShare x)
        ∗ (iprop((∃ x, owns (c.tc : Thread nD τ) a1 fullShare x) ∗ (∃ x, owns (c.tc : Thread nD τ) a2 fullShare x)
            ∗ (∃ x, owns (c.tc : Thread nD τ) a3 fullShare x) ∗ (∃ x, owns (c.tc : Thread nD τ) a4 fullShare x)
            ∗ (∃ x, owns (c.tc : Thread nD τ) a5 fullShare x) ∗ (∃ x, owns (c.tc : Thread nD τ) a6 fullShare x)
            ∗ (∃ x, owns (c.tc : Thread nD τ) a7 fullShare x) ∗ (∃ x, owns (c.tc : Thread nD τ) a8 fullShare x)
            ∗ (∃ x, owns (c.tc : Thread nD τ) a9 fullShare x) ∗ (∃ x, owns (c.tc : Thread nD τ) a10 fullShare x)) -∗ Kc ⟨⟩))
      ⊢ wp frame (wpE (defs₀ (F := F)) Variants.none (c.tc : Thread nD τ) none) E
          (cc0__tc_body i a1 h1 a2 h2 a3 h3 a4 h4 a5 h5 a6 h6 a7 h7 a8 h8 a9 h9 a10 h10) Kc := by
  simp only [cc0__tc_body_eq_skeleton]; unfold cc0__tc_body_skel
  unfold owns
  iintro ⟨⟨%x1, %f1, -, H1⟩, ⟨%x2, %f2, -, H2⟩, ⟨%x3, %f3, -, H3⟩, ⟨%x4, %f4, -, H4⟩, ⟨%x5, %f5, -, H5⟩, ⟨%x6, %f6, -, H6⟩,
    ⟨%x7, %f7, -, H7⟩, ⟨%x8, %f8, -, H8⟩, ⟨%x9, %f9, -, H9⟩, ⟨%x10, %f10, -, H10⟩, Hk⟩
  sl_exec
  sl_step
  iapply Hk
  isplitl [H1]
  · iexists _; iexists _; isplitr
    swap; · iexact H1
    ipureintro; rfl
  isplitl [H2]
  · iexists _; iexists _; isplitr
    swap; · iexact H2
    ipureintro; rfl
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

/-! ## The pipeline's proof data, relational: nothing is said of what the body leaves in a staging buffer -/

/-- On core `c`, entered at the arrays' contents `W`: the arrays' entry contents are `W`'s; the body may leave anything; the
    invariant is empty (the kernel has no scratch); the core owes, throughout, what the TensorCore owes before call 0 (its
    start signals), and its recorded waits are its own, at no call's index. -/
def rdat (W : Valuation τ sig (Elt F)) (c : Dev nD) :
    Pipeline.RDat τ (Elt F) (HIx 1) ℕ UU ℕ (Pipeline.pin (pcfgs (F := F)) adm 0) c where
  A w := W (Proc.devRef .tc (Pipeline.arrRef spec0 w))
  after _ _ _ _ := True
  Φ _ := iprop(emp)
  q _ := fullShare
  owed _ := (K (F := F)).Otc c 0
  recorded _ := {p | p.2 = none}

abbrev rdats (W : Valuation τ sig (Elt F)) : (p : Fin 1) → (c : Dev nD) →
    Pipeline.RDat τ (Elt F) (HIx 1) ℕ UU ℕ (Pipeline.pin (pcfgs (F := F)) adm p) c := fun _ c => rdat W c

set_option maxHeartbeats 1000000 in
/-- The body obligation at every point: `sound_kernel` on the current staging memrefs; the `owes` passes through. -/
theorem body_obl (W : Valuation τ sig (Elt F)) (c : Dev nD) :
    (rdat W c).BodyObligation (defs₀ (F := F)) 𝒱₀ (none : HIx 1) Set.univ := fun t Y _ => by
  rw [bigSep_W0, bigSep_W0]
  show iprop(emp ∗ (rdat W c).owesAt (none : HIx 1) t.castSucc ∗ _) ⊢ wp frame _ Set.univ (bodyAt0 t)
    (fun _ => iprop(emp ∗ (rdat W c).owesAt (none : HIx 1) t.castSucc ∗ _))
  unfold bodyAt0
  iintro ⟨-, Ho, H0, H1, H2, H3, H4, H5, H6, H7, H8, H9⟩
  iapply (sound_kernel c Set.univ (grid0.coords t) _ _ _ _ _ _ _ _ _ _ _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨⟨%y0, H0⟩, ⟨%y1, H1⟩, ⟨%y2, H2⟩, ⟨%y3, H3⟩, ⟨%y4, H4⟩, ⟨%y5, H5⟩, ⟨%y6, H6⟩, ⟨%y7, H7⟩, ⟨%y8, H8⟩, ⟨%y9, H9⟩⟩
  isplitr; · iempintro
  isplitl [Ho]; · iexact Ho
  isplitl [H0]; · iexists y0; isplitr; · ipureintro; trivial
                  iexact H0
  isplitl [H1]; · iexists y1; isplitr; · ipureintro; trivial
                  iexact H1
  isplitl [H2]; · iexists y2; isplitr; · ipureintro; trivial
                  iexact H2
  isplitl [H3]; · iexists y3; isplitr; · ipureintro; trivial
                  iexact H3
  isplitl [H4]; · iexists y4; isplitr; · ipureintro; trivial
                  iexact H4
  isplitl [H5]; · iexists y5; isplitr; · ipureintro; trivial
                  iexact H5
  isplitl [H6]; · iexists y6; isplitr; · ipureintro; trivial
                  iexact H6
  isplitl [H7]; · iexists y7; isplitr; · ipureintro; trivial
                  iexact H7
  isplitl [H8]; · iexists y8; isplitr; · ipureintro; trivial
                  iexact H8
  iexists y9; isplitr; · ipureintro; trivial
  iexact H9

/-! ## The region as the pipeline library's region record -/

theorem bigSep_F0 {M : Type} [URA M] (Φ : Fin 0 → sProp M) : bigSep Finset.univ Φ = (BI.emp : sProp M) :=
  bigSep_univ_eq_bigSepL [] (by decide) (by decide) Φ

theorem prefHeld_emp (c : Dev nD) (q) (pf) :
    (Pipeline.prefHeld (Ix := HIx 1) (Name := ℕ) (U := UU) (Lvl := ℕ) (Val := Elt F) (pcfgs (F := F) 0).pre c q pf : sProp 𝕄) = BI.emp :=
  bigSep_F0 _

/-- What the TensorCore owes before call 0 is owed at calls' indices only. -/
theorem Otc_none (c : Dev nD) (g : GSem nD τ sig) : (K (F := F)).Otc c 0 g none = 0 := by
  by_contra h
  have := SparseCore.Cfg.lev_of_Otc_pos (K := K (F := F)) (Nat.pos_of_ne_zero h)
  rw [SparseCore.Cfg.lev_none] at this; omega

/-- The region's record: entered from the arrays at the proof data's entry contents and the core's `owes`, it leaves the arrays
    at contents they may hold after the write-backs and the same `owes`; nothing enters or leaves the (empty) invariant. -/
def reg (W : Valuation τ sig (Elt F)) :
    Pipeline.RDat.RegionSeg (pcfgs (F := F)) adm (rdats W) (none : HIx 1) defs₀ 𝒱₀ (K (F := F)).L (K (F := F)).lev 0 where
  win := winFacts0.to₀
  block_pos := block_pos0
  stage_whole := stage_whole0
  K := PEmpty
  osem k := k.elim
  ho := Pipeline.OwnSemFacts.none _
  hbody c := body_obl W c
  hwaits c := Pipeline.RDat.cellsWaits_intro _ _ _ 0 c fun w s t =>
    (K (F := F)).mayWait_none _ (fun g => Otc_none c g)
  pre c := iprop((rdat W c).arrays (rdat W c).A ∗ (rdat W c).owesAt (none : HIx 1) 0)
  post c := iprop((rdat W c).arraysAt (Pipeline.pin (pcfgs (F := F)) adm 0).N ∗ (rdat W c).owesAt (none : HIx 1) (Fin.last _))
  X _ := iprop(emp)
  Y _ := iprop(emp)
  Z _ := iprop(emp)
  hentry c := by
    rw [Pipeline.ownSems0_none, prefHeld_emp]
    iintro ⟨⟨Ha, Ho⟩, -, -⟩
    imodintro
    isplitl [Ha]; · iexact Ha
    isplitr; · iempintro
    isplitl [Ho]; · iexact Ho
    isplitr <;> iempintro
  hin c := by
    show _ ⊢ (iprop(emp) : sProp 𝕄)
    iintro -; iempintro
  hout c := by
    rw [Pipeline.ownSems0_none]
    show _ ⊢ iprop((iprop(emp) : sProp 𝕄) ∗ BI.emp ∗ Pipeline.scopedRest spec0 c)
    rw [scopedRest0_eq]
    iintro -
    isplitr; · iempintro
    isplitr <;> iempintro
  hexit c := by
    iintro ⟨Ha, Ho, -, -⟩
    imodintro
    isplitl [Ha] <;> iassumption

/-! ## In and out of the pipeline library's spelling -/

/-- The TensorCore's `owes` before call 0 as the pipeline's: its recorded pairs sit at no call's index. -/
theorem owesAt_intro (W : Valuation τ sig (Elt F)) (d : Dev nD) (t : Fin ((Pipeline.pin (pcfgs (F := F)) adm 0).N + 1)) :
    iprop(∃ Wt, ⌜(K (F := F)).WBelow (T d) Wt (8 * 0)⌝ ∗ owes (T d) ((K (F := F)).Otc d 0) Wt)
      ⊢ ((rdat W d).owesAt (none : HIx 1) t : sProp 𝕄) := by
  iintro ⟨%Wt, %hWt, HO⟩
  iexists Wt; isplitr
  · ipureintro; intro p hp; left
    show p.2 = none
    have h0 := hWt p hp
    cases h : p.2 with
    | none => rfl
    | some q => rw [h] at h0; have := (K (F := F)).lev_some_pos (T d, p.1) q; omega
  · iexact HO

theorem owesAt_elim (W : Valuation τ sig (Elt F)) (d : Dev nD) (t : Fin ((Pipeline.pin (pcfgs (F := F)) adm 0).N + 1)) :
    ((rdat W d).owesAt (none : HIx 1) t : sProp 𝕄)
      ⊢ iprop(∃ Wt, ⌜(K (F := F)).WBelow (T d) Wt (8 * 0)⌝ ∗ owes (T d) ((K (F := F)).Otc d 0) Wt) := by
  iintro ⟨%Wt, %hWt, HO⟩
  iexists Wt; isplitr
  · ipureintro; intro p hp
    have e : p.2 = none := by
      rcases hWt hp with h | ⟨w, s, h⟩
      · exact h
      · rw [h]
    show (K (F := F)).lev (T d, p.1) p.2 ≤ 8 * 0
    rw [e]; exact Nat.le_of_eq rfl
  · iexact HO

theorem share_full (W : Valuation τ sig (Elt F)) (d : Dev nD) (w : Fin (Pipeline.pin (pcfgs (F := F)) adm 0).W) :
    (rdats W 0 d).share w = fullShare := by
  unfold Pipeline.RDat.share; split <;> rfl

/-! ## The arrays after the region, back among the TensorCore's unscoped arrays -/

/-- The valuation after the region: the three result arrays at what the region left, the rest as before. -/
def Wafter (W : Valuation τ sig (Elt F)) (f7 : r10_0.ty.Contents (Elt F)) (f8 : r10_1.ty.Contents (Elt F))
    (f9 : (Proc.devRef .tc (main_v10_2 : Ref sig .tc) : DevRef τ sig).ty.Contents (Elt F)) : Valuation τ sig (Elt F) :=
  Function.update (Function.update (Function.update W r10_0 f7) r10_1 f8) (Proc.devRef .tc (main_v10_2 : Ref sig .tc)) f9

theorem Wafter_of_ne (W : Valuation τ sig (Elt F)) (f7 f8 f9) (r : Ref sig .tc) (hr : r ∉ regW) :
    Wafter W f7 f8 f9 (Proc.devRef .tc r) = W (Proc.devRef .tc r) := by
  simp only [regW, List.mem_cons, List.mem_nil_iff, or_false, not_or] at hr
  obtain ⟨h0, h1, h2⟩ := hr
  unfold Wafter
  rw [Function.update_of_ne (StableHlo.devRef_ne_of_ne h2), Function.update_of_ne (StableHlo.devRef_ne_of_ne h1),
    Function.update_of_ne (StableHlo.devRef_ne_of_ne h0)]

theorem Wafter_7 (W : Valuation τ sig (Elt F)) (f7 f8 f9) : Wafter W f7 f8 f9 r10_0 = f7 := by
  unfold Wafter
  rw [Function.update_of_ne (by decide), Function.update_of_ne (by decide), Function.update_self]
theorem Wafter_8 (W : Valuation τ sig (Elt F)) (f7 f8 f9) : Wafter W f7 f8 f9 r10_1 = f8 := by
  unfold Wafter
  rw [Function.update_of_ne (by decide), Function.update_self]
theorem Wafter_9 (W : Valuation τ sig (Elt F)) (f7 f8 f9) :
    Wafter W f7 f8 f9 (Proc.devRef .tc (main_v10_2 : Ref sig .tc)) = f9 := by
  unfold Wafter
  rw [Function.update_self]

/-- An input window's array is, after every write-back, as at entry. -/
theorem F_in (W : Valuation τ sig (Elt F)) (d : Dev nD) (w : Fin (Pipeline.pin (pcfgs (F := F)) adm 0).W)
    (hin : ((Pipeline.pin (pcfgs (F := F)) adm 0).win w).isOut = false) (hw : Pipeline.arrRef spec0 w ∉ regW) (n : ℕ)
    (Fw : Buf (Elt F) (((Pipeline.pin (pcfgs (F := F)) adm 0).win w).arr.view.loc (d.tc : Thread nD τ)))
    (h : (rdat W d).ArrAt w n Fw) (f7 f8 f9) :
    Fw = Wafter W f7 f8 f9 (Proc.devRef .tc (Pipeline.arrRef spec0 w)) := by
  rw [Pipeline.RDat.ArrAt_in (rdat W d) w hin n] at h
  rw [Wafter_of_ne W f7 f8 f9 _ hw]
  exact h

abbrev cfgP : Pipeline.Cfg sig Λ₀ := Pipeline.pin (pcfgs (F := F)) adm 0

theorem arr_notin : ∀ w : Fin 10, w.val < 7 → Pipeline.arrRef spec0 w ∉ regW := by decide
theorem arr_7 : Pipeline.arrRef spec0 7 = main_v10_0 := rfl
theorem arr_8 : Pipeline.arrRef spec0 8 = main_v10_1 := rfl
theorem arr_9 : Pipeline.arrRef spec0 9 = main_v10_2 := rfl

/-- The arrays at `Fs` beside the unscoped rest at `W` are the unscoped arrays at any valuation that has the arrays at `Fs` and
    agrees with `W` off the result arrays. -/
theorem assemble (W W' : Valuation τ sig (Elt F)) (d : Dev nD)
    (Fs : (w : Fin (cfgP (F := F)).W) → Buf (Elt F) (((cfgP (F := F)).win w).arr.view.loc (d.tc : Thread nD τ)))
    (hFW : ∀ w, Fs w = W' (Proc.devRef .tc (Pipeline.arrRef spec0 w)))
    (hrest : ∀ r : Ref sig .tc, r ∉ regW → W' (Proc.devRef .tc r) = W (Proc.devRef .tc r)) :
    iprop((bigSep Finset.univ fun w : Fin (cfgP (F := F)).W =>
          (((d.tc : Thread nD τ).loc (Pipeline.arrRef (cfgP (F := F)).spec w)) ↦{fullShare} Fs w : sProp 𝕄))
        ∗ (Pipeline.unscopedRest (Ix := HIx 1) (Name := ℕ) (U := UU) (Lvl := ℕ) (cfgP (F := F)).spec d (fun b => W (Proc.devRef .tc b)) : sProp 𝕄))
      ⊢ (unscopedBufs d (fun b => W' (Proc.devRef .tc b)) : sProp 𝕄) := by
  have e1 : (bigSep Finset.univ fun w : Fin (cfgP (F := F)).W =>
        (((d.tc : Thread nD τ).loc (Pipeline.arrRef (cfgP (F := F)).spec w)) ↦{fullShare} Fs w : sProp 𝕄))
      = bigSep Finset.univ fun w : Fin (cfgP (F := F)).W =>
        (((d.tc : Thread nD τ).loc (Pipeline.arrRef (cfgP (F := F)).spec w)) ↦{fullShare} W' (Proc.devRef .tc (Pipeline.arrRef (cfgP (F := F)).spec w)) : sProp 𝕄) :=
    bigSep_congr fun w _ => by rw [hFW w]
  have e2 : (Pipeline.unscopedRest (Ix := HIx 1) (Name := ℕ) (U := UU) (Lvl := ℕ) (cfgP (F := F)).spec d (fun b => W (Proc.devRef .tc b)) : sProp 𝕄)
      = Pipeline.unscopedRest (cfgP (F := F)).spec d (fun b => W' (Proc.devRef .tc b)) := by
    unfold Pipeline.unscopedRest
    exact bigSep_congr fun b hb => by
      show ((d.tc : Thread nD τ).loc b ↦{fullShare} W (Proc.devRef .tc b) : sProp 𝕄) = ((d.tc : Thread nD τ).loc b ↦{fullShare} W' (Proc.devRef .tc b))
      rw [hrest b (fun hb' => (Finset.mem_sdiff.mp hb).2 (by
        simp only [regW, List.mem_cons, List.mem_nil_iff, or_false] at hb'
        rcases hb' with rfl | rfl | rfl
        · exact Finset.mem_image.mpr ⟨7, Finset.mem_univ _, rfl⟩
        · exact Finset.mem_image.mpr ⟨8, Finset.mem_univ _, rfl⟩
        · exact Finset.mem_image.mpr ⟨9, Finset.mem_univ _, rfl⟩))]
  rw [Pipeline.unscopedBufs_split (Ix := HIx 1) (Name := ℕ) (U := UU) (Lvl := ℕ) (Val := Elt F) (Pipeline.pin (pcfgs (F := F)) adm) 0
    winFacts0.arr_unscoped winFacts0.arr_inj d (fun b => W' (Proc.devRef .tc b)), e1, e2]

set_option maxHeartbeats 2000000 in
/-- EXIT: the arrays at contents they may hold after the write-backs, beside the unscoped rest as the region found it, are
    the TensorCore's unscoped arrays held at a valuation that differs from the entry's at most on the three result arrays. -/
theorem exit_arrays (W : Valuation τ sig (Elt F)) (d : Dev nD) :
    iprop((rdat W d).arraysAt (cfgP (F := F)).N
        ∗ (Pipeline.unscopedRest (Ix := HIx 1) (Name := ℕ) (U := UU) (Lvl := ℕ) (cfgP (F := F)).spec d (fun b => W (Proc.devRef .tc b)) : sProp 𝕄))
      ⊢ iprop(∃ W' : Valuation τ sig (Elt F), ⌜∀ r : Ref sig .tc, r ∉ regW → W' (Proc.devRef .tc r) = W (Proc.devRef .tc r)⌝
          ∗ (held (T d) (Pipeline.ucRefs τ sig) W' : sProp 𝕄)) := by
  have key := @bigSep_exists_pi 𝕄 _ (Fin (cfgP (F := F)).W) _
    (fun w => Buf (Elt F) (((cfgP (F := F)).win w).arr.view.loc (d.tc : Thread nD τ))) (fun w => ⟨(rdat W d).A w⟩) Finset.univ
    (fun w Fw => iprop(⌜(rdat W d).ArrAt w (cfgP (F := F)).N Fw⌝
      ∗ (((cfgP (F := F)).win w).arr.view.loc (d.tc : Thread nD τ) ↦[((cfgP (F := F)).win w).arr.view.set]{(rdat W d).share w} Fw : sProp 𝕄)))
  unfold Pipeline.RDat.arraysAt
  iintro ⟨Ha, Hr⟩
  ihave Ha' := key $$ Ha
  icases Ha' with ⟨%Fs, Ha⟩
  ihave Hp := (bigSep_pure_sep Finset.univ (fun w => (rdat W d).ArrAt w (cfgP (F := F)).N (Fs w))
    (fun w => (((cfgP (F := F)).win w).arr.view.loc (d.tc : Thread nD τ) ↦[((cfgP (F := F)).win w).arr.view.set]{(rdat W d).share w} Fs w : sProp 𝕄))) $$ Ha
  icases Hp with ⟨%hF, Ha⟩
  have harr : (bigSep Finset.univ fun w : Fin (cfgP (F := F)).W =>
        (((cfgP (F := F)).win w).arr.view.loc (d.tc : Thread nD τ) ↦[((cfgP (F := F)).win w).arr.view.set]{(rdat W d).share w} Fs w : sProp 𝕄))
      = bigSep Finset.univ fun w : Fin (cfgP (F := F)).W =>
        (((d.tc : Thread nD τ).loc (Pipeline.arrRef (cfgP (F := F)).spec w)) ↦{fullShare} Fs w : sProp 𝕄) :=
    Pipeline.RDat.arrays_eq (pcfgs (F := F)) adm (rdats W) 0 d arr_whole0 (share_full W d) Fs
  ihave Ha2 := (Entails.of_eq harr) $$ Ha
  have hFW : ∀ w, Fs w = Wafter W (Fs 7) (Fs 8) (Fs 9) (Proc.devRef .tc (Pipeline.arrRef spec0 w)) := fun w =>
    match w with
    | 0 => F_in W d 0 rfl (arr_notin 0 (by decide)) _ _ (hF 0 (Finset.mem_univ _)) _ _ _
    | 1 => F_in W d 1 rfl (arr_notin 1 (by decide)) _ _ (hF 1 (Finset.mem_univ _)) _ _ _
    | 2 => F_in W d 2 rfl (arr_notin 2 (by decide)) _ _ (hF 2 (Finset.mem_univ _)) _ _ _
    | 3 => F_in W d 3 rfl (arr_notin 3 (by decide)) _ _ (hF 3 (Finset.mem_univ _)) _ _ _
    | 4 => F_in W d 4 rfl (arr_notin 4 (by decide)) _ _ (hF 4 (Finset.mem_univ _)) _ _ _
    | 5 => F_in W d 5 rfl (arr_notin 5 (by decide)) _ _ (hF 5 (Finset.mem_univ _)) _ _ _
    | 6 => F_in W d 6 rfl (arr_notin 6 (by decide)) _ _ (hF 6 (Finset.mem_univ _)) _ _ _
    | 7 => (Wafter_7 W (Fs 7) (Fs 8) (Fs 9)).symm
    | 8 => (Wafter_8 W (Fs 7) (Fs 8) (Fs 9)).symm
    | 9 => (Wafter_9 W (Fs 7) (Fs 8) (Fs 9)).symm
    | ⟨_ + 10, h⟩ => absurd h (Nat.not_lt.2 (Nat.le_add_left _ _))
  iexists Wafter W (Fs 7) (Fs 8) (Fs 9)
  isplitr
  · ipureintro; exact fun r hr => Wafter_of_ne W _ _ _ r hr
  iapply (Entails.of_eq (Pipeline.unscopedBufs_held (Ix := HIx 1) (Name := ℕ) (U := UU) (Lvl := ℕ) d (Wafter W (Fs 7) (Fs 8) (Fs 9))))
  iapply (assemble W (Wafter W (Fs 7) (Fs 8) (Fs 9)) d Fs hFW (fun r hr => Wafter_of_ne W _ _ _ r hr))
  isplitl [Ha2] <;> iassumption

/-! ## The region -/

theorem cellOf_injR : Function.Injective (Pipeline.cellOf (nD := nD) (τ := τ) (Pipeline.pin (pcfgs (F := F)) adm)) := cellOf_inj

theorem reg_pre (W : Valuation τ sig (Elt F)) (d : Dev nD) :
    (reg W).pre d = iprop((rdat W d).arrays (rdat W d).A ∗ (rdat W d).owesAt (none : HIx 1) 0) := rfl
theorem reg_post (W : Valuation τ sig (Elt F)) (d : Dev nD) :
    (reg W).post d = iprop((rdat W d).arraysAt (cfgP (F := F)).N ∗ (rdat W d).owesAt (none : HIx 1) (Fin.last _)) := rfl

/-- The region's call in the program's signature, lifted to the SparseCore program's. -/
theorem lift_region (d : Dev nD) (Φ : PUnit → sProp 𝕄) :
    wp frame (wpE (D (F := F)) 𝒱 (T d) none) Set.univ
        (.op (.customCall (Pipeline.entry 0) ()) fun _ => .ret ⟨⟩ : Prog (TpuEff nD τ sig (Elt F) (ΛP (F := F)) .tc) PUnit) Φ
      ⊢ wp frame (wpE ((K (F := F)).defs (D (F := F))) 𝒱 (T d) none) Set.univ
          (Prog.lift (.customCall (SparseCore.inner (Pipeline.entry 0)) ())) Φ :=
  (K (F := F)).wp_liftProg (D (F := F)) 𝒱 (T d) Set.univ none
    (.op (.customCall (Pipeline.entry 0) ()) fun _ => .ret ⟨⟩ : Prog (TpuEff nD τ sig (Elt F) (ΛP (F := F)) .tc) PUnit) Φ

set_option maxHeartbeats 2000000 in
set_option backward.isDefEq.respectTransparency.types false in
/-- The region in the program's own signature: entered by the pipeline library's region rule at the record `reg W`. -/
theorem region_in (κ : GSem nD τ sig → ℕ) (d : Dev nD) (W : Valuation τ sig (Elt F)) (Φ : PUnit → sProp 𝕄) :
    iprop((K (F := F)).ctx EH P κ ∗ (K (F := F)).tcSt EH d 0 ∗ G (F := F) d ∗ boundary (T d) ∗ (held (T d) (Pipeline.ucRefs τ sig) W : sProp 𝕄)
        ∗ (((K (F := F)).tcSt EH d 0 ∗ boundary (T d)
              ∗ ∃ W' : Valuation τ sig (Elt F), ⌜∀ r : Ref sig .tc, r ∉ regW → W' (Proc.devRef .tc r) = W (Proc.devRef .tc r)⌝
                  ∗ (held (T d) (Pipeline.ucRefs τ sig) W' : sProp 𝕄)) -∗ Φ ⟨⟩))
      ⊢ wp frame (wpE (D (F := F)) 𝒱 (T d) none) Set.univ
          (.op (.customCall (Pipeline.entry 0) ()) fun _ => .ret ⟨⟩ : Prog (TpuEff nD τ sig (Elt F) (ΛP (F := F)) .tc) PUnit) Φ := by
  unfold SparseCore.Cfg.tcSt G
  iintro ⟨#Hctx, ⟨HO, Hst'⟩, ⟨Hg, Ht⟩, Hb, Hheld, Hk⟩
  ihave Hlev := (SparseCore.Cfg.ctx_levAts κ) $$ Hctx
  ihave Hu := (Entails.of_eq (Pipeline.unscopedBufs_held (Ix := HIx 1) (Name := ℕ) (U := UU) (Lvl := ℕ) d W).symm) $$ Hheld
  ihave Hs := (Pipeline.RDat.arrays_of_unscopedBufs (pcfgs (F := F)) adm (rdats W) (p := 0) winFacts0 arr_whole0 d (share_full W d)
    (fun b => W (Proc.devRef .tc b)) (fun w => rfl)) $$ Hu
  icases Hs with ⟨Harr, Hur⟩
  ihave HOa := (owesAt_intro W d 0) $$ HO
  iapply (Pipeline.RDat.RegionSeg.wp (pcfgs (F := F)) adm (rdats W) (none : HIx 1) cellOf_injR EP defs₀ 𝒱₀ (K (F := F)).L (K (F := F)).lev
    (reg W) d none (fun u hu => by cases hu) (fun _ => .ret ⟨⟩) Φ) $$ [Hk Hb Harr HOa Hg Ht Hur Hst']
  isplitl [Hk Hur Hst']
  · iintro ⟨Hb, Hpost⟩
    ihave Hp := (Entails.of_eq (reg_post W d)) $$ Hpost
    icases Hp with ⟨Ha, HOb⟩
    rw [wp_ret]; imodintro
    iapply Hk
    isplitl [HOb Hst']
    · isplitl [HOb]
      · iapply (owesAt_elim W d _); iexact HOb
      · iexact Hst'
    isplitl [Hb]; · iexact Hb
    iapply (exit_arrays W d)
    isplitl [Ha] <;> iassumption
  isplitl [Hb]; · iexact Hb
  isplitl [Harr HOa]
  · iapply (Entails.of_eq (reg_pre W d).symm)
    isplitl [Harr] <;> iassumption
  isplitr; · iexact Hlev
  isplitl [Hg] <;> iassumption

/-- THE KERNEL REGION at frame level: from the TensorCore's state before call 0, the funded cells and the unscoped
    arrays held whole at `W`, the region runs to the same with the arrays at some `W'` that differs from `W` at most
    on the region's three result arrays. -/
theorem region' (κ : GSem nD τ sig → ℕ) (d : Dev nD) (W : Valuation τ sig (Elt F)) {β : Type}
    (k : PUnit → Prog (TpuEff nD τ sig (Elt F) (SparseCore.Sig (ΛP (F := F)) 1) .tc) β) (Q : β → sProp 𝕄) :
    iprop((K (F := F)).ctx EH P κ ∗ (K (F := F)).tcSt EH d 0 ∗ G (F := F) d ∗ boundary (T d) ∗ (held (T d) (Pipeline.ucRefs τ sig) W : sProp 𝕄))
      ⊢ iprop((((K (F := F)).tcSt EH d 0 ∗ boundary (T d)
              ∗ ∃ W' : Valuation τ sig (Elt F), ⌜∀ r : Ref sig .tc, r ∉ regW → W' (Proc.devRef .tc r) = W (Proc.devRef .tc r)⌝
                  ∗ (held (T d) (Pipeline.ucRefs τ sig) W' : sProp 𝕄))
            -∗ wp frame (wpE ((K (F := F)).defs (D (F := F))) 𝒱 (T d) none) Set.univ (k ⟨⟩) Q)
        -∗ wp frame (wpE ((K (F := F)).defs (D (F := F))) 𝒱 (T d) none) Set.univ
          (Prog.lift (.customCall (SparseCore.inner (Pipeline.entry 0)) ()) >>= k) Q) := by
  rw [wp_bind]
  iintro ⟨Hctx, Hst, HG, Hb, Hheld⟩ Hk
  iapply (lift_region d _)
  iapply (region_in κ d W _)
  isplitl [Hctx]; · iexact Hctx
  isplitl [Hst]; · iexact Hst
  isplitl [HG]; · iexact HG
  isplitl [Hb]; · iexact Hb
  isplitl [Hheld]; · iexact Hheld
  iexact Hk

end Cert.Proof.KB

end
-- ==== Proof.ScSplitB.lean ====
/-
  The SparseCore call's operands carved out of the TensorCore's arrays, and its result array put back together.
  Tile (c, s) is worker 2·s + c: it is lent token number 2·s + c of 32 of each node table, its 5120 consecutive entries of the three
  flat arrays (offset 10240·s + 5120·c) and its 320 consecutive rows of the result (row offset 640·s + 320·c): 32 disjoint pieces each.
-/
import proofs.«205997_g24756191494465_cont_8to1_1595_42_alg».proof.Proof.MainAB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-- The tiles: (core, subcore). -/
abbrev I32 : Type := Fin 2 × Fin 16

theorem LL_0 (c : Fin 2) (s : Fin 16) : ((LL c s) 0).val = c.val := rfl
theorem LL_1 (c : Fin 2) (s : Fin 16) : ((LL c s) 1).val = s.val := rfl

theorem ne_vals {cs cs' : I32} (h : cs ≠ cs') : cs.1.val ≠ cs'.1.val ∨ cs.2.val ≠ cs'.2.val := by
  by_cases h1 : cs.1.val = cs'.1.val
  · by_cases h2 : cs.2.val = cs'.2.val
    · exact absurd (Prod.ext (Fin.ext h1) (Fin.ext h2)) h
    · exact Or.inr h2
  · exact Or.inl h1

/-! ## The slices as rectangles, pairwise disjoint -/

theorem set_ii (L : grid1.Coords) : (iiSl L).view.set = (Rect.unit (s := S163840) (k1_off1 L) S5120.size (k1_off1_inb L)).set := View.set_slice_whole _ _
theorem set_ij (L : grid1.Coords) : (ijSl L).view.set = (Rect.unit (s := S163840) (k1_off1 L) S5120.size (k1_off1_inb L)).set := View.set_slice_whole _ _
theorem set_sp (L : grid1.Coords) : (spSl L).view.set = (Rect.unit (s := S163840) (k1_off1 L) S5120.size (k1_off1_inb L)).set := View.set_slice_whole _ _
theorem set_ou (L : grid1.Coords) : (ouSl L).view.set = (Rect.unit (s := S10240x128) (k1_off39 L) S320x128.size (k1_off39_inb L)).set := View.set_slice_whole _ _

theorem disj1 (cs cs' : I32) (h : cs ≠ cs') :
    Disjoint (Rect.unit (s := S163840) (k1_off1 (LL cs.1 cs.2)) S5120.size (k1_off1_inb _)).set
      (Rect.unit (s := S163840) (k1_off1 (LL cs'.1 cs'.2)) S5120.size (k1_off1_inb _)).set := by
  refine Rect.unit_disjoint 0 ?_
  rw [k1_off1_eq, k1_off1_eq]
  have h1 := ne_vals h; have h2 := cs.1.isLt; have h3 := cs'.1.isLt
  show 10240 * cs.2.val + 5120 * cs.1.val + 5120 ≤ 10240 * cs'.2.val + 5120 * cs'.1.val
    ∨ 10240 * cs'.2.val + 5120 * cs'.1.val + 5120 ≤ 10240 * cs.2.val + 5120 * cs.1.val
  omega

theorem disj39 (cs cs' : I32) (h : cs ≠ cs') :
    Disjoint (Rect.unit (s := S10240x128) (k1_off39 (LL cs.1 cs.2)) S320x128.size (k1_off39_inb _)).set
      (Rect.unit (s := S10240x128) (k1_off39 (LL cs'.1 cs'.2)) S320x128.size (k1_off39_inb _)).set := by
  refine Rect.unit_disjoint 0 ?_
  rw [k1_off39_eq, k1_off39_eq]
  have h1 := ne_vals h; have h2 := cs.1.isLt; have h3 := cs'.1.isLt
  show 640 * cs.2.val + 320 * cs.1.val + 320 ≤ 640 * cs'.2.val + 320 * cs'.1.val
    ∨ 640 * cs'.2.val + 320 * cs'.1.val + 320 ≤ 640 * cs.2.val + 320 * cs.1.val
  omega

/-! ## Carving an array into the tiles' pieces -/

/-- An array held whole is, for any pairwise disjoint family of element sets over the tiles, each tile's piece (the elements
    outside every piece are let go). -/
theorem carve {ℓ : Loc nD τ sig} (g : Buf (Elt F) ℓ) (Kt : I32 → Finset (Idx ℓ))
    (hd : ∀ cs cs', cs ≠ cs' → Disjoint (Kt cs) (Kt cs')) :
    (ℓ ↦{fullShare} g : sProp 𝕄)
      ⊢ bigSep Finset.univ fun c : Fin 2 => bigSep Finset.univ fun s : Fin 16 => (ℓ ↦[Kt (c, s)]{fullShare} g : sProp 𝕄) := by
  rw [← bigSep_univ_prod (fun cs : I32 => (ℓ ↦[Kt cs]{fullShare} g : sProp 𝕄)),
    ← pointsTo_biUnion Finset.univ Kt (fun t _ t' _ h => hd t t' h)]
  exact (pointsTo_split_subset (Finset.subset_univ _)).1.trans sep_elim_left

/-- The tiles' pieces of an array, each at some contents, make the pieces' union at some contents. -/
theorem uncarve {ℓ : Loc nD τ sig} (f₀ : Buf (Elt F) ℓ) (Kt : I32 → Finset (Idx ℓ))
    (hd : ∀ cs cs', cs ≠ cs' → Disjoint (Kt cs) (Kt cs')) :
    (bigSep Finset.univ fun c : Fin 2 => bigSep Finset.univ fun s : Fin 16 => iprop(∃ f, (ℓ ↦[Kt (c, s)]{fullShare} f : sProp 𝕄)))
      ⊢ iprop(∃ g, (ℓ ↦[Finset.univ.biUnion Kt]{fullShare} g : sProp 𝕄)) := by
  rw [← bigSep_univ_prod (fun cs : I32 => iprop(∃ f, (ℓ ↦[Kt cs]{fullShare} f : sProp 𝕄)))]
  have key := @bigSep_exists_pi 𝕄 _ I32 _ (fun _ => Buf (Elt F) ℓ) (fun _ => ⟨f₀⟩) (Finset.univ : Finset I32)
    (fun cs f => (ℓ ↦[Kt cs]{fullShare} f : sProp 𝕄))
  iintro H
  ihave H' := key $$ H
  icases H' with ⟨%fs, H⟩
  ihave H'' := (pointsTo_biUnion_join Finset.univ Kt fs f₀ (fun t _ t' _ h => hd t t' h)) $$ H
  icases H'' with ⟨%g, -, H⟩
  iexists g; iexact H

/-! ## The node tables' read shares -/

/-- The worker number of tile (c, s). -/
def widP (cs : I32) : Fin 32 := ⟨2 * cs.2.val + cs.1.val, by have := cs.1.isLt; have := cs.2.isLt; omega⟩

theorem widP_inj : Function.Injective widP := fun cs cs' h => by
  have e : 2 * cs.2.val + cs.1.val = 2 * cs'.2.val + cs'.1.val := congrArg Fin.val h
  have h2 := cs.1.isLt; have h3 := cs'.1.isLt
  exact Prod.ext (Fin.ext (by omega)) (Fin.ext (by omega))

theorem wid_LL (c : Fin 2) (s : Fin 16) : wid (LL c s) = widP (c, s) := rfl

/-- A table held whole lends every tile its read share (the remainder is let go). -/
theorem lend {ℓ : Loc nD τ sig} (f : Buf (Elt F) ℓ) :
    (ℓ ↦{fullShare} f : sProp 𝕄)
      ⊢ bigSep Finset.univ fun c : Fin 2 => bigSep Finset.univ fun s : Fin 16 => iprop(∃ f', (ℓ ↦{tabShare (LL c s)} f' : sProp 𝕄)) := by
  rw [← bigSep_univ_prod (fun cs : I32 => iprop(∃ f', (ℓ ↦{tabShare (LL cs.1 cs.2)} f' : sProp 𝕄)))]
  refine (Transfers.pointsTo_toks_split fullShare 32).trans (sep_elim_right.trans ?_)
  refine (bigSep_subset (Finset.subset_univ ((Finset.univ : Finset I32).image widP))).trans ?_
  rw [SparseCore.bigSep_image_of_injOn (widP_inj.injOn)]
  refine bigSep_mono fun cs _ => ?_
  show (ℓ ↦{tabShare (LL cs.1 cs.2)} f : sProp 𝕄) ⊢ iprop(∃ f', (ℓ ↦{tabShare (LL cs.1 cs.2)} f' : sProp 𝕄))
  iintro H; iexists f; iexact H

/-! ## The call's operands -/

theorem sixS_sub : sixS ⊆ Pipeline.ucRefs τ sig := by decide

theorem held_six (d : Dev nD) (W : Valuation τ sig (Elt F)) :
    (held (T d) sixS W : sProp 𝕄)
      = iprop((y1L d ↦{fullShare} W r10_0) ∗ (y2L d ↦{fullShare} W r10_1) ∗ (iiL d ↦{fullShare} W r14) ∗ (ijL d ↦{fullShare} W r16)
          ∗ (spL d ↦{fullShare} W r17) ∗ (ouL d ↦{fullShare} W r18)) := by
  unfold held
  rw [SparseCore.bigSep_insert' (by decide), SparseCore.bigSep_insert' (by decide), SparseCore.bigSep_insert' (by decide),
    SparseCore.bigSep_insert' (by decide), SparseCore.bigSep_insert' (by decide), bigSep_singleton]

theorem piece_some {ℓ : Loc nD τ sig} (S : Finset (Idx ℓ)) (g : Buf (Elt F) ℓ) :
    (ℓ ↦[S]{fullShare} g : sProp 𝕄) ⊢ iprop(∃ f, (ℓ ↦[S]{fullShare} f : sProp 𝕄)) := by
  iintro H; iexists g; iexact H

theorem piece_rows14 (d : Dev nD) (S : Finset S163840.Idx) (g : Buf (Elt F) (iiL d)) (h : InRows Finset.univ g) :
    (iiL d ↦[S]{fullShare} g : sProp 𝕄) ⊢ iprop(∃ f, ⌜InRows S f⌝ ∗ (iiL d ↦[S]{fullShare} f : sProp 𝕄)) := by
  iintro H; iexists g; isplitr
  · ipureintro; exact fun j _ => h j (Finset.mem_univ j)
  · iexact H
theorem piece_rows16 (d : Dev nD) (S : Finset S163840.Idx) (g : Buf (Elt F) (ijL d)) (h : InRows Finset.univ g) :
    (ijL d ↦[S]{fullShare} g : sProp 𝕄) ⊢ iprop(∃ f, ⌜InRows S f⌝ ∗ (ijL d ↦[S]{fullShare} f : sProp 𝕄)) := by
  iintro H; iexists g; isplitr
  · ipureintro; exact fun j _ => h j (Finset.mem_univ j)
  · iexact H

set_option maxHeartbeats 1000000 in
/-- The six arrays held whole are every tile's payload. -/
theorem tiles_intro (d : Dev nD) (f1 : Buf (Elt F) (y1L d)) (f2 : Buf (Elt F) (y2L d)) (g1 : Buf (Elt F) (iiL d)) (g2 : Buf (Elt F) (ijL d))
    (g3 : Buf (Elt F) (spL d)) (g4 : Buf (Elt F) (ouL d)) (h1 : InRows Finset.univ g1) (h2 : InRows Finset.univ g2) :
    iprop((y1L d ↦{fullShare} f1) ∗ (y2L d ↦{fullShare} f2) ∗ (iiL d ↦{fullShare} g1) ∗ (ijL d ↦{fullShare} g2)
        ∗ (spL d ↦{fullShare} g3) ∗ (ouL d ↦{fullShare} g4))
      ⊢ (bigSep Finset.univ fun c : Fin 2 => bigSep Finset.univ fun s : Fin 16 => tilePay (F := F) d (LL c s)) := by
  unfold tilePay
  simp only [bigSep_sep']
  iintro ⟨H1, H2, H3, H4, H5, H6⟩
  isplitl [H1]; · iapply (lend f1); iexact H1
  isplitl [H2]; · iapply (lend f2); iexact H2
  isplitl [H3]
  · iapply ((carve g1 (fun cs => (iiSl (LL cs.1 cs.2)).view.set) (fun cs cs' h => by rw [set_ii, set_ii]; exact disj1 cs cs' h)).trans
      (bigSep_mono fun c _ => bigSep_mono fun s _ => piece_rows14 d _ g1 h1))
    iexact H3
  isplitl [H4]
  · iapply ((carve g2 (fun cs => (ijSl (LL cs.1 cs.2)).view.set) (fun cs cs' h => by rw [set_ij, set_ij]; exact disj1 cs cs' h)).trans
      (bigSep_mono fun c _ => bigSep_mono fun s _ => piece_rows16 d _ g2 h2))
    iexact H4
  isplitl [H5]
  · iapply ((carve g3 (fun cs => (spSl (LL cs.1 cs.2)).view.set) (fun cs cs' h => by rw [set_sp, set_sp]; exact disj1 cs cs' h)).trans
      (bigSep_mono fun c _ => bigSep_mono fun s _ => piece_some _ g3))
    iexact H5
  · iapply ((carve g4 (fun cs => (ouSl (LL cs.1 cs.2)).view.set) (fun cs cs' h => by rw [set_ou, set_ou]; exact disj39 cs cs' h)).trans
      (bigSep_mono fun c _ => bigSep_mono fun s _ => piece_some _ g4))
    iexact H6

theorem st_eq (d : Dev nD) :
    (bigSep Finset.univ fun c : Fin ((K (F := F)).nCore 0) => (P (F := F)).st 0 d c)
      = (bigSep (Finset.univ : Finset (Fin 2)) fun c => bigSep Finset.univ fun s : Fin 16 => tilePay (F := F) d (LL c s)) := rfl
theorem dn_eq (d : Dev nD) :
    (bigSep Finset.univ fun c : Fin ((K (F := F)).nCore 0) => (P (F := F)).dn 0 d c)
      = (bigSep (Finset.univ : Finset (Fin 2)) fun c => bigSep Finset.univ fun s : Fin 16 => tilePay (F := F) d (LL c s)) := rfl

theorem sc_pre' (d : Dev nD) (W : Valuation τ sig (Elt F))
    (h14 : InRows Finset.univ (W r14)) (h16 : InRows Finset.univ (W r16)) :
    (held (T d) (Pipeline.ucRefs τ sig) W : sProp 𝕄)
      ⊢ iprop((bigSep Finset.univ fun c : Fin ((K (F := F)).nCore 0) => (P (F := F)).st 0 d c)
          ∗ held (T d) (Pipeline.ucRefs τ sig \ sixS) W) := by
  rw [StableHlo.held_sub_split (T d) sixS_sub W, held_six, st_eq]
  exact sep_mono (tiles_intro d _ _ _ _ _ _ h14 h16) .rfl

end Cert.Proof.KB

end
-- ==== Proof.ScPostB.lean ====
/-
  The SparseCore call's result array put back together on the TensorCore.

  Each tile hands back its 320 rows of the result at contents of its own; the 32 row blocks (row offset 640·s + 320·c for
  tile (c, s)) are pairwise disjoint and cover the 10240 rows (row r lies in the block of s = r / 640, c = (r mod 640) / 320),
  so together they are the whole array at some contents.  What else a tile hands back (the tables' read shares, its slices of
  the edge lists and of the damping factors) @main never reads again and is let go.
-/
import proofs.«205997_g24756191494465_cont_8to1_1595_42_alg».proof.Proof.ScSplitB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-- Tile (c, s)'s rows of the result array, as a set of its elements. -/
abbrev ouK (d : Dev nD) : I32 → Finset (Idx (ouL d)) := fun cs => (ouSl (LL cs.1 cs.2)).view.set

/-- A tile's payload holds its rows of the result at some contents. -/
theorem tilePay_ou (d : Dev nD) (L : grid1.Coords) :
    (tilePay (F := F) d L) ⊢ iprop(∃ f, (ouL d ↦[(ouSl L).view.set]{fullShare} f : sProp 𝕄)) := by
  unfold tilePay
  iintro ⟨-, -, -, -, -, H⟩
  iexact H

/-- The 32 tiles' row blocks cover the result array. -/
theorem cover39 (d : Dev nD) : (Finset.univ : Finset I32).biUnion (ouK d) = Finset.univ := by
  refine Finset.eq_univ_iff_forall.2 fun j => ?_
  have hr : (j 0).val < 10240 := (j 0).isLt
  have hcol : (j 1).val < 128 := (j 1).isLt
  refine Finset.mem_biUnion.2 ⟨(⟨(j 0).val % 640 / 320, by omega⟩, ⟨(j 0).val / 640, by omega⟩), Finset.mem_univ _, ?_⟩
  refine (Finset.ext_iff.mp (set_ou (LL _ _)) j).mpr (Rect.mem_set_unit.mpr ?_)
  rw [k1_off39_eq]
  intro a
  match a with
  | ⟨0, _⟩ =>
    show 640 * ((j 0).val / 640) + 320 * ((j 0).val % 640 / 320) ≤ (j 0).val
      ∧ (j 0).val < 640 * ((j 0).val / 640) + 320 * ((j 0).val % 640 / 320) + 320
    omega
  | ⟨1, _⟩ =>
    show 0 ≤ (j 1).val ∧ (j 1).val < 0 + 128
    omega

/-- The arrays @main still holds after the call, with the result array at `g`: the result array at `g`, and the others as
    they were. -/
theorem held_five (d : Dev nD) (W : Valuation τ sig (Elt F)) (g) :
    (held (T d) (Pipeline.ucRefs τ sig \ fiveS) (Function.update W r18 g) : sProp 𝕄)
      = iprop((ouL d ↦{fullShare} g) ∗ held (T d) (Pipeline.ucRefs τ sig \ sixS) W) := by
  have hset : Pipeline.ucRefs τ sig \ fiveS = insert r18 (Pipeline.ucRefs τ sig \ sixS) := by decide
  have hnot : r18 ∉ Pipeline.ucRefs τ sig \ sixS := by decide
  rw [hset]
  unfold held
  rw [SparseCore.bigSep_insert' hnot, Function.update_self]
  refine congrArg (fun B : sProp 𝕄 => iprop((ouL d ↦{fullShare} g) ∗ B)) (bigSep_congr fun b hb => ?_)
  rw [Function.update_of_ne (fun (e : b = r18) => hnot (e ▸ hb))]

/-- THE RESULT BACK: what the tiles hand back, beside the arrays the call did not touch, is the TensorCore's arrays with the
    result array at some contents. -/
theorem sc_post' (d : Dev nD) (W : Valuation τ sig (Elt F)) :
    iprop((bigSep Finset.univ fun c : Fin ((K (F := F)).nCore 0) => (P (F := F)).dn 0 d c)
          ∗ (held (T d) (Pipeline.ucRefs τ sig \ sixS) W : sProp 𝕄))
      ⊢ iprop(∃ g, (held (T d) (Pipeline.ucRefs τ sig \ fiveS) (Function.update W r18 g) : sProp 𝕄)) := by
  rw [dn_eq]
  have hou : (bigSep (Finset.univ : Finset (Fin 2)) fun c => bigSep Finset.univ fun s : Fin 16 => tilePay (F := F) d (LL c s))
      ⊢ iprop(∃ g, (ouL d ↦{fullShare} g : sProp 𝕄)) := by
    refine (bigSep_mono fun c _ => bigSep_mono fun s _ => tilePay_ou d (LL c s)).trans ?_
    refine (uncarve (W r18) (ouK d) (fun cs cs' h => by
      show Disjoint (ouSl (LL cs.1 cs.2)).view.set (ouSl (LL cs'.1 cs'.2)).view.set
      rw [set_ou, set_ou]; exact disj39 cs cs' h)).trans ?_
    rw [cover39 d]
  iintro ⟨Hdn, Hrest⟩
  ihave Hg := hou $$ Hdn
  icases Hg with ⟨%g, Hg⟩
  iexists g
  iapply (Entails.of_eq (held_five d W g).symm)
  isplitl [Hg]; · iexact Hg
  iexact Hrest

end Cert.Proof.KB

end
-- ==== Proof.MainB.lean ====
/-
  @main on the TensorCore, assembled: host stretches, the kernel region, the SparseCore call.
-/
import proofs.«205997_g24756191494465_cont_8to1_1595_42_alg».proof.Proof.RegionB
import proofs.«205997_g24756191494465_cont_8to1_1595_42_alg».proof.Proof.ScPostB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

/-! ## @main -/

/-- The launch's deal of the TensorCore's unscoped arrays is the set of them held at the launch contents. -/
theorem tcBufs_held (m : (ℓ : Loc nD τ sig) → Buf (Elt F) ℓ) (d : Dev nD) :
    (unscopedBufs d (fun b => m ((SparseCore.T d).loc b)) : sProp 𝕄) = held (SparseCore.T d) (Pipeline.ucRefs τ sig) (V0 m d) :=
  Pipeline.unscopedBufs_held (Ix := HIx 1) (Name := ℕ) (U := UU) (Lvl := ℕ) d (V0 m d)

set_option maxHeartbeats 1600000 in
/-- @main on device `d`'s TensorCore: five host stretches, the kernel region, three host stretches, the SparseCore call
    (its operands carved out of the arrays, its result put back), the last host stretch; the arguments are never written. -/
theorem hmain (m : (ℓ : Loc nD τ sig) → Buf (Elt F) ℓ) (ρ : Dev nD → PrngReg) (hpre : PreOK m) (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d) := by
  unfold SparseCore.Cfg.tcRes
  rw [main_chain, tcBufs_held]
  simp only [Pipeline.chain_cons, Pipeline.chain_nil]
  iintro ⟨#Hctx, Hst, ⟨Hb, Hheld, -, -⟩, HG⟩
  iapply (wp_stretch d opsA opsA_sub opsA_fresh _ _ _) $$ [Hb Hheld]
  · isplitl [Hb] <;> iassumption
  iintro ⟨Hb, Hheld⟩
  iapply (wp_stretch d opsB opsB_sub opsB_fresh _ _ _) $$ [Hb Hheld]
  · isplitl [Hb] <;> iassumption
  iintro ⟨Hb, Hheld⟩
  iapply (wp_stretch d opsC opsC_sub opsC_fresh _ _ _) $$ [Hb Hheld]
  · isplitl [Hb] <;> iassumption
  iintro ⟨Hb, Hheld⟩
  iapply (wp_stretch d opsD opsD_sub opsD_fresh _ _ _) $$ [Hb Hheld]
  · isplitl [Hb] <;> iassumption
  iintro ⟨Hb, Hheld⟩
  iapply (wp_stretch d opsE opsE_sub opsE_fresh _ _ _) $$ [Hb Hheld]
  · isplitl [Hb] <;> iassumption
  iintro ⟨Hb, Hheld⟩
  -- the kernel region
  iapply (region' κ d _ _ _) $$ [Hst HG Hb Hheld]
  · isplitr; · iexact Hctx
    isplitl [Hst]; · iexact Hst
    isplitl [HG]; · iexact HG
    isplitl [Hb] <;> iassumption
  iintro ⟨Hst, Hb, %W', %hW', Hheld⟩
  have harg : ∀ r ∈ argL, W' (Proc.devRef .tc r) = V0 m d (Proc.devRef .tc r) := fun r hr =>
    (hW' r (argL_regW r hr)).trans (stretch1_arg _ r (argL_hostW r hr))
  have h1 : ∀ i : S2x1x10000x16.Idx, ((W' (Proc.devRef .tc main_arg1) : S2x1x10000x16.Idx → BitVec 32) i).toNat < 10240 := by
    rw [harg main_arg1 (by decide)]; exact hpre d
  iapply (wp_stretch d opsF opsF_sub opsF_fresh _ _ _) $$ [Hb Hheld]
  · isplitl [Hb] <;> iassumption
  iintro ⟨Hb, Hheld⟩
  iapply (wp_stretch d opsG opsG_sub opsG_fresh _ _ _) $$ [Hb Hheld]
  · isplitl [Hb] <;> iassumption
  iintro ⟨Hb, Hheld⟩
  iapply (wp_stretch d opsH opsH_sub opsH_fresh _ _ _) $$ [Hb Hheld]
  · isplitl [Hb] <;> iassumption
  iintro ⟨Hb, Hheld⟩
  -- the SparseCore call
  rw [wp_bind]
  ihave Hs := (sc_pre' d _ (rows14 W' h1) (rows16 W' h1)) $$ Hheld
  icases Hs with ⟨Hst0, Hrest⟩
  iapply ((K (F := F)).wp_run (D (F := F)) 𝒱 (EH := EH) (P := P) κ d 0) $$ [Hst Hst0 Hb Hrest]
  isplitr; · iexact Hctx
  isplitl [Hst]; · iexact Hst
  isplitl [Hst0]; · iexact Hst0
  iintro ⟨Hst, Hdn⟩
  ihave Hp := (sc_post' d _) $$ [Hdn Hrest]
  · isplitl [Hdn] <;> iassumption
  icases Hp with ⟨%g, Hheld⟩
  iapply (wp_stretchS d (Pipeline.ucRefs τ sig \ fiveS) opsI opsI_S opsI_fresh _ _ _) $$ [Hb Hheld]
  · isplitl [Hb] <;> iassumption
  iintro ⟨Hb, Hheld⟩
  rw [show (pure ⟨⟩ : Prog (TpuEff nD τ sig (Elt F) (SparseCore.Sig (ΛP (F := F)) 1) .tc) PUnit) = .ret ⟨⟩ from rfl, wp_ret]
  imodintro
  isplitl [Hst]; · iexact Hst
  ihave Hh := (Entails.of_eq (StableHlo.held_sub_split (T d) argS_sub _)) $$ Hheld
  icases Hh with ⟨Hargs, -⟩
  ihave Ha := (Entails.of_eq (StableHlo.held_congr (T d) (S := argS) (V' := V0 m d) (fun b hb => by
    obtain ⟨r, hr, rfl⟩ := List.mem_map.mp (List.mem_toFinset.mp hb)
    rw [stretch3_arg _ r (argL_hostW r hr), Function.update_of_ne (StableHlo.devRef_ne_of_ne (argL_v18 r hr)),
      stretch2_arg _ r (argL_hostW r hr)]
    exact harg r hr))) $$ Hargs
  iexact Ha

end Cert.Proof.KB

end
-- ==== Proof.LaunchB.lean ====
/-
  The launch element (the handshakes' rounds, the pipeline's staging cells funded, no counter) and how the final memory reads the claim.
-/
import proofs.«205997_g24756191494465_cont_8to1_1595_42_alg».proof.Proof.MainAB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-! ## The launch element -/

/-- The pipeline's staging cells are pairwise distinct. -/
theorem cellOf_inj' : Function.Injective (Pipeline.cellOf (nD := nD) (τ := τ) (Pipeline.pin (pcfgs (F := F)) adm)) := cellOf_inj

/-- The handshakes' rounds at the handshake cells; the pipeline's rounds at its staging cells and transfers; no counter. -/
def u₀ : UU :=
  (initOf (K (F := F)).hsCells (K (F := F)).hsToks,
    (initOf (Pipeline.cells (Pipeline.pin (pcfgs (F := F)) adm) cellOf_inj') (Pipeline.launchToks (Pipeline.pin (pcfgs (F := F)) adm) cellOf_inj'), 1))

theorem bigSep_F1 (Φ : Fin 1 → sProp 𝕄) : bigSep Finset.univ Φ = Φ 0 := by
  rw [show (Finset.univ : Finset (Fin 1)) = {0} from rfl, bigSep_singleton]

theorem x_emp : (bigSep Finset.univ fun thr : Thread nD τ => bigSep Finset.univ fun q : Fin 1 => (P (F := F)).x q thr) = (iprop(emp) : sProp 𝕄) := by
  rw [show (fun thr : Thread nD τ => bigSep Finset.univ fun q : Fin 1 => (P (F := F)).x q thr) = fun _ => (iprop(emp) : sProp 𝕄)
    from funext fun thr => bigSep_emp_const _]
  exact bigSep_emp_const _

theorem hu₀ : iprop(ownU (u₀ (F := F)) ∗ (P (F := F)).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P (F := F)).x q thr) := by
  rw [x_emp]
  unfold u₀
  iintro ⟨Hu, -, -⟩
  ihave H := (ownU_pair _ _) $$ Hu
  icases H with ⟨HH, HR⟩
  ihave H2 := (own_pair_emb embR _ _) $$ HR
  icases H2 with ⟨HP, -⟩
  imod (Pipeline.fund_ghost (Pipeline.pin (pcfgs (F := F)) adm) EP cellOf_inj') $$ HP with ⟨Hg, Ht⟩
  imodintro
  isplitl [HH]; · iexact HH
  isplitl [Hg Ht]
  · unfold G
    rw [bigSep_sep']
    isplitl [Hg]
    · iapply (Entails.of_eq (bigSep_congr fun c _ => bigSep_F1 (fun p => Pipeline.cellsGhost (Pipeline.pin (pcfgs (F := F)) adm) EP p c)))
      iexact Hg
    · iapply (Entails.of_eq (bigSep_congr fun c _ => bigSep_F1 (fun p => Pipeline.toksInit (Pipeline.pin (pcfgs (F := F)) adm) EP p c)))
      iexact Ht
  iempintro

/-! ## The final memory -/

/-- The final memory has the eight argument arrays of device `d` at their launch contents. -/
def fq (m : (ℓ : Loc nD τ sig) → Buf (Elt F) ℓ) (d : Dev nD) (s' : Phys nD τ sig (Elt F)) : Prop :=
  ∀ b ∈ argS, s'.mem.mem (d, b) = V0 m d b

theorem hfin (m : (ℓ : Loc nD τ sig) → Buf (Elt F) ℓ) (d : Dev nD) (s' : Phys nD τ sig (Elt F)) :
    iprop(FIN m d ∗ SI s') ⊢ (⌜fq m d s'⌝ : sProp 𝕄) :=
  posts_pure argS (Φ := fun b => (((d, b) : Loc nD τ sig) ↦{fullShare} V0 m d b : sProp 𝕄))
    (q := fun b s' => s'.mem.mem (d, b) = V0 m d b) (fun b s' => by
      iintro ⟨Hx, HSI⟩
      ihave H := (SI_pointsTo_agree (st := s') (ℓ := (d, b)) (I := Finset.univ) (q := fullShare) (f := V0 m d b)) $$ [HSI Hx]
      · isplitl [HSI] <;> iassumption
      icases H with %hx
      ipureintro; exact funext fun i => hx i (Finset.mem_univ i)) s'

/-- An argument array read off `fq`. -/
theorem fq_arg {m : (ℓ : Loc nD τ sig) → Buf (Elt F) ℓ} {d : Dev nD} {s' : Phys nD τ sig (Elt F)} (h : fq m d s')
    (r : Ref sig .tc) (hr : r ∈ argL) : s'.mem.mem ((SparseCore.T d).loc r) = m ((SparseCore.T d).loc r) :=
  h _ (List.mem_toFinset.mpr (List.mem_map_of_mem hr))

end Cert.Proof.KB

end
-- ==== Proof.OkOfPreB.lean ====
/-
  The precondition bounds the edge list: every entry, read signed, is in [0, 9999], hence names a row of the node tables
  (there are 10240 of them, the 10000 nodes and the padding).
-/
import proofs.«205997_g24756191494465_cont_8to1_1595_42_alg».proof.Proof.MainAB
import proofs.«205997_g24756191494465_cont_8to1_1595_42_alg».proof.Proof.PreFacts
import Idealize.ShloMosaic.Lib.ReduceAll

noncomputable section

namespace Cert.Proof.KB

open Cert.Kernel Cert.Kernel.Gen
open Idealize.ShloMosaic Idealize.ShloMosaic.ValueIdx
open Idealize.SL.Sem

variable {F : FTy → Type} [FloatOps F]

/-- The last conjunct of the precondition, read back at an entry of the edge list: below 10240 read unsigned. -/
theorem range_of_pre [Cert.Pre_input_domain.Facts]
    (a0 : FVec F Cert.Pre_input_domain.S1x128x10000x1 .f32) (a1 : IVec Cert.Pre_input_domain.S2x1x10000x16 32)
    (a2 : FVec F Cert.Pre_input_domain.S1x10000x3 .f32) (a3 : FVec F Cert.Pre_input_domain.S1x10000x16 .f32)
    (a4 : FVec F Cert.Pre_input_domain.S128x256 .f32) (a5 : FVec F Cert.Pre_input_domain.S128 .f32)
    (a6 : FVec F Cert.Pre_input_domain.S1x16 .f32) (a7 : FVec F Cert.Pre_input_domain.S1 .f32)
    (h : Cert.Pre_input_domain.fn (F := F) a0 a1 a2 a3 a4 a5 a6 a7 = fun _ => 1#1) (i : Cert.Pre_input_domain.S2x1x10000x16.Idx) :
    (a1 i).toNat < 10240 := by
  have h0 := congrFun h ix0
  dsimp only [Cert.Pre_input_domain.fn, Cert.Pre_input_domain.fn_part1, Cert.Pre_input_domain.fn_part2] at h0
  obtain ⟨-, h39⟩ := IntOp.andi_eq_one.1 h0
  obtain ⟨hge, hle⟩ := IntOp.andi_eq_one.1 (Host.reduce_andi_all _ _ _ _ ix0 h39 i)
  have h1 : (0#32 : BitVec 32).toInt ≤ (a1 i).toInt := IntOp.cmpi_sge.1 hge
  have h2 : (a1 i).toInt ≤ (9999#32 : BitVec 32).toInt := IntOp.cmpi_sle.1 hle
  rw [show (0#32 : BitVec 32).toInt = 0 from rfl] at h1
  rw [show (9999#32 : BitVec 32).toInt = 9999 from rfl] at h2
  have hc := BitVec.toInt_eq_toNat_cond (a1 i)
  have hlt := (a1 i).isLt
  split_ifs at hc <;> omega

/-- THE PRECONDITION GIVES THE RANGE the SparseCore call needs: every entry of the edge-index argument names a row of the
    node tables, on every device. -/
theorem ok_of_pre [Cert.Pre_input_domain.Facts] (m : (ℓ : Loc nD τ sig) → Buf (Elt F) ℓ)
    (hpre : ∀ c : Dev nD, Cert.Pre_input_domain.fn (F := F)
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) = fun _ => 1#1) :
    PreOK m :=
  fun d i => range_of_pre _ _ _ _ _ _ _ _ (hpre d) i

end Cert.Proof.KB

end
-- ==== Proof.FramesB.lean ====
/-
  The kernel program's run, assembled: the launch of the one SparseCore call from the tile's obligation and the split of a
  core's operands among its tiles, @main on the TensorCore around it, the launch element of the ghost state, and the final
  memory read back; then the frame claim: from the precondition, every weakly fair execution terminates and the eight
  argument arrays end as they were launched.
-/
import proofs.«205997_g24756191494465_cont_8to1_1595_42_alg».proof.Proof.TileOblB
import proofs.«205997_g24756191494465_cont_8to1_1595_42_alg».proof.Proof.TileCoreB
import proofs.«205997_g24756191494465_cont_8to1_1595_42_alg».proof.Proof.MainB
import proofs.«205997_g24756191494465_cont_8to1_1595_42_alg».proof.Proof.LaunchB
import proofs.«205997_g24756191494465_cont_8to1_1595_42_alg».proof.Proof.OkOfPreB
import proofs.«205997_g24756191494465_cont_8to1_1595_42_alg».proof.Proof.Gen.Pre_input_domain

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "y1W" => (Memref.whole Cert.Kernel.main_v10_0_scv : Memref Cert.Kernel.sig Kind.scVector Space.hbm Cert.Kernel.S10240x128 EltTy.f32)
local notation "y2W" => (Memref.whole Cert.Kernel.main_v10_1_scv : Memref Cert.Kernel.sig Kind.scVector Space.hbm Cert.Kernel.S10240x128 EltTy.f32)
local notation "iiW" => (Memref.whole Cert.Kernel.main_v14_scv : Memref Cert.Kernel.sig Kind.scVector Space.hbm Cert.Kernel.S163840 EltTy.i32)
local notation "ijW" => (Memref.whole Cert.Kernel.main_v16_scv : Memref Cert.Kernel.sig Kind.scVector Space.hbm Cert.Kernel.S163840 EltTy.i32)
local notation "spW" => (Memref.whole Cert.Kernel.main_v17_scv : Memref Cert.Kernel.sig Kind.scVector Space.hbm Cert.Kernel.S163840 EltTy.f32)
local notation "ouW" => (Memref.whole Cert.Kernel.main_v18_scv : Memref Cert.Kernel.sig Kind.scVector Space.hbm Cert.Kernel.S10240x128 EltTy.f32)
local notation "s0W" => (Memref.whole Cert.Kernel.cc1_scratch0 : Memref Cert.Kernel.sig Kind.scVector Space.vmem Cert.Kernel.S5120 EltTy.i32)
local notation "s1W" => (Memref.whole Cert.Kernel.cc1_scratch1 : Memref Cert.Kernel.sig Kind.scVector Space.vmem Cert.Kernel.S5120 EltTy.i32)
local notation "s2W" => (Memref.whole Cert.Kernel.cc1_scratch2 : Memref Cert.Kernel.sig Kind.scVector Space.vmem Cert.Kernel.S5120 EltTy.f32)
local notation "s3W" => (Memref.whole Cert.Kernel.cc1_scratch3 : Memref Cert.Kernel.sig Kind.scVector Space.vmem Cert.Kernel.S256x128 EltTy.f32)
local notation "s4W" => (Memref.whole Cert.Kernel.cc1_scratch4 : Memref Cert.Kernel.sig Kind.scVector Space.vmem Cert.Kernel.S256x128 EltTy.f32)
local notation "s5W" => (Memref.whole Cert.Kernel.cc1_scratch5 : Memref Cert.Kernel.sig Kind.scVector Space.vmem Cert.Kernel.S320x128 EltTy.f32)

variable [FloatOps F]

/-- The tile's core at a symbolic tile: what the tile obligation rests on. -/
def TileCore : Prop :=
  ∀ (d : Dev nD) (L : grid1.Coords) (q : PosShare TreeShare)
          (fy1 : Buf (Elt F) ((y1W).view.loc (tile d L))) (fy2 : Buf (Elt F) ((y2W).view.loc (tile d L)))
          (fi : Buf (Elt F) ((iiSl L).view.loc (tile d L))) (fj : Buf (Elt F) ((ijSl L).view.loc (tile d L)))
          (fs : Buf (Elt F) ((spSl L).view.loc (tile d L))) (fo : Buf (Elt F) ((ouSl L).view.loc (tile d L)))
          (g0 : Buf (Elt F) ((s0W).view.loc (tile d L))) (g1 : Buf (Elt F) ((s1W).view.loc (tile d L))) (g2 : Buf (Elt F) ((s2W).view.loc (tile d L)))
          (g3 : Buf (Elt F) ((s3W).view.loc (tile d L))) (g4 : Buf (Elt F) ((s4W).view.loc (tile d L))) (g5 : Buf (Elt F) ((s5W).view.loc (tile d L)))
          (O : CellTallies nD τ sig (HIx 1)) (W : Waits sig (HIx 1)),
          InRows (iiSl L).view.set fi → InRows (ijSl L).view.set fj →
          coreCtx d L q fy1 fy2 fi fj fs fo g0 g1 g2 g3 g4 g5 O W
            ⊢ wp frame (wpE (defs₀ (F := F)) 𝒱₀ (tile d L) none) Set.univ (cc1__sc_kernel L y1W (Memref.isWhole_whole _) y2W (Memref.isWhole_whole _) iiW (Memref.isWhole_whole _) ijW (Memref.isWhole_whole _) spW (Memref.isWhole_whole _) ouW (Memref.isWhole_whole _) s0W (Memref.isWhole_whole _) s1W (Memref.isWhole_whole _) s2W (Memref.isWhole_whole _) s3W (Memref.isWhole_whole _) s4W (Memref.isWhole_whole _) s5W (Memref.isWhole_whole _) cc1_scratch6 cc1_scratch7 cc1_scratch8 cc1_scratch9 cc1_scratch10 cc1_scratch11 cc1_scratch12 cc1_scratch13 cc1_scoped0 cc1_scoped1 cc1_scoped2 cc1_scoped3)
                fun _ => iprop(∃ fo' g0' g1' g2' g3' g4' g5' W', ⌜∀ p ∈ W', p ∈ W ∨ p.2 = none⌝ ∗ coreCtx d L q fy1 fy2 fi fj fs fo' g0' g1' g2' g3' g4' g5' O W')

/-- The tile's core holds. -/
theorem tileCore_holds : TileCore (F := F) :=
  fun d L q fy1 fy2 fi fj fs fo g0 g1 g2 g3 g4 g5 O W hfi hfj => tile_core d L q fy1 fy2 fi fj fs fo g0 g1 g2 g3 g4 g5 O W hfi hfj

/-- What the run leaves: on every device the eight argument arrays at their launch contents. -/
def QC (m : (ℓ : Loc nD τ sig) → Buf (Elt F) ℓ) : PUnit × MemSt nD τ sig (Elt F) → Prop :=
  fun r => ∀ c : Dev nD, ∀ b ∈ argS, r.2.mem (c, b) = V0 m c b

/-- THE RUN of the kernel program from a launch memory inside the index range. -/
theorem run_main [∀ e, Nonempty (Elt F e)]
    (m : (ℓ : Loc nD τ sig) → Buf (Elt F) ℓ) (ρ : Dev nD → PrngReg) (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (F := F)) facts v₀
    (fun q hq => match q with | 0 => nomatch hq)
    (fun q _ => match q with | 0 => tileObl facts tileCore_holds)
    (fun q _ => match q with | 0 => SparseCore.Cfg.VecSplit.of_plain vecSplit)
    m ρ main (G (F := F)) (FIN m) (u₀ (F := F)) hu₀ (hmain m ρ hpre) (fq m) (hfin m) (QC m) (fun _ h => h)

/-- An argument array read off the run's post. -/
theorem QC_arg {m : (ℓ : Loc nD τ sig) → Buf (Elt F) ℓ} {r : PUnit × MemSt nD τ sig (Elt F)} (h : QC m r) (c : Dev nD)
    (a : Ref sig .tc) (ha : a ∈ argL) : r.2.mem ((c.tc : Thread nD τ).loc a) = m ((c.tc : Thread nD τ).loc a) :=
  h c _ (List.mem_toFinset.mpr (List.mem_map_of_mem ha))

/-- The claim's post from the run's: the eight conjuncts. -/
theorem claim_of_QC {m : (ℓ : Loc nD τ sig) → Buf (Elt F) ℓ} {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨QC_arg h c _ (by decide), QC_arg h c _ (by decide), QC_arg h c _ (by decide), QC_arg h c _ (by decide),
    QC_arg h c _ (by decide), QC_arg h c _ (by decide), QC_arg h c _ (by decide), QC_arg h c _ (by decide)⟩

/-- `Cert.frame_Kernel` (Defs.lean). -/
theorem frame_KB : Cert.frame_Kernel := fun m ρ hpre =>
  (θ_run Cert.Kernel.defs _ _).mono (fun _ h c => claim_of_QC h c)
    (run_main (F := Bits) m ρ (ok_of_pre m hpre))

end Cert.Proof.KB

end
-- ==== Proof.RefStages.lean ====
/-
  The seven operations of the reference that are read by hand at an index: the gather of one node's channels (twice),
  the and-reduce that guards it (twice), the concatenation of the two gathered pieces along the channel axis, the
  reshape of the one-element bias to a scalar, and the final maximum over a node's sixteen edges.

  `take_along_axis` lowers to a gather whose start index is clamped into [0, 9999], guarded by "0 ≤ index ≤ 9999"
  folded by `and` over a unit axis; inside that range the guard is 1 and the clamp is the identity, so the gathered
  value is the operand at the index itself.
-/
import proofs.«205997_g24756191494465_cont_8to1_1595_42_alg».proof.Proof.Gen.ReferenceIdeal
import Idealize.ShloMosaic.Lib.Pipeline.Value
import Idealize.ShloMosaic.Lib.ValueIdx
import Idealize.ShloMosaic.Lib.ReduceAll
import Idealize.ShloMosaic.PureOps.Ideal.Laws

noncomputable section

open scoped BigOperators

namespace Cert.RefSide

open Cert.ReferenceIdeal Cert.ReferenceIdeal.Gen Idealize.ShloMosaic Idealize.ShloMosaic.ValueIdx

/-! ## The gather of one node's channels -/

/-- The reference's gather dimension numbers: offset axes 0 and 1, the node axis collapsed and named by the start index. -/
abbrev G : GatherDims S1x128x10000 S10000x16x1 S1x128x10000x16 := gather_S1x128x10000_S10000x16x1_S1x128x10000x16_01_2_n_n_2_2_11281

/-- THE GATHER READ AT (0, c, n, k): the operand at channel `c` of the node whose number the start-index array holds at
    (n, k, 0), read signed and clamped into [0, 9999]. The operand's first two axes are offset axes (the result's first two
    coordinates), its node axis is the collapsed one the start index names. -/
theorem gather_apply {α : Type} (x : S1x128x10000.Idx → α) (idx : IVec S10000x16x1 32) (c : Fin 128) (n : Fin 10000) (k : Fin 16) :
    Host.gather G x idx (ix4 0 c n k)
      = x (ix3 0 c ⟨min (idx (ix3 n k 0)).toInt.toNat 9999, by omega⟩) := by
  unfold Host.gather
  refine congrArg x (funext fun a => Fin.ext ?_)
  match a with
  | ⟨0, _⟩ =>
    show G.start (ix4 0 c n k) idx 0 + G.batchCoord (ix4 0 c n k) 0 + G.offCoord (ix4 0 c n k) 0 = _
    rw [GatherDims.batchCoord_eq_zero G _ _ (by decide), show G.start (ix4 0 c n k) idx 0 = 0 from dif_neg (by decide)]
    unfold GatherDims.offCoord
    rw [dif_pos (by decide)]
    simp only [Nat.zero_add]
    rfl
  | ⟨1, _⟩ =>
    show G.start (ix4 0 c n k) idx 1 + G.batchCoord (ix4 0 c n k) 1 + G.offCoord (ix4 0 c n k) 1 = _
    rw [GatherDims.batchCoord_eq_zero G _ _ (by decide), show G.start (ix4 0 c n k) idx 1 = 0 from dif_neg (by decide)]
    unfold GatherDims.offCoord
    rw [dif_pos (by decide)]
    simp only [Nat.zero_add]
    rfl
  | ⟨2, _⟩ =>
    show G.start (ix4 0 c n k) idx 2 + G.batchCoord (ix4 0 c n k) 2 + G.offCoord (ix4 0 c n k) 2 = _
    rw [GatherDims.batchCoord_eq_zero G _ _ (by decide), GatherDims.offCoord_eq_zero G _ _ (by decide)]
    simp only [Nat.add_zero]
    unfold GatherDims.start
    rw [dif_pos (show (2 : Fin 3) ∈ G.startIndexMap by decide)]
    have hsi : G.siIdx (ix4 0 c n k) ⟨List.idxOf (2 : Fin 3) G.startIndexMap,
        List.idxOf_lt_length_iff.2 (show (2 : Fin 3) ∈ G.startIndexMap by decide)⟩ = ix3 n k 0 := by
      funext b; refine Fin.ext ?_
      match b with
      | ⟨0, _⟩ => rfl
      | ⟨1, _⟩ => rfl
      | ⟨2, _⟩ => rfl
    rw [hsi]
    rfl

/-! ## The and-reduce over the start indices' unit axis -/

/-- A left fold by `and` over `i1` words that starts at 1 and meets only 1s is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl => foldl_andi_ones f l _ (IntOp.andi_eq_one.2 ⟨h, hl a List.mem_cons_self⟩)
      fun n hn => hl n (List.mem_cons_of_mem _ hn)

/-- A `stablehlo.reduce` by `and` from 1 over an array of 1s is 1 at every result index. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl]
  exact foldl_andi_ones x _ _ hinit fun n _ => hx n

/-! ## The concatenation of the two gathered pieces along the channel axis -/

/-- Channel `c` of the concatenation, `c` below 128, is channel `c` of the first piece. -/
theorem concat_lo {α : Type} (x₁ x₂ : S1x128x10000x16.Idx → α) (c : Fin 128) (n : Fin 10000) (k : Fin 16) :
    concatenate S1x256x10000x16 1 [⟨S1x128x10000x16, x₁⟩, ⟨S1x128x10000x16, x₂⟩] concatenates_S1x128x10000x16_S1x128x10000x16_S1x256x10000x16_d1
        (ix4 0 (⟨c.val, by omega⟩ : Fin 256) n k) = x₁ (ix4 0 c n k) :=
  concatenate_pair_apply_left 1 x₁ x₂ concatenates_S1x128x10000x16_S1x128x10000x16_S1x256x10000x16_d1 _ rfl _ fun b =>
    match b with | ⟨0, _⟩ => rfl | ⟨1, _⟩ => rfl | ⟨2, _⟩ => rfl | ⟨3, _⟩ => rfl

/-- Channel `c + 128` of the concatenation is channel `c` of the second piece. -/
theorem concat_hi {α : Type} (x₁ x₂ : S1x128x10000x16.Idx → α) (c : Fin 128) (n : Fin 10000) (k : Fin 16) :
    concatenate S1x256x10000x16 1 [⟨S1x128x10000x16, x₁⟩, ⟨S1x128x10000x16, x₂⟩] concatenates_S1x128x10000x16_S1x128x10000x16_S1x256x10000x16_d1
        (ix4 0 (⟨c.val + 128, by omega⟩ : Fin 256) n k) = x₂ (ix4 0 c n k) :=
  concatenate_pair_apply_right 1 x₁ x₂ concatenates_S1x128x10000x16_S1x128x10000x16_S1x256x10000x16_d1 _ rfl rfl _
    (fun b hb => match b, hb with
      | ⟨0, _⟩, _ => rfl | ⟨1, _⟩, hb => absurd rfl hb | ⟨2, _⟩, _ => rfl | ⟨3, _⟩, _ => rfl)
    rfl

/-! ## The reshape of the one-element bias to a scalar -/

/-- The rank-0 reshape of a one-element vector reads its element. -/
theorem reshape_scalar {α : Type} (x : S1.Idx → α) (j : S_.Idx) : shapeCast S_ x shapeCasts_S1_S_ j = x (ix1 0) :=
  shapeCast_apply x shapeCasts_S1_S_ j (ix1 0) (by
    have h1 : (S1.rowMajor (ix1 0)).val < 1 := (S1.rowMajor (ix1 0)).isLt
    have h2 : (S_.rowMajor j).val < 1 := (S_.rowMajor j).isLt
    omega)

/-! ## The maximum over the sixteen edges of a node -/

/-- The float word 0xFF800000 is -∞. -/
theorem ofBits_neg_inf_f32 : Ideal.ofBits .f32 0xFF800000#32 = (⊥ : EReal) := by
  simp [Ideal.ofBits, Ideal.ieee]

/-- THE MAX-REDUCE READ AT (0, o, n): the commutative fold by `max`, from the initial value's element, of the operand at
    (0, o, n, k) over the sixteen k. -/
theorem reduce_max_apply (x : S1x128x10000x16.Idx → EReal) (init : S_.Idx → EReal) (o : Fin 128) (n : Fin 10000) :
    Host.reduce (max : EReal → EReal → EReal) x init reducesTo_S1x128x10000x16_S1x128x10000_d3 h_S_ (ix3 0 o n)
      = (Finset.univ : Finset (Fin 16)).fold max (init ix0) (fun k => x (ix4 0 o n k)) := by
  have hR : S1x128x10000x16.Reduces [3] S1x128x10000 := by decide
  rw [Host.reduce_eq_fold_single (a := 3) max x init reducesTo_S1x128x10000x16_S1x128x10000_d3 hR h_S_ (ix3 0 o n)]
  have hl : (x ∘ hR.lift (ix3 0 o n)) = fun k : Fin 16 => x (ix4 0 o n k) := by
    funext k
    refine congrArg x (funext fun b => Fin.ext ?_)
    match b with
    | ⟨0, _⟩ => rfl
    | ⟨1, _⟩ => rfl
    | ⟨2, _⟩ => rfl
    | ⟨3, _⟩ => rfl
  rw [hl, show Shape.Idx.first h_S_ = ix0 from eq_ix0 _]
  rfl

end Cert.RefSide

end
-- ==== Proof.RefAlgebra.lean ====
/-
  The algebra between the two arrangements of the graph layer, over the extended reals, with no program in sight.

  Three facts.  (1) Splitting the 256 weight columns into two halves of 128:  with a = x_i, c = x_j,
  Σ_k [a ; c - a]_k · w_k + b  =  (Σ_c a_c · (w1_c - w2_c) + b) + Σ_c c_c · w2_c,  for real entries: distributivity is
  a law of the reals, not of the extended reals, so the entries are given as real numbers and the coercion is pushed out.
  (2) A maximum over a nonempty family of nonnegative terms is the same whether the fold starts at -∞ or at 0.
  (3) The logistic function, and hence the damping factor 2 · logistic, is nonnegative at every extended real.
-/
import Idealize.ShloMosaic.PureOps.Ideal
import Idealize.ShloMosaic.PureOps.Ideal.Laws
import Idealize.ShloMosaic.Lib.IdealHost

noncomputable section

open scoped BigOperators

namespace Cert.RefSide

open Idealize.ShloMosaic

/-! ## Sums of real numbers inside the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A sum over 256 indices is the sum over the first 128 plus the sum over the last 128. -/
theorem sum_halves (g : Fin 256 → EReal) :
    ∑ k : Fin 256, g k = (∑ c : Fin 128, g ⟨c.val, by omega⟩) + ∑ c : Fin 128, g ⟨c.val + 128, by omega⟩ := by
  refine (Fin.sum_univ_add (a := 128) (b := 128) g).trans ?_
  refine congrArg₂ (· + ·) rfl ?_
  refine Finset.sum_congr rfl fun c _ => congrArg g (Fin.ext ?_)
  show 128 + c.val = c.val + 128
  omega

/-- THE SPLIT-WEIGHTS LAW, for real entries: the product of the weights with the stacked vector [a ; c - a], plus the
    bias, is the table entry of a (the difference of the two weight halves, plus the bias) plus the table entry of c
    (the second half). -/
theorem split_weights {n : ℕ} (a c w1 w2 : Fin n → ℝ) (b : ℝ) :
    ((∑ i, (a i : EReal) * (w1 i : EReal)) + ∑ i, ((c i : EReal) - (a i : EReal)) * (w2 i : EReal)) + (b : EReal)
      = ((∑ i, (a i : EReal) * ((w1 i : EReal) - (w2 i : EReal))) + (b : EReal)) + ∑ i, (c i : EReal) * (w2 i : EReal) := by
  simp only [← EReal.coe_sub, ← EReal.coe_mul, ← coe_sum, ← EReal.coe_add]
  congr 1
  simp only [mul_sub, sub_mul, Finset.sum_sub_distrib]
  ring

/-! ## A maximum folded from -∞ and the same maximum folded from 0 -/

section Fold
variable {ι : Type*} (g : ι → EReal)

/-- A left fold by `max` from `a` is `a` joined with the fold from -∞. -/
theorem foldl_max_eq (l : List ι) (a : EReal) :
    l.foldl (fun acc k => max acc (g k)) a = max a (l.foldl (fun acc k => max acc (g k)) ⊥) := by
  induction l generalizing a with
  | nil => simp
  | cons k l ih =>
    simp only [List.foldl_cons]
    rw [ih (max a (g k)), ih (max ⊥ (g k)), max_bot_left, max_assoc]

/-- The fold is at least its start … -/
theorem le_foldl_init (l : List ι) (a : EReal) : a ≤ l.foldl (fun acc k => max acc (g k)) a := by
  rw [foldl_max_eq]; exact le_max_left _ _

/-- … and at least each term. -/
theorem le_foldl_max (l : List ι) (a : EReal) {k : ι} (hk : k ∈ l) : g k ≤ l.foldl (fun acc k => max acc (g k)) a := by
  induction l generalizing a with
  | nil => cases hk
  | cons k' l ih =>
    simp only [List.foldl_cons]
    rcases List.mem_cons.mp hk with rfl | h
    · exact (le_max_right _ _).trans (le_foldl_init g l _)
    · exact ih _ h

/-- The fold is below any bound of its start and its terms. -/
theorem foldl_max_le (l : List ι) (a c : EReal) (ha : a ≤ c) (h : ∀ k ∈ l, g k ≤ c) :
    l.foldl (fun acc k => max acc (g k)) a ≤ c := by
  induction l generalizing a with
  | nil => exact ha
  | cons k' l ih =>
    simp only [List.foldl_cons]
    exact ih _ (max_le ha (h k' List.mem_cons_self)) fun k hk => h k (List.mem_cons_of_mem _ hk)

end Fold

/-- The commutative fold by `max` over all of `Fin n` from -∞ is the left fold over `0, …, n-1` from -∞. -/
theorem fold_max_univ {n : ℕ} (g : Fin n → EReal) :
    (Finset.univ : Finset (Fin n)).fold max ⊥ g = (List.finRange n).foldl (fun acc k => max acc (g k)) ⊥ := by
  refine le_antisymm ?_ ?_
  · exact (Finset.fold_max_le _).2 ⟨bot_le, fun x _ => le_foldl_max g _ ⊥ (List.mem_finRange x)⟩
  · exact foldl_max_le g _ ⊥ _ bot_le fun k _ => (Finset.le_fold_max _).2 (Or.inr ⟨k, Finset.mem_univ k, le_rfl⟩)

/-- THE ZERO START: over a nonempty range of nonnegative terms the maximum from -∞ is the left fold from 0. -/
theorem fold_max_from_zero {n : ℕ} (hn : 0 < n) (g : Fin n → EReal) (hg : ∀ k, 0 ≤ g k) :
    (Finset.univ : Finset (Fin n)).fold max ⊥ g = (List.finRange n).foldl (fun acc k => max acc (g k)) 0 := by
  rw [fold_max_univ, foldl_max_eq g _ 0, max_eq_right]
  exact (hg ⟨0, hn⟩).trans (le_foldl_max g _ ⊥ (List.mem_finRange _))

/-! ## The damping factor is nonnegative -/

/-- The exponential of an extended real is nonnegative. -/
theorem exp_nonneg (x : EReal) : 0 ≤ Ideal.exp x := by
  induction x with
  | bot => exact le_rfl
  | coe r => exact EReal.coe_nonneg.2 (Real.exp_pos r).le
  | top => exact le_top

/-- The logistic function 1 / (1 + e^(-x)) is nonnegative: its denominator is at least one. -/
theorem logistic_nonneg (x : EReal) : 0 ≤ Ideal.logistic x := by
  unfold Ideal.logistic Ideal.div
  have h1 : (1 : EReal) ≤ 1 + Ideal.exp (-x) := le_add_of_nonneg_right (exp_nonneg _)
  have hpos : (0 : EReal) < 1 + Ideal.exp (-x) := lt_of_lt_of_le (by norm_num) h1
  rw [if_neg hpos.ne']
  exact mul_nonneg zero_le_one (EReal.inv_nonneg_of_nonneg hpos.le)

/-- The float word of 2.0 is the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- A rectified value times the damping factor 2 · logistic is nonnegative. -/
theorem damped_nonneg (u t : EReal) :
    0 ≤ max u (Ideal.ofBits .f32 0x00000000#32) * (Ideal.ofBits .f32 0x40000000#32 * Ideal.logistic t) := by
  rw [Ideal.ofBits_zero_f32, ofBits_two_f32]
  exact mul_nonneg (le_max_right _ _) (mul_nonneg (by norm_num) (logistic_nonneg t))

end Cert.RefSide

end
-- ==== Proof.Spec.lean ====
/-
  The function both programs compute, index by index, over the extended reals.

  A graph layer over 10000 nodes with 16 neighbours each.  For an edge (n, k) let i = edge_index[1][n, k] and
  j = edge_index[0][n, k].  The layer's feature is  relu (W · [x_i ; x_j - x_i] + b), damped by a per-edge factor
  2 · logistic (-dis[n,k] · (tanh (Σ_k dis[n,k] · att_W[k] + att_b) + 1)), and the result is the maximum over the 16 edges.

  Splitting W = [W₁ | W₂] by columns,  W · [x_i ; x_j - x_i] = (W₁ - W₂) · x_i + W₂ · x_j  wherever the entries are real
  numbers.  So with the two node tables  y1[n] = (W₁ - W₂) · x_n + b  and  y2[n] = W₂ · x_n  the feature of edge (n, k)
  is  relu (y1[i] + y2[j]).  This file states the result in that second form (tables first, then a gather, then a maximum
  that starts from zero: every damped feature is nonnegative, so starting from zero changes nothing).
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨4, ![1, 128, 10000, 1]⟩
abbrev SE : Shape := ⟨4, ![2, 1, 10000, 16]⟩
abbrev SD : Shape := ⟨3, ![1, 10000, 16]⟩
abbrev SW : Shape := ⟨2, ![128, 256]⟩
abbrev SB : Shape := ⟨1, ![128]⟩
abbrev SA : Shape := ⟨2, ![1, 16]⟩
abbrev SO : Shape := ⟨1, ![1]⟩

/-- The float words the two programs share: 0, 1 and 2. -/
abbrev f0 : EReal := Ideal.ofBits .f32 0x00000000#32
abbrev f1 : EReal := Ideal.ofBits .f32 0x3F800000#32
abbrev f2 : EReal := Ideal.ofBits .f32 0x40000000#32

section
variable (x : FVec Ideal SX .f32) (e : Vec Ideal SE .i32) (dis : FVec Ideal SD .f32) (W : FVec Ideal SW .f32)
  (b : FVec Ideal SB .f32) (aw : FVec Ideal SA .f32) (ab : FVec Ideal SO .f32)

/-- Channel `c` of node `n`; the node axis is padded with zeros from 10000 on. -/
def xp (c : Fin 128) (n : Nat) : EReal := if h : n < 10000 then x (ix4 0 c ⟨n, h⟩ 0) else 0
/-- The left half of the weights minus the right half, and the right half. -/
def wa (o c : Fin 128) : EReal := W (ix2 o ⟨c.val, by omega⟩) - W (ix2 o ⟨c.val + 128, by omega⟩)
def wb (o c : Fin 128) : EReal := W (ix2 o ⟨c.val + 128, by omega⟩)
/-- The two node tables. -/
def y1 (n : Nat) (o : Fin 128) : EReal := (∑ c : Fin 128, xp x c n * wa W o c) + b (ix1 o)
def y2 (n : Nat) (o : Fin 128) : EReal := ∑ c : Fin 128, xp x c n * wb W o c
/-- The distance of edge (n, k); zero on the padding. -/
def dp (n : Nat) (k : Fin 16) : EReal := if h : n < 10000 then dis (ix3 0 ⟨n, h⟩ k) else 0
/-- The node's attention scale, tanh of an affine form of its sixteen distances, plus one. -/
def scal (n : Nat) : EReal := Ideal.tanh ((∑ k : Fin 16, dp dis n k * aw (ix2 0 k)) + ab (ix1 0)) + f1
/-- The damping factor of edge (n, k). -/
def supp (n : Nat) (k : Fin 16) : EReal := f2 * Ideal.logistic ((f0 - dp dis n k) * scal dis aw ab n)
/-- Row `r` of the edge list at (n, k), as a natural number; zero on the padding. -/
def nbr (r : Fin 2) (n : Nat) (k : Fin 16) : Nat := if h : n < 10000 then (e (ix4 r 0 ⟨n, h⟩ k) : BitVec 32).toNat else 0
/-- The damped feature of edge (n, k) at output channel `o`. -/
def edge (n : Nat) (o : Fin 128) (k : Fin 16) : EReal :=
  max (y1 x W b (nbr e 1 n k) o + y2 x W (nbr e 0 n k) o) f0 * supp dis aw ab n k
/-- The maximum over the sixteen edges, started from zero. -/
def out (n : Nat) (o : Fin 128) : EReal :=
  (List.finRange 16).foldl (fun acc k => max acc (edge x e dis W b aw ab n o k)) f0
/-- The result array. -/
def res : FVec Ideal SX .f32 := fun j => out x e dis W b aw ab (j 2).val (j 1)
end

end Cert.Spec

end
-- ==== Proof.RefMain.lean ====
/-
  The reference's result, read index by index through its 98 operations, is the specification.

  At result index (0, o, n, 0) the reference folds, by max from -∞ over the sixteen edges k of node n, the product of
    relu (Σ_{c < 256} fc[c, n, k] · W[o, c] + b[o])   and   2 · (1 / (1 + exp (-((-dis[n,k]) · (tanh (Σ_k dis[n,k] · att_W[k] + att_b) + 1))))),
  where fc stacks x_i (channels 0..127) over x_j - x_i (channels 128..255) and x_i, x_j are gathered at the two rows of the
  edge list.  Inside the index range the gathers read x at the listed node; for real entries the stacked product is the two
  node tables' sum (the split-weights law); every damped feature is nonnegative, so the fold may start at 0.
-/
import proofs.«205997_g24756191494465_cont_8to1_1595_42_alg».proof.Proof.RefRead
import proofs.«205997_g24756191494465_cont_8to1_1595_42_alg».proof.Proof.RefStages
import proofs.«205997_g24756191494465_cont_8to1_1595_42_alg».proof.Proof.RefAlgebra
import proofs.«205997_g24756191494465_cont_8to1_1595_42_alg».proof.Proof.Spec

noncomputable section

open scoped BigOperators

namespace Cert.RefSide

open Cert.ReferenceIdeal Cert.ReferenceIdeal.Gen Cert.ReferenceIdeal.ReadP Idealize.ShloMosaic Idealize.ShloMosaic.ValueIdx

variable (x : (⟨S1x128x10000x1, .f32⟩ : BufTy).Contents (Elt Ideal)) (e : (⟨S2x1x10000x16, .i32⟩ : BufTy).Contents (Elt Ideal))
  (dis : (⟨S1x10000x16, .f32⟩ : BufTy).Contents (Elt Ideal)) (W : (⟨S128x256, .f32⟩ : BufTy).Contents (Elt Ideal)) (b : (⟨S128, .f32⟩ : BufTy).Contents (Elt Ideal)) (aw : (⟨S1x16, .f32⟩ : BufTy).Contents (Elt Ideal)) (ab : (⟨S1, .f32⟩ : BufTy).Contents (Elt Ideal))

/-- A 32-bit word whose signed reading is in [0, 9999] reads the same unsigned, below 10000. -/
theorem toNat_of_range (E : BitVec 32) (h0 : 0 ≤ E.toInt) (h1 : E.toInt ≤ 9999) : E.toInt.toNat = E.toNat ∧ E.toNat < 10000 := by
  have hc := BitVec.toInt_eq_toNat_cond E
  have hlt := E.isLt
  split_ifs at hc <;> omega

/-! ## Row 1 of the edge list, and the channels gathered at it -/

/-- The broadcast row 1 of the edge list at (0, 0, n, k). -/
theorem v4_at (n : Fin 10000) (k : Fin 16) : val_main_v4 (F := Ideal) e (ix4 0 0 n k) = e (ix4 1 0 n k) := by
  rw [val_main_v4_apply, val_main_v1_apply, val_main_v0_apply]
  have hn := n.isLt; have hk := k.isLt
  exact congrArg e (funext fun a => Fin.ext (match a with
    | ⟨0, _⟩ => rfl
    | ⟨1, _⟩ => rfl
    | ⟨2, _⟩ => by show ((0 * 10000 + n.val) * 16 + k.val) / 16 % 10000 = n.val; omega
    | ⟨3, _⟩ => by show ((0 * 10000 + n.val) * 16 + k.val) % 16 = k.val; omega))

/-- The start index of edge (n, k): the listed node, wrapped once by 10000 if it is negative (it is not, inside the range). -/
theorem call0_v5_at (n : Fin 10000) (k : Fin 16) (h0 : 0 ≤ (e (ix4 1 0 n k)).toInt) :
    val_main_call0_v5 (F := Ideal) e (ix3 n k 0) = e (ix4 1 0 n k) := by
  have hn := n.isLt; have hk := k.isLt
  have hidx : idx_main_call0_v5 (ix3 n k 0) = ix4 0 0 n k := funext fun a => Fin.ext (match a with
    | ⟨0, _⟩ => rfl
    | ⟨1, _⟩ => rfl
    | ⟨2, _⟩ => by show ((n.val * 16 + k.val) * 1 + 0) / 16 % 10000 = n.val; omega
    | ⟨3, _⟩ => by show ((n.val * 16 + k.val) * 1 + 0) % 16 = k.val; omega)
  rw [val_main_call0_v5_apply, hidx, val_main_call0_v4_apply, val_main_call0_v1_apply, v4_at]
  have hz : IntOp.cmpi .slt (e (ix4 1 0 n k)) (val_main_call0_v0 (F := Ideal) (ix4 0 0 n k)) = 0#1 :=
    eq_zero_of_ne_one fun h1 => by
      have h2 := IntOp.cmpi_slt.1 h1
      rw [val_main_call0_v0_apply, val_main_call0_c_apply, show (0#32 : BitVec 32).toInt = 0 from rfl] at h2
      omega
  rw [hz, select_zero]

/-- Inside the range the guard of the gather is 1 at every edge. -/
theorem call0_v13_one (he : ∀ i, 0 ≤ (e i).toInt ∧ (e i).toInt ≤ 9999) (j : S10000x16.Idx) :
    val_main_call0_v13 (F := Ideal) e j = 1#1 := by
  unfold val_main_call0_v13
  refine reduce_andi_ones _ _ _ _ j rfl fun i => ?_
  obtain ⟨n, k, z, rfl⟩ : ∃ n k z, i = ix3 n k z := ⟨i 0, i 1, i 2, eq_ix3 i⟩
  obtain rfl : z = 0 := Fin.ext (Nat.lt_one_iff.1 z.isLt)
  rw [val_main_call0_v12_apply, val_main_call0_v8_apply, val_main_call0_v11_apply, call0_v5_at e n k (he _).1,
    val_main_call0_v7_apply, val_main_call0_c_2_apply, val_main_call0_v10_apply, val_main_call0_v9_apply, val_main_call0_c_1_apply]
  refine IntOp.andi_eq_one.2 ⟨IntOp.cmpi_sge.2 ?_, IntOp.cmpi_sle.2 ?_⟩
  · rw [show (0#32 : BitVec 32).toInt = 0 from rfl]; exact (he _).1
  · rw [show (9999#32 : BitVec 32).toInt = 9999 from rfl]; exact (he _).2

/-- The flattened node features at (0, c, m): channel c of node m. -/
theorem call0_v6_at (c : Fin 128) (m : Fin 10000) : val_main_call0_v6 (F := Ideal) x (ix3 0 c m) = x (ix4 0 c m 0) := by
  rw [val_main_call0_v6_apply, val_main_v3_apply, val_main_v2_apply]
  have hc := c.isLt; have hm := m.isLt
  exact congrArg x (funext fun a => Fin.ext (match a with
    | ⟨0, _⟩ => rfl
    | ⟨1, _⟩ => by
      show ((0 * 128 + ((0 * 128 + c.val) * 10000 + m.val) / 10000 % 128) * 10000 + ((0 * 128 + c.val) * 10000 + m.val) / 1 % 10000) / 10000 % 128 = c.val
      omega
    | ⟨2, _⟩ => by
      show ((0 * 128 + ((0 * 128 + c.val) * 10000 + m.val) / 10000 % 128) * 10000 + ((0 * 128 + c.val) * 10000 + m.val) / 1 % 10000) / 1 % 10000 = m.val
      omega
    | ⟨3, _⟩ => rfl))

/-- THE GATHERED CHANNEL: inside the range, channel c of the node that row 1 of the edge list names at (n, k), in the
    specification's words. -/
theorem v5_at (he : ∀ i, 0 ≤ (e i).toInt ∧ (e i).toInt ≤ 9999) (c : Fin 128) (n : Fin 10000) (k : Fin 16) :
    val_main_v5 (F := Ideal) x e (ix4 0 c n k) = Cert.Spec.xp x c (Cert.Spec.nbr e 1 n.val k) := by
  obtain ⟨h0, h1⟩ := he (ix4 1 0 n k)
  obtain ⟨hnat, hN⟩ := toNat_of_range (e (ix4 1 0 n k)) h0 h1
  have hnbr : Cert.Spec.nbr e 1 n.val k = (e (ix4 1 0 n k)).toNat := by
    unfold Cert.Spec.nbr; exact dif_pos n.isLt
  rw [hnbr]
  unfold Cert.Spec.xp
  rw [dif_pos hN, val_main_v5_apply, val_main_call0_v15_apply, call0_v13_one e he, select_one]
  unfold val_main_call0_v14
  rw [gather_apply, call0_v6_at]
  refine congrArg x (congrArg (fun m => ix4 0 c m 0) (Fin.ext ?_))
  show min (val_main_call0_v5 (F := Ideal) e (ix3 n k 0)).toInt.toNat 9999 = (e (ix4 1 0 n k)).toNat
  rw [call0_v5_at e n k h0]
  omega

/-! ## Row 0 of the edge list, and the channels gathered at it -/

/-- The broadcast row 0 of the edge list at (0, 0, n, k). -/
theorem v10_at (n : Fin 10000) (k : Fin 16) : val_main_v10 (F := Ideal) e (ix4 0 0 n k) = e (ix4 0 0 n k) := by
  rw [val_main_v10_apply, val_main_v7_apply, val_main_v6_apply]
  have hn := n.isLt; have hk := k.isLt
  exact congrArg e (funext fun a => Fin.ext (match a with
    | ⟨0, _⟩ => rfl
    | ⟨1, _⟩ => rfl
    | ⟨2, _⟩ => by show ((0 * 10000 + n.val) * 16 + k.val) / 16 % 10000 = n.val; omega
    | ⟨3, _⟩ => by show ((0 * 10000 + n.val) * 16 + k.val) % 16 = k.val; omega))

/-- The start index of edge (n, k): the listed node, wrapped once by 10000 if it is negative (it is not, inside the range). -/
theorem call1_v5_at (n : Fin 10000) (k : Fin 16) (h0 : 0 ≤ (e (ix4 0 0 n k)).toInt) :
    val_main_call1_v5 (F := Ideal) e (ix3 n k 0) = e (ix4 0 0 n k) := by
  have hn := n.isLt; have hk := k.isLt
  have hidx : idx_main_call1_v5 (ix3 n k 0) = ix4 0 0 n k := funext fun a => Fin.ext (match a with
    | ⟨0, _⟩ => rfl
    | ⟨1, _⟩ => rfl
    | ⟨2, _⟩ => by show ((n.val * 16 + k.val) * 1 + 0) / 16 % 10000 = n.val; omega
    | ⟨3, _⟩ => by show ((n.val * 16 + k.val) * 1 + 0) % 16 = k.val; omega)
  rw [val_main_call1_v5_apply, hidx, val_main_call1_v4_apply, val_main_call1_v1_apply, v10_at]
  have hz : IntOp.cmpi .slt (e (ix4 0 0 n k)) (val_main_call1_v0 (F := Ideal) (ix4 0 0 n k)) = 0#1 :=
    eq_zero_of_ne_one fun h1 => by
      have h2 := IntOp.cmpi_slt.1 h1
      rw [val_main_call1_v0_apply, val_main_call1_c_apply, show (0#32 : BitVec 32).toInt = 0 from rfl] at h2
      omega
  rw [hz, select_zero]

/-- Inside the range the guard of the gather is 1 at every edge. -/
theorem call1_v13_one (he : ∀ i, 0 ≤ (e i).toInt ∧ (e i).toInt ≤ 9999) (j : S10000x16.Idx) :
    val_main_call1_v13 (F := Ideal) e j = 1#1 := by
  unfold val_main_call1_v13
  refine reduce_andi_ones _ _ _ _ j rfl fun i => ?_
  obtain ⟨n, k, z, rfl⟩ : ∃ n k z, i = ix3 n k z := ⟨i 0, i 1, i 2, eq_ix3 i⟩
  obtain rfl : z = 0 := Fin.ext (Nat.lt_one_iff.1 z.isLt)
  rw [val_main_call1_v12_apply, val_main_call1_v8_apply, val_main_call1_v11_apply, call1_v5_at e n k (he _).1,
    val_main_call1_v7_apply, val_main_call1_c_2_apply, val_main_call1_v10_apply, val_main_call1_v9_apply, val_main_call1_c_1_apply]
  refine IntOp.andi_eq_one.2 ⟨IntOp.cmpi_sge.2 ?_, IntOp.cmpi_sle.2 ?_⟩
  · rw [show (0#32 : BitVec 32).toInt = 0 from rfl]; exact (he _).1
  · rw [show (9999#32 : BitVec 32).toInt = 9999 from rfl]; exact (he _).2

/-- The flattened node features at (0, c, m): channel c of node m. -/
theorem call1_v6_at (c : Fin 128) (m : Fin 10000) : val_main_call1_v6 (F := Ideal) x (ix3 0 c m) = x (ix4 0 c m 0) := by
  rw [val_main_call1_v6_apply, val_main_v9_apply, val_main_v8_apply]
  have hc := c.isLt; have hm := m.isLt
  exact congrArg x (funext fun a => Fin.ext (match a with
    | ⟨0, _⟩ => rfl
    | ⟨1, _⟩ => by
      show ((0 * 128 + ((0 * 128 + c.val) * 10000 + m.val) / 10000 % 128) * 10000 + ((0 * 128 + c.val) * 10000 + m.val) / 1 % 10000) / 10000 % 128 = c.val
      omega
    | ⟨2, _⟩ => by
      show ((0 * 128 + ((0 * 128 + c.val) * 10000 + m.val) / 10000 % 128) * 10000 + ((0 * 128 + c.val) * 10000 + m.val) / 1 % 10000) / 1 % 10000 = m.val
      omega
    | ⟨3, _⟩ => rfl))

/-- THE GATHERED CHANNEL: inside the range, channel c of the node that row 0 of the edge list names at (n, k), in the
    specification's words. -/
theorem v11_at (he : ∀ i, 0 ≤ (e i).toInt ∧ (e i).toInt ≤ 9999) (c : Fin 128) (n : Fin 10000) (k : Fin 16) :
    val_main_v11 (F := Ideal) x e (ix4 0 c n k) = Cert.Spec.xp x c (Cert.Spec.nbr e 0 n.val k) := by
  obtain ⟨h0, h1⟩ := he (ix4 0 0 n k)
  obtain ⟨hnat, hN⟩ := toNat_of_range (e (ix4 0 0 n k)) h0 h1
  have hnbr : Cert.Spec.nbr e 0 n.val k = (e (ix4 0 0 n k)).toNat := by
    unfold Cert.Spec.nbr; exact dif_pos n.isLt
  rw [hnbr]
  unfold Cert.Spec.xp
  rw [dif_pos hN, val_main_v11_apply, val_main_call1_v15_apply, call1_v13_one e he, select_one]
  unfold val_main_call1_v14
  rw [gather_apply, call1_v6_at]
  refine congrArg x (congrArg (fun m => ix4 0 c m 0) (Fin.ext ?_))
  show min (val_main_call1_v5 (F := Ideal) e (ix3 n k 0)).toInt.toNat 9999 = (e (ix4 0 0 n k)).toNat
  rw [call1_v5_at e n k h0]
  omega

/-! ## The stacked vector, the contraction with the weights, the rectified feature -/

/-- Channel c of the stacked vector, c below 128: the channel gathered at row 1. -/
theorem v13_lo (c : Fin 128) (n : Fin 10000) (k : Fin 16) :
    val_main_v13 (F := Ideal) x e (ix4 0 (⟨c.val, by omega⟩ : Fin 256) n k) = val_main_v5 (F := Ideal) x e (ix4 0 c n k) := by
  unfold val_main_v13; exact concat_lo _ _ c n k

/-- Channel c + 128 of the stacked vector: the channel gathered at row 0 minus the one gathered at row 1. -/
theorem v13_hi (c : Fin 128) (n : Fin 10000) (k : Fin 16) :
    val_main_v13 (F := Ideal) x e (ix4 0 (⟨c.val + 128, by omega⟩ : Fin 256) n k)
      = val_main_v11 (F := Ideal) x e (ix4 0 c n k) - val_main_v5 (F := Ideal) x e (ix4 0 c n k) := by
  unfold val_main_v13; exact (concat_hi _ _ c n k).trans rfl

/-- The rectified feature of edge (n, k) at output channel o. -/
theorem v19_at (o : Fin 128) (n : Fin 10000) (k : Fin 16) :
    val_main_v19 (F := Ideal) x e W b (ix4 0 o n k)
      = max ((∑ kk : Fin 256, val_main_v13 (F := Ideal) x e (ix4 0 kk n k) * W (ix2 o kk)) + b (ix1 o)) Cert.Spec.f0 := by
  have hl : ∀ kk : Fin 256, lidx_main_v14 (idx_main_v15 (ix4 0 o n k)) kk = ix4 0 kk n k := fun kk =>
    funext fun a => Fin.ext (match a with | ⟨0, _⟩ => rfl | ⟨1, _⟩ => rfl | ⟨2, _⟩ => rfl | ⟨3, _⟩ => rfl)
  have hr : ∀ kk : Fin 256, ridx_main_v14 (idx_main_v15 (ix4 0 o n k)) kk = ix2 o kk := fun kk =>
    funext fun a => Fin.ext (match a with | ⟨0, _⟩ => rfl | ⟨1, _⟩ => rfl)
  have hb : idx_main_v16 (idx_main_v17 (ix4 0 o n k)) = ix1 o :=
    funext fun a => Fin.ext (match a with | ⟨0, _⟩ => rfl)
  rw [val_main_v19_apply, val_main_v18_apply, val_main_v15_apply, val_main_v14_apply, val_main_v17_apply, val_main_v16_apply, hb,
    val_main_call2_v0_apply, val_main_call2_cst_apply]
  simp only [hl, hr]
  rfl

/-! ## The damping factor -/

/-- The node's attention scale. -/
theorem v28_at (n : Fin 10000) :
    val_main_v28 (F := Ideal) dis aw ab (ix3 0 n 0)
      = Ideal.tanh ((∑ kk : Fin 16, dis (ix3 0 n kk) * aw (ix2 0 kk)) + ab (ix1 0)) + Cert.Spec.f1 := by
  have h26 : idx_main_v26 (ix3 0 n 0) = ix2 0 n :=
    funext fun a => Fin.ext (match a with | ⟨0, _⟩ => rfl | ⟨1, _⟩ => rfl)
  have hl : ∀ kk : Fin 16, lidx_main_v21 (ix2 0 n) kk = ix3 0 n kk := fun kk =>
    funext fun a => Fin.ext (match a with | ⟨0, _⟩ => rfl | ⟨1, _⟩ => rfl | ⟨2, _⟩ => rfl)
  have hr : ∀ kk : Fin 16, val_main_v20 (F := Ideal) aw (ridx_main_v21 (ix2 0 n) kk) = aw (ix2 0 kk) := fun kk => by
    rw [val_main_v20_apply]
    have hk := kk.isLt
    exact congrArg aw (funext fun a => Fin.ext (match a with
      | ⟨0, _⟩ => rfl
      | ⟨1, _⟩ => by show kk.val % 16 = kk.val; omega))
  rw [val_main_v28_apply, val_main_v26_apply, h26, val_main_v25_apply, val_main_v24_apply, val_main_v21_apply, val_main_v23_apply,
    val_main_v27_apply, val_main_cst_apply]
  unfold val_main_v22
  rw [reshape_scalar]
  simp only [hl, hr]
  rfl

/-- The damping factor of edge (n, k), the same at every output channel. -/
theorem v41_at (o : Fin 128) (n : Fin 10000) (k : Fin 16) :
    val_main_v41 (F := Ideal) dis aw ab (ix4 0 o n k)
      = Cert.Spec.f2 * Ideal.div Cert.Spec.f1 (Cert.Spec.f1 + Ideal.exp (-((-dis (ix3 0 n k)) * val_main_v28 (F := Ideal) dis aw ab (ix3 0 n 0)))) := by
  have h40 : idx_main_v40 (idx_main_v41 (ix4 0 o n k)) = ix3 0 n k :=
    funext fun a => Fin.ext (match a with | ⟨0, _⟩ => rfl | ⟨1, _⟩ => rfl | ⟨2, _⟩ => rfl)
  have h30 : idx_main_v30 (ix3 0 n k) = ix3 0 n 0 :=
    funext fun a => Fin.ext (match a with | ⟨0, _⟩ => rfl | ⟨1, _⟩ => rfl | ⟨2, _⟩ => rfl)
  rw [val_main_v41_apply, val_main_v40_apply, h40, val_main_v39_apply, val_main_v38_apply, val_main_cst_2_apply, val_main_v37_apply,
    val_main_v36_apply, val_main_cst_1_apply, val_main_v35_apply, val_main_v34_apply, val_main_cst_0_apply, val_main_v33_apply,
    val_main_v32_apply, val_main_v31_apply, val_main_v29_apply, val_main_v30_apply, h30]
  rfl

/-! ## The maximum over the edges -/

/-- The result at (0, o, n, 0): the maximum, from -∞, of the damped features of node n's sixteen edges. -/
theorem v44_at (o : Fin 128) (n : Fin 10000) :
    val_main_v44 (F := Ideal) x e dis W b aw ab (ix4 0 o n 0)
      = (Finset.univ : Finset (Fin 16)).fold max ⊥
          (fun k => val_main_v19 (F := Ideal) x e W b (ix4 0 o n k) * val_main_v41 (F := Ideal) dis aw ab (ix4 0 o n k)) := by
  have h44 : idx_main_v44 (ix4 0 o n 0) = ix3 0 o n :=
    funext fun a => Fin.ext (match a with | ⟨0, _⟩ => rfl | ⟨1, _⟩ => rfl | ⟨2, _⟩ => rfl)
  rw [val_main_v44_apply, h44]
  unfold val_main_v43
  refine (reduce_max_apply _ _ o n).trans ?_
  rw [val_main_cst_3_apply]
  exact congrArg₂ (Finset.fold max · · Finset.univ) ofBits_neg_inf_f32 rfl

/-! ## The two arrangements agree -/

/-- Inside the range each listed node is below 10000. -/
theorem nbr_lt (he : ∀ i, 0 ≤ (e i).toInt ∧ (e i).toInt ≤ 9999) (r : Fin 2) (n : Fin 10000) (k : Fin 16) : Cert.Spec.nbr e r n.val k < 10000 := by
  unfold Cert.Spec.nbr
  rw [dif_pos n.isLt]
  exact (toNat_of_range _ (he _).1 (he _).2).2

/-- THE FEATURE BEFORE RECTIFYING: for real features, weights and bias, the weights applied to the stacked vector, plus the
    bias, is the sum of the two node tables at the edge's two nodes (the split-weights law). -/
theorem feature_eq (hx : ∀ i, ∃ r : ℝ, x i = (r : EReal)) (hW : ∀ i, ∃ r : ℝ, W i = (r : EReal)) (hb : ∀ i, ∃ r : ℝ, b i = (r : EReal)) (he : ∀ i, 0 ≤ (e i).toInt ∧ (e i).toInt ≤ 9999)
    (o : Fin 128) (n : Fin 10000) (k : Fin 16) :
    (∑ kk : Fin 256, val_main_v13 (F := Ideal) x e (ix4 0 kk n k) * W (ix2 o kk)) + b (ix1 o)
      = Cert.Spec.y1 x W b (Cert.Spec.nbr e 1 n.val k) o + Cert.Spec.y2 x W (Cert.Spec.nbr e 0 n.val k) o := by
  choose xr hxr using hx
  choose Wr hWr using hW
  choose br hbr using hb
  have hNi := nbr_lt e he 1 n k
  have hNj := nbr_lt e he 0 n k
  rw [sum_halves]
  simp only [v13_lo, v13_hi, v5_at x e he, v11_at x e he]
  unfold Cert.Spec.y1 Cert.Spec.y2 Cert.Spec.wa Cert.Spec.wb Cert.Spec.xp
  simp only [dif_pos hNi, dif_pos hNj, hxr, hWr, hbr]
  exact split_weights (fun c : Fin 128 => xr (ix4 0 c ⟨_, hNi⟩ 0)) (fun c : Fin 128 => xr (ix4 0 c ⟨_, hNj⟩ 0))
    (fun c : Fin 128 => Wr (ix2 o ⟨c.val, by omega⟩)) (fun c : Fin 128 => Wr (ix2 o ⟨c.val + 128, by omega⟩)) (br (ix1 o))

/-- THE DAMPED FEATURE of edge (n, k) at output channel o is the specification's. -/
theorem edge_eq (hx : ∀ i, ∃ r : ℝ, x i = (r : EReal)) (hW : ∀ i, ∃ r : ℝ, W i = (r : EReal)) (hb : ∀ i, ∃ r : ℝ, b i = (r : EReal)) (he : ∀ i, 0 ≤ (e i).toInt ∧ (e i).toInt ≤ 9999)
    (o : Fin 128) (n : Fin 10000) (k : Fin 16) :
    val_main_v19 (F := Ideal) x e W b (ix4 0 o n k) * val_main_v41 (F := Ideal) dis aw ab (ix4 0 o n k)
      = Cert.Spec.edge x e dis W b aw ab n.val o k := by
  unfold Cert.Spec.edge
  rw [v19_at, feature_eq x e W b hx hW hb he, v41_at, v28_at]
  refine congrArg₂ (· * ·) rfl ?_
  unfold Cert.Spec.supp Cert.Spec.scal Cert.Spec.dp Ideal.logistic
  simp only [dif_pos n.isLt, Fin.eta, Cert.Spec.f0, Cert.Spec.f1, Ideal.ofBits_one_f32, Ideal.ofBits_zero_f32, zero_sub]

/-- THE REFERENCE IS THE SPECIFICATION: where every entry of x, W and b is a real number and every entry of the edge list
    is in [0, 9999] (read signed), the reference's result array is `Cert.Spec.res`. -/
theorem ref_is_res (hx : ∀ i, ∃ r : ℝ, x i = (r : EReal)) (hW : ∀ i, ∃ r : ℝ, W i = (r : EReal)) (hb : ∀ i, ∃ r : ℝ, b i = (r : EReal)) (he : ∀ i, 0 ≤ (e i).toInt ∧ (e i).toInt ≤ 9999) :
    val_main_v44 (F := Ideal) x e dis W b aw ab = Cert.Spec.res x e dis W b aw ab := by
  funext j
  obtain ⟨a, o, n, z, rfl⟩ : ∃ a o n z, j = ix4 a o n z := ⟨j 0, j 1, j 2, j 3, eq_ix4 j⟩
  obtain rfl : a = 0 := Fin.ext (Nat.lt_one_iff.1 a.isLt)
  obtain rfl : z = 0 := Fin.ext (Nat.lt_one_iff.1 z.isLt)
  rw [v44_at]
  simp only [edge_eq x e dis W b aw ab hx hW hb he]
  show _ = Cert.Spec.out x e dis W b aw ab n.val o
  unfold Cert.Spec.out
  rw [show (Cert.Spec.f0 : EReal) = 0 from Ideal.ofBits_zero_f32]
  exact fold_max_from_zero (by norm_num) _ fun k => by
    unfold Cert.Spec.edge Cert.Spec.supp
    exact damped_nonneg _ _

end Cert.RefSide

end
-- ==== Proof.AlgebraicI.lean ====
/-
  The value conjunct, reduced to one statement about the kernel.  The reference's result is the specification's `res` of the inputs
  wherever the float inputs are real numbers and the edge list's entries lie in 0 … 9999: the reference's run, its stages read at an
  index, and the two laws that join the arrangements (the weights split by columns; a maximum of nonnegative terms started from zero).
  So the two programs agree as soon as the kernel's run leaves the same `res` in its result.
-/
import proofs.«205997_g24756191494465_cont_8to1_1595_42_alg».proof.Defs
import proofs.«205997_g24756191494465_cont_8to1_1595_42_alg».proof.Proof.Gen.KernelIdeal
import proofs.«205997_g24756191494465_cont_8to1_1595_42_alg».proof.Proof.Gen.ReferenceIdeal
import proofs.«205997_g24756191494465_cont_8to1_1595_42_alg».proof.Proof.Gen.Pre_input_domain
import proofs.«205997_g24756191494465_cont_8to1_1595_42_alg».proof.Proof.RefMain
import proofs.«205997_g24756191494465_cont_8to1_1595_42_alg».proof.Proof.PreFacts

noncomputable section

namespace Cert.Proof.Alg

open Idealize.ShloMosaic Idealize.ShloMosaic.TcCoe Idealize.SL.Sem

/-- The kernel's run with its result's value: under the precondition every weakly fair execution of the idealized kernel's threads ends,
    faulting nowhere, with the result array at the specification's `res` of the launch's inputs and the eight inputs unchanged. -/
def KernelValue : Prop :=
  ∀ (m : (ℓ : Loc Cert.KernelIdeal.nD Cert.KernelIdeal.τ Cert.KernelIdeal.sig) → Buf (Elt Ideal) ℓ) (g : Dev Cert.KernelIdeal.nD → PrngReg), Cert.Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v21) = Cert.Spec.res (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

theorem algebraic_of (h : KernelValue) : Cert.algebraic_KernelIdeal_ReferenceIdeal := by
  intro m g m' g' hpre hagree
  refine ⟨fun c => Cert.Spec.res (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), h m g hpre, ?_⟩
  refine (θ_run Cert.ReferenceIdeal.defs _ _).mono (fun _ hr c => ⟨?_, (hr c).2⟩) (Cert.ReferenceIdeal.ValueP.run (F := Ideal) m' g')
  obtain ⟨h0, h1, -, h4, h5, -, -⟩ := Cert.RefSide.pre_facts _ _ _ _ _ _ _ _ (hpre c)
  obtain ⟨a0, a1, -, a3, a4, a5, a6, a7⟩ := hagree c
  rw [(hr c).1, Cert.ReferenceIdeal.ReadP.val_main_v44_eq, a0, a1, a3, a4, a5, a6, a7]
  exact Cert.RefSide.ref_is_res _ _ _ _ _ _ _ h0 h4 h5 h1

end Cert.Proof.Alg

end
-- ==== Proof.ValSpecI.lean ====
/-
  The value a tile leaves in its rows of the output, as a function of what it reads: the two node tables, the two flat edge lists and
  the flat damping factors.  Node `n`'s sixteen edges sit at entries 16·n … 16·n+15 of the flat arrays; an edge's two endpoints name
  rows of the tables; its feature is the positive part of the sum of the two rows' entries, damped; the node's value is the maximum
  of its sixteen damped features, started from zero.  (An index is read modulo the table's height, so that the function is total; on
  the edge lists the program is given, every entry is below the height.)
  With the tables, lists and factors the program computes from its inputs, this is the specification's `out`.
-/
import Idealize.ShloMosaic.PureOps.Ideal
import Idealize.ShloMosaic.Lib.ValueIdx
import proofs.«205997_g24756191494465_cont_8to1_1595_42_alg».proof.Proof.Spec

noncomputable section

open scoped BigOperators

namespace Cert.Proof.KIval

open Idealize.ShloMosaic Idealize.ShloMosaic.ValueIdx

abbrev ST : Shape := ⟨2, ![10240, 128]⟩
abbrev SL : Shape := ⟨1, ![163840]⟩

/-- Entry `k` of node `n` in a flat array. -/
def flat (n : Fin 10240) (k : Fin 16) : Fin 163840 := ⟨16 * n.val + k.val, by have := n.isLt; have := k.isLt; omega⟩
/-- The table row a list entry names. -/
def rowOf (w : BitVec 32) : Fin 10240 := ⟨w.toNat % 10240, Nat.mod_lt _ (by decide)⟩

section
variable (y1 y2 : FVec Ideal ST .f32) (ii ij : Vec Ideal SL .i32) (sp : FVec Ideal SL .f32)

/-- The damped feature of edge (n, k) at channel o. -/
def tEdge (n : Fin 10240) (o : Fin 128) (k : Fin 16) : EReal :=
  max (y1 (ix2 (rowOf (ii (ix1 (flat n k)))) o) + y2 (ix2 (rowOf (ij (ix1 (flat n k)))) o)) Cert.Spec.f0 * sp (ix1 (flat n k))
/-- Node n's value at channel o. -/
def tOut (n : Fin 10240) (o : Fin 128) : EReal :=
  (List.finRange 16).foldl (fun acc k => max acc (tEdge y1 y2 ii ij sp n o k)) Cert.Spec.f0
end

section
variable (x : FVec Ideal Cert.Spec.SX .f32) (e : Vec Ideal Cert.Spec.SE .i32) (dis : FVec Ideal Cert.Spec.SD .f32) (W : FVec Ideal Cert.Spec.SW .f32)
  (b : FVec Ideal Cert.Spec.SB .f32) (aw : FVec Ideal Cert.Spec.SA .f32) (ab : FVec Ideal Cert.Spec.SO .f32)

/-- With the tables, lists and factors computed from the inputs, a node's value is the specification's. -/
theorem tOut_spec (y1 y2 : FVec Ideal ST .f32) (ii ij : Vec Ideal SL .i32) (sp : FVec Ideal SL .f32)
    (h1 : ∀ (n : Fin 10240) (o : Fin 128), y1 (ix2 n o) = Cert.Spec.y1 x W b n.val o)
    (h2 : ∀ (n : Fin 10240) (o : Fin 128), y2 (ix2 n o) = Cert.Spec.y2 x W n.val o)
    (hi : ∀ (n : Fin 10240) (k : Fin 16), (ii (ix1 (flat n k)) : BitVec 32).toNat = Cert.Spec.nbr e 1 n.val k)
    (hj : ∀ (n : Fin 10240) (k : Fin 16), (ij (ix1 (flat n k)) : BitVec 32).toNat = Cert.Spec.nbr e 0 n.val k)
    (hs : ∀ (n : Fin 10240) (k : Fin 16), sp (ix1 (flat n k)) = Cert.Spec.supp dis aw ab n.val k)
    (hlt : ∀ (r : Fin 2) (n : Nat) (k : Fin 16), Cert.Spec.nbr e r n k < 10240)
    (n : Fin 10240) (o : Fin 128) :
    tOut y1 y2 ii ij sp n o = Cert.Spec.out x e dis W b aw ab n.val o := by
  unfold tOut Cert.Spec.out
  congr 1
  funext acc k
  unfold tEdge Cert.Spec.edge
  have e1 : (rowOf (ii (ix1 (flat n k)))).val = Cert.Spec.nbr e 1 n.val k := by
    unfold rowOf; simp only [hi]; exact Nat.mod_eq_of_lt (hlt 1 n.val k)
  have e0 : (rowOf (ij (ix1 (flat n k)))).val = Cert.Spec.nbr e 0 n.val k := by
    unfold rowOf; simp only [hj]; exact Nat.mod_eq_of_lt (hlt 0 n.val k)
  rw [h1, h2, hs, e1, e0]
end

end Cert.Proof.KIval

end
-- ==== Proof.ValTileDefsI.lean ====
/-
  The values a tile's compute loops leave, named.  A slot of the row buffers holds 128 rows: row 16·n + k of the slot is the table row
  that edge k of the slot's node n names.  A node's value at a channel is the maximum over its sixteen edges of
  max (r1 + r2) 0 · factor, started from zero.
-/
import proofs.«205997_g24756191494465_cont_8to1_1595_42_alg».proof.Proof.TileCoreI
import proofs.«205997_g24756191494465_cont_8to1_1595_42_alg».proof.Proof.ValSpecI

noncomputable section

namespace Cert.Proof.KIval

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.KI Idealize.ShloMosaic.ValueIdx

local notation "𝕄" => MT nD τ sig (HIx 1) (Elt Ideal) ℕ Cert.Proof.KI.UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

theorem trips1_le : k1_t1_loop.trips ≤ 20 := k1_t1_abs.2.1

/-- Output row of node `n'` of trip `k`, slot `p`; the group it belongs to. -/
def rowF (k : Fin k1_t1_loop.trips) (p : Nat) (n' : Fin 8) : Fin 320 :=
  ⟨(16 * k.val + 8 * (p % 2) + n'.val) % 320, Nat.mod_lt _ (by decide)⟩
def giF (k : Fin k1_t1_loop.trips) (p : Nat) : Fin 40 := ⟨(2 * k.val + p % 2) % 40, Nat.mod_lt _ (by decide)⟩

/-- A node's value from the slot's rows and the factors. -/
def nodeVal (p : Fin 2) (gi : Fin 40) (R1 R2 : FVec Ideal S256x128 .f32) (S2 : FVec Ideal S5120 .f32) (n : Fin 8) (o : Fin 128) : EReal :=
  (List.finRange 16).foldl (fun acc k =>
    max acc (max (R1 (ix2 ⟨128 * p.val + 16 * n.val + k.val, by have := p.isLt; have := n.isLt; have := k.isLt; omega⟩ o)
                + R2 (ix2 ⟨128 * p.val + 16 * n.val + k.val, by have := p.isLt; have := n.isLt; have := k.isLt; omega⟩ o)) Cert.Spec.f0
             * S2 (ix1 ⟨128 * gi.val + 16 * n.val + k.val, by have := gi.isLt; have := n.isLt; have := k.isLt; omega⟩))) Cert.Spec.f0

/-- Slot 0's compute loop with values: the nodes done so far hold their values in the output scratch, every other row is as at the
    loop's entry; the slot's two windows of each row buffer are held at ONE function each. -/
def invInV0 (d : Dev nD) (L : grid1.Coords) (k : Fin k1_t1_loop.trips) (G2 : FVec Ideal S5120 .f32) (R1 R2 : FVec Ideal S256x128 .f32)
    (G5₀ : FVec Ideal S320x128 .f32) (i : Nat) (_ : PUnit) : sProp 𝕄 :=
  iprop(∃ G5 : FVec Ideal S320x128 .f32,
    ⌜∀ (n' : Fin 8), n'.val < i → ∀ o : Fin 128, G5 (ix2 (rowF k 0 n') o) = nodeVal ⟨0, by decide⟩ (giF k 0) R1 R2 G2 n' o⌝
    ∗ ⌜∀ (r : Fin 320) (o : Fin 128), (r.val < 16 * k.val ∨ 16 * k.val + 8 ≤ r.val) → G5 (ix2 r o) = G5₀ (ix2 r o)⌝
    ∗ ((s2W).view.loc (tile d L) ↦{fullShare} G2)
    ∗ (((s3W).slice (Rect.unit (s := S256x128) ![0, 0] S64x128.size inb_S256x128_S64x128_0_0) (fun _ => rfl)).view.loc (tile d L) ↦[((s3W).slice (Rect.unit (s := S256x128) ![0, 0] S64x128.size inb_S256x128_S64x128_0_0) (fun _ => rfl)).view.set]{fullShare} R1)
    ∗ (((s3W).slice (Rect.unit (s := S256x128) ![64, 0] S64x128.size inb_S256x128_S64x128_64_0) (fun _ => rfl)).view.loc (tile d L) ↦[((s3W).slice (Rect.unit (s := S256x128) ![64, 0] S64x128.size inb_S256x128_S64x128_64_0) (fun _ => rfl)).view.set]{fullShare} R1)
    ∗ (((s4W).slice (Rect.unit (s := S256x128) ![0, 0] S64x128.size inb_S256x128_S64x128_0_0) (fun _ => rfl)).view.loc (tile d L) ↦[((s4W).slice (Rect.unit (s := S256x128) ![0, 0] S64x128.size inb_S256x128_S64x128_0_0) (fun _ => rfl)).view.set]{fullShare} R2)
    ∗ (((s4W).slice (Rect.unit (s := S256x128) ![64, 0] S64x128.size inb_S256x128_S64x128_64_0) (fun _ => rfl)).view.loc (tile d L) ↦[((s4W).slice (Rect.unit (s := S256x128) ![64, 0] S64x128.size inb_S256x128_S64x128_64_0) (fun _ => rfl)).view.set]{fullShare} R2)
    ∗ ((s5W).view.loc (tile d L) ↦{fullShare} G5))

/-- Slot 1's compute loop with values: the nodes done so far hold their values in the output scratch, every other row is as at the
    loop's entry; the slot's two windows of each row buffer are held at ONE function each. -/
def invInV1 (d : Dev nD) (L : grid1.Coords) (k : Fin k1_t1_loop.trips) (G2 : FVec Ideal S5120 .f32) (R1 R2 : FVec Ideal S256x128 .f32)
    (G5₀ : FVec Ideal S320x128 .f32) (i : Nat) (_ : PUnit) : sProp 𝕄 :=
  iprop(∃ G5 : FVec Ideal S320x128 .f32,
    ⌜∀ (n' : Fin 8), n'.val < i → ∀ o : Fin 128, G5 (ix2 (rowF k 1 n') o) = nodeVal ⟨1, by decide⟩ (giF k 1) R1 R2 G2 n' o⌝
    ∗ ⌜∀ (r : Fin 320) (o : Fin 128), (r.val < 16 * k.val + 8 ∨ 16 * k.val + 8 + 8 ≤ r.val) → G5 (ix2 r o) = G5₀ (ix2 r o)⌝
    ∗ ((s2W).view.loc (tile d L) ↦{fullShare} G2)
    ∗ (((s3W).slice (Rect.unit (s := S256x128) ![128, 0] S64x128.size inb_S256x128_S64x128_128_0) (fun _ => rfl)).view.loc (tile d L) ↦[((s3W).slice (Rect.unit (s := S256x128) ![128, 0] S64x128.size inb_S256x128_S64x128_128_0) (fun _ => rfl)).view.set]{fullShare} R1)
    ∗ (((s3W).slice (Rect.unit (s := S256x128) ![192, 0] S64x128.size inb_S256x128_S64x128_192_0) (fun _ => rfl)).view.loc (tile d L) ↦[((s3W).slice (Rect.unit (s := S256x128) ![192, 0] S64x128.size inb_S256x128_S64x128_192_0) (fun _ => rfl)).view.set]{fullShare} R1)
    ∗ (((s4W).slice (Rect.unit (s := S256x128) ![128, 0] S64x128.size inb_S256x128_S64x128_128_0) (fun _ => rfl)).view.loc (tile d L) ↦[((s4W).slice (Rect.unit (s := S256x128) ![128, 0] S64x128.size inb_S256x128_S64x128_128_0) (fun _ => rfl)).view.set]{fullShare} R2)
    ∗ (((s4W).slice (Rect.unit (s := S256x128) ![192, 0] S64x128.size inb_S256x128_S64x128_192_0) (fun _ => rfl)).view.loc (tile d L) ↦[((s4W).slice (Rect.unit (s := S256x128) ![192, 0] S64x128.size inb_S256x128_S64x128_192_0) (fun _ => rfl)).view.set]{fullShare} R2)
    ∗ ((s5W).view.loc (tile d L) ↦{fullShare} G5))

/-- The rows a group's indexed copies leave in a row buffer: local row e (of either slot) is the table row the group's e-th list entry names. -/
def gR (fy : FVec Ideal ST .f32) (I : Vec Ideal S5120 .i32) (gi : Nat) : FVec Ideal S256x128 .f32 :=
  fun i => fy (ix2 (rowOf (I (ix1 ⟨(128 * gi + (i 0).val % 128) % 5120, Nat.mod_lt _ (by decide)⟩))) (i 1))

end Cert.Proof.KIval

end
-- ==== Proof.ValTileStmtI.lean ====
/-
  The statements the value version of a tile's outer trip takes from the inner loops and from the indexed copies.
-/
import proofs.«205997_g24756191494465_cont_8to1_1595_42_alg».proof.Proof.ValTileDefsI

noncomputable section

namespace Cert.Proof.KIval

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.KI Idealize.ShloMosaic.ValueIdx

local notation "𝕄" => MT nD τ sig (HIx 1) (Elt Ideal) ℕ Cert.Proof.KI.UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

/-- What a landed indexed copy leaves in its window of scratch 3: the table's rows its 64 list entries name; stated as the step from the
    window at the copy's payload to the window at any function that agrees with those rows on the window. -/
def LandE3 : Prop :=
  ∀ (d : Dev nD) (L : grid1.Coords) (o : Nat) (ho : ∀ a, (![o, 0] : Fin 2 → Nat) a + S64x128.size a ≤ S256x128.size a)
    (G : FVec Ideal S256x128 .f32) (fy : FVec Ideal ST .f32) (I : Vec Ideal S5120 .i32)
    (ov : Fin 1 → Nat) (hov : ∀ a, ov a + S64.size a ≤ S5120.size a) (hn) (hin) (R : FVec Ideal S256x128 .f32),
    (∀ i : S256x128.Idx, o ≤ (i 0).val → (i 0).val < o + 64 →
        fy (ix2 (rowOf (I (ix1 ⟨(ov 0 + ((i 0).val - o)) % 5120, Nat.mod_lt _ (by decide)⟩))) (i 1)) = R i) →
    ((((s3W).slice (Rect.unit (s := S256x128) ![o, 0] S64x128.size ho) (fun _ => rfl)).view.loc (tile d L) ↦[((s3W).slice (Rect.unit (s := S256x128) ![o, 0] S64x128.size ho) (fun _ => rfl)).view.set]{fullShare}
        (((s3W).slice (Rect.unit (s := S256x128) ![o, 0] S64x128.size ho) (fun _ => rfl)).view.writes (Elt Ideal) G [⟨Rect.whole _, SparseCore.gatherPayload gathers_S10240x128_S64x128
          ((((y1W).slice (Rect.unit (s := S10240x128) ![0, 0] S10240x128.size inb_S10240x128_S10240x128_0_0) (fun _ => rfl))).view.read (Elt Ideal) fy)
          (SparseCore.rows ((((s0W).slice (Rect.unit (s := S5120) ov S64.size hov) (fun _ => rfl))).view.read (Elt Ideal) I) hn hin)⟩]) : sProp 𝕄)
      ⊢ (((s3W).slice (Rect.unit (s := S256x128) ![o, 0] S64x128.size ho) (fun _ => rfl)).view.loc (tile d L) ↦[((s3W).slice (Rect.unit (s := S256x128) ![o, 0] S64x128.size ho) (fun _ => rfl)).view.set]{fullShare} R))

/-- What a landed indexed copy leaves in its window of scratch 4: the table's rows its 64 list entries name; stated as the step from the
    window at the copy's payload to the window at any function that agrees with those rows on the window. -/
def LandE4 : Prop :=
  ∀ (d : Dev nD) (L : grid1.Coords) (o : Nat) (ho : ∀ a, (![o, 0] : Fin 2 → Nat) a + S64x128.size a ≤ S256x128.size a)
    (G : FVec Ideal S256x128 .f32) (fy : FVec Ideal ST .f32) (I : Vec Ideal S5120 .i32)
    (ov : Fin 1 → Nat) (hov : ∀ a, ov a + S64.size a ≤ S5120.size a) (hn) (hin) (R : FVec Ideal S256x128 .f32),
    (∀ i : S256x128.Idx, o ≤ (i 0).val → (i 0).val < o + 64 →
        fy (ix2 (rowOf (I (ix1 ⟨(ov 0 + ((i 0).val - o)) % 5120, Nat.mod_lt _ (by decide)⟩))) (i 1)) = R i) →
    ((((s4W).slice (Rect.unit (s := S256x128) ![o, 0] S64x128.size ho) (fun _ => rfl)).view.loc (tile d L) ↦[((s4W).slice (Rect.unit (s := S256x128) ![o, 0] S64x128.size ho) (fun _ => rfl)).view.set]{fullShare}
        (((s4W).slice (Rect.unit (s := S256x128) ![o, 0] S64x128.size ho) (fun _ => rfl)).view.writes (Elt Ideal) G [⟨Rect.whole _, SparseCore.gatherPayload gathers_S10240x128_S64x128
          ((((y2W).slice (Rect.unit (s := S10240x128) ![0, 0] S10240x128.size inb_S10240x128_S10240x128_0_0) (fun _ => rfl))).view.read (Elt Ideal) fy)
          (SparseCore.rows ((((s1W).slice (Rect.unit (s := S5120) ov S64.size hov) (fun _ => rfl))).view.read (Elt Ideal) I) hn hin)⟩]) : sProp 𝕄)
      ⊢ (((s4W).slice (Rect.unit (s := S256x128) ![o, 0] S64x128.size ho) (fun _ => rfl)).view.loc (tile d L) ↦[((s4W).slice (Rect.unit (s := S256x128) ![o, 0] S64x128.size ho) (fun _ => rfl)).view.set]{fullShare} R))

/-- One node of slot 0 with values; of slot 1. -/
def Inner0V : Prop :=
  ∀ (d : Dev nD) (L : grid1.Coords) (G2 : FVec Ideal S5120 .f32) (R1 R2 : FVec Ideal S256x128 .f32) (G5₀ : FVec Ideal S320x128 .f32)
    (k1 : Fin k1_t1_loop.trips) (v18 v19 : BitVec 32) (n : Fin k1_t2_loop.trips),
    invInV0 d L k1 G2 R1 R2 G5₀ n.val ()
      ⊢ wp frame (wpE (defs₀ (F := Ideal)) 𝒱₀ (tile d L) none) Set.univ (k1_t2_body L y1W (Memref.isWhole_whole _) y2W (Memref.isWhole_whole _) iiW (Memref.isWhole_whole _) ijW (Memref.isWhole_whole _)
            spW (Memref.isWhole_whole _) ouW (Memref.isWhole_whole _) s0W (Memref.isWhole_whole _) s1W (Memref.isWhole_whole _) s2W (Memref.isWhole_whole _)
            s3W (Memref.isWhole_whole _) s4W (Memref.isWhole_whole _) s5W (Memref.isWhole_whole _)
            cc1_scratch6 cc1_scratch7 cc1_scratch8 cc1_scratch9 cc1_scratch10 cc1_scratch11 cc1_scratch12 cc1_scratch13 cc1_scoped0 cc1_scoped1 cc1_scoped2 cc1_scoped3 k1 v18 v19 n ())
          fun x => invInV0 d L k1 G2 R1 R2 G5₀ (n.val + 1) x
def Inner1V : Prop :=
  ∀ (d : Dev nD) (L : grid1.Coords) (G2 : FVec Ideal S5120 .f32) (R1 R2 : FVec Ideal S256x128 .f32) (G5₀ : FVec Ideal S320x128 .f32)
    (k1 : Fin k1_t1_loop.trips) (v45 : BitVec 32) (n : Fin k1_t3_loop.trips),
    invInV1 d L k1 G2 R1 R2 G5₀ n.val ()
      ⊢ wp frame (wpE (defs₀ (F := Ideal)) 𝒱₀ (tile d L) none) Set.univ (k1_t3_body L y1W (Memref.isWhole_whole _) y2W (Memref.isWhole_whole _) iiW (Memref.isWhole_whole _) ijW (Memref.isWhole_whole _)
            spW (Memref.isWhole_whole _) ouW (Memref.isWhole_whole _) s0W (Memref.isWhole_whole _) s1W (Memref.isWhole_whole _) s2W (Memref.isWhole_whole _)
            s3W (Memref.isWhole_whole _) s4W (Memref.isWhole_whole _) s5W (Memref.isWhole_whole _)
            cc1_scratch6 cc1_scratch7 cc1_scratch8 cc1_scratch9 cc1_scratch10 cc1_scratch11 cc1_scratch12 cc1_scratch13 cc1_scoped0 cc1_scoped1 cc1_scoped2 cc1_scoped3 k1 v45 n ())
          fun x => invInV1 d L k1 G2 R1 R2 G5₀ (n.val + 1) x

/-- Node `r` of tile `L` among all nodes. -/
def nodeOf (L : grid1.Coords) (r : Fin 320) : Fin 10240 :=
  ⟨320 * (wid L).val + r.val, by have := (wid L).isLt; have := r.isLt; omega⟩

/-- The tile's rows of the output hold its nodes' values. -/
def TileDone (L : grid1.Coords) (fy1 fy2 : FVec Ideal ST .f32) (fi fj : Vec Ideal SL .i32) (fs : FVec Ideal SL .f32) (fo' : FVec Ideal ST .f32) : Prop :=
  ∀ (r : Fin 320) (o : Fin 128), fo' (ix2 (nodeOf L r) o) = tOut fy1 fy2 fi fj fs (nodeOf L r) o

/-- The tile's whole task with its value. -/
def TileCoreV : Prop :=
  ∀ (d : Dev nD) (L : grid1.Coords) (q : PosShare TreeShare)
    (fy1 : Buf (Elt Ideal) ((y1W).view.loc (tile d L))) (fy2 : Buf (Elt Ideal) ((y2W).view.loc (tile d L)))
    (fi : Buf (Elt Ideal) ((iiSl L).view.loc (tile d L))) (fj : Buf (Elt Ideal) ((ijSl L).view.loc (tile d L)))
    (fs : Buf (Elt Ideal) ((spSl L).view.loc (tile d L))) (fo : Buf (Elt Ideal) ((ouSl L).view.loc (tile d L)))
    (g0 : Buf (Elt Ideal) ((s0W).view.loc (tile d L))) (g1 : Buf (Elt Ideal) ((s1W).view.loc (tile d L))) (g2 : Buf (Elt Ideal) ((s2W).view.loc (tile d L)))
    (g3 : Buf (Elt Ideal) ((s3W).view.loc (tile d L))) (g4 : Buf (Elt Ideal) ((s4W).view.loc (tile d L))) (g5 : Buf (Elt Ideal) ((s5W).view.loc (tile d L)))
    (O : CellTallies nD τ sig (HIx 1)) (W : Waits sig (HIx 1)),
    InRows (iiSl L).view.set fi → InRows (ijSl L).view.set fj →
    coreCtx (F := Ideal) d L q fy1 fy2 fi fj fs fo g0 g1 g2 g3 g4 g5 O W
      ⊢ wp frame (wpE (defs₀ (F := Ideal)) 𝒱₀ (tile d L) none) Set.univ
          (cc1__sc_kernel L y1W (Memref.isWhole_whole _) y2W (Memref.isWhole_whole _) iiW (Memref.isWhole_whole _) ijW (Memref.isWhole_whole _)
            spW (Memref.isWhole_whole _) ouW (Memref.isWhole_whole _) s0W (Memref.isWhole_whole _) s1W (Memref.isWhole_whole _) s2W (Memref.isWhole_whole _)
            s3W (Memref.isWhole_whole _) s4W (Memref.isWhole_whole _) s5W (Memref.isWhole_whole _)
            cc1_scratch6 cc1_scratch7 cc1_scratch8 cc1_scratch9 cc1_scratch10 cc1_scratch11 cc1_scratch12 cc1_scratch13 cc1_scoped0 cc1_scoped1 cc1_scoped2 cc1_scoped3)
          fun _ => iprop(∃ fo' g0' g1' g2' g3' g4' g5' W', ⌜∀ p ∈ W', p ∈ W ∨ p.2 = none⌝
            ∗ coreCtx (F := Ideal) d L q fy1 fy2 fi fj fs fo' g0' g1' g2' g3' g4' g5' O W' ∗ ⌜TileDone L fy1 fy2 fi fj fs fo'⌝)

end Cert.Proof.KIval

end
-- ==== Proof.ValPayI.lean ====
/-
  The arrays the SparseCore call reads and writes, as functions of the program's inputs (at the ideal instance), and the handshakes'
  payloads carrying them: a tile is handed the two node tables, its slices of the edge lists and of the damping factors AT THESE
  CONTENTS and its rows of the output at any; it hands the same back with its rows of the output at the nodes' values.
-/
import proofs.«205997_g24756191494465_cont_8to1_1595_42_alg».proof.Proof.PayI
import proofs.«205997_g24756191494465_cont_8to1_1595_42_alg».proof.Proof.ValSpecI

noncomputable section

namespace Cert.Proof.KIval

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

variable (m : (ℓ : Loc nD τ sig) → Buf (Elt Ideal) ℓ)

/-- The inputs, as device `d`'s TensorCore holds them at the launch. -/
abbrev xIn (d : Dev nD) : FVec Ideal Cert.Spec.SX .f32 := m ((SparseCore.T d).loc main_arg0)
abbrev eIn (d : Dev nD) : Vec Ideal Cert.Spec.SE .i32 := m ((SparseCore.T d).loc main_arg1)
abbrev disIn (d : Dev nD) : FVec Ideal Cert.Spec.SD .f32 := m ((SparseCore.T d).loc main_arg3)
abbrev wIn (d : Dev nD) : FVec Ideal Cert.Spec.SW .f32 := m ((SparseCore.T d).loc main_arg4)
abbrev bIn (d : Dev nD) : FVec Ideal Cert.Spec.SB .f32 := m ((SparseCore.T d).loc main_arg5)
abbrev awIn (d : Dev nD) : FVec Ideal Cert.Spec.SA .f32 := m ((SparseCore.T d).loc main_arg6)
abbrev abIn (d : Dev nD) : FVec Ideal Cert.Spec.SO .f32 := m ((SparseCore.T d).loc main_arg7)

/-- The two node tables, the two flat edge lists (zero on the padding), the flat damping factors, and the output. -/
def y1A (d : Dev nD) : FVec Ideal ST .f32 := fun j => Cert.Spec.y1 (xIn m d) (wIn m d) (bIn m d) (j 0).val (j 1)
def y2A (d : Dev nD) : FVec Ideal ST .f32 := fun j => Cert.Spec.y2 (xIn m d) (wIn m d) (j 0).val (j 1)
def listA (d : Dev nD) (r : Fin 2) : Vec Ideal SL .i32 := fun j =>
  if h : (j 0).val / 16 < 10000 then eIn m d (ix4 r 0 ⟨(j 0).val / 16, h⟩ ⟨(j 0).val % 16, Nat.mod_lt _ (by decide)⟩) else 0#32
def spA (d : Dev nD) : FVec Ideal SL .f32 := fun j =>
  Cert.Spec.supp (disIn m d) (awIn m d) (abIn m d) ((j 0).val / 16) ⟨(j 0).val % 16, Nat.mod_lt _ (by decide)⟩
def outA (d : Dev nD) : FVec Ideal ST .f32 := fun j => tOut (y1A m d) (y2A m d) (listA m d 1) (listA m d 0) (spA m d) (j 0) (j 1)

/-- What a tile is handed: the arrays at the contents above, its output rows at any contents. -/
def tileGo (d : Dev nD) (L : grid1.Coords) : sProp 𝕄 :=
  iprop((y1L d ↦{tabShare L} y1A m d) ∗ (y2L d ↦{tabShare L} y2A m d)
    ∗ (iiL d ↦[(iiSl L).view.set]{fullShare} listA m d 1) ∗ (ijL d ↦[(ijSl L).view.set]{fullShare} listA m d 0)
    ∗ (spL d ↦[(spSl L).view.set]{fullShare} spA m d)
    ∗ (∃ f, ouL d ↦[(ouSl L).view.set]{fullShare} f))
/-- What it hands back: the same, its output rows at the nodes' values. -/
def tileTd (d : Dev nD) (L : grid1.Coords) : sProp 𝕄 :=
  iprop((y1L d ↦{tabShare L} y1A m d) ∗ (y2L d ↦{tabShare L} y2A m d)
    ∗ (iiL d ↦[(iiSl L).view.set]{fullShare} listA m d 1) ∗ (ijL d ↦[(ijSl L).view.set]{fullShare} listA m d 0)
    ∗ (spL d ↦[(spSl L).view.set]{fullShare} spA m d)
    ∗ (ouL d ↦[(ouSl L).view.set]{fullShare} outA m d))

set_option synthInstance.maxHeartbeats 2000000 in
set_option maxHeartbeats 2000000 in
instance tileGo_storable (d : Dev nD) (L : grid1.Coords) : BI.Storable (upEmb : UEmb _ 𝕄) (tileGo m d L) := by
  unfold tileGo; infer_instance
set_option synthInstance.maxHeartbeats 2000000 in
set_option maxHeartbeats 2000000 in
instance tileTd_storable (d : Dev nD) (L : grid1.Coords) : BI.Storable (upEmb : UEmb _ 𝕄) (tileTd m d L) := by
  unfold tileTd; infer_instance

/-- The one call's payloads, with values. -/
def Pv : (K (F := Ideal)).Pay (nD := nD) (Val := Elt Ideal) (Name := ℕ) (U := UU) where
  st := fun q d c => match q with | 0 => bigSep Finset.univ fun s : Fin 16 => tileGo m d (LL (Fin.cast nCore_zero c) s)
  dn := fun q d c => match q with | 0 => bigSep Finset.univ fun s : Fin 16 => tileTd m d (LL (Fin.cast nCore_zero c) s)
  go := fun q d c i => match q with | 0 => tileGo m d (LL (Fin.cast nCore_zero c) (Fin.cast nSub_zero i))
  td := fun q d c i => match q with | 0 => tileTd m d (LL (Fin.cast nCore_zero c) (Fin.cast nSub_zero i))
  x := fun _ _ => iprop(emp)

instance Pv_storable : (Pv m).IsStorable where
  st q d c := match q with
    | 0 => (inferInstance : BI.Storable (upEmb : UEmb _ 𝕄) (bigSep Finset.univ fun s : Fin 16 => tileGo m d (LL (Fin.cast nCore_zero c) s)))
  dn q d c := match q with
    | 0 => (inferInstance : BI.Storable (upEmb : UEmb _ 𝕄) (bigSep Finset.univ fun s : Fin 16 => tileTd m d (LL (Fin.cast nCore_zero c) s)))
  go q d c i := match q with
    | 0 => (inferInstance : BI.Storable (upEmb : UEmb _ 𝕄) (tileGo m d (LL (Fin.cast nCore_zero c) (Fin.cast nSub_zero i))))
  td q d c i := match q with
    | 0 => (inferInstance : BI.Storable (upEmb : UEmb _ 𝕄) (tileTd m d (LL (Fin.cast nCore_zero c) (Fin.cast nSub_zero i))))

theorem vecSplitV : (K (F := Ideal)).VecSplit' (Pv m) 0 := by
  intro d c
  show (bigSep Finset.univ fun s : Fin 16 => tileGo m d (LL (Fin.cast nCore_zero c) s))
    ⊢ |={Set.univ}=> iprop((bigSep Finset.univ fun i : Fin ((K (F := Ideal)).nSub 0) => tileGo m d (LL (Fin.cast nCore_zero c) (Fin.cast nSub_zero i)))
      ∗ ((bigSep Finset.univ fun i : Fin ((K (F := Ideal)).nSub 0) => tileTd m d (LL (Fin.cast nCore_zero c) (Fin.cast nSub_zero i)))
          -∗ bigSep Finset.univ fun s : Fin 16 => tileTd m d (LL (Fin.cast nCore_zero c) s)))
  iintro H
  imodintro
  isplitl [H]
  · iexact H
  · iintro H; iexact H

end Cert.Proof.KIval

end
-- ==== Proof.TileOblValI.lean ====
/-
  The launch's obligation for a tile WITH VALUES, from the tile's core with its value.

  The launch hands a tile the two node tables, its slices of the two flat edge lists and of the flat damping factors at the contents
  the program computes from its inputs, and its rows of the output at any contents.  Every entry of an edge list is an entry of the
  edge-index argument or zero, hence names a row of the tables.  The core leaves, in the tile's rows of the output, the value of
  each of its nodes as a function of the five arrays it read; a row of the tile's slice is one of its nodes, so the rows hold the
  output array the payloads name.
-/
import proofs.«205997_g24756191494465_cont_8to1_1595_42_alg».proof.Proof.TileOblI
import proofs.«205997_g24756191494465_cont_8to1_1595_42_alg».proof.Proof.ValTileStmtI
import proofs.«205997_g24756191494465_cont_8to1_1595_42_alg».proof.Proof.ValPayI
import proofs.«205997_g24756191494465_cont_8to1_1595_42_alg».proof.Proof.ScSplitI

noncomputable section

namespace Cert.Proof.KIval

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KI Idealize.ShloMosaic.ValueIdx

local notation "𝕄" => MT nD τ sig (HIx 1) (Elt Ideal) ℕ Cert.Proof.KI.UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

variable (m : (ℓ : Loc nD τ sig) → Buf (Elt Ideal) ℓ)

/-! ## The edge lists name rows of the tables; the tile's rows of the output -/

/-- Every entry of a flat edge list is an entry of the edge-index argument, below 10240 by the range, or zero. -/
theorem listA_inRows (hpre : PreOK m) (d : Dev nD) (r : Fin 2) (S : Finset S163840.Idx) : InRows S (listA m d r) := by
  intro j _
  unfold listA
  split
  · exact hpre d _
  · show (0#32 : BitVec 32).toNat < 10240
    decide

/-- A row of the tile's slice of the output is one of the tile's nodes: where the core has left each node's value, the slice holds
    the output array. -/
theorem out_of_done (d : Dev nD) (L : grid1.Coords) (fo' : FVec Ideal ST .f32)
    (h : TileDone L (y1A m d) (y2A m d) (listA m d 1) (listA m d 0) (spA m d) fo') :
    ∀ j ∈ (ouSl L).view.set, fo' j = outA m d j := by
  intro j hj
  rw [set_ou, Rect.mem_set_unit, k1_off39_eq] at hj
  have h0 : 640 * (L 1).val + 320 * (L 0).val ≤ (j 0).val ∧ (j 0).val < 640 * (L 1).val + 320 * (L 0).val + 320 := hj 0
  have hw : (wid L).val = 2 * (L 1).val + (L 0).val := rfl
  let j' : ST.Idx := j
  have hr : (j' 0).val - 320 * (wid L).val < 320 := by show (j 0).val - 320 * (wid L).val < 320; omega
  have e : j' = ix2 (nodeOf L ⟨(j' 0).val - 320 * (wid L).val, hr⟩) (j' 1) := by
    funext a
    match a with
    | ⟨0, _⟩ => exact Fin.ext (show (j 0).val = 320 * (wid L).val + ((j 0).val - 320 * (wid L).val) by omega)
    | ⟨1, _⟩ => rfl
  exact (congrArg fo' e).trans ((h _ _).trans (congrArg (outA m d) e).symm)

/-! ## A tile's task with values -/

section Tile

variable (d : Dev nD) (L : grid1.Coords)

set_option maxHeartbeats 4000000 in
/-- A tile's task, from what the launch hands it to what it hands back, given the core with its value. -/
theorem tile_body_val (hF : (K (F := Ideal)).Facts) (hcore : TileCoreV) (hpre : PreOK m)
    (O : CellTallies nD τ sig (HIx 1)) (W : Waits sig (HIx 1)) (hO : ∀ g, O g none = 0) :
    iprop(levAts (K (F := Ideal)).L (K (F := Ideal)).lev ∗ iprop(emp) ∗ tileGo m d L
        ∗ scopedBufs (V d (cV L) (jV L)) ∗ scopedSems0 (V d (cV L) (jV L)) ∗ owes (V d (cV L) (jV L)) O W)
      ⊢ wp frame (wpE (defs₀ (F := Ideal)) 𝒱₀ (tile d L) none) Set.univ (cc1__sc_kernel L y1W (Memref.isWhole_whole _) y2W (Memref.isWhole_whole _) iiW (Memref.isWhole_whole _) ijW (Memref.isWhole_whole _) spW (Memref.isWhole_whole _) ouW (Memref.isWhole_whole _) s0W (Memref.isWhole_whole _) s1W (Memref.isWhole_whole _) s2W (Memref.isWhole_whole _) s3W (Memref.isWhole_whole _) s4W (Memref.isWhole_whole _) s5W (Memref.isWhole_whole _) cc1_scratch6 cc1_scratch7 cc1_scratch8 cc1_scratch9 cc1_scratch10 cc1_scratch11 cc1_scratch12 cc1_scratch13 cc1_scoped0 cc1_scoped1 cc1_scoped2 cc1_scoped3)
          fun _ => iprop(tileTd m d L ∗ scopedBufs (V d (cV L) (jV L)) ∗ scopedSems0 (V d (cV L) (jV L))
            ∗ ∃ W', ⌜∀ p ∈ W', p ∈ W ∨ p.2 = none⌝ ∗ owes (V d (cV L) (jV L)) O W') := by
  have hcore' := hcore
  unfold TileCoreV coreCtx at hcore'
  rw [(K (F := Ideal)).scopedBufs_V hF d (cV L) (jV L), SparseCore.Cfg.scopedSems0_V (Val := Elt Ideal) d (cV L) (jV L),
    ownSems0_V (F := Ideal) d L, ownBufs_V (F := Ideal) d L]
  unfold tileGo tileTd
  iintro ⟨#Hlv, -, ⟨Hy1, Hy2, Hii, Hij, Hsp, ⟨%fo, Hou⟩⟩,
    ⟨⟨%g0, Hs0⟩, ⟨%g1, Hs1⟩, ⟨%g2, Hs2⟩, ⟨%g3, Hs3⟩, ⟨%g4, Hs4⟩, ⟨%g5, Hs5⟩, Hbufs⟩,
    ⟨Hm0, Hm1, Hm2, Hm3, Hm4, Hm5, Hm6, Hm7, Hm8, Hm9, Hm10, Hm11, Hsems⟩, HO⟩
  ihave Hmw := (show levAts (K (F := Ideal)).L (K (F := Ideal)).lev ⊢ Transfers.MayWaits (tile d L) (none : HIx 1) O from
    (K (F := Ideal)).mayWaits_none (thr := tile d L) hO) $$ Hlv
  ihave Hy1' := (Entails.of_eq (pts_y1 (F := Ideal) d L _ _).symm) $$ Hy1
  ihave Hy2' := (Entails.of_eq (pts_y2 (F := Ideal) d L _ _).symm) $$ Hy2
  ihave Hii' := (Entails.of_eq (pts_ii (F := Ideal) d L _).symm) $$ Hii
  ihave Hij' := (Entails.of_eq (pts_ij (F := Ideal) d L _).symm) $$ Hij
  ihave Hsp' := (Entails.of_eq (pts_sp (F := Ideal) d L _).symm) $$ Hsp
  ihave Hou' := (Entails.of_eq (pts_ou (F := Ideal) d L _).symm) $$ Hou
  ihave Hs0' := (Entails.of_eq (pts_s0 (F := Ideal) d L _).symm) $$ Hs0
  ihave Hs1' := (Entails.of_eq (pts_s1 (F := Ideal) d L _).symm) $$ Hs1
  ihave Hs2' := (Entails.of_eq (pts_s2 (F := Ideal) d L _).symm) $$ Hs2
  ihave Hs3' := (Entails.of_eq (pts_s3 (F := Ideal) d L _).symm) $$ Hs3
  ihave Hs4' := (Entails.of_eq (pts_s4 (F := Ideal) d L _).symm) $$ Hs4
  ihave Hs5' := (Entails.of_eq (pts_s5 (F := Ideal) d L _).symm) $$ Hs5
  iapply (wp_wand_r Idealize.ShloMosaic.frame (wpE (defs₀ (F := Ideal)) 𝒱₀ (tile d L) none) Set.univ)
  isplitl [Hy1' Hy2' Hii' Hij' Hsp' Hou' Hs0' Hs1' Hs2' Hs3' Hs4' Hs5' Hm0 Hm1 Hm2 Hm3 Hm4 Hm5 Hm6 Hm7 Hm8 Hm9 Hm10 Hm11 HO]
  · iapply (hcore' d L (tabShare L) (y1A m d) (y2A m d) (listA m d 1) (listA m d 0) (spA m d) fo g0 g1 g2 g3 g4 g5 O W
      (listA_inRows m hpre d 1 _) (listA_inRows m hpre d 0 _))
    isplitr; · iexact Hmw
    isplitl [Hy1']; · iexact Hy1'
    isplitl [Hy2']; · iexact Hy2'
    isplitl [Hii']; · iexact Hii'
    isplitl [Hij']; · iexact Hij'
    isplitl [Hsp']; · iexact Hsp'
    isplitl [Hou']; · iexact Hou'
    isplitl [Hs0']; · iexact Hs0'
    isplitl [Hs1']; · iexact Hs1'
    isplitl [Hs2']; · iexact Hs2'
    isplitl [Hs3']; · iexact Hs3'
    isplitl [Hs4']; · iexact Hs4'
    isplitl [Hs5']; · iexact Hs5'
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    iexact HO
  iintro %_ ⟨%fo', %g0', %g1', %g2', %g3', %g4', %g5', %W', %hW', ⟨-, Hy1', Hy2', Hii', Hij', Hsp', Hou', Hs0', Hs1', Hs2', Hs3', Hs4', Hs5', Hm0, Hm1, Hm2, Hm3, Hm4, Hm5, Hm6, Hm7, Hm8, Hm9, Hm10, Hm11, HO⟩, %hdone⟩
  isplitl [Hy1' Hy2' Hii' Hij' Hsp' Hou']
  · isplitl [Hy1']; · iapply (Entails.of_eq (pts_y1 (F := Ideal) d L _ _)); iexact Hy1'
    isplitl [Hy2']; · iapply (Entails.of_eq (pts_y2 (F := Ideal) d L _ _)); iexact Hy2'
    isplitl [Hii']; · iapply (Entails.of_eq (pts_ii (F := Ideal) d L _)); iexact Hii'
    isplitl [Hij']; · iapply (Entails.of_eq (pts_ij (F := Ideal) d L _)); iexact Hij'
    isplitl [Hsp']; · iapply (Entails.of_eq (pts_sp (F := Ideal) d L _)); iexact Hsp'
    iapply (Entails.of_eq (pointsTo_congr (ℓ := ouL d) (q := fullShare) (I := (ouSl L).view.set) (f := fo') (g := outA m d)
      (out_of_done m d L fo' hdone)))
    iapply (Entails.of_eq (pts_ou (F := Ideal) d L _)); iexact Hou'
  isplitl [Hs0' Hs1' Hs2' Hs3' Hs4' Hs5' Hbufs]
  · isplitl [Hs0']; · iexists _; iapply (Entails.of_eq (pts_s0 (F := Ideal) d L _)); iexact Hs0'
    isplitl [Hs1']; · iexists _; iapply (Entails.of_eq (pts_s1 (F := Ideal) d L _)); iexact Hs1'
    isplitl [Hs2']; · iexists _; iapply (Entails.of_eq (pts_s2 (F := Ideal) d L _)); iexact Hs2'
    isplitl [Hs3']; · iexists _; iapply (Entails.of_eq (pts_s3 (F := Ideal) d L _)); iexact Hs3'
    isplitl [Hs4']; · iexists _; iapply (Entails.of_eq (pts_s4 (F := Ideal) d L _)); iexact Hs4'
    isplitl [Hs5']; · iexists _; iapply (Entails.of_eq (pts_s5 (F := Ideal) d L _)); iexact Hs5'
    iexact Hbufs
  isplitl [Hm0 Hm1 Hm2 Hm3 Hm4 Hm5 Hm6 Hm7 Hm8 Hm9 Hm10 Hm11 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    iexact Hsems
  iexists W'; isplitr
  · ipureintro; exact hW'
  iexact HO

end Tile

/-! ## The launch theorem's obligation, with values -/

set_option maxHeartbeats 4000000 in
/-- THE TILE OBLIGATION WITH VALUES: every tile's task, from the launch's hand-out (the arrays at the contents the program computes)
    to its hand-back (its rows of the output at the nodes' values), given the core with its value and the edge list's range. -/
theorem tileObl_val (hF : (K (F := Ideal)).Facts) (hcore : TileCoreV) (hpre : PreOK m) :
    (K (F := Ideal)).TileObl (D (F := Ideal)) 𝒱 (Pv m) v₀ 0 := by
  intro d c i O W hO _ _
  simp only [show (Pv m).ox = fun _ _ => 0 from rfl, add_zero]
  change _ ⊢ wp _ _ _ (Pipeline.liftProg (defs₀ (F := Ideal) (.scVector ((K (F := Ideal)).core 0 c) ((K (F := Ideal)).sub 0 i)) 1 ⟨⟩)) _
  refine BI.Entails.trans ?_ (Pipeline.wp_liftProg (D (F := Ideal)) (Pipeline.defs_kernel pcfgs defs₀) 𝒱₀ _ Set.univ none _ _)
  have hc : ((K (F := Ideal)).core 0 c).val < grid1.bound 0 ∧ ((K (F := Ideal)).sub 0 i).val < grid1.bound 1 := ⟨c.isLt, i.isLt⟩
  rw [defs₀_vector]; simp only [SparseCore.onTile, hc, and_self, ↓reduceDIte]
  exact (tile_body_val m d (LL (Fin.cast nCore_zero c) (Fin.cast nSub_zero i)) hF hcore hpre O W hO).trans (wp_mono frame _ _ fun _ => obl_post)

end Cert.Proof.KIval

end
-- ==== Proof.ScSplitValI.lean ====
/-
  The SparseCore call's operands WITH THEIR CONTENTS carved out of the TensorCore's arrays, and its result array put back at the
  nodes' values: every tile is handed the tables, lists and factors at the contents the program computed, and hands back its rows
  of the result at the value of one function of those, so the rows rejoin at that function.
-/
import proofs.«205997_g24756191494465_cont_8to1_1595_42_alg».proof.Proof.ScPostI
import proofs.«205997_g24756191494465_cont_8to1_1595_42_alg».proof.Proof.ValPayI

noncomputable section

namespace Cert.Proof.KIval

open Cert.KernelIdeal Cert.KernelIdeal.Gen
open Cert.Proof.KI
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

local notation "𝕄" => MT nD τ sig (HIx 1) (Elt Ideal) ℕ UU ℕ

variable (m : (ℓ : Loc nD τ sig) → Buf (Elt Ideal) ℓ)

/-- A table held whole lends every tile its read share, at the table's contents. -/
theorem lendV {ℓ : Loc nD τ sig} (f : Buf (Elt Ideal) ℓ) :
    (ℓ ↦{fullShare} f : sProp 𝕄)
      ⊢ bigSep Finset.univ fun c : Fin 2 => bigSep Finset.univ fun s : Fin 16 => (ℓ ↦{tabShare (LL c s)} f : sProp 𝕄) := by
  rw [← bigSep_univ_prod (fun cs : I32 => (ℓ ↦{tabShare (LL cs.1 cs.2)} f : sProp 𝕄))]
  refine (Transfers.pointsTo_toks_split fullShare 32).trans (sep_elim_right.trans ?_)
  refine (bigSep_subset (Finset.subset_univ ((Finset.univ : Finset I32).image widP))).trans ?_
  rw [SparseCore.bigSep_image_of_injOn (widP_inj.injOn)]
  exact BI.Entails.refl _

set_option maxHeartbeats 1000000 in
/-- The six arrays held whole at the computed contents are every tile's payload. -/
theorem tiles_introV (d : Dev nD) (g4 : Buf (Elt Ideal) (ouL d)) :
    iprop((y1L d ↦{fullShare} y1A m d) ∗ (y2L d ↦{fullShare} y2A m d) ∗ (iiL d ↦{fullShare} listA m d 1) ∗ (ijL d ↦{fullShare} listA m d 0)
        ∗ (spL d ↦{fullShare} spA m d) ∗ (ouL d ↦{fullShare} g4))
      ⊢ (bigSep Finset.univ fun c : Fin 2 => bigSep Finset.univ fun s : Fin 16 => tileGo m d (LL c s)) := by
  unfold tileGo
  simp only [bigSep_sep']
  iintro ⟨H1, H2, H3, H4, H5, H6⟩
  isplitl [H1]; · iapply (lendV (ℓ := y1L d) (y1A m d)); iexact H1
  isplitl [H2]; · iapply (lendV (ℓ := y2L d) (y2A m d)); iexact H2
  isplitl [H3]
  · iapply (carve (ℓ := iiL d) (listA m d 1) (fun cs => (iiSl (LL cs.1 cs.2)).view.set) (fun cs cs' h => by rw [set_ii, set_ii]; exact disj1 cs cs' h))
    iexact H3
  isplitl [H4]
  · iapply (carve (ℓ := ijL d) (listA m d 0) (fun cs => (ijSl (LL cs.1 cs.2)).view.set) (fun cs cs' h => by rw [set_ij, set_ij]; exact disj1 cs cs' h))
    iexact H4
  isplitl [H5]
  · iapply (carve (ℓ := spL d) (spA m d) (fun cs => (spSl (LL cs.1 cs.2)).view.set) (fun cs cs' h => by rw [set_sp, set_sp]; exact disj1 cs cs' h))
    iexact H5
  · iapply ((carve (ℓ := ouL d) g4 (fun cs => (ouSl (LL cs.1 cs.2)).view.set) (fun cs cs' h => by rw [set_ou, set_ou]; exact disj39 cs cs' h)).trans
      (bigSep_mono fun c _ => bigSep_mono fun s _ => piece_some _ g4))
    iexact H6

theorem stV_eq (d : Dev nD) :
    (bigSep Finset.univ fun c : Fin ((K (F := Ideal)).nCore 0) => (Pv m).st 0 d c)
      = (bigSep (Finset.univ : Finset (Fin 2)) fun c => bigSep Finset.univ fun s : Fin 16 => tileGo m d (LL c s)) := rfl
theorem dnV_eq (d : Dev nD) :
    (bigSep Finset.univ fun c : Fin ((K (F := Ideal)).nCore 0) => (Pv m).dn 0 d c)
      = (bigSep (Finset.univ : Finset (Fin 2)) fun c => bigSep Finset.univ fun s : Fin 16 => tileTd m d (LL c s)) := rfl

/-- The call's operands with their contents, out of the TensorCore's arrays. -/
theorem sc_pre_val (d : Dev nD) (W : Valuation τ sig (Elt Ideal))
    (h1 : W r10_0 = y1A m d) (h2 : W r10_1 = y2A m d) (h14 : W r14 = listA m d 1) (h16 : W r16 = listA m d 0) (h17 : W r17 = spA m d) :
    (held (T d) (Pipeline.ucRefs τ sig) W : sProp 𝕄)
      ⊢ iprop((bigSep Finset.univ fun c : Fin ((K (F := Ideal)).nCore 0) => (Pv m).st 0 d c)
          ∗ held (T d) (Pipeline.ucRefs τ sig \ sixS) W) := by
  rw [StableHlo.held_sub_split (T d) sixS_sub W, held_six, stV_eq, h1, h2, h14, h16, h17]
  exact sep_mono (tiles_introV m d _) .rfl

theorem tileTd_ou (d : Dev nD) (L : grid1.Coords) :
    tileTd m d L ⊢ (ouL d ↦[(ouSl L).view.set]{fullShare} outA m d : sProp 𝕄) := by
  unfold tileTd
  iintro ⟨-, -, -, -, -, H⟩; iexact H

/-- The call's result back among the TensorCore's arrays: the result array whole at the nodes' values. -/
theorem sc_post_val (d : Dev nD) (W : Valuation τ sig (Elt Ideal)) :
    iprop((bigSep Finset.univ fun c : Fin ((K (F := Ideal)).nCore 0) => (Pv m).dn 0 d c)
          ∗ (held (T d) (Pipeline.ucRefs τ sig \ sixS) W : sProp 𝕄))
      ⊢ (held (T d) (Pipeline.ucRefs τ sig \ fiveS) (Function.update W r18 (outA m d)) : sProp 𝕄) := by
  rw [dnV_eq, held_five]
  refine sep_mono ?_ .rfl
  refine (bigSep_mono fun c _ => bigSep_mono fun s _ => tileTd_ou m d (LL c s)).trans ?_
  rw [← bigSep_univ_prod (fun cs : I32 => (ouL d ↦[ouK d cs]{fullShare} outA m d : sProp 𝕄)),
    ← pointsTo_biUnion Finset.univ (ouK d) (fun t _ t' _ h => by
      show Disjoint (ouSl (LL t.1 t.2)).view.set (ouSl (LL t'.1 t'.2)).view.set
      rw [set_ou, set_ou]; exact disj39 t t' h), cover39]
  exact BI.Entails.refl _

end Cert.Proof.KIval

end
-- ==== Proof.ValStmtI.lean ====
/-
  Three statements about the contents of the TensorCore's arrays (at the ideal instance), as propositions: what the kernel region
  leaves in its three results, what the host stretch after it makes of them and of the edge-index argument, and what the last host
  stretch makes of the SparseCore call's result.
-/
import proofs.«205997_g24756191494465_cont_8to1_1595_42_alg».proof.Proof.ValPayI
import proofs.«205997_g24756191494465_cont_8to1_1595_42_alg».proof.Proof.MainA

noncomputable section

namespace Cert.Proof.KIval

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

local notation "𝕄" => MT nD τ sig (HIx 1) (Elt Ideal) ℕ UU ℕ

variable (m : (ℓ : Loc nD τ sig) → Buf (Elt Ideal) ℓ)

/-! ## The three statements about contents -/

/-- The arrays' contents when the region is entered: the launch's, after the first five host stretches. -/
abbrev W1 (d : Dev nD) : Valuation τ sig (Elt Ideal) :=
  StableHlo.after opsE (StableHlo.after opsD (StableHlo.after opsC (StableHlo.after opsB (StableHlo.after opsA (V0 m d)))))

/-- The damping factors per node and edge, as the region leaves them. -/
def suppT (d : Dev nD) : FVec Ideal S10240x16 .f32 := fun j =>
  Cert.Spec.supp (disIn m d) (awIn m d) (abIn m d) (j 0).val (j 1)

abbrev r10_2 : DevRef τ sig := Proc.devRef .tc (main_v10_2 : Ref sig .tc)
abbrev r21 : DevRef τ sig := Proc.devRef .tc (main_v21 : Ref sig .tc)

/-- THE KERNEL REGION WITH VALUES: entered at `W1`, it leaves the two node tables and the factors at the specification's values and
    every other array but its three results as it found it. -/
def RegionVal : Prop :=
  ∀ (κ : GSem nD τ sig → ℕ) (d : Dev nD) {β : Type}
    (k : PUnit → Prog (TpuEff nD τ sig (Elt Ideal) (SparseCore.Sig (ΛP (F := Ideal)) 1) .tc) β) (Q : β → sProp 𝕄),
    iprop((K (F := Ideal)).ctx EH (Pv m) κ ∗ (K (F := Ideal)).tcSt EH d 0 ∗ G (F := Ideal) d ∗ boundary (T d)
        ∗ (held (T d) (Pipeline.ucRefs τ sig) (W1 m d) : sProp 𝕄))
      ⊢ iprop((((K (F := Ideal)).tcSt EH d 0 ∗ boundary (T d)
              ∗ ∃ W' : Valuation τ sig (Elt Ideal),
                  ⌜(∀ r : Ref sig .tc, r ∉ regW → W' (Proc.devRef .tc r) = W1 m d (Proc.devRef .tc r))
                    ∧ W' r10_0 = y1A m d ∧ W' r10_1 = y2A m d ∧ W' r10_2 = suppT m d⌝
                  ∗ (held (T d) (Pipeline.ucRefs τ sig) W' : sProp 𝕄))
            -∗ wp frame (wpE ((K (F := Ideal)).defs (D (F := Ideal))) 𝒱 (T d) none) Set.univ (k ⟨⟩) Q)
        -∗ wp frame (wpE ((K (F := Ideal)).defs (D (F := Ideal))) 𝒱 (T d) none) Set.univ
          (Prog.lift (.customCall (SparseCore.inner (Pipeline.entry 0)) ()) >>= k) Q)

/-- The host stretch between the region and the call: the two flat edge lists (zero on the padding) and the flat factors. -/
def ListsVal : Prop :=
  ∀ (d : Dev nD) (W' : Valuation τ sig (Elt Ideal)),
    W' (Proc.devRef .tc main_arg1) = V0 m d (Proc.devRef .tc main_arg1) → W' r10_2 = suppT m d →
    StableHlo.after opsH (StableHlo.after opsG (StableHlo.after opsF W')) r14 = listA m d 1
      ∧ StableHlo.after opsH (StableHlo.after opsG (StableHlo.after opsF W')) r16 = listA m d 0
      ∧ StableHlo.after opsH (StableHlo.after opsG (StableHlo.after opsF W')) r17 = spA m d

/-- The program's result from the call's: the first 10000 nodes, channels first. -/
def resA (d : Dev nD) : FVec Ideal S1x128x10000x1 .f32 := fun j =>
  outA m d (ix2 ⟨(j 2).val, Nat.lt_of_lt_of_le (j 2).isLt (by decide)⟩ (j 1))

/-- The last host stretch: the call's result sliced, transposed and reshaped. -/
def ResVal : Prop :=
  ∀ (d : Dev nD) (Vl : Valuation τ sig (Elt Ideal)), Vl r18 = outA m d → StableHlo.after opsI Vl r21 = resA m d

end Cert.Proof.KIval

end
-- ==== Proof.MainValI.lean ====
/-
  @main on the TensorCore WITH VALUES (at the ideal instance): as the frame-level account, with the handshakes' payloads carrying the
  arrays' contents.  It rests on three statements about contents (the theorem's three premises): the kernel region leaves the two node
  tables and the damping factors at the specification's values (RegionVal); the host stretch after it makes the two flat edge lists
  and the flat factors (ListsVal); the last host stretch turns the call's result into the program's (ResVal).
-/
import proofs.«205997_g24756191494465_cont_8to1_1595_42_alg».proof.Proof.ScSplitValI
import proofs.«205997_g24756191494465_cont_8to1_1595_42_alg».proof.Proof.ValStmtI
import proofs.«205997_g24756191494465_cont_8to1_1595_42_alg».proof.Proof.MainI
import proofs.«205997_g24756191494465_cont_8to1_1595_42_alg».proof.Proof.LaunchI

noncomputable section

namespace Cert.Proof.KIval

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

local notation "𝕄" => MT nD τ sig (HIx 1) (Elt Ideal) ℕ UU ℕ

variable (m : (ℓ : Loc nD τ sig) → Buf (Elt Ideal) ℓ)

/-! ## @main with values -/

/-- The argument arrays and the result. -/
abbrev argS21 : Finset (DevRef τ sig) := insert r21 argS

theorem argS21_sub : argS21 ⊆ Pipeline.ucRefs τ sig \ fiveS := by decide
theorem argL_v21 : ∀ r ∈ argL, r ≠ main_v21 := by decide

/-- The final contents the claim reads: the launch's, with the result at `resA`. -/
abbrev VF (d : Dev nD) : Valuation τ sig (Elt Ideal) := Function.update (V0 m d) r21 (resA m d)

/-- What @main leaves the claim: the eight argument arrays whole at their launch contents and the result whole at `resA`. -/
abbrev FINv (d : Dev nD) : sProp 𝕄 := held (T d) argS21 (VF m d)

set_option maxHeartbeats 1600000 in
theorem hmain_val (hreg : RegionVal m) (hlists : ListsVal m) (hres : ResVal m)
    (ρ : Dev nD → PrngReg) (κ : GSem nD τ sig → ℕ) (d : Dev nD) :
    iprop((K (F := Ideal)).ctx EH (Pv m) κ ∗ (K (F := Ideal)).tcSt EH d 0 ∗ (K (F := Ideal)).tcRes m ρ d ∗ G (F := Ideal) d)
      ⊢ wp frame (wpE ((K (F := Ideal)).defs (D (F := Ideal))) 𝒱 (T d) none) Set.univ (main d)
          fun _ => iprop((K (F := Ideal)).tcSt EH d 1 ∗ FINv m d) := by
  unfold SparseCore.Cfg.tcRes
  rw [main_chain, tcBufs_held]
  simp only [Pipeline.chain_cons, Pipeline.chain_nil]
  iintro ⟨#Hctx, Hst, ⟨Hb, Hheld, -, -⟩, HG⟩
  iapply (wp_stretch d opsA opsA_sub opsA_fresh _ _ _) $$ [Hb Hheld]
  · isplitl [Hb] <;> iassumption
  iintro ⟨Hb, Hheld⟩
  iapply (wp_stretch d opsB opsB_sub opsB_fresh _ _ _) $$ [Hb Hheld]
  · isplitl [Hb] <;> iassumption
  iintro ⟨Hb, Hheld⟩
  iapply (wp_stretch d opsC opsC_sub opsC_fresh _ _ _) $$ [Hb Hheld]
  · isplitl [Hb] <;> iassumption
  iintro ⟨Hb, Hheld⟩
  iapply (wp_stretch d opsD opsD_sub opsD_fresh _ _ _) $$ [Hb Hheld]
  · isplitl [Hb] <;> iassumption
  iintro ⟨Hb, Hheld⟩
  iapply (wp_stretch d opsE opsE_sub opsE_fresh _ _ _) $$ [Hb Hheld]
  · isplitl [Hb] <;> iassumption
  iintro ⟨Hb, Hheld⟩
  -- the kernel region
  iapply (hreg κ d _ _) $$ [Hst HG Hb Hheld]
  · isplitr; · iexact Hctx
    isplitl [Hst]; · iexact Hst
    isplitl [HG]; · iexact HG
    isplitl [Hb] <;> iassumption
  iintro ⟨Hst, Hb, %W', %hWall, Hheld⟩
  obtain ⟨hW', hy1, hy2, hsp⟩ := hWall
  have harg : ∀ r ∈ argL, W' (Proc.devRef .tc r) = V0 m d (Proc.devRef .tc r) := fun r hr =>
    (hW' r (argL_regW r hr)).trans (stretch1_arg _ r (argL_hostW r hr))
  obtain ⟨h14, h16, h17⟩ := hlists d W' (harg main_arg1 (by decide)) hsp
  iapply (wp_stretch d opsF opsF_sub opsF_fresh _ _ _) $$ [Hb Hheld]
  · isplitl [Hb] <;> iassumption
  iintro ⟨Hb, Hheld⟩
  iapply (wp_stretch d opsG opsG_sub opsG_fresh _ _ _) $$ [Hb Hheld]
  · isplitl [Hb] <;> iassumption
  iintro ⟨Hb, Hheld⟩
  iapply (wp_stretch d opsH opsH_sub opsH_fresh _ _ _) $$ [Hb Hheld]
  · isplitl [Hb] <;> iassumption
  iintro ⟨Hb, Hheld⟩
  -- the SparseCore call
  rw [wp_bind]
  ihave Hs := (sc_pre_val m d _ ((stretch2_arg W' main_v10_0 (by decide)).trans hy1) ((stretch2_arg W' main_v10_1 (by decide)).trans hy2)
    h14 h16 h17) $$ Hheld
  icases Hs with ⟨Hst0, Hrest⟩
  iapply ((K (F := Ideal)).wp_run (D (F := Ideal)) 𝒱 (EH := EH) (P := Pv m) κ d 0) $$ [Hst Hst0 Hb Hrest]
  isplitr; · iexact Hctx
  isplitl [Hst]; · iexact Hst
  isplitl [Hst0]; · iexact Hst0
  iintro ⟨Hst, Hdn⟩
  ihave Hheld := (sc_post_val m d _) $$ [Hdn Hrest]
  · isplitl [Hdn] <;> iassumption
  iapply (wp_stretchS d (Pipeline.ucRefs τ sig \ fiveS) opsI opsI_S opsI_fresh _ _ _) $$ [Hb Hheld]
  · isplitl [Hb] <;> iassumption
  iintro ⟨Hb, Hheld⟩
  rw [show (pure ⟨⟩ : Prog (TpuEff nD τ sig (Elt Ideal) (SparseCore.Sig (ΛP (F := Ideal)) 1) .tc) PUnit) = .ret ⟨⟩ from rfl, wp_ret]
  imodintro
  isplitl [Hst]; · iexact Hst
  ihave Hh := (Entails.of_eq (StableHlo.held_sub_split (T d) argS21_sub _)) $$ Hheld
  icases Hh with ⟨Hargs, -⟩
  ihave Ha := (Entails.of_eq (StableHlo.held_congr (T d) (S := argS21) (V' := VF m d) (fun b hb => by
    rcases Finset.mem_insert.mp hb with rfl | hb
    · rw [hres d _ (Function.update_self ..)]
      exact (Function.update_self r21 (resA m d) (V0 m d)).symm
    · obtain ⟨r, hr, rfl⟩ := List.mem_map.mp (List.mem_toFinset.mp hb)
      rw [stretch3_arg _ r (argL_hostW r hr), Function.update_of_ne (StableHlo.devRef_ne_of_ne (argL_v18 r hr)),
        stretch2_arg _ r (argL_hostW r hr)]
      exact (harg r hr).trans (Function.update_of_ne (StableHlo.devRef_ne_of_ne (argL_v21 r hr)) (resA m d) (V0 m d)).symm))) $$ Hargs
  iexact Ha

/-! ## The final memory -/

/-- The final memory has the argument arrays at their launch contents and the result at `resA`. -/
def fqv (d : Dev nD) (s' : Phys nD τ sig (Elt Ideal)) : Prop := ∀ b ∈ argS21, s'.mem.mem (d, b) = VF m d b

theorem hfin_val (d : Dev nD) (s' : Phys nD τ sig (Elt Ideal)) :
    iprop(FINv m d ∗ SI s') ⊢ (⌜fqv m d s'⌝ : sProp 𝕄) :=
  posts_pure argS21 (Φ := fun b => (((d, b) : Loc nD τ sig) ↦{fullShare} VF m d b : sProp 𝕄))
    (q := fun b s' => s'.mem.mem (d, b) = VF m d b) (fun b s' => by
      iintro ⟨Hx, HSI⟩
      ihave H := (SI_pointsTo_agree (st := s') (ℓ := (d, b)) (I := Finset.univ) (q := fullShare) (f := VF m d b)) $$ [HSI Hx]
      · isplitl [HSI] <;> iassumption
      icases H with %hx
      ipureintro; exact funext fun i => hx i (Finset.mem_univ i)) s'

/-- The result read off `fqv`, -/
theorem fqv_res {d : Dev nD} {s' : Phys nD τ sig (Elt Ideal)} (h : fqv m d s') :
    s'.mem.mem ((SparseCore.T d).loc main_v21) = resA m d :=
  (h r21 (Finset.mem_insert_self _ _)).trans (Function.update_self r21 (resA m d) (V0 m d))
/-- and an argument array. -/
theorem fqv_arg {d : Dev nD} {s' : Phys nD τ sig (Elt Ideal)} (h : fqv m d s') (r : Ref sig .tc) (hr : r ∈ argL) :
    s'.mem.mem ((SparseCore.T d).loc r) = m ((SparseCore.T d).loc r) :=
  (h _ (Finset.mem_insert_of_mem (List.mem_toFinset.mpr (List.mem_map_of_mem hr)))).trans
    (Function.update_of_ne (StableHlo.devRef_ne_of_ne (argL_v21 r hr)) (resA m d) (V0 m d))

end Cert.Proof.KIval

end
-- ==== Proof.ValStretchI.lean ====
/-
  The contents the host stretches make (at the ideal instance), read at an index: the program's result is the SparseCore call's
  result sliced to the first 10000 nodes, transposed and reshaped; the two flat edge lists are the edge-index argument reshaped,
  padded with zeros, sliced by row and flattened; the flat damping factors are the region's third result flattened.
-/
import proofs.«205997_g24756191494465_cont_8to1_1595_42_alg».proof.Proof.ValStmtI
import Idealize.ShloMosaic.Lib.ValueLayout
import Idealize.ShloMosaic.Lib.Pipeline.Value

noncomputable section

namespace Cert.Proof.KIval

open Cert.KernelIdeal Cert.KernelIdeal.Gen
open Cert.Proof.KI
open Idealize.ShloMosaic Idealize.ShloMosaic.ValueIdx
open Idealize.ShloMosaic.SparseCore (S V T)
open Idealize.SL Idealize.SL.RA Idealize.SL.BI

variable (m : (ℓ : Loc nD τ sig) → Buf (Elt Ideal) ℓ)

/-- The last host stretch: slice, transpose, reshape of the call's result. -/
theorem resVal : ResVal m := by
  intro d Vl h18
  funext j
  open StableHlo in after_results
  show shapeCast S1x128x10000x1 (transpose S128x10000 [1, 0]
      (extractStridedSlice S10000x128 ![0, 0] (Vl r18 : FVec Ideal S10240x128 .f32) slices_S10240x128_S10000x128_0_0)
      transposes_S10000x128_S128x10000_1_0) shapeCasts_S128x10000_S1x128x10000x1 j = resA m d j
  have h0 : (j 0).val = 0 := Nat.lt_one_iff.mp (j 0).isLt
  have h3 : (j 3).val = 0 := Nat.lt_one_iff.mp (j 3).isLt
  refine (shapeCast_apply _ shapeCasts_S128x10000_S1x128x10000x1 j (ix2 (n0 := 128) (n1 := 10000) (j 1) (j 2)) (by
      rw [Shape.rowMajor_val_two, Shape.rowMajor_val_four]
      show (j 1).val * 10000 + (j 2).val = (((j 0).val * 128 + (j 1).val) * 10000 + (j 2).val) * 1 + (j 3).val
      rw [h0, h3]; omega)).trans ?_
  refine (transpose_ix2_apply (a := 10000) (b := 128) _ transposes_S10000x128_S128x10000_1_0 (j 1) (j 2)).trans ?_
  refine (slice2_axis0_eq (n0 := 10240) (n1 := 128) (m := 10000) 0 _ slices_S10240x128_S10000x128_0_0 (j 2) (j 1)).trans ?_
  rw [h18]
  unfold resA
  congr 1
  funext a
  match a with
  | ⟨0, _⟩ => exact Fin.ext (Nat.zero_add _)
  | ⟨1, _⟩ => rfl

/-- One flat edge list at an index: row `r` of the edge-index argument, zero on the padding. -/
theorem list_at (e : Vec Ideal S2x1x10000x16 .i32) (r : Fin 2) (hs : S2x163840.Slices ![r.val, 0] S1x163840) (j : S163840.Idx) :
    shapeCast S163840 (extractStridedSlice S1x163840 ![r.val, 0]
        (pad S2x163840 ![0, 0] ![0, 3840] ![0, 0] (shapeCast S2x160000 e shapeCasts_S2x1x10000x16_S2x160000)
          (constantI S_ 32 0#32) pads_S2x160000_S2x163840_000_038400 h_S_) hs) shapeCasts_S1x163840_S163840 j
      = if h : (j 0).val / 16 < 10000 then
          e (ix4 r 0 ⟨(j 0).val / 16, h⟩ ⟨(j 0).val % 16, Nat.mod_lt _ (by decide)⟩)
        else 0#32 := by
  have ha : (j 0).val < 163840 := (j 0).isLt
  rw [shapeCast_apply _ shapeCasts_S1x163840_S163840 j (ix2 (n0 := 1) (n1 := 163840) 0 (j 0)) (by
    rw [Shape.rowMajor_val_two, Shape.rowMajor_val_one]
    show (0 : ℕ) * 163840 + (j 0).val = (j 0).val
    omega)]
  rw [extractStridedSlice_apply _ _ hs (ix2 (n0 := 1) (n1 := 163840) 0 (j 0)) (ix2 (n0 := 2) (n1 := 163840) r (j 0)) (fun a =>
    match a with
    | ⟨0, _⟩ => (show r.val = r.val + 0 by omega)
    | ⟨1, _⟩ => (show (j 0).val = 0 + (j 0).val by omega))]
  unfold pad
  split
  · next hin =>
    have hlt : (j 0).val < 160000 := by
      have h1 := (hin 1).2.2
      have h1' : ((j 0).val - 0) / (0 + 1) < 160000 := h1
      simpa using h1'
    rw [dif_pos (show (j 0).val / 16 < 10000 by omega)]
    exact shapeCast_apply _ shapeCasts_S2x1x10000x16_S2x160000 _
      (ix4 r 0 ⟨(j 0).val / 16, by omega⟩ ⟨(j 0).val % 16, Nat.mod_lt _ (by decide)⟩) (by
        rw [Shape.rowMajor_val_four, Shape.rowMajor_val_two]
        show ((r.val * 1 + 0) * 10000 + (j 0).val / 16) * 16 + (j 0).val % 16 = (r.val - 0) / (0 + 1) * 160000 + ((j 0).val - 0) / (0 + 1)
        have := Nat.div_add_mod (j 0).val 16
        simp only [Nat.sub_zero, Nat.zero_add, Nat.div_one]
        omega)
  · next hin =>
    have hge : ¬ (j 0).val / 16 < 10000 := fun h => hin fun a =>
      match a with
      | ⟨0, _⟩ => ⟨Nat.zero_le _, Nat.mod_one _, (show (r.val - 0) / (0 + 1) < 2 by have := r.isLt; simp only [Nat.sub_zero, Nat.zero_add, Nat.div_one]; omega)⟩
      | ⟨1, _⟩ => ⟨Nat.zero_le _, Nat.mod_one _, (show ((j 0).val - 0) / (0 + 1) < 160000 by simp only [Nat.sub_zero, Nat.zero_add, Nat.div_one]; omega)⟩
    rw [dif_neg hge]
    rfl

/-- The host stretch between the region and the call. -/
theorem listsVal : ListsVal m := by
  intro d W' harg1 hsp
  refine ⟨?_, ?_, ?_⟩
  · funext j
    open StableHlo in after_results
    show shapeCast S163840 (extractStridedSlice S1x163840 ![(1 : Fin 2).val, 0]
        (pad S2x163840 ![0, 0] ![0, 3840] ![0, 0]
          (shapeCast S2x160000 (W' (Proc.devRef .tc main_arg1) : Vec Ideal S2x1x10000x16 .i32) shapeCasts_S2x1x10000x16_S2x160000)
          (constantI S_ 32 0#32) pads_S2x160000_S2x163840_000_038400 h_S_) slices_S2x163840_S1x163840_1_0) shapeCasts_S1x163840_S163840 j
        = listA m d 1 j
    rw [harg1]
    exact list_at (V0 m d (Proc.devRef .tc main_arg1)) 1 slices_S2x163840_S1x163840_1_0 j
  · funext j
    open StableHlo in after_results
    show shapeCast S163840 (extractStridedSlice S1x163840 ![(0 : Fin 2).val, 0]
        (pad S2x163840 ![0, 0] ![0, 3840] ![0, 0]
          (shapeCast S2x160000 (W' (Proc.devRef .tc main_arg1) : Vec Ideal S2x1x10000x16 .i32) shapeCasts_S2x1x10000x16_S2x160000)
          (constantI S_ 32 0#32) pads_S2x160000_S2x163840_000_038400 h_S_) slices_S2x163840_S1x163840_0_0) shapeCasts_S1x163840_S163840 j
        = listA m d 0 j
    rw [harg1]
    exact list_at (V0 m d (Proc.devRef .tc main_arg1)) 0 slices_S2x163840_S1x163840_0_0 j
  · funext j
    open StableHlo in after_results
    show shapeCast S163840 (W' r10_2 : FVec Ideal S10240x16 .f32) shapeCasts_S10240x16_S163840 j = spA m d j
    have ha : (j 0).val < 163840 := (j 0).isLt
    rw [hsp, shapeCast_apply _ shapeCasts_S10240x16_S163840 j
      (ix2 (n0 := 10240) (n1 := 16) ⟨(j 0).val / 16, by omega⟩ ⟨(j 0).val % 16, Nat.mod_lt _ (by decide)⟩) (by
        rw [Shape.rowMajor_val_two, Shape.rowMajor_val_one]
        show (j 0).val / 16 * 16 + (j 0).val % 16 = (j 0).val
        have := Nat.div_add_mod (j 0).val 16
        omega)]
    rfl

end Cert.Proof.KIval

end
-- ==== Proof.RunValI.lean ====
/-
  The kernel program's run WITH VALUES, assembled: the launch of the one SparseCore call from the tile's obligation with values and the
  split of a core's operands among its tiles, @main on the TensorCore around it with the arrays' contents, the launch element of the
  ghost state, and the final memory read back: the result array holds, for each of the 10000 nodes and each channel, the value a
  tile leaves for that node; with the tables, edge lists and damping factors the program computes from its inputs, that value is
  the specification's.  Its two premises are the kernel region's contents, and the tile's core with its
  value.
-/
import proofs.«205997_g24756191494465_cont_8to1_1595_42_alg».proof.Proof.TileOblValI
import proofs.«205997_g24756191494465_cont_8to1_1595_42_alg».proof.Proof.MainValI
import proofs.«205997_g24756191494465_cont_8to1_1595_42_alg».proof.Proof.ValStretchI
import proofs.«205997_g24756191494465_cont_8to1_1595_42_alg».proof.Proof.LaunchI
import proofs.«205997_g24756191494465_cont_8to1_1595_42_alg».proof.Proof.OkOfPreI
import proofs.«205997_g24756191494465_cont_8to1_1595_42_alg».proof.Proof.AlgebraicI
import proofs.«205997_g24756191494465_cont_8to1_1595_42_alg».proof.Proof.Gen.Pre_input_domain

noncomputable section

namespace Cert.Proof.KIval

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KI Idealize.ShloMosaic.ValueIdx

local notation "𝕄" => MT nD τ sig (HIx 1) (Elt Ideal) ℕ Cert.Proof.KI.UU ℕ

variable (m : (ℓ : Loc nD τ sig) → Buf (Elt Ideal) ℓ)

/-! ## The launch element, for the payloads with values -/

theorem x_emp_val : (bigSep Finset.univ fun thr : Thread nD τ => bigSep Finset.univ fun q : Fin 1 => (Pv m).x q thr) = (iprop(emp) : sProp 𝕄) := by
  rw [show (fun thr : Thread nD τ => bigSep Finset.univ fun q : Fin 1 => (Pv m).x q thr) = fun _ => (iprop(emp) : sProp 𝕄)
    from funext fun thr => bigSep_emp_const _]
  exact bigSep_emp_const _

/-- The payloads with values ask of the launch element what the plain ones do: no credit, nothing kept across calls. -/
theorem hu₀_val : iprop(ownU (u₀ (F := Ideal)) ∗ (Pv m).oxCred ∗ (K (F := Ideal)).freeSems0)
    ⊢ |={Set.univ}=> iprop(BI.own (EH (initOf (K (F := Ideal)).hsCells (K (F := Ideal)).hsToks)) ∗ bigSep Finset.univ (G (F := Ideal))
        ∗ bigSep Finset.univ fun thr : Thread nD τ => bigSep Finset.univ fun q : Fin 1 => (Pv m).x q thr) := by
  rw [x_emp_val]
  unfold u₀
  iintro ⟨Hu, -, -⟩
  ihave H := (ownU_pair _ _) $$ Hu
  icases H with ⟨HH, HR⟩
  ihave H2 := (own_pair_emb embR _ _) $$ HR
  icases H2 with ⟨HP, -⟩
  imod (Pipeline.fund_ghost (Pipeline.pin (pcfgs (F := Ideal)) adm) EP cellOf_inj') $$ HP with ⟨Hg, Ht⟩
  imodintro
  isplitl [HH]; · iexact HH
  isplitl [Hg Ht]
  · unfold G
    rw [bigSep_sep']
    isplitl [Hg]
    · iapply (Entails.of_eq (bigSep_congr fun c _ => bigSep_F1 (fun p => Pipeline.cellsGhost (Pipeline.pin (pcfgs (F := Ideal)) adm) EP p c)))
      iexact Hg
    · iapply (Entails.of_eq (bigSep_congr fun c _ => bigSep_F1 (fun p => Pipeline.toksInit (Pipeline.pin (pcfgs (F := Ideal)) adm) EP p c)))
      iexact Ht
  iempintro

/-! ## The run -/

/-- What the run leaves: on every device the result at `resA` and the eight argument arrays at their launch contents. -/
def QCv : PUnit × MemSt nD τ sig (Elt Ideal) → Prop :=
  fun r => ∀ c : Dev nD, r.2.mem ((SparseCore.T c).loc main_v21) = resA m c
    ∧ ∀ a ∈ argL, r.2.mem ((SparseCore.T c).loc a) = m ((SparseCore.T c).loc a)

/-- THE RUN of the kernel program WITH VALUES from a launch memory inside the index range. -/
theorem run_main_val (hreg : RegionVal m) (hcore : TileCoreV) (ρ : Dev nD → PrngReg) (hpre : PreOK m) :
    θ_run (Cert.KernelIdeal.defs (F := Ideal)) (Cert.KernelIdeal.threads (F := Ideal)) ⟨m, fun _ => 0, ρ⟩ (QCv m) :=
  SparseCore.Cfg.θ_run_sc (K := K (F := Ideal)) (D := D (F := Ideal)) (𝒱 := 𝒱) (EH := EH) (P := Pv m) facts v₀
    (fun q hq => match q with | 0 => nomatch hq)
    (fun q _ => match q with | 0 => tileObl_val m facts hcore hpre)
    (fun q _ => match q with | 0 => SparseCore.Cfg.VecSplit.of_plain (vecSplitV m))
    m ρ main (G (F := Ideal)) (FINv m) (u₀ (F := Ideal)) (hu₀_val m) (hmain_val m hreg (listsVal m) (resVal m) ρ) (fqv m) (hfin_val m) (QCv m)
    (fun _ h c => ⟨fqv_res m (h c), fun a ha => fqv_arg m (h c) a ha⟩)

/-! ## The result is the specification's -/

/-- A list entry of the specification names a row of the tables, inside the index range. -/
theorem nbr_lt (hpre : PreOK m) (d : Dev nD) (r : Fin 2) (n : Nat) (k : Fin 16) : Cert.Spec.nbr (eIn m d) r n k < 10240 := by
  unfold Cert.Spec.nbr
  split
  · exact hpre d _
  · decide

/-- Entry `k` of node `n` of a flat edge list is the edge-index argument's at `(n, k)`, zero on the padding. -/
theorem listA_flat (d : Dev nD) (r : Fin 2) (n : Fin 10240) (k : Fin 16) :
    (listA m d r (ix1 (flat n k)) : BitVec 32).toNat = Cert.Spec.nbr (eIn m d) r n.val k := by
  have hk : k.val < 16 := k.isLt
  have e1 : (16 * n.val + k.val) / 16 = n.val := by omega
  have e2 : (16 * n.val + k.val) % 16 = k.val := by omega
  have key : ∀ (a : Nat) (b : Fin 16) (ha : a < 10000), a = n.val → b = k → ∀ hn : n.val < 10000,
      eIn m d (ix4 r 0 ⟨a, ha⟩ b) = eIn m d (ix4 r 0 ⟨n.val, hn⟩ k) := by
    rintro _ _ _ rfl rfl _; rfl
  unfold listA Cert.Spec.nbr
  by_cases hn : n.val < 10000
  · rw [dif_pos (show ((ix1 (flat n k) : SL.Idx) 0).val / 16 < 10000 from by show (16 * n.val + k.val) / 16 < 10000; omega), dif_pos hn]
    exact congrArg BitVec.toNat (key _ _ _ e1 (Fin.ext e2) hn)
  · rw [dif_neg (show ¬ ((ix1 (flat n k) : SL.Idx) 0).val / 16 < 10000 from by show ¬ (16 * n.val + k.val) / 16 < 10000; omega), dif_neg hn]
    rfl

/-- Entry `k` of node `n` of the flat damping factors. -/
theorem spA_flat (d : Dev nD) (n : Fin 10240) (k : Fin 16) :
    spA m d (ix1 (flat n k)) = Cert.Spec.supp (disIn m d) (awIn m d) (abIn m d) n.val k := by
  have hk : k.val < 16 := k.isLt
  have key : ∀ (a : Nat) (b : Fin 16), a = n.val → b = k →
      Cert.Spec.supp (disIn m d) (awIn m d) (abIn m d) a b = Cert.Spec.supp (disIn m d) (awIn m d) (abIn m d) n.val k := by
    rintro _ _ rfl rfl; rfl
  exact key _ _ (show (16 * n.val + k.val) / 16 = n.val by omega) (Fin.ext (show (16 * n.val + k.val) % 16 = k.val by omega))

/-- The two node tables at an index. -/
theorem y1A_at (d : Dev nD) (n : Fin 10240) (o : Fin 128) :
    y1A m d (ix2 n o) = Cert.Spec.y1 (xIn m d) (wIn m d) (bIn m d) n.val o := by
  unfold y1A; rfl
theorem y2A_at (d : Dev nD) (n : Fin 10240) (o : Fin 128) :
    y2A m d (ix2 n o) = Cert.Spec.y2 (xIn m d) (wIn m d) n.val o := by
  unfold y2A; rfl

/-- The program's result at an index: the tile's value for that node and channel. -/
theorem resA_at (d : Dev nD) (j : S1x128x10000x1.Idx) :
    resA m d j = tOut (y1A m d) (y2A m d) (listA m d 1) (listA m d 0) (spA m d)
      ⟨(j 2).val, Nat.lt_of_lt_of_le (j 2).isLt (by decide)⟩ (j 1) := by
  unfold resA outA; rfl

/-- The program's result is the specification's `res` of the inputs. -/
theorem resA_eq_res (hpre : PreOK m) (d : Dev nD) :
    resA m d = Cert.Spec.res (xIn m d) (eIn m d) (disIn m d) (wIn m d) (bIn m d) (awIn m d) (abIn m d) := by
  funext j
  rw [resA_at]
  unfold Cert.Spec.res
  exact tOut_spec (xIn m d) (eIn m d) (disIn m d) (wIn m d) (bIn m d) (awIn m d) (abIn m d)
    (y1A m d) (y2A m d) (listA m d 1) (listA m d 0) (spA m d)
    (y1A_at m d) (y2A_at m d) (listA_flat m d 1) (listA_flat m d 0) (spA_flat m d) (nbr_lt m hpre d)
    ⟨(j 2).val, Nat.lt_of_lt_of_le (j 2).isLt (by decide)⟩ (j 1)

/-! ## The kernel's run with its result's value -/

/-- THE KERNEL'S VALUE: from the kernel region's contents and the tile's core with its value, under the precondition every weakly
    fair execution ends with the result at the specification's `res` of the inputs and the eight inputs unchanged. -/
theorem kernelValue (hreg : ∀ m, RegionVal m) (hcore : TileCoreV) : Cert.Proof.Alg.KernelValue := by
  intro m g hpre
  have hok : PreOK m := ok_of_pre m hpre
  refine (θ_run Cert.KernelIdeal.defs _ _).mono (fun r h c => ?_) (run_main_val m (hreg m) hcore g hok)
  obtain ⟨hres, harg⟩ := h c
  exact ⟨hres.trans (resA_eq_res m hok c), harg _ (by decide), harg _ (by decide), harg _ (by decide), harg _ (by decide),
    harg _ (by decide), harg _ (by decide), harg _ (by decide), harg _ (by decide)⟩

end Cert.Proof.KIval

end
-- ==== Proof.RegionValI.lean ====
/-
  The TensorCore kernel region WITH VALUES (at the ideal instance): the body's three stores are named functions of the blocks it
  loads, so the pipeline's proof data name what every staging buffer holds after the body at every grid point.
-/
import proofs.«205997_g24756191494465_cont_8to1_1595_42_alg».proof.Proof.RegionI
import proofs.«205997_g24756191494465_cont_8to1_1595_42_alg».proof.Proof.ValStmtI
import Idealize.ShloMosaic.Lib.Pipeline.Value
import Idealize.ShloMosaic.Lib.Pipeline.FrameBody

noncomputable section

namespace Cert.Proof.KIval

open Cert.KernelIdeal Cert.KernelIdeal.Gen
open Cert.Proof.KI
open Idealize.ShloMosaic Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

local notation "𝕄" => MT nD τ sig (HIx 1) (Elt Ideal) ℕ UU ℕ

/-! ## The body on whole staging memrefs, its stores named -/

set_option maxHeartbeats 4000000 in
/-- The body, handed its seven input memrefs whole at contents `x1 … x7` and its three result memrefs at any, hands the inputs back
    as they were and the results at the payloads of the inputs. -/
theorem sound_kernel_val (c : Dev nD) (E : Set ℕ) (i : grid0.Coords)
    (a1 : Memref sig .tc .vmem S128x512 .f32) (h1 : a1.IsWhole) (a2 : Memref sig .tc .vmem S512x16 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S1x16 .f32) (h6 : a6.IsWhole)
    (a7 : Memref sig .tc .vmem S1x1 .f32) (h7 : a7.IsWhole) (a8 : Memref sig .tc .vmem S512x128 .f32) (h8 : a8.IsWhole)
    (a9 : Memref sig .tc .vmem S512x128 .f32) (h9 : a9.IsWhole) (a10 : Memref sig .tc .vmem S512x16 .f32) (h10 : a10.IsWhole)
    (x1 : Vec Ideal S128x512 .f32) (x2 : Vec Ideal S512x16 .f32) (x3 x4 : Vec Ideal S128x128 .f32) (x5 : Vec Ideal S1x128 .f32)
    (x6 : Vec Ideal S1x16 .f32) (x7 : Vec Ideal S1x1 .f32)
    (Kc : PUnit → sProp 𝕄) :
    iprop(owns (c.tc : Thread nD τ) a1 fullShare x1 ∗ owns (c.tc : Thread nD τ) a2 fullShare x2
        ∗ owns (c.tc : Thread nD τ) a3 fullShare x3 ∗ owns (c.tc : Thread nD τ) a4 fullShare x4
        ∗ owns (c.tc : Thread nD τ) a5 fullShare x5 ∗ owns (c.tc : Thread nD τ) a6 fullShare x6
        ∗ owns (c.tc : Thread nD τ) a7 fullShare x7 ∗ (∃ x, owns (c.tc : Thread nD τ) a8 fullShare x)
        ∗ (∃ x, owns (c.tc : Thread nD τ) a9 fullShare x) ∗ (∃ x, owns (c.tc : Thread nD τ) a10 fullShare x)
        ∗ (iprop(owns (c.tc : Thread nD τ) a1 fullShare x1 ∗ owns (c.tc : Thread nD τ) a2 fullShare x2
            ∗ owns (c.tc : Thread nD τ) a3 fullShare x3 ∗ owns (c.tc : Thread nD τ) a4 fullShare x4
            ∗ owns (c.tc : Thread nD τ) a5 fullShare x5 ∗ owns (c.tc : Thread nD τ) a6 fullShare x6
            ∗ owns (c.tc : Thread nD τ) a7 fullShare x7
            ∗ owns (c.tc : Thread nD τ) a8 fullShare (k0_pay3 (F := Ideal) x1 x3 x5)
            ∗ owns (c.tc : Thread nD τ) a9 fullShare (k0_pay4 (F := Ideal) x1 x4)
            ∗ owns (c.tc : Thread nD τ) a10 fullShare (k0_pay1 (F := Ideal) (k0_pay5 x2 x6 x7) (Scalar.ofBits .f32 0x40000000#32))) -∗ Kc ⟨⟩))
      ⊢ wp frame (wpE (defs₀ (F := Ideal)) Variants.none (c.tc : Thread nD τ) none) E
          (cc0__tc_body i a1 h1 a2 h2 a3 h3 a4 h4 a5 h5 a6 h6 a7 h7 a8 h8 a9 h9 a10 h10) Kc := by
  have hz : (![0, 0] : Fin 2 → ℕ) = fun _ => 0 := by funext a; fin_cases a <;> rfl
  simp only [cc0__tc_body_eq_skeleton]; unfold cc0__tc_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%x8, %f8, -, H8⟩, ⟨%x9, %f9, -, H9⟩, ⟨%x10, %f10, -, H10⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (View.cover_of_tiled _ S512x128.size (by rfl)), View.canon_unit_zero hz]
    simp only [View.readAt_eq_ld, View.ld_unit_zero (S := S128x512) hz, View.ld_unit_zero (S := S128x128) hz, View.ld_unit_zero (S := S1x128) hz, View.ld_unit_zero (S := S512x16) hz, View.ld_unit_zero (S := S1x16) hz, View.ld_unit_zero (S := S1x1) hz]
  isplitl [H9]
  · iexists _; isplitr
    swap; · iexact H9
    ipureintro
    rw [View.read_writes_eq_canon _ _ _ (View.cover_of_tiled _ S512x128.size (by rfl)), View.canon_unit_zero hz]
    simp only [View.readAt_eq_ld, View.ld_unit_zero (S := S128x512) hz, View.ld_unit_zero (S := S128x128) hz, View.ld_unit_zero (S := S1x128) hz, View.ld_unit_zero (S := S512x16) hz, View.ld_unit_zero (S := S1x16) hz, View.ld_unit_zero (S := S1x1) hz]
  iexists _; isplitr
  swap; · iexact H10
  ipureintro
  rw [View.read_writes_eq_canon _ _ _ (View.cover_of_tiled _ S512x16.size (by rfl)), View.canon_unit_zero hz]
  sl_unfold_run_names
  simp only [View.readAt_eq_ld, View.ld_unit_zero (S := S128x512) hz, View.ld_unit_zero (S := S128x128) hz, View.ld_unit_zero (S := S1x128) hz, View.ld_unit_zero (S := S512x16) hz, View.ld_unit_zero (S := S1x16) hz, View.ld_unit_zero (S := S1x1) hz]

variable (m : (ℓ : Loc nD τ sig) → Buf (Elt Ideal) ℓ)

/-! ## The pipeline's proof data with the results named -/

abbrev cfgV : Pipeline.Cfg sig Λ₀ := Pipeline.pin (pcfgs (F := Ideal)) adm 0

/-- Window `w`'s block at point `t`, read off its array as the region finds it. -/
def iblk (d : Dev nD) (w : Fin (cfgV).W) (t : Fin (cfgV).N) :
    (((cfgV).win w).xblock ((cfgV).grid.coords t)).Idx → Elt Ideal ((cfgV).win w).elt :=
  (((cfgV).win w).blk t).view.read (Elt Ideal) (W1 m d (Proc.devRef .tc (Pipeline.arrRef spec0 w)))

/-- On core `d`: the arrays as the region finds them; after the body at point `t` each input's buffer at its block and each
    result's at the body's payload of the input blocks; nothing in the invariant; the core owes its start signals throughout. -/
def datV (d : Dev nD) : Pipeline.Dat τ (Elt Ideal) (HIx 1) ℕ UU ℕ (cfgV) d where
  A w := W1 m d (Proc.devRef .tc (Pipeline.arrRef spec0 w))
  after w t := match w with
    | ⟨0, _⟩ => iblk m d 0 t
    | ⟨1, _⟩ => iblk m d 1 t
    | ⟨2, _⟩ => iblk m d 2 t
    | ⟨3, _⟩ => iblk m d 3 t
    | ⟨4, _⟩ => iblk m d 4 t
    | ⟨5, _⟩ => iblk m d 5 t
    | ⟨6, _⟩ => iblk m d 6 t
    | ⟨7, _⟩ => k0_pay3 (F := Ideal) (iblk m d 0 t) (iblk m d 2 t) (iblk m d 4 t)
    | ⟨8, _⟩ => k0_pay4 (F := Ideal) (iblk m d 0 t) (iblk m d 3 t)
    | ⟨9, _⟩ => k0_pay1 (F := Ideal) (k0_pay5 (iblk m d 1 t) (iblk m d 5 t) (iblk m d 6 t)) (Scalar.ofBits .f32 0x40000000#32)
  Φ _ := iprop(emp)
  q _ := fullShare
  owed _ := (K (F := Ideal)).Otc d 0
  recorded _ := {p | p.2 = none}

abbrev datsV : (p : Fin 1) → (c : Dev nD) → Pipeline.Dat τ (Elt Ideal) (HIx 1) ℕ UU ℕ (Pipeline.pin (pcfgs (F := Ideal)) adm p) c :=
  fun _ c => datV m c

theorem A_eq (d : Dev nD) (w : Fin (cfgV).W) : (datV m d).A w = W1 m d (Proc.devRef .tc (Pipeline.arrRef spec0 w)) := by dsimp only [datV]

theorem after_0 (d : Dev nD) (t : Fin (cfgV).N) : (datV m d).after 0 t = iblk m d 0 t := by dsimp only [datV]
theorem after_1 (d : Dev nD) (t : Fin (cfgV).N) : (datV m d).after 1 t = iblk m d 1 t := by dsimp only [datV]
theorem after_2 (d : Dev nD) (t : Fin (cfgV).N) : (datV m d).after 2 t = iblk m d 2 t := by dsimp only [datV]
theorem after_3 (d : Dev nD) (t : Fin (cfgV).N) : (datV m d).after 3 t = iblk m d 3 t := by dsimp only [datV]
theorem after_4 (d : Dev nD) (t : Fin (cfgV).N) : (datV m d).after 4 t = iblk m d 4 t := by dsimp only [datV]
theorem after_5 (d : Dev nD) (t : Fin (cfgV).N) : (datV m d).after 5 t = iblk m d 5 t := by dsimp only [datV]
theorem after_6 (d : Dev nD) (t : Fin (cfgV).N) : (datV m d).after 6 t = iblk m d 6 t := by dsimp only [datV]
theorem after_7 (d : Dev nD) (t : Fin (cfgV).N) :
    (datV m d).after 7 t = k0_pay3 (F := Ideal) (iblk m d 0 t) (iblk m d 2 t) (iblk m d 4 t) := by dsimp only [datV]
theorem after_8 (d : Dev nD) (t : Fin (cfgV).N) :
    (datV m d).after 8 t = k0_pay4 (F := Ideal) (iblk m d 0 t) (iblk m d 3 t) := by dsimp only [datV]
theorem after_9 (d : Dev nD) (t : Fin (cfgV).N) :
    (datV m d).after 9 t = k0_pay1 (F := Ideal) (k0_pay5 (iblk m d 1 t) (iblk m d 5 t) (iblk m d 6 t)) (Scalar.ofBits .f32 0x40000000#32) := by
  dsimp only [datV]

/-- Each input's current staging buffer holds its block at every point, fetched there or not. -/
theorem before_0 (d : Dev nD) (t : Fin (cfgV).N) (dd) : (datV m d).before 0 t dd = iblk m d 0 t :=
  ((datV m d).before_in_eq_fetched 0 rfl (fun _ => rfl) (fun _ _ _ => rfl)
    (fun t => by rw [after_0]; unfold Pipeline.Dat.blockOf iblk; rw [A_eq]; try rfl) t dd).trans
    (by unfold Pipeline.Dat.fetched Pipeline.Dat.blockOf iblk; rw [A_eq]; try rfl)
theorem before_1 (d : Dev nD) (t : Fin (cfgV).N) (dd) : (datV m d).before 1 t dd = iblk m d 1 t :=
  ((datV m d).before_in_eq_fetched 1 rfl (fun _ => rfl) (fun _ _ _ => rfl)
    (fun t => by rw [after_1]; unfold Pipeline.Dat.blockOf iblk; rw [A_eq]; try rfl) t dd).trans
    (by unfold Pipeline.Dat.fetched Pipeline.Dat.blockOf iblk; rw [A_eq]; try rfl)
theorem before_2 (d : Dev nD) (t : Fin (cfgV).N) (dd) : (datV m d).before 2 t dd = iblk m d 2 t :=
  ((datV m d).before_in_eq_fetched 2 rfl (fun _ => rfl) (fun _ _ _ => rfl)
    (fun t => by rw [after_2]; unfold Pipeline.Dat.blockOf iblk; rw [A_eq]; try rfl) t dd).trans
    (by unfold Pipeline.Dat.fetched Pipeline.Dat.blockOf iblk; rw [A_eq]; try rfl)
theorem before_3 (d : Dev nD) (t : Fin (cfgV).N) (dd) : (datV m d).before 3 t dd = iblk m d 3 t :=
  ((datV m d).before_in_eq_fetched 3 rfl (fun _ => rfl) (fun _ _ _ => rfl)
    (fun t => by rw [after_3]; unfold Pipeline.Dat.blockOf iblk; rw [A_eq]; try rfl) t dd).trans
    (by unfold Pipeline.Dat.fetched Pipeline.Dat.blockOf iblk; rw [A_eq]; try rfl)
theorem before_4 (d : Dev nD) (t : Fin (cfgV).N) (dd) : (datV m d).before 4 t dd = iblk m d 4 t :=
  ((datV m d).before_in_eq_fetched 4 rfl (fun _ => rfl) (fun _ _ _ => rfl)
    (fun t => by rw [after_4]; unfold Pipeline.Dat.blockOf iblk; rw [A_eq]; try rfl) t dd).trans
    (by unfold Pipeline.Dat.fetched Pipeline.Dat.blockOf iblk; rw [A_eq]; try rfl)
theorem before_5 (d : Dev nD) (t : Fin (cfgV).N) (dd) : (datV m d).before 5 t dd = iblk m d 5 t :=
  ((datV m d).before_in_eq_fetched 5 rfl (fun _ => rfl) (fun _ _ _ => rfl)
    (fun t => by rw [after_5]; unfold Pipeline.Dat.blockOf iblk; rw [A_eq]; try rfl) t dd).trans
    (by unfold Pipeline.Dat.fetched Pipeline.Dat.blockOf iblk; rw [A_eq]; try rfl)
theorem before_6 (d : Dev nD) (t : Fin (cfgV).N) (dd) : (datV m d).before 6 t dd = iblk m d 6 t :=
  ((datV m d).before_in_eq_fetched 6 rfl (fun _ => rfl) (fun _ _ _ => rfl)
    (fun t => by rw [after_6]; unfold Pipeline.Dat.blockOf iblk; rw [A_eq]; try rfl) t dd).trans
    (by unfold Pipeline.Dat.fetched Pipeline.Dat.blockOf iblk; rw [A_eq]; try rfl)

/-! ## The body obligation -/

def bodyPre (d : Dev nD) (t : Fin (cfgV).N) : sProp 𝕄 :=
  iprop((datV m d).Φ t.castSucc ∗ (datV m d).owesAt (none : HIx 1) t.castSucc
    ∗ (∃ dd, owns (d.tc : Thread nD τ) (st0_0 t) fullShare ((datV m d).before 0 t dd))
    ∗ (∃ dd, owns (d.tc : Thread nD τ) (st0_1 t) fullShare ((datV m d).before 1 t dd))
    ∗ (∃ dd, owns (d.tc : Thread nD τ) (st0_2 t) fullShare ((datV m d).before 2 t dd))
    ∗ (∃ dd, owns (d.tc : Thread nD τ) (st0_3 t) fullShare ((datV m d).before 3 t dd))
    ∗ (∃ dd, owns (d.tc : Thread nD τ) (st0_4 t) fullShare ((datV m d).before 4 t dd))
    ∗ (∃ dd, owns (d.tc : Thread nD τ) (st0_5 t) fullShare ((datV m d).before 5 t dd))
    ∗ (∃ dd, owns (d.tc : Thread nD τ) (st0_6 t) fullShare ((datV m d).before 6 t dd))
    ∗ (∃ dd, owns (d.tc : Thread nD τ) (st0_7 t) fullShare ((datV m d).before 7 t dd))
    ∗ (∃ dd, owns (d.tc : Thread nD τ) (st0_8 t) fullShare ((datV m d).before 8 t dd))
    ∗ (∃ dd, owns (d.tc : Thread nD τ) (st0_9 t) fullShare ((datV m d).before 9 t dd)))

def bodyPost (d : Dev nD) (t : Fin (cfgV).N) : sProp 𝕄 :=
  iprop((datV m d).Φ t.succ ∗ (datV m d).owesAt (none : HIx 1) t.succ
    ∗ owns (d.tc : Thread nD τ) (st0_0 t) fullShare ((datV m d).after 0 t)
    ∗ owns (d.tc : Thread nD τ) (st0_1 t) fullShare ((datV m d).after 1 t)
    ∗ owns (d.tc : Thread nD τ) (st0_2 t) fullShare ((datV m d).after 2 t)
    ∗ owns (d.tc : Thread nD τ) (st0_3 t) fullShare ((datV m d).after 3 t)
    ∗ owns (d.tc : Thread nD τ) (st0_4 t) fullShare ((datV m d).after 4 t)
    ∗ owns (d.tc : Thread nD τ) (st0_5 t) fullShare ((datV m d).after 5 t)
    ∗ owns (d.tc : Thread nD τ) (st0_6 t) fullShare ((datV m d).after 6 t)
    ∗ owns (d.tc : Thread nD τ) (st0_7 t) fullShare ((datV m d).after 7 t)
    ∗ owns (d.tc : Thread nD τ) (st0_8 t) fullShare ((datV m d).after 8 t)
    ∗ owns (d.tc : Thread nD τ) (st0_9 t) fullShare ((datV m d).after 9 t))

set_option maxHeartbeats 2000000 in
theorem sound_body (d : Dev nD) (t : Fin (cfgV).N) :
    bodyPre m d t ⊢ wp frame (wpE (defs₀ (F := Ideal)) Variants.none (d.tc : Thread nD τ) none) Set.univ (bodyAt0 t) (fun _ => bodyPost m d t) := by
  unfold bodyPre bodyPost bodyAt0
  simp only [before_0, before_1, before_2, before_3, before_4, before_5, before_6]
  rw [show (datV m d).Φ t.succ = (datV m d).Φ t.castSucc from rfl,
    show (datV m d).owesAt (none : HIx 1) t.succ = (datV m d).owesAt (none : HIx 1) t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel_val d Set.univ _ _ _ _ _ _ _ _ _ _ _ _ _ _ _ _ _ _ _ _ _
    (iblk m d 0 t) (iblk m d 1 t) (iblk m d 2 t) (iblk m d 3 t) (iblk m d 4 t) (iblk m d 5 t) (iblk m d 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligationV (d : Dev nD) : Pipeline.BodyObligation (datV m d) (defs₀ (F := Ideal)) Variants.none (none : HIx 1) Set.univ := fun t => by
  rw [bigSep_W0, bigSep_W0]
  exact sound_body m d t

end Cert.Proof.KIval

end
-- ==== Proof.RegionVal2I.lean ====
/-
  The kernel region with values as the pipeline library's exact region record, and the region's rule from it: the three result arrays
  end at the proof data's closed forms; every other array is as the region found it.
-/
import proofs.«205997_g24756191494465_cont_8to1_1595_42_alg».proof.Proof.RegionValI

noncomputable section

namespace Cert.Proof.KIval

open Cert.KernelIdeal Cert.KernelIdeal.Gen
open Cert.Proof.KI
open Idealize.ShloMosaic Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

local notation "𝕄" => MT nD τ sig (HIx 1) (Elt Ideal) ℕ UU ℕ

variable (m : (ℓ : Loc nD τ sig) → Buf (Elt Ideal) ℓ)

theorem share_fullV (d : Dev nD) (w : Fin (cfgV).W) : (datsV m 0 d).share w = fullShare := by
  unfold Pipeline.Dat.share; split <;> rfl

theorem owesAt_introV (d : Dev nD) (t : Fin ((cfgV).N + 1)) :
    iprop(∃ Wt, ⌜(K (F := Ideal)).WBelow (T d) Wt (8 * 0)⌝ ∗ owes (T d) ((K (F := Ideal)).Otc d 0) Wt)
      ⊢ ((datV m d).owesAt (none : HIx 1) t : sProp 𝕄) := by
  iintro ⟨%Wt, %hWt, HO⟩
  iexists Wt; isplitr
  · ipureintro; intro p hp; left
    show p.2 = none
    have h0 := hWt p hp
    cases h : p.2 with
    | none => rfl
    | some q => rw [h] at h0; have := (K (F := Ideal)).lev_some_pos (T d, p.1) q; omega
  · iexact HO

theorem owesAt_elimV (d : Dev nD) (t : Fin ((cfgV).N + 1)) :
    ((datV m d).owesAt (none : HIx 1) t : sProp 𝕄)
      ⊢ iprop(∃ Wt, ⌜(K (F := Ideal)).WBelow (T d) Wt (8 * 0)⌝ ∗ owes (T d) ((K (F := Ideal)).Otc d 0) Wt) := by
  iintro ⟨%Wt, %hWt, HO⟩
  iexists Wt; isplitr
  · ipureintro; intro p hp
    have e : p.2 = none := by
      rcases hWt hp with h | ⟨w, s, h⟩
      · exact h
      · rw [h]
    show (K (F := Ideal)).lev (T d, p.1) p.2 ≤ 8 * 0
    rw [e]; exact Nat.le_of_eq rfl
  · iexact HO

/-- The region's record over the proof data with the results named. -/
def regV : Pipeline.RegionSeg (pcfgs (F := Ideal)) adm (datsV m) (none : HIx 1) defs₀ 𝒱₀ (K (F := Ideal)).L (K (F := Ideal)).lev 0 where
  win := winFacts0.to₀
  block_pos := block_pos0
  stage_whole := stage_whole0
  K := PEmpty
  osem k := k.elim
  ho := Pipeline.OwnSemFacts.none _
  hbody c := (body_obligationV m c).loose
  hwaits c := Pipeline.cellsWaits_intro _ _ _ 0 c fun w s t =>
    (K (F := Ideal)).mayWait_none _ (fun g => Otc_none c g)
  pre c := iprop((datV m c).arrays ((datV m c).arrAt · 0) ∗ (datV m c).owesAt (none : HIx 1) 0)
  post c := iprop((datV m c).arrays ((datV m c).arrAt · (cfgV).N) ∗ (datV m c).owesAt (none : HIx 1) (Fin.last _))
  X _ := iprop(emp)
  Y _ := iprop(emp)
  Z _ := iprop(emp)
  hentry c := by
    rw [Pipeline.ownSems0_none, prefHeld_emp]
    iintro ⟨⟨Ha, Ho⟩, -, -⟩
    imodintro
    isplitl [Ha]; · iexact Ha
    isplitr; · iempintro
    isplitl [Ho]; · iexact Ho
    isplitr <;> iempintro
  hin c := by
    show _ ⊢ (iprop(emp) : sProp 𝕄)
    iintro -; iempintro
  hout c := by
    rw [Pipeline.ownSems0_none]
    show _ ⊢ iprop((iprop(emp) : sProp 𝕄) ∗ BI.emp ∗ Pipeline.scopedRest spec0 c)
    rw [scopedRest0_eq]
    iintro -
    isplitr; · iempintro
    isplitr <;> iempintro
  hexit c := by
    iintro ⟨Ha, Ho, -, -⟩
    imodintro
    isplitl [Ha] <;> iassumption

theorem regV_pre (d : Dev nD) :
    (regV m).pre d = iprop((datV m d).arrays ((datV m d).arrAt · 0) ∗ (datV m d).owesAt (none : HIx 1) 0) := rfl
theorem regV_post (d : Dev nD) :
    (regV m).post d = iprop((datV m d).arrays ((datV m d).arrAt · (cfgV).N) ∗ (datV m d).owesAt (none : HIx 1) (Fin.last _)) := rfl

/-- The arrays after the region as a valuation: the three results at the proof data's closed forms. -/
abbrev Wend (d : Dev nD) : Valuation τ sig (Elt Ideal) :=
  Wafter (W1 m d) ((datV m d).arrAt 7 (cfgV).N) ((datV m d).arrAt 8 (cfgV).N) ((datV m d).arrAt 9 (cfgV).N)

theorem hFWV (d : Dev nD) (w : Fin (cfgV).W) :
    (datV m d).arrAt w (cfgV).N = Wend m d (Proc.devRef .tc (Pipeline.arrRef spec0 w)) :=
  match w with
  | 0 => ((datV m d).arrAt_in 0 rfl _).trans ((A_eq m d 0).trans (Wafter_of_ne _ _ _ _ _ (arr_notin 0 (by decide))).symm)
  | 1 => ((datV m d).arrAt_in 1 rfl _).trans ((A_eq m d 1).trans (Wafter_of_ne _ _ _ _ _ (arr_notin 1 (by decide))).symm)
  | 2 => ((datV m d).arrAt_in 2 rfl _).trans ((A_eq m d 2).trans (Wafter_of_ne _ _ _ _ _ (arr_notin 2 (by decide))).symm)
  | 3 => ((datV m d).arrAt_in 3 rfl _).trans ((A_eq m d 3).trans (Wafter_of_ne _ _ _ _ _ (arr_notin 3 (by decide))).symm)
  | 4 => ((datV m d).arrAt_in 4 rfl _).trans ((A_eq m d 4).trans (Wafter_of_ne _ _ _ _ _ (arr_notin 4 (by decide))).symm)
  | 5 => ((datV m d).arrAt_in 5 rfl _).trans ((A_eq m d 5).trans (Wafter_of_ne _ _ _ _ _ (arr_notin 5 (by decide))).symm)
  | 6 => ((datV m d).arrAt_in 6 rfl _).trans ((A_eq m d 6).trans (Wafter_of_ne _ _ _ _ _ (arr_notin 6 (by decide))).symm)
  | 7 => (Wafter_7 _ _ _ _).symm
  | 8 => (Wafter_8 _ _ _ _).symm
  | 9 => (Wafter_9 _ _ _ _).symm
  | ⟨_ + 10, h⟩ => absurd h (Nat.not_lt.2 (Nat.le_add_left _ _))

set_option maxHeartbeats 2000000 in
set_option backward.isDefEq.respectTransparency.types false in
/-- The region in the program's own signature, with values. -/
theorem region_inV (κ : GSem nD τ sig → ℕ) (d : Dev nD) (Φ : PUnit → sProp 𝕄) :
    iprop((K (F := Ideal)).ctx EH (Pv m) κ ∗ (K (F := Ideal)).tcSt EH d 0 ∗ G (F := Ideal) d ∗ boundary (T d)
        ∗ (held (T d) (Pipeline.ucRefs τ sig) (W1 m d) : sProp 𝕄)
        ∗ (((K (F := Ideal)).tcSt EH d 0 ∗ boundary (T d) ∗ (held (T d) (Pipeline.ucRefs τ sig) (Wend m d) : sProp 𝕄)) -∗ Φ ⟨⟩))
      ⊢ wp frame (wpE (D (F := Ideal)) 𝒱 (T d) none) Set.univ
          (.op (.customCall (Pipeline.entry 0) ()) fun _ => .ret ⟨⟩ : Prog (TpuEff nD τ sig (Elt Ideal) (ΛP (F := Ideal)) .tc) PUnit) Φ := by
  unfold SparseCore.Cfg.tcSt G
  iintro ⟨#Hctx, ⟨HO, Hst'⟩, ⟨Hg, Ht⟩, Hb, Hheld, Hk⟩
  ihave Hlev := (SparseCore.Cfg.ctx_levAts κ) $$ Hctx
  ihave Hu := (Entails.of_eq (Pipeline.unscopedBufs_held (Ix := HIx 1) (Name := ℕ) (U := UU) (Lvl := ℕ) d (W1 m d)).symm) $$ Hheld
  ihave Hs := (Pipeline.arrays_of_unscopedBufs (pcfgs (F := Ideal)) adm (datsV m) (p := 0) winFacts0 arr_whole0 d (share_fullV m d)
    (fun b => W1 m d (Proc.devRef .tc b)) (fun w => rfl)) $$ Hu
  icases Hs with ⟨Harr, Hur⟩
  ihave HOa := (owesAt_introV m d 0) $$ HO
  iapply (Pipeline.RegionSeg.wp (pcfgs (F := Ideal)) adm (datsV m) (none : HIx 1) cellOf_injR EP defs₀ 𝒱₀ (K (F := Ideal)).L (K (F := Ideal)).lev
    (regV m) d none (fun u hu => by cases hu) (fun _ => .ret ⟨⟩) Φ) $$ [Hk Hb Harr HOa Hg Ht Hur Hst']
  isplitl [Hk Hur Hst']
  · iintro ⟨Hb, Hpost⟩
    ihave Hp := (Entails.of_eq (regV_post m d)) $$ Hpost
    icases Hp with ⟨Ha, HOb⟩
    rw [wp_ret]; imodintro
    iapply Hk
    isplitl [HOb Hst']
    · isplitl [HOb]
      · iapply (owesAt_elimV m d _); iexact HOb
      · iexact Hst'
    isplitl [Hb]; · iexact Hb
    ihave Ha2 := (Entails.of_eq (Pipeline.arrays_eq (Pipeline.pin (pcfgs (F := Ideal)) adm) (datsV m) 0 d arr_whole0 (share_fullV m d)
      (fun w => (datV m d).arrAt w (cfgV).N))) $$ Ha
    iapply (Entails.of_eq (Pipeline.unscopedBufs_held (Ix := HIx 1) (Name := ℕ) (U := UU) (Lvl := ℕ) d (Wend m d)))
    iapply (assemble (W1 m d) (Wend m d) d (fun w => (datV m d).arrAt w (cfgV).N) (hFWV m d) (fun r hr => Wafter_of_ne _ _ _ _ r hr))
    isplitl [Ha2] <;> iassumption
  isplitl [Hb]; · iexact Hb
  isplitl [Harr HOa]
  · iapply (Entails.of_eq (regV_pre m d).symm)
    isplitl [Harr] <;> iassumption
  isplitr; · iexact Hlev
  isplitl [Hg] <;> iassumption

/-- THE KERNEL REGION WITH VALUES, from what the three result arrays end at. -/
theorem regionVal_of (h7 : ∀ d, (datV m d).arrAt 7 (cfgV).N = y1A m d) (h8 : ∀ d, (datV m d).arrAt 8 (cfgV).N = y2A m d)
    (h9 : ∀ d, (datV m d).arrAt 9 (cfgV).N = suppT m d) : RegionVal m := by
  intro κ d β k Q
  rw [wp_bind]
  iintro ⟨Hctx, Hst, HG, Hb, Hheld⟩ Hk
  iapply (lift_region d _)
  iapply (region_inV m κ d _)
  isplitl [Hctx]; · iexact Hctx
  isplitl [Hst]; · iexact Hst
  isplitl [HG]; · iexact HG
  isplitl [Hb]; · iexact Hb
  isplitl [Hheld]; · iexact Hheld
  iintro ⟨Hst, Hb, Hheld⟩
  iapply Hk
  isplitl [Hst]; · iexact Hst
  isplitl [Hb]; · iexact Hb
  iexists Wend m d
  isplitr
  · ipureintro
    refine ⟨fun r hr => Wafter_of_ne _ _ _ _ r hr, ?_, ?_, ?_⟩
    · exact (Wafter_7 _ _ _ _).trans (h7 d)
    · exact (Wafter_8 _ _ _ _).trans (h8 d)
    · exact (Wafter_9 _ _ _ _).trans (h9 d)
  · iexact Hheld

end Cert.Proof.KIval

end
-- ==== Proof.HostValI.lean ====
/-
  The contents the first five host stretches make (at the ideal instance), read at an index: the node features reshaped and padded
  with zeros along the node axis, the distances likewise, the two weight blocks (their difference, and the right one), the bias
  and the attention offset reshaped, and the attention weights left as they were.
-/
import proofs.«205997_g24756191494465_cont_8to1_1595_42_alg».proof.Proof.ValStmtI
import Idealize.ShloMosaic.Lib.ValueLayout
import Idealize.ShloMosaic.Lib.Pipeline.Value

noncomputable section

namespace Cert.Proof.KIval

open Cert.KernelIdeal Cert.KernelIdeal.Gen
open Cert.Proof.KI
open Idealize.ShloMosaic Idealize.ShloMosaic.ValueIdx
open Idealize.ShloMosaic.SparseCore (S V T)
open Idealize.SL Idealize.SL.RA Idealize.SL.BI

variable (m : (ℓ : Loc nD τ sig) → Buf (Elt Ideal) ℓ)

/-- The integer zero converted to a float is the real number zero. -/
theorem sitofp_zero : (FloatOps.sitofp (F := Ideal) .f32 (0#32 : BitVec 32) : Ideal .f32) = (0 : EReal) := by
  show (((0#32 : BitVec 32).toInt : ℝ) : EReal) = 0
  simp

/-- The padded node features: channel `c` of node `n`, zero from node 10000 on. -/
theorem hv1 (d : Dev nD) : ∀ (c : Fin 128) (n : Fin 10240),
    (W1 m d (Proc.devRef .tc main_v1) : FVec Ideal S128x10240 .f32) (ix2 c n) = Cert.Spec.xp (xIn m d) c n.val := by
  intro c n
  open StableHlo in after_results
  show pad S128x10240 ![0, 0] ![0, 240] ![0, 0]
      (shapeCast S128x10000 (V0 m d (Proc.devRef .tc main_arg0) : FVec Ideal S1x128x10000x1 .f32) shapeCasts_S1x128x10000x1_S128x10000)
      (sitofp .f32 (constantI S_ 32 0#32) : FVec Ideal S_ .f32) pads_S128x10000_S128x10240_000_02400 h_S_ (ix2 c n)
    = Cert.Spec.xp (xIn m d) c n.val
  have hc : c.val < 128 := c.isLt
  unfold pad Cert.Spec.xp
  split
  · next hin =>
    have hlt : n.val < 10000 := by
      have h1 : (n.val - 0) / (0 + 1) < 10000 := (hin 1).2.2
      simpa using h1
    rw [dif_pos hlt]
    exact shapeCast_apply _ shapeCasts_S1x128x10000x1_S128x10000 _ (ix4 0 c ⟨n.val, hlt⟩ 0) (by
      rw [Shape.rowMajor_val_four, Shape.rowMajor_val_two]
      show (((0 : ℕ) * 128 + c.val) * 10000 + n.val) * 1 + 0 = (c.val - 0) / (0 + 1) * 10000 + (n.val - 0) / (0 + 1)
      simp only [Nat.sub_zero, Nat.zero_add, Nat.div_one]
      omega)
  · next hin =>
    have hge : ¬ n.val < 10000 := fun h => hin fun a =>
      match a with
      | ⟨0, _⟩ => ⟨Nat.zero_le _, Nat.mod_one _, (show (c.val - 0) / (0 + 1) < 128 by simp only [Nat.sub_zero, Nat.zero_add, Nat.div_one]; omega)⟩
      | ⟨1, _⟩ => ⟨Nat.zero_le _, Nat.mod_one _, (show (n.val - 0) / (0 + 1) < 10000 by simp only [Nat.sub_zero, Nat.zero_add, Nat.div_one]; omega)⟩
    rw [dif_neg hge]
    exact sitofp_zero

/-- The padded distances: edge `(n, k)`, zero from node 10000 on. -/
theorem hv3 (d : Dev nD) : ∀ (n : Fin 10240) (k : Fin 16),
    (W1 m d (Proc.devRef .tc main_v3) : FVec Ideal S10240x16 .f32) (ix2 n k) = Cert.Spec.dp (disIn m d) n.val k := by
  intro n k
  open StableHlo in after_results
  show pad S10240x16 ![0, 0] ![240, 0] ![0, 0]
      (shapeCast S10000x16 (V0 m d (Proc.devRef .tc main_arg3) : FVec Ideal S1x10000x16 .f32) shapeCasts_S1x10000x16_S10000x16)
      (sitofp .f32 (constantI S_ 32 0#32) : FVec Ideal S_ .f32) pads_S10000x16_S10240x16_02400_000 h_S_ (ix2 n k)
    = Cert.Spec.dp (disIn m d) n.val k
  have hk : k.val < 16 := k.isLt
  unfold pad Cert.Spec.dp
  split
  · next hin =>
    have hlt : n.val < 10000 := by
      have h1 : (n.val - 0) / (0 + 1) < 10000 := (hin 0).2.2
      simpa using h1
    rw [dif_pos hlt]
    exact shapeCast_apply _ shapeCasts_S1x10000x16_S10000x16 _ (ix3 0 ⟨n.val, hlt⟩ k) (by
      rw [Shape.rowMajor_val_three, Shape.rowMajor_val_two]
      show ((0 : ℕ) * 10000 + n.val) * 16 + k.val = (n.val - 0) / (0 + 1) * 16 + (k.val - 0) / (0 + 1)
      simp only [Nat.sub_zero, Nat.zero_add, Nat.div_one]
      omega)
  · next hin =>
    have hge : ¬ n.val < 10000 := fun h => hin fun a =>
      match a with
      | ⟨0, _⟩ => ⟨Nat.zero_le _, Nat.mod_one _, (show (n.val - 0) / (0 + 1) < 10000 by simp only [Nat.sub_zero, Nat.zero_add, Nat.div_one]; omega)⟩
      | ⟨1, _⟩ => ⟨Nat.zero_le _, Nat.mod_one _, (show (k.val - 0) / (0 + 1) < 16 by simp only [Nat.sub_zero, Nat.zero_add, Nat.div_one]; omega)⟩
    rw [dif_neg hge]
    exact sitofp_zero

/-- The left block of the weights minus the right block. -/
theorem hv6 (d : Dev nD) : ∀ (o c : Fin 128),
    (W1 m d (Proc.devRef .tc main_v6) : FVec Ideal S128x128 .f32) (ix2 o c) = Cert.Spec.wa (wIn m d) o c := by
  intro o c
  open StableHlo in after_results
  show (subf (extractStridedSlice S128x128 ![0, 0] (V0 m d (Proc.devRef .tc main_arg4) : FVec Ideal S128x256 .f32) slices_S128x256_S128x128_0_0)
      (extractStridedSlice S128x128 ![0, 128] (V0 m d (Proc.devRef .tc main_arg4) : FVec Ideal S128x256 .f32) slices_S128x256_S128x128_0_128)
        : FVec Ideal S128x128 .f32) (ix2 o c)
    = Cert.Spec.wa (wIn m d) o c
  rw [subf_apply,
    slice2_axis1_eq (n0 := 128) (n1 := 256) (m := 128) 0 _ slices_S128x256_S128x128_0_0 o c,
    slice2_axis1_eq (n0 := 128) (n1 := 256) (m := 128) 128 _ slices_S128x256_S128x128_0_128 o c]
  unfold Cert.Spec.wa
  congr 2
  · congr 1
    exact Fin.ext (Nat.zero_add _)
  · congr 1
    exact Fin.ext (Nat.add_comm _ _)

/-- The right block of the weights. -/
theorem hv7 (d : Dev nD) : ∀ (o c : Fin 128),
    (W1 m d (Proc.devRef .tc main_v7) : FVec Ideal S128x128 .f32) (ix2 o c) = Cert.Spec.wb (wIn m d) o c := by
  intro o c
  open StableHlo in after_results
  show extractStridedSlice S128x128 ![0, 128] (V0 m d (Proc.devRef .tc main_arg4) : FVec Ideal S128x256 .f32) slices_S128x256_S128x128_0_128 (ix2 o c)
    = Cert.Spec.wb (wIn m d) o c
  rw [slice2_axis1_eq (n0 := 128) (n1 := 256) (m := 128) 128 _ slices_S128x256_S128x128_0_128 o c]
  unfold Cert.Spec.wb
  congr 1
  funext a
  match a with
  | ⟨0, _⟩ => rfl
  | ⟨1, _⟩ => exact Fin.ext (Nat.add_comm _ _)

/-- The bias as one row. -/
theorem hv8 (d : Dev nD) : ∀ o : Fin 128,
    (W1 m d (Proc.devRef .tc main_v8) : FVec Ideal S1x128 .f32) (ix2 0 o) = bIn m d (ix1 o) := by
  intro o
  open StableHlo in after_results
  show shapeCast S1x128 (V0 m d (Proc.devRef .tc main_arg5) : FVec Ideal S128 .f32) shapeCasts_S128_S1x128 (ix2 0 o) = bIn m d (ix1 o)
  exact shapeCast_apply _ shapeCasts_S128_S1x128 _ (ix1 o) (by
    rw [Shape.rowMajor_val_one, Shape.rowMajor_val_two]
    show o.val = (0 : ℕ) * 128 + o.val
    omega)

/-- The attention offset as a one-by-one matrix. -/
theorem hv9 (d : Dev nD) :
    (W1 m d (Proc.devRef .tc main_v9) : FVec Ideal S1x1 .f32) (ix2 0 0) = abIn m d (ix1 0) := by
  open StableHlo in after_results
  show shapeCast S1x1 (V0 m d (Proc.devRef .tc main_arg7) : FVec Ideal S1 .f32) shapeCasts_S1_S1x1 (ix2 0 0) = abIn m d (ix1 0)
  exact shapeCast_apply _ shapeCasts_S1_S1x1 _ (ix1 0) (by
    rw [Shape.rowMajor_val_one, Shape.rowMajor_val_two]
    show (0 : ℕ) = (0 : ℕ) * 1 + 0
    omega)

/-- No host stretch writes the attention weights. -/
theorem hv5 (d : Dev nD) : W1 m d (Proc.devRef .tc main_arg6) = awIn m d :=
  stretch1_arg (V0 m d) main_arg6 (by decide)

end Cert.Proof.KIval

end
-- ==== Proof.TcPayI.lean ====
/-
  The TensorCore body's three stored blocks, read at an index, against the specification's node tables.

  One grid point handles 512 nodes.  With xb the block of node features (channel c, node r of the block), the body stores
    y1[r, o] = Σ_c xb[c, r] · A[o, c] + b[0, o],   y2[r, o] = Σ_c xb[c, r] · W2[o, c]   (two contractions over the channel axis)
  and  supp[r, k] = 2 · logistic ((0 - dis[r, k]) · (tanh (Σ_k' dis[r, k'] · att_w[0, k'] + att_b[0, 0]) + 1)).
  These are the specification's y1, y2 and supp at node 512·t + r once the operands are the ones the host prepares.
-/
import proofs.«205997_g24756191494465_cont_8to1_1595_42_alg».proof.Proof.Gen.KernelIdeal.Skeleton
import proofs.«205997_g24756191494465_cont_8to1_1595_42_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.Proof.KIval

open Cert.KernelIdeal Cert.KernelIdeal.Gen Idealize.ShloMosaic Idealize.ShloMosaic.ValueIdx

/-! ## The layout operations of the body at an index -/

/-- The logistic and the hyperbolic tangent of a vector, at an index. -/
theorem logistic_apply {s : Shape} (v : FVec Ideal s .f32) (i : s.Idx) : logistic v i = Ideal.logistic (v i) := rfl
theorem tanh_apply {s : Shape} (v : FVec Ideal s .f32) (i : s.Idx) : tanh v i = Ideal.tanh (v i) := rfl

/-- A one-row matrix broadcast down 512 rows reads its row. -/
theorem row16_apply (v : FVec Ideal S1x16 .f32) (r : Fin 512) (k : Fin 16) :
    broadcastTo S512x16 v broadcasts_S1x16_S512x16 (ix2 r k) = v (ix2 0 k) :=
  broadcastTo_apply v broadcasts_S1x16_S512x16 (ix2 r k) (ix2 0 k) fun a => match a with | ⟨0, _⟩ => rfl | ⟨1, _⟩ => rfl
theorem row128_apply (v : FVec Ideal S1x128 .f32) (r : Fin 512) (o : Fin 128) :
    broadcastTo S512x128 v broadcasts_S1x128_S512x128 (ix2 r o) = v (ix2 0 o) :=
  broadcastTo_apply v broadcasts_S1x128_S512x128 (ix2 r o) (ix2 0 o) fun a => match a with | ⟨0, _⟩ => rfl | ⟨1, _⟩ => rfl

/-- A one-column matrix broadcast across 16 columns reads its column. -/
theorem col16_apply (v : FVec Ideal S512x1 .f32) (r : Fin 512) (k : Fin 16) :
    broadcastTo S512x16 v broadcasts_S512x1_S512x16 (ix2 r k) = v (ix2 r 0) :=
  broadcastTo_apply v broadcasts_S512x1_S512x16 (ix2 r k) (ix2 r 0) fun a => match a with | ⟨0, _⟩ => rfl | ⟨1, _⟩ => rfl

/-- A vector of 512 entries as a one-column matrix. -/
theorem column_apply (v : FVec Ideal S512 .f32) (r : Fin 512) :
    shapeCast S512x1 v shapeCasts_S512_S512x1 (ix2 r 0) = v (ix1 r) :=
  shapeCast_apply v shapeCasts_S512_S512x1 (ix2 r 0) (ix1 r) (by
    rw [Shape.rowMajor_val_one, Shape.rowMajor_val_two]
    show r.val = r.val * 1 + 0
    omega)

/-- The one entry of a 1×1 matrix. -/
theorem entry_apply (v : FVec Ideal S1x1 .f32) : extractAt ![0, 0] v inpos_S1x1_p0_0 = v (ix2 0 0) :=
  congrArg v (funext fun a => Fin.ext (match a with | ⟨0, _⟩ => rfl | ⟨1, _⟩ => rfl))

/-- The lane sum of a row of products. -/
theorem lane_sum (p : FVec Ideal S512x16 .f32) (r : Fin 512) :
    multiReduction (F := Ideal) .add [1] S512 p 0x00000000#32 reduces_S512x16_S512 (.inl rfl) rfl (ix1 r) = ∑ k : Fin 16, p (ix2 r k) := by
  refine (Ideal.multiReduction_add_single p 0x00000000#32 reduces_S512x16_S512 (.inl rfl) rfl (ix1 r)).trans ?_
  refine Finset.sum_congr rfl fun k _ => congrArg p (funext fun b => Fin.ext ?_)
  match b with
  | ⟨0, _⟩ => rfl
  | ⟨1, _⟩ => rfl

/-- Off the contracted axis the operand indices are the output's coordinates. -/
theorem lhs_node (j : S512x128.Idx) (q : dot_S128x512_S128x128_S512x128_0_1_1_0_n_n.contr.Idx) : (dot_S128x512_S128x128_S512x128_0_1_1_0_n_n.lhsIdx j q 1).val = (j 0).val := by
  unfold DotDims.lhsIdx
  rw [dif_neg (show ¬(1 : Fin S128x512.rank) ∈ dot_S128x512_S128x128_S512x128_0_1_1_0_n_n.lhsBatch by decide), dif_pos (show (1 : Fin S128x512.rank) ∈ dot_S128x512_S128x128_S512x128_0_1_1_0_n_n.lhsNonContracting by decide)]
  rfl
theorem rhs_out (j : S512x128.Idx) (q : dot_S128x512_S128x128_S512x128_0_1_1_0_n_n.contr.Idx) : (dot_S128x512_S128x128_S512x128_0_1_1_0_n_n.rhsIdx j q 0).val = (j 1).val := by
  unfold DotDims.rhsIdx
  rw [dif_neg (show ¬(0 : Fin S128x128.rank) ∈ dot_S128x512_S128x128_S512x128_0_1_1_0_n_n.rhsBatch by decide), dif_pos (show (0 : Fin S128x128.rank) ∈ dot_S128x512_S128x128_S512x128_0_1_1_0_n_n.rhsNonContracting by decide)]
  rfl

/-- The contraction over the channel axis: entry (r, o) of the product of the feature block (channels × nodes, contracted on
    its first axis) with a weight matrix (outputs × channels, contracted on its second). -/
theorem dot_at (x0 : FVec Ideal S128x512 .f32) (a : FVec Ideal S128x128 .f32) (r : Fin 512) (o : Fin 128) :
    matmul dot_S128x512_S128x128_S512x128_0_1_1_0_n_n none x0 a (constant (F := Ideal) S512x128 .f32 0x00000000#32) (ix2 r o)
      = ∑ c : Fin 128, x0 (ix2 c r) * a (ix2 o c) := by
  show FloatOps.matmul dot_S128x512_S128x128_S512x128_0_1_1_0_n_n none x0 a (constant (F := Ideal) S512x128 .f32 0x00000000#32) (ix2 r o) = _
  rw [Ideal.matmul_constant_zero_apply, ← Equiv.sum_comp (contrEquiv1 dot_S128x512_S128x128_S512x128_0_1_1_0_n_n 128 rfl rfl).symm]
  refine Finset.sum_congr rfl fun k _ => ?_
  have hk := contrEquiv1_symm_val dot_S128x512_S128x128_S512x128_0_1_1_0_n_n 128 rfl rfl k
  have el : dot_S128x512_S128x128_S512x128_0_1_1_0_n_n.lhsIdx (ix2 r o) ((contrEquiv1 dot_S128x512_S128x128_S512x128_0_1_1_0_n_n 128 rfl rfl).symm k) = ix2 k r := funext fun b => Fin.ext (by
    match b with
    | ⟨0, _⟩ => exact (dot_S128x512_S128x128_S512x128_0_1_1_0_n_n.lhsIdx_val_of_single rfl (ix2 r o) _).trans hk
    | ⟨1, _⟩ => exact lhs_node _ _)
  have er : dot_S128x512_S128x128_S512x128_0_1_1_0_n_n.rhsIdx (ix2 r o) ((contrEquiv1 dot_S128x512_S128x128_S512x128_0_1_1_0_n_n 128 rfl rfl).symm k) = ix2 o k := funext fun b => Fin.ext (by
    match b with
    | ⟨0, _⟩ => exact rhs_out _ _
    | ⟨1, _⟩ => exact (dot_S128x512_S128x128_S512x128_0_1_1_0_n_n.rhsIdx_val_of_single rfl (ix2 r o) _).trans hk)
  rw [el, er]

/-! ## The three stored blocks at an index -/

/-- The first table's block: the contraction with the difference weights, plus the bias row. -/
theorem pay3_at (x0 : Vec Ideal S128x512 .f32) (a : Vec Ideal S128x128 .f32) (bb : Vec Ideal S1x128 .f32) (r : Fin 512) (o : Fin 128) :
    k0_pay3 (F := Ideal) x0 a bb (ix2 r o) = (∑ c : Fin 128, x0 (ix2 c r) * a (ix2 o c)) + bb (ix2 0 o) := by
  unfold k0_pay3 k0_pay2
  simp only [addf_apply, shapeCast_self, dot_at, row128_apply]

/-- The second table's block: the contraction with the second half of the weights. -/
theorem pay4_at (x0 : Vec Ideal S128x512 .f32) (w2 : Vec Ideal S128x128 .f32) (r : Fin 512) (o : Fin 128) :
    k0_pay4 (F := Ideal) x0 w2 (ix2 r o) = ∑ c : Fin 128, x0 (ix2 c r) * w2 (ix2 o c) := by
  unfold k0_pay4 k0_pay2
  simp only [shapeCast_self, dot_at]

/-- The damping factors' block. -/
theorem pay1_at (dd : Vec Ideal S512x16 .f32) (aw : Vec Ideal S1x16 .f32) (ab : Vec Ideal S1x1 .f32) (r : Fin 512) (k : Fin 16) :
    k0_pay1 (F := Ideal) (k0_pay5 dd aw ab) (Scalar.ofBits .f32 0x40000000#32) (ix2 r k)
      = Cert.Spec.f2 * Ideal.logistic ((Cert.Spec.f0 - dd (ix2 r k))
          * (Ideal.tanh ((∑ k' : Fin 16, dd (ix2 r k') * aw (ix2 0 k')) + ab (ix2 0 0)) + Cert.Spec.f1)) := by
  unfold k0_pay1 k0_pay5
  simp only [mulf_apply, addf_apply, subf_apply, broadcast_apply, logistic_apply, tanh_apply, shapeCast_self, col16_apply, column_apply,
    entry_apply]
  have hs : multiReduction (F := Ideal) .add [1] S512 (mulf dd (broadcastTo S512x16 aw broadcasts_S1x16_S512x16)) 0x00000000#32
      reduces_S512x16_S512 (.inl rfl) rfl (ix1 r) = ∑ k' : Fin 16, dd (ix2 r k') * aw (ix2 0 k') := by
    refine (lane_sum _ r).trans (Finset.sum_congr rfl fun k' _ => ?_)
    rw [mulf_apply, row16_apply]
  exact congrArg (fun S : EReal => Cert.Spec.f2 * Ideal.logistic ((Cert.Spec.f0 - dd (ix2 r k))
    * (Ideal.tanh (S + ab (ix2 0 0)) + Cert.Spec.f1))) hs

/-! ## Against the specification -/

section Spec
variable (x : FVec Ideal Cert.Spec.SX .f32) (dis : FVec Ideal Cert.Spec.SD .f32) (W : FVec Ideal Cert.Spec.SW .f32)
  (b : FVec Ideal Cert.Spec.SB .f32) (aw : FVec Ideal Cert.Spec.SA .f32) (ab' : FVec Ideal Cert.Spec.SO .f32)

/-- With the operands the host prepares, the first table's block at row r is the specification's y1 at node n. -/
theorem pay3_spec (x0 : Vec Ideal S128x512 .f32) (a : Vec Ideal S128x128 .f32) (bb : Vec Ideal S1x128 .f32) (r : Fin 512) (o : Fin 128) (n : Nat)
    (hx : ∀ c : Fin 128, x0 (ix2 c r) = Cert.Spec.xp x c n) (ha : ∀ c : Fin 128, a (ix2 o c) = Cert.Spec.wa W o c)
    (hb : bb (ix2 0 o) = b (ix1 o)) :
    k0_pay3 (F := Ideal) x0 a bb (ix2 r o) = Cert.Spec.y1 x W b n o := by
  rw [pay3_at]; unfold Cert.Spec.y1; simp only [hx, ha, hb]

/-- The second table's block at row r is the specification's y2 at node n. -/
theorem pay4_spec (x0 : Vec Ideal S128x512 .f32) (w2 : Vec Ideal S128x128 .f32) (r : Fin 512) (o : Fin 128) (n : Nat)
    (hx : ∀ c : Fin 128, x0 (ix2 c r) = Cert.Spec.xp x c n) (hw : ∀ c : Fin 128, w2 (ix2 o c) = Cert.Spec.wb W o c) :
    k0_pay4 (F := Ideal) x0 w2 (ix2 r o) = Cert.Spec.y2 x W n o := by
  rw [pay4_at]; unfold Cert.Spec.y2; simp only [hx, hw]

/-- The damping factors' block at (r, k) is the specification's supp at node n, edge k. -/
theorem pay1_spec (dd : Vec Ideal S512x16 .f32) (ab : Vec Ideal S1x1 .f32) (r : Fin 512) (k : Fin 16) (n : Nat)
    (hd : ∀ k' : Fin 16, dd (ix2 r k') = Cert.Spec.dp dis n k') (hab : ab (ix2 0 0) = ab' (ix1 0)) :
    k0_pay1 (F := Ideal) (k0_pay5 dd aw ab) (Scalar.ofBits .f32 0x40000000#32) (ix2 r k) = Cert.Spec.supp dis aw ab' n k := by
  rw [pay1_at]; unfold Cert.Spec.supp Cert.Spec.scal; simp only [hd, hab]

end Spec

end Cert.Proof.KIval

end
-- ==== Proof.RegionFinalValI.lean ====
/-
  What the kernel region's three result arrays hold after the region (at the ideal instance).

  The grid has 20 points; point t handles nodes 512·t … 512·t + 511.  Each result's window is written back at every point, and its
  block at point t is rows 512·t … 512·t + 511 of the array, so the twenty blocks tile the 10240 rows.  What point t writes back is
  the body's payload of the input blocks it loaded; read at row r of the block, the inputs are the host-prepared operands at node
  512·t + r, so the payloads are the specification's y1, y2 and supp at that node.  Hence each result array ends at the
  specification's table, row by row.
-/
import proofs.«205997_g24756191494465_cont_8to1_1595_42_alg».proof.Proof.RegionValI
import proofs.«205997_g24756191494465_cont_8to1_1595_42_alg».proof.Proof.HostValI
import proofs.«205997_g24756191494465_cont_8to1_1595_42_alg».proof.Proof.TcPayI
import Idealize.ShloMosaic.Lib.Pipeline.Value

noncomputable section

namespace Cert.Proof.KIval

open Cert.KernelIdeal Cert.KernelIdeal.Gen
open Cert.Proof.KI
open Idealize.ShloMosaic Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable (m : (ℓ : Loc nD τ sig) → Buf (Elt Ideal) ℓ)

namespace RegionFinal

/-! ## The printed index maps, decided once over the grid -/

theorem N20 : (cfgV).N = 20 := N_0

theorem idx_0 : ∀ t : Fin (cfgV).N, win0_0.index t 0 = 0 ∧ win0_0.index t 1 = t.val :=
  (by decide +kernel : ∀ t : Fin grid0.N, win0_0.index t 0 = 0 ∧ win0_0.index t 1 = t.val)
theorem idx_1 : ∀ t : Fin (cfgV).N, win0_1.index t 0 = t.val ∧ win0_1.index t 1 = 0 :=
  (by decide +kernel : ∀ t : Fin grid0.N, win0_1.index t 0 = t.val ∧ win0_1.index t 1 = 0)
theorem idx_2 : ∀ t : Fin (cfgV).N, win0_2.index t 0 = 0 ∧ win0_2.index t 1 = 0 :=
  (by decide +kernel : ∀ t : Fin grid0.N, win0_2.index t 0 = 0 ∧ win0_2.index t 1 = 0)
theorem idx_3 : ∀ t : Fin (cfgV).N, win0_3.index t 0 = 0 ∧ win0_3.index t 1 = 0 :=
  (by decide +kernel : ∀ t : Fin grid0.N, win0_3.index t 0 = 0 ∧ win0_3.index t 1 = 0)
theorem idx_4 : ∀ t : Fin (cfgV).N, win0_4.index t 0 = 0 ∧ win0_4.index t 1 = 0 :=
  (by decide +kernel : ∀ t : Fin grid0.N, win0_4.index t 0 = 0 ∧ win0_4.index t 1 = 0)
theorem idx_5 : ∀ t : Fin (cfgV).N, win0_5.index t 0 = 0 ∧ win0_5.index t 1 = 0 :=
  (by decide +kernel : ∀ t : Fin grid0.N, win0_5.index t 0 = 0 ∧ win0_5.index t 1 = 0)
theorem idx_6 : ∀ t : Fin (cfgV).N, win0_6.index t 0 = 0 ∧ win0_6.index t 1 = 0 :=
  (by decide +kernel : ∀ t : Fin grid0.N, win0_6.index t 0 = 0 ∧ win0_6.index t 1 = 0)
theorem idx_7 : ∀ t : Fin (cfgV).N, win0_7.index t 0 = t.val ∧ win0_7.index t 1 = 0 :=
  (by decide +kernel : ∀ t : Fin grid0.N, win0_7.index t 0 = t.val ∧ win0_7.index t 1 = 0)
theorem idx_8 : ∀ t : Fin (cfgV).N, win0_8.index t 0 = t.val ∧ win0_8.index t 1 = 0 :=
  (by decide +kernel : ∀ t : Fin grid0.N, win0_8.index t 0 = t.val ∧ win0_8.index t 1 = 0)
theorem idx_9 : ∀ t : Fin (cfgV).N, win0_9.index t 0 = t.val ∧ win0_9.index t 1 = 0 :=
  (by decide +kernel : ∀ t : Fin grid0.N, win0_9.index t 0 = t.val ∧ win0_9.index t 1 = 0)

/-- Point t's 512 nodes lie inside the padded node axis. -/
theorem node_lt (t : Fin (cfgV).N) (r : Fin 512) : 512 * t.val + r.val < 10240 := by
  have ht : t.val < 20 := N20 ▸ t.isLt
  have hr := r.isLt
  omega

/-! ## The input blocks at an index: a block's coordinate is its block index times the block size plus the coordinate inside -/

/-- The feature block of point t: channel c of node 512·t + r. -/
theorem iblk0_at (d : Dev nD) (t : Fin (cfgV).N) (c : Fin 128) (r : Fin 512) :
    (iblk m d 0 t : Vec Ideal S128x512 .f32) (ix2 (n0 := 128) (n1 := 512) c r) = Cert.Spec.xp (xIn m d) c (512 * t.val + r.val) := by
  have e : (((cfgV).win 0).blk t).view.emb (ix2 (n0 := 128) (n1 := 512) c r) = ix2 (n0 := 128) (n1 := 10240) c ⟨512 * t.val + r.val, node_lt t r⟩ := by
    funext a; apply Fin.ext
    match a with
    | ⟨0, _⟩ => show win0_0.index t 0 * 128 + 1 * c.val = c.val; rw [(idx_0 t).1]; omega
    | ⟨1, _⟩ => show win0_0.index t 1 * 512 + 1 * r.val = 512 * t.val + r.val; rw [(idx_0 t).2]; omega
  show (W1 m d (Proc.devRef .tc main_v1) : FVec Ideal S128x10240 .f32) ((((cfgV).win 0).blk t).view.emb (ix2 (n0 := 128) (n1 := 512) c r)) = _
  rw [e]
  exact hv1 m d c ⟨512 * t.val + r.val, node_lt t r⟩

/-- The distance block of point t: edge k of node 512·t + r. -/
theorem iblk1_at (d : Dev nD) (t : Fin (cfgV).N) (r : Fin 512) (k : Fin 16) :
    (iblk m d 1 t : Vec Ideal S512x16 .f32) (ix2 (n0 := 512) (n1 := 16) r k) = Cert.Spec.dp (disIn m d) (512 * t.val + r.val) k := by
  have e : (((cfgV).win 1).blk t).view.emb (ix2 (n0 := 512) (n1 := 16) r k) = ix2 (n0 := 10240) (n1 := 16) ⟨512 * t.val + r.val, node_lt t r⟩ k := by
    funext a; apply Fin.ext
    match a with
    | ⟨0, _⟩ => show win0_1.index t 0 * 512 + 1 * r.val = 512 * t.val + r.val; rw [(idx_1 t).1]; omega
    | ⟨1, _⟩ => show win0_1.index t 1 * 16 + 1 * k.val = k.val; rw [(idx_1 t).2]; omega
  show (W1 m d (Proc.devRef .tc main_v3) : FVec Ideal S10240x16 .f32) ((((cfgV).win 1).blk t).view.emb (ix2 (n0 := 512) (n1 := 16) r k)) = _
  rw [e]
  exact hv3 m d ⟨512 * t.val + r.val, node_lt t r⟩ k

/-- The difference weights, whole at every point. -/
theorem iblk2_at (d : Dev nD) (t : Fin (cfgV).N) (o c : Fin 128) :
    (iblk m d 2 t : Vec Ideal S128x128 .f32) (ix2 (n0 := 128) (n1 := 128) o c) = Cert.Spec.wa (wIn m d) o c := by
  have e : (((cfgV).win 2).blk t).view.emb (ix2 (n0 := 128) (n1 := 128) o c) = ix2 (n0 := 128) (n1 := 128) o c := by
    funext a; apply Fin.ext
    match a with
    | ⟨0, _⟩ => show win0_2.index t 0 * 128 + 1 * o.val = o.val; rw [(idx_2 t).1]; omega
    | ⟨1, _⟩ => show win0_2.index t 1 * 128 + 1 * c.val = c.val; rw [(idx_2 t).2]; omega
  show (W1 m d (Proc.devRef .tc main_v6) : FVec Ideal S128x128 .f32) ((((cfgV).win 2).blk t).view.emb (ix2 (n0 := 128) (n1 := 128) o c)) = _
  rw [e]
  exact hv6 m d o c

/-- The right weights, whole at every point. -/
theorem iblk3_at (d : Dev nD) (t : Fin (cfgV).N) (o c : Fin 128) :
    (iblk m d 3 t : Vec Ideal S128x128 .f32) (ix2 (n0 := 128) (n1 := 128) o c) = Cert.Spec.wb (wIn m d) o c := by
  have e : (((cfgV).win 3).blk t).view.emb (ix2 (n0 := 128) (n1 := 128) o c) = ix2 (n0 := 128) (n1 := 128) o c := by
    funext a; apply Fin.ext
    match a with
    | ⟨0, _⟩ => show win0_3.index t 0 * 128 + 1 * o.val = o.val; rw [(idx_3 t).1]; omega
    | ⟨1, _⟩ => show win0_3.index t 1 * 128 + 1 * c.val = c.val; rw [(idx_3 t).2]; omega
  show (W1 m d (Proc.devRef .tc main_v7) : FVec Ideal S128x128 .f32) ((((cfgV).win 3).blk t).view.emb (ix2 (n0 := 128) (n1 := 128) o c)) = _
  rw [e]
  exact hv7 m d o c

/-- The bias row, whole at every point. -/
theorem iblk4_at (d : Dev nD) (t : Fin (cfgV).N) (o : Fin 128) :
    (iblk m d 4 t : Vec Ideal S1x128 .f32) (ix2 (n0 := 1) (n1 := 128) 0 o) = bIn m d (ix1 o) := by
  have e : (((cfgV).win 4).blk t).view.emb (ix2 (n0 := 1) (n1 := 128) 0 o) = ix2 (n0 := 1) (n1 := 128) 0 o := by
    funext a; apply Fin.ext
    match a with
    | ⟨0, _⟩ => show win0_4.index t 0 * 1 + 1 * 0 = 0; rw [(idx_4 t).1]
    | ⟨1, _⟩ => show win0_4.index t 1 * 128 + 1 * o.val = o.val; rw [(idx_4 t).2]; omega
  show (W1 m d (Proc.devRef .tc main_v8) : FVec Ideal S1x128 .f32) ((((cfgV).win 4).blk t).view.emb (ix2 (n0 := 1) (n1 := 128) 0 o)) = _
  rw [e]
  exact hv8 m d o

/-- The attention weights, whole at every point: the argument itself. -/
theorem iblk5_eq (d : Dev nD) (t : Fin (cfgV).N) : (iblk m d 5 t : Vec Ideal S1x16 .f32) = awIn m d := by
  funext j
  have e : (((cfgV).win 5).blk t).view.emb j = j := by
    funext a; apply Fin.ext
    match a with
    | ⟨0, _⟩ => show win0_5.index t 0 * 1 + 1 * (j 0).val = (j 0).val; rw [(idx_5 t).1]; omega
    | ⟨1, _⟩ => show win0_5.index t 1 * 16 + 1 * (j 1).val = (j 1).val; rw [(idx_5 t).2]; omega
  show (W1 m d (Proc.devRef .tc main_arg6) : FVec Ideal S1x16 .f32) ((((cfgV).win 5).blk t).view.emb j) = _
  rw [e, hv5]

/-- The attention offset, whole at every point. -/
theorem iblk6_at (d : Dev nD) (t : Fin (cfgV).N) :
    (iblk m d 6 t : Vec Ideal S1x1 .f32) (ix2 (n0 := 1) (n1 := 1) 0 0) = abIn m d (ix1 0) := by
  have e : (((cfgV).win 6).blk t).view.emb (ix2 (n0 := 1) (n1 := 1) 0 0) = ix2 (n0 := 1) (n1 := 1) 0 0 := by
    funext a; apply Fin.ext
    match a with
    | ⟨0, _⟩ => show win0_6.index t 0 * 1 + 1 * 0 = 0; rw [(idx_6 t).1]
    | ⟨1, _⟩ => show win0_6.index t 1 * 1 + 1 * 0 = 0; rw [(idx_6 t).2]
  show (W1 m d (Proc.devRef .tc main_v9) : FVec Ideal S1x1 .f32) ((((cfgV).win 6).blk t).view.emb (ix2 (n0 := 1) (n1 := 1) 0 0)) = _
  rw [e]
  exact hv9 m d

/-! ## The first node table -/

/-- Row r of point t's block of a result is row 512·t + r of the array. -/
theorem emb7 (t : Fin (cfgV).N) (r : Fin 512) (o : Fin 128) :
    (((cfgV).win 7).blk t).view.emb (ix2 (n0 := 512) (n1 := 128) r o) = ix2 (n0 := 10240) (n1 := 128) ⟨512 * t.val + r.val, node_lt t r⟩ o := by
  funext a; apply Fin.ext
  match a with
  | ⟨0, _⟩ => show win0_7.index t 0 * 512 + 1 * r.val = 512 * t.val + r.val; rw [(idx_7 t).1]; omega
  | ⟨1, _⟩ => show win0_7.index t 1 * 128 + 1 * o.val = o.val; rw [(idx_7 t).2]; omega

/-- What point t writes back of the first table is block t of the specification's table. -/
theorem flushed7 (d : Dev nD) (t : Fin (cfgV).N) :
    (datV m d).flushed 7 t = (((cfgV).win 7).blk t).view.read (Elt Ideal) (y1A m d) := by
  show ((cfgV).win 7).cut ((cfgV).grid.coords t) ((datV m d).after 7 t) = _
  rw [after_7]
  funext j
  obtain ⟨r, o, rfl⟩ : ∃ (r : Fin 512) (o : Fin 128), j = ix2 (n0 := 512) (n1 := 128) r o := ⟨j 0, j 1, eq_ix2 (n0 := 512) (n1 := 128) j⟩
  show k0_pay3 (F := Ideal) (iblk m d 0 t) (iblk m d 2 t) (iblk m d 4 t) (ix2 (n0 := 512) (n1 := 128) r o)
    = y1A m d ((((cfgV).win 7).blk t).view.emb (ix2 (n0 := 512) (n1 := 128) r o))
  rw [emb7 t r o]
  exact pay3_spec (xIn m d) (wIn m d) (bIn m d) (iblk m d 0 t) (iblk m d 2 t) (iblk m d 4 t) r o (512 * t.val + r.val)
    (fun c => iblk0_at m d t c r) (fun c => iblk2_at m d t o c) (iblk4_at m d t o)

/-- An index of the table is in point t's block iff each coordinate is in the block's range on its axis. -/
theorem mem_blk7 (t : Fin (cfgV).N) (i : S10240x128.Idx) :
    i ∈ (((cfgV).win 7).blk t).view.set ↔ ∀ a : Fin 2, win0_7.index t a * S512x128.size a ≤ (i a).val ∧ (i a).val < win0_7.index t a * S512x128.size a + S512x128.size a := by
  show i ∈ ((View.whole main_v10_0).slice (win0_7.rect t)).set ↔ _
  rw [View.set_slice_whole, Rect.mem_set_unit]
  exact Iff.rfl

/-- The point whose block holds row n. -/
def pointOf (n : Fin 10240) : Fin (cfgV).N := ⟨n.val / 512, by rw [N20]; have := n.isLt; omega⟩

/-- THE FIRST NODE TABLE after the region: the specification's, every row written by the point that handles it. -/
theorem final7 (d : Dev nD) : (datV m d).arrAt 7 (cfgV).N = y1A m d :=
  (datV m d).arrAt_eq_of_cover 7 (y1A m d) (fun t _ => flushed7 m d t) fun i =>
    ⟨pointOf (i 0), flush0_7 _, by
      rw [mem_blk7]
      intro a
      have h0 : (i 0).val < 10240 := (i 0).isLt
      have h1 : (i 1).val < 128 := (i 1).isLt
      match a with
      | ⟨0, _⟩ =>
        show win0_7.index (pointOf (i 0)) 0 * 512 ≤ (i 0).val ∧ (i 0).val < win0_7.index (pointOf (i 0)) 0 * 512 + 512
        rw [(idx_7 (pointOf (i 0))).1]
        show (i 0).val / 512 * 512 ≤ (i 0).val ∧ (i 0).val < (i 0).val / 512 * 512 + 512
        omega
      | ⟨1, _⟩ =>
        show win0_7.index (pointOf (i 0)) 1 * 128 ≤ (i 1).val ∧ (i 1).val < win0_7.index (pointOf (i 0)) 1 * 128 + 128
        rw [(idx_7 (pointOf (i 0))).2]
        omega⟩

/-! ## The second node table -/

theorem emb8 (t : Fin (cfgV).N) (r : Fin 512) (o : Fin 128) :
    (((cfgV).win 8).blk t).view.emb (ix2 (n0 := 512) (n1 := 128) r o) = ix2 (n0 := 10240) (n1 := 128) ⟨512 * t.val + r.val, node_lt t r⟩ o := by
  funext a; apply Fin.ext
  match a with
  | ⟨0, _⟩ => show win0_8.index t 0 * 512 + 1 * r.val = 512 * t.val + r.val; rw [(idx_8 t).1]; omega
  | ⟨1, _⟩ => show win0_8.index t 1 * 128 + 1 * o.val = o.val; rw [(idx_8 t).2]; omega

/-- What point t writes back of the second table is block t of the specification's table. -/
theorem flushed8 (d : Dev nD) (t : Fin (cfgV).N) :
    (datV m d).flushed 8 t = (((cfgV).win 8).blk t).view.read (Elt Ideal) (y2A m d) := by
  show ((cfgV).win 8).cut ((cfgV).grid.coords t) ((datV m d).after 8 t) = _
  rw [after_8]
  funext j
  obtain ⟨r, o, rfl⟩ : ∃ (r : Fin 512) (o : Fin 128), j = ix2 (n0 := 512) (n1 := 128) r o := ⟨j 0, j 1, eq_ix2 (n0 := 512) (n1 := 128) j⟩
  show k0_pay4 (F := Ideal) (iblk m d 0 t) (iblk m d 3 t) (ix2 (n0 := 512) (n1 := 128) r o)
    = y2A m d ((((cfgV).win 8).blk t).view.emb (ix2 (n0 := 512) (n1 := 128) r o))
  rw [emb8 t r o]
  exact pay4_spec (xIn m d) (wIn m d) (iblk m d 0 t) (iblk m d 3 t) r o (512 * t.val + r.val)
    (fun c => iblk0_at m d t c r) (fun c => iblk3_at m d t o c)

theorem mem_blk8 (t : Fin (cfgV).N) (i : S10240x128.Idx) :
    i ∈ (((cfgV).win 8).blk t).view.set ↔ ∀ a : Fin 2, win0_8.index t a * S512x128.size a ≤ (i a).val ∧ (i a).val < win0_8.index t a * S512x128.size a + S512x128.size a := by
  show i ∈ ((View.whole main_v10_1).slice (win0_8.rect t)).set ↔ _
  rw [View.set_slice_whole, Rect.mem_set_unit]
  exact Iff.rfl

/-- THE SECOND NODE TABLE after the region: the specification's. -/
theorem final8 (d : Dev nD) : (datV m d).arrAt 8 (cfgV).N = y2A m d :=
  (datV m d).arrAt_eq_of_cover 8 (y2A m d) (fun t _ => flushed8 m d t) fun i =>
    ⟨pointOf (i 0), flush0_8 _, by
      rw [mem_blk8]
      intro a
      have h0 : (i 0).val < 10240 := (i 0).isLt
      have h1 : (i 1).val < 128 := (i 1).isLt
      match a with
      | ⟨0, _⟩ =>
        show win0_8.index (pointOf (i 0)) 0 * 512 ≤ (i 0).val ∧ (i 0).val < win0_8.index (pointOf (i 0)) 0 * 512 + 512
        rw [(idx_8 (pointOf (i 0))).1]
        show (i 0).val / 512 * 512 ≤ (i 0).val ∧ (i 0).val < (i 0).val / 512 * 512 + 512
        omega
      | ⟨1, _⟩ =>
        show win0_8.index (pointOf (i 0)) 1 * 128 ≤ (i 1).val ∧ (i 1).val < win0_8.index (pointOf (i 0)) 1 * 128 + 128
        rw [(idx_8 (pointOf (i 0))).2]
        omega⟩

/-! ## The damping factors -/

theorem emb9 (t : Fin (cfgV).N) (r : Fin 512) (k : Fin 16) :
    (((cfgV).win 9).blk t).view.emb (ix2 (n0 := 512) (n1 := 16) r k) = ix2 (n0 := 10240) (n1 := 16) ⟨512 * t.val + r.val, node_lt t r⟩ k := by
  funext a; apply Fin.ext
  match a with
  | ⟨0, _⟩ => show win0_9.index t 0 * 512 + 1 * r.val = 512 * t.val + r.val; rw [(idx_9 t).1]; omega
  | ⟨1, _⟩ => show win0_9.index t 1 * 16 + 1 * k.val = k.val; rw [(idx_9 t).2]; omega

/-- What point t writes back of the factors is block t of the specification's factors. -/
theorem flushed9 (d : Dev nD) (t : Fin (cfgV).N) :
    (datV m d).flushed 9 t = (((cfgV).win 9).blk t).view.read (Elt Ideal) (suppT m d) := by
  show ((cfgV).win 9).cut ((cfgV).grid.coords t) ((datV m d).after 9 t) = _
  rw [after_9]
  funext j
  obtain ⟨r, k, rfl⟩ : ∃ (r : Fin 512) (k : Fin 16), j = ix2 (n0 := 512) (n1 := 16) r k := ⟨j 0, j 1, eq_ix2 (n0 := 512) (n1 := 16) j⟩
  show k0_pay1 (F := Ideal) (k0_pay5 (iblk m d 1 t) (iblk m d 5 t) (iblk m d 6 t)) (Scalar.ofBits .f32 0x40000000#32) (ix2 (n0 := 512) (n1 := 16) r k)
    = suppT m d ((((cfgV).win 9).blk t).view.emb (ix2 (n0 := 512) (n1 := 16) r k))
  rw [emb9 t r k]
  refine (congrArg (fun X : Vec Ideal S1x16 .f32 => k0_pay1 (F := Ideal) (k0_pay5 (iblk m d 1 t) X (iblk m d 6 t)) (Scalar.ofBits .f32 0x40000000#32)
    (ix2 (n0 := 512) (n1 := 16) r k)) (iblk5_eq m d t)).trans ?_
  exact pay1_spec (disIn m d) (awIn m d) (abIn m d) (iblk m d 1 t) (iblk m d 6 t) r k (512 * t.val + r.val)
    (fun k' => iblk1_at m d t r k') (iblk6_at m d t)

theorem mem_blk9 (t : Fin (cfgV).N) (i : S10240x16.Idx) :
    i ∈ (((cfgV).win 9).blk t).view.set ↔ ∀ a : Fin 2, win0_9.index t a * S512x16.size a ≤ (i a).val ∧ (i a).val < win0_9.index t a * S512x16.size a + S512x16.size a := by
  show i ∈ ((View.whole main_v10_2).slice (win0_9.rect t)).set ↔ _
  rw [View.set_slice_whole, Rect.mem_set_unit]
  exact Iff.rfl

/-- THE DAMPING FACTORS after the region: the specification's. -/
theorem final9 (d : Dev nD) : (datV m d).arrAt 9 (cfgV).N = suppT m d :=
  (datV m d).arrAt_eq_of_cover 9 (suppT m d) (fun t _ => flushed9 m d t) fun i =>
    ⟨pointOf (i 0), flush0_9 _, by
      rw [mem_blk9]
      intro a
      have h0 : (i 0).val < 10240 := (i 0).isLt
      have h1 : (i 1).val < 16 := (i 1).isLt
      match a with
      | ⟨0, _⟩ =>
        show win0_9.index (pointOf (i 0)) 0 * 512 ≤ (i 0).val ∧ (i 0).val < win0_9.index (pointOf (i 0)) 0 * 512 + 512
        rw [(idx_9 (pointOf (i 0))).1]
        show (i 0).val / 512 * 512 ≤ (i 0).val ∧ (i 0).val < (i 0).val / 512 * 512 + 512
        omega
      | ⟨1, _⟩ =>
        show win0_9.index (pointOf (i 0)) 1 * 16 ≤ (i 1).val ∧ (i 1).val < win0_9.index (pointOf (i 0)) 1 * 16 + 16
        rw [(idx_9 (pointOf (i 0))).2]
        omega⟩

end RegionFinal

/-- THE FIRST NODE TABLE after the region is the specification's. -/
theorem final7 (d : Dev nD) : (datV m d).arrAt 7 (cfgV).N = y1A m d := RegionFinal.final7 m d
/-- THE SECOND NODE TABLE after the region is the specification's. -/
theorem final8 (d : Dev nD) : (datV m d).arrAt 8 (cfgV).N = y2A m d := RegionFinal.final8 m d
/-- THE DAMPING FACTORS after the region are the specification's. -/
theorem final9 (d : Dev nD) : (datV m d).arrAt 9 (cfgV).N = suppT m d := RegionFinal.final9 m d

end Cert.Proof.KIval

end
-- ==== Proof.RegionValMainI.lean ====
/-
  The kernel region with values, closed: the three result arrays end at the specification's two node tables and damping factors.
-/
import proofs.«205997_g24756191494465_cont_8to1_1595_42_alg».proof.Proof.RegionVal2I
import proofs.«205997_g24756191494465_cont_8to1_1595_42_alg».proof.Proof.RegionFinalValI
import proofs.«205997_g24756191494465_cont_8to1_1595_42_alg».proof.Proof.ValStretchI
import proofs.«205997_g24756191494465_cont_8to1_1595_42_alg».proof.Proof.MainValI

noncomputable section

namespace Cert.Proof.KIval

open Cert.KernelIdeal Cert.KernelIdeal.Gen
open Cert.Proof.KI
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem

local notation "𝕄" => MT nD τ sig (HIx 1) (Elt Ideal) ℕ UU ℕ

variable (m : (ℓ : Loc nD τ sig) → Buf (Elt Ideal) ℓ)

/-- THE KERNEL REGION WITH VALUES. -/
theorem regionVal : RegionVal m := regionVal_of m (final7 m) (final8 m) (final9 m)

/-- @main on the TensorCore with values, every statement about contents proved. -/
theorem hmain_valC (ρ : Dev nD → PrngReg) (κ : GSem nD τ sig → ℕ) (d : Dev nD) :
    iprop((K (F := Ideal)).ctx EH (Pv m) κ ∗ (K (F := Ideal)).tcSt EH d 0 ∗ (K (F := Ideal)).tcRes m ρ d ∗ G (F := Ideal) d)
      ⊢ wp frame (wpE ((K (F := Ideal)).defs (D (F := Ideal))) 𝒱 (T d) none) Set.univ (main d)
          fun _ => iprop((K (F := Ideal)).tcSt EH d 1 ∗ FINv m d) :=
  hmain_val m (regionVal m) (listsVal m) (resVal m) ρ κ d

end Cert.Proof.KIval

end
-- ==== Proof.RowsValI.lean ====
/-
  Which rows of a tile's output scratch are done after an outer trip: trip k's two groups are rows 16·k … 16·k+7 (slot 0) and
  16·k+8 … 16·k+15 (slot 1); each compute loop leaves its group's rows at the nodes' values and every other row as it found it.
-/
import proofs.«205997_g24756191494465_cont_8to1_1595_42_alg».proof.Proof.ValTileDefsI

noncomputable section

namespace Cert.Proof.KIval

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.KI Idealize.ShloMosaic.ValueIdx

local notation "𝕄" => MT nD τ sig (HIx 1) (Elt Ideal) ℕ Cert.Proof.KI.UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

/-- A row of the output scratch, from the fetched lists and factors and the two tables. -/
def outLocal (fy1 fy2 : FVec Ideal ST .f32) (I0 I1 : Vec Ideal S5120 .i32) (G2 : FVec Ideal S5120 .f32) (r : Fin 320) (o : Fin 128) : EReal :=
  nodeVal ⟨(r.val / 8) % 2, Nat.mod_lt _ (by decide)⟩ ⟨(r.val / 8) % 40, Nat.mod_lt _ (by decide)⟩ (gR fy1 I0 (r.val / 8)) (gR fy2 I1 (r.val / 8)) G2
    ⟨r.val % 8, Nat.mod_lt _ (by decide)⟩ o

theorem rows_step (k : Fin k1_t1_loop.trips) (hk20 : k.val < 20)
    (fy1 fy2 : FVec Ideal ST .f32) (I0 I1 : Vec Ideal S5120 .i32) (G2 : FVec Ideal S5120 .f32) (G5 G5a G5b : FVec Ideal S320x128 .f32)
    (hF5 : ∀ (r : Fin 320) (o : Fin 128), r.val < 16 * k.val → G5 (ix2 r o) = outLocal fy1 fy2 I0 I1 G2 r o)
    (hd0 : ∀ (n' : Fin 8), n'.val < 8 → ∀ o : Fin 128, G5a (ix2 (rowF k 0 n') o) = nodeVal ⟨0, by decide⟩ (giF k 0) (gR fy1 I0 (2 * k.val)) (gR fy2 I1 (2 * k.val)) G2 n' o)
    (hk0 : ∀ (r : Fin 320) (o : Fin 128), (r.val < 16 * k.val ∨ 16 * k.val + 8 ≤ r.val) → G5a (ix2 r o) = G5 (ix2 r o))
    (hd1 : ∀ (n' : Fin 8), n'.val < 8 → ∀ o : Fin 128, G5b (ix2 (rowF k 1 n') o) = nodeVal ⟨1, by decide⟩ (giF k 1) (gR fy1 I0 (2 * k.val + 1)) (gR fy2 I1 (2 * k.val + 1)) G2 n' o)
    (hk1 : ∀ (r : Fin 320) (o : Fin 128), (r.val < 16 * k.val + 8 ∨ 16 * k.val + 8 + 8 ≤ r.val) → G5b (ix2 r o) = G5a (ix2 r o))
    (r : Fin 320) (o : Fin 128) (hr : r.val < 16 * (k.val + 1)) : G5b (ix2 r o) = outLocal fy1 fy2 I0 I1 G2 r o := by
  have hr320 := r.isLt
  by_cases h1 : r.val < 16 * k.val
  · rw [hk1 r o (Or.inl (by omega)), hk0 r o (Or.inl h1)]; exact hF5 r o h1
  by_cases h2 : r.val < 16 * k.val + 8
  · have e : r = rowF k 0 ⟨r.val - 16 * k.val, by omega⟩ := Fin.ext (by simp only [rowF] <;> omega)
    rw [hk1 r o (Or.inl h2)]
    conv_lhs => rw [e]
    rw [hd0 _ (by simp <;> omega) o]
    unfold outLocal
    have q8 : r.val / 8 = 2 * k.val := by omega
    have m8 : r.val % 8 = r.val - 16 * k.val := by omega
    congr 1
    · exact Fin.ext (by simp only [q8] <;> omega)
    · exact Fin.ext (by simp only [giF, q8] <;> omega)
    · rw [q8]
    · rw [q8]
    · exact Fin.ext m8.symm
  · have e : r = rowF k 1 ⟨r.val - (16 * k.val + 8), by omega⟩ := Fin.ext (by simp only [rowF] <;> omega)
    conv_lhs => rw [e]
    rw [hd1 _ (by simp <;> omega) o]
    unfold outLocal
    have q8 : r.val / 8 = 2 * k.val + 1 := by omega
    have m8 : r.val % 8 = r.val - (16 * k.val + 8) := by omega
    congr 1
    · exact Fin.ext (by simp only [q8] <;> omega)
    · exact Fin.ext (by simp only [giF, q8] <;> omega)
    · rw [q8]
    · rw [q8]
    · exact Fin.ext m8.symm

end Cert.Proof.KIval

end
-- ==== Proof.TripValI.lean ====
/-
  One trip of a tile's outer loop, with values: beside the state at the head of trip k it is known that slot 0's windows hold group 2k's
  rows once landed and that the output scratch's rows below 16·k are done; the trip leaves the same for k + 1 (at the last trip: every
  row done, nothing in flight).
-/
import proofs.«205997_g24756191494465_cont_8to1_1595_42_alg».proof.Proof.ValTileStmtI
import proofs.«205997_g24756191494465_cont_8to1_1595_42_alg».proof.Proof.RowsValI

noncomputable section

namespace Cert.Proof.KIval

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.KI Idealize.ShloMosaic.ValueIdx

local notation "𝕄" => MT nD τ sig (HIx 1) (Elt Ideal) ℕ Cert.Proof.KI.UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

/-- What is known at the head of trip `k`: each of slot 0's four windows, once its copy has landed, holds group 2k's rows; the output
    scratch's rows below 16·k are done. -/
def FactsV (d : Dev nD) (L : grid1.Coords) (k : Nat) (fy1 fy2 : FVec Ideal ST .f32) (I0 I1 : Vec Ideal S5120 .i32) (G2 : FVec Ideal S5120 .f32)
    (Ga Gb Gc Gd : FVec Ideal S256x128 .f32) (G5 : FVec Ideal S320x128 .f32) : Prop :=
  (((((s3W).slice (Rect.unit (s := S256x128) ![0, 0] S64x128.size inb_S256x128_S64x128_0_0) (fun _ => rfl)).view.loc (tile d L) ↦[((s3W).slice (Rect.unit (s := S256x128) ![0, 0] S64x128.size inb_S256x128_S64x128_0_0) (fun _ => rfl)).view.set]{fullShare} Ga) : sProp 𝕄) ⊢ (((s3W).slice (Rect.unit (s := S256x128) ![0, 0] S64x128.size inb_S256x128_S64x128_0_0) (fun _ => rfl)).view.loc (tile d L) ↦[((s3W).slice (Rect.unit (s := S256x128) ![0, 0] S64x128.size inb_S256x128_S64x128_0_0) (fun _ => rfl)).view.set]{fullShare} (gR fy1 I0 (2 * k))))
  ∧ (((((s3W).slice (Rect.unit (s := S256x128) ![64, 0] S64x128.size inb_S256x128_S64x128_64_0) (fun _ => rfl)).view.loc (tile d L) ↦[((s3W).slice (Rect.unit (s := S256x128) ![64, 0] S64x128.size inb_S256x128_S64x128_64_0) (fun _ => rfl)).view.set]{fullShare} Gb) : sProp 𝕄) ⊢ (((s3W).slice (Rect.unit (s := S256x128) ![64, 0] S64x128.size inb_S256x128_S64x128_64_0) (fun _ => rfl)).view.loc (tile d L) ↦[((s3W).slice (Rect.unit (s := S256x128) ![64, 0] S64x128.size inb_S256x128_S64x128_64_0) (fun _ => rfl)).view.set]{fullShare} (gR fy1 I0 (2 * k))))
  ∧ (((((s4W).slice (Rect.unit (s := S256x128) ![0, 0] S64x128.size inb_S256x128_S64x128_0_0) (fun _ => rfl)).view.loc (tile d L) ↦[((s4W).slice (Rect.unit (s := S256x128) ![0, 0] S64x128.size inb_S256x128_S64x128_0_0) (fun _ => rfl)).view.set]{fullShare} Gc) : sProp 𝕄) ⊢ (((s4W).slice (Rect.unit (s := S256x128) ![0, 0] S64x128.size inb_S256x128_S64x128_0_0) (fun _ => rfl)).view.loc (tile d L) ↦[((s4W).slice (Rect.unit (s := S256x128) ![0, 0] S64x128.size inb_S256x128_S64x128_0_0) (fun _ => rfl)).view.set]{fullShare} (gR fy2 I1 (2 * k))))
  ∧ (((((s4W).slice (Rect.unit (s := S256x128) ![64, 0] S64x128.size inb_S256x128_S64x128_64_0) (fun _ => rfl)).view.loc (tile d L) ↦[((s4W).slice (Rect.unit (s := S256x128) ![64, 0] S64x128.size inb_S256x128_S64x128_64_0) (fun _ => rfl)).view.set]{fullShare} Gd) : sProp 𝕄) ⊢ (((s4W).slice (Rect.unit (s := S256x128) ![64, 0] S64x128.size inb_S256x128_S64x128_64_0) (fun _ => rfl)).view.loc (tile d L) ↦[((s4W).slice (Rect.unit (s := S256x128) ![64, 0] S64x128.size inb_S256x128_S64x128_64_0) (fun _ => rfl)).view.set]{fullShare} (gR fy2 I1 (2 * k))))
  ∧ (∀ (r : Fin 320) (o : Fin 128), r.val < 16 * k → G5 (ix2 r o) = outLocal fy1 fy2 I0 I1 G2 r o)

theorem gR_at (fy : FVec Ideal ST .f32) (I : Vec Ideal S5120 .i32) (gi : Nat) (i : S256x128.Idx) (a : Nat)
    (h : a % 5120 = (128 * gi + (i 0).val % 128) % 5120) :
    fy (ix2 (rowOf (I (ix1 ⟨a % 5120, Nat.mod_lt _ (by decide)⟩))) (i 1)) = gR fy I gi i := by
  unfold gR; simp only [h]

theorem t2_trips : k1_t2_loop.trips = 8 := by decide +kernel
theorem t3_trips : k1_t3_loop.trips = 8 := by decide +kernel

set_option maxHeartbeats 32000000 in
theorem tripV (hi0 : Inner0V) (hi1 : Inner1V) (hL3 : LandE3) (hL4 : LandE4)
    (d : Dev nD) (L : grid1.Coords) (q : PosShare TreeShare)
    (fy1 : Buf (Elt Ideal) ((y1W).view.loc (tile d L))) (fy2 : Buf (Elt Ideal) ((y2W).view.loc (tile d L)))
    (I0 : Buf (Elt Ideal) ((s0W).view.loc (tile d L))) (I1 : Buf (Elt Ideal) ((s1W).view.loc (tile d L))) (G2 : Buf (Elt Ideal) ((s2W).view.loc (tile d L)))
    (Ga : Buf (Elt Ideal) (((s3W).slice (Rect.unit (s := S256x128) ![0, 0] S64x128.size inb_S256x128_S64x128_0_0) (fun _ => rfl)).view.loc (tile d L))) (Gb : Buf (Elt Ideal) (((s3W).slice (Rect.unit (s := S256x128) ![64, 0] S64x128.size inb_S256x128_S64x128_64_0) (fun _ => rfl)).view.loc (tile d L))) (G3c : Buf (Elt Ideal) (((s3W).slice (Rect.unit (s := S256x128) ![128, 0] S64x128.size inb_S256x128_S64x128_128_0) (fun _ => rfl)).view.loc (tile d L))) (G3d : Buf (Elt Ideal) (((s3W).slice (Rect.unit (s := S256x128) ![192, 0] S64x128.size inb_S256x128_S64x128_192_0) (fun _ => rfl)).view.loc (tile d L)))
    (Gc : Buf (Elt Ideal) (((s4W).slice (Rect.unit (s := S256x128) ![0, 0] S64x128.size inb_S256x128_S64x128_0_0) (fun _ => rfl)).view.loc (tile d L))) (Gd : Buf (Elt Ideal) (((s4W).slice (Rect.unit (s := S256x128) ![64, 0] S64x128.size inb_S256x128_S64x128_64_0) (fun _ => rfl)).view.loc (tile d L))) (G4c : Buf (Elt Ideal) (((s4W).slice (Rect.unit (s := S256x128) ![128, 0] S64x128.size inb_S256x128_S64x128_128_0) (fun _ => rfl)).view.loc (tile d L))) (G4d : Buf (Elt Ideal) (((s4W).slice (Rect.unit (s := S256x128) ![192, 0] S64x128.size inb_S256x128_S64x128_192_0) (fun _ => rfl)).view.loc (tile d L)))
    (G5 : Buf (Elt Ideal) ((s5W).view.loc (tile d L)))
    (SIa SIb : Finset S5120.Idx) (SJa SJb : Finset S5120.Idx)
    (O : CellTallies nD τ sig (HIx 1)) (W : Waits sig (HIx 1)) (k : Fin k1_t1_loop.trips)
    (hI0 : ∀ j, (I0 j).toNat < 10240) (hI1 : ∀ j, (I1 j).toNat < 10240) (W₀ : Waits sig (HIx 1)) (hW' : ∀ p ∈ W, p ∈ W₀ ∨ p.2 = none)
    (hF : FactsV d L k.val fy1 fy2 I0 I1 G2 Ga Gb Gc Gd G5) :
    pend (F := Ideal) d L q fy1 fy2 I0 I1 G2 Ga Gb G3c G3d Gc Gd G4c G4d G5 SIa SIb SJa SJb O W
      ⊢ wp frame (wpE (defs₀ (F := Ideal)) 𝒱₀ (tile d L) none) Set.univ
          (k1_t1_body L y1W (Memref.isWhole_whole _) y2W (Memref.isWhole_whole _) iiW (Memref.isWhole_whole _) ijW (Memref.isWhole_whole _)
            spW (Memref.isWhole_whole _) ouW (Memref.isWhole_whole _) s0W (Memref.isWhole_whole _) s1W (Memref.isWhole_whole _) s2W (Memref.isWhole_whole _)
            s3W (Memref.isWhole_whole _) s4W (Memref.isWhole_whole _) s5W (Memref.isWhole_whole _)
            cc1_scratch6 cc1_scratch7 cc1_scratch8 cc1_scratch9 cc1_scratch10 cc1_scratch11 cc1_scratch12 cc1_scratch13 cc1_scoped0 cc1_scoped1 cc1_scoped2 cc1_scoped3 k ())
          (fun _ => if k.val + 1 < 20 then
              iprop(∃ G5' W', ⌜∀ p ∈ W', p ∈ W₀ ∨ p.2 = none⌝ ∗
                ∃ Ga' Gb' G3c' G3d' Gc' Gd' G4c' G4d' SIa' SIb' SJa' SJb', pend (F := Ideal) d L q fy1 fy2 I0 I1 G2 Ga' Gb' G3c' G3d' Gc' Gd' G4c' G4d' G5' SIa' SIb' SJa' SJb' O W'
                  ∗ ⌜FactsV d L (k.val + 1) fy1 fy2 I0 I1 G2 Ga' Gb' Gc' Gd' G5'⌝)
            else iprop(∃ G5' W', ⌜∀ p ∈ W', p ∈ W₀ ∨ p.2 = none⌝ ∗
                ∃ Ga' Gb' G3c' G3d' Gc' Gd' G4c' G4d', idle (F := Ideal) d L q fy1 fy2 I0 I1 G2 Ga' Gb' G3c' G3d' Gc' Gd' G4c' G4d' G5' O W'
                  ∗ ⌜∀ (r : Fin 320) (o : Fin 128), G5' (ix2 r o) = outLocal fy1 fy2 I0 I1 G2 r o⌝)) := by
  obtain ⟨hFa, hFb, hFc, hFd, hF5⟩ := hF
  have hk20 : k.val < 20 := lt_of_lt_of_le k.isLt k1_t1_abs.2.1
  have e2a : k1_off2 k 0#32 = ![256 * k.val + 128] := by simpa using k1_off2_eq k ⟨0, by decide⟩
  have e2b : k1_off2 k 64#32 = ![256 * k.val + 64 + 128] := by simpa using k1_off2_eq k ⟨1, by decide⟩
  have e21a : k1_off21 k 0#32 = ![256 * k.val + 256] := by simpa using k1_off21_eq k ⟨0, by decide⟩
  have e21b : k1_off21 k 64#32 = ![256 * k.val + 64 + 256] := by simpa using k1_off21_eq k ⟨1, by decide⟩
  unfold k1_t1_body
  simp only [k1_part73_eq_skeleton, k1_part74_eq_skeleton]; unfold k1_part73_skel k1_part74_skel
  delta pend
  iintro ⟨Hmw, H2, H5, H3c, H3d, H4c, H4d, Hf6, Hf7, Hf8, Hf9, H0a, H0b, H0c, H0d, H1a, H1b, H1c, H1d, Hy1a, Hy1b, Hy1c, Hy1d, Hy2a, Hy2b, Hy2c, Hy2d, Hm10, Hm11, Hm12, Hm13, HO⟩
  have k1_h1 : k1_cond1 k = 1#1 := cond1_all k
  have hinA : ∀ x, (((s0W).slice (Rect.unit (s := S5120) (k1_off2 k 0#32) S64.size (k1_off2_inb k k1_h1 0)) (fun _ => rfl)).view.read (Elt Ideal) I0 x).toNat < S10240x128.size gathers_S10240x128_S64x128.axis := fun x => by rw [View.read_apply]; exact hI0 _
  have hinB : ∀ x, (((s1W).slice (Rect.unit (s := S5120) (k1_off2 k 0#32) S64.size (k1_off2_inb k k1_h1 0)) (fun _ => rfl)).view.read (Elt Ideal) I1 x).toNat < S10240x128.size gathers_S10240x128_S64x128.axis := fun x => by rw [View.read_apply]; exact hI1 _
  have hinC : ∀ x, (((s0W).slice (Rect.unit (s := S5120) (k1_off2 k 64#32) S64.size (k1_off2_inb k k1_h1 1)) (fun _ => rfl)).view.read (Elt Ideal) I0 x).toNat < S10240x128.size gathers_S10240x128_S64x128.axis := fun x => by rw [View.read_apply]; exact hI0 _
  have hinD : ∀ x, (((s1W).slice (Rect.unit (s := S5120) (k1_off2 k 64#32) S64.size (k1_off2_inb k k1_h1 1)) (fun _ => rfl)).view.read (Elt Ideal) I1 x).toNat < S10240x128.size gathers_S10240x128_S64x128.axis := fun x => by rw [View.read_apply]; exact hI1 _
  sl_exec
  -- slot 0's four windows at group 2k's rows
  ihave Hf6_dst := hFa $$ Hf6_dst
  ihave Hf7_dst := hFb $$ Hf7_dst
  ihave Hf8_dst := hFc $$ Hf8_dst
  ihave Hf9_dst := hFd $$ Hf9_dst
  sl_rw [bind_assoc]
  sl_for (invInV0 d L k G2 (gR fy1 I0 (2 * k.val)) (gR fy2 I1 (2 * k.val)) G5) $$ [H2 Hf6_dst Hf7_dst Hf8_dst Hf9_dst H5]
  case region =>
    intro n acc
    exact hi0 d L G2 _ _ G5 k _ _ n
  · delta invInV0
    iexists G5
    isplitr; · ipureintro; intro n' hn'; exact absurd hn' (Nat.not_lt_zero _)
    isplitr; · ipureintro; intro r o _; rfl
    isplitl [H2]; · iexact H2
    isplitl [Hf6_dst]; · iexact Hf6_dst
    isplitl [Hf7_dst]; · iexact Hf7_dst
    isplitl [Hf8_dst]; · iexact Hf8_dst
    isplitl [Hf9_dst]; · iexact Hf9_dst
    iexact H5
  iintro %_ HI
  delta invInV0
  icases HI with ⟨%G5a, %hd0, %hk0, H2, H3a, H3b, H4a, H4b, H5⟩
  simp only [show Scf.trips k1_t2_loop.lb k1_t2_loop.ub k1_t2_loop.st = 8 from t2_trips] at hd0
  by_cases k1_h2 : k1_cond2 k = 1#1
  · have hlt : k.val + 1 < 20 := cond2_pos k k1_h2
    have hinE : ∀ x, (((s0W).slice (Rect.unit (s := S5120) (k1_off21 k 0#32) S64.size (k1_off21_inb k k1_h2 0)) (fun _ => rfl)).view.read (Elt Ideal) I0 x).toNat < S10240x128.size gathers_S10240x128_S64x128.axis := fun x => by rw [View.read_apply]; exact hI0 _
    have hinF : ∀ x, (((s1W).slice (Rect.unit (s := S5120) (k1_off21 k 0#32) S64.size (k1_off21_inb k k1_h2 0)) (fun _ => rfl)).view.read (Elt Ideal) I1 x).toNat < S10240x128.size gathers_S10240x128_S64x128.axis := fun x => by rw [View.read_apply]; exact hI1 _
    have hinG : ∀ x, (((s0W).slice (Rect.unit (s := S5120) (k1_off21 k 64#32) S64.size (k1_off21_inb k k1_h2 1)) (fun _ => rfl)).view.read (Elt Ideal) I0 x).toNat < S10240x128.size gathers_S10240x128_S64x128.axis := fun x => by rw [View.read_apply]; exact hI0 _
    have hinH : ∀ x, (((s1W).slice (Rect.unit (s := S5120) (k1_off21 k 64#32) S64.size (k1_off21_inb k k1_h2 1)) (fun _ => rfl)).view.read (Elt Ideal) I1 x).toNat < S10240x128.size gathers_S10240x128_S64x128.axis := fun x => by rw [View.read_apply]; exact hI1 _
    sl_exec
    -- slot 1's four windows at group 2k+1's rows
    sl_unfold_run_names
    ihave H3c : (((s3W).slice (Rect.unit (s := S256x128) ![128, 0] S64x128.size inb_S256x128_S64x128_128_0) (fun _ => rfl)).view.loc (tile d L) ↦[((s3W).slice (Rect.unit (s := S256x128) ![128, 0] S64x128.size inb_S256x128_S64x128_128_0) (fun _ => rfl)).view.set]{fullShare} (gR fy1 I0 (2 * k.val + 1))) $$ [H3c]
    · iapply (hL3 d L 128 inb_S256x128_S64x128_128_0 _ fy1 I0 (k1_off2 k 0#32) (k1_off2_inb k k1_h1 0) rfl hinA (gR fy1 I0 (2 * k.val + 1)) (fun i h1 h2 => gR_at fy1 I0 _ i _ (by rw [e2a]; simp; omega)))
      iexact H3c
    ihave H3d : (((s3W).slice (Rect.unit (s := S256x128) ![192, 0] S64x128.size inb_S256x128_S64x128_192_0) (fun _ => rfl)).view.loc (tile d L) ↦[((s3W).slice (Rect.unit (s := S256x128) ![192, 0] S64x128.size inb_S256x128_S64x128_192_0) (fun _ => rfl)).view.set]{fullShare} (gR fy1 I0 (2 * k.val + 1))) $$ [H3d]
    · iapply (hL3 d L 192 inb_S256x128_S64x128_192_0 _ fy1 I0 (k1_off2 k 64#32) (k1_off2_inb k k1_h1 1) rfl hinC (gR fy1 I0 (2 * k.val + 1)) (fun i h1 h2 => gR_at fy1 I0 _ i _ (by rw [e2b]; simp; omega)))
      iexact H3d
    ihave H4c : (((s4W).slice (Rect.unit (s := S256x128) ![128, 0] S64x128.size inb_S256x128_S64x128_128_0) (fun _ => rfl)).view.loc (tile d L) ↦[((s4W).slice (Rect.unit (s := S256x128) ![128, 0] S64x128.size inb_S256x128_S64x128_128_0) (fun _ => rfl)).view.set]{fullShare} (gR fy2 I1 (2 * k.val + 1))) $$ [H4c]
    · iapply (hL4 d L 128 inb_S256x128_S64x128_128_0 _ fy2 I1 (k1_off2 k 0#32) (k1_off2_inb k k1_h1 0) rfl hinB (gR fy2 I1 (2 * k.val + 1)) (fun i h1 h2 => gR_at fy2 I1 _ i _ (by rw [e2a]; simp; omega)))
      iexact H4c
    ihave H4d : (((s4W).slice (Rect.unit (s := S256x128) ![192, 0] S64x128.size inb_S256x128_S64x128_192_0) (fun _ => rfl)).view.loc (tile d L) ↦[((s4W).slice (Rect.unit (s := S256x128) ![192, 0] S64x128.size inb_S256x128_S64x128_192_0) (fun _ => rfl)).view.set]{fullShare} (gR fy2 I1 (2 * k.val + 1))) $$ [H4d]
    · iapply (hL4 d L 192 inb_S256x128_S64x128_192_0 _ fy2 I1 (k1_off2 k 64#32) (k1_off2_inb k k1_h1 1) rfl hinD (gR fy2 I1 (2 * k.val + 1)) (fun i h1 h2 => gR_at fy2 I1 _ i _ (by rw [e2b]; simp; omega)))
      iexact H4d
    sl_for (invInV1 d L k G2 (gR fy1 I0 (2 * k.val + 1)) (gR fy2 I1 (2 * k.val + 1)) G5a) $$ [H2 H3c H3d H4c H4d H5]
    case region =>
      intro n acc
      exact hi1 d L G2 _ _ G5a k _ n
    · delta invInV1
      iexists G5a
      isplitr; · ipureintro; intro n' hn'; exact absurd hn' (Nat.not_lt_zero _)
      isplitr; · ipureintro; intro r o _; rfl
      isplitl [H2]; · iexact H2
      isplitl [H3c]; · iexact H3c
      isplitl [H3d]; · iexact H3d
      isplitl [H4c]; · iexact H4c
      isplitl [H4d]; · iexact H4d
      iexact H5
    iintro %_ HI
    delta invInV1
    icases HI with ⟨%G5b, %hd1, %hk1, H2, H3c, H3d, H4c, H4d, H5⟩
    simp only [show Scf.trips k1_t3_loop.lb k1_t3_loop.ub k1_t3_loop.st = 8 from t3_trips] at hd1
    have rows_done : ∀ (r : Fin 320) (o : Fin 128), r.val < 16 * (k.val + 1) → G5b (ix2 r o) = outLocal fy1 fy2 I0 I1 G2 r o :=
      fun r o hr => rows_step k hk20 fy1 fy2 I0 I1 G2 G5 G5a G5b hF5 hd0 hk0 hd1 hk1 r o hr
    sl_exec
    sl_step
    rw [if_pos hlt]
    iexists G5b; iexists (insert (SemLoc.dma cc1_scratch13.sem, (default : HIx 1)) (insert (SemLoc.dma cc1_scratch11.sem, (default : HIx 1)) (insert (SemLoc.dma cc1_scratch12.sem, (default : HIx 1)) (insert (SemLoc.dma cc1_scratch10.sem, (default : HIx 1)) (insert (SemLoc.dma cc1_scratch9.sem, (default : HIx 1)) (insert (SemLoc.dma cc1_scratch7.sem, (default : HIx 1)) (insert (SemLoc.dma cc1_scratch8.sem, (default : HIx 1)) (insert (SemLoc.dma cc1_scratch6.sem, (default : HIx 1)) W)))))))); isplitr
    · ipureintro; intro p hp
      simp only [Finset.mem_insert] at hp
      rcases hp with rfl | rfl | rfl | rfl | rfl | rfl | rfl | rfl | hp
      all_goals first | exact .inr rfl | exact hW' p hp
    iexists _; iexists _; iexists _; iexists _; iexists _; iexists _; iexists _; iexists _; iexists _; iexists _; iexists _; iexists _
    isplitl [Hmw H2 H5 H3c H3d H4c H4d Hf6 Hf7 Hf8 Hf9 H0a H0b H0c H0d H1a H1b H1c H1d Hy1a Hy1b Hy1c Hy1d Hy2a Hy2b Hy2c Hy2d Hm10 Hm11 Hm12 Hm13 HO]
    ·
      isplitl [Hmw]; · iexact Hmw
      isplitl [H2]; · iexact H2
      isplitl [H5]; · iexact H5
      isplitl [H3c]; · iexact H3c
      isplitl [H3d]; · iexact H3d
      isplitl [H4c]; · iexact H4c
      isplitl [H4d]; · iexact H4d
      isplitl [Hf6]; · iexact Hf6
      isplitl [Hf7]; · iexact Hf7
      isplitl [Hf8]; · iexact Hf8
      isplitl [Hf9]; · iexact Hf9
      isplitl [H0a]; · iexact H0a
      isplitl [H0b]; · iexact H0b
      isplitl [H0c]; · iexact H0c
      isplitl [H0d]; · iexact H0d
      isplitl [H1a]; · iexact H1a
      isplitl [H1b]; · iexact H1b
      isplitl [H1c]; · iexact H1c
      isplitl [H1d]; · iexact H1d
      isplitl [Hy1a]; · iexact Hy1a
      isplitl [Hy1b]; · iexact Hy1b
      isplitl [Hy1c]; · iexact Hy1c
      isplitl [Hy1d]; · iexact Hy1d
      isplitl [Hy2a]; · iexact Hy2a
      isplitl [Hy2b]; · iexact Hy2b
      isplitl [Hy2c]; · iexact Hy2c
      isplitl [Hy2d]; · iexact Hy2d
      isplitl [Hm10]; · iexact Hm10
      isplitl [Hm11]; · iexact Hm11
      isplitl [Hm12]; · iexact Hm12
      isplitl [Hm13]; · iexact Hm13
      iexact HO
    · ipureintro
      refine ⟨?_, ?_, ?_, ?_, ?_⟩
      · exact hL3 d L 0 inb_S256x128_S64x128_0_0 _ fy1 I0 (k1_off21 k 0#32) (k1_off21_inb k k1_h2 0) _ _ (gR fy1 I0 (2 * (k.val + 1))) (fun i h1 h2 => gR_at fy1 I0 _ i _ (by rw [e21a]; simp; omega))
      · exact hL3 d L 64 inb_S256x128_S64x128_64_0 _ fy1 I0 (k1_off21 k 64#32) (k1_off21_inb k k1_h2 1) _ _ (gR fy1 I0 (2 * (k.val + 1))) (fun i h1 h2 => gR_at fy1 I0 _ i _ (by rw [e21b]; simp; omega))
      · exact hL4 d L 0 inb_S256x128_S64x128_0_0 _ fy2 I1 (k1_off21 k 0#32) (k1_off21_inb k k1_h2 0) _ _ (gR fy2 I1 (2 * (k.val + 1))) (fun i h1 h2 => gR_at fy2 I1 _ i _ (by rw [e21a]; simp; omega))
      · exact hL4 d L 64 inb_S256x128_S64x128_64_0 _ fy2 I1 (k1_off21 k 64#32) (k1_off21_inb k k1_h2 1) _ _ (gR fy2 I1 (2 * (k.val + 1))) (fun i h1 h2 => gR_at fy2 I1 _ i _ (by rw [e21b]; simp; omega))
      · exact rows_done
  · have hge : ¬ k.val + 1 < 20 := cond2_neg k k1_h2
    sl_exec
    sl_unfold_run_names
    ihave H3c : (((s3W).slice (Rect.unit (s := S256x128) ![128, 0] S64x128.size inb_S256x128_S64x128_128_0) (fun _ => rfl)).view.loc (tile d L) ↦[((s3W).slice (Rect.unit (s := S256x128) ![128, 0] S64x128.size inb_S256x128_S64x128_128_0) (fun _ => rfl)).view.set]{fullShare} (gR fy1 I0 (2 * k.val + 1))) $$ [H3c]
    · iapply (hL3 d L 128 inb_S256x128_S64x128_128_0 _ fy1 I0 (k1_off2 k 0#32) (k1_off2_inb k k1_h1 0) rfl hinA (gR fy1 I0 (2 * k.val + 1)) (fun i h1 h2 => gR_at fy1 I0 _ i _ (by rw [e2a]; simp; omega)))
      iexact H3c
    ihave H3d : (((s3W).slice (Rect.unit (s := S256x128) ![192, 0] S64x128.size inb_S256x128_S64x128_192_0) (fun _ => rfl)).view.loc (tile d L) ↦[((s3W).slice (Rect.unit (s := S256x128) ![192, 0] S64x128.size inb_S256x128_S64x128_192_0) (fun _ => rfl)).view.set]{fullShare} (gR fy1 I0 (2 * k.val + 1))) $$ [H3d]
    · iapply (hL3 d L 192 inb_S256x128_S64x128_192_0 _ fy1 I0 (k1_off2 k 64#32) (k1_off2_inb k k1_h1 1) rfl hinC (gR fy1 I0 (2 * k.val + 1)) (fun i h1 h2 => gR_at fy1 I0 _ i _ (by rw [e2b]; simp; omega)))
      iexact H3d
    ihave H4c : (((s4W).slice (Rect.unit (s := S256x128) ![128, 0] S64x128.size inb_S256x128_S64x128_128_0) (fun _ => rfl)).view.loc (tile d L) ↦[((s4W).slice (Rect.unit (s := S256x128) ![128, 0] S64x128.size inb_S256x128_S64x128_128_0) (fun _ => rfl)).view.set]{fullShare} (gR fy2 I1 (2 * k.val + 1))) $$ [H4c]
    · iapply (hL4 d L 128 inb_S256x128_S64x128_128_0 _ fy2 I1 (k1_off2 k 0#32) (k1_off2_inb k k1_h1 0) rfl hinB (gR fy2 I1 (2 * k.val + 1)) (fun i h1 h2 => gR_at fy2 I1 _ i _ (by rw [e2a]; simp; omega)))
      iexact H4c
    ihave H4d : (((s4W).slice (Rect.unit (s := S256x128) ![192, 0] S64x128.size inb_S256x128_S64x128_192_0) (fun _ => rfl)).view.loc (tile d L) ↦[((s4W).slice (Rect.unit (s := S256x128) ![192, 0] S64x128.size inb_S256x128_S64x128_192_0) (fun _ => rfl)).view.set]{fullShare} (gR fy2 I1 (2 * k.val + 1))) $$ [H4d]
    · iapply (hL4 d L 192 inb_S256x128_S64x128_192_0 _ fy2 I1 (k1_off2 k 64#32) (k1_off2_inb k k1_h1 1) rfl hinD (gR fy2 I1 (2 * k.val + 1)) (fun i h1 h2 => gR_at fy2 I1 _ i _ (by rw [e2b]; simp; omega)))
      iexact H4d
    sl_for (invInV1 d L k G2 (gR fy1 I0 (2 * k.val + 1)) (gR fy2 I1 (2 * k.val + 1)) G5a) $$ [H2 H3c H3d H4c H4d H5]
    case region =>
      intro n acc
      exact hi1 d L G2 _ _ G5a k _ n
    · delta invInV1
      iexists G5a
      isplitr; · ipureintro; intro n' hn'; exact absurd hn' (Nat.not_lt_zero _)
      isplitr; · ipureintro; intro r o _; rfl
      isplitl [H2]; · iexact H2
      isplitl [H3c]; · iexact H3c
      isplitl [H3d]; · iexact H3d
      isplitl [H4c]; · iexact H4c
      isplitl [H4d]; · iexact H4d
      iexact H5
    iintro %_ HI
    delta invInV1
    icases HI with ⟨%G5b, %hd1, %hk1, H2, H3c, H3d, H4c, H4d, H5⟩
    simp only [show Scf.trips k1_t3_loop.lb k1_t3_loop.ub k1_t3_loop.st = 8 from t3_trips] at hd1
    have rows_all : ∀ (r : Fin 320) (o : Fin 128), G5b (ix2 r o) = outLocal fy1 fy2 I0 I1 G2 r o :=
      fun r o => rows_step k hk20 fy1 fy2 I0 I1 G2 G5 G5a G5b hF5 hd0 hk0 hd1 hk1 r o (by have := r.isLt; omega)
    sl_exec
    sl_step
    rw [if_neg hge]
    iexists G5b; iexists (insert (SemLoc.dma cc1_scratch13.sem, (default : HIx 1)) (insert (SemLoc.dma cc1_scratch11.sem, (default : HIx 1)) (insert (SemLoc.dma cc1_scratch12.sem, (default : HIx 1)) (insert (SemLoc.dma cc1_scratch10.sem, (default : HIx 1)) (insert (SemLoc.dma cc1_scratch9.sem, (default : HIx 1)) (insert (SemLoc.dma cc1_scratch7.sem, (default : HIx 1)) (insert (SemLoc.dma cc1_scratch8.sem, (default : HIx 1)) (insert (SemLoc.dma cc1_scratch6.sem, (default : HIx 1)) W)))))))); isplitr
    · ipureintro; intro p hp
      simp only [Finset.mem_insert] at hp
      rcases hp with rfl | rfl | rfl | rfl | rfl | rfl | rfl | rfl | hp
      all_goals first | exact .inr rfl | exact hW' p hp
    iexists _; iexists _; iexists _; iexists _; iexists _; iexists _; iexists _; iexists _
    isplitl [Hmw H2 H5 H3a H3b H3c H3d H4a H4b H4c H4d H0a H0b H0c H0d H1a H1b H1c H1d Hy1a Hy1b Hy1c Hy1d Hy2a Hy2b Hy2c Hy2d Hf6 Hf7 Hf8 Hf9 Hm10 Hm11 Hm12 Hm13 HO]
    · delta idle
      isplitl [Hmw]; · iexact Hmw
      isplitl [H2]; · iexact H2
      isplitl [H5]; · iexact H5
      isplitl [H3a]; · iexact H3a
      isplitl [H3b]; · iexact H3b
      isplitl [H3c]; · iexact H3c
      isplitl [H3d]; · iexact H3d
      isplitl [H4a]; · iexact H4a
      isplitl [H4b]; · iexact H4b
      isplitl [H4c]; · iexact H4c
      isplitl [H4d]; · iexact H4d
      isplitl [H0a]; · iexact H0a
      isplitl [H0b]; · iexact H0b
      isplitl [H0c]; · iexact H0c
      isplitl [H0d]; · iexact H0d
      isplitl [H1a]; · iexact H1a
      isplitl [H1b]; · iexact H1b
      isplitl [H1c]; · iexact H1c
      isplitl [H1d]; · iexact H1d
      isplitl [Hy1a]; · iexact Hy1a
      isplitl [Hy1b]; · iexact Hy1b
      isplitl [Hy1c]; · iexact Hy1c
      isplitl [Hy1d]; · iexact Hy1d
      isplitl [Hy2a]; · iexact Hy2a
      isplitl [Hy2b]; · iexact Hy2b
      isplitl [Hy2c]; · iexact Hy2c
      isplitl [Hy2d]; · iexact Hy2d
      isplitl [Hf6]; · iexact Hf6
      isplitl [Hf7]; · iexact Hf7
      isplitl [Hf8]; · iexact Hf8
      isplitl [Hf9]; · iexact Hf9
      isplitl [Hm10]; · iexact Hm10
      isplitl [Hm11]; · iexact Hm11
      isplitl [Hm12]; · iexact Hm12
      isplitl [Hm13]; · iexact Hm13
      iexact HO
    · ipureintro; exact rows_all

end Cert.Proof.KIval

end
-- ==== Proof.TileEndValI.lean ====
/-
  The last step of a tile's task, as facts about contents (at the ideal instance).
  A tile is worker number w = 2 · (subcore) + (core) of 32.  It fetches its own 5120 entries, from entry 5120 · w, of the two flat
  edge lists and of the flat damping factors into three scratch lists; it writes its own 320 rows, from row 320 · w, of the output
  from its output scratch.  So: a scratch list after the fetch holds at entry j the flat array's entry 5120 · w + j; the output
  written through the tile's rows holds the payload's row r at row 320 · w + r.  And row r of the output scratch, computed from the
  fetched lists and factors and the two node tables, is the value of node 320 · w + r as a function of the flat arrays: the
  scratch row belongs to group r / 8 as its node r % 8, whose edge k sits at the tile's entry 16 · r + k, which is entry k of the
  node in the flat arrays.
-/
import proofs.«205997_g24756191494465_cont_8to1_1595_42_alg».proof.Proof.RowsValI
import proofs.«205997_g24756191494465_cont_8to1_1595_42_alg».proof.Proof.ValTileStmtI
import Idealize.ShloMosaic.Lib.ValueIdx
import Idealize.ShloMosaic.Lib.Writes

noncomputable section

namespace Cert.Proof.KIval

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

local notation "𝕄" => MT nD τ sig (HIx 1) (Elt Ideal) ℕ Cert.Proof.KI.UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

/-- Entry j of an n-entry window at off of a one-axis array reads the array's entry off + j. -/
theorem read_slice1 {κ : Kind} {sp : Space} {e : EltTy} {N n : Nat} (m : Memref sig κ sp ⟨1, ![N]⟩ e) (off : Fin 1 → Nat)
    (h : ∀ a, off a + (⟨1, ![n]⟩ : Shape).size a ≤ (⟨1, ![N]⟩ : Shape).size a)
    (f : m.view.ty.Contents (Elt Ideal)) (j : Fin n) :
    (m.slice (Rect.unit (s := ⟨1, ![N]⟩) off (⟨1, ![n]⟩ : Shape).size h) (fun _ => rfl)).view.read (Elt Ideal) f (ix1 j)
      = m.view.read (Elt Ideal) f (ix1 ⟨off 0 + j.val, lt_of_lt_of_le (Nat.add_lt_add_left j.isLt _) (h 0 : off 0 + n ≤ N)⟩) := by
  have hy : (Rect.unit (s := ⟨1, ![N]⟩) off (⟨1, ![n]⟩ : Shape).size h).emb (ix1 j)
      = ix1 ⟨off 0 + j.val, lt_of_lt_of_le (Nat.add_lt_add_left j.isLt _) (h 0 : off 0 + n ≤ N)⟩ := by
    funext a
    match a with
    | ⟨0, _⟩ => exact Fin.ext (show off 0 + 1 * j.val = off 0 + j.val by omega)
  rw [View.read_apply, View.read_apply]
  show _root_.cast _ (f (m.view.emb ((Rect.unit (s := ⟨1, ![N]⟩) off (⟨1, ![n]⟩ : Shape).size h).emb (ix1 j)))) = _
  rw [hy]
  rfl

/-- A tile's 5120 entries of a flat array start at entry 5120 · (its worker number). -/
theorem off1_wid (L : grid1.Coords) : k1_off1 L 0 = 5120 * (wid L).val := by
  have e0 : k1_off1 L 0 = 10240 * (L 1).val + 5120 * (L 0).val := congrFun (k1_off1_eq L) 0
  rw [e0]
  show 10240 * (L 1).val + 5120 * (L 0).val = 5120 * (2 * (L 1).val + (L 0).val)
  omega

theorem ent5120 (L : grid1.Coords) (j : Fin 5120) : 5120 * (wid L).val + j.val < 163840 := by
  have := (wid L).isLt; have := j.isLt; omega

/-- A tile's 320 rows of the output start at row 320 · (its worker number), column 0. -/
theorem off39_wid (L : grid1.Coords) : k1_off39 L 0 = 320 * (wid L).val ∧ k1_off39 L 1 = 0 := by
  have e0 : k1_off39 L 0 = 640 * (L 1).val + 320 * (L 0).val := congrFun (k1_off39_eq L) 0
  have e1 : k1_off39 L 1 = 0 := congrFun (k1_off39_eq L) 1
  refine ⟨?_, e1⟩
  rw [e0]
  show 640 * (L 1).val + 320 * (L 0).val = 320 * (2 * (L 1).val + (L 0).val)
  omega

/-- The list scratch after the tile's fetch holds, at entry j, the flat array's entry 5120 · (worker number) + j. -/
theorem fetched0 (L : grid1.Coords) (g : Vec Ideal S5120 .i32) (fi : Vec Ideal SL .i32) (w : S5120.Idx → Elt Ideal .i32)
    (hw : w = (ReadAs.same : ReadAs (Elt Ideal) S5120 .i32 S5120 .i32).apply ((iiSl L).view.read (Elt Ideal) fi)) (j : Fin 5120) :
    ((s0W).view.write (Elt Ideal) g w Finset.univ) (ix1 j) = fi (ix1 ⟨5120 * (wid L).val + j.val, ent5120 L j⟩) := by
  subst hw
  have hwr : (s0W).view.write (Elt Ideal) g ((iiSl L).view.read (Elt Ideal) fi) Finset.univ = (iiSl L).view.read (Elt Ideal) fi :=
    View.write_whole_univ (Val := Elt Ideal) cc1_scratch0 g _
  refine (congrFun hwr (ix1 j)).trans ?_
  refine (read_slice1 (iiW) (k1_off1 L) (k1_off1_inb L) fi j).trans ?_
  exact congrArg (fun t : Fin 163840 => fi (ix1 t)) (Fin.ext (by show k1_off1 L 0 + j.val = _; rw [off1_wid]))

/-- The list scratch after the tile's fetch holds, at entry j, the flat array's entry 5120 · (worker number) + j. -/
theorem fetched1 (L : grid1.Coords) (g : Vec Ideal S5120 .i32) (fj : Vec Ideal SL .i32) (w : S5120.Idx → Elt Ideal .i32)
    (hw : w = (ReadAs.same : ReadAs (Elt Ideal) S5120 .i32 S5120 .i32).apply ((ijSl L).view.read (Elt Ideal) fj)) (j : Fin 5120) :
    ((s1W).view.write (Elt Ideal) g w Finset.univ) (ix1 j) = fj (ix1 ⟨5120 * (wid L).val + j.val, ent5120 L j⟩) := by
  subst hw
  have hwr : (s1W).view.write (Elt Ideal) g ((ijSl L).view.read (Elt Ideal) fj) Finset.univ = (ijSl L).view.read (Elt Ideal) fj :=
    View.write_whole_univ (Val := Elt Ideal) cc1_scratch1 g _
  refine (congrFun hwr (ix1 j)).trans ?_
  refine (read_slice1 (ijW) (k1_off1 L) (k1_off1_inb L) fj j).trans ?_
  exact congrArg (fun t : Fin 163840 => fj (ix1 t)) (Fin.ext (by show k1_off1 L 0 + j.val = _; rw [off1_wid]))

/-- The list scratch after the tile's fetch holds, at entry j, the flat array's entry 5120 · (worker number) + j. -/
theorem fetched2 (L : grid1.Coords) (g : Vec Ideal S5120 .f32) (fs : Vec Ideal SL .f32) (w : S5120.Idx → Elt Ideal .f32)
    (hw : w = (ReadAs.same : ReadAs (Elt Ideal) S5120 .f32 S5120 .f32).apply ((spSl L).view.read (Elt Ideal) fs)) (j : Fin 5120) :
    ((s2W).view.write (Elt Ideal) g w Finset.univ) (ix1 j) = fs (ix1 ⟨5120 * (wid L).val + j.val, ent5120 L j⟩) := by
  subst hw
  have hwr : (s2W).view.write (Elt Ideal) g ((spSl L).view.read (Elt Ideal) fs) Finset.univ = (spSl L).view.read (Elt Ideal) fs :=
    View.write_whole_univ (Val := Elt Ideal) cc1_scratch2 g _
  refine (congrFun hwr (ix1 j)).trans ?_
  refine (read_slice1 (spW) (k1_off1 L) (k1_off1_inb L) fs j).trans ?_
  exact congrArg (fun t : Fin 163840 => fs (ix1 t)) (Fin.ext (by show k1_off1 L 0 + j.val = _; rw [off1_wid]))

/-- Row r, channel o of a tile's rows of the output is the output's row (node of r), channel o. -/
theorem ouSl_emb (L : grid1.Coords) (r : Fin 320) (o : Fin 128) :
    (ouSl L).view.emb (ix2 r o) = (ix2 (nodeOf L r) o : ST.Idx) := by
  obtain ⟨e0, e1⟩ := off39_wid L
  funext a
  match a with
  | ⟨0, _⟩ => exact Fin.ext (show k1_off39 L 0 + 1 * r.val = 320 * (wid L).val + r.val by rw [e0]; omega)
  | ⟨1, _⟩ => exact Fin.ext (show k1_off39 L 1 + 1 * o.val = o.val by rw [e1]; omega)

/-- THE WRITE-BACK: the output written through the tile's rows with a payload w holds w at (r, o) in row (node of r). -/
theorem wb_apply (L : grid1.Coords) (fo : FVec Ideal ST .f32) (w : S320x128.Idx → EReal) (r : Fin 320) (o : Fin 128) :
    ((ouSl L).view.write (Elt Ideal) fo w Finset.univ) (ix2 (nodeOf L r) o) = w (ix2 r o) := by
  have key := View.write_emb_of_mem (v := (ouSl L).view) (Val := Elt Ideal) fo w (M := Finset.univ) (Finset.mem_univ (ix2 r o))
  rw [ouSl_emb] at key
  exact key

/-- With the output scratch as the payload, it holds the scratch's row r. -/
theorem wb_scratch (L : grid1.Coords) (fo : FVec Ideal ST .f32) (G5 : FVec Ideal S320x128 .f32) (w : S320x128.Idx → EReal)
    (hw : w = (ReadAs.same : ReadAs (Elt Ideal) S320x128 .f32 S320x128 .f32).apply ((s5W).view.read (Elt Ideal) G5))
    (r : Fin 320) (o : Fin 128) :
    ((ouSl L).view.write (Elt Ideal) fo w Finset.univ) (ix2 (nodeOf L r) o) = G5 (ix2 r o) := by
  subst hw
  exact wb_apply L fo _ r o

/-- Entry 16 · r + k of a tile's 5120 is entry k of node (node of r) in the flat arrays. -/
theorem flat_node (L : grid1.Coords) (r : Fin 320) (k : Fin 16) (j : Fin 5120) (hj : j.val = 16 * r.val + k.val) :
    (⟨5120 * (wid L).val + j.val, ent5120 L j⟩ : Fin 163840) = flat (nodeOf L r) k :=
  Fin.ext (by simp only [flat, nodeOf]; omega)

/-- A ROW OF THE OUTPUT SCRATCH IS ITS NODE'S VALUE: with the fetched lists and factors the tile's own entries of the flat arrays,
    row r of the scratch (group r / 8, node r % 8 of the group) is the value of node 320 · (worker number) + r.  Both sides are the
    same sixteen-fold maximum once the indices agree: the slot row 128·p + 16·n + k is local row 16·n + k of the group, the group's
    list entry 128·(r / 8) + 16·n + k is the tile's entry 16·r + k, which is the node's entry k. -/
theorem out_local_eq (L : grid1.Coords) (fy1 fy2 : FVec Ideal ST .f32) (fi fj : Vec Ideal SL .i32) (fs : FVec Ideal SL .f32)
    (I0 I1 : Vec Ideal S5120 .i32) (G2 : FVec Ideal S5120 .f32)
    (h0 : ∀ j : Fin 5120, I0 (ix1 j) = fi (ix1 ⟨5120 * (wid L).val + j.val, ent5120 L j⟩))
    (h1 : ∀ j : Fin 5120, I1 (ix1 j) = fj (ix1 ⟨5120 * (wid L).val + j.val, ent5120 L j⟩))
    (h2 : ∀ j : Fin 5120, G2 (ix1 j) = fs (ix1 ⟨5120 * (wid L).val + j.val, ent5120 L j⟩))
    (r : Fin 320) (o : Fin 128) :
    outLocal fy1 fy2 I0 I1 G2 r o = tOut fy1 fy2 fi fj fs (nodeOf L r) o := by
  unfold outLocal nodeVal tOut
  congr 1
  funext acc k
  unfold tEdge
  have hr := r.isLt
  have hk := k.isLt
  have hj : 16 * r.val + k.val < 5120 := by omega
  have hrow : 128 * ((r.val / 8) % 2) + 16 * (r.val % 8) + k.val < 256 := by omega
  have hfl := flat_node L r k ⟨16 * r.val + k.val, hj⟩ rfl
  have hidx : (⟨(128 * (r.val / 8) + (128 * ((r.val / 8) % 2) + 16 * (r.val % 8) + k.val) % 128) % 5120, Nat.mod_lt _ (by decide)⟩ : Fin 5120)
      = ⟨16 * r.val + k.val, hj⟩ := Fin.ext (by show (128 * (r.val / 8) + (128 * ((r.val / 8) % 2) + 16 * (r.val % 8) + k.val) % 128) % 5120 = 16 * r.val + k.val; omega)
  have eA : gR fy1 I0 (r.val / 8) (ix2 ⟨128 * ((r.val / 8) % 2) + 16 * (r.val % 8) + k.val, hrow⟩ o)
      = fy1 (ix2 (rowOf (fi (ix1 (flat (nodeOf L r) k)))) o) := by
    show fy1 (ix2 (rowOf (I0 (ix1 ⟨(128 * (r.val / 8) + (128 * ((r.val / 8) % 2) + 16 * (r.val % 8) + k.val) % 128) % 5120, Nat.mod_lt _ (by decide)⟩))) o) = _
    rw [hidx, h0, hfl]
  have eB : gR fy2 I1 (r.val / 8) (ix2 ⟨128 * ((r.val / 8) % 2) + 16 * (r.val % 8) + k.val, hrow⟩ o)
      = fy2 (ix2 (rowOf (fj (ix1 (flat (nodeOf L r) k)))) o) := by
    show fy2 (ix2 (rowOf (I1 (ix1 ⟨(128 * (r.val / 8) + (128 * ((r.val / 8) % 2) + 16 * (r.val % 8) + k.val) % 128) % 5120, Nat.mod_lt _ (by decide)⟩))) o) = _
    rw [hidx, h1, hfl]
  have hs : 128 * ((r.val / 8) % 40) + 16 * (r.val % 8) + k.val < 5120 := by omega
  have eC : G2 (ix1 ⟨128 * ((r.val / 8) % 40) + 16 * (r.val % 8) + k.val, hs⟩) = fs (ix1 (flat (nodeOf L r) k)) := by
    rw [show (⟨128 * ((r.val / 8) % 40) + 16 * (r.val % 8) + k.val, hs⟩ : Fin 5120) = ⟨16 * r.val + k.val, hj⟩ from Fin.ext (by show 128 * ((r.val / 8) % 40) + 16 * (r.val % 8) + k.val = 16 * r.val + k.val; omega), h2, hfl]
  exact congrArg (max acc) (congrArg₂ (fun a c => max a Cert.Spec.f0 * c) (congrArg₂ (· + ·) eA eB) eC)

end Cert.Proof.KIval

end
-- ==== Proof.TileCoreValI.lean ====
/-
  A tile's whole task with its value: beside the frame-level run, the loop's invariant carries which rows of the output scratch are
  done and what slot 0's windows hold once landed; after the last trip every row is done, and the write-back puts row r of the scratch
  at node 320·w + r of the output.
-/
import proofs.«205997_g24756191494465_cont_8to1_1595_42_alg».proof.Proof.TripValI
import proofs.«205997_g24756191494465_cont_8to1_1595_42_alg».proof.Proof.TileEndValI

noncomputable section

namespace Cert.Proof.KIval

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.KI Idealize.ShloMosaic.ValueIdx

local notation "𝕄" => MT nD τ sig (HIx 1) (Elt Ideal) ℕ Cert.Proof.KI.UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

/-- The three fetches land the tile's slices of the flat arrays; the write-back lands the scratch's rows at the tile's nodes; a row's
    value from the fetched slices is the node's value from the flat arrays. -/
def Fetch0 : Prop := ∀ (d : Dev nD) (L : grid1.Coords) (g0 : Buf (Elt Ideal) ((s0W).view.loc (tile d L))) (fi : Buf (Elt Ideal) ((iiSl L).view.loc (tile d L))) (j : Fin 5120),
  (View.write (Elt Ideal) (s0W).view g0 (ReadAs.same.apply ((iiSl L).view.read (Elt Ideal) fi)) Finset.univ : Vec Ideal S5120 .i32) (ix1 j)
    = (fi : Vec Ideal SL .i32) (ix1 ⟨5120 * (wid L).val + j.val, by have := (wid L).isLt; have := j.isLt; omega⟩)
def Fetch1 : Prop := ∀ (d : Dev nD) (L : grid1.Coords) (g1 : Buf (Elt Ideal) ((s1W).view.loc (tile d L))) (fj : Buf (Elt Ideal) ((ijSl L).view.loc (tile d L))) (j : Fin 5120),
  (View.write (Elt Ideal) (s1W).view g1 (ReadAs.same.apply ((ijSl L).view.read (Elt Ideal) fj)) Finset.univ : Vec Ideal S5120 .i32) (ix1 j)
    = (fj : Vec Ideal SL .i32) (ix1 ⟨5120 * (wid L).val + j.val, by have := (wid L).isLt; have := j.isLt; omega⟩)
def Fetch2 : Prop := ∀ (d : Dev nD) (L : grid1.Coords) (g2 : Buf (Elt Ideal) ((s2W).view.loc (tile d L))) (fs : Buf (Elt Ideal) ((spSl L).view.loc (tile d L))) (j : Fin 5120),
  (View.write (Elt Ideal) (s2W).view g2 (ReadAs.same.apply ((spSl L).view.read (Elt Ideal) fs)) Finset.univ : FVec Ideal S5120 .f32) (ix1 j)
    = (fs : FVec Ideal SL .f32) (ix1 ⟨5120 * (wid L).val + j.val, by have := (wid L).isLt; have := j.isLt; omega⟩)
def WriteBack : Prop := ∀ (d : Dev nD) (L : grid1.Coords) (fo : Buf (Elt Ideal) ((ouSl L).view.loc (tile d L))) (G5 : Buf (Elt Ideal) ((s5W).view.loc (tile d L))) (r : Fin 320) (o : Fin 128),
  (View.write (Elt Ideal) (ouSl L).view fo (ReadAs.same.apply ((s5W).view.read (Elt Ideal) G5)) Finset.univ : FVec Ideal ST .f32) (ix2 (nodeOf L r) o)
    = (G5 : FVec Ideal S320x128 .f32) (ix2 r o)
def OutLocalEq : Prop := ∀ (L : grid1.Coords) (fy1 fy2 : FVec Ideal ST .f32) (fi fj : Vec Ideal SL .i32) (fs : FVec Ideal SL .f32)
    (I0 I1 : Vec Ideal S5120 .i32) (G2 : FVec Ideal S5120 .f32),
    (∀ j : Fin 5120, I0 (ix1 j) = fi (ix1 ⟨5120 * (wid L).val + j.val, by have := (wid L).isLt; have := j.isLt; omega⟩)) →
    (∀ j : Fin 5120, I1 (ix1 j) = fj (ix1 ⟨5120 * (wid L).val + j.val, by have := (wid L).isLt; have := j.isLt; omega⟩)) →
    (∀ j : Fin 5120, G2 (ix1 j) = fs (ix1 ⟨5120 * (wid L).val + j.val, by have := (wid L).isLt; have := j.isLt; omega⟩)) →
    ∀ (r : Fin 320) (o : Fin 128), outLocal fy1 fy2 I0 I1 G2 r o = tOut fy1 fy2 fi fj fs (nodeOf L r) o

/-- The output written through the tile's rows by ONE whole-block write of payload w holds w at (r, o) in row (node of r). -/
theorem wb_writes (L : grid1.Coords) (fo : FVec Ideal ST .f32) (w : S320x128.Idx → EReal) (r : Fin 320) (o : Fin 128) :
    ((ouSl L).view.writes (Elt Ideal) fo [⟨Rect.whole S320x128, w⟩]) (ix2 (nodeOf L r) o) = w (ix2 r o) := by
  have key := View.read_writes_cons_emb (v := (ouSl L).view) (Val := Elt Ideal) fo (Rect.whole S320x128) w [] (ix2 r o)
  rw [Rect.emb_whole_apply, View.read_apply, ouSl_emb] at key
  exact key

/-- The outer loop's invariant with values. -/
def InvV (d : Dev nD) (L : grid1.Coords) (q : PosShare TreeShare)
    (fy1 : Buf (Elt Ideal) ((y1W).view.loc (tile d L))) (fy2 : Buf (Elt Ideal) ((y2W).view.loc (tile d L)))
    (I0 : Buf (Elt Ideal) ((s0W).view.loc (tile d L))) (I1 : Buf (Elt Ideal) ((s1W).view.loc (tile d L))) (G2 : Buf (Elt Ideal) ((s2W).view.loc (tile d L)))
    (O : CellTallies nD τ sig (HIx 1)) (W₀ : Waits sig (HIx 1)) (n : Nat) (_ : PUnit) : sProp 𝕄 :=
  if n < 20 then
    iprop(∃ G5 W', ⌜∀ p ∈ W', p ∈ W₀ ∨ p.2 = none⌝ ∗
      ∃ Ga Gb G3c G3d Gc Gd G4c G4d SIa SIb SJa SJb, pend (F := Ideal) d L q fy1 fy2 I0 I1 G2 Ga Gb G3c G3d Gc Gd G4c G4d G5 SIa SIb SJa SJb O W'
        ∗ ⌜FactsV d L n fy1 fy2 I0 I1 G2 Ga Gb Gc Gd G5⌝)
  else iprop(∃ G5 W', ⌜∀ p ∈ W', p ∈ W₀ ∨ p.2 = none⌝ ∗
      ∃ Ga Gb G3c G3d Gc Gd G4c G4d, idle (F := Ideal) d L q fy1 fy2 I0 I1 G2 Ga Gb G3c G3d Gc Gd G4c G4d G5 O W'
        ∗ ⌜∀ (r : Fin 320) (o : Fin 128), G5 (ix2 r o) = outLocal fy1 fy2 I0 I1 G2 r o⌝)

set_option maxHeartbeats 32000000 in
theorem tile_core_val (hi0 : Inner0V) (hi1 : Inner1V) (hL3 : LandE3) (hL4 : LandE4)
    (hA0 : Fetch0) (hA1 : Fetch1) (hA2 : Fetch2) (hWB : WriteBack) (hOL : OutLocalEq) : TileCoreV := by
  intro d L q fy1 fy2 fi fj fs fo g0 g1 g2 g3 g4 g5 O W hfi hfj
  simp only [cc1__sc_kernel_eq_skeleton]; unfold cc1__sc_kernel_skel
  simp only [k1_part75_eq_skeleton]; unfold k1_part75_skel
  delta coreCtx
  iintro ⟨Hmw, Hy1, Hy2, Hi, Hj, Hs, Ho, H0, H1, H2, H3, H4, H5, Hm6, Hm7, Hm8, Hm9, Hm10, Hm11, Hm12, Hm13, Hr0, Hr1, Hr2, Hr3, HO⟩
  ihave Hy1' := ((pointsTo_share (PosShare.mem_left_op_right q)).1) $$ Hy1
  icases Hy1' with ⟨Hy1l, Hy1r⟩
  ihave Hy1l' := ((pointsTo_share (PosShare.mem_left_op_right (q).left)).1) $$ Hy1l
  icases Hy1l' with ⟨Hy1a, Hy1b⟩
  ihave Hy1r' := ((pointsTo_share (PosShare.mem_left_op_right (q).right)).1) $$ Hy1r
  icases Hy1r' with ⟨Hy1c, Hy1d⟩
  ihave Hy2' := ((pointsTo_share (PosShare.mem_left_op_right q)).1) $$ Hy2
  icases Hy2' with ⟨Hy2l, Hy2r⟩
  ihave Hy2l' := ((pointsTo_share (PosShare.mem_left_op_right (q).left)).1) $$ Hy2l
  icases Hy2l' with ⟨Hy2a, Hy2b⟩
  ihave Hy2r' := ((pointsTo_share (PosShare.mem_left_op_right (q).right)).1) $$ Hy2r
  icases Hy2r' with ⟨Hy2c, Hy2d⟩
  ihave H3' := (s3_split d L g3) $$ H3
  icases H3' with ⟨H3a, H3b, H3c, H3d⟩
  ihave H4' := (s4_split d L g4) $$ H4
  icases H4' with ⟨H4a, H4b, H4c, H4d⟩
  -- the three slices fetched
  sl_exec
  have e0 : (View.write (Elt Ideal) (s0W).view g0 (tile_core_val.sl.dma0 d L fi) Finset.univ) = tile_core_val.sl.dma0 d L fi := View.write_whole_univ _ _ _
  have e1 : (View.write (Elt Ideal) (s1W).view g1 (tile_core_val.sl.dma0_1 d L fj) Finset.univ) = tile_core_val.sl.dma0_1 d L fj := View.write_whole_univ _ _ _
  have hI0 : ∀ j, ((View.write (Elt Ideal) (s0W).view g0 (tile_core_val.sl.dma0 d L fi) Finset.univ) j).toNat < 10240 := fun j => by
    rw [e0]; show ((iiSl L).view.read (Elt Ideal) fi j).toNat < 10240
    rw [View.read_apply]; exact hfi _ (View.emb_mem_set _ _)
  have hI1 : ∀ j, ((View.write (Elt Ideal) (s1W).view g1 (tile_core_val.sl.dma0_1 d L fj) Finset.univ) j).toNat < 10240 := fun j => by
    rw [e1]; show ((ijSl L).view.read (Elt Ideal) fj j).toNat < 10240
    rw [View.read_apply]; exact hfj _ (View.emb_mem_set _ _)
  ihave H0' := ((pointsTo_share (PosShare.mem_left_op_right fullShare)).1) $$ H0
  icases H0' with ⟨H0l, H0r⟩
  ihave H0l' := ((pointsTo_share (PosShare.mem_left_op_right (fullShare).left)).1) $$ H0l
  icases H0l' with ⟨H0a, H0b⟩
  ihave H0r' := ((pointsTo_share (PosShare.mem_left_op_right (fullShare).right)).1) $$ H0r
  icases H0r' with ⟨H0c, H0d⟩
  ihave H1' := ((pointsTo_share (PosShare.mem_left_op_right fullShare)).1) $$ H1
  icases H1' with ⟨H1l, H1r⟩
  ihave H1l' := ((pointsTo_share (PosShare.mem_left_op_right (fullShare).left)).1) $$ H1l
  icases H1l' with ⟨H1a, H1b⟩
  ihave H1r' := ((pointsTo_share (PosShare.mem_left_op_right (fullShare).right)).1) $$ H1r
  icases H1r' with ⟨H1c, H1d⟩
  have hinA : ∀ x, (((s0W).slice (Rect.unit (s := S5120) ![0] S64.size inb_S5120_S64_0) (fun _ => rfl)).view.read (Elt Ideal) (View.write (Elt Ideal) (s0W).view g0 (tile_core_val.sl.dma0 d L fi) Finset.univ) x).toNat < S10240x128.size gathers_S10240x128_S64x128.axis := fun x => by rw [View.read_apply]; exact hI0 _
  have hinB : ∀ x, (((s1W).slice (Rect.unit (s := S5120) ![0] S64.size inb_S5120_S64_0) (fun _ => rfl)).view.read (Elt Ideal) (View.write (Elt Ideal) (s1W).view g1 (tile_core_val.sl.dma0_1 d L fj) Finset.univ) x).toNat < S10240x128.size gathers_S10240x128_S64x128.axis := fun x => by rw [View.read_apply]; exact hI1 _
  have hinC : ∀ x, (((s0W).slice (Rect.unit (s := S5120) ![64] S64.size inb_S5120_S64_64) (fun _ => rfl)).view.read (Elt Ideal) (View.write (Elt Ideal) (s0W).view g0 (tile_core_val.sl.dma0 d L fi) Finset.univ) x).toNat < S10240x128.size gathers_S10240x128_S64x128.axis := fun x => by rw [View.read_apply]; exact hI0 _
  have hinD : ∀ x, (((s1W).slice (Rect.unit (s := S5120) ![64] S64.size inb_S5120_S64_64) (fun _ => rfl)).view.read (Elt Ideal) (View.write (Elt Ideal) (s1W).view g1 (tile_core_val.sl.dma0_1 d L fj) Finset.univ) x).toNat < S10240x128.size gathers_S10240x128_S64x128.axis := fun x => by rw [View.read_apply]; exact hI1 _
  -- the first group's four row copies started
  sl_exec
  -- the outer loop, by its invariant
  sl_for (InvV d L q fy1 fy2 (View.write (Elt Ideal) (s0W).view g0 (tile_core_val.sl.dma0 d L fi) Finset.univ) (View.write (Elt Ideal) (s1W).view g1 (tile_core_val.sl.dma0_1 d L fj) Finset.univ) (View.write (Elt Ideal) (s2W).view g2 (tile_core_val.sl.dma0_2 d L fs) Finset.univ) O W) $$ [Hmw H2 H5 H3c H3d H4c H4d Hm6 Hm7 Hm8 Hm9 H0a H0b H0c H0d H1a H1b H1c H1d Hy1a Hy1b Hy1c Hy1d Hy2a Hy2b Hy2c Hy2d Hm10 Hm11 Hm12 Hm13 HO]
  case region =>
    intro k acc
    delta InvV
    rw [if_pos (lt_of_lt_of_le k.isLt k1_t1_abs.2.1)]
    iintro ⟨%G5, %W', %hW', %Ga, %Gb, %G3c, %G3d, %Gc, %Gd, %G4c, %G4d, %SIa, %SIb, %SJa, %SJb, H, %hF⟩
    iapply (tripV hi0 hi1 hL3 hL4 d L q fy1 fy2 _ _ _ Ga Gb G3c G3d Gc Gd G4c G4d G5 SIa SIb SJa SJb O W' k hI0 hI1 W hW' hF) $$ H
  · delta InvV
    rw [if_pos (by decide : (0 : Nat) < 20)]
    iexists _; iexists (insert (SemLoc.dma cc1_scoped2.sem, (default : HIx 1)) (insert (SemLoc.dma cc1_scoped1.sem, (default : HIx 1)) (insert (SemLoc.dma cc1_scoped0.sem, (default : HIx 1)) W))); isplitr
    · ipureintro; intro p hp
      simp only [Finset.mem_insert] at hp
      rcases hp with rfl | rfl | rfl | hp
      all_goals first | exact .inr rfl | exact .inl hp
    iexists _; iexists _; iexists _; iexists _; iexists _; iexists _; iexists _; iexists _; iexists _; iexists _; iexists _; iexists _
    isplitl [Hmw H2 H5 H3c H3d H4c H4d Hm6 Hm7 Hm8 Hm9 H0a H0b H0c H0d H1a H1b H1c H1d Hy1a Hy1b Hy1c Hy1d Hy2a Hy2b Hy2c Hy2d Hm10 Hm11 Hm12 Hm13 HO]
    · delta pend
      isplitl [Hmw]; · iexact Hmw
      isplitl [H2]; · iexact H2
      isplitl [H5]; · iexact H5
      isplitl [H3c]; · iexact H3c
      isplitl [H3d]; · iexact H3d
      isplitl [H4c]; · iexact H4c
      isplitl [H4d]; · iexact H4d
      isplitl [Hm6]; · iexact Hm6
      isplitl [Hm7]; · iexact Hm7
      isplitl [Hm8]; · iexact Hm8
      isplitl [Hm9]; · iexact Hm9
      isplitl [H0a]; · iexact H0a
      isplitl [H0b]; · iexact H0b
      isplitl [H0c]; · iexact H0c
      isplitl [H0d]; · iexact H0d
      isplitl [H1a]; · iexact H1a
      isplitl [H1b]; · iexact H1b
      isplitl [H1c]; · iexact H1c
      isplitl [H1d]; · iexact H1d
      isplitl [Hy1a]; · iexact Hy1a
      isplitl [Hy1b]; · iexact Hy1b
      isplitl [Hy1c]; · iexact Hy1c
      isplitl [Hy1d]; · iexact Hy1d
      isplitl [Hy2a]; · iexact Hy2a
      isplitl [Hy2b]; · iexact Hy2b
      isplitl [Hy2c]; · iexact Hy2c
      isplitl [Hy2d]; · iexact Hy2d
      isplitl [Hm10]; · iexact Hm10
      isplitl [Hm11]; · iexact Hm11
      isplitl [Hm12]; · iexact Hm12
      isplitl [Hm13]; · iexact Hm13
      iexact HO
    · ipureintro
      refine ⟨?_, ?_, ?_, ?_, ?_⟩
      · exact hL3 d L 0 inb_S256x128_S64x128_0_0 _ fy1 (View.write (Elt Ideal) (s0W).view g0 (tile_core_val.sl.dma0 d L fi) Finset.univ) (![0]) inb_S5120_S64_0 _ _ (gR fy1 (View.write (Elt Ideal) (s0W).view g0 (tile_core_val.sl.dma0 d L fi) Finset.univ) (2 * 0)) (fun i h1 h2 => gR_at fy1 _ _ i _ (by simp; omega))
      · exact hL3 d L 64 inb_S256x128_S64x128_64_0 _ fy1 (View.write (Elt Ideal) (s0W).view g0 (tile_core_val.sl.dma0 d L fi) Finset.univ) (![64]) inb_S5120_S64_64 _ _ (gR fy1 (View.write (Elt Ideal) (s0W).view g0 (tile_core_val.sl.dma0 d L fi) Finset.univ) (2 * 0)) (fun i h1 h2 => gR_at fy1 _ _ i _ (by simp; omega))
      · exact hL4 d L 0 inb_S256x128_S64x128_0_0 _ fy2 (View.write (Elt Ideal) (s1W).view g1 (tile_core_val.sl.dma0_1 d L fj) Finset.univ) (![0]) inb_S5120_S64_0 _ _ (gR fy2 (View.write (Elt Ideal) (s1W).view g1 (tile_core_val.sl.dma0_1 d L fj) Finset.univ) (2 * 0)) (fun i h1 h2 => gR_at fy2 _ _ i _ (by simp; omega))
      · exact hL4 d L 64 inb_S256x128_S64x128_64_0 _ fy2 (View.write (Elt Ideal) (s1W).view g1 (tile_core_val.sl.dma0_1 d L fj) Finset.univ) (![64]) inb_S5120_S64_64 _ _ (gR fy2 (View.write (Elt Ideal) (s1W).view g1 (tile_core_val.sl.dma0_1 d L fj) Finset.univ) (2 * 0)) (fun i h1 h2 => gR_at fy2 _ _ i _ (by simp; omega))
      · intro r o hr; exact absurd hr (Nat.not_lt_zero _)
  iintro %_ HI
  delta InvV
  ihave HI := (Entails.of_eq (if_neg trips_not_lt)) $$ HI
  icases HI with ⟨%G5', %W', %hW', %Ga, %Gb, %G3c, %G3d, %Gc, %Gd, %G4c, %G4d, HI, %hrows⟩
  delta idle
  icases HI with ⟨Hmw, H2, H5, H3a, H3b, H3c, H3d, H4a, H4b, H4c, H4d, H0a, H0b, H0c, H0d, H1a, H1b, H1c, H1d, Hy1a, Hy1b, Hy1c, Hy1d, Hy2a, Hy2b, Hy2c, Hy2d, Hm6, Hm7, Hm8, Hm9, Hm10, Hm11, Hm12, Hm13, HO⟩
  -- windows and shares put back together
  ihave H3 := (s3_join d L _ _ _ _) $$ [H3a H3b H3c H3d]
  · isplitl [H3a]; · iexact H3a
    isplitl [H3b]; · iexact H3b
    isplitl [H3c]; · iexact H3c
    iexact H3d
  icases H3 with ⟨%g3', H3⟩
  ihave H4 := (s4_join d L _ _ _ _) $$ [H4a H4b H4c H4d]
  · isplitl [H4a]; · iexact H4a
    isplitl [H4b]; · iexact H4b
    isplitl [H4c]; · iexact H4c
    iexact H4d
  icases H4 with ⟨%g4', H4⟩
  ihave H0l := ((pointsTo_share (PosShare.mem_left_op_right (fullShare).left)).2) $$ [H0a H0b]
  · isplitl [H0a]; · iexact H0a
    iexact H0b
  ihave H0r := ((pointsTo_share (PosShare.mem_left_op_right (fullShare).right)).2) $$ [H0c H0d]
  · isplitl [H0c]; · iexact H0c
    iexact H0d
  ihave H0 := ((pointsTo_share (PosShare.mem_left_op_right fullShare)).2) $$ [H0l H0r]
  · isplitl [H0l]; · iexact H0l
    iexact H0r
  ihave H1l := ((pointsTo_share (PosShare.mem_left_op_right (fullShare).left)).2) $$ [H1a H1b]
  · isplitl [H1a]; · iexact H1a
    iexact H1b
  ihave H1r := ((pointsTo_share (PosShare.mem_left_op_right (fullShare).right)).2) $$ [H1c H1d]
  · isplitl [H1c]; · iexact H1c
    iexact H1d
  ihave H1 := ((pointsTo_share (PosShare.mem_left_op_right fullShare)).2) $$ [H1l H1r]
  · isplitl [H1l]; · iexact H1l
    iexact H1r
  ihave Hy1l := ((pointsTo_share (PosShare.mem_left_op_right (q).left)).2) $$ [Hy1a Hy1b]
  · isplitl [Hy1a]; · iexact Hy1a
    iexact Hy1b
  ihave Hy1r := ((pointsTo_share (PosShare.mem_left_op_right (q).right)).2) $$ [Hy1c Hy1d]
  · isplitl [Hy1c]; · iexact Hy1c
    iexact Hy1d
  ihave Hy1 := ((pointsTo_share (PosShare.mem_left_op_right q)).2) $$ [Hy1l Hy1r]
  · isplitl [Hy1l]; · iexact Hy1l
    iexact Hy1r
  ihave Hy2l := ((pointsTo_share (PosShare.mem_left_op_right (q).left)).2) $$ [Hy2a Hy2b]
  · isplitl [Hy2a]; · iexact Hy2a
    iexact Hy2b
  ihave Hy2r := ((pointsTo_share (PosShare.mem_left_op_right (q).right)).2) $$ [Hy2c Hy2d]
  · isplitl [Hy2c]; · iexact Hy2c
    iexact Hy2d
  ihave Hy2 := ((pointsTo_share (PosShare.mem_left_op_right q)).2) $$ [Hy2l Hy2r]
  · isplitl [Hy2l]; · iexact Hy2l
    iexact Hy2r
  -- the output rows written back
  sl_exec
  sl_step
  iexists _; iexists _; iexists _; iexists _; iexists _; iexists _; iexists _; iexists (insert (SemLoc.dma cc1_scoped3.sem, (default : HIx 1)) W'); isplitr
  · ipureintro; intro p hp
    simp only [Finset.mem_insert] at hp
    rcases hp with rfl | hp
    · exact .inr rfl
    · exact hW' p hp
  isplitl [Hmw Hy1 Hy2 Hi Hj Hs Ho H0 H1 H2 H3 H4 H5 Hm6 Hm7 Hm8 Hm9 Hm10 Hm11 Hm12 Hm13 Hr0 Hr1 Hr2 Hr3 HO]
  ·
    isplitl [Hmw]; · iexact Hmw
    isplitl [Hy1]; · iexact Hy1
    isplitl [Hy2]; · iexact Hy2
    isplitl [Hi]; · iexact Hi
    isplitl [Hj]; · iexact Hj
    isplitl [Hs]; · iexact Hs
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hr0]; · iexact Hr0
    isplitl [Hr1]; · iexact Hr1
    isplitl [Hr2]; · iexact Hr2
    isplitl [Hr3]; · iexact Hr3
    iexact HO
  · ipureintro
    intro r o
    exact (((wb_writes L fo _ r o).trans (show _ = (G5' : FVec Ideal S320x128 .f32) (ix2 r o) from rfl)).trans (hrows r o)).trans
      (hOL L fy1 fy2 fi fj fs _ _ _ (hA0 d L g0 fi) (hA1 d L g1 fj) (hA2 d L g2 fs) r o)

end Cert.Proof.KIval

end
-- ==== Proof.InnerValI.lean ====
/-
  The tile's compute loops with values.  One trip of a slot's loop takes one node of the slot's group: it reads the node's sixteen
  edges' rows from the two row buffers and the sixteen factors, and stores, eight vectors of sixteen lanes, the maximum from zero
  of the sixteen damped features max (r1 + r2) 0 · s into the node's row of the output scratch.
-/
import proofs.«205997_g24756191494465_cont_8to1_1595_42_alg».proof.Proof.ValTileDefsI
import Idealize.ShloMosaic.Lib.Writes
import Idealize.ShloMosaic.Lib.ValueLayout
import Idealize.ShloMosaic.Lib.Pipeline.Value
import Idealize.ShloMosaic.PureOps.Ideal.Laws

noncomputable section

namespace Cert.Proof.KIval

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.KI Idealize.ShloMosaic.ValueIdx

local notation "𝕄" => MT nD τ sig (HIx 1) (Elt Ideal) ℕ Cert.Proof.KI.UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

/-! ## Reading the stored vectors -/

/-- Sixteen nested maxima are the fold over the sixteen indices. -/
theorem fold16 (t : Fin 16 → EReal) (z : EReal) :
    max (max (max (max (max (max (max (max (max (max (max (max (max (max (max (max (z) (t 0)) (t 1)) (t 2)) (t 3)) (t 4)) (t 5)) (t 6)) (t 7)) (t 8)) (t 9)) (t 10)) (t 11)) (t 12)) (t 13)) (t 14)) (t 15) = (List.finRange 16).foldl (fun acc k => max acc (t k)) z := rfl

/-- The k-th of sixteen factors, taken out of the vector that holds them. -/
theorem scalar_at (k : Nat) (v : FVec Ideal S16 .f32) (h : S16.Slices ![k] S1) :
    extractAt ![0] (extractStridedSlice S1 ![k] v h) inpos_S1_p0 = v (ix1 ⟨k % 16, Nat.mod_lt _ (by decide)⟩) := by
  have hk : k + 1 ≤ 16 := h.2 0
  unfold extractAt
  refine extractStridedSlice_apply ![k] v h _ _ fun a => ?_
  obtain rfl : a = 0 := Subsingleton.elim _ _
  show k % 16 = k + 0
  omega

/-- Where a one-row load of sixteen lanes reads: the row and the column its offsets name, plus the lane. -/
theorem idx_row {R C : Nat} (off : Fin 2 → Nat) (r c : Nat) (hoff : off = ![r, c]) (lane : Fin 16)
    (inb : ∀ a, off a + S1x16.size a ≤ (⟨2, ![R, C]⟩ : Shape).size a) (R' : Fin R) (C' : Fin C) (hR : R'.val = r) (hC : C'.val = c + lane.val) :
    (Rect.unit (s := ⟨2, ![R, C]⟩) off S1x16.size inb).toLoadRect.idx (ix2 0 lane) = ix2 R' C' := by
  subst hoff
  funext a; refine Fin.ext ?_
  match a with
  | ⟨0, _⟩ => show r + 1 * 0 = R'.val; omega
  | ⟨1, _⟩ => show c + 1 * lane.val = C'.val; omega

/-- Where a load of sixteen factors reads its k-th. -/
theorem idx_fac {N : Nat} (off : Fin 1 → Nat) (f : Nat) (hoff : off = ![f]) (kk : Fin 16)
    (inb : ∀ a, off a + S16.size a ≤ (⟨1, ![N]⟩ : Shape).size a) (F' : Fin N) (hF : F'.val = f + kk.val) :
    (Rect.unit (s := ⟨1, ![N]⟩) off S16.size inb).toLoadRect.idx (ix1 kk) = ix1 F' := by
  subst hoff
  funext a; refine Fin.ext ?_
  obtain rfl : a = 0 := Subsingleton.elim _ _
  show f + 1 * kk.val = F'.val; omega

/-! ## The output row and the group of a trip's slot -/

theorem rowF0 (k : Fin k1_t1_loop.trips) (n' : Fin 8) : (rowF k 0 n').val = 16 * k.val + n'.val := by
  have := lt_of_lt_of_le k.isLt trips1_le; have := n'.isLt
  show (16 * k.val + 8 * (0 % 2) + n'.val) % 320 = _; omega
theorem rowF1 (k : Fin k1_t1_loop.trips) (n' : Fin 8) : (rowF k 1 n').val = 16 * k.val + n'.val + 8 := by
  have := lt_of_lt_of_le k.isLt trips1_le; have := n'.isLt
  show (16 * k.val + 8 * (1 % 2) + n'.val) % 320 = _; omega
theorem giF0 (k : Fin k1_t1_loop.trips) : (giF k 0).val = 2 * k.val := by
  have := lt_of_lt_of_le k.isLt trips1_le
  show (2 * k.val + 0 % 2) % 40 = _; omega
theorem giF1 (k : Fin k1_t1_loop.trips) : (giF k 1).val = 2 * k.val + 1 := by
  have := lt_of_lt_of_le k.isLt trips1_le
  show (2 * k.val + 1 % 2) % 40 = _; omega

/-! ## Eight stores along one row of the output scratch -/

set_option maxHeartbeats 2000000 in
/-- Eight sixteen-lane stores that together fill row `row` of the output scratch: afterwards the row reads what was stored
    (lane by lane), and every other row reads as before. -/
theorem writes8_read (G5 : FVec Ideal S320x128 .f32) (row : Fin 320)
    (o0 : Fin 2 → Nat) (o1 : Fin 2 → Nat) (o2 : Fin 2 → Nat) (o3 : Fin 2 → Nat) (o4 : Fin 2 → Nat) (o5 : Fin 2 → Nat) (o6 : Fin 2 → Nat) (o7 : Fin 2 → Nat)
    (i0 : ∀ a, o0 a + S1x16.size a ≤ S320x128.size a) (i1 : ∀ a, o1 a + S1x16.size a ≤ S320x128.size a) (i2 : ∀ a, o2 a + S1x16.size a ≤ S320x128.size a) (i3 : ∀ a, o3 a + S1x16.size a ≤ S320x128.size a) (i4 : ∀ a, o4 a + S1x16.size a ≤ S320x128.size a) (i5 : ∀ a, o5 a + S1x16.size a ≤ S320x128.size a) (i6 : ∀ a, o6 a + S1x16.size a ≤ S320x128.size a) (i7 : ∀ a, o7 a + S1x16.size a ≤ S320x128.size a)
    (e0 : o0 = ![row.val, 0]) (e1 : o1 = ![row.val, 16]) (e2 : o2 = ![row.val, 32]) (e3 : o3 = ![row.val, 48]) (e4 : o4 = ![row.val, 64]) (e5 : o5 = ![row.val, 80]) (e6 : o6 = ![row.val, 96]) (e7 : o7 = ![row.val, 112])
    (w0 : (Rect.unit (s := S320x128) o0 S1x16.size i0).shape.Idx → EReal) (w1 : (Rect.unit (s := S320x128) o1 S1x16.size i1).shape.Idx → EReal) (w2 : (Rect.unit (s := S320x128) o2 S1x16.size i2).shape.Idx → EReal) (w3 : (Rect.unit (s := S320x128) o3 S1x16.size i3).shape.Idx → EReal) (w4 : (Rect.unit (s := S320x128) o4 S1x16.size i4).shape.Idx → EReal) (w5 : (Rect.unit (s := S320x128) o5 S1x16.size i5).shape.Idx → EReal) (w6 : (Rect.unit (s := S320x128) o6 S1x16.size i6).shape.Idx → EReal) (w7 : (Rect.unit (s := S320x128) o7 S1x16.size i7).shape.Idx → EReal)
    (val : Fin 128 → EReal)
    (h0 : ∀ lane : Fin 16, w0 (ix2 0 lane) = val ⟨0 + lane.val, by have := lane.isLt; omega⟩)
    (h1 : ∀ lane : Fin 16, w1 (ix2 0 lane) = val ⟨16 + lane.val, by have := lane.isLt; omega⟩)
    (h2 : ∀ lane : Fin 16, w2 (ix2 0 lane) = val ⟨32 + lane.val, by have := lane.isLt; omega⟩)
    (h3 : ∀ lane : Fin 16, w3 (ix2 0 lane) = val ⟨48 + lane.val, by have := lane.isLt; omega⟩)
    (h4 : ∀ lane : Fin 16, w4 (ix2 0 lane) = val ⟨64 + lane.val, by have := lane.isLt; omega⟩)
    (h5 : ∀ lane : Fin 16, w5 (ix2 0 lane) = val ⟨80 + lane.val, by have := lane.isLt; omega⟩)
    (h6 : ∀ lane : Fin 16, w6 (ix2 0 lane) = val ⟨96 + lane.val, by have := lane.isLt; omega⟩)
    (h7 : ∀ lane : Fin 16, w7 (ix2 0 lane) = val ⟨112 + lane.val, by have := lane.isLt; omega⟩) :
    (∀ o : Fin 128, (Memref.whole cc1_scratch5 : Memref sig .scVector .vmem S320x128 .f32).view.writes (Elt Ideal) G5 [⟨Rect.unit (s := S320x128) o7 S1x16.size i7, w7⟩, ⟨Rect.unit (s := S320x128) o6 S1x16.size i6, w6⟩, ⟨Rect.unit (s := S320x128) o5 S1x16.size i5, w5⟩, ⟨Rect.unit (s := S320x128) o4 S1x16.size i4, w4⟩, ⟨Rect.unit (s := S320x128) o3 S1x16.size i3, w3⟩, ⟨Rect.unit (s := S320x128) o2 S1x16.size i2, w2⟩, ⟨Rect.unit (s := S320x128) o1 S1x16.size i1, w1⟩, ⟨Rect.unit (s := S320x128) o0 S1x16.size i0, w0⟩] (ix2 row o) = val o)
    ∧ (∀ (r : Fin 320) (o : Fin 128), r ≠ row → (Memref.whole cc1_scratch5 : Memref sig .scVector .vmem S320x128 .f32).view.writes (Elt Ideal) G5 [⟨Rect.unit (s := S320x128) o7 S1x16.size i7, w7⟩, ⟨Rect.unit (s := S320x128) o6 S1x16.size i6, w6⟩, ⟨Rect.unit (s := S320x128) o5 S1x16.size i5, w5⟩, ⟨Rect.unit (s := S320x128) o4 S1x16.size i4, w4⟩, ⟨Rect.unit (s := S320x128) o3 S1x16.size i3, w3⟩, ⟨Rect.unit (s := S320x128) o2 S1x16.size i2, w2⟩, ⟨Rect.unit (s := S320x128) o1 S1x16.size i1, w1⟩, ⟨Rect.unit (s := S320x128) o0 S1x16.size i0, w0⟩] (ix2 r o) = G5 (ix2 r o)) := by
  subst e0 e1 e2 e3 e4 e5 e6 e7
  refine ⟨fun o => ?_, fun r o hr => ?_⟩
  · show View.read (Elt Ideal) (Memref.whole cc1_scratch5 : Memref sig .scVector .vmem S320x128 .f32).view ((Memref.whole cc1_scratch5 : Memref sig .scVector .vmem S320x128 .f32).view.writes (Elt Ideal) G5 [⟨Rect.unit (s := S320x128) ![row.val, 112] S1x16.size i7, w7⟩, ⟨Rect.unit (s := S320x128) ![row.val, 96] S1x16.size i6, w6⟩, ⟨Rect.unit (s := S320x128) ![row.val, 80] S1x16.size i5, w5⟩, ⟨Rect.unit (s := S320x128) ![row.val, 64] S1x16.size i4, w4⟩, ⟨Rect.unit (s := S320x128) ![row.val, 48] S1x16.size i3, w3⟩, ⟨Rect.unit (s := S320x128) ![row.val, 32] S1x16.size i2, w2⟩, ⟨Rect.unit (s := S320x128) ![row.val, 16] S1x16.size i1, w1⟩, ⟨Rect.unit (s := S320x128) ![row.val, 0] S1x16.size i0, w0⟩]) (ix2 row o) = (fun y : S320x128.Idx => val (y 1)) (ix2 row o)
    refine View.read_writes_apply_of_pieces (Val := Elt Ideal) (Memref.whole cc1_scratch5 : Memref sig .scVector .vmem S320x128 .f32).view G5
      (fun y : S320x128.Idx => val (y 1)) _ ?_ (ix2 row o) ?_
    · intro p hp x
      simp only [List.mem_cons, List.not_mem_nil, _root_.or_false] at hp
      rcases hp with rfl | rfl | rfl | rfl | rfl | rfl | rfl | rfl
      · obtain ⟨u, lane, rfl⟩ : ∃ (u : Fin 1) (lane : Fin 16), x = ix2 u lane := ⟨x 0, x 1, eq_ix2 x⟩
        obtain rfl : u = 0 := Subsingleton.elim _ _
        exact (h7 lane).trans (congrArg val (Fin.ext (by show 112 + lane.val = 112 + 1 * lane.val; omega)))
      · obtain ⟨u, lane, rfl⟩ : ∃ (u : Fin 1) (lane : Fin 16), x = ix2 u lane := ⟨x 0, x 1, eq_ix2 x⟩
        obtain rfl : u = 0 := Subsingleton.elim _ _
        exact (h6 lane).trans (congrArg val (Fin.ext (by show 96 + lane.val = 96 + 1 * lane.val; omega)))
      · obtain ⟨u, lane, rfl⟩ : ∃ (u : Fin 1) (lane : Fin 16), x = ix2 u lane := ⟨x 0, x 1, eq_ix2 x⟩
        obtain rfl : u = 0 := Subsingleton.elim _ _
        exact (h5 lane).trans (congrArg val (Fin.ext (by show 80 + lane.val = 80 + 1 * lane.val; omega)))
      · obtain ⟨u, lane, rfl⟩ : ∃ (u : Fin 1) (lane : Fin 16), x = ix2 u lane := ⟨x 0, x 1, eq_ix2 x⟩
        obtain rfl : u = 0 := Subsingleton.elim _ _
        exact (h4 lane).trans (congrArg val (Fin.ext (by show 64 + lane.val = 64 + 1 * lane.val; omega)))
      · obtain ⟨u, lane, rfl⟩ : ∃ (u : Fin 1) (lane : Fin 16), x = ix2 u lane := ⟨x 0, x 1, eq_ix2 x⟩
        obtain rfl : u = 0 := Subsingleton.elim _ _
        exact (h3 lane).trans (congrArg val (Fin.ext (by show 48 + lane.val = 48 + 1 * lane.val; omega)))
      · obtain ⟨u, lane, rfl⟩ : ∃ (u : Fin 1) (lane : Fin 16), x = ix2 u lane := ⟨x 0, x 1, eq_ix2 x⟩
        obtain rfl : u = 0 := Subsingleton.elim _ _
        exact (h2 lane).trans (congrArg val (Fin.ext (by show 32 + lane.val = 32 + 1 * lane.val; omega)))
      · obtain ⟨u, lane, rfl⟩ : ∃ (u : Fin 1) (lane : Fin 16), x = ix2 u lane := ⟨x 0, x 1, eq_ix2 x⟩
        obtain rfl : u = 0 := Subsingleton.elim _ _
        exact (h1 lane).trans (congrArg val (Fin.ext (by show 16 + lane.val = 16 + 1 * lane.val; omega)))
      · obtain ⟨u, lane, rfl⟩ : ∃ (u : Fin 1) (lane : Fin 16), x = ix2 u lane := ⟨x 0, x 1, eq_ix2 x⟩
        obtain rfl : u = 0 := Subsingleton.elim _ _
        exact (h0 lane).trans (congrArg val (Fin.ext (by show 0 + lane.val = 0 + 1 * lane.val; omega)))
    · have ho := o.isLt
      have hg : o.val / 16 < 8 := by omega
      interval_cases hq : o.val / 16
      · refine ⟨⟨Rect.unit (s := S320x128) ![row.val, 0] S1x16.size i0, w0⟩, by simp, ?_⟩
        refine (Rect.mem_set_unit (inb := i0)).mpr fun a => ?_
        match a with
        | ⟨0, _⟩ => show row.val ≤ row.val ∧ row.val < row.val + 1; omega
        | ⟨1, _⟩ => show 0 ≤ o.val ∧ o.val < 0 + 16; omega
      · refine ⟨⟨Rect.unit (s := S320x128) ![row.val, 16] S1x16.size i1, w1⟩, by simp, ?_⟩
        refine (Rect.mem_set_unit (inb := i1)).mpr fun a => ?_
        match a with
        | ⟨0, _⟩ => show row.val ≤ row.val ∧ row.val < row.val + 1; omega
        | ⟨1, _⟩ => show 16 ≤ o.val ∧ o.val < 16 + 16; omega
      · refine ⟨⟨Rect.unit (s := S320x128) ![row.val, 32] S1x16.size i2, w2⟩, by simp, ?_⟩
        refine (Rect.mem_set_unit (inb := i2)).mpr fun a => ?_
        match a with
        | ⟨0, _⟩ => show row.val ≤ row.val ∧ row.val < row.val + 1; omega
        | ⟨1, _⟩ => show 32 ≤ o.val ∧ o.val < 32 + 16; omega
      · refine ⟨⟨Rect.unit (s := S320x128) ![row.val, 48] S1x16.size i3, w3⟩, by simp, ?_⟩
        refine (Rect.mem_set_unit (inb := i3)).mpr fun a => ?_
        match a with
        | ⟨0, _⟩ => show row.val ≤ row.val ∧ row.val < row.val + 1; omega
        | ⟨1, _⟩ => show 48 ≤ o.val ∧ o.val < 48 + 16; omega
      · refine ⟨⟨Rect.unit (s := S320x128) ![row.val, 64] S1x16.size i4, w4⟩, by simp, ?_⟩
        refine (Rect.mem_set_unit (inb := i4)).mpr fun a => ?_
        match a with
        | ⟨0, _⟩ => show row.val ≤ row.val ∧ row.val < row.val + 1; omega
        | ⟨1, _⟩ => show 64 ≤ o.val ∧ o.val < 64 + 16; omega
      · refine ⟨⟨Rect.unit (s := S320x128) ![row.val, 80] S1x16.size i5, w5⟩, by simp, ?_⟩
        refine (Rect.mem_set_unit (inb := i5)).mpr fun a => ?_
        match a with
        | ⟨0, _⟩ => show row.val ≤ row.val ∧ row.val < row.val + 1; omega
        | ⟨1, _⟩ => show 80 ≤ o.val ∧ o.val < 80 + 16; omega
      · refine ⟨⟨Rect.unit (s := S320x128) ![row.val, 96] S1x16.size i6, w6⟩, by simp, ?_⟩
        refine (Rect.mem_set_unit (inb := i6)).mpr fun a => ?_
        match a with
        | ⟨0, _⟩ => show row.val ≤ row.val ∧ row.val < row.val + 1; omega
        | ⟨1, _⟩ => show 96 ≤ o.val ∧ o.val < 96 + 16; omega
      · refine ⟨⟨Rect.unit (s := S320x128) ![row.val, 112] S1x16.size i7, w7⟩, by simp, ?_⟩
        refine (Rect.mem_set_unit (inb := i7)).mpr fun a => ?_
        match a with
        | ⟨0, _⟩ => show row.val ≤ row.val ∧ row.val < row.val + 1; omega
        | ⟨1, _⟩ => show 112 ≤ o.val ∧ o.val < 112 + 16; omega
  · show View.read (Elt Ideal) (Memref.whole cc1_scratch5 : Memref sig .scVector .vmem S320x128 .f32).view ((Memref.whole cc1_scratch5 : Memref sig .scVector .vmem S320x128 .f32).view.writes (Elt Ideal) G5 [⟨Rect.unit (s := S320x128) ![row.val, 112] S1x16.size i7, w7⟩, ⟨Rect.unit (s := S320x128) ![row.val, 96] S1x16.size i6, w6⟩, ⟨Rect.unit (s := S320x128) ![row.val, 80] S1x16.size i5, w5⟩, ⟨Rect.unit (s := S320x128) ![row.val, 64] S1x16.size i4, w4⟩, ⟨Rect.unit (s := S320x128) ![row.val, 48] S1x16.size i3, w3⟩, ⟨Rect.unit (s := S320x128) ![row.val, 32] S1x16.size i2, w2⟩, ⟨Rect.unit (s := S320x128) ![row.val, 16] S1x16.size i1, w1⟩, ⟨Rect.unit (s := S320x128) ![row.val, 0] S1x16.size i0, w0⟩]) (ix2 r o) = View.read (Elt Ideal) (Memref.whole cc1_scratch5 : Memref sig .scVector .vmem S320x128 .f32).view G5 (ix2 r o)
    refine View.read_writes_apply_of_forall_not_mem (Val := Elt Ideal) (Memref.whole cc1_scratch5 : Memref sig .scVector .vmem S320x128 .f32).view G5
      (ix2 r o) _ ?_
    intro p hp hm
    have hrr : r.val ≠ row.val := fun e => hr (Fin.ext e)
    simp only [List.mem_cons, List.not_mem_nil, _root_.or_false] at hp
    rcases hp with rfl | rfl | rfl | rfl | rfl | rfl | rfl | rfl
    · have h0 := ((Rect.mem_set_unit (inb := i7)).mp hm) 0
      have h0' : row.val ≤ r.val ∧ r.val < row.val + 1 := h0
      omega
    · have h0 := ((Rect.mem_set_unit (inb := i6)).mp hm) 0
      have h0' : row.val ≤ r.val ∧ r.val < row.val + 1 := h0
      omega
    · have h0 := ((Rect.mem_set_unit (inb := i5)).mp hm) 0
      have h0' : row.val ≤ r.val ∧ r.val < row.val + 1 := h0
      omega
    · have h0 := ((Rect.mem_set_unit (inb := i4)).mp hm) 0
      have h0' : row.val ≤ r.val ∧ r.val < row.val + 1 := h0
      omega
    · have h0 := ((Rect.mem_set_unit (inb := i3)).mp hm) 0
      have h0' : row.val ≤ r.val ∧ r.val < row.val + 1 := h0
      omega
    · have h0 := ((Rect.mem_set_unit (inb := i2)).mp hm) 0
      have h0' : row.val ≤ r.val ∧ r.val < row.val + 1 := h0
      omega
    · have h0 := ((Rect.mem_set_unit (inb := i1)).mp hm) 0
      have h0' : row.val ≤ r.val ∧ r.val < row.val + 1 := h0
      omega
    · have h0 := ((Rect.mem_set_unit (inb := i0)).mp hm) 0
      have h0' : row.val ≤ r.val ∧ r.val < row.val + 1 := h0
      omega

set_option maxHeartbeats 64000000 in
/-- One node of slot 0's group, with its value: its sixteen edges' rows read from the slot's windows, the eight vectors of
    its output row stored; the row then holds the node's value, every other row is as before. -/
theorem inner0_trip_val (d : Dev nD) (L : grid1.Coords) (G2 : FVec Ideal S5120 .f32) (R1 R2 : FVec Ideal S256x128 .f32)
    (G5₀ : FVec Ideal S320x128 .f32) (k1 : Fin k1_t1_loop.trips) (v18 v19 : BitVec 32) (n : Fin k1_t2_loop.trips) :
    invInV0 d L k1 G2 R1 R2 G5₀ n.val ()
      ⊢ wp frame (wpE (defs₀ (F := Ideal)) 𝒱₀ (tile d L) none) Set.univ
          (k1_t2_body L y1W (Memref.isWhole_whole _) y2W (Memref.isWhole_whole _) iiW (Memref.isWhole_whole _) ijW (Memref.isWhole_whole _)
            spW (Memref.isWhole_whole _) ouW (Memref.isWhole_whole _) s0W (Memref.isWhole_whole _) s1W (Memref.isWhole_whole _) s2W (Memref.isWhole_whole _)
            s3W (Memref.isWhole_whole _) s4W (Memref.isWhole_whole _) s5W (Memref.isWhole_whole _)
            cc1_scratch6 cc1_scratch7 cc1_scratch8 cc1_scratch9 cc1_scratch10 cc1_scratch11 cc1_scratch12 cc1_scratch13 cc1_scoped0 cc1_scoped1 cc1_scoped2 cc1_scoped3 k1 v18 v19 n ())
          fun x => invInV0 d L k1 G2 R1 R2 G5₀ (n.val + 1) x := by
  unfold k1_t2_body
  delta invInV0
  iintro ⟨%G5, %hdone, %hrest, H2, H3a, H3b, H4a, H4b, H5⟩
  have hn : n.val < 8 := lt_of_lt_of_le n.isLt k1_t2_abs.2.1
  have hk : k1.val < 20 := lt_of_lt_of_le k1.isLt k1_t1_abs.2.1
  have hgi := giF0 k1
  by_cases hn4 : n.val < 4
  ·
    sl_exec_parts
    sl_step
    generalize hw0 : k1_pay187 _ = w0
    generalize hw1 : k1_pay188 _ = w1
    generalize hw2 : k1_pay189 _ = w2
    generalize hw3 : k1_pay190 _ = w3
    generalize hw4 : k1_pay191 _ = w4
    generalize hw5 : k1_pay380 _ = w5
    generalize hw6 : k1_pay381 _ = w6
    generalize hw7 : k1_pay382 _ = w7
    have hv0 : ∀ lane : Fin 16, w0 (ix2 0 lane)
        = nodeVal ⟨0, by decide⟩ (giF k1 0) R1 R2 G2 ⟨n.val, hn⟩ ⟨0 + lane.val, by have := lane.isLt; omega⟩ := by
      intro lane
      rw [← hw0]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off5 n (BitVec.ofNat 32 kk.val)) S1x16.size (k1_off5_inb n kk)).toLoadRect.idx (ix2 0 lane))
              + R2 ((Rect.unit (s := S256x128) (k1_off5 n (BitVec.ofNat 32 kk.val)) S1x16.size (k1_off5_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off5 n (BitVec.ofNat 32 kk.val)) (16 * n.val + kk.val) 0 (k1_off5_eq n kk) lane (k1_off5_inb n kk)
          ⟨128 * (⟨0, by decide⟩ : Fin 2).val + 16 * (⟨n.val, hn⟩ : Fin 8).val + kk.val, by show 128 * 0 + 16 * n.val + kk.val < 256; omega⟩
          ⟨0 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    have hv1 : ∀ lane : Fin 16, w1 (ix2 0 lane)
        = nodeVal ⟨0, by decide⟩ (giF k1 0) R1 R2 G2 ⟨n.val, hn⟩ ⟨16 + lane.val, by have := lane.isLt; omega⟩ := by
      intro lane
      rw [← hw1]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off6 n (BitVec.ofNat 32 kk.val)) S1x16.size (k1_off6_inb n kk)).toLoadRect.idx (ix2 0 lane))
              + R2 ((Rect.unit (s := S256x128) (k1_off6 n (BitVec.ofNat 32 kk.val)) S1x16.size (k1_off6_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off6 n (BitVec.ofNat 32 kk.val)) (16 * n.val + kk.val) 16 (k1_off6_eq n kk) lane (k1_off6_inb n kk)
          ⟨128 * (⟨0, by decide⟩ : Fin 2).val + 16 * (⟨n.val, hn⟩ : Fin 8).val + kk.val, by show 128 * 0 + 16 * n.val + kk.val < 256; omega⟩
          ⟨16 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    have hv2 : ∀ lane : Fin 16, w2 (ix2 0 lane)
        = nodeVal ⟨0, by decide⟩ (giF k1 0) R1 R2 G2 ⟨n.val, hn⟩ ⟨32 + lane.val, by have := lane.isLt; omega⟩ := by
      intro lane
      rw [← hw2]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off7 n (BitVec.ofNat 32 kk.val)) S1x16.size (k1_off7_inb n kk)).toLoadRect.idx (ix2 0 lane))
              + R2 ((Rect.unit (s := S256x128) (k1_off7 n (BitVec.ofNat 32 kk.val)) S1x16.size (k1_off7_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off7 n (BitVec.ofNat 32 kk.val)) (16 * n.val + kk.val) 32 (k1_off7_eq n kk) lane (k1_off7_inb n kk)
          ⟨128 * (⟨0, by decide⟩ : Fin 2).val + 16 * (⟨n.val, hn⟩ : Fin 8).val + kk.val, by show 128 * 0 + 16 * n.val + kk.val < 256; omega⟩
          ⟨32 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    have hv3 : ∀ lane : Fin 16, w3 (ix2 0 lane)
        = nodeVal ⟨0, by decide⟩ (giF k1 0) R1 R2 G2 ⟨n.val, hn⟩ ⟨48 + lane.val, by have := lane.isLt; omega⟩ := by
      intro lane
      rw [← hw3]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off8 n (BitVec.ofNat 32 kk.val)) S1x16.size (k1_off8_inb n kk)).toLoadRect.idx (ix2 0 lane))
              + R2 ((Rect.unit (s := S256x128) (k1_off8 n (BitVec.ofNat 32 kk.val)) S1x16.size (k1_off8_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off8 n (BitVec.ofNat 32 kk.val)) (16 * n.val + kk.val) 48 (k1_off8_eq n kk) lane (k1_off8_inb n kk)
          ⟨128 * (⟨0, by decide⟩ : Fin 2).val + 16 * (⟨n.val, hn⟩ : Fin 8).val + kk.val, by show 128 * 0 + 16 * n.val + kk.val < 256; omega⟩
          ⟨48 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    have hv4 : ∀ lane : Fin 16, w4 (ix2 0 lane)
        = nodeVal ⟨0, by decide⟩ (giF k1 0) R1 R2 G2 ⟨n.val, hn⟩ ⟨64 + lane.val, by have := lane.isLt; omega⟩ := by
      intro lane
      rw [← hw4]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off9 n (BitVec.ofNat 32 kk.val)) S1x16.size (k1_off9_inb n kk)).toLoadRect.idx (ix2 0 lane))
              + R2 ((Rect.unit (s := S256x128) (k1_off9 n (BitVec.ofNat 32 kk.val)) S1x16.size (k1_off9_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off9 n (BitVec.ofNat 32 kk.val)) (16 * n.val + kk.val) 64 (k1_off9_eq n kk) lane (k1_off9_inb n kk)
          ⟨128 * (⟨0, by decide⟩ : Fin 2).val + 16 * (⟨n.val, hn⟩ : Fin 8).val + kk.val, by show 128 * 0 + 16 * n.val + kk.val < 256; omega⟩
          ⟨64 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    have hv5 : ∀ lane : Fin 16, w5 (ix2 0 lane)
        = nodeVal ⟨0, by decide⟩ (giF k1 0) R1 R2 G2 ⟨n.val, hn⟩ ⟨80 + lane.val, by have := lane.isLt; omega⟩ := by
      intro lane
      rw [← hw5]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off10 n (BitVec.ofNat 32 kk.val)) S1x16.size (k1_off10_inb n kk)).toLoadRect.idx (ix2 0 lane))
              + R2 ((Rect.unit (s := S256x128) (k1_off10 n (BitVec.ofNat 32 kk.val)) S1x16.size (k1_off10_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off10 n (BitVec.ofNat 32 kk.val)) (16 * n.val + kk.val) 80 (k1_off10_eq n kk) lane (k1_off10_inb n kk)
          ⟨128 * (⟨0, by decide⟩ : Fin 2).val + 16 * (⟨n.val, hn⟩ : Fin 8).val + kk.val, by show 128 * 0 + 16 * n.val + kk.val < 256; omega⟩
          ⟨80 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    have hv6 : ∀ lane : Fin 16, w6 (ix2 0 lane)
        = nodeVal ⟨0, by decide⟩ (giF k1 0) R1 R2 G2 ⟨n.val, hn⟩ ⟨96 + lane.val, by have := lane.isLt; omega⟩ := by
      intro lane
      rw [← hw6]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off11 n (BitVec.ofNat 32 kk.val)) S1x16.size (k1_off11_inb n kk)).toLoadRect.idx (ix2 0 lane))
              + R2 ((Rect.unit (s := S256x128) (k1_off11 n (BitVec.ofNat 32 kk.val)) S1x16.size (k1_off11_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off11 n (BitVec.ofNat 32 kk.val)) (16 * n.val + kk.val) 96 (k1_off11_eq n kk) lane (k1_off11_inb n kk)
          ⟨128 * (⟨0, by decide⟩ : Fin 2).val + 16 * (⟨n.val, hn⟩ : Fin 8).val + kk.val, by show 128 * 0 + 16 * n.val + kk.val < 256; omega⟩
          ⟨96 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    have hv7 : ∀ lane : Fin 16, w7 (ix2 0 lane)
        = nodeVal ⟨0, by decide⟩ (giF k1 0) R1 R2 G2 ⟨n.val, hn⟩ ⟨112 + lane.val, by have := lane.isLt; omega⟩ := by
      intro lane
      rw [← hw7]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off12 n (BitVec.ofNat 32 kk.val)) S1x16.size (k1_off12_inb n kk)).toLoadRect.idx (ix2 0 lane))
              + R2 ((Rect.unit (s := S256x128) (k1_off12 n (BitVec.ofNat 32 kk.val)) S1x16.size (k1_off12_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off12 n (BitVec.ofNat 32 kk.val)) (16 * n.val + kk.val) 112 (k1_off12_eq n kk) lane (k1_off12_inb n kk)
          ⟨128 * (⟨0, by decide⟩ : Fin 2).val + 16 * (⟨n.val, hn⟩ : Fin 8).val + kk.val, by show 128 * 0 + 16 * n.val + kk.val < 256; omega⟩
          ⟨112 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    obtain ⟨hrow, hoth⟩ := writes8_read G5 (rowF k1 0 ⟨n.val, hn⟩)
      (k1_off13 k1 n) (k1_off14 k1 n) (k1_off15 k1 n) (k1_off16 k1 n) (k1_off17 k1 n) (k1_off18 k1 n) (k1_off19 k1 n) (k1_off20 k1 n)
      (k1_off13_inb k1 n) (k1_off14_inb k1 n) (k1_off15_inb k1 n) (k1_off16_inb k1 n) (k1_off17_inb k1 n) (k1_off18_inb k1 n) (k1_off19_inb k1 n) (k1_off20_inb k1 n)
      ((k1_off13_eq k1 n).trans (by rw [rowF0])) ((k1_off14_eq k1 n).trans (by rw [rowF0])) ((k1_off15_eq k1 n).trans (by rw [rowF0])) ((k1_off16_eq k1 n).trans (by rw [rowF0])) ((k1_off17_eq k1 n).trans (by rw [rowF0])) ((k1_off18_eq k1 n).trans (by rw [rowF0])) ((k1_off19_eq k1 n).trans (by rw [rowF0])) ((k1_off20_eq k1 n).trans (by rw [rowF0]))
      w0 w1 w2 w3 w4 w5 w6 w7
      (fun o => nodeVal ⟨0, by decide⟩ (giF k1 0) R1 R2 G2 ⟨n.val, hn⟩ o) hv0 hv1 hv2 hv3 hv4 hv5 hv6 hv7
    iexists _
    isplitr
    · ipureintro
      intro n' hn' o
      by_cases hnn : n'.val = n.val
      · obtain rfl : n' = ⟨n.val, hn⟩ := Fin.ext hnn
        exact hrow o
      · refine (hoth (rowF k1 0 n') o (fun e => hnn (by
          have e' := congrArg Fin.val e
          rw [rowF0, rowF0] at e'
          simpa using e'))).trans ?_
        exact hdone n' (by omega) o
    isplitr
    · ipureintro
      intro r o hr
      refine (hoth r o (fun e => by
        have e' := congrArg Fin.val e
        rw [rowF0] at e'
        simp only at e'
        omega)).trans (hrest r o hr)
    isplitl [H2]; · iexact H2
    isplitl [H3a]; · iexact H3a
    isplitl [H3b]; · iexact H3b
    isplitl [H4a]; · iexact H4a
    isplitl [H4b]; · iexact H4b
    iexact H5
  · have hn4' : 4 ≤ n.val := Nat.le_of_not_lt hn4
    sl_exec_parts
    sl_step
    generalize hw0 : k1_pay187 _ = w0
    generalize hw1 : k1_pay188 _ = w1
    generalize hw2 : k1_pay189 _ = w2
    generalize hw3 : k1_pay190 _ = w3
    generalize hw4 : k1_pay191 _ = w4
    generalize hw5 : k1_pay380 _ = w5
    generalize hw6 : k1_pay381 _ = w6
    generalize hw7 : k1_pay382 _ = w7
    have hv0 : ∀ lane : Fin 16, w0 (ix2 0 lane)
        = nodeVal ⟨0, by decide⟩ (giF k1 0) R1 R2 G2 ⟨n.val, hn⟩ ⟨0 + lane.val, by have := lane.isLt; omega⟩ := by
      intro lane
      rw [← hw0]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off5 n (BitVec.ofNat 32 kk.val)) S1x16.size (k1_off5_inb n kk)).toLoadRect.idx (ix2 0 lane))
              + R2 ((Rect.unit (s := S256x128) (k1_off5 n (BitVec.ofNat 32 kk.val)) S1x16.size (k1_off5_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off5 n (BitVec.ofNat 32 kk.val)) (16 * n.val + kk.val) 0 (k1_off5_eq n kk) lane (k1_off5_inb n kk)
          ⟨128 * (⟨0, by decide⟩ : Fin 2).val + 16 * (⟨n.val, hn⟩ : Fin 8).val + kk.val, by show 128 * 0 + 16 * n.val + kk.val < 256; omega⟩
          ⟨0 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    have hv1 : ∀ lane : Fin 16, w1 (ix2 0 lane)
        = nodeVal ⟨0, by decide⟩ (giF k1 0) R1 R2 G2 ⟨n.val, hn⟩ ⟨16 + lane.val, by have := lane.isLt; omega⟩ := by
      intro lane
      rw [← hw1]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off6 n (BitVec.ofNat 32 kk.val)) S1x16.size (k1_off6_inb n kk)).toLoadRect.idx (ix2 0 lane))
              + R2 ((Rect.unit (s := S256x128) (k1_off6 n (BitVec.ofNat 32 kk.val)) S1x16.size (k1_off6_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off6 n (BitVec.ofNat 32 kk.val)) (16 * n.val + kk.val) 16 (k1_off6_eq n kk) lane (k1_off6_inb n kk)
          ⟨128 * (⟨0, by decide⟩ : Fin 2).val + 16 * (⟨n.val, hn⟩ : Fin 8).val + kk.val, by show 128 * 0 + 16 * n.val + kk.val < 256; omega⟩
          ⟨16 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    have hv2 : ∀ lane : Fin 16, w2 (ix2 0 lane)
        = nodeVal ⟨0, by decide⟩ (giF k1 0) R1 R2 G2 ⟨n.val, hn⟩ ⟨32 + lane.val, by have := lane.isLt; omega⟩ := by
      intro lane
      rw [← hw2]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off7 n (BitVec.ofNat 32 kk.val)) S1x16.size (k1_off7_inb n kk)).toLoadRect.idx (ix2 0 lane))
              + R2 ((Rect.unit (s := S256x128) (k1_off7 n (BitVec.ofNat 32 kk.val)) S1x16.size (k1_off7_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off7 n (BitVec.ofNat 32 kk.val)) (16 * n.val + kk.val) 32 (k1_off7_eq n kk) lane (k1_off7_inb n kk)
          ⟨128 * (⟨0, by decide⟩ : Fin 2).val + 16 * (⟨n.val, hn⟩ : Fin 8).val + kk.val, by show 128 * 0 + 16 * n.val + kk.val < 256; omega⟩
          ⟨32 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    have hv3 : ∀ lane : Fin 16, w3 (ix2 0 lane)
        = nodeVal ⟨0, by decide⟩ (giF k1 0) R1 R2 G2 ⟨n.val, hn⟩ ⟨48 + lane.val, by have := lane.isLt; omega⟩ := by
      intro lane
      rw [← hw3]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off8 n (BitVec.ofNat 32 kk.val)) S1x16.size (k1_off8_inb n kk)).toLoadRect.idx (ix2 0 lane))
              + R2 ((Rect.unit (s := S256x128) (k1_off8 n (BitVec.ofNat 32 kk.val)) S1x16.size (k1_off8_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off8 n (BitVec.ofNat 32 kk.val)) (16 * n.val + kk.val) 48 (k1_off8_eq n kk) lane (k1_off8_inb n kk)
          ⟨128 * (⟨0, by decide⟩ : Fin 2).val + 16 * (⟨n.val, hn⟩ : Fin 8).val + kk.val, by show 128 * 0 + 16 * n.val + kk.val < 256; omega⟩
          ⟨48 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    have hv4 : ∀ lane : Fin 16, w4 (ix2 0 lane)
        = nodeVal ⟨0, by decide⟩ (giF k1 0) R1 R2 G2 ⟨n.val, hn⟩ ⟨64 + lane.val, by have := lane.isLt; omega⟩ := by
      intro lane
      rw [← hw4]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off9 n (BitVec.ofNat 32 kk.val)) S1x16.size (k1_off9_inb n kk)).toLoadRect.idx (ix2 0 lane))
              + R2 ((Rect.unit (s := S256x128) (k1_off9 n (BitVec.ofNat 32 kk.val)) S1x16.size (k1_off9_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off9 n (BitVec.ofNat 32 kk.val)) (16 * n.val + kk.val) 64 (k1_off9_eq n kk) lane (k1_off9_inb n kk)
          ⟨128 * (⟨0, by decide⟩ : Fin 2).val + 16 * (⟨n.val, hn⟩ : Fin 8).val + kk.val, by show 128 * 0 + 16 * n.val + kk.val < 256; omega⟩
          ⟨64 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    have hv5 : ∀ lane : Fin 16, w5 (ix2 0 lane)
        = nodeVal ⟨0, by decide⟩ (giF k1 0) R1 R2 G2 ⟨n.val, hn⟩ ⟨80 + lane.val, by have := lane.isLt; omega⟩ := by
      intro lane
      rw [← hw5]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off10 n (BitVec.ofNat 32 kk.val)) S1x16.size (k1_off10_inb n kk)).toLoadRect.idx (ix2 0 lane))
              + R2 ((Rect.unit (s := S256x128) (k1_off10 n (BitVec.ofNat 32 kk.val)) S1x16.size (k1_off10_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off10 n (BitVec.ofNat 32 kk.val)) (16 * n.val + kk.val) 80 (k1_off10_eq n kk) lane (k1_off10_inb n kk)
          ⟨128 * (⟨0, by decide⟩ : Fin 2).val + 16 * (⟨n.val, hn⟩ : Fin 8).val + kk.val, by show 128 * 0 + 16 * n.val + kk.val < 256; omega⟩
          ⟨80 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    have hv6 : ∀ lane : Fin 16, w6 (ix2 0 lane)
        = nodeVal ⟨0, by decide⟩ (giF k1 0) R1 R2 G2 ⟨n.val, hn⟩ ⟨96 + lane.val, by have := lane.isLt; omega⟩ := by
      intro lane
      rw [← hw6]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off11 n (BitVec.ofNat 32 kk.val)) S1x16.size (k1_off11_inb n kk)).toLoadRect.idx (ix2 0 lane))
              + R2 ((Rect.unit (s := S256x128) (k1_off11 n (BitVec.ofNat 32 kk.val)) S1x16.size (k1_off11_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off11 n (BitVec.ofNat 32 kk.val)) (16 * n.val + kk.val) 96 (k1_off11_eq n kk) lane (k1_off11_inb n kk)
          ⟨128 * (⟨0, by decide⟩ : Fin 2).val + 16 * (⟨n.val, hn⟩ : Fin 8).val + kk.val, by show 128 * 0 + 16 * n.val + kk.val < 256; omega⟩
          ⟨96 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    have hv7 : ∀ lane : Fin 16, w7 (ix2 0 lane)
        = nodeVal ⟨0, by decide⟩ (giF k1 0) R1 R2 G2 ⟨n.val, hn⟩ ⟨112 + lane.val, by have := lane.isLt; omega⟩ := by
      intro lane
      rw [← hw7]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off12 n (BitVec.ofNat 32 kk.val)) S1x16.size (k1_off12_inb n kk)).toLoadRect.idx (ix2 0 lane))
              + R2 ((Rect.unit (s := S256x128) (k1_off12 n (BitVec.ofNat 32 kk.val)) S1x16.size (k1_off12_inb n kk)).toLoadRect.idx (ix2 0 lane))) Cert.Spec.f0
            * G2 ((Rect.unit (s := S5120) (k1_off4 k1 n) S16.size (k1_off4_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off12 n (BitVec.ofNat 32 kk.val)) (16 * n.val + kk.val) 112 (k1_off12_eq n kk) lane (k1_off12_inb n kk)
          ⟨128 * (⟨0, by decide⟩ : Fin 2).val + 16 * (⟨n.val, hn⟩ : Fin 8).val + kk.val, by show 128 * 0 + 16 * n.val + kk.val < 256; omega⟩
          ⟨112 + lane.val, by have := lane.isLt; omega⟩ (by show 128 * 0 + 16 * n.val + kk.val = _; omega) rfl,
        idx_fac (N := 5120) (k1_off4 k1 n) (256 * k1.val + 16 * n.val) (k1_off4_eq k1 n) ⟨kk.val % 16, Nat.mod_lt _ (by decide)⟩ (k1_off4_inb k1 n)
          ⟨128 * (giF k1 0).val + 16 * (⟨n.val, hn⟩ : Fin 8).val + kk.val, by show 128 * (giF k1 0).val + 16 * n.val + kk.val < 5120; omega⟩
          (by show 128 * (giF k1 0).val + 16 * n.val + kk.val = 256 * k1.val + 16 * n.val + kk.val % 16; omega)]
    obtain ⟨hrow, hoth⟩ := writes8_read G5 (rowF k1 0 ⟨n.val, hn⟩)
      (k1_off13 k1 n) (k1_off14 k1 n) (k1_off15 k1 n) (k1_off16 k1 n) (k1_off17 k1 n) (k1_off18 k1 n) (k1_off19 k1 n) (k1_off20 k1 n)
      (k1_off13_inb k1 n) (k1_off14_inb k1 n) (k1_off15_inb k1 n) (k1_off16_inb k1 n) (k1_off17_inb k1 n) (k1_off18_inb k1 n) (k1_off19_inb k1 n) (k1_off20_inb k1 n)
      ((k1_off13_eq k1 n).trans (by rw [rowF0])) ((k1_off14_eq k1 n).trans (by rw [rowF0])) ((k1_off15_eq k1 n).trans (by rw [rowF0])) ((k1_off16_eq k1 n).trans (by rw [rowF0])) ((k1_off17_eq k1 n).trans (by rw [rowF0])) ((k1_off18_eq k1 n).trans (by rw [rowF0])) ((k1_off19_eq k1 n).trans (by rw [rowF0])) ((k1_off20_eq k1 n).trans (by rw [rowF0]))
      w0 w1 w2 w3 w4 w5 w6 w7
      (fun o => nodeVal ⟨0, by decide⟩ (giF k1 0) R1 R2 G2 ⟨n.val, hn⟩ o) hv0 hv1 hv2 hv3 hv4 hv5 hv6 hv7
    iexists _
    isplitr
    · ipureintro
      intro n' hn' o
      by_cases hnn : n'.val = n.val
      · obtain rfl : n' = ⟨n.val, hn⟩ := Fin.ext hnn
        exact hrow o
      · refine (hoth (rowF k1 0 n') o (fun e => hnn (by
          have e' := congrArg Fin.val e
          rw [rowF0, rowF0] at e'
          simpa using e'))).trans ?_
        exact hdone n' (by omega) o
    isplitr
    · ipureintro
      intro r o hr
      refine (hoth r o (fun e => by
        have e' := congrArg Fin.val e
        rw [rowF0] at e'
        simp only at e'
        omega)).trans (hrest r o hr)
    isplitl [H2]; · iexact H2
    isplitl [H3a]; · iexact H3a
    isplitl [H3b]; · iexact H3b
    isplitl [H4a]; · iexact H4a
    isplitl [H4b]; · iexact H4b
    iexact H5

set_option maxHeartbeats 64000000 in
/-- One node of slot 1's group, with its value: its sixteen edges' rows read from the slot's windows, the eight vectors of
    its output row stored; the row then holds the node's value, every other row is as before. -/
theorem inner1_trip_val (d : Dev nD) (L : grid1.Coords) (G2 : FVec Ideal S5120 .f32) (R1 R2 : FVec Ideal S256x128 .f32)
    (G5₀ : FVec Ideal S320x128 .f32) (k1 : Fin k1_t1_loop.trips) (v45 : BitVec 32) (n : Fin k1_t3_loop.trips) :
    invInV1 d L k1 G2 R1 R2 G5₀ n.val ()
      ⊢ wp frame (wpE (defs₀ (F := Ideal)) 𝒱₀ (tile d L) none) Set.univ
          (k1_t3_body L y1W (Memref.isWhole_whole _) y2W (Memref.isWhole_whole _) iiW (Memref.isWhole_whole _) ijW (Memref.isWhole_whole _)
            spW (Memref.isWhole_whole _) ouW (Memref.isWhole_whole _) s0W (Memref.isWhole_whole _) s1W (Memref.isWhole_whole _) s2W (Memref.isWhole_whole _)
            s3W (Memref.isWhole_whole _) s4W (Memref.isWhole_whole _) s5W (Memref.isWhole_whole _)
            cc1_scratch6 cc1_scratch7 cc1_scratch8 cc1_scratch9 cc1_scratch10 cc1_scratch11 cc1_scratch12 cc1_scratch13 cc1_scoped0 cc1_scoped1 cc1_scoped2 cc1_scoped3 k1 v45 n ())
          fun x => invInV1 d L k1 G2 R1 R2 G5₀ (n.val + 1) x := by
  unfold k1_t3_body
  delta invInV1
  iintro ⟨%G5, %hdone, %hrest, H2, H3a, H3b, H4a, H4b, H5⟩
  have hn : n.val < 8 := lt_of_lt_of_le n.isLt k1_t3_abs.2.1
  have hk : k1.val < 20 := lt_of_lt_of_le k1.isLt k1_t1_abs.2.1
  have hgi := giF1 k1
  by_cases hn4 : n.val < 4
  ·
    sl_exec_parts
    sl_step
    generalize hw0 : k1_pay375 _ = w0
    generalize hw1 : k1_pay376 _ = w1
    generalize hw2 : k1_pay377 _ = w2
    generalize hw3 : k1_pay378 _ = w3
    generalize hw4 : k1_pay379 _ = w4
    generalize hw5 : k1_pay1 _ = w5
    generalize hw6 : k1_pay2 _ = w6
    generalize hw7 : k1_pay3 _ = w7
    have hv0 : ∀ lane : Fin 16, w0 (ix2 0 lane)
        = nodeVal ⟨1, by decide⟩ (giF k1 1) R1 R2 G2 ⟨n.val, hn⟩ ⟨0 + lane.val, by have := lane.isLt; omega⟩ := by
      intro lane
      rw [← hw0]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off23 n (BitVec.ofNat 32 kk.val)) S1x16.size (k1_off23_inb n kk)).toLoadRect.idx (ix2 0 lane))
              + R2 ((Rect.unit (s := S256x128) (k1_off23 n (BitVec.ofNat 32 kk.val)) S1x16.size (k1_off23_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off23 n (BitVec.ofNat 32 kk.val)) (16 * n.val + kk.val + 128) 0 (k1_off23_eq n kk) lane (k1_off23_inb n kk)
          ⟨128 * (⟨1, by decide⟩ : Fin 2).val + 16 * (⟨n.val, hn⟩ : Fin 8).val + kk.val, by show 128 * 1 + 16 * n.val + kk.val < 256; omega⟩
          ⟨0 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    have hv1 : ∀ lane : Fin 16, w1 (ix2 0 lane)
        = nodeVal ⟨1, by decide⟩ (giF k1 1) R1 R2 G2 ⟨n.val, hn⟩ ⟨16 + lane.val, by have := lane.isLt; omega⟩ := by
      intro lane
      rw [← hw1]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off24 n (BitVec.ofNat 32 kk.val)) S1x16.size (k1_off24_inb n kk)).toLoadRect.idx (ix2 0 lane))
              + R2 ((Rect.unit (s := S256x128) (k1_off24 n (BitVec.ofNat 32 kk.val)) S1x16.size (k1_off24_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off24 n (BitVec.ofNat 32 kk.val)) (16 * n.val + kk.val + 128) 16 (k1_off24_eq n kk) lane (k1_off24_inb n kk)
          ⟨128 * (⟨1, by decide⟩ : Fin 2).val + 16 * (⟨n.val, hn⟩ : Fin 8).val + kk.val, by show 128 * 1 + 16 * n.val + kk.val < 256; omega⟩
          ⟨16 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    have hv2 : ∀ lane : Fin 16, w2 (ix2 0 lane)
        = nodeVal ⟨1, by decide⟩ (giF k1 1) R1 R2 G2 ⟨n.val, hn⟩ ⟨32 + lane.val, by have := lane.isLt; omega⟩ := by
      intro lane
      rw [← hw2]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off25 n (BitVec.ofNat 32 kk.val)) S1x16.size (k1_off25_inb n kk)).toLoadRect.idx (ix2 0 lane))
              + R2 ((Rect.unit (s := S256x128) (k1_off25 n (BitVec.ofNat 32 kk.val)) S1x16.size (k1_off25_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off25 n (BitVec.ofNat 32 kk.val)) (16 * n.val + kk.val + 128) 32 (k1_off25_eq n kk) lane (k1_off25_inb n kk)
          ⟨128 * (⟨1, by decide⟩ : Fin 2).val + 16 * (⟨n.val, hn⟩ : Fin 8).val + kk.val, by show 128 * 1 + 16 * n.val + kk.val < 256; omega⟩
          ⟨32 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    have hv3 : ∀ lane : Fin 16, w3 (ix2 0 lane)
        = nodeVal ⟨1, by decide⟩ (giF k1 1) R1 R2 G2 ⟨n.val, hn⟩ ⟨48 + lane.val, by have := lane.isLt; omega⟩ := by
      intro lane
      rw [← hw3]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off26 n (BitVec.ofNat 32 kk.val)) S1x16.size (k1_off26_inb n kk)).toLoadRect.idx (ix2 0 lane))
              + R2 ((Rect.unit (s := S256x128) (k1_off26 n (BitVec.ofNat 32 kk.val)) S1x16.size (k1_off26_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off26 n (BitVec.ofNat 32 kk.val)) (16 * n.val + kk.val + 128) 48 (k1_off26_eq n kk) lane (k1_off26_inb n kk)
          ⟨128 * (⟨1, by decide⟩ : Fin 2).val + 16 * (⟨n.val, hn⟩ : Fin 8).val + kk.val, by show 128 * 1 + 16 * n.val + kk.val < 256; omega⟩
          ⟨48 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    have hv4 : ∀ lane : Fin 16, w4 (ix2 0 lane)
        = nodeVal ⟨1, by decide⟩ (giF k1 1) R1 R2 G2 ⟨n.val, hn⟩ ⟨64 + lane.val, by have := lane.isLt; omega⟩ := by
      intro lane
      rw [← hw4]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off27 n (BitVec.ofNat 32 kk.val)) S1x16.size (k1_off27_inb n kk)).toLoadRect.idx (ix2 0 lane))
              + R2 ((Rect.unit (s := S256x128) (k1_off27 n (BitVec.ofNat 32 kk.val)) S1x16.size (k1_off27_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off27 n (BitVec.ofNat 32 kk.val)) (16 * n.val + kk.val + 128) 64 (k1_off27_eq n kk) lane (k1_off27_inb n kk)
          ⟨128 * (⟨1, by decide⟩ : Fin 2).val + 16 * (⟨n.val, hn⟩ : Fin 8).val + kk.val, by show 128 * 1 + 16 * n.val + kk.val < 256; omega⟩
          ⟨64 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    have hv5 : ∀ lane : Fin 16, w5 (ix2 0 lane)
        = nodeVal ⟨1, by decide⟩ (giF k1 1) R1 R2 G2 ⟨n.val, hn⟩ ⟨80 + lane.val, by have := lane.isLt; omega⟩ := by
      intro lane
      rw [← hw5]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off28 n (BitVec.ofNat 32 kk.val)) S1x16.size (k1_off28_inb n kk)).toLoadRect.idx (ix2 0 lane))
              + R2 ((Rect.unit (s := S256x128) (k1_off28 n (BitVec.ofNat 32 kk.val)) S1x16.size (k1_off28_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off28 n (BitVec.ofNat 32 kk.val)) (16 * n.val + kk.val + 128) 80 (k1_off28_eq n kk) lane (k1_off28_inb n kk)
          ⟨128 * (⟨1, by decide⟩ : Fin 2).val + 16 * (⟨n.val, hn⟩ : Fin 8).val + kk.val, by show 128 * 1 + 16 * n.val + kk.val < 256; omega⟩
          ⟨80 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    have hv6 : ∀ lane : Fin 16, w6 (ix2 0 lane)
        = nodeVal ⟨1, by decide⟩ (giF k1 1) R1 R2 G2 ⟨n.val, hn⟩ ⟨96 + lane.val, by have := lane.isLt; omega⟩ := by
      intro lane
      rw [← hw6]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off29 n (BitVec.ofNat 32 kk.val)) S1x16.size (k1_off29_inb n kk)).toLoadRect.idx (ix2 0 lane))
              + R2 ((Rect.unit (s := S256x128) (k1_off29 n (BitVec.ofNat 32 kk.val)) S1x16.size (k1_off29_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off29 n (BitVec.ofNat 32 kk.val)) (16 * n.val + kk.val + 128) 96 (k1_off29_eq n kk) lane (k1_off29_inb n kk)
          ⟨128 * (⟨1, by decide⟩ : Fin 2).val + 16 * (⟨n.val, hn⟩ : Fin 8).val + kk.val, by show 128 * 1 + 16 * n.val + kk.val < 256; omega⟩
          ⟨96 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    have hv7 : ∀ lane : Fin 16, w7 (ix2 0 lane)
        = nodeVal ⟨1, by decide⟩ (giF k1 1) R1 R2 G2 ⟨n.val, hn⟩ ⟨112 + lane.val, by have := lane.isLt; omega⟩ := by
      intro lane
      rw [← hw7]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off30 n (BitVec.ofNat 32 kk.val)) S1x16.size (k1_off30_inb n kk)).toLoadRect.idx (ix2 0 lane))
              + R2 ((Rect.unit (s := S256x128) (k1_off30 n (BitVec.ofNat 32 kk.val)) S1x16.size (k1_off30_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off30 n (BitVec.ofNat 32 kk.val)) (16 * n.val + kk.val + 128) 112 (k1_off30_eq n kk) lane (k1_off30_inb n kk)
          ⟨128 * (⟨1, by decide⟩ : Fin 2).val + 16 * (⟨n.val, hn⟩ : Fin 8).val + kk.val, by show 128 * 1 + 16 * n.val + kk.val < 256; omega⟩
          ⟨112 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    obtain ⟨hrow, hoth⟩ := writes8_read G5 (rowF k1 1 ⟨n.val, hn⟩)
      (k1_off31 k1 n) (k1_off32 k1 n) (k1_off33 k1 n) (k1_off34 k1 n) (k1_off35 k1 n) (k1_off36 k1 n) (k1_off37 k1 n) (k1_off38 k1 n)
      (k1_off31_inb k1 n) (k1_off32_inb k1 n) (k1_off33_inb k1 n) (k1_off34_inb k1 n) (k1_off35_inb k1 n) (k1_off36_inb k1 n) (k1_off37_inb k1 n) (k1_off38_inb k1 n)
      ((k1_off31_eq k1 n).trans (by rw [rowF1])) ((k1_off32_eq k1 n).trans (by rw [rowF1])) ((k1_off33_eq k1 n).trans (by rw [rowF1])) ((k1_off34_eq k1 n).trans (by rw [rowF1])) ((k1_off35_eq k1 n).trans (by rw [rowF1])) ((k1_off36_eq k1 n).trans (by rw [rowF1])) ((k1_off37_eq k1 n).trans (by rw [rowF1])) ((k1_off38_eq k1 n).trans (by rw [rowF1]))
      w0 w1 w2 w3 w4 w5 w6 w7
      (fun o => nodeVal ⟨1, by decide⟩ (giF k1 1) R1 R2 G2 ⟨n.val, hn⟩ o) hv0 hv1 hv2 hv3 hv4 hv5 hv6 hv7
    iexists _
    isplitr
    · ipureintro
      intro n' hn' o
      by_cases hnn : n'.val = n.val
      · obtain rfl : n' = ⟨n.val, hn⟩ := Fin.ext hnn
        exact hrow o
      · refine (hoth (rowF k1 1 n') o (fun e => hnn (by
          have e' := congrArg Fin.val e
          rw [rowF1, rowF1] at e'
          simpa using e'))).trans ?_
        exact hdone n' (by omega) o
    isplitr
    · ipureintro
      intro r o hr
      refine (hoth r o (fun e => by
        have e' := congrArg Fin.val e
        rw [rowF1] at e'
        simp only at e'
        omega)).trans (hrest r o hr)
    isplitl [H2]; · iexact H2
    isplitl [H3a]; · iexact H3a
    isplitl [H3b]; · iexact H3b
    isplitl [H4a]; · iexact H4a
    isplitl [H4b]; · iexact H4b
    iexact H5
  · have hn4' : 4 ≤ n.val := Nat.le_of_not_lt hn4
    sl_exec_parts
    sl_step
    generalize hw0 : k1_pay375 _ = w0
    generalize hw1 : k1_pay376 _ = w1
    generalize hw2 : k1_pay377 _ = w2
    generalize hw3 : k1_pay378 _ = w3
    generalize hw4 : k1_pay379 _ = w4
    generalize hw5 : k1_pay1 _ = w5
    generalize hw6 : k1_pay2 _ = w6
    generalize hw7 : k1_pay3 _ = w7
    have hv0 : ∀ lane : Fin 16, w0 (ix2 0 lane)
        = nodeVal ⟨1, by decide⟩ (giF k1 1) R1 R2 G2 ⟨n.val, hn⟩ ⟨0 + lane.val, by have := lane.isLt; omega⟩ := by
      intro lane
      rw [← hw0]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off23 n (BitVec.ofNat 32 kk.val)) S1x16.size (k1_off23_inb n kk)).toLoadRect.idx (ix2 0 lane))
              + R2 ((Rect.unit (s := S256x128) (k1_off23 n (BitVec.ofNat 32 kk.val)) S1x16.size (k1_off23_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off23 n (BitVec.ofNat 32 kk.val)) (16 * n.val + kk.val + 128) 0 (k1_off23_eq n kk) lane (k1_off23_inb n kk)
          ⟨128 * (⟨1, by decide⟩ : Fin 2).val + 16 * (⟨n.val, hn⟩ : Fin 8).val + kk.val, by show 128 * 1 + 16 * n.val + kk.val < 256; omega⟩
          ⟨0 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    have hv1 : ∀ lane : Fin 16, w1 (ix2 0 lane)
        = nodeVal ⟨1, by decide⟩ (giF k1 1) R1 R2 G2 ⟨n.val, hn⟩ ⟨16 + lane.val, by have := lane.isLt; omega⟩ := by
      intro lane
      rw [← hw1]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off24 n (BitVec.ofNat 32 kk.val)) S1x16.size (k1_off24_inb n kk)).toLoadRect.idx (ix2 0 lane))
              + R2 ((Rect.unit (s := S256x128) (k1_off24 n (BitVec.ofNat 32 kk.val)) S1x16.size (k1_off24_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off24 n (BitVec.ofNat 32 kk.val)) (16 * n.val + kk.val + 128) 16 (k1_off24_eq n kk) lane (k1_off24_inb n kk)
          ⟨128 * (⟨1, by decide⟩ : Fin 2).val + 16 * (⟨n.val, hn⟩ : Fin 8).val + kk.val, by show 128 * 1 + 16 * n.val + kk.val < 256; omega⟩
          ⟨16 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    have hv2 : ∀ lane : Fin 16, w2 (ix2 0 lane)
        = nodeVal ⟨1, by decide⟩ (giF k1 1) R1 R2 G2 ⟨n.val, hn⟩ ⟨32 + lane.val, by have := lane.isLt; omega⟩ := by
      intro lane
      rw [← hw2]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off25 n (BitVec.ofNat 32 kk.val)) S1x16.size (k1_off25_inb n kk)).toLoadRect.idx (ix2 0 lane))
              + R2 ((Rect.unit (s := S256x128) (k1_off25 n (BitVec.ofNat 32 kk.val)) S1x16.size (k1_off25_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off25 n (BitVec.ofNat 32 kk.val)) (16 * n.val + kk.val + 128) 32 (k1_off25_eq n kk) lane (k1_off25_inb n kk)
          ⟨128 * (⟨1, by decide⟩ : Fin 2).val + 16 * (⟨n.val, hn⟩ : Fin 8).val + kk.val, by show 128 * 1 + 16 * n.val + kk.val < 256; omega⟩
          ⟨32 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    have hv3 : ∀ lane : Fin 16, w3 (ix2 0 lane)
        = nodeVal ⟨1, by decide⟩ (giF k1 1) R1 R2 G2 ⟨n.val, hn⟩ ⟨48 + lane.val, by have := lane.isLt; omega⟩ := by
      intro lane
      rw [← hw3]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off26 n (BitVec.ofNat 32 kk.val)) S1x16.size (k1_off26_inb n kk)).toLoadRect.idx (ix2 0 lane))
              + R2 ((Rect.unit (s := S256x128) (k1_off26 n (BitVec.ofNat 32 kk.val)) S1x16.size (k1_off26_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off26 n (BitVec.ofNat 32 kk.val)) (16 * n.val + kk.val + 128) 48 (k1_off26_eq n kk) lane (k1_off26_inb n kk)
          ⟨128 * (⟨1, by decide⟩ : Fin 2).val + 16 * (⟨n.val, hn⟩ : Fin 8).val + kk.val, by show 128 * 1 + 16 * n.val + kk.val < 256; omega⟩
          ⟨48 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    have hv4 : ∀ lane : Fin 16, w4 (ix2 0 lane)
        = nodeVal ⟨1, by decide⟩ (giF k1 1) R1 R2 G2 ⟨n.val, hn⟩ ⟨64 + lane.val, by have := lane.isLt; omega⟩ := by
      intro lane
      rw [← hw4]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off27 n (BitVec.ofNat 32 kk.val)) S1x16.size (k1_off27_inb n kk)).toLoadRect.idx (ix2 0 lane))
              + R2 ((Rect.unit (s := S256x128) (k1_off27 n (BitVec.ofNat 32 kk.val)) S1x16.size (k1_off27_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off27 n (BitVec.ofNat 32 kk.val)) (16 * n.val + kk.val + 128) 64 (k1_off27_eq n kk) lane (k1_off27_inb n kk)
          ⟨128 * (⟨1, by decide⟩ : Fin 2).val + 16 * (⟨n.val, hn⟩ : Fin 8).val + kk.val, by show 128 * 1 + 16 * n.val + kk.val < 256; omega⟩
          ⟨64 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    have hv5 : ∀ lane : Fin 16, w5 (ix2 0 lane)
        = nodeVal ⟨1, by decide⟩ (giF k1 1) R1 R2 G2 ⟨n.val, hn⟩ ⟨80 + lane.val, by have := lane.isLt; omega⟩ := by
      intro lane
      rw [← hw5]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off28 n (BitVec.ofNat 32 kk.val)) S1x16.size (k1_off28_inb n kk)).toLoadRect.idx (ix2 0 lane))
              + R2 ((Rect.unit (s := S256x128) (k1_off28 n (BitVec.ofNat 32 kk.val)) S1x16.size (k1_off28_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off28 n (BitVec.ofNat 32 kk.val)) (16 * n.val + kk.val + 128) 80 (k1_off28_eq n kk) lane (k1_off28_inb n kk)
          ⟨128 * (⟨1, by decide⟩ : Fin 2).val + 16 * (⟨n.val, hn⟩ : Fin 8).val + kk.val, by show 128 * 1 + 16 * n.val + kk.val < 256; omega⟩
          ⟨80 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    have hv6 : ∀ lane : Fin 16, w6 (ix2 0 lane)
        = nodeVal ⟨1, by decide⟩ (giF k1 1) R1 R2 G2 ⟨n.val, hn⟩ ⟨96 + lane.val, by have := lane.isLt; omega⟩ := by
      intro lane
      rw [← hw6]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off29 n (BitVec.ofNat 32 kk.val)) S1x16.size (k1_off29_inb n kk)).toLoadRect.idx (ix2 0 lane))
              + R2 ((Rect.unit (s := S256x128) (k1_off29 n (BitVec.ofNat 32 kk.val)) S1x16.size (k1_off29_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off29 n (BitVec.ofNat 32 kk.val)) (16 * n.val + kk.val + 128) 96 (k1_off29_eq n kk) lane (k1_off29_inb n kk)
          ⟨128 * (⟨1, by decide⟩ : Fin 2).val + 16 * (⟨n.val, hn⟩ : Fin 8).val + kk.val, by show 128 * 1 + 16 * n.val + kk.val < 256; omega⟩
          ⟨96 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    have hv7 : ∀ lane : Fin 16, w7 (ix2 0 lane)
        = nodeVal ⟨1, by decide⟩ (giF k1 1) R1 R2 G2 ⟨n.val, hn⟩ ⟨112 + lane.val, by have := lane.isLt; omega⟩ := by
      intro lane
      rw [← hw7]
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208, k1_pay209, k1_pay210, k1_pay211, k1_pay212, k1_pay213, k1_pay214, k1_pay215, k1_pay216, k1_pay217, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252, k1_pay253, k1_pay254, k1_pay255, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275, k1_pay276, k1_pay277, k1_pay278, k1_pay279, k1_pay280, k1_pay281, k1_pay282, k1_pay283, k1_pay284, k1_pay285, k1_pay286, k1_pay287, k1_pay288, k1_pay289, k1_pay290, k1_pay291, k1_pay292, k1_pay293, k1_pay294, k1_pay295, k1_pay296, k1_pay297, k1_pay298, k1_pay299, k1_pay300, k1_pay301, k1_pay302, k1_pay303, k1_pay304, k1_pay305, k1_pay306, k1_pay307, k1_pay308, k1_pay309, k1_pay310, k1_pay311, k1_pay312, k1_pay313, k1_pay314, k1_pay315, k1_pay316, k1_pay317, k1_pay318, k1_pay319, k1_pay320, k1_pay321, k1_pay322, k1_pay323, k1_pay324, k1_pay325, k1_pay326, k1_pay327, k1_pay328, k1_pay329, k1_pay330, k1_pay331, k1_pay332, k1_pay333, k1_pay334, k1_pay335, k1_pay336, k1_pay337, k1_pay338, k1_pay339, k1_pay340, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369, k1_pay370, k1_pay371, k1_pay372, k1_pay373, k1_pay374, k1_pay375, k1_pay376, k1_pay377, k1_pay378, k1_pay379, k1_pay380, k1_pay381, k1_pay382, maximumf_apply, addf_apply, mulf_apply, broadcast_apply, shapeCast_self, shapeCast_1a_a_apply, shapeCast_a_1a_apply, scalar_at,
        View.readAt_apply, Memref.view_whole, View.read_whole]
      refine (fold16 (fun kk : Fin 16 =>
          max (R1 ((Rect.unit (s := S256x128) (k1_off30 n (BitVec.ofNat 32 kk.val)) S1x16.size (k1_off30_inb n kk)).toLoadRect.idx (ix2 0 lane))
              + R2 ((Rect.unit (s := S256x128) (k1_off30 n (BitVec.ofNat 32 kk.val)) S1x16.size (k1_off30_inb n kk)).toLoadRect.idx (ix2 0 lane))) Cert.Spec.f0
            * G2 ((Rect.unit (s := S5120) (k1_off22 k1 n) S16.size (k1_off22_inb k1 n)).toLoadRect.idx (ix1 ⟨kk.val % 16, Nat.mod_lt _ (by decide)⟩))) Cert.Spec.f0).trans ?_
      unfold nodeVal
      refine congrArg (fun f => (List.finRange 16).foldl f Cert.Spec.f0) (funext fun acc => funext fun kk => ?_)
      have hkk := kk.isLt
      rw [idx_row (R := 256) (C := 128) (k1_off30 n (BitVec.ofNat 32 kk.val)) (16 * n.val + kk.val + 128) 112 (k1_off30_eq n kk) lane (k1_off30_inb n kk)
          ⟨128 * (⟨1, by decide⟩ : Fin 2).val + 16 * (⟨n.val, hn⟩ : Fin 8).val + kk.val, by show 128 * 1 + 16 * n.val + kk.val < 256; omega⟩
          ⟨112 + lane.val, by have := lane.isLt; omega⟩ (by show 128 * 1 + 16 * n.val + kk.val = _; omega) rfl,
        idx_fac (N := 5120) (k1_off22 k1 n) (256 * k1.val + 16 * n.val + 128) (k1_off22_eq k1 n) ⟨kk.val % 16, Nat.mod_lt _ (by decide)⟩ (k1_off22_inb k1 n)
          ⟨128 * (giF k1 1).val + 16 * (⟨n.val, hn⟩ : Fin 8).val + kk.val, by show 128 * (giF k1 1).val + 16 * n.val + kk.val < 5120; omega⟩
          (by show 128 * (giF k1 1).val + 16 * n.val + kk.val = 256 * k1.val + 16 * n.val + 128 + kk.val % 16; omega)]
    obtain ⟨hrow, hoth⟩ := writes8_read G5 (rowF k1 1 ⟨n.val, hn⟩)
      (k1_off31 k1 n) (k1_off32 k1 n) (k1_off33 k1 n) (k1_off34 k1 n) (k1_off35 k1 n) (k1_off36 k1 n) (k1_off37 k1 n) (k1_off38 k1 n)
      (k1_off31_inb k1 n) (k1_off32_inb k1 n) (k1_off33_inb k1 n) (k1_off34_inb k1 n) (k1_off35_inb k1 n) (k1_off36_inb k1 n) (k1_off37_inb k1 n) (k1_off38_inb k1 n)
      ((k1_off31_eq k1 n).trans (by rw [rowF1])) ((k1_off32_eq k1 n).trans (by rw [rowF1])) ((k1_off33_eq k1 n).trans (by rw [rowF1])) ((k1_off34_eq k1 n).trans (by rw [rowF1])) ((k1_off35_eq k1 n).trans (by rw [rowF1])) ((k1_off36_eq k1 n).trans (by rw [rowF1])) ((k1_off37_eq k1 n).trans (by rw [rowF1])) ((k1_off38_eq k1 n).trans (by rw [rowF1]))
      w0 w1 w2 w3 w4 w5 w6 w7
      (fun o => nodeVal ⟨1, by decide⟩ (giF k1 1) R1 R2 G2 ⟨n.val, hn⟩ o) hv0 hv1 hv2 hv3 hv4 hv5 hv6 hv7
    iexists _
    isplitr
    · ipureintro
      intro n' hn' o
      by_cases hnn : n'.val = n.val
      · obtain rfl : n' = ⟨n.val, hn⟩ := Fin.ext hnn
        exact hrow o
      · refine (hoth (rowF k1 1 n') o (fun e => hnn (by
          have e' := congrArg Fin.val e
          rw [rowF1, rowF1] at e'
          simpa using e'))).trans ?_
        exact hdone n' (by omega) o
    isplitr
    · ipureintro
      intro r o hr
      refine (hoth r o (fun e => by
        have e' := congrArg Fin.val e
        rw [rowF1] at e'
        simp only at e'
        omega)).trans (hrest r o hr)
    isplitl [H2]; · iexact H2
    isplitl [H3a]; · iexact H3a
    isplitl [H3b]; · iexact H3b
    isplitl [H4a]; · iexact H4a
    isplitl [H4b]; · iexact H4b
    iexact H5

end Cert.Proof.KIval

end
-- ==== Proof.GatherValI.lean ====
/-
  What a landed indexed row copy leaves in its window of a row buffer (at the ideal instance).
  A tile copies 64 rows of a node table (10240 rows of 128 channels) into a 64-row window, at row o, of a 256-row buffer; which
  rows is said by 64 consecutive entries, from entry off, of a 5120-entry index list.  The copy's payload is a function of the
  window's own indices: at (e, c) it is the table at (the row entry off + e names, c).  Written through the window, it is read
  back at an element (r, c) of the buffer, o ≤ r < o + 64, as the table at (the row entry off + (r - o) names, c), whatever the
  window held before.  A list entry names a row through its value modulo the table's height; every entry the copy reads is below
  the height, so the modulus changes nothing.  The statements come twice: for the first table, list and buffer, and for the second.
-/
import proofs.«205997_g24756191494465_cont_8to1_1595_42_alg».proof.Proof.ValTileStmtI
import Idealize.ShloMosaic.Lib.ValueIdx
import Idealize.ShloMosaic.Lib.Writes

noncomputable section

namespace Cert.Proof.KIval

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

local notation "𝕄" => MT nD τ sig (HIx 1) (Elt Ideal) ℕ Cert.Proof.KI.UU ℕ

local notation "y1W" => (Memref.whole Cert.KernelIdeal.main_v10_0_scv : Memref Cert.KernelIdeal.sig Kind.scVector Space.hbm Cert.KernelIdeal.S10240x128 EltTy.f32)
local notation "y2W" => (Memref.whole Cert.KernelIdeal.main_v10_1_scv : Memref Cert.KernelIdeal.sig Kind.scVector Space.hbm Cert.KernelIdeal.S10240x128 EltTy.f32)
local notation "iiW" => (Memref.whole Cert.KernelIdeal.main_v14_scv : Memref Cert.KernelIdeal.sig Kind.scVector Space.hbm Cert.KernelIdeal.S163840 EltTy.i32)
local notation "ijW" => (Memref.whole Cert.KernelIdeal.main_v16_scv : Memref Cert.KernelIdeal.sig Kind.scVector Space.hbm Cert.KernelIdeal.S163840 EltTy.i32)
local notation "spW" => (Memref.whole Cert.KernelIdeal.main_v17_scv : Memref Cert.KernelIdeal.sig Kind.scVector Space.hbm Cert.KernelIdeal.S163840 EltTy.f32)
local notation "ouW" => (Memref.whole Cert.KernelIdeal.main_v18_scv : Memref Cert.KernelIdeal.sig Kind.scVector Space.hbm Cert.KernelIdeal.S10240x128 EltTy.f32)
local notation "s0W" => (Memref.whole Cert.KernelIdeal.cc1_scratch0 : Memref Cert.KernelIdeal.sig Kind.scVector Space.vmem Cert.KernelIdeal.S5120 EltTy.i32)
local notation "s1W" => (Memref.whole Cert.KernelIdeal.cc1_scratch1 : Memref Cert.KernelIdeal.sig Kind.scVector Space.vmem Cert.KernelIdeal.S5120 EltTy.i32)
local notation "s2W" => (Memref.whole Cert.KernelIdeal.cc1_scratch2 : Memref Cert.KernelIdeal.sig Kind.scVector Space.vmem Cert.KernelIdeal.S5120 EltTy.f32)
local notation "s3W" => (Memref.whole Cert.KernelIdeal.cc1_scratch3 : Memref Cert.KernelIdeal.sig Kind.scVector Space.vmem Cert.KernelIdeal.S256x128 EltTy.f32)
local notation "s4W" => (Memref.whole Cert.KernelIdeal.cc1_scratch4 : Memref Cert.KernelIdeal.sig Kind.scVector Space.vmem Cert.KernelIdeal.S256x128 EltTy.f32)
local notation "s5W" => (Memref.whole Cert.KernelIdeal.cc1_scratch5 : Memref Cert.KernelIdeal.sig Kind.scVector Space.vmem Cert.KernelIdeal.S320x128 EltTy.f32)

/-- The source index of a row gather: the named row, the element's own column. -/
theorem gidx (r : Fin 64 → Fin 10240) (e : Fin 64) (c : Fin 128) :
    gathers_S10240x128_S64x128.idx r (ix2 e c) = ix2 (r e) c := by
  funext a
  match a with
  | ⟨0, _⟩ => exact Shape.Gathers.idx_axis gathers_S10240x128_S64x128 r (ix2 e c)
  | ⟨1, h1⟩ => exact Fin.ext ((Shape.Gathers.idx_of_ne gathers_S10240x128_S64x128 r (ix2 e c) ⟨1, h1⟩ (by simp)).trans rfl)

/-- The gather's payload at (e, c) is the source at (row e names, c). -/
theorem gp_apply (g : S10240x128.Idx → EReal) (r : Fin 64 → Fin 10240) (e : Fin 64) (c : Fin 128) :
    SparseCore.gatherPayload (F := Ideal) (e := .f32) gathers_S10240x128_S64x128 g r (ix2 e c) = g (ix2 (r e) c) := by
  unfold SparseCore.gatherPayload; rw [gidx]

/-- A rank-2 view taken whole as a slice of itself reads what the view reads. -/
theorem read_self2 {κ : Kind} {sp : Space} {n0 n1 : Nat} {e : EltTy} (v : View sig κ sp ⟨2, ![n0, n1]⟩ e)
    (inb : ∀ a, (![0, 0] : Fin 2 → Nat) a + (⟨2, ![n0, n1]⟩ : Shape).size a ≤ (⟨2, ![n0, n1]⟩ : Shape).size a)
    (f : v.ty.Contents (Elt Ideal)) (y : (⟨2, ![n0, n1]⟩ : Shape).Idx) :
    (v.slice (Rect.unit (s := ⟨2, ![n0, n1]⟩) ![0, 0] (⟨2, ![n0, n1]⟩ : Shape).size inb)).read (Elt Ideal) f y = v.read (Elt Ideal) f y := by
  have hy : (Rect.unit (s := ⟨2, ![n0, n1]⟩) ![0, 0] (⟨2, ![n0, n1]⟩ : Shape).size inb).emb y = y := by
    funext a
    match a with
    | ⟨0, _⟩ => exact Fin.ext (show 0 + 1 * (y 0).val = (y 0).val by omega)
    | ⟨1, _⟩ => exact Fin.ext (show 0 + 1 * (y 1).val = (y 1).val by omega)
  rw [View.read_apply, View.read_apply]
  show _root_.cast _ (f (v.emb ((Rect.unit (s := ⟨2, ![n0, n1]⟩) ![0, 0] (⟨2, ![n0, n1]⟩ : Shape).size inb).emb y))) = _
  rw [hy]

/-- The row-major inverse at rank one. -/
theorem rowMajor_symm_one {n : Nat} (k : Fin (⟨1, ![n]⟩ : Shape).numel) (hk : k.val < n) :
    (⟨1, ![n]⟩ : Shape).rowMajor.symm k = ix1 ⟨k.val, hk⟩ := by
  rw [Equiv.symm_apply_eq]
  exact Fin.ext ((Shape.rowMajor_val_one (d := ![n]) (ix1 ⟨k.val, hk⟩)).symm)

/-- A 64-entry window of a 5120-entry list stays inside the list. -/
theorem ent_lt {off : Fin 1 → Nat} (h : ∀ a, off a + S64.size a ≤ S5120.size a) {k : Nat} (hk : k < 64) : off 0 + k < 5120 := by
  have h0 : off 0 + 64 ≤ 5120 := h 0
  omega

/-- Entry e of the 64-entry window at off of a list reads the list's entry off + e. -/
theorem read_win1 (m : Memref sig Kind.scVector Space.vmem S5120 EltTy.i32) (off : Fin 1 → Nat) (h : ∀ a, off a + S64.size a ≤ S5120.size a)
    (I : m.view.ty.Contents (Elt Ideal)) (e : Fin 64) :
    (m.slice (Rect.unit (s := S5120) off S64.size h) (fun _ => rfl)).view.read (Elt Ideal) I (ix1 e)
      = m.view.read (Elt Ideal) I (ix1 ⟨off 0 + e.val, ent_lt h e.isLt⟩) := by
  have hy : (Rect.unit (s := S5120) off S64.size h).emb (ix1 e) = ix1 ⟨off 0 + e.val, ent_lt h e.isLt⟩ := by
    funext a
    match a with
    | ⟨0, _⟩ => exact Fin.ext (show off 0 + 1 * e.val = off 0 + e.val by omega)
  rw [View.read_apply, View.read_apply]
  show _root_.cast _ (I (m.view.emb ((Rect.unit (s := S5120) off S64.size h).emb (ix1 e)))) = _
  rw [hy]

/-- The rows an offset window names: entry e is the list's word at off + e. -/
theorem rows_apply (m : Memref sig Kind.scVector Space.vmem S5120 EltTy.i32) (off : Fin 1 → Nat) (h : ∀ a, off a + S64.size a ≤ S5120.size a)
    (I : m.view.ty.Contents (Elt Ideal))
    (hn : S64.numel = S64x128.size gathers_S10240x128_S64x128.axis')
    (hin : ∀ x, ((m.slice (Rect.unit (s := S5120) off S64.size h) (fun _ => rfl)).view.read (Elt Ideal) I x).toNat < S10240x128.size gathers_S10240x128_S64x128.axis)
    (e : Fin 64) :
    (SparseCore.rows (si := S64) ((m.slice (Rect.unit (s := S5120) off S64.size h) (fun _ => rfl)).view.read (Elt Ideal) I) hn hin e).val
      = (m.view.read (Elt Ideal) I (ix1 ⟨off 0 + e.val, ent_lt h e.isLt⟩)).toNat := by
  unfold SparseCore.rows
  show ((m.slice (Rect.unit (s := S5120) off S64.size h) (fun _ => rfl)).view.read (Elt Ideal) I (S64.rowMajor.symm (e.cast hn.symm))).toNat = _
  rw [rowMajor_symm_one (n := 64) (e.cast hn.symm) e.isLt]
  exact congrArg BitVec.toNat (read_win1 m off h I e)

/-- The elements of the 64-row window at row o of the row buffer are those whose row lies in [o, o + 64). -/
theorem win3_mem (o : Nat) (inb : ∀ a, (![o, 0] : Fin 2 → Nat) a + S64x128.size a ≤ S256x128.size a) (i : S256x128.Idx) :
    i ∈ ((s3W).slice (Rect.unit (s := S256x128) ![o, 0] S64x128.size inb) (fun _ => rfl)).view.set ↔ o ≤ (i 0).val ∧ (i 0).val < o + 64 := by
  show i ∈ ((View.whole cc1_scratch3 : View sig Kind.scVector _ _ _).slice (Rect.unit (s := S256x128) ![o, 0] S64x128.size inb)).set ↔ _
  rw [View.set_slice_whole, Rect.mem_set_unit]
  constructor
  · intro hm; exact hm 0
  · intro hm a
    match a with
    | ⟨0, _⟩ => exact hm
    | ⟨1, _⟩ => exact ⟨Nat.zero_le _, (show (i 1).val < 0 + 128 by have := idx2_lt1 i; omega)⟩

/-- The window written whole with a payload g holds, at an element (r, c) of the window, g at (r - o, c), whatever it held before. -/
theorem land_win3 (o : Nat) (inb : ∀ a, (![o, 0] : Fin 2 → Nat) a + S64x128.size a ≤ S256x128.size a)
    (G : FVec Ideal S256x128 .f32) (g : S64x128.Idx → EReal) (i : S256x128.Idx) (hi : i ∈ ((s3W).slice (Rect.unit (s := S256x128) ![o, 0] S64x128.size inb) (fun _ => rfl)).view.set) :
    ((s3W).slice (Rect.unit (s := S256x128) ![o, 0] S64x128.size inb) (fun _ => rfl)).view.writes (Elt Ideal) G [⟨Rect.whole _, g⟩] i
      = g (ix2 ⟨(i 0).val - o, by have := (win3_mem o inb i).mp hi; omega⟩ ⟨(i 1).val, idx2_lt1 i⟩) := by
  have hm := (win3_mem o inb i).mp hi
  have hx : ((s3W).slice (Rect.unit (s := S256x128) ![o, 0] S64x128.size inb) (fun _ => rfl)).view.emb (ix2 (n0 := 64) (n1 := 128) ⟨(i 0).val - o, by omega⟩ ⟨(i 1).val, idx2_lt1 i⟩) = i := by
    funext a
    match a with
    | ⟨0, _⟩ => exact Fin.ext (show o + 1 * ((i 0).val - o) = (i 0).val by omega)
    | ⟨1, _⟩ => exact Fin.ext (show 0 + 1 * (i 1).val = (i 1).val by omega)
  have key := View.read_writes_cons_emb (v := ((s3W).slice (Rect.unit (s := S256x128) ![o, 0] S64x128.size inb) (fun _ => rfl)).view) (Val := Elt Ideal) G (Rect.whole _) g []
    (ix2 (n0 := 64) (n1 := 128) ⟨(i 0).val - o, by omega⟩ ⟨(i 1).val, idx2_lt1 i⟩)
  rw [Rect.emb_whole_apply, View.read_apply, hx] at key
  exact key

/-- WHAT A LANDED ROW GATHER'S WINDOW HOLDS: at an element (r, c) of the window, the table at (the row that entry
    off + (r - o) of the index list names, c). -/
theorem land3 (o : Nat) (inb : ∀ a, (![o, 0] : Fin 2 → Nat) a + S64x128.size a ≤ S256x128.size a)
    (off : Fin 1 → Nat) (h : ∀ a, off a + S64.size a ≤ S5120.size a)
    (G : FVec Ideal S256x128 .f32) (fy : FVec Ideal S10240x128 .f32) (I : Vec Ideal S5120 .i32)
    (hn : S64.numel = S64x128.size gathers_S10240x128_S64x128.axis')
    (hin : ∀ x, (((s0W).slice (Rect.unit (s := S5120) off S64.size h) (fun _ => rfl)).view.read (Elt Ideal) I x).toNat < S10240x128.size gathers_S10240x128_S64x128.axis)
    (i : S256x128.Idx) (hi : i ∈ ((s3W).slice (Rect.unit (s := S256x128) ![o, 0] S64x128.size inb) (fun _ => rfl)).view.set) :
    ((s3W).slice (Rect.unit (s := S256x128) ![o, 0] S64x128.size inb) (fun _ => rfl)).view.writes (Elt Ideal) G
        [⟨Rect.whole _, SparseCore.gatherPayload gathers_S10240x128_S64x128 (((y1W).slice (Rect.unit (s := S10240x128) ![0, 0] S10240x128.size inb_S10240x128_S10240x128_0_0) (fun _ => rfl)).view.read (Elt Ideal) fy)
          (SparseCore.rows (((s0W).slice (Rect.unit (s := S5120) off S64.size h) (fun _ => rfl)).view.read (Elt Ideal) I) hn hin)⟩] i
      = fy (ix2 (rowOf (I (ix1 ⟨off 0 + ((i 0).val - o), ent_lt h (by have := (win3_mem o inb i).mp hi; omega)⟩))) (i 1)) := by
  have hm := (win3_mem o inb i).mp hi
  have he : (i 0).val - o < 64 := by omega
  refine (land_win3 o inb G _ i hi).trans ?_
  refine (gp_apply _ _ ⟨(i 0).val - o, he⟩ ⟨(i 1).val, idx2_lt1 i⟩).trans ?_
  refine (read_self2 (y1W).view inb_S10240x128_S10240x128_0_0 fy _).trans ?_
  have hlt : ((s0W).view.read (Elt Ideal) I (ix1 ⟨off 0 + ((i 0).val - o), ent_lt h he⟩)).toNat < 10240 :=
    lt_of_eq_of_lt (congrArg BitVec.toNat (read_win1 (s0W) off h I ⟨(i 0).val - o, he⟩).symm) (hin (ix1 ⟨(i 0).val - o, he⟩))
  have hr : SparseCore.rows (((s0W).slice (Rect.unit (s := S5120) off S64.size h) (fun _ => rfl)).view.read (Elt Ideal) I) hn hin ⟨(i 0).val - o, he⟩
      = rowOf (I (ix1 ⟨off 0 + ((i 0).val - o), ent_lt h he⟩)) :=
    Fin.ext ((rows_apply (s0W) off h I hn hin ⟨(i 0).val - o, he⟩).trans (Nat.mod_eq_of_lt hlt).symm)
  exact congrArg (fun r : Fin 10240 => fy (ix2 r ⟨(i 1).val, idx2_lt1 i⟩)) hr

/-- The same as a step on what the tile holds: the window at the copy's payload is the window at any R that agrees, on
    the window, with the table's rows the list entries name. -/
theorem landE3 : LandE3 := by
  intro d L o inb G fy I off h hn hin R hR
  refine Entails.of_eq (pointsTo_congr fun i hi => ?_)
  have hm := (win3_mem o inb i).mp hi
  have he : (i 0).val - o < 64 := by omega
  refine (land3 o inb off h G fy I hn hin i hi).trans (Eq.trans ?_ (hR i hm.1 hm.2))
  exact congrArg (fun k : Fin 5120 => fy (ix2 (rowOf (I (ix1 k))) (i 1)))
    (Fin.ext (Nat.mod_eq_of_lt (ent_lt h he)).symm)

/-- The elements of the 64-row window at row o of the row buffer are those whose row lies in [o, o + 64). -/
theorem win4_mem (o : Nat) (inb : ∀ a, (![o, 0] : Fin 2 → Nat) a + S64x128.size a ≤ S256x128.size a) (i : S256x128.Idx) :
    i ∈ ((s4W).slice (Rect.unit (s := S256x128) ![o, 0] S64x128.size inb) (fun _ => rfl)).view.set ↔ o ≤ (i 0).val ∧ (i 0).val < o + 64 := by
  show i ∈ ((View.whole cc1_scratch4 : View sig Kind.scVector _ _ _).slice (Rect.unit (s := S256x128) ![o, 0] S64x128.size inb)).set ↔ _
  rw [View.set_slice_whole, Rect.mem_set_unit]
  constructor
  · intro hm; exact hm 0
  · intro hm a
    match a with
    | ⟨0, _⟩ => exact hm
    | ⟨1, _⟩ => exact ⟨Nat.zero_le _, (show (i 1).val < 0 + 128 by have := idx2_lt1 i; omega)⟩

/-- The window written whole with a payload g holds, at an element (r, c) of the window, g at (r - o, c), whatever it held before. -/
theorem land_win4 (o : Nat) (inb : ∀ a, (![o, 0] : Fin 2 → Nat) a + S64x128.size a ≤ S256x128.size a)
    (G : FVec Ideal S256x128 .f32) (g : S64x128.Idx → EReal) (i : S256x128.Idx) (hi : i ∈ ((s4W).slice (Rect.unit (s := S256x128) ![o, 0] S64x128.size inb) (fun _ => rfl)).view.set) :
    ((s4W).slice (Rect.unit (s := S256x128) ![o, 0] S64x128.size inb) (fun _ => rfl)).view.writes (Elt Ideal) G [⟨Rect.whole _, g⟩] i
      = g (ix2 ⟨(i 0).val - o, by have := (win4_mem o inb i).mp hi; omega⟩ ⟨(i 1).val, idx2_lt1 i⟩) := by
  have hm := (win4_mem o inb i).mp hi
  have hx : ((s4W).slice (Rect.unit (s := S256x128) ![o, 0] S64x128.size inb) (fun _ => rfl)).view.emb (ix2 (n0 := 64) (n1 := 128) ⟨(i 0).val - o, by omega⟩ ⟨(i 1).val, idx2_lt1 i⟩) = i := by
    funext a
    match a with
    | ⟨0, _⟩ => exact Fin.ext (show o + 1 * ((i 0).val - o) = (i 0).val by omega)
    | ⟨1, _⟩ => exact Fin.ext (show 0 + 1 * (i 1).val = (i 1).val by omega)
  have key := View.read_writes_cons_emb (v := ((s4W).slice (Rect.unit (s := S256x128) ![o, 0] S64x128.size inb) (fun _ => rfl)).view) (Val := Elt Ideal) G (Rect.whole _) g []
    (ix2 (n0 := 64) (n1 := 128) ⟨(i 0).val - o, by omega⟩ ⟨(i 1).val, idx2_lt1 i⟩)
  rw [Rect.emb_whole_apply, View.read_apply, hx] at key
  exact key

/-- WHAT A LANDED ROW GATHER'S WINDOW HOLDS: at an element (r, c) of the window, the table at (the row that entry
    off + (r - o) of the index list names, c). -/
theorem land4 (o : Nat) (inb : ∀ a, (![o, 0] : Fin 2 → Nat) a + S64x128.size a ≤ S256x128.size a)
    (off : Fin 1 → Nat) (h : ∀ a, off a + S64.size a ≤ S5120.size a)
    (G : FVec Ideal S256x128 .f32) (fy : FVec Ideal S10240x128 .f32) (I : Vec Ideal S5120 .i32)
    (hn : S64.numel = S64x128.size gathers_S10240x128_S64x128.axis')
    (hin : ∀ x, (((s1W).slice (Rect.unit (s := S5120) off S64.size h) (fun _ => rfl)).view.read (Elt Ideal) I x).toNat < S10240x128.size gathers_S10240x128_S64x128.axis)
    (i : S256x128.Idx) (hi : i ∈ ((s4W).slice (Rect.unit (s := S256x128) ![o, 0] S64x128.size inb) (fun _ => rfl)).view.set) :
    ((s4W).slice (Rect.unit (s := S256x128) ![o, 0] S64x128.size inb) (fun _ => rfl)).view.writes (Elt Ideal) G
        [⟨Rect.whole _, SparseCore.gatherPayload gathers_S10240x128_S64x128 (((y2W).slice (Rect.unit (s := S10240x128) ![0, 0] S10240x128.size inb_S10240x128_S10240x128_0_0) (fun _ => rfl)).view.read (Elt Ideal) fy)
          (SparseCore.rows (((s1W).slice (Rect.unit (s := S5120) off S64.size h) (fun _ => rfl)).view.read (Elt Ideal) I) hn hin)⟩] i
      = fy (ix2 (rowOf (I (ix1 ⟨off 0 + ((i 0).val - o), ent_lt h (by have := (win4_mem o inb i).mp hi; omega)⟩))) (i 1)) := by
  have hm := (win4_mem o inb i).mp hi
  have he : (i 0).val - o < 64 := by omega
  refine (land_win4 o inb G _ i hi).trans ?_
  refine (gp_apply _ _ ⟨(i 0).val - o, he⟩ ⟨(i 1).val, idx2_lt1 i⟩).trans ?_
  refine (read_self2 (y2W).view inb_S10240x128_S10240x128_0_0 fy _).trans ?_
  have hlt : ((s1W).view.read (Elt Ideal) I (ix1 ⟨off 0 + ((i 0).val - o), ent_lt h he⟩)).toNat < 10240 :=
    lt_of_eq_of_lt (congrArg BitVec.toNat (read_win1 (s1W) off h I ⟨(i 0).val - o, he⟩).symm) (hin (ix1 ⟨(i 0).val - o, he⟩))
  have hr : SparseCore.rows (((s1W).slice (Rect.unit (s := S5120) off S64.size h) (fun _ => rfl)).view.read (Elt Ideal) I) hn hin ⟨(i 0).val - o, he⟩
      = rowOf (I (ix1 ⟨off 0 + ((i 0).val - o), ent_lt h he⟩)) :=
    Fin.ext ((rows_apply (s1W) off h I hn hin ⟨(i 0).val - o, he⟩).trans (Nat.mod_eq_of_lt hlt).symm)
  exact congrArg (fun r : Fin 10240 => fy (ix2 r ⟨(i 1).val, idx2_lt1 i⟩)) hr

/-- The same as a step on what the tile holds: the window at the copy's payload is the window at any R that agrees, on
    the window, with the table's rows the list entries name. -/
theorem landE4 : LandE4 := by
  intro d L o inb G fy I off h hn hin R hR
  refine Entails.of_eq (pointsTo_congr fun i hi => ?_)
  have hm := (win4_mem o inb i).mp hi
  have he : (i 0).val - o < 64 := by omega
  refine (land4 o inb off h G fy I hn hin i hi).trans (Eq.trans ?_ (hR i hm.1 hm.2))
  exact congrArg (fun k : Fin 5120 => fy (ix2 (rowOf (I (ix1 k))) (i 1)))
    (Fin.ext (Nat.mod_eq_of_lt (ent_lt h he)).symm)

end Cert.Proof.KIval

end
-- ==== Proof.TileCoreVFinalI.lean ====
/-
  The tile's whole task with its value, from its pieces: the two compute loops' trips, what the indexed copies land, what the three
  fetches and the write-back land, and the agreement of a scratch row's value with its node's.
-/
import proofs.«205997_g24756191494465_cont_8to1_1595_42_alg».proof.Proof.TileCoreValI
import proofs.«205997_g24756191494465_cont_8to1_1595_42_alg».proof.Proof.InnerValI
import proofs.«205997_g24756191494465_cont_8to1_1595_42_alg».proof.Proof.GatherValI
import proofs.«205997_g24756191494465_cont_8to1_1595_42_alg».proof.Proof.TileEndValI

noncomputable section

namespace Cert.Proof.KIval

open Cert.KernelIdeal Cert.KernelIdeal.Gen
open Idealize.ShloMosaic
open Cert.Proof.KI

/-- The three fetches land the tile's entries of the flat arrays. -/
theorem fetch0 : Fetch0 := fun _ L g0 fi j => fetched0 L g0 fi _ rfl j
theorem fetch1 : Fetch1 := fun _ L g1 fj j => fetched1 L g1 fj _ rfl j
theorem fetch2 : Fetch2 := fun _ L g2 fs j => fetched2 L g2 fs _ rfl j

/-- The write-back lands the scratch's rows at the tile's nodes. -/
theorem writeBack : WriteBack := fun _ L fo G5 r o => wb_scratch L fo G5 _ rfl r o

/-- A scratch row's value from the fetched slices is its node's value from the flat arrays. -/
theorem outLocalEq : OutLocalEq := fun L fy1 fy2 fi fj fs I0 I1 G2 h0 h1 h2 r o =>
  out_local_eq L fy1 fy2 fi fj fs I0 I1 G2 h0 h1 h2 r o

/-- THE TILE'S TASK WITH ITS VALUE. -/
theorem tileCoreV : TileCoreV :=
  tile_core_val inner0_trip_val inner1_trip_val landE3 landE4 fetch0 fetch1 fetch2 writeBack outLocalEq

end Cert.Proof.KIval

end
-- ==== Proof.KernelValueI.lean ====
/-
  The kernel's value: the kernel region's contents and the tile's task with its value give, under the precondition, the result array
  at the specification's result of the inputs, the eight inputs unchanged.
-/
import proofs.«205997_g24756191494465_cont_8to1_1595_42_alg».proof.Proof.RunValI
import proofs.«205997_g24756191494465_cont_8to1_1595_42_alg».proof.Proof.RegionValMainI
import proofs.«205997_g24756191494465_cont_8to1_1595_42_alg».proof.Proof.TileCoreVFinalI

noncomputable section

namespace Cert.Proof.KIval

/-- THE KERNEL'S VALUE. -/
theorem kernelValue_holds : Cert.Proof.Alg.KernelValue := kernelValue (fun m => regionVal m) tileCoreV

end Cert.Proof.KIval

end
-- ==== Proof.lean ====
/-
  The certificate's claim for a graph layer on the SparseCore.

  The layer.  Over 10000 nodes with 16 neighbours each, edge (n, k) joins i = edge_index[1][n, k] and j = edge_index[0][n, k].  Its
  feature is relu (W · [x_i ; x_j - x_i] + b), damped by 2 · logistic (-dis[n,k] · (tanh (Σ_k dis[n,k] · att_W[k] + att_b) + 1)); a
  node's value is the maximum of its sixteen damped features.

  The kernel.  Splitting W = [W₁ | W₂] by columns, W · [x_i ; x_j - x_i] = (W₁ - W₂) · x_i + W₂ · x_j.  A TensorCore pipeline of twenty
  points computes the node tables y1 = (W₁ - W₂) · x + b and y2 = W₂ · x (rows padded to 10240) and the damping factors; 32 vector
  subcores then each take 320 nodes: a tile fetches its slices of the two edge lists and of the factors, and for groups of eight nodes
  copies the 128 + 128 table rows the group's edges name into one of two slots of its row buffers (four indexed copies, one semaphore
  each) while it computes the previous group out of the other slot; a node's row is relu (y1[i] + y2[j]) · factor maximised over its
  edges, started from zero; the tile writes its 320 rows back.

  The frames.  Each program runs to its end, faults nowhere, and leaves its eight inputs unchanged.  For the two kernel programs (the
  word-level one and the idealized one) the argument is one, generic in the float instance: the launch theorem of a SparseCore program,
  the TensorCore's pipeline region entered inside @main, and the tile's task run at a symbolic tile — three fetches; the outer loop by an
  invariant that holds the next group's four copies in flight; the two inner loops one node per trip; the write-back.  Every indexed copy
  is in range because the fetched edge lists name rows of the tables (the precondition's range 0 … 9999 lies below the tables' 10240
  rows).  The reference's frame is its run with the result's value dropped.

  The idealization rewrote no operation, so it preserves the word-level program as it stands.

  The value.  The reference's result is the specification's `res` of the inputs wherever the float inputs are real numbers and the edge
  list lies in range: the weights split by columns (distributivity, which is where the inputs must be real), and a maximum of nonnegative
  terms may start from zero (relu · 2 · logistic ≥ 0).  So the two programs agree as soon as the idealized kernel's run leaves the same
  `res` in its result (`Alg.KernelValue`, `Alg.algebraic_of`).  It does: the host operations before the pipeline, read at an index, give
  the padded x, W₁ - W₂, W₂, b and the padded factors' input; each grid point's three stored blocks are, at an index, the specification's
  y1, y2 and damping factor at node 512·t + r, and the blocks cover the tables; the flat edge lists are edge_index's two rows with zeros
  on the padding.  In a tile, a landed indexed copy holds in its window the table rows its 64 list entries name; a compute loop's trip
  stores, for its node, the sixteen-fold maximum of max (r1 + r2) 0 · factor started from zero, and leaves every other row of the output
  scratch as it was; so after trip k the rows below 16·(k+1) are done, after the last trip all 320, and the write-back puts row r at node
  320·w + r.  With the tables, lists and factors at the specification's values that sixteen-fold maximum is the specification's `out`,
  and the last three host operations (slice, transpose, reshape) read it back as `res`.
-/
import proofs.«205997_g24756191494465_cont_8to1_1595_42_alg».proof.Defs
import proofs.«205997_g24756191494465_cont_8to1_1595_42_alg».proof.Proof.Gen.Kernel
import proofs.«205997_g24756191494465_cont_8to1_1595_42_alg».proof.Proof.Gen.KernelIdeal
import proofs.«205997_g24756191494465_cont_8to1_1595_42_alg».proof.Proof.Gen.ReferenceIdeal
import proofs.«205997_g24756191494465_cont_8to1_1595_42_alg».proof.Proof.Gen.Pre_input_domain
import proofs.«205997_g24756191494465_cont_8to1_1595_42_alg».proof.Proof.RefFrame
import proofs.«205997_g24756191494465_cont_8to1_1595_42_alg».proof.Proof.FramesI
import proofs.«205997_g24756191494465_cont_8to1_1595_42_alg».proof.Proof.FramesB
import proofs.«205997_g24756191494465_cont_8to1_1595_42_alg».proof.Proof.AlgebraicI
import proofs.«205997_g24756191494465_cont_8to1_1595_42_alg».proof.Proof.KernelValueI

noncomputable section

namespace Cert.Proof

open Idealize.ShloMosaic Idealize.SL.Sem

/-- The idealized kernel's run leaves the specification's `res` of the inputs in its result array, the inputs unchanged. -/
theorem kernelValue : Alg.KernelValue := Cert.Proof.KIval.kernelValue_holds

theorem claim : Cert.Claim :=
  ⟨Cert.Kernel.Gen.facts, Cert.KernelIdeal.Gen.facts, Cert.ReferenceIdeal.Gen.facts, Cert.Pre_input_domain.Gen.facts,
    Cert.Proof.KB.frame_KB, Cert.Proof.KI.frame_KI, Cert.Proof.Ref.frame_ri, trivial, Alg.algebraic_of kernelValue⟩

end Cert.Proof

end
